-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : IVec S16384 32) (main_arg1 : IVec S16384 32) (main_arg2 : FVec F S1000000x32 .f32) (main_arg3 : FVec F S1000000x32 .f32) : IVec S_ 1 :=
  let main_v0 : FVec F S1000000x32 .f32 := Host.absf main_arg2
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384 : Shape := ⟨1, ![16384]⟩
abbrev S1000000x32 : Shape := ⟨2, ![1000000, 32]⟩
abbrev S125000x8x32 : Shape := ⟨3, ![125000, 8, 32]⟩
abbrev S16384x32 : Shape := ⟨2, ![16384, 32]⟩
abbrev S512 : Shape := ⟨1, ![512]⟩
abbrev S2x16x8x32 : Shape := ⟨4, ![2, 16, 8, 32]⟩
abbrev S2x2x8x32 : Shape := ⟨4, ![2, 2, 8, 32]⟩
abbrev S_ : Shape := ⟨0, ![]⟩
abbrev S16 : Shape := ⟨1, ![16]⟩
abbrev S1 : Shape := ⟨1, ![1]⟩
abbrev S1x16x8x32 : Shape := ⟨4, ![1, 16, 8, 32]⟩
abbrev S16x8x32 : Shape := ⟨3, ![16, 8, 32]⟩
abbrev S1x8x32 : Shape := ⟨3, ![1, 8, 32]⟩
abbrev S1x2x8x32 : Shape := ⟨4, ![1, 2, 8, 32]⟩
abbrev S2x8x32 : Shape := ⟨3, ![2, 8, 32]⟩
abbrev S2048x8x32 : Shape := ⟨3, ![2048, 8, 32]⟩

abbrev nBuf : Table → Nat
  | .hbm => 7
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S125000x8x32, .f32⟩
  | .hbm, ⟨5, _⟩ => ⟨S125000x8x32, .f32⟩
  | .hbm, ⟨6, _⟩ => ⟨S16384x32, .f32⟩
  | .local .scVector .vmem, ⟨0, _⟩ => ⟨S512, .i32⟩
  | .local .scVector .vmem, ⟨1, _⟩ => ⟨S512, .i32⟩
  | .local .scVector .vmem, ⟨2, _⟩ => ⟨S2x16x8x32, .f32⟩
  | .local .scVector .vmem, ⟨3, _⟩ => ⟨S2x16x8x32, .f32⟩
  | .local .scVector .vmem, ⟨4, _⟩ => ⟨S2x2x8x32, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (v11 : BitVec 32) : Fin 3 → Nat :=
  let c0_i32_8 : BitVec 32 := 0#32
  let c0_i32_9 : BitVec 32 := 0#32
  ![v11.toNat, 0, 0]

def k0_chk1 (v11 : BitVec 32) : Prop :=
  (∀ a, (k0_off2 v11) a + S1x8x32.size a ≤ S125000x8x32.size a)
instance k0_chk1.dec : ∀ (v11 : BitVec 32), Decidable (k0_chk1 v11) := fun v11 => decidable_of_iff' _ (Iff.of_eq (k0_chk1.eq_1 v11))
theorem k0_off2_inb : ∀ (v11 : BitVec 32) (k0_hw1 : k0_chk1 v11), ∀ a, (k0_off2 v11) a + S1x8x32.size a ≤ S125000x8x32.size a := fun v11 k0_hw1 => k0_hw1

def k0_off3 (v21 : BitVec 32) : Fin 3 → Nat :=
  let c0_i32_25 : BitVec 32 := 0#32
  let c0_i32_26 : BitVec 32 := 0#32
  ![v21.toNat, 0, 0]

def k0_chk2 (v21 : BitVec 32) : Prop :=
  (∀ a, (k0_off3 v21) a + S1x8x32.size a ≤ S125000x8x32.size a)
instance k0_chk2.dec : ∀ (v21 : BitVec 32), Decidable (k0_chk2 v21) := fun v21 => decidable_of_iff' _ (Iff.of_eq (k0_chk2.eq_1 v21))
theorem k0_off3_inb : ∀ (v21 : BitVec 32) (k0_hw2 : k0_chk2 v21), ∀ a, (k0_off3 v21) a + S1x8x32.size a ≤ S125000x8x32.size a := fun v21 k0_hw2 => k0_hw2

def k0_off4 (v31 : BitVec 32) : Fin 3 → Nat :=
  let c0_i32_41 : BitVec 32 := 0#32
  let c0_i32_42 : BitVec 32 := 0#32
  ![v31.toNat, 0, 0]

def k0_chk3 (v31 : BitVec 32) : Prop :=
  (∀ a, (k0_off4 v31) a + S1x8x32.size a ≤ S125000x8x32.size a)
instance k0_chk3.dec : ∀ (v31 : BitVec 32), Decidable (k0_chk3 v31) := fun v31 => decidable_of_iff' _ (Iff.of_eq (k0_chk3.eq_1 v31))
theorem k0_off4_inb : ∀ (v31 : BitVec 32) (k0_hw3 : k0_chk3 v31), ∀ a, (k0_off4 v31) a + S1x8x32.size a ≤ S125000x8x32.size a := fun v31 k0_hw3 => k0_hw3

def k0_off5 (v41 : BitVec 32) : Fin 3 → Nat :=
  let c0_i32_58 : BitVec 32 := 0#32
  let c0_i32_59 : BitVec 32 := 0#32
  ![v41.toNat, 0, 0]

def k0_chk4 (v41 : BitVec 32) : Prop :=
  (∀ a, (k0_off5 v41) a + S1x8x32.size a ≤ S125000x8x32.size a)
instance k0_chk4.dec : ∀ (v41 : BitVec 32), Decidable (k0_chk4 v41) := fun v41 => decidable_of_iff' _ (Iff.of_eq (k0_chk4.eq_1 v41))
theorem k0_off5_inb : ∀ (v41 : BitVec 32) (k0_hw4 : k0_chk4 v41), ∀ a, (k0_off5 v41) a + S1x8x32.size a ≤ S125000x8x32.size a := fun v41 k0_hw4 => k0_hw4

def k0_off6 (v51 : BitVec 32) : Fin 3 → Nat :=
  let c0_i32_75 : BitVec 32 := 0#32
  let c0_i32_76 : BitVec 32 := 0#32
  ![v51.toNat, 0, 0]

def k0_chk5 (v51 : BitVec 32) : Prop :=
  (∀ a, (k0_off6 v51) a + S1x8x32.size a ≤ S125000x8x32.size a)
instance k0_chk5.dec : ∀ (v51 : BitVec 32), Decidable (k0_chk5 v51) := fun v51 => decidable_of_iff' _ (Iff.of_eq (k0_chk5.eq_1 v51))
theorem k0_off6_inb : ∀ (v51 : BitVec 32) (k0_hw5 : k0_chk5 v51), ∀ a, (k0_off6 v51) a + S1x8x32.size a ≤ S125000x8x32.size a := fun v51 k0_hw5 => k0_hw5

def k0_off7 (v61 : BitVec 32) : Fin 3 → Nat :=
  let c0_i32_92 : BitVec 32 := 0#32
  let c0_i32_93 : BitVec 32 := 0#32
  ![v61.toNat, 0, 0]

def k0_chk6 (v61 : BitVec 32) : Prop :=
  (∀ a, (k0_off7 v61) a + S1x8x32.size a ≤ S125000x8x32.size a)
instance k0_chk6.dec : ∀ (v61 : BitVec 32), Decidable (k0_chk6 v61) := fun v61 => decidable_of_iff' _ (Iff.of_eq (k0_chk6.eq_1 v61))
theorem k0_off7_inb : ∀ (v61 : BitVec 32) (k0_hw6 : k0_chk6 v61), ∀ a, (k0_off7 v61) a + S1x8x32.size a ≤ S125000x8x32.size a := fun v61 k0_hw6 => k0_hw6

def k0_off8 (v71 : BitVec 32) : Fin 3 → Nat :=
  let c0_i32_109 : BitVec 32 := 0#32
  let c0_i32_110 : BitVec 32 := 0#32
  ![v71.toNat, 0, 0]

def k0_chk7 (v71 : BitVec 32) : Prop :=
  (∀ a, (k0_off8 v71) a + S1x8x32.size a ≤ S125000x8x32.size a)
instance k0_chk7.dec : ∀ (v71 : BitVec 32), Decidable (k0_chk7 v71) := fun v71 => decidable_of_iff' _ (Iff.of_eq (k0_chk7.eq_1 v71))
theorem k0_off8_inb : ∀ (v71 : BitVec 32) (k0_hw7 : k0_chk7 v71), ∀ a, (k0_off8 v71) a + S1x8x32.size a ≤ S125000x8x32.size a := fun v71 k0_hw7 => k0_hw7

def k0_off9 (v81 : BitVec 32) : Fin 3 → Nat :=
  let c0_i32_126 : BitVec 32 := 0#32
  let c0_i32_127 : BitVec 32 := 0#32
  ![v81.toNat, 0, 0]

def k0_chk8 (v81 : BitVec 32) : Prop :=
  (∀ a, (k0_off9 v81) a + S1x8x32.size a ≤ S125000x8x32.size a)
instance k0_chk8.dec : ∀ (v81 : BitVec 32), Decidable (k0_chk8 v81) := fun v81 => decidable_of_iff' _ (Iff.of_eq (k0_chk8.eq_1 v81))
theorem k0_off9_inb : ∀ (v81 : BitVec 32) (k0_hw8 : k0_chk8 v81), ∀ a, (k0_off9 v81) a + S1x8x32.size a ≤ S125000x8x32.size a := fun v81 k0_hw8 => k0_hw8

def k0_off10 (v91 : BitVec 32) : Fin 3 → Nat :=
  let c0_i32_142 : BitVec 32 := 0#32
  let c0_i32_143 : BitVec 32 := 0#32
  ![v91.toNat, 0, 0]

def k0_chk9 (v91 : BitVec 32) : Prop :=
  (∀ a, (k0_off10 v91) a + S1x8x32.size a ≤ S125000x8x32.size a)
instance k0_chk9.dec : ∀ (v91 : BitVec 32), Decidable (k0_chk9 v91) := fun v91 => decidable_of_iff' _ (Iff.of_eq (k0_chk9.eq_1 v91))
theorem k0_off10_inb : ∀ (v91 : BitVec 32) (k0_hw9 : k0_chk9 v91), ∀ a, (k0_off10 v91) a + S1x8x32.size a ≤ S125000x8x32.size a := fun v91 k0_hw9 => k0_hw9

def k0_off11 (v101 : BitVec 32) : Fin 3 → Nat :=
  let c0_i32_159 : BitVec 32 := 0#32
  let c0_i32_160 : BitVec 32 := 0#32
  ![v101.toNat, 0, 0]

def k0_chk10 (v101 : BitVec 32) : Prop :=
  (∀ a, (k0_off11 v101) a + S1x8x32.size a ≤ S125000x8x32.size a)
instance k0_chk10.dec : ∀ (v101 : BitVec 32), Decidable (k0_chk10 v101) := fun v101 => decidable_of_iff' _ (Iff.of_eq (k0_chk10.eq_1 v101))
theorem k0_off11_inb : ∀ (v101 : BitVec 32) (k0_hw10 : k0_chk10 v101), ∀ a, (k0_off11 v101) a + S1x8x32.size a ≤ S125000x8x32.size a := fun v101 k0_hw10 => k0_hw10

def k0_off12 (v111 : BitVec 32) : Fin 3 → Nat :=
  let c0_i32_175 : BitVec 32 := 0#32
  let c0_i32_176 : BitVec 32 := 0#32
  ![v111.toNat, 0, 0]

def k0_chk11 (v111 : BitVec 32) : Prop :=
  (∀ a, (k0_off12 v111) a + S1x8x32.size a ≤ S125000x8x32.size a)
instance k0_chk11.dec : ∀ (v111 : BitVec 32), Decidable (k0_chk11 v111) := fun v111 => decidable_of_iff' _ (Iff.of_eq (k0_chk11.eq_1 v111))
theorem k0_off12_inb : ∀ (v111 : BitVec 32) (k0_hw11 : k0_chk11 v111), ∀ a, (k0_off12 v111) a + S1x8x32.size a ≤ S125000x8x32.size a := fun v111 k0_hw11 => k0_hw11

def k0_off13 (v121 : BitVec 32) : Fin 3 → Nat :=
  let c0_i32_192 : BitVec 32 := 0#32
  let c0_i32_193 : BitVec 32 := 0#32
  ![v121.toNat, 0, 0]

def k0_chk12 (v121 : BitVec 32) : Prop :=
  (∀ a, (k0_off13 v121) a + S1x8x32.size a ≤ S125000x8x32.size a)
instance k0_chk12.dec : ∀ (v121 : BitVec 32), Decidable (k0_chk12 v121) := fun v121 => decidable_of_iff' _ (Iff.of_eq (k0_chk12.eq_1 v121))
theorem k0_off13_inb : ∀ (v121 : BitVec 32) (k0_hw12 : k0_chk12 v121), ∀ a, (k0_off13 v121) a + S1x8x32.size a ≤ S125000x8x32.size a := fun v121 k0_hw12 => k0_hw12

def k0_off14 (v131 : BitVec 32) : Fin 3 → Nat :=
  let c0_i32_208 : BitVec 32 := 0#32
  let c0_i32_209 : BitVec 32 := 0#32
  ![v131.toNat, 0, 0]

def k0_chk13 (v131 : BitVec 32) : Prop :=
  (∀ a, (k0_off14 v131) a + S1x8x32.size a ≤ S125000x8x32.size a)
instance k0_chk13.dec : ∀ (v131 : BitVec 32), Decidable (k0_chk13 v131) := fun v131 => decidable_of_iff' _ (Iff.of_eq (k0_chk13.eq_1 v131))
theorem k0_off14_inb : ∀ (v131 : BitVec 32) (k0_hw13 : k0_chk13 v131), ∀ a, (k0_off14 v131) a + S1x8x32.size a ≤ S125000x8x32.size a := fun v131 k0_hw13 => k0_hw13

def k0_off15 (v141 : BitVec 32) : Fin 3 → Nat :=
  let c0_i32_225 : BitVec 32 := 0#32
  let c0_i32_226 : BitVec 32 := 0#32
  ![v141.toNat, 0, 0]

def k0_chk14 (v141 : BitVec 32) : Prop :=
  (∀ a, (k0_off15 v141) a + S1x8x32.size a ≤ S125000x8x32.size a)
instance k0_chk14.dec : ∀ (v141 : BitVec 32), Decidable (k0_chk14 v141) := fun v141 => decidable_of_iff' _ (Iff.of_eq (k0_chk14.eq_1 v141))
theorem k0_off15_inb : ∀ (v141 : BitVec 32) (k0_hw14 : k0_chk14 v141), ∀ a, (k0_off15 v141) a + S1x8x32.size a ≤ S125000x8x32.size a := fun v141 k0_hw14 => k0_hw14

def k0_off16 (v151 : BitVec 32) : Fin 3 → Nat :=
  let c0_i32_241 : BitVec 32 := 0#32
  let c0_i32_242 : BitVec 32 := 0#32
  ![v151.toNat, 0, 0]

def k0_chk15 (v151 : BitVec 32) : Prop :=
  (∀ a, (k0_off16 v151) a + S1x8x32.size a ≤ S125000x8x32.size a)
instance k0_chk15.dec : ∀ (v151 : BitVec 32), Decidable (k0_chk15 v151) := fun v151 => decidable_of_iff' _ (Iff.of_eq (k0_chk15.eq_1 v151))
theorem k0_off16_inb : ∀ (v151 : BitVec 32) (k0_hw15 : k0_chk15 v151), ∀ a, (k0_off16 v151) a + S1x8x32.size a ≤ S125000x8x32.size a := fun v151 k0_hw15 => k0_hw15

def k0_off17 (v161 : BitVec 32) : Fin 3 → Nat :=
  let c0_i32_258 : BitVec 32 := 0#32
  let c0_i32_259 : BitVec 32 := 0#32
  ![v161.toNat, 0, 0]

def k0_chk16 (v161 : BitVec 32) : Prop :=
  (∀ a, (k0_off17 v161) a + S1x8x32.size a ≤ S125000x8x32.size a)
instance k0_chk16.dec : ∀ (v161 : BitVec 32), Decidable (k0_chk16 v161) := fun v161 => decidable_of_iff' _ (Iff.of_eq (k0_chk16.eq_1 v161))
theorem k0_off17_inb : ∀ (v161 : BitVec 32) (k0_hw16 : k0_chk16 v161), ∀ a, (k0_off17 v161) a + S1x8x32.size a ≤ S125000x8x32.size a := fun v161 k0_hw16 => k0_hw16

def k0_off18 (v171 : BitVec 32) : Fin 3 → Nat :=
  let c0_i32_274 : BitVec 32 := 0#32
  let c0_i32_275 : BitVec 32 := 0#32
  ![v171.toNat, 0, 0]

def k0_chk17 (v171 : BitVec 32) : Prop :=
  (∀ a, (k0_off18 v171) a + S1x8x32.size a ≤ S125000x8x32.size a)
instance k0_chk17.dec : ∀ (v171 : BitVec 32), Decidable (k0_chk17 v171) := fun v171 => decidable_of_iff' _ (Iff.of_eq (k0_chk17.eq_1 v171))
theorem k0_off18_inb : ∀ (v171 : BitVec 32) (k0_hw17 : k0_chk17 v171), ∀ a, (k0_off18 v171) a + S1x8x32.size a ≤ S125000x8x32.size a := fun v171 k0_hw17 => k0_hw17

def k0_off19 (v181 : BitVec 32) : Fin 3 → Nat :=
  let c0_i32_291 : BitVec 32 := 0#32
  let c0_i32_292 : BitVec 32 := 0#32
  ![v181.toNat, 0, 0]

def k0_chk18 (v181 : BitVec 32) : Prop :=
  (∀ a, (k0_off19 v181) a + S1x8x32.size a ≤ S125000x8x32.size a)
instance k0_chk18.dec : ∀ (v181 : BitVec 32), Decidable (k0_chk18 v181) := fun v181 => decidable_of_iff' _ (Iff.of_eq (k0_chk18.eq_1 v181))
theorem k0_off19_inb : ∀ (v181 : BitVec 32) (k0_hw18 : k0_chk18 v181), ∀ a, (k0_off19 v181) a + S1x8x32.size a ≤ S125000x8x32.size a := fun v181 k0_hw18 => k0_hw18

def k0_off20 (v191 : BitVec 32) : Fin 3 → Nat :=
  let c0_i32_307 : BitVec 32 := 0#32
  let c0_i32_308 : BitVec 32 := 0#32
  ![v191.toNat, 0, 0]

def k0_chk19 (v191 : BitVec 32) : Prop :=
  (∀ a, (k0_off20 v191) a + S1x8x32.size a ≤ S125000x8x32.size a)
instance k0_chk19.dec : ∀ (v191 : BitVec 32), Decidable (k0_chk19 v191) := fun v191 => decidable_of_iff' _ (Iff.of_eq (k0_chk19.eq_1 v191))
theorem k0_off20_inb : ∀ (v191 : BitVec 32) (k0_hw19 : k0_chk19 v191), ∀ a, (k0_off20 v191) a + S1x8x32.size a ≤ S125000x8x32.size a := fun v191 k0_hw19 => k0_hw19

def k0_off21 (v201 : BitVec 32) : Fin 3 → Nat :=
  let c0_i32_324 : BitVec 32 := 0#32
  let c0_i32_325 : BitVec 32 := 0#32
  ![v201.toNat, 0, 0]

def k0_chk20 (v201 : BitVec 32) : Prop :=
  (∀ a, (k0_off21 v201) a + S1x8x32.size a ≤ S125000x8x32.size a)
instance k0_chk20.dec : ∀ (v201 : BitVec 32), Decidable (k0_chk20 v201) := fun v201 => decidable_of_iff' _ (Iff.of_eq (k0_chk20.eq_1 v201))
theorem k0_off21_inb : ∀ (v201 : BitVec 32) (k0_hw20 : k0_chk20 v201), ∀ a, (k0_off21 v201) a + S1x8x32.size a ≤ S125000x8x32.size a := fun v201 k0_hw20 => k0_hw20

def k0_off22 (v211 : BitVec 32) : Fin 3 → Nat :=
  let c0_i32_340 : BitVec 32 := 0#32
  let c0_i32_341 : BitVec 32 := 0#32
  ![v211.toNat, 0, 0]

def k0_chk21 (v211 : BitVec 32) : Prop :=
  (∀ a, (k0_off22 v211) a + S1x8x32.size a ≤ S125000x8x32.size a)
instance k0_chk21.dec : ∀ (v211 : BitVec 32), Decidable (k0_chk21 v211) := fun v211 => decidable_of_iff' _ (Iff.of_eq (k0_chk21.eq_1 v211))
theorem k0_off22_inb : ∀ (v211 : BitVec 32) (k0_hw21 : k0_chk21 v211), ∀ a, (k0_off22 v211) a + S1x8x32.size a ≤ S125000x8x32.size a := fun v211 k0_hw21 => k0_hw21

def k0_off23 (v221 : BitVec 32) : Fin 3 → Nat :=
  let c0_i32_357 : BitVec 32 := 0#32
  let c0_i32_358 : BitVec 32 := 0#32
  ![v221.toNat, 0, 0]

def k0_chk22 (v221 : BitVec 32) : Prop :=
  (∀ a, (k0_off23 v221) a + S1x8x32.size a ≤ S125000x8x32.size a)
instance k0_chk22.dec : ∀ (v221 : BitVec 32), Decidable (k0_chk22 v221) := fun v221 => decidable_of_iff' _ (Iff.of_eq (k0_chk22.eq_1 v221))
theorem k0_off23_inb : ∀ (v221 : BitVec 32) (k0_hw22 : k0_chk22 v221), ∀ a, (k0_off23 v221) a + S1x8x32.size a ≤ S125000x8x32.size a := fun v221 k0_hw22 => k0_hw22

def k0_off24 (v231 : BitVec 32) : Fin 3 → Nat :=
  let c0_i32_373 : BitVec 32 := 0#32
  let c0_i32_374 : BitVec 32 := 0#32
  ![v231.toNat, 0, 0]

def k0_chk23 (v231 : BitVec 32) : Prop :=
  (∀ a, (k0_off24 v231) a + S1x8x32.size a ≤ S125000x8x32.size a)
instance k0_chk23.dec : ∀ (v231 : BitVec 32), Decidable (k0_chk23 v231) := fun v231 => decidable_of_iff' _ (Iff.of_eq (k0_chk23.eq_1 v231))
theorem k0_off24_inb : ∀ (v231 : BitVec 32) (k0_hw23 : k0_chk23 v231), ∀ a, (k0_off24 v231) a + S1x8x32.size a ≤ S125000x8x32.size a := fun v231 k0_hw23 => k0_hw23

def k0_off25 (v241 : BitVec 32) : Fin 3 → Nat :=
  let c0_i32_390 : BitVec 32 := 0#32
  let c0_i32_391 : BitVec 32 := 0#32
  ![v241.toNat, 0, 0]

def k0_chk24 (v241 : BitVec 32) : Prop :=
  (∀ a, (k0_off25 v241) a + S1x8x32.size a ≤ S125000x8x32.size a)
instance k0_chk24.dec : ∀ (v241 : BitVec 32), Decidable (k0_chk24 v241) := fun v241 => decidable_of_iff' _ (Iff.of_eq (k0_chk24.eq_1 v241))
theorem k0_off25_inb : ∀ (v241 : BitVec 32) (k0_hw24 : k0_chk24 v241), ∀ a, (k0_off25 v241) a + S1x8x32.size a ≤ S125000x8x32.size a := fun v241 k0_hw24 => k0_hw24

def k0_off26 (v251 : BitVec 32) : Fin 3 → Nat :=
  let c0_i32_406 : BitVec 32 := 0#32
  let c0_i32_407 : BitVec 32 := 0#32
  ![v251.toNat, 0, 0]

def k0_chk25 (v251 : BitVec 32) : Prop :=
  (∀ a, (k0_off26 v251) a + S1x8x32.size a ≤ S125000x8x32.size a)
instance k0_chk25.dec : ∀ (v251 : BitVec 32), Decidable (k0_chk25 v251) := fun v251 => decidable_of_iff' _ (Iff.of_eq (k0_chk25.eq_1 v251))
theorem k0_off26_inb : ∀ (v251 : BitVec 32) (k0_hw25 : k0_chk25 v251), ∀ a, (k0_off26 v251) a + S1x8x32.size a ≤ S125000x8x32.size a := fun v251 k0_hw25 => k0_hw25

def k0_off27 (v261 : BitVec 32) : Fin 3 → Nat :=
  let c0_i32_423 : BitVec 32 := 0#32
  let c0_i32_424 : BitVec 32 := 0#32
  ![v261.toNat, 0, 0]

def k0_chk26 (v261 : BitVec 32) : Prop :=
  (∀ a, (k0_off27 v261) a + S1x8x32.size a ≤ S125000x8x32.size a)
instance k0_chk26.dec : ∀ (v261 : BitVec 32), Decidable (k0_chk26 v261) := fun v261 => decidable_of_iff' _ (Iff.of_eq (k0_chk26.eq_1 v261))
theorem k0_off27_inb : ∀ (v261 : BitVec 32) (k0_hw26 : k0_chk26 v261), ∀ a, (k0_off27 v261) a + S1x8x32.size a ≤ S125000x8x32.size a := fun v261 k0_hw26 => k0_hw26

def k0_off28 (v271 : BitVec 32) : Fin 3 → Nat :=
  let c0_i32_439 : BitVec 32 := 0#32
  let c0_i32_440 : BitVec 32 := 0#32
  ![v271.toNat, 0, 0]

def k0_chk27 (v271 : BitVec 32) : Prop :=
  (∀ a, (k0_off28 v271) a + S1x8x32.size a ≤ S125000x8x32.size a)
instance k0_chk27.dec : ∀ (v271 : BitVec 32), Decidable (k0_chk27 v271) := fun v271 => decidable_of_iff' _ (Iff.of_eq (k0_chk27.eq_1 v271))
theorem k0_off28_inb : ∀ (v271 : BitVec 32) (k0_hw27 : k0_chk27 v271), ∀ a, (k0_off28 v271) a + S1x8x32.size a ≤ S125000x8x32.size a := fun v271 k0_hw27 => k0_hw27

def k0_off29 (v281 : BitVec 32) : Fin 3 → Nat :=
  let c0_i32_456 : BitVec 32 := 0#32
  let c0_i32_457 : BitVec 32 := 0#32
  ![v281.toNat, 0, 0]

def k0_chk28 (v281 : BitVec 32) : Prop :=
  (∀ a, (k0_off29 v281) a + S1x8x32.size a ≤ S125000x8x32.size a)
instance k0_chk28.dec : ∀ (v281 : BitVec 32), Decidable (k0_chk28 v281) := fun v281 => decidable_of_iff' _ (Iff.of_eq (k0_chk28.eq_1 v281))
theorem k0_off29_inb : ∀ (v281 : BitVec 32) (k0_hw28 : k0_chk28 v281), ∀ a, (k0_off29 v281) a + S1x8x32.size a ≤ S125000x8x32.size a := fun v281 k0_hw28 => k0_hw28

def k0_off30 (v291 : BitVec 32) : Fin 3 → Nat :=
  let c0_i32_472 : BitVec 32 := 0#32
  let c0_i32_473 : BitVec 32 := 0#32
  ![v291.toNat, 0, 0]

def k0_chk29 (v291 : BitVec 32) : Prop :=
  (∀ a, (k0_off30 v291) a + S1x8x32.size a ≤ S125000x8x32.size a)
instance k0_chk29.dec : ∀ (v291 : BitVec 32), Decidable (k0_chk29 v291) := fun v291 => decidable_of_iff' _ (Iff.of_eq (k0_chk29.eq_1 v291))
theorem k0_off30_inb : ∀ (v291 : BitVec 32) (k0_hw29 : k0_chk29 v291), ∀ a, (k0_off30 v291) a + S1x8x32.size a ≤ S125000x8x32.size a := fun v291 k0_hw29 => k0_hw29

def k0_off31 (v301 : BitVec 32) : Fin 3 → Nat :=
  let c0_i32_489 : BitVec 32 := 0#32
  let c0_i32_490 : BitVec 32 := 0#32
  ![v301.toNat, 0, 0]

def k0_chk30 (v301 : BitVec 32) : Prop :=
  (∀ a, (k0_off31 v301) a + S1x8x32.size a ≤ S125000x8x32.size a)
instance k0_chk30.dec : ∀ (v301 : BitVec 32), Decidable (k0_chk30 v301) := fun v301 => decidable_of_iff' _ (Iff.of_eq (k0_chk30.eq_1 v301))
theorem k0_off31_inb : ∀ (v301 : BitVec 32) (k0_hw30 : k0_chk30 v301), ∀ a, (k0_off31 v301) a + S1x8x32.size a ≤ S125000x8x32.size a := fun v301 k0_hw30 => k0_hw30

def k0_off32 (v311 : BitVec 32) : Fin 3 → Nat :=
  let c0_i32_505 : BitVec 32 := 0#32
  let c0_i32_506 : BitVec 32 := 0#32
  ![v311.toNat, 0, 0]

def k0_chk31 (v311 : BitVec 32) : Prop :=
  (∀ a, (k0_off32 v311) a + S1x8x32.size a ≤ S125000x8x32.size a)
instance k0_chk31.dec : ∀ (v311 : BitVec 32), Decidable (k0_chk31 v311) := fun v311 => decidable_of_iff' _ (Iff.of_eq (k0_chk31.eq_1 v311))
theorem k0_off32_inb : ∀ (v311 : BitVec 32) (k0_hw31 : k0_chk31 v311), ∀ a, (k0_off32 v311) a + S1x8x32.size a ≤ S125000x8x32.size a := fun v311 k0_hw31 => k0_hw31

def k0_off33 (v321 : BitVec 32) : Fin 3 → Nat :=
  let c0_i32_522 : BitVec 32 := 0#32
  let c0_i32_523 : BitVec 32 := 0#32
  ![v321.toNat, 0, 0]

def k0_chk32 (v321 : BitVec 32) : Prop :=
  (∀ a, (k0_off33 v321) a + S1x8x32.size a ≤ S125000x8x32.size a)
instance k0_chk32.dec : ∀ (v321 : BitVec 32), Decidable (k0_chk32 v321) := fun v321 => decidable_of_iff' _ (Iff.of_eq (k0_chk32.eq_1 v321))
theorem k0_off33_inb : ∀ (v321 : BitVec 32) (k0_hw32 : k0_chk32 v321), ∀ a, (k0_off33 v321) a + S1x8x32.size a ≤ S125000x8x32.size a := fun v321 k0_hw32 => k0_hw32

@[reducible] def k0_t1_loop : Scf.Loop 32 :=
  let c0_i32_532 : BitVec 32 := 0#32
  let c16_i32 : BitVec 32 := 16#32
  let v330 : BitVec 32 := Scalar.addi c0_i32_532 c16_i32
  let c1_i32_533 : BitVec 32 := 1#32
  ⟨c0_i32_532, v330, c1_i32_533⟩
def k0_cond1 (k0_t1 : Fin k0_t1_loop.trips) : BitVec 1 :=
  let c0_i32_532 : BitVec 32 := 0#32
  let c1_i32_533 : BitVec 32 := 1#32
  let arg18 : BitVec 32 := Scf.iv c0_i32_532 c1_i32_533 k0_t1
  let c2_i32_561 : BitVec 32 := 2#32
  let v347 : BitVec 32 := Scalar.muli arg18 c2_i32_561
  let c0_i32_562 : BitVec 32 := 0#32
  let v348 : BitVec 32 := Scalar.addi v347 c0_i32_562
  let c1_i32_563 : BitVec 32 := 1#32
  let v349 : BitVec 32 := Scalar.addi v348 c1_i32_563
  let c32_i32 : BitVec 32 := 32#32
  let v350 : BitVec 1 := Scalar.cmpi .slt v349 c32_i32
  let v351 : BitVec 32 := Scalar.extui v350
  let c0_i32_564 : BitVec 32 := 0#32
  let v352 : BitVec 1 := Scalar.cmpi .ne v351 c0_i32_564
  v352

def k0_off34 (k0_t1 : Fin k0_t1_loop.trips) : Fin 1 → Nat :=
  let c0_i32_532 : BitVec 32 := 0#32
  let c1_i32_533 : BitVec 32 := 1#32
  let arg18 : BitVec 32 := Scf.iv c0_i32_532 c1_i32_533 k0_t1
  let c2_i32_561 : BitVec 32 := 2#32
  let v347 : BitVec 32 := Scalar.muli arg18 c2_i32_561
  let c0_i32_562 : BitVec 32 := 0#32
  let v348 : BitVec 32 := Scalar.addi v347 c0_i32_562
  let c1_i32_563 : BitVec 32 := 1#32
  let v349 : BitVec 32 := Scalar.addi v348 c1_i32_563
  let c16_i32_1848 : BitVec 32 := 16#32
  let v961 : BitVec 32 := Scalar.muli v349 c16_i32_1848
  let v962 : Index := Scalar.indexCast v961
  ![v962.toNat]
def k0_off35 (v972 : BitVec 32) : Fin 3 → Nat :=
  let c0_i32_1859 : BitVec 32 := 0#32
  let c0_i32_1860 : BitVec 32 := 0#32
  ![v972.toNat, 0, 0]

def k0_chk33 (k0_t1 : Fin k0_t1_loop.trips) (v972 : BitVec 32) : Prop :=
  (∀ (k0_h1 : k0_cond1 k0_t1 = 1#1), ∀ a, (k0_off35 v972) a + S1x8x32.size a ≤ S125000x8x32.size a)
instance k0_chk33.dec : ∀ (k0_t1 : Fin k0_t1_loop.trips) (v972 : BitVec 32), Decidable (k0_chk33 k0_t1 v972) := fun k0_t1 v972 => decidable_of_iff' _ (Iff.of_eq (k0_chk33.eq_1 k0_t1 v972))
theorem k0_off35_inb : ∀ (k0_t1 : Fin k0_t1_loop.trips) (v972 : BitVec 32) (k0_hw33 : k0_chk33 k0_t1 v972), ∀ (k0_h1 : k0_cond1 k0_t1 = 1#1), ∀ a, (k0_off35 v972) a + S1x8x32.size a ≤ S125000x8x32.size a := fun k0_t1 v972 k0_hw33 k0_h1 => k0_hw33 k0_h1

def k0_off36 (v982 : BitVec 32) : Fin 3 → Nat :=
  let c0_i32_1876 : BitVec 32 := 0#32
  let c0_i32_1877 : BitVec 32 := 0#32
  ![v982.toNat, 0, 0]

def k0_chk34 (k0_t1 : Fin k0_t1_loop.trips) (v982 : BitVec 32) : Prop :=
  (∀ (k0_h1 : k0_cond1 k0_t1 = 1#1), ∀ a, (k0_off36 v982) a + S1x8x32.size a ≤ S125000x8x32.size a)
instance k0_chk34.dec : ∀ (k0_t1 : Fin k0_t1_loop.trips) (v982 : BitVec 32), Decidable (k0_chk34 k0_t1 v982) := fun k0_t1 v982 => decidable_of_iff' _ (Iff.of_eq (k0_chk34.eq_1 k0_t1 v982))
theorem k0_off36_inb : ∀ (k0_t1 : Fin k0_t1_loop.trips) (v982 : BitVec 32) (k0_hw34 : k0_chk34 k0_t1 v982), ∀ (k0_h1 : k0_cond1 k0_t1 = 1#1), ∀ a, (k0_off36 v982) a + S1x8x32.size a ≤ S125000x8x32.size a := fun k0_t1 v982 k0_hw34 k0_h1 => k0_hw34 k0_h1

def k0_off37 (v992 : BitVec 32) : Fin 3 → Nat :=
  let c0_i32_1893 : BitVec 32 := 0#32
  let c0_i32_1894 : BitVec 32 := 0#32
  ![v992.toNat, 0, 0]

def k0_chk35 (k0_t1 : Fin k0_t1_loop.trips) (v992 : BitVec 32) : Prop :=
  (∀ (k0_h1 : k0_cond1 k0_t1 = 1#1), ∀ a, (k0_off37 v992) a + S1x8x32.size a ≤ S125000x8x32.size a)
instance k0_chk35.dec : ∀ (k0_t1 : Fin k0_t1_loop.trips) (v992 : BitVec 32), Decidable (k0_chk35 k0_t1 v992) := fun k0_t1 v992 => decidable_of_iff' _ (Iff.of_eq (k0_chk35.eq_1 k0_t1 v992))
theorem k0_off37_inb : ∀ (k0_t1 : Fin k0_t1_loop.trips) (v992 : BitVec 32) (k0_hw35 : k0_chk35 k0_t1 v992), ∀ (k0_h1 : k0_cond1 k0_t1 = 1#1), ∀ a, (k0_off37 v992) a + S1x8x32.size a ≤ S125000x8x32.size a := fun k0_t1 v992 k0_hw35 k0_h1 => k0_hw35 k0_h1

def k0_off38 (v1002 : BitVec 32) : Fin 3 → Nat :=
  let c0_i32_1910 : BitVec 32 := 0#32
  let c0_i32_1911 : BitVec 32 := 0#32
  ![v1002.toNat, 0, 0]

def k0_chk36 (k0_t1 : Fin k0_t1_loop.trips) (v1002 : BitVec 32) : Prop :=
  (∀ (k0_h1 : k0_cond1 k0_t1 = 1#1), ∀ a, (k0_off38 v1002) a + S1x8x32.size a ≤ S125000x8x32.size a)
instance k0_chk36.dec : ∀ (k0_t1 : Fin k0_t1_loop.trips) (v1002 : BitVec 32), Decidable (k0_chk36 k0_t1 v1002) := fun k0_t1 v1002 => decidable_of_iff' _ (Iff.of_eq (k0_chk36.eq_1 k0_t1 v1002))
theorem k0_off38_inb : ∀ (k0_t1 : Fin k0_t1_loop.trips) (v1002 : BitVec 32) (k0_hw36 : k0_chk36 k0_t1 v1002), ∀ (k0_h1 : k0_cond1 k0_t1 = 1#1), ∀ a, (k0_off38 v1002) a + S1x8x32.size a ≤ S125000x8x32.size a := fun k0_t1 v1002 k0_hw36 k0_h1 => k0_hw36 k0_h1

def k0_off39 (v1012 : BitVec 32) : Fin 3 → Nat :=
  let c0_i32_1927 : BitVec 32 := 0#32
  let c0_i32_1928 : BitVec 32 := 0#32
  ![v1012.toNat, 0, 0]

def k0_chk37 (k0_t1 : Fin k0_t1_loop.trips) (v1012 : BitVec 32) : Prop :=
  (∀ (k0_h1 : k0_cond1 k0_t1 = 1#1), ∀ a, (k0_off39 v1012) a + S1x8x32.size a ≤ S125000x8x32.size a)
instance k0_chk37.dec : ∀ (k0_t1 : Fin k0_t1_loop.trips) (v1012 : BitVec 32), Decidable (k0_chk37 k0_t1 v1012) := fun k0_t1 v1012 => decidable_of_iff' _ (Iff.of_eq (k0_chk37.eq_1 k0_t1 v1012))
theorem k0_off39_inb : ∀ (k0_t1 : Fin k0_t1_loop.trips) (v1012 : BitVec 32) (k0_hw37 : k0_chk37 k0_t1 v1012), ∀ (k0_h1 : k0_cond1 k0_t1 = 1#1), ∀ a, (k0_off39 v1012) a + S1x8x32.size a ≤ S125000x8x32.size a := fun k0_t1 v1012 k0_hw37 k0_h1 => k0_hw37 k0_h1

def k0_off40 (v1022 : BitVec 32) : Fin 3 → Nat :=
  let c0_i32_1944 : BitVec 32 := 0#32
  let c0_i32_1945 : BitVec 32 := 0#32
  ![v1022.toNat, 0, 0]

def k0_chk38 (k0_t1 : Fin k0_t1_loop.trips) (v1022 : BitVec 32) : Prop :=
  (∀ (k0_h1 : k0_cond1 k0_t1 = 1#1), ∀ a, (k0_off40 v1022) a + S1x8x32.size a ≤ S125000x8x32.size a)
instance k0_chk38.dec : ∀ (k0_t1 : Fin k0_t1_loop.trips) (v1022 : BitVec 32), Decidable (k0_chk38 k0_t1 v1022) := fun k0_t1 v1022 => decidable_of_iff' _ (Iff.of_eq (k0_chk38.eq_1 k0_t1 v1022))
theorem k0_off40_inb : ∀ (k0_t1 : Fin k0_t1_loop.trips) (v1022 : BitVec 32) (k0_hw38 : k0_chk38 k0_t1 v1022), ∀ (k0_h1 : k0_cond1 k0_t1 = 1#1), ∀ a, (k0_off40 v1022) a + S1x8x32.size a ≤ S125000x8x32.size a := fun k0_t1 v1022 k0_hw38 k0_h1 => k0_hw38 k0_h1

def k0_off41 (v1032 : BitVec 32) : Fin 3 → Nat :=
  let c0_i32_1961 : BitVec 32 := 0#32
  let c0_i32_1962 : BitVec 32 := 0#32
  ![v1032.toNat, 0, 0]

def k0_chk39 (k0_t1 : Fin k0_t1_loop.trips) (v1032 : BitVec 32) : Prop :=
  (∀ (k0_h1 : k0_cond1 k0_t1 = 1#1), ∀ a, (k0_off41 v1032) a + S1x8x32.size a ≤ S125000x8x32.size a)
instance k0_chk39.dec : ∀ (k0_t1 : Fin k0_t1_loop.trips) (v1032 : BitVec 32), Decidable (k0_chk39 k0_t1 v1032) := fun k0_t1 v1032 => decidable_of_iff' _ (Iff.of_eq (k0_chk39.eq_1 k0_t1 v1032))
theorem k0_off41_inb : ∀ (k0_t1 : Fin k0_t1_loop.trips) (v1032 : BitVec 32) (k0_hw39 : k0_chk39 k0_t1 v1032), ∀ (k0_h1 : k0_cond1 k0_t1 = 1#1), ∀ a, (k0_off41 v1032) a + S1x8x32.size a ≤ S125000x8x32.size a := fun k0_t1 v1032 k0_hw39 k0_h1 => k0_hw39 k0_h1

def k0_off42 (v1042 : BitVec 32) : Fin 3 → Nat :=
  let c0_i32_1978 : BitVec 32 := 0#32
  let c0_i32_1979 : BitVec 32 := 0#32
  ![v1042.toNat, 0, 0]

def k0_chk40 (k0_t1 : Fin k0_t1_loop.trips) (v1042 : BitVec 32) : Prop :=
  (∀ (k0_h1 : k0_cond1 k0_t1 = 1#1), ∀ a, (k0_off42 v1042) a + S1x8x32.size a ≤ S125000x8x32.size a)
instance k0_chk40.dec : ∀ (k0_t1 : Fin k0_t1_loop.trips) (v1042 : BitVec 32), Decidable (k0_chk40 k0_t1 v1042) := fun k0_t1 v1042 => decidable_of_iff' _ (Iff.of_eq (k0_chk40.eq_1 k0_t1 v1042))
theorem k0_off42_inb : ∀ (k0_t1 : Fin k0_t1_loop.trips) (v1042 : BitVec 32) (k0_hw40 : k0_chk40 k0_t1 v1042), ∀ (k0_h1 : k0_cond1 k0_t1 = 1#1), ∀ a, (k0_off42 v1042) a + S1x8x32.size a ≤ S125000x8x32.size a := fun k0_t1 v1042 k0_hw40 k0_h1 => k0_hw40 k0_h1

def k0_off43 (v1052 : BitVec 32) : Fin 3 → Nat :=
  let c0_i32_1995 : BitVec 32 := 0#32
  let c0_i32_1996 : BitVec 32 := 0#32
  ![v1052.toNat, 0, 0]

def k0_chk41 (k0_t1 : Fin k0_t1_loop.trips) (v1052 : BitVec 32) : Prop :=
  (∀ (k0_h1 : k0_cond1 k0_t1 = 1#1), ∀ a, (k0_off43 v1052) a + S1x8x32.size a ≤ S125000x8x32.size a)
instance k0_chk41.dec : ∀ (k0_t1 : Fin k0_t1_loop.trips) (v1052 : BitVec 32), Decidable (k0_chk41 k0_t1 v1052) := fun k0_t1 v1052 => decidable_of_iff' _ (Iff.of_eq (k0_chk41.eq_1 k0_t1 v1052))
theorem k0_off43_inb : ∀ (k0_t1 : Fin k0_t1_loop.trips) (v1052 : BitVec 32) (k0_hw41 : k0_chk41 k0_t1 v1052), ∀ (k0_h1 : k0_cond1 k0_t1 = 1#1), ∀ a, (k0_off43 v1052) a + S1x8x32.size a ≤ S125000x8x32.size a := fun k0_t1 v1052 k0_hw41 k0_h1 => k0_hw41 k0_h1

def k0_off44 (v1062 : BitVec 32) : Fin 3 → Nat :=
  let c0_i32_2012 : BitVec 32 := 0#32
  let c0_i32_2013 : BitVec 32 := 0#32
  ![v1062.toNat, 0, 0]

def k0_chk42 (k0_t1 : Fin k0_t1_loop.trips) (v1062 : BitVec 32) : Prop :=
  (∀ (k0_h1 : k0_cond1 k0_t1 = 1#1), ∀ a, (k0_off44 v1062) a + S1x8x32.size a ≤ S125000x8x32.size a)
instance k0_chk42.dec : ∀ (k0_t1 : Fin k0_t1_loop.trips) (v1062 : BitVec 32), Decidable (k0_chk42 k0_t1 v1062) := fun k0_t1 v1062 => decidable_of_iff' _ (Iff.of_eq (k0_chk42.eq_1 k0_t1 v1062))
theorem k0_off44_inb : ∀ (k0_t1 : Fin k0_t1_loop.trips) (v1062 : BitVec 32) (k0_hw42 : k0_chk42 k0_t1 v1062), ∀ (k0_h1 : k0_cond1 k0_t1 = 1#1), ∀ a, (k0_off44 v1062) a + S1x8x32.size a ≤ S125000x8x32.size a := fun k0_t1 v1062 k0_hw42 k0_h1 => k0_hw42 k0_h1

def k0_off45 (v1072 : BitVec 32) : Fin 3 → Nat :=
  let c0_i32_2029 : BitVec 32 := 0#32
  let c0_i32_2030 : BitVec 32 := 0#32
  ![v1072.toNat, 0, 0]

def k0_chk43 (k0_t1 : Fin k0_t1_loop.trips) (v1072 : BitVec 32) : Prop :=
  (∀ (k0_h1 : k0_cond1 k0_t1 = 1#1), ∀ a, (k0_off45 v1072) a + S1x8x32.size a ≤ S125000x8x32.size a)
instance k0_chk43.dec : ∀ (k0_t1 : Fin k0_t1_loop.trips) (v1072 : BitVec 32), Decidable (k0_chk43 k0_t1 v1072) := fun k0_t1 v1072 => decidable_of_iff' _ (Iff.of_eq (k0_chk43.eq_1 k0_t1 v1072))
theorem k0_off45_inb : ∀ (k0_t1 : Fin k0_t1_loop.trips) (v1072 : BitVec 32) (k0_hw43 : k0_chk43 k0_t1 v1072), ∀ (k0_h1 : k0_cond1 k0_t1 = 1#1), ∀ a, (k0_off45 v1072) a + S1x8x32.size a ≤ S125000x8x32.size a := fun k0_t1 v1072 k0_hw43 k0_h1 => k0_hw43 k0_h1

def k0_off46 (v1082 : BitVec 32) : Fin 3 → Nat :=
  let c0_i32_2046 : BitVec 32 := 0#32
  let c0_i32_2047 : BitVec 32 := 0#32
  ![v1082.toNat, 0, 0]

def k0_chk44 (k0_t1 : Fin k0_t1_loop.trips) (v1082 : BitVec 32) : Prop :=
  (∀ (k0_h1 : k0_cond1 k0_t1 = 1#1), ∀ a, (k0_off46 v1082) a + S1x8x32.size a ≤ S125000x8x32.size a)
instance k0_chk44.dec : ∀ (k0_t1 : Fin k0_t1_loop.trips) (v1082 : BitVec 32), Decidable (k0_chk44 k0_t1 v1082) := fun k0_t1 v1082 => decidable_of_iff' _ (Iff.of_eq (k0_chk44.eq_1 k0_t1 v1082))
theorem k0_off46_inb : ∀ (k0_t1 : Fin k0_t1_loop.trips) (v1082 : BitVec 32) (k0_hw44 : k0_chk44 k0_t1 v1082), ∀ (k0_h1 : k0_cond1 k0_t1 = 1#1), ∀ a, (k0_off46 v1082) a + S1x8x32.size a ≤ S125000x8x32.size a := fun k0_t1 v1082 k0_hw44 k0_h1 => k0_hw44 k0_h1

def k0_off47 (v1092 : BitVec 32) : Fin 3 → Nat :=
  let c0_i32_2063 : BitVec 32 := 0#32
  let c0_i32_2064 : BitVec 32 := 0#32
  ![v1092.toNat, 0, 0]

def k0_chk45 (k0_t1 : Fin k0_t1_loop.trips) (v1092 : BitVec 32) : Prop :=
  (∀ (k0_h1 : k0_cond1 k0_t1 = 1#1), ∀ a, (k0_off47 v1092) a + S1x8x32.size a ≤ S125000x8x32.size a)
instance k0_chk45.dec : ∀ (k0_t1 : Fin k0_t1_loop.trips) (v1092 : BitVec 32), Decidable (k0_chk45 k0_t1 v1092) := fun k0_t1 v1092 => decidable_of_iff' _ (Iff.of_eq (k0_chk45.eq_1 k0_t1 v1092))
theorem k0_off47_inb : ∀ (k0_t1 : Fin k0_t1_loop.trips) (v1092 : BitVec 32) (k0_hw45 : k0_chk45 k0_t1 v1092), ∀ (k0_h1 : k0_cond1 k0_t1 = 1#1), ∀ a, (k0_off47 v1092) a + S1x8x32.size a ≤ S125000x8x32.size a := fun k0_t1 v1092 k0_hw45 k0_h1 => k0_hw45 k0_h1

def k0_off48 (v1102 : BitVec 32) : Fin 3 → Nat :=
  let c0_i32_2080 : BitVec 32 := 0#32
  let c0_i32_2081 : BitVec 32 := 0#32
  ![v1102.toNat, 0, 0]

def k0_chk46 (k0_t1 : Fin k0_t1_loop.trips) (v1102 : BitVec 32) : Prop :=
  (∀ (k0_h1 : k0_cond1 k0_t1 = 1#1), ∀ a, (k0_off48 v1102) a + S1x8x32.size a ≤ S125000x8x32.size a)
instance k0_chk46.dec : ∀ (k0_t1 : Fin k0_t1_loop.trips) (v1102 : BitVec 32), Decidable (k0_chk46 k0_t1 v1102) := fun k0_t1 v1102 => decidable_of_iff' _ (Iff.of_eq (k0_chk46.eq_1 k0_t1 v1102))
theorem k0_off48_inb : ∀ (k0_t1 : Fin k0_t1_loop.trips) (v1102 : BitVec 32) (k0_hw46 : k0_chk46 k0_t1 v1102), ∀ (k0_h1 : k0_cond1 k0_t1 = 1#1), ∀ a, (k0_off48 v1102) a + S1x8x32.size a ≤ S125000x8x32.size a := fun k0_t1 v1102 k0_hw46 k0_h1 => k0_hw46 k0_h1

def k0_off49 (v1112 : BitVec 32) : Fin 3 → Nat :=
  let c0_i32_2097 : BitVec 32 := 0#32
  let c0_i32_2098 : BitVec 32 := 0#32
  ![v1112.toNat, 0, 0]

def k0_chk47 (k0_t1 : Fin k0_t1_loop.trips) (v1112 : BitVec 32) : Prop :=
  (∀ (k0_h1 : k0_cond1 k0_t1 = 1#1), ∀ a, (k0_off49 v1112) a + S1x8x32.size a ≤ S125000x8x32.size a)
instance k0_chk47.dec : ∀ (k0_t1 : Fin k0_t1_loop.trips) (v1112 : BitVec 32), Decidable (k0_chk47 k0_t1 v1112) := fun k0_t1 v1112 => decidable_of_iff' _ (Iff.of_eq (k0_chk47.eq_1 k0_t1 v1112))
theorem k0_off49_inb : ∀ (k0_t1 : Fin k0_t1_loop.trips) (v1112 : BitVec 32) (k0_hw47 : k0_chk47 k0_t1 v1112), ∀ (k0_h1 : k0_cond1 k0_t1 = 1#1), ∀ a, (k0_off49 v1112) a + S1x8x32.size a ≤ S125000x8x32.size a := fun k0_t1 v1112 k0_hw47 k0_h1 => k0_hw47 k0_h1

def k0_off50 (v1122 : BitVec 32) : Fin 3 → Nat :=
  let c0_i32_2114 : BitVec 32 := 0#32
  let c0_i32_2115 : BitVec 32 := 0#32
  ![v1122.toNat, 0, 0]

def k0_chk48 (k0_t1 : Fin k0_t1_loop.trips) (v1122 : BitVec 32) : Prop :=
  (∀ (k0_h1 : k0_cond1 k0_t1 = 1#1), ∀ a, (k0_off50 v1122) a + S1x8x32.size a ≤ S125000x8x32.size a)
instance k0_chk48.dec : ∀ (k0_t1 : Fin k0_t1_loop.trips) (v1122 : BitVec 32), Decidable (k0_chk48 k0_t1 v1122) := fun k0_t1 v1122 => decidable_of_iff' _ (Iff.of_eq (k0_chk48.eq_1 k0_t1 v1122))
theorem k0_off50_inb : ∀ (k0_t1 : Fin k0_t1_loop.trips) (v1122 : BitVec 32) (k0_hw48 : k0_chk48 k0_t1 v1122), ∀ (k0_h1 : k0_cond1 k0_t1 = 1#1), ∀ a, (k0_off50 v1122) a + S1x8x32.size a ≤ S125000x8x32.size a := fun k0_t1 v1122 k0_hw48 k0_h1 => k0_hw48 k0_h1

def k0_off51 (v1132 : BitVec 32) : Fin 3 → Nat :=
  let c0_i32_2131 : BitVec 32 := 0#32
  let c0_i32_2132 : BitVec 32 := 0#32
  ![v1132.toNat, 0, 0]

def k0_chk49 (k0_t1 : Fin k0_t1_loop.trips) (v1132 : BitVec 32) : Prop :=
  (∀ (k0_h1 : k0_cond1 k0_t1 = 1#1), ∀ a, (k0_off51 v1132) a + S1x8x32.size a ≤ S125000x8x32.size a)
instance k0_chk49.dec : ∀ (k0_t1 : Fin k0_t1_loop.trips) (v1132 : BitVec 32), Decidable (k0_chk49 k0_t1 v1132) := fun k0_t1 v1132 => decidable_of_iff' _ (Iff.of_eq (k0_chk49.eq_1 k0_t1 v1132))
theorem k0_off51_inb : ∀ (k0_t1 : Fin k0_t1_loop.trips) (v1132 : BitVec 32) (k0_hw49 : k0_chk49 k0_t1 v1132), ∀ (k0_h1 : k0_cond1 k0_t1 = 1#1), ∀ a, (k0_off51 v1132) a + S1x8x32.size a ≤ S125000x8x32.size a := fun k0_t1 v1132 k0_hw49 k0_h1 => k0_hw49 k0_h1

def k0_off52 (v1142 : BitVec 32) : Fin 3 → Nat :=
  let c0_i32_2148 : BitVec 32 := 0#32
  let c0_i32_2149 : BitVec 32 := 0#32
  ![v1142.toNat, 0, 0]

def k0_chk50 (k0_t1 : Fin k0_t1_loop.trips) (v1142 : BitVec 32) : Prop :=
  (∀ (k0_h1 : k0_cond1 k0_t1 = 1#1), ∀ a, (k0_off52 v1142) a + S1x8x32.size a ≤ S125000x8x32.size a)
instance k0_chk50.dec : ∀ (k0_t1 : Fin k0_t1_loop.trips) (v1142 : BitVec 32), Decidable (k0_chk50 k0_t1 v1142) := fun k0_t1 v1142 => decidable_of_iff' _ (Iff.of_eq (k0_chk50.eq_1 k0_t1 v1142))
theorem k0_off52_inb : ∀ (k0_t1 : Fin k0_t1_loop.trips) (v1142 : BitVec 32) (k0_hw50 : k0_chk50 k0_t1 v1142), ∀ (k0_h1 : k0_cond1 k0_t1 = 1#1), ∀ a, (k0_off52 v1142) a + S1x8x32.size a ≤ S125000x8x32.size a := fun k0_t1 v1142 k0_hw50 k0_h1 => k0_hw50 k0_h1

def k0_off53 (v1152 : BitVec 32) : Fin 3 → Nat :=
  let c0_i32_2165 : BitVec 32 := 0#32
  let c0_i32_2166 : BitVec 32 := 0#32
  ![v1152.toNat, 0, 0]

def k0_chk51 (k0_t1 : Fin k0_t1_loop.trips) (v1152 : BitVec 32) : Prop :=
  (∀ (k0_h1 : k0_cond1 k0_t1 = 1#1), ∀ a, (k0_off53 v1152) a + S1x8x32.size a ≤ S125000x8x32.size a)
instance k0_chk51.dec : ∀ (k0_t1 : Fin k0_t1_loop.trips) (v1152 : BitVec 32), Decidable (k0_chk51 k0_t1 v1152) := fun k0_t1 v1152 => decidable_of_iff' _ (Iff.of_eq (k0_chk51.eq_1 k0_t1 v1152))
theorem k0_off53_inb : ∀ (k0_t1 : Fin k0_t1_loop.trips) (v1152 : BitVec 32) (k0_hw51 : k0_chk51 k0_t1 v1152), ∀ (k0_h1 : k0_cond1 k0_t1 = 1#1), ∀ a, (k0_off53 v1152) a + S1x8x32.size a ≤ S125000x8x32.size a := fun k0_t1 v1152 k0_hw51 k0_h1 => k0_hw51 k0_h1

def k0_off54 (v1162 : BitVec 32) : Fin 3 → Nat :=
  let c0_i32_2182 : BitVec 32 := 0#32
  let c0_i32_2183 : BitVec 32 := 0#32
  ![v1162.toNat, 0, 0]

def k0_chk52 (k0_t1 : Fin k0_t1_loop.trips) (v1162 : BitVec 32) : Prop :=
  (∀ (k0_h1 : k0_cond1 k0_t1 = 1#1), ∀ a, (k0_off54 v1162) a + S1x8x32.size a ≤ S125000x8x32.size a)
instance k0_chk52.dec : ∀ (k0_t1 : Fin k0_t1_loop.trips) (v1162 : BitVec 32), Decidable (k0_chk52 k0_t1 v1162) := fun k0_t1 v1162 => decidable_of_iff' _ (Iff.of_eq (k0_chk52.eq_1 k0_t1 v1162))
theorem k0_off54_inb : ∀ (k0_t1 : Fin k0_t1_loop.trips) (v1162 : BitVec 32) (k0_hw52 : k0_chk52 k0_t1 v1162), ∀ (k0_h1 : k0_cond1 k0_t1 = 1#1), ∀ a, (k0_off54 v1162) a + S1x8x32.size a ≤ S125000x8x32.size a := fun k0_t1 v1162 k0_hw52 k0_h1 => k0_hw52 k0_h1

def k0_off55 (v1172 : BitVec 32) : Fin 3 → Nat :=
  let c0_i32_2199 : BitVec 32 := 0#32
  let c0_i32_2200 : BitVec 32 := 0#32
  ![v1172.toNat, 0, 0]

def k0_chk53 (k0_t1 : Fin k0_t1_loop.trips) (v1172 : BitVec 32) : Prop :=
  (∀ (k0_h1 : k0_cond1 k0_t1 = 1#1), ∀ a, (k0_off55 v1172) a + S1x8x32.size a ≤ S125000x8x32.size a)
instance k0_chk53.dec : ∀ (k0_t1 : Fin k0_t1_loop.trips) (v1172 : BitVec 32), Decidable (k0_chk53 k0_t1 v1172) := fun k0_t1 v1172 => decidable_of_iff' _ (Iff.of_eq (k0_chk53.eq_1 k0_t1 v1172))
theorem k0_off55_inb : ∀ (k0_t1 : Fin k0_t1_loop.trips) (v1172 : BitVec 32) (k0_hw53 : k0_chk53 k0_t1 v1172), ∀ (k0_h1 : k0_cond1 k0_t1 = 1#1), ∀ a, (k0_off55 v1172) a + S1x8x32.size a ≤ S125000x8x32.size a := fun k0_t1 v1172 k0_hw53 k0_h1 => k0_hw53 k0_h1

def k0_off56 (v1182 : BitVec 32) : Fin 3 → Nat :=
  let c0_i32_2216 : BitVec 32 := 0#32
  let c0_i32_2217 : BitVec 32 := 0#32
  ![v1182.toNat, 0, 0]

def k0_chk54 (k0_t1 : Fin k0_t1_loop.trips) (v1182 : BitVec 32) : Prop :=
  (∀ (k0_h1 : k0_cond1 k0_t1 = 1#1), ∀ a, (k0_off56 v1182) a + S1x8x32.size a ≤ S125000x8x32.size a)
instance k0_chk54.dec : ∀ (k0_t1 : Fin k0_t1_loop.trips) (v1182 : BitVec 32), Decidable (k0_chk54 k0_t1 v1182) := fun k0_t1 v1182 => decidable_of_iff' _ (Iff.of_eq (k0_chk54.eq_1 k0_t1 v1182))
theorem k0_off56_inb : ∀ (k0_t1 : Fin k0_t1_loop.trips) (v1182 : BitVec 32) (k0_hw54 : k0_chk54 k0_t1 v1182), ∀ (k0_h1 : k0_cond1 k0_t1 = 1#1), ∀ a, (k0_off56 v1182) a + S1x8x32.size a ≤ S125000x8x32.size a := fun k0_t1 v1182 k0_hw54 k0_h1 => k0_hw54 k0_h1

def k0_off57 (v1192 : BitVec 32) : Fin 3 → Nat :=
  let c0_i32_2233 : BitVec 32 := 0#32
  let c0_i32_2234 : BitVec 32 := 0#32
  ![v1192.toNat, 0, 0]

def k0_chk55 (k0_t1 : Fin k0_t1_loop.trips) (v1192 : BitVec 32) : Prop :=
  (∀ (k0_h1 : k0_cond1 k0_t1 = 1#1), ∀ a, (k0_off57 v1192) a + S1x8x32.size a ≤ S125000x8x32.size a)
instance k0_chk55.dec : ∀ (k0_t1 : Fin k0_t1_loop.trips) (v1192 : BitVec 32), Decidable (k0_chk55 k0_t1 v1192) := fun k0_t1 v1192 => decidable_of_iff' _ (Iff.of_eq (k0_chk55.eq_1 k0_t1 v1192))
theorem k0_off57_inb : ∀ (k0_t1 : Fin k0_t1_loop.trips) (v1192 : BitVec 32) (k0_hw55 : k0_chk55 k0_t1 v1192), ∀ (k0_h1 : k0_cond1 k0_t1 = 1#1), ∀ a, (k0_off57 v1192) a + S1x8x32.size a ≤ S125000x8x32.size a := fun k0_t1 v1192 k0_hw55 k0_h1 => k0_hw55 k0_h1

def k0_off58 (v1202 : BitVec 32) : Fin 3 → Nat :=
  let c0_i32_2250 : BitVec 32 := 0#32
  let c0_i32_2251 : BitVec 32 := 0#32
  ![v1202.toNat, 0, 0]

def k0_chk56 (k0_t1 : Fin k0_t1_loop.trips) (v1202 : BitVec 32) : Prop :=
  (∀ (k0_h1 : k0_cond1 k0_t1 = 1#1), ∀ a, (k0_off58 v1202) a + S1x8x32.size a ≤ S125000x8x32.size a)
instance k0_chk56.dec : ∀ (k0_t1 : Fin k0_t1_loop.trips) (v1202 : BitVec 32), Decidable (k0_chk56 k0_t1 v1202) := fun k0_t1 v1202 => decidable_of_iff' _ (Iff.of_eq (k0_chk56.eq_1 k0_t1 v1202))
theorem k0_off58_inb : ∀ (k0_t1 : Fin k0_t1_loop.trips) (v1202 : BitVec 32) (k0_hw56 : k0_chk56 k0_t1 v1202), ∀ (k0_h1 : k0_cond1 k0_t1 = 1#1), ∀ a, (k0_off58 v1202) a + S1x8x32.size a ≤ S125000x8x32.size a := fun k0_t1 v1202 k0_hw56 k0_h1 => k0_hw56 k0_h1

def k0_off59 (v1212 : BitVec 32) : Fin 3 → Nat :=
  let c0_i32_2267 : BitVec 32 := 0#32
  let c0_i32_2268 : BitVec 32 := 0#32
  ![v1212.toNat, 0, 0]

def k0_chk57 (k0_t1 : Fin k0_t1_loop.trips) (v1212 : BitVec 32) : Prop :=
  (∀ (k0_h1 : k0_cond1 k0_t1 = 1#1), ∀ a, (k0_off59 v1212) a + S1x8x32.size a ≤ S125000x8x32.size a)
instance k0_chk57.dec : ∀ (k0_t1 : Fin k0_t1_loop.trips) (v1212 : BitVec 32), Decidable (k0_chk57 k0_t1 v1212) := fun k0_t1 v1212 => decidable_of_iff' _ (Iff.of_eq (k0_chk57.eq_1 k0_t1 v1212))
theorem k0_off59_inb : ∀ (k0_t1 : Fin k0_t1_loop.trips) (v1212 : BitVec 32) (k0_hw57 : k0_chk57 k0_t1 v1212), ∀ (k0_h1 : k0_cond1 k0_t1 = 1#1), ∀ a, (k0_off59 v1212) a + S1x8x32.size a ≤ S125000x8x32.size a := fun k0_t1 v1212 k0_hw57 k0_h1 => k0_hw57 k0_h1

def k0_off60 (v1222 : BitVec 32) : Fin 3 → Nat :=
  let c0_i32_2284 : BitVec 32 := 0#32
  let c0_i32_2285 : BitVec 32 := 0#32
  ![v1222.toNat, 0, 0]

def k0_chk58 (k0_t1 : Fin k0_t1_loop.trips) (v1222 : BitVec 32) : Prop :=
  (∀ (k0_h1 : k0_cond1 k0_t1 = 1#1), ∀ a, (k0_off60 v1222) a + S1x8x32.size a ≤ S125000x8x32.size a)
instance k0_chk58.dec : ∀ (k0_t1 : Fin k0_t1_loop.trips) (v1222 : BitVec 32), Decidable (k0_chk58 k0_t1 v1222) := fun k0_t1 v1222 => decidable_of_iff' _ (Iff.of_eq (k0_chk58.eq_1 k0_t1 v1222))
theorem k0_off60_inb : ∀ (k0_t1 : Fin k0_t1_loop.trips) (v1222 : BitVec 32) (k0_hw58 : k0_chk58 k0_t1 v1222), ∀ (k0_h1 : k0_cond1 k0_t1 = 1#1), ∀ a, (k0_off60 v1222) a + S1x8x32.size a ≤ S125000x8x32.size a := fun k0_t1 v1222 k0_hw58 k0_h1 => k0_hw58 k0_h1

def k0_off61 (v1232 : BitVec 32) : Fin 3 → Nat :=
  let c0_i32_2301 : BitVec 32 := 0#32
  let c0_i32_2302 : BitVec 32 := 0#32
  ![v1232.toNat, 0, 0]

def k0_chk59 (k0_t1 : Fin k0_t1_loop.trips) (v1232 : BitVec 32) : Prop :=
  (∀ (k0_h1 : k0_cond1 k0_t1 = 1#1), ∀ a, (k0_off61 v1232) a + S1x8x32.size a ≤ S125000x8x32.size a)
instance k0_chk59.dec : ∀ (k0_t1 : Fin k0_t1_loop.trips) (v1232 : BitVec 32), Decidable (k0_chk59 k0_t1 v1232) := fun k0_t1 v1232 => decidable_of_iff' _ (Iff.of_eq (k0_chk59.eq_1 k0_t1 v1232))
theorem k0_off61_inb : ∀ (k0_t1 : Fin k0_t1_loop.trips) (v1232 : BitVec 32) (k0_hw59 : k0_chk59 k0_t1 v1232), ∀ (k0_h1 : k0_cond1 k0_t1 = 1#1), ∀ a, (k0_off61 v1232) a + S1x8x32.size a ≤ S125000x8x32.size a := fun k0_t1 v1232 k0_hw59 k0_h1 => k0_hw59 k0_h1

def k0_off62 (v1242 : BitVec 32) : Fin 3 → Nat :=
  let c0_i32_2318 : BitVec 32 := 0#32
  let c0_i32_2319 : BitVec 32 := 0#32
  ![v1242.toNat, 0, 0]

def k0_chk60 (k0_t1 : Fin k0_t1_loop.trips) (v1242 : BitVec 32) : Prop :=
  (∀ (k0_h1 : k0_cond1 k0_t1 = 1#1), ∀ a, (k0_off62 v1242) a + S1x8x32.size a ≤ S125000x8x32.size a)
instance k0_chk60.dec : ∀ (k0_t1 : Fin k0_t1_loop.trips) (v1242 : BitVec 32), Decidable (k0_chk60 k0_t1 v1242) := fun k0_t1 v1242 => decidable_of_iff' _ (Iff.of_eq (k0_chk60.eq_1 k0_t1 v1242))
theorem k0_off62_inb : ∀ (k0_t1 : Fin k0_t1_loop.trips) (v1242 : BitVec 32) (k0_hw60 : k0_chk60 k0_t1 v1242), ∀ (k0_h1 : k0_cond1 k0_t1 = 1#1), ∀ a, (k0_off62 v1242) a + S1x8x32.size a ≤ S125000x8x32.size a := fun k0_t1 v1242 k0_hw60 k0_h1 => k0_hw60 k0_h1

def k0_off63 (v1252 : BitVec 32) : Fin 3 → Nat :=
  let c0_i32_2335 : BitVec 32 := 0#32
  let c0_i32_2336 : BitVec 32 := 0#32
  ![v1252.toNat, 0, 0]

def k0_chk61 (k0_t1 : Fin k0_t1_loop.trips) (v1252 : BitVec 32) : Prop :=
  (∀ (k0_h1 : k0_cond1 k0_t1 = 1#1), ∀ a, (k0_off63 v1252) a + S1x8x32.size a ≤ S125000x8x32.size a)
instance k0_chk61.dec : ∀ (k0_t1 : Fin k0_t1_loop.trips) (v1252 : BitVec 32), Decidable (k0_chk61 k0_t1 v1252) := fun k0_t1 v1252 => decidable_of_iff' _ (Iff.of_eq (k0_chk61.eq_1 k0_t1 v1252))
theorem k0_off63_inb : ∀ (k0_t1 : Fin k0_t1_loop.trips) (v1252 : BitVec 32) (k0_hw61 : k0_chk61 k0_t1 v1252), ∀ (k0_h1 : k0_cond1 k0_t1 = 1#1), ∀ a, (k0_off63 v1252) a + S1x8x32.size a ≤ S125000x8x32.size a := fun k0_t1 v1252 k0_hw61 k0_h1 => k0_hw61 k0_h1

def k0_off64 (v1262 : BitVec 32) : Fin 3 → Nat :=
  let c0_i32_2352 : BitVec 32 := 0#32
  let c0_i32_2353 : BitVec 32 := 0#32
  ![v1262.toNat, 0, 0]

def k0_chk62 (k0_t1 : Fin k0_t1_loop.trips) (v1262 : BitVec 32) : Prop :=
  (∀ (k0_h1 : k0_cond1 k0_t1 = 1#1), ∀ a, (k0_off64 v1262) a + S1x8x32.size a ≤ S125000x8x32.size a)
instance k0_chk62.dec : ∀ (k0_t1 : Fin k0_t1_loop.trips) (v1262 : BitVec 32), Decidable (k0_chk62 k0_t1 v1262) := fun k0_t1 v1262 => decidable_of_iff' _ (Iff.of_eq (k0_chk62.eq_1 k0_t1 v1262))
theorem k0_off64_inb : ∀ (k0_t1 : Fin k0_t1_loop.trips) (v1262 : BitVec 32) (k0_hw62 : k0_chk62 k0_t1 v1262), ∀ (k0_h1 : k0_cond1 k0_t1 = 1#1), ∀ a, (k0_off64 v1262) a + S1x8x32.size a ≤ S125000x8x32.size a := fun k0_t1 v1262 k0_hw62 k0_h1 => k0_hw62 k0_h1

def k0_off65 (v1272 : BitVec 32) : Fin 3 → Nat :=
  let c0_i32_2369 : BitVec 32 := 0#32
  let c0_i32_2370 : BitVec 32 := 0#32
  ![v1272.toNat, 0, 0]

def k0_chk63 (k0_t1 : Fin k0_t1_loop.trips) (v1272 : BitVec 32) : Prop :=
  (∀ (k0_h1 : k0_cond1 k0_t1 = 1#1), ∀ a, (k0_off65 v1272) a + S1x8x32.size a ≤ S125000x8x32.size a)
instance k0_chk63.dec : ∀ (k0_t1 : Fin k0_t1_loop.trips) (v1272 : BitVec 32), Decidable (k0_chk63 k0_t1 v1272) := fun k0_t1 v1272 => decidable_of_iff' _ (Iff.of_eq (k0_chk63.eq_1 k0_t1 v1272))
theorem k0_off65_inb : ∀ (k0_t1 : Fin k0_t1_loop.trips) (v1272 : BitVec 32) (k0_hw63 : k0_chk63 k0_t1 v1272), ∀ (k0_h1 : k0_cond1 k0_t1 = 1#1), ∀ a, (k0_off65 v1272) a + S1x8x32.size a ≤ S125000x8x32.size a := fun k0_t1 v1272 k0_hw63 k0_h1 => k0_hw63 k0_h1

def k0_off66 (v1282 : BitVec 32) : Fin 3 → Nat :=
  let c0_i32_2386 : BitVec 32 := 0#32
  let c0_i32_2387 : BitVec 32 := 0#32
  ![v1282.toNat, 0, 0]

def k0_chk64 (k0_t1 : Fin k0_t1_loop.trips) (v1282 : BitVec 32) : Prop :=
  (∀ (k0_h1 : k0_cond1 k0_t1 = 1#1), ∀ a, (k0_off66 v1282) a + S1x8x32.size a ≤ S125000x8x32.size a)
instance k0_chk64.dec : ∀ (k0_t1 : Fin k0_t1_loop.trips) (v1282 : BitVec 32), Decidable (k0_chk64 k0_t1 v1282) := fun k0_t1 v1282 => decidable_of_iff' _ (Iff.of_eq (k0_chk64.eq_1 k0_t1 v1282))
theorem k0_off66_inb : ∀ (k0_t1 : Fin k0_t1_loop.trips) (v1282 : BitVec 32) (k0_hw64 : k0_chk64 k0_t1 v1282), ∀ (k0_h1 : k0_cond1 k0_t1 = 1#1), ∀ a, (k0_off66 v1282) a + S1x8x32.size a ≤ S125000x8x32.size a := fun k0_t1 v1282 k0_hw64 k0_h1 => k0_hw64 k0_h1

def k0_off67 (k0_t1 : Fin k0_t1_loop.trips) : Fin 1 → Nat :=
  let c0_i32_532 : BitVec 32 := 0#32
  let c1_i32_533 : BitVec 32 := 1#32
  let arg18 : BitVec 32 := Scf.iv c0_i32_532 c1_i32_533 k0_t1
  let c2_i32_561 : BitVec 32 := 2#32
  let v347 : BitVec 32 := Scalar.muli arg18 c2_i32_561
  let c0_i32_562 : BitVec 32 := 0#32
  let v348 : BitVec 32 := Scalar.addi v347 c0_i32_562
  let c16_i32_1175 : BitVec 32 := 16#32
  let v612 : BitVec 32 := Scalar.muli v348 c16_i32_1175
  let v613 : Index := Scalar.indexCast v612
  ![v613.toNat]
@[reducible] def k0_t2_loop : Scf.Loop 32 :=
  let c0_i32_1181 : BitVec 32 := 0#32
  let c32_i32_1182 : BitVec 32 := 32#32
  let v626 : BitVec 32 := Scalar.addi c0_i32_1181 c32_i32_1182
  let c1_i32_1183 : BitVec 32 := 1#32
  ⟨c0_i32_1181, v626, c1_i32_1183⟩

def k0_chk65 (v3 : IVec S16 32) (v616 : IVec S16 32) (v621 : IVec S16 32) (v623 : IVec S16 32) (v625 : IVec S16 32) (v961 : IVec S16 32) : Prop :=
  (∀ a x, ((![v3, v616, v961] : Fin 3 → IVec S16 32) a x).toNat < S16x8x32.size a) ∧
  (∀ a x, ((![v3, v621, v961] : Fin 3 → IVec S16 32) a x).toNat < S16x8x32.size a) ∧
  (∀ a x, ((![v623, v625, v961] : Fin 3 → IVec S16 32) a x).toNat < S2x8x32.size a)
instance k0_chk65.dec : ∀ (v3 : IVec S16 32) (v616 : IVec S16 32) (v621 : IVec S16 32) (v623 : IVec S16 32) (v625 : IVec S16 32) (v961 : IVec S16 32), Decidable (k0_chk65 v3 v616 v621 v623 v625 v961) := fun v3 v616 v621 v623 v625 v961 => decidable_of_iff' _ (Iff.of_eq (k0_chk65.eq_1 v3 v616 v621 v623 v625 v961))
theorem k0_idx1_inb : ∀ (v3 : IVec S16 32) (v616 : IVec S16 32) (v621 : IVec S16 32) (v623 : IVec S16 32) (v625 : IVec S16 32) (v961 : IVec S16 32) (k0_hw65 : k0_chk65 v3 v616 v621 v623 v625 v961), ∀ a x, ((![v3, v616, v961] : Fin 3 → IVec S16 32) a x).toNat < S16x8x32.size a := fun v3 v616 v621 v623 v625 v961 k0_hw65 => k0_hw65.1
theorem k0_idx2_inb : ∀ (v3 : IVec S16 32) (v616 : IVec S16 32) (v621 : IVec S16 32) (v623 : IVec S16 32) (v625 : IVec S16 32) (v961 : IVec S16 32) (k0_hw65 : k0_chk65 v3 v616 v621 v623 v625 v961), ∀ a x, ((![v3, v621, v961] : Fin 3 → IVec S16 32) a x).toNat < S16x8x32.size a := fun v3 v616 v621 v623 v625 v961 k0_hw65 => k0_hw65.2.1
theorem k0_idx3_inb : ∀ (v3 : IVec S16 32) (v616 : IVec S16 32) (v621 : IVec S16 32) (v623 : IVec S16 32) (v625 : IVec S16 32) (v961 : IVec S16 32) (k0_hw65 : k0_chk65 v3 v616 v621 v623 v625 v961), ∀ a x, ((![v623, v625, v961] : Fin 3 → IVec S16 32) a x).toNat < S2x8x32.size a := fun v3 v616 v621 v623 v625 v961 k0_hw65 => k0_hw65.2.2
def k0_off68 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1186 : BitVec 32 := 0#32
  let v628 : BitVec 1 := Scalar.cmpi .sgt v2 c0_i32_1186
  let v629 : BitVec 32 := Scalar.extui v628
  let c0_i32_1187 : BitVec 32 := 0#32
  let v630 : BitVec 1 := Scalar.cmpi .slt v2 c0_i32_1187
  let v631 : BitVec 32 := Scalar.extui v630
  let v632 : BitVec 32 := Scalar.subi v629 v631
  let c8_i32_1185 : BitVec 32 := 8#32
  let c0_i32_1188 : BitVec 32 := 0#32
  let v633 : BitVec 1 := Scalar.cmpi .sgt c8_i32_1185 c0_i32_1188
  let v634 : BitVec 32 := Scalar.extui v633
  let c0_i32_1189 : BitVec 32 := 0#32
  let v635 : BitVec 1 := Scalar.cmpi .slt c8_i32_1185 c0_i32_1189
  let v636 : BitVec 32 := Scalar.extui v635
  let v637 : BitVec 32 := Scalar.subi v634 v636
  let v638 : BitVec 1 := Scalar.cmpi .ne v632 v637
  let v639 : BitVec 32 := Scalar.remsi v2 c8_i32_1185
  let c0_i32_1190 : BitVec 32 := 0#32
  let v640 : BitVec 1 := Scalar.cmpi .ne v639 c0_i32_1190
  let v641 : BitVec 1 := Scalar.andi v638 v640
  let v627 : BitVec 32 := Scalar.divsi v2 c8_i32_1185
  let c1_i32_1191 : BitVec 32 := 1#32
  let v642 : BitVec 32 := Scalar.subi v627 c1_i32_1191
  let v643 : BitVec 32 := Scalar.select v641 v642 v627
  let c0_i32_532 : BitVec 32 := 0#32
  let c1_i32_533 : BitVec 32 := 1#32
  let arg18 : BitVec 32 := Scf.iv c0_i32_532 c1_i32_533 k0_t1
  let c2_i32_561 : BitVec 32 := 2#32
  let v347 : BitVec 32 := Scalar.muli arg18 c2_i32_561
  let c0_i32_562 : BitVec 32 := 0#32
  let v348 : BitVec 32 := Scalar.addi v347 c0_i32_562
  let c2_i32_1192 : BitVec 32 := 2#32
  let v644 : BitVec 32 := Scalar.muli v348 c2_i32_1192
  let v645 : BitVec 32 := Scalar.addi v643 v644
  let c0_i32_1197 : BitVec 32 := 0#32
  let c0_i32_1198 : BitVec 32 := 0#32
  ![v645.toNat, 0, 0]
def k0_cond3 (k0_t1 : Fin k0_t1_loop.trips) : BitVec 1 :=
  let c0_i32_532 : BitVec 32 := 0#32
  let c1_i32_533 : BitVec 32 := 1#32
  let arg18 : BitVec 32 := Scf.iv c0_i32_532 c1_i32_533 k0_t1
  let c2_i32_1204 : BitVec 32 := 2#32
  let v654 : BitVec 32 := Scalar.muli arg18 c2_i32_1204
  let c1_i32_1205 : BitVec 32 := 1#32
  let v655 : BitVec 32 := Scalar.addi v654 c1_i32_1205
  let c1_i32_1206 : BitVec 32 := 1#32
  let v656 : BitVec 32 := Scalar.addi v655 c1_i32_1206
  let c32_i32_1207 : BitVec 32 := 32#32
  let v657 : BitVec 1 := Scalar.cmpi .slt v656 c32_i32_1207
  let v658 : BitVec 32 := Scalar.extui v657
  let c0_i32_1208 : BitVec 32 := 0#32
  let v659 : BitVec 1 := Scalar.cmpi .ne v658 c0_i32_1208
  v659

def k0_off69 (k0_t1 : Fin k0_t1_loop.trips) : Fin 1 → Nat :=
  let c0_i32_532 : BitVec 32 := 0#32
  let c1_i32_533 : BitVec 32 := 1#32
  let arg18 : BitVec 32 := Scf.iv c0_i32_532 c1_i32_533 k0_t1
  let c2_i32_1204 : BitVec 32 := 2#32
  let v654 : BitVec 32 := Scalar.muli arg18 c2_i32_1204
  let c1_i32_1205 : BitVec 32 := 1#32
  let v655 : BitVec 32 := Scalar.addi v654 c1_i32_1205
  let c1_i32_1206 : BitVec 32 := 1#32
  let v656 : BitVec 32 := Scalar.addi v655 c1_i32_1206
  let c16_i32_1848 : BitVec 32 := 16#32
  let v961 : BitVec 32 := Scalar.muli v656 c16_i32_1848
  let v962 : Index := Scalar.indexCast v961
  ![v962.toNat]
def k0_off70 (v972 : BitVec 32) : Fin 3 → Nat :=
  let c0_i32_1859 : BitVec 32 := 0#32
  let c0_i32_1860 : BitVec 32 := 0#32
  ![v972.toNat, 0, 0]

def k0_chk66 (k0_t1 : Fin k0_t1_loop.trips) (v972 : BitVec 32) : Prop :=
  (∀ (k0_h3 : k0_cond3 k0_t1 = 1#1), ∀ a, (k0_off70 v972) a + S1x8x32.size a ≤ S125000x8x32.size a)
instance k0_chk66.dec : ∀ (k0_t1 : Fin k0_t1_loop.trips) (v972 : BitVec 32), Decidable (k0_chk66 k0_t1 v972) := fun k0_t1 v972 => decidable_of_iff' _ (Iff.of_eq (k0_chk66.eq_1 k0_t1 v972))
theorem k0_off70_inb : ∀ (k0_t1 : Fin k0_t1_loop.trips) (v972 : BitVec 32) (k0_hw66 : k0_chk66 k0_t1 v972), ∀ (k0_h3 : k0_cond3 k0_t1 = 1#1), ∀ a, (k0_off70 v972) a + S1x8x32.size a ≤ S125000x8x32.size a := fun k0_t1 v972 k0_hw66 k0_h3 => k0_hw66 k0_h3

def k0_off71 (v982 : BitVec 32) : Fin 3 → Nat :=
  let c0_i32_1876 : BitVec 32 := 0#32
  let c0_i32_1877 : BitVec 32 := 0#32
  ![v982.toNat, 0, 0]

def k0_chk67 (k0_t1 : Fin k0_t1_loop.trips) (v982 : BitVec 32) : Prop :=
  (∀ (k0_h3 : k0_cond3 k0_t1 = 1#1), ∀ a, (k0_off71 v982) a + S1x8x32.size a ≤ S125000x8x32.size a)
instance k0_chk67.dec : ∀ (k0_t1 : Fin k0_t1_loop.trips) (v982 : BitVec 32), Decidable (k0_chk67 k0_t1 v982) := fun k0_t1 v982 => decidable_of_iff' _ (Iff.of_eq (k0_chk67.eq_1 k0_t1 v982))
theorem k0_off71_inb : ∀ (k0_t1 : Fin k0_t1_loop.trips) (v982 : BitVec 32) (k0_hw67 : k0_chk67 k0_t1 v982), ∀ (k0_h3 : k0_cond3 k0_t1 = 1#1), ∀ a, (k0_off71 v982) a + S1x8x32.size a ≤ S125000x8x32.size a := fun k0_t1 v982 k0_hw67 k0_h3 => k0_hw67 k0_h3

def k0_off72 (v992 : BitVec 32) : Fin 3 → Nat :=
  let c0_i32_1893 : BitVec 32 := 0#32
  let c0_i32_1894 : BitVec 32 := 0#32
  ![v992.toNat, 0, 0]

def k0_chk68 (k0_t1 : Fin k0_t1_loop.trips) (v992 : BitVec 32) : Prop :=
  (∀ (k0_h3 : k0_cond3 k0_t1 = 1#1), ∀ a, (k0_off72 v992) a + S1x8x32.size a ≤ S125000x8x32.size a)
instance k0_chk68.dec : ∀ (k0_t1 : Fin k0_t1_loop.trips) (v992 : BitVec 32), Decidable (k0_chk68 k0_t1 v992) := fun k0_t1 v992 => decidable_of_iff' _ (Iff.of_eq (k0_chk68.eq_1 k0_t1 v992))
theorem k0_off72_inb : ∀ (k0_t1 : Fin k0_t1_loop.trips) (v992 : BitVec 32) (k0_hw68 : k0_chk68 k0_t1 v992), ∀ (k0_h3 : k0_cond3 k0_t1 = 1#1), ∀ a, (k0_off72 v992) a + S1x8x32.size a ≤ S125000x8x32.size a := fun k0_t1 v992 k0_hw68 k0_h3 => k0_hw68 k0_h3

def k0_off73 (v1002 : BitVec 32) : Fin 3 → Nat :=
  let c0_i32_1910 : BitVec 32 := 0#32
  let c0_i32_1911 : BitVec 32 := 0#32
  ![v1002.toNat, 0, 0]

def k0_chk69 (k0_t1 : Fin k0_t1_loop.trips) (v1002 : BitVec 32) : Prop :=
  (∀ (k0_h3 : k0_cond3 k0_t1 = 1#1), ∀ a, (k0_off73 v1002) a + S1x8x32.size a ≤ S125000x8x32.size a)
instance k0_chk69.dec : ∀ (k0_t1 : Fin k0_t1_loop.trips) (v1002 : BitVec 32), Decidable (k0_chk69 k0_t1 v1002) := fun k0_t1 v1002 => decidable_of_iff' _ (Iff.of_eq (k0_chk69.eq_1 k0_t1 v1002))
theorem k0_off73_inb : ∀ (k0_t1 : Fin k0_t1_loop.trips) (v1002 : BitVec 32) (k0_hw69 : k0_chk69 k0_t1 v1002), ∀ (k0_h3 : k0_cond3 k0_t1 = 1#1), ∀ a, (k0_off73 v1002) a + S1x8x32.size a ≤ S125000x8x32.size a := fun k0_t1 v1002 k0_hw69 k0_h3 => k0_hw69 k0_h3

def k0_off74 (v1012 : BitVec 32) : Fin 3 → Nat :=
  let c0_i32_1927 : BitVec 32 := 0#32
  let c0_i32_1928 : BitVec 32 := 0#32
  ![v1012.toNat, 0, 0]

def k0_chk70 (k0_t1 : Fin k0_t1_loop.trips) (v1012 : BitVec 32) : Prop :=
  (∀ (k0_h3 : k0_cond3 k0_t1 = 1#1), ∀ a, (k0_off74 v1012) a + S1x8x32.size a ≤ S125000x8x32.size a)
instance k0_chk70.dec : ∀ (k0_t1 : Fin k0_t1_loop.trips) (v1012 : BitVec 32), Decidable (k0_chk70 k0_t1 v1012) := fun k0_t1 v1012 => decidable_of_iff' _ (Iff.of_eq (k0_chk70.eq_1 k0_t1 v1012))
theorem k0_off74_inb : ∀ (k0_t1 : Fin k0_t1_loop.trips) (v1012 : BitVec 32) (k0_hw70 : k0_chk70 k0_t1 v1012), ∀ (k0_h3 : k0_cond3 k0_t1 = 1#1), ∀ a, (k0_off74 v1012) a + S1x8x32.size a ≤ S125000x8x32.size a := fun k0_t1 v1012 k0_hw70 k0_h3 => k0_hw70 k0_h3

def k0_off75 (v1022 : BitVec 32) : Fin 3 → Nat :=
  let c0_i32_1944 : BitVec 32 := 0#32
  let c0_i32_1945 : BitVec 32 := 0#32
  ![v1022.toNat, 0, 0]

def k0_chk71 (k0_t1 : Fin k0_t1_loop.trips) (v1022 : BitVec 32) : Prop :=
  (∀ (k0_h3 : k0_cond3 k0_t1 = 1#1), ∀ a, (k0_off75 v1022) a + S1x8x32.size a ≤ S125000x8x32.size a)
instance k0_chk71.dec : ∀ (k0_t1 : Fin k0_t1_loop.trips) (v1022 : BitVec 32), Decidable (k0_chk71 k0_t1 v1022) := fun k0_t1 v1022 => decidable_of_iff' _ (Iff.of_eq (k0_chk71.eq_1 k0_t1 v1022))
theorem k0_off75_inb : ∀ (k0_t1 : Fin k0_t1_loop.trips) (v1022 : BitVec 32) (k0_hw71 : k0_chk71 k0_t1 v1022), ∀ (k0_h3 : k0_cond3 k0_t1 = 1#1), ∀ a, (k0_off75 v1022) a + S1x8x32.size a ≤ S125000x8x32.size a := fun k0_t1 v1022 k0_hw71 k0_h3 => k0_hw71 k0_h3

def k0_off76 (v1032 : BitVec 32) : Fin 3 → Nat :=
  let c0_i32_1961 : BitVec 32 := 0#32
  let c0_i32_1962 : BitVec 32 := 0#32
  ![v1032.toNat, 0, 0]

def k0_chk72 (k0_t1 : Fin k0_t1_loop.trips) (v1032 : BitVec 32) : Prop :=
  (∀ (k0_h3 : k0_cond3 k0_t1 = 1#1), ∀ a, (k0_off76 v1032) a + S1x8x32.size a ≤ S125000x8x32.size a)
instance k0_chk72.dec : ∀ (k0_t1 : Fin k0_t1_loop.trips) (v1032 : BitVec 32), Decidable (k0_chk72 k0_t1 v1032) := fun k0_t1 v1032 => decidable_of_iff' _ (Iff.of_eq (k0_chk72.eq_1 k0_t1 v1032))
theorem k0_off76_inb : ∀ (k0_t1 : Fin k0_t1_loop.trips) (v1032 : BitVec 32) (k0_hw72 : k0_chk72 k0_t1 v1032), ∀ (k0_h3 : k0_cond3 k0_t1 = 1#1), ∀ a, (k0_off76 v1032) a + S1x8x32.size a ≤ S125000x8x32.size a := fun k0_t1 v1032 k0_hw72 k0_h3 => k0_hw72 k0_h3

def k0_off77 (v1042 : BitVec 32) : Fin 3 → Nat :=
  let c0_i32_1978 : BitVec 32 := 0#32
  let c0_i32_1979 : BitVec 32 := 0#32
  ![v1042.toNat, 0, 0]

def k0_chk73 (k0_t1 : Fin k0_t1_loop.trips) (v1042 : BitVec 32) : Prop :=
  (∀ (k0_h3 : k0_cond3 k0_t1 = 1#1), ∀ a, (k0_off77 v1042) a + S1x8x32.size a ≤ S125000x8x32.size a)
instance k0_chk73.dec : ∀ (k0_t1 : Fin k0_t1_loop.trips) (v1042 : BitVec 32), Decidable (k0_chk73 k0_t1 v1042) := fun k0_t1 v1042 => decidable_of_iff' _ (Iff.of_eq (k0_chk73.eq_1 k0_t1 v1042))
theorem k0_off77_inb : ∀ (k0_t1 : Fin k0_t1_loop.trips) (v1042 : BitVec 32) (k0_hw73 : k0_chk73 k0_t1 v1042), ∀ (k0_h3 : k0_cond3 k0_t1 = 1#1), ∀ a, (k0_off77 v1042) a + S1x8x32.size a ≤ S125000x8x32.size a := fun k0_t1 v1042 k0_hw73 k0_h3 => k0_hw73 k0_h3

def k0_off78 (v1052 : BitVec 32) : Fin 3 → Nat :=
  let c0_i32_1995 : BitVec 32 := 0#32
  let c0_i32_1996 : BitVec 32 := 0#32
  ![v1052.toNat, 0, 0]

def k0_chk74 (k0_t1 : Fin k0_t1_loop.trips) (v1052 : BitVec 32) : Prop :=
  (∀ (k0_h3 : k0_cond3 k0_t1 = 1#1), ∀ a, (k0_off78 v1052) a + S1x8x32.size a ≤ S125000x8x32.size a)
instance k0_chk74.dec : ∀ (k0_t1 : Fin k0_t1_loop.trips) (v1052 : BitVec 32), Decidable (k0_chk74 k0_t1 v1052) := fun k0_t1 v1052 => decidable_of_iff' _ (Iff.of_eq (k0_chk74.eq_1 k0_t1 v1052))
theorem k0_off78_inb : ∀ (k0_t1 : Fin k0_t1_loop.trips) (v1052 : BitVec 32) (k0_hw74 : k0_chk74 k0_t1 v1052), ∀ (k0_h3 : k0_cond3 k0_t1 = 1#1), ∀ a, (k0_off78 v1052) a + S1x8x32.size a ≤ S125000x8x32.size a := fun k0_t1 v1052 k0_hw74 k0_h3 => k0_hw74 k0_h3

def k0_off79 (v1062 : BitVec 32) : Fin 3 → Nat :=
  let c0_i32_2012 : BitVec 32 := 0#32
  let c0_i32_2013 : BitVec 32 := 0#32
  ![v1062.toNat, 0, 0]

def k0_chk75 (k0_t1 : Fin k0_t1_loop.trips) (v1062 : BitVec 32) : Prop :=
  (∀ (k0_h3 : k0_cond3 k0_t1 = 1#1), ∀ a, (k0_off79 v1062) a + S1x8x32.size a ≤ S125000x8x32.size a)
instance k0_chk75.dec : ∀ (k0_t1 : Fin k0_t1_loop.trips) (v1062 : BitVec 32), Decidable (k0_chk75 k0_t1 v1062) := fun k0_t1 v1062 => decidable_of_iff' _ (Iff.of_eq (k0_chk75.eq_1 k0_t1 v1062))
theorem k0_off79_inb : ∀ (k0_t1 : Fin k0_t1_loop.trips) (v1062 : BitVec 32) (k0_hw75 : k0_chk75 k0_t1 v1062), ∀ (k0_h3 : k0_cond3 k0_t1 = 1#1), ∀ a, (k0_off79 v1062) a + S1x8x32.size a ≤ S125000x8x32.size a := fun k0_t1 v1062 k0_hw75 k0_h3 => k0_hw75 k0_h3

def k0_off80 (v1072 : BitVec 32) : Fin 3 → Nat :=
  let c0_i32_2029 : BitVec 32 := 0#32
  let c0_i32_2030 : BitVec 32 := 0#32
  ![v1072.toNat, 0, 0]

def k0_chk76 (k0_t1 : Fin k0_t1_loop.trips) (v1072 : BitVec 32) : Prop :=
  (∀ (k0_h3 : k0_cond3 k0_t1 = 1#1), ∀ a, (k0_off80 v1072) a + S1x8x32.size a ≤ S125000x8x32.size a)
instance k0_chk76.dec : ∀ (k0_t1 : Fin k0_t1_loop.trips) (v1072 : BitVec 32), Decidable (k0_chk76 k0_t1 v1072) := fun k0_t1 v1072 => decidable_of_iff' _ (Iff.of_eq (k0_chk76.eq_1 k0_t1 v1072))
theorem k0_off80_inb : ∀ (k0_t1 : Fin k0_t1_loop.trips) (v1072 : BitVec 32) (k0_hw76 : k0_chk76 k0_t1 v1072), ∀ (k0_h3 : k0_cond3 k0_t1 = 1#1), ∀ a, (k0_off80 v1072) a + S1x8x32.size a ≤ S125000x8x32.size a := fun k0_t1 v1072 k0_hw76 k0_h3 => k0_hw76 k0_h3

def k0_off81 (v1082 : BitVec 32) : Fin 3 → Nat :=
  let c0_i32_2046 : BitVec 32 := 0#32
  let c0_i32_2047 : BitVec 32 := 0#32
  ![v1082.toNat, 0, 0]

def k0_chk77 (k0_t1 : Fin k0_t1_loop.trips) (v1082 : BitVec 32) : Prop :=
  (∀ (k0_h3 : k0_cond3 k0_t1 = 1#1), ∀ a, (k0_off81 v1082) a + S1x8x32.size a ≤ S125000x8x32.size a)
instance k0_chk77.dec : ∀ (k0_t1 : Fin k0_t1_loop.trips) (v1082 : BitVec 32), Decidable (k0_chk77 k0_t1 v1082) := fun k0_t1 v1082 => decidable_of_iff' _ (Iff.of_eq (k0_chk77.eq_1 k0_t1 v1082))
theorem k0_off81_inb : ∀ (k0_t1 : Fin k0_t1_loop.trips) (v1082 : BitVec 32) (k0_hw77 : k0_chk77 k0_t1 v1082), ∀ (k0_h3 : k0_cond3 k0_t1 = 1#1), ∀ a, (k0_off81 v1082) a + S1x8x32.size a ≤ S125000x8x32.size a := fun k0_t1 v1082 k0_hw77 k0_h3 => k0_hw77 k0_h3

def k0_off82 (v1092 : BitVec 32) : Fin 3 → Nat :=
  let c0_i32_2063 : BitVec 32 := 0#32
  let c0_i32_2064 : BitVec 32 := 0#32
  ![v1092.toNat, 0, 0]

def k0_chk78 (k0_t1 : Fin k0_t1_loop.trips) (v1092 : BitVec 32) : Prop :=
  (∀ (k0_h3 : k0_cond3 k0_t1 = 1#1), ∀ a, (k0_off82 v1092) a + S1x8x32.size a ≤ S125000x8x32.size a)
instance k0_chk78.dec : ∀ (k0_t1 : Fin k0_t1_loop.trips) (v1092 : BitVec 32), Decidable (k0_chk78 k0_t1 v1092) := fun k0_t1 v1092 => decidable_of_iff' _ (Iff.of_eq (k0_chk78.eq_1 k0_t1 v1092))
theorem k0_off82_inb : ∀ (k0_t1 : Fin k0_t1_loop.trips) (v1092 : BitVec 32) (k0_hw78 : k0_chk78 k0_t1 v1092), ∀ (k0_h3 : k0_cond3 k0_t1 = 1#1), ∀ a, (k0_off82 v1092) a + S1x8x32.size a ≤ S125000x8x32.size a := fun k0_t1 v1092 k0_hw78 k0_h3 => k0_hw78 k0_h3

def k0_off83 (v1102 : BitVec 32) : Fin 3 → Nat :=
  let c0_i32_2080 : BitVec 32 := 0#32
  let c0_i32_2081 : BitVec 32 := 0#32
  ![v1102.toNat, 0, 0]

def k0_chk79 (k0_t1 : Fin k0_t1_loop.trips) (v1102 : BitVec 32) : Prop :=
  (∀ (k0_h3 : k0_cond3 k0_t1 = 1#1), ∀ a, (k0_off83 v1102) a + S1x8x32.size a ≤ S125000x8x32.size a)
instance k0_chk79.dec : ∀ (k0_t1 : Fin k0_t1_loop.trips) (v1102 : BitVec 32), Decidable (k0_chk79 k0_t1 v1102) := fun k0_t1 v1102 => decidable_of_iff' _ (Iff.of_eq (k0_chk79.eq_1 k0_t1 v1102))
theorem k0_off83_inb : ∀ (k0_t1 : Fin k0_t1_loop.trips) (v1102 : BitVec 32) (k0_hw79 : k0_chk79 k0_t1 v1102), ∀ (k0_h3 : k0_cond3 k0_t1 = 1#1), ∀ a, (k0_off83 v1102) a + S1x8x32.size a ≤ S125000x8x32.size a := fun k0_t1 v1102 k0_hw79 k0_h3 => k0_hw79 k0_h3

def k0_off84 (v1112 : BitVec 32) : Fin 3 → Nat :=
  let c0_i32_2097 : BitVec 32 := 0#32
  let c0_i32_2098 : BitVec 32 := 0#32
  ![v1112.toNat, 0, 0]

def k0_chk80 (k0_t1 : Fin k0_t1_loop.trips) (v1112 : BitVec 32) : Prop :=
  (∀ (k0_h3 : k0_cond3 k0_t1 = 1#1), ∀ a, (k0_off84 v1112) a + S1x8x32.size a ≤ S125000x8x32.size a)
instance k0_chk80.dec : ∀ (k0_t1 : Fin k0_t1_loop.trips) (v1112 : BitVec 32), Decidable (k0_chk80 k0_t1 v1112) := fun k0_t1 v1112 => decidable_of_iff' _ (Iff.of_eq (k0_chk80.eq_1 k0_t1 v1112))
theorem k0_off84_inb : ∀ (k0_t1 : Fin k0_t1_loop.trips) (v1112 : BitVec 32) (k0_hw80 : k0_chk80 k0_t1 v1112), ∀ (k0_h3 : k0_cond3 k0_t1 = 1#1), ∀ a, (k0_off84 v1112) a + S1x8x32.size a ≤ S125000x8x32.size a := fun k0_t1 v1112 k0_hw80 k0_h3 => k0_hw80 k0_h3

def k0_off85 (v1122 : BitVec 32) : Fin 3 → Nat :=
  let c0_i32_2114 : BitVec 32 := 0#32
  let c0_i32_2115 : BitVec 32 := 0#32
  ![v1122.toNat, 0, 0]

def k0_chk81 (k0_t1 : Fin k0_t1_loop.trips) (v1122 : BitVec 32) : Prop :=
  (∀ (k0_h3 : k0_cond3 k0_t1 = 1#1), ∀ a, (k0_off85 v1122) a + S1x8x32.size a ≤ S125000x8x32.size a)
instance k0_chk81.dec : ∀ (k0_t1 : Fin k0_t1_loop.trips) (v1122 : BitVec 32), Decidable (k0_chk81 k0_t1 v1122) := fun k0_t1 v1122 => decidable_of_iff' _ (Iff.of_eq (k0_chk81.eq_1 k0_t1 v1122))
theorem k0_off85_inb : ∀ (k0_t1 : Fin k0_t1_loop.trips) (v1122 : BitVec 32) (k0_hw81 : k0_chk81 k0_t1 v1122), ∀ (k0_h3 : k0_cond3 k0_t1 = 1#1), ∀ a, (k0_off85 v1122) a + S1x8x32.size a ≤ S125000x8x32.size a := fun k0_t1 v1122 k0_hw81 k0_h3 => k0_hw81 k0_h3

def k0_off86 (v1132 : BitVec 32) : Fin 3 → Nat :=
  let c0_i32_2131 : BitVec 32 := 0#32
  let c0_i32_2132 : BitVec 32 := 0#32
  ![v1132.toNat, 0, 0]

def k0_chk82 (k0_t1 : Fin k0_t1_loop.trips) (v1132 : BitVec 32) : Prop :=
  (∀ (k0_h3 : k0_cond3 k0_t1 = 1#1), ∀ a, (k0_off86 v1132) a + S1x8x32.size a ≤ S125000x8x32.size a)
instance k0_chk82.dec : ∀ (k0_t1 : Fin k0_t1_loop.trips) (v1132 : BitVec 32), Decidable (k0_chk82 k0_t1 v1132) := fun k0_t1 v1132 => decidable_of_iff' _ (Iff.of_eq (k0_chk82.eq_1 k0_t1 v1132))
theorem k0_off86_inb : ∀ (k0_t1 : Fin k0_t1_loop.trips) (v1132 : BitVec 32) (k0_hw82 : k0_chk82 k0_t1 v1132), ∀ (k0_h3 : k0_cond3 k0_t1 = 1#1), ∀ a, (k0_off86 v1132) a + S1x8x32.size a ≤ S125000x8x32.size a := fun k0_t1 v1132 k0_hw82 k0_h3 => k0_hw82 k0_h3

def k0_off87 (v1142 : BitVec 32) : Fin 3 → Nat :=
  let c0_i32_2148 : BitVec 32 := 0#32
  let c0_i32_2149 : BitVec 32 := 0#32
  ![v1142.toNat, 0, 0]

def k0_chk83 (k0_t1 : Fin k0_t1_loop.trips) (v1142 : BitVec 32) : Prop :=
  (∀ (k0_h3 : k0_cond3 k0_t1 = 1#1), ∀ a, (k0_off87 v1142) a + S1x8x32.size a ≤ S125000x8x32.size a)
instance k0_chk83.dec : ∀ (k0_t1 : Fin k0_t1_loop.trips) (v1142 : BitVec 32), Decidable (k0_chk83 k0_t1 v1142) := fun k0_t1 v1142 => decidable_of_iff' _ (Iff.of_eq (k0_chk83.eq_1 k0_t1 v1142))
theorem k0_off87_inb : ∀ (k0_t1 : Fin k0_t1_loop.trips) (v1142 : BitVec 32) (k0_hw83 : k0_chk83 k0_t1 v1142), ∀ (k0_h3 : k0_cond3 k0_t1 = 1#1), ∀ a, (k0_off87 v1142) a + S1x8x32.size a ≤ S125000x8x32.size a := fun k0_t1 v1142 k0_hw83 k0_h3 => k0_hw83 k0_h3

def k0_off88 (v1152 : BitVec 32) : Fin 3 → Nat :=
  let c0_i32_2165 : BitVec 32 := 0#32
  let c0_i32_2166 : BitVec 32 := 0#32
  ![v1152.toNat, 0, 0]

def k0_chk84 (k0_t1 : Fin k0_t1_loop.trips) (v1152 : BitVec 32) : Prop :=
  (∀ (k0_h3 : k0_cond3 k0_t1 = 1#1), ∀ a, (k0_off88 v1152) a + S1x8x32.size a ≤ S125000x8x32.size a)
instance k0_chk84.dec : ∀ (k0_t1 : Fin k0_t1_loop.trips) (v1152 : BitVec 32), Decidable (k0_chk84 k0_t1 v1152) := fun k0_t1 v1152 => decidable_of_iff' _ (Iff.of_eq (k0_chk84.eq_1 k0_t1 v1152))
theorem k0_off88_inb : ∀ (k0_t1 : Fin k0_t1_loop.trips) (v1152 : BitVec 32) (k0_hw84 : k0_chk84 k0_t1 v1152), ∀ (k0_h3 : k0_cond3 k0_t1 = 1#1), ∀ a, (k0_off88 v1152) a + S1x8x32.size a ≤ S125000x8x32.size a := fun k0_t1 v1152 k0_hw84 k0_h3 => k0_hw84 k0_h3

def k0_off89 (v1162 : BitVec 32) : Fin 3 → Nat :=
  let c0_i32_2182 : BitVec 32 := 0#32
  let c0_i32_2183 : BitVec 32 := 0#32
  ![v1162.toNat, 0, 0]

def k0_chk85 (k0_t1 : Fin k0_t1_loop.trips) (v1162 : BitVec 32) : Prop :=
  (∀ (k0_h3 : k0_cond3 k0_t1 = 1#1), ∀ a, (k0_off89 v1162) a + S1x8x32.size a ≤ S125000x8x32.size a)
instance k0_chk85.dec : ∀ (k0_t1 : Fin k0_t1_loop.trips) (v1162 : BitVec 32), Decidable (k0_chk85 k0_t1 v1162) := fun k0_t1 v1162 => decidable_of_iff' _ (Iff.of_eq (k0_chk85.eq_1 k0_t1 v1162))
theorem k0_off89_inb : ∀ (k0_t1 : Fin k0_t1_loop.trips) (v1162 : BitVec 32) (k0_hw85 : k0_chk85 k0_t1 v1162), ∀ (k0_h3 : k0_cond3 k0_t1 = 1#1), ∀ a, (k0_off89 v1162) a + S1x8x32.size a ≤ S125000x8x32.size a := fun k0_t1 v1162 k0_hw85 k0_h3 => k0_hw85 k0_h3

def k0_off90 (v1172 : BitVec 32) : Fin 3 → Nat :=
  let c0_i32_2199 : BitVec 32 := 0#32
  let c0_i32_2200 : BitVec 32 := 0#32
  ![v1172.toNat, 0, 0]

def k0_chk86 (k0_t1 : Fin k0_t1_loop.trips) (v1172 : BitVec 32) : Prop :=
  (∀ (k0_h3 : k0_cond3 k0_t1 = 1#1), ∀ a, (k0_off90 v1172) a + S1x8x32.size a ≤ S125000x8x32.size a)
instance k0_chk86.dec : ∀ (k0_t1 : Fin k0_t1_loop.trips) (v1172 : BitVec 32), Decidable (k0_chk86 k0_t1 v1172) := fun k0_t1 v1172 => decidable_of_iff' _ (Iff.of_eq (k0_chk86.eq_1 k0_t1 v1172))
theorem k0_off90_inb : ∀ (k0_t1 : Fin k0_t1_loop.trips) (v1172 : BitVec 32) (k0_hw86 : k0_chk86 k0_t1 v1172), ∀ (k0_h3 : k0_cond3 k0_t1 = 1#1), ∀ a, (k0_off90 v1172) a + S1x8x32.size a ≤ S125000x8x32.size a := fun k0_t1 v1172 k0_hw86 k0_h3 => k0_hw86 k0_h3

def k0_off91 (v1182 : BitVec 32) : Fin 3 → Nat :=
  let c0_i32_2216 : BitVec 32 := 0#32
  let c0_i32_2217 : BitVec 32 := 0#32
  ![v1182.toNat, 0, 0]

def k0_chk87 (k0_t1 : Fin k0_t1_loop.trips) (v1182 : BitVec 32) : Prop :=
  (∀ (k0_h3 : k0_cond3 k0_t1 = 1#1), ∀ a, (k0_off91 v1182) a + S1x8x32.size a ≤ S125000x8x32.size a)
instance k0_chk87.dec : ∀ (k0_t1 : Fin k0_t1_loop.trips) (v1182 : BitVec 32), Decidable (k0_chk87 k0_t1 v1182) := fun k0_t1 v1182 => decidable_of_iff' _ (Iff.of_eq (k0_chk87.eq_1 k0_t1 v1182))
theorem k0_off91_inb : ∀ (k0_t1 : Fin k0_t1_loop.trips) (v1182 : BitVec 32) (k0_hw87 : k0_chk87 k0_t1 v1182), ∀ (k0_h3 : k0_cond3 k0_t1 = 1#1), ∀ a, (k0_off91 v1182) a + S1x8x32.size a ≤ S125000x8x32.size a := fun k0_t1 v1182 k0_hw87 k0_h3 => k0_hw87 k0_h3

def k0_off92 (v1192 : BitVec 32) : Fin 3 → Nat :=
  let c0_i32_2233 : BitVec 32 := 0#32
  let c0_i32_2234 : BitVec 32 := 0#32
  ![v1192.toNat, 0, 0]

def k0_chk88 (k0_t1 : Fin k0_t1_loop.trips) (v1192 : BitVec 32) : Prop :=
  (∀ (k0_h3 : k0_cond3 k0_t1 = 1#1), ∀ a, (k0_off92 v1192) a + S1x8x32.size a ≤ S125000x8x32.size a)
instance k0_chk88.dec : ∀ (k0_t1 : Fin k0_t1_loop.trips) (v1192 : BitVec 32), Decidable (k0_chk88 k0_t1 v1192) := fun k0_t1 v1192 => decidable_of_iff' _ (Iff.of_eq (k0_chk88.eq_1 k0_t1 v1192))
theorem k0_off92_inb : ∀ (k0_t1 : Fin k0_t1_loop.trips) (v1192 : BitVec 32) (k0_hw88 : k0_chk88 k0_t1 v1192), ∀ (k0_h3 : k0_cond3 k0_t1 = 1#1), ∀ a, (k0_off92 v1192) a + S1x8x32.size a ≤ S125000x8x32.size a := fun k0_t1 v1192 k0_hw88 k0_h3 => k0_hw88 k0_h3

def k0_off93 (v1202 : BitVec 32) : Fin 3 → Nat :=
  let c0_i32_2250 : BitVec 32 := 0#32
  let c0_i32_2251 : BitVec 32 := 0#32
  ![v1202.toNat, 0, 0]

def k0_chk89 (k0_t1 : Fin k0_t1_loop.trips) (v1202 : BitVec 32) : Prop :=
  (∀ (k0_h3 : k0_cond3 k0_t1 = 1#1), ∀ a, (k0_off93 v1202) a + S1x8x32.size a ≤ S125000x8x32.size a)
instance k0_chk89.dec : ∀ (k0_t1 : Fin k0_t1_loop.trips) (v1202 : BitVec 32), Decidable (k0_chk89 k0_t1 v1202) := fun k0_t1 v1202 => decidable_of_iff' _ (Iff.of_eq (k0_chk89.eq_1 k0_t1 v1202))
theorem k0_off93_inb : ∀ (k0_t1 : Fin k0_t1_loop.trips) (v1202 : BitVec 32) (k0_hw89 : k0_chk89 k0_t1 v1202), ∀ (k0_h3 : k0_cond3 k0_t1 = 1#1), ∀ a, (k0_off93 v1202) a + S1x8x32.size a ≤ S125000x8x32.size a := fun k0_t1 v1202 k0_hw89 k0_h3 => k0_hw89 k0_h3

def k0_off94 (v1212 : BitVec 32) : Fin 3 → Nat :=
  let c0_i32_2267 : BitVec 32 := 0#32
  let c0_i32_2268 : BitVec 32 := 0#32
  ![v1212.toNat, 0, 0]

def k0_chk90 (k0_t1 : Fin k0_t1_loop.trips) (v1212 : BitVec 32) : Prop :=
  (∀ (k0_h3 : k0_cond3 k0_t1 = 1#1), ∀ a, (k0_off94 v1212) a + S1x8x32.size a ≤ S125000x8x32.size a)
instance k0_chk90.dec : ∀ (k0_t1 : Fin k0_t1_loop.trips) (v1212 : BitVec 32), Decidable (k0_chk90 k0_t1 v1212) := fun k0_t1 v1212 => decidable_of_iff' _ (Iff.of_eq (k0_chk90.eq_1 k0_t1 v1212))
theorem k0_off94_inb : ∀ (k0_t1 : Fin k0_t1_loop.trips) (v1212 : BitVec 32) (k0_hw90 : k0_chk90 k0_t1 v1212), ∀ (k0_h3 : k0_cond3 k0_t1 = 1#1), ∀ a, (k0_off94 v1212) a + S1x8x32.size a ≤ S125000x8x32.size a := fun k0_t1 v1212 k0_hw90 k0_h3 => k0_hw90 k0_h3

def k0_off95 (v1222 : BitVec 32) : Fin 3 → Nat :=
  let c0_i32_2284 : BitVec 32 := 0#32
  let c0_i32_2285 : BitVec 32 := 0#32
  ![v1222.toNat, 0, 0]

def k0_chk91 (k0_t1 : Fin k0_t1_loop.trips) (v1222 : BitVec 32) : Prop :=
  (∀ (k0_h3 : k0_cond3 k0_t1 = 1#1), ∀ a, (k0_off95 v1222) a + S1x8x32.size a ≤ S125000x8x32.size a)
instance k0_chk91.dec : ∀ (k0_t1 : Fin k0_t1_loop.trips) (v1222 : BitVec 32), Decidable (k0_chk91 k0_t1 v1222) := fun k0_t1 v1222 => decidable_of_iff' _ (Iff.of_eq (k0_chk91.eq_1 k0_t1 v1222))
theorem k0_off95_inb : ∀ (k0_t1 : Fin k0_t1_loop.trips) (v1222 : BitVec 32) (k0_hw91 : k0_chk91 k0_t1 v1222), ∀ (k0_h3 : k0_cond3 k0_t1 = 1#1), ∀ a, (k0_off95 v1222) a + S1x8x32.size a ≤ S125000x8x32.size a := fun k0_t1 v1222 k0_hw91 k0_h3 => k0_hw91 k0_h3

def k0_off96 (v1232 : BitVec 32) : Fin 3 → Nat :=
  let c0_i32_2301 : BitVec 32 := 0#32
  let c0_i32_2302 : BitVec 32 := 0#32
  ![v1232.toNat, 0, 0]

def k0_chk92 (k0_t1 : Fin k0_t1_loop.trips) (v1232 : BitVec 32) : Prop :=
  (∀ (k0_h3 : k0_cond3 k0_t1 = 1#1), ∀ a, (k0_off96 v1232) a + S1x8x32.size a ≤ S125000x8x32.size a)
instance k0_chk92.dec : ∀ (k0_t1 : Fin k0_t1_loop.trips) (v1232 : BitVec 32), Decidable (k0_chk92 k0_t1 v1232) := fun k0_t1 v1232 => decidable_of_iff' _ (Iff.of_eq (k0_chk92.eq_1 k0_t1 v1232))
theorem k0_off96_inb : ∀ (k0_t1 : Fin k0_t1_loop.trips) (v1232 : BitVec 32) (k0_hw92 : k0_chk92 k0_t1 v1232), ∀ (k0_h3 : k0_cond3 k0_t1 = 1#1), ∀ a, (k0_off96 v1232) a + S1x8x32.size a ≤ S125000x8x32.size a := fun k0_t1 v1232 k0_hw92 k0_h3 => k0_hw92 k0_h3

def k0_off97 (v1242 : BitVec 32) : Fin 3 → Nat :=
  let c0_i32_2318 : BitVec 32 := 0#32
  let c0_i32_2319 : BitVec 32 := 0#32
  ![v1242.toNat, 0, 0]

def k0_chk93 (k0_t1 : Fin k0_t1_loop.trips) (v1242 : BitVec 32) : Prop :=
  (∀ (k0_h3 : k0_cond3 k0_t1 = 1#1), ∀ a, (k0_off97 v1242) a + S1x8x32.size a ≤ S125000x8x32.size a)
instance k0_chk93.dec : ∀ (k0_t1 : Fin k0_t1_loop.trips) (v1242 : BitVec 32), Decidable (k0_chk93 k0_t1 v1242) := fun k0_t1 v1242 => decidable_of_iff' _ (Iff.of_eq (k0_chk93.eq_1 k0_t1 v1242))
theorem k0_off97_inb : ∀ (k0_t1 : Fin k0_t1_loop.trips) (v1242 : BitVec 32) (k0_hw93 : k0_chk93 k0_t1 v1242), ∀ (k0_h3 : k0_cond3 k0_t1 = 1#1), ∀ a, (k0_off97 v1242) a + S1x8x32.size a ≤ S125000x8x32.size a := fun k0_t1 v1242 k0_hw93 k0_h3 => k0_hw93 k0_h3

def k0_off98 (v1252 : BitVec 32) : Fin 3 → Nat :=
  let c0_i32_2335 : BitVec 32 := 0#32
  let c0_i32_2336 : BitVec 32 := 0#32
  ![v1252.toNat, 0, 0]

def k0_chk94 (k0_t1 : Fin k0_t1_loop.trips) (v1252 : BitVec 32) : Prop :=
  (∀ (k0_h3 : k0_cond3 k0_t1 = 1#1), ∀ a, (k0_off98 v1252) a + S1x8x32.size a ≤ S125000x8x32.size a)
instance k0_chk94.dec : ∀ (k0_t1 : Fin k0_t1_loop.trips) (v1252 : BitVec 32), Decidable (k0_chk94 k0_t1 v1252) := fun k0_t1 v1252 => decidable_of_iff' _ (Iff.of_eq (k0_chk94.eq_1 k0_t1 v1252))
theorem k0_off98_inb : ∀ (k0_t1 : Fin k0_t1_loop.trips) (v1252 : BitVec 32) (k0_hw94 : k0_chk94 k0_t1 v1252), ∀ (k0_h3 : k0_cond3 k0_t1 = 1#1), ∀ a, (k0_off98 v1252) a + S1x8x32.size a ≤ S125000x8x32.size a := fun k0_t1 v1252 k0_hw94 k0_h3 => k0_hw94 k0_h3

def k0_off99 (v1262 : BitVec 32) : Fin 3 → Nat :=
  let c0_i32_2352 : BitVec 32 := 0#32
  let c0_i32_2353 : BitVec 32 := 0#32
  ![v1262.toNat, 0, 0]

def k0_chk95 (k0_t1 : Fin k0_t1_loop.trips) (v1262 : BitVec 32) : Prop :=
  (∀ (k0_h3 : k0_cond3 k0_t1 = 1#1), ∀ a, (k0_off99 v1262) a + S1x8x32.size a ≤ S125000x8x32.size a)
instance k0_chk95.dec : ∀ (k0_t1 : Fin k0_t1_loop.trips) (v1262 : BitVec 32), Decidable (k0_chk95 k0_t1 v1262) := fun k0_t1 v1262 => decidable_of_iff' _ (Iff.of_eq (k0_chk95.eq_1 k0_t1 v1262))
theorem k0_off99_inb : ∀ (k0_t1 : Fin k0_t1_loop.trips) (v1262 : BitVec 32) (k0_hw95 : k0_chk95 k0_t1 v1262), ∀ (k0_h3 : k0_cond3 k0_t1 = 1#1), ∀ a, (k0_off99 v1262) a + S1x8x32.size a ≤ S125000x8x32.size a := fun k0_t1 v1262 k0_hw95 k0_h3 => k0_hw95 k0_h3

def k0_off100 (v1272 : BitVec 32) : Fin 3 → Nat :=
  let c0_i32_2369 : BitVec 32 := 0#32
  let c0_i32_2370 : BitVec 32 := 0#32
  ![v1272.toNat, 0, 0]

def k0_chk96 (k0_t1 : Fin k0_t1_loop.trips) (v1272 : BitVec 32) : Prop :=
  (∀ (k0_h3 : k0_cond3 k0_t1 = 1#1), ∀ a, (k0_off100 v1272) a + S1x8x32.size a ≤ S125000x8x32.size a)
instance k0_chk96.dec : ∀ (k0_t1 : Fin k0_t1_loop.trips) (v1272 : BitVec 32), Decidable (k0_chk96 k0_t1 v1272) := fun k0_t1 v1272 => decidable_of_iff' _ (Iff.of_eq (k0_chk96.eq_1 k0_t1 v1272))
theorem k0_off100_inb : ∀ (k0_t1 : Fin k0_t1_loop.trips) (v1272 : BitVec 32) (k0_hw96 : k0_chk96 k0_t1 v1272), ∀ (k0_h3 : k0_cond3 k0_t1 = 1#1), ∀ a, (k0_off100 v1272) a + S1x8x32.size a ≤ S125000x8x32.size a := fun k0_t1 v1272 k0_hw96 k0_h3 => k0_hw96 k0_h3

def k0_off101 (v1282 : BitVec 32) : Fin 3 → Nat :=
  let c0_i32_2386 : BitVec 32 := 0#32
  let c0_i32_2387 : BitVec 32 := 0#32
  ![v1282.toNat, 0, 0]

def k0_chk97 (k0_t1 : Fin k0_t1_loop.trips) (v1282 : BitVec 32) : Prop :=
  (∀ (k0_h3 : k0_cond3 k0_t1 = 1#1), ∀ a, (k0_off101 v1282) a + S1x8x32.size a ≤ S125000x8x32.size a)
instance k0_chk97.dec : ∀ (k0_t1 : Fin k0_t1_loop.trips) (v1282 : BitVec 32), Decidable (k0_chk97 k0_t1 v1282) := fun k0_t1 v1282 => decidable_of_iff' _ (Iff.of_eq (k0_chk97.eq_1 k0_t1 v1282))
theorem k0_off101_inb : ∀ (k0_t1 : Fin k0_t1_loop.trips) (v1282 : BitVec 32) (k0_hw97 : k0_chk97 k0_t1 v1282), ∀ (k0_h3 : k0_cond3 k0_t1 = 1#1), ∀ a, (k0_off101 v1282) a + S1x8x32.size a ≤ S125000x8x32.size a := fun k0_t1 v1282 k0_hw97 k0_h3 => k0_hw97 k0_h3

def k0_off102 (k0_t1 : Fin k0_t1_loop.trips) : Fin 1 → Nat :=
  let c0_i32_532 : BitVec 32 := 0#32
  let c1_i32_533 : BitVec 32 := 1#32
  let arg18 : BitVec 32 := Scf.iv c0_i32_532 c1_i32_533 k0_t1
  let c2_i32_1204 : BitVec 32 := 2#32
  let v654 : BitVec 32 := Scalar.muli arg18 c2_i32_1204
  let c1_i32_1205 : BitVec 32 := 1#32
  let v655 : BitVec 32 := Scalar.addi v654 c1_i32_1205
  let c16_i32_1819 : BitVec 32 := 16#32
  let v919 : BitVec 32 := Scalar.muli v655 c16_i32_1819
  let v920 : Index := Scalar.indexCast v919
  ![v920.toNat]
@[reducible] def k0_t3_loop : Scf.Loop 32 :=
  let c0_i32_1825 : BitVec 32 := 0#32
  let c32_i32_1826 : BitVec 32 := 32#32
  let v933 : BitVec 32 := Scalar.addi c0_i32_1825 c32_i32_1826
  let c1_i32_1827 : BitVec 32 := 1#32
  ⟨c0_i32_1825, v933, c1_i32_1827⟩

def k0_chk98 (v3 : IVec S16 32) (v923 : IVec S16 32) (v928 : IVec S16 32) (v930 : IVec S16 32) (v932 : IVec S16 32) (v961 : IVec S16 32) : Prop :=
  (∀ a x, ((![v3, v923, v961] : Fin 3 → IVec S16 32) a x).toNat < S16x8x32.size a) ∧
  (∀ a x, ((![v3, v928, v961] : Fin 3 → IVec S16 32) a x).toNat < S16x8x32.size a) ∧
  (∀ a x, ((![v930, v932, v961] : Fin 3 → IVec S16 32) a x).toNat < S2x8x32.size a)
instance k0_chk98.dec : ∀ (v3 : IVec S16 32) (v923 : IVec S16 32) (v928 : IVec S16 32) (v930 : IVec S16 32) (v932 : IVec S16 32) (v961 : IVec S16 32), Decidable (k0_chk98 v3 v923 v928 v930 v932 v961) := fun v3 v923 v928 v930 v932 v961 => decidable_of_iff' _ (Iff.of_eq (k0_chk98.eq_1 v3 v923 v928 v930 v932 v961))
theorem k0_idx4_inb : ∀ (v3 : IVec S16 32) (v923 : IVec S16 32) (v928 : IVec S16 32) (v930 : IVec S16 32) (v932 : IVec S16 32) (v961 : IVec S16 32) (k0_hw98 : k0_chk98 v3 v923 v928 v930 v932 v961), ∀ a x, ((![v3, v923, v961] : Fin 3 → IVec S16 32) a x).toNat < S16x8x32.size a := fun v3 v923 v928 v930 v932 v961 k0_hw98 => k0_hw98.1
theorem k0_idx5_inb : ∀ (v3 : IVec S16 32) (v923 : IVec S16 32) (v928 : IVec S16 32) (v930 : IVec S16 32) (v932 : IVec S16 32) (v961 : IVec S16 32) (k0_hw98 : k0_chk98 v3 v923 v928 v930 v932 v961), ∀ a x, ((![v3, v928, v961] : Fin 3 → IVec S16 32) a x).toNat < S16x8x32.size a := fun v3 v923 v928 v930 v932 v961 k0_hw98 => k0_hw98.2.1
theorem k0_idx6_inb : ∀ (v3 : IVec S16 32) (v923 : IVec S16 32) (v928 : IVec S16 32) (v930 : IVec S16 32) (v932 : IVec S16 32) (v961 : IVec S16 32) (k0_hw98 : k0_chk98 v3 v923 v928 v930 v932 v961), ∀ a x, ((![v930, v932, v961] : Fin 3 → IVec S16 32) a x).toNat < S2x8x32.size a := fun v3 v923 v928 v930 v932 v961 k0_hw98 => k0_hw98.2.2
def k0_off103 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1830 : BitVec 32 := 0#32
  let v935 : BitVec 1 := Scalar.cmpi .sgt v2 c0_i32_1830
  let v936 : BitVec 32 := Scalar.extui v935
  let c0_i32_1831 : BitVec 32 := 0#32
  let v937 : BitVec 1 := Scalar.cmpi .slt v2 c0_i32_1831
  let v938 : BitVec 32 := Scalar.extui v937
  let v939 : BitVec 32 := Scalar.subi v936 v938
  let c8_i32_1829 : BitVec 32 := 8#32
  let c0_i32_1832 : BitVec 32 := 0#32
  let v940 : BitVec 1 := Scalar.cmpi .sgt c8_i32_1829 c0_i32_1832
  let v941 : BitVec 32 := Scalar.extui v940
  let c0_i32_1833 : BitVec 32 := 0#32
  let v942 : BitVec 1 := Scalar.cmpi .slt c8_i32_1829 c0_i32_1833
  let v943 : BitVec 32 := Scalar.extui v942
  let v944 : BitVec 32 := Scalar.subi v941 v943
  let v945 : BitVec 1 := Scalar.cmpi .ne v939 v944
  let v946 : BitVec 32 := Scalar.remsi v2 c8_i32_1829
  let c0_i32_1834 : BitVec 32 := 0#32
  let v947 : BitVec 1 := Scalar.cmpi .ne v946 c0_i32_1834
  let v948 : BitVec 1 := Scalar.andi v945 v947
  let v934 : BitVec 32 := Scalar.divsi v2 c8_i32_1829
  let c1_i32_1835 : BitVec 32 := 1#32
  let v949 : BitVec 32 := Scalar.subi v934 c1_i32_1835
  let v950 : BitVec 32 := Scalar.select v948 v949 v934
  let c0_i32_532 : BitVec 32 := 0#32
  let c1_i32_533 : BitVec 32 := 1#32
  let arg18 : BitVec 32 := Scf.iv c0_i32_532 c1_i32_533 k0_t1
  let c2_i32_1204 : BitVec 32 := 2#32
  let v654 : BitVec 32 := Scalar.muli arg18 c2_i32_1204
  let c1_i32_1205 : BitVec 32 := 1#32
  let v655 : BitVec 32 := Scalar.addi v654 c1_i32_1205
  let c2_i32_1836 : BitVec 32 := 2#32
  let v951 : BitVec 32 := Scalar.muli v655 c2_i32_1836
  let v952 : BitVec 32 := Scalar.addi v950 v951
  let c0_i32_1841 : BitVec 32 := 0#32
  let c0_i32_1842 : BitVec 32 := 0#32
  ![v952.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x32_S125000x8x32 : S1000000x32.ShapeCasts S125000x8x32
  iota_S16_d0_w32_scVector : S16.Iotas .scVector 32 [0]
  inb_S512_S16_0 : ∀ a, (![0] : Fin 1 → Nat) a + S16.size a ≤ S512.size a
  h_S16 : 0 < S16.numel
  slices_S16_o0_S1 : S16.Slices ![0] S1
  inpos_S1_p0 : ∀ a, (![0] : Fin 1 → Nat) a < S1.size a
  inb_S2x16x8x32_S1x16x8x32_0_0_0_0 : ∀ a, (![0, 0, 0, 0] : Fin 4 → Nat) a + S1x16x8x32.size a ≤ S2x16x8x32.size a
  squeezes_S1x16x8x32_S16x8x32 : S1x16x8x32.Squeezes S16x8x32
  inb_S16x8x32_S1x8x32_0_0_0 : ∀ a, (![0, 0, 0] : Fin 3 → Nat) a + S1x8x32.size a ≤ S16x8x32.size a
  slices_S16_o1_S1 : S16.Slices ![1] S1
  inb_S16x8x32_S1x8x32_1_0_0 : ∀ a, (![1, 0, 0] : Fin 3 → Nat) a + S1x8x32.size a ≤ S16x8x32.size a
  slices_S16_o2_S1 : S16.Slices ![2] S1
  inb_S16x8x32_S1x8x32_2_0_0 : ∀ a, (![2, 0, 0] : Fin 3 → Nat) a + S1x8x32.size a ≤ S16x8x32.size a
  slices_S16_o3_S1 : S16.Slices ![3] S1
  inb_S16x8x32_S1x8x32_3_0_0 : ∀ a, (![3, 0, 0] : Fin 3 → Nat) a + S1x8x32.size a ≤ S16x8x32.size a
  slices_S16_o4_S1 : S16.Slices ![4] S1
  inb_S16x8x32_S1x8x32_4_0_0 : ∀ a, (![4, 0, 0] : Fin 3 → Nat) a + S1x8x32.size a ≤ S16x8x32.size a
  slices_S16_o5_S1 : S16.Slices ![5] S1
  inb_S16x8x32_S1x8x32_5_0_0 : ∀ a, (![5, 0, 0] : Fin 3 → Nat) a + S1x8x32.size a ≤ S16x8x32.size a
  slices_S16_o6_S1 : S16.Slices ![6] S1
  inb_S16x8x32_S1x8x32_6_0_0 : ∀ a, (![6, 0, 0] : Fin 3 → Nat) a + S1x8x32.size a ≤ S16x8x32.size a
  slices_S16_o7_S1 : S16.Slices ![7] S1
  inb_S16x8x32_S1x8x32_7_0_0 : ∀ a, (![7, 0, 0] : Fin 3 → Nat) a + S1x8x32.size a ≤ S16x8x32.size a
  slices_S16_o8_S1 : S16.Slices ![8] S1
  inb_S16x8x32_S1x8x32_8_0_0 : ∀ a, (![8, 0, 0] : Fin 3 → Nat) a + S1x8x32.size a ≤ S16x8x32.size a
  slices_S16_o9_S1 : S16.Slices ![9] S1
  inb_S16x8x32_S1x8x32_9_0_0 : ∀ a, (![9, 0, 0] : Fin 3 → Nat) a + S1x8x32.size a ≤ S16x8x32.size a
  slices_S16_o10_S1 : S16.Slices ![10] S1
  inb_S16x8x32_S1x8x32_10_0_0 : ∀ a, (![10, 0, 0] : Fin 3 → Nat) a + S1x8x32.size a ≤ S16x8x32.size a
  slices_S16_o11_S1 : S16.Slices ![11] S1
  inb_S16x8x32_S1x8x32_11_0_0 : ∀ a, (![11, 0, 0] : Fin 3 → Nat) a + S1x8x32.size a ≤ S16x8x32.size a
  slices_S16_o12_S1 : S16.Slices ![12] S1
  inb_S16x8x32_S1x8x32_12_0_0 : ∀ a, (![12, 0, 0] : Fin 3 → Nat) a + S1x8x32.size a ≤ S16x8x32.size a
  slices_S16_o13_S1 : S16.Slices ![13] S1
  inb_S16x8x32_S1x8x32_13_0_0 : ∀ a, (![13, 0, 0] : Fin 3 → Nat) a + S1x8x32.size a ≤ S16x8x32.size a
  slices_S16_o14_S1 : S16.Slices ![14] S1
  inb_S16x8x32_S1x8x32_14_0_0 : ∀ a, (![14, 0, 0] : Fin 3 → Nat) a + S1x8x32.size a ≤ S16x8x32.size a
  slices_S16_o15_S1 : S16.Slices ![15] S1
  inb_S16x8x32_S1x8x32_15_0_0 : ∀ a, (![15, 0, 0] : Fin 3 → Nat) a + S1x8x32.size a ≤ S16x8x32.size a
  inb_S2x16x8x32_S1x16x8x32_1_0_0_0 : ∀ a, (![1, 0, 0, 0] : Fin 4 → Nat) a + S1x16x8x32.size a ≤ S2x16x8x32.size a
  inb_S125000x8x32_S1x8x32_0_0_0 : ∀ a, (![0, 0, 0] : Fin 3 → Nat) a + S1x8x32.size a ≤ S125000x8x32.size a
  inb_S2x2x8x32_S1x2x8x32_0_0_0_0 : ∀ a, (![0, 0, 0, 0] : Fin 4 → Nat) a + S1x2x8x32.size a ≤ S2x2x8x32.size a
  squeezes_S1x2x8x32_S2x8x32 : S1x2x8x32.Squeezes S2x8x32
  reshapes_S16384x32_S2048x8x32 : S2048x8x32.numel = S16384x32.numel ∧ (2 ≤ S16384x32.rank ∧ 2 ≤ S2048x8x32.rank)
  inb_S2048x8x32_S2x8x32_0_0_0 : ∀ a, (![0, 0, 0] : Fin 3 → Nat) a + S2x8x32.size a ≤ S2048x8x32.size a
  h_S16x8x32 : 0 < S16x8x32.numel
  h_S2x8x32 : 0 < S2x8x32.numel
  inb_S2x2x8x32_S1x2x8x32_1_0_0_0 : ∀ a, (![1, 0, 0, 0] : Fin 4 → Nat) a + S1x2x8x32.size a ≤ S2x2x8x32.size a
  hcc0_scratch5 : 0 + S_.numel ≤ 8
  hcc0_scratch6 : 1 + S_.numel ≤ 8
  hcc0_scratch7 : 2 + S_.numel ≤ 8
  hcc0_scratch8 : 3 + S_.numel ≤ 8
  hcc0_scratch9 : 4 + S_.numel ≤ 8
  hcc0_scratch10 : 5 + S_.numel ≤ 8
  hcc0_scoped0 : 6 + S_.numel ≤ 8
  hcc0_scoped1 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off34_inb : ∀ k0_t1 : Fin k0_t1_loop.trips, ∀ (k0_h1 : k0_cond1 k0_t1 = 1#1), ∀ a, (k0_off34 k0_t1) a + S16.size a ≤ S512.size a
  k0_off67_inb : ∀ k0_t1 : Fin k0_t1_loop.trips, ∀ a, (k0_off67 k0_t1) a + S16.size a ≤ S512.size a
  k0_t2_ok : k0_t2_loop.OK
  k0_off68_inb : ∀ (i : grid0.Coords) (k0_t1 : Fin k0_t1_loop.trips), ∀ a, (k0_off68 i k0_t1) a + S2x8x32.size a ≤ S2048x8x32.size a
  k0_off69_inb : ∀ k0_t1 : Fin k0_t1_loop.trips, ∀ (k0_h3 : k0_cond3 k0_t1 = 1#1), ∀ a, (k0_off69 k0_t1) a + S16.size a ≤ S512.size a
  k0_off102_inb : ∀ k0_t1 : Fin k0_t1_loop.trips, ∀ a, (k0_off102 k0_t1) a + S16.size a ≤ S512.size a
  k0_t3_ok : k0_t3_loop.OK
  k0_off103_inb : ∀ (i : grid0.Coords) (k0_t1 : Fin k0_t1_loop.trips), ∀ a, (k0_off103 i k0_t1) a + S2x8x32.size a ≤ S2048x8x32.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scoped0 : DmaSems sig S_ := SemArray.consecutive 6 S_ hcc0_scoped0
abbrev cc0_scoped1 : DmaSems sig S_ := SemArray.consecutive 7 S_ hcc0_scoped1

class Facts : Prop extends Facts₀ where

variable [Facts]
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x32, .f32⟩
  | .hbm, ⟨23, _⟩ => ⟨S16384x32, .i1⟩
  | .hbm, ⟨24, _⟩ => ⟨S_, .f32⟩
  | .hbm, ⟨25, _⟩ => ⟨S16384x32, .f32⟩
  | .hbm, ⟨26, _⟩ => ⟨S16384x32, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x32, .f32⟩
  | .hbm, ⟨46, _⟩ => ⟨S16384x32, .i1⟩
  | .hbm, ⟨47, _⟩ => ⟨S_, .f32⟩
  | .hbm, ⟨48, _⟩ => ⟨S16384x32, .f32⟩
  | .hbm, ⟨49, _⟩ => ⟨S16384x32, .f32⟩
  | .hbm, ⟨50, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  gather_S1000000x32_S16384x1_S16384x32_1_0_n_n_0_1_132_wf : GatherDims.WF S1000000x32 S16384x1 S16384x32 [1] [0] [] [0] [] 1 ![1, 32]

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf

class Facts : Prop extends Facts₀ where

variable [Facts]
-- ==== Proof.IfaceKI.lean ====
/-
  The shared vocabulary of this certificate's kernel-side proof, generic in the float instance.

  The kernel runs once on each of the 32 vector subcores (2 SparseCores × 16 subcores). Subcore (c, s) owns the
  512 batch positions [512·(2s+c), 512·(2s+c)+512): it copies those words of the two index arrays into its
  scratch, and for each of 32 chunks of 16 positions copies, per position, the 8-row block `table3[idx / 8]` of
  each table (the tables reshaped to [125000, 8, 32]) into a double-buffered scratch, picks row `idx % 8` out of each
  block, multiplies the two rows entry by entry, and copies the 16 product rows out to the result.

  So the result array is ONE function of the four argument arrays: entry (b, f) is
  `user_table[user b, f] · item_table[item b, f]`, read here through the reshaped tables as
  `tab0[user b / 8, user b % 8, f] · tab1[item b / 8, item b % 8, f]` (`G` below). What a subcore is handed
  (`goPay`) and hands back (`tdPay`): its 512 words of each index array, 32 read tokens of each reshaped table
  (one per in-flight block copy: 16 slots × 2 buffers), and its 512 rows of the result, at the launch contents
  going in and at `G` coming back.
-/
import proofs.«219339_g11596411699725_week1_w4_1023_23_alg».proof.KernelIdeal
import proofs.«219339_g11596411699725_week1_w4_1023_23_alg».proof.Proof.Gen.KernelIdeal
import Idealize.ShloMosaic.Lib.SparseCore.Launch
import Idealize.ShloMosaic.Lib.Pipeline.Kit
import Idealize.ShloMosaic.Lib.Transfers
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the launch handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The two index arrays, the two reshaped tables and the result, as locations of device `d`. -/
abbrev uLoc (d : Dev nD) : Loc nD τ sig := (SparseCore.T d).loc main_arg0
abbrev iLoc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev t0Loc (d : Dev nD) : Loc nD τ sig := (SparseCore.T d).loc main_v0
abbrev t1Loc (d : Dev nD) : Loc nD τ sig := (SparseCore.T d).loc main_v1
abbrev oLoc (d : Dev nD) : Loc nD τ sig := (SparseCore.T d).loc main_v2

variable (m : (ℓ : Loc nD τ sig) → Buf (Elt F) ℓ)

/-- A table as the kernel finds it: the argument's entries at the shape [125000, 8, 32]. -/
def tab0 (d : Dev nD) : Buf (Elt F) (t0Loc d) := shapeCast S125000x8x32 (m (a2Loc d)) shapeCasts_S1000000x32_S125000x8x32
def tab1 (d : Dev nD) : Buf (Elt F) (t1Loc d) := shapeCast S125000x8x32 (m (a3Loc d)) shapeCasts_S1000000x32_S125000x8x32

/-- The 8-row block and the row inside it that an index word names. -/
def blkOf (w : BitVec 32) : Fin 125000 := ⟨w.toNat / 8 % 125000, Nat.mod_lt _ (by decide)⟩
def subOf (w : BitVec 32) : Fin 8 := ⟨w.toNat % 8, Nat.mod_lt _ (by decide)⟩

/-- The rows of a reshaped table that an index array names, one per batch position. -/
def rowsOf (t : FVec F S125000x8x32 .f32) (u : IVec S16384 32) : FVec F S16384x32 .f32 :=
  fun j => t (ValueIdx.ix3 (blkOf (u (ValueIdx.ix1 (j 0)))) (subOf (u (ValueIdx.ix1 (j 0)))) (j 1))

variable [FloatOps F]

/-- The result: the entrywise product of the two tables' named rows. -/
def G (d : Dev nD) : Buf (Elt F) (oLoc d) := mulf (rowsOf (tab0 m d) (m (uLoc d))) (rowsOf (tab1 m d) (m (iLoc d)))

/-! ## A subcore's share -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev uV : Memref sig .scVector .hbm S16384 .i32 := Memref.whole main_arg0_scv
abbrev iV : Memref sig .scVector .hbm S16384 .i32 := Memref.whole main_arg1_scv
abbrev t0V : Memref sig .scVector .hbm S125000x8x32 .f32 := Memref.whole main_v0_scv
abbrev t1V : Memref sig .scVector .hbm S125000x8x32 .f32 := Memref.whole main_v1_scv
abbrev oV : Memref sig .scVector .hbm S16384x32 .f32 := Memref.whole main_v2_scv

/-- The subcore's 512 positions of an index array, as the body slices them. -/
abbrev idxRect (L : grid0.Coords) : Rect S16384 := Rect.unit (s := S16384) (k0_off1 L) S512.size (k0_off1_inb L)
abbrev uRow (L : grid0.Coords) : Memref sig .scVector .hbm S512 .i32 := (uV).slice (idxRect L) (fun _ => rfl)
abbrev iRow (L : grid0.Coords) : Memref sig .scVector .hbm S512 .i32 := (iV).slice (idxRect L) (fun _ => rfl)
abbrev idxSet (L : grid0.Coords) : Finset S16384.Idx := (uRow L).view.set

/-- The first batch position of the subcore. -/
def base (L : grid0.Coords) : ℕ := 512 * (2 * (L 1).val + (L 0).val)

/-- The subcore's 512 rows of the result. -/
def outSet (L : grid0.Coords) : Finset S16384x32.Idx :=
  Finset.univ.filter fun j => base L ≤ (j 0).val ∧ (j 0).val < base L + 512

/-- The number of the subcore's `k`-th read token of a table, among 1024. -/
def tokIx (L : grid0.Coords) (k : Fin 32) : ℕ := ((L 0).val * 16 + (L 1).val) * 32 + k.val

/-- What subcore `L` of device `d` is handed: its positions of both index arrays, 32 read tokens of each reshaped
    table, and its rows of the result at `fo`. -/
def tilePay (d : Dev nD) (L : grid0.Coords) (fo : Buf (Elt F) (oLoc d)) : sProp 𝕄 :=
  iprop((uLoc d ↦[idxSet L]{fullShare} m (uLoc d)) ∗ (iLoc d ↦[idxSet L]{fullShare} m (iLoc d))
    ∗ (bigSep Finset.univ fun k : Fin 32 => t0Loc d ↦{shareTokN fullShare (tokIx L k)} tab0 m d)
    ∗ (bigSep Finset.univ fun k : Fin 32 => t1Loc d ↦{shareTokN fullShare (tokIx L k)} tab1 m d)
    ∗ (oLoc d ↦[outSet L]{fullShare} fo))

abbrev goPay (d : Dev nD) (L : grid0.Coords) : sProp 𝕄 := tilePay m d L (m (oLoc d))
abbrev tdPay (d : Dev nD) (L : grid0.Coords) : sProp 𝕄 := tilePay m d L (G m d)

/-- What the proof asks of the launch memory: every index word is a row number of its table. -/
def PreOK : Prop := ∀ (d : Dev nD) (j : S16384.Idx), (m (uLoc d) j).toNat < 1000000 ∧ (m (iLoc d) j).toNat < 1000000

/-! ## The subcore's task, as the launch theorem asks it -/

abbrev cV (L : grid0.Coords) : Fin τ.nSC := (L 0).castLE hcore0
abbrev jV (L : grid0.Coords) : Fin τ.nSub := (L 1).castLE hsub0

/-- The kernel function at subcore `L`, on the whole arrays and the subcore's scratch, as the body table calls it. -/
abbrev tileProg (L : grid0.Coords) :=
  cc0__gmf_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1

/-- The task of subcore `L`: from its share at the launch contents, its scratch and semaphores, it runs to the end
    and hands back its share with its rows of the result at `G`. -/
def TileSpec : Prop :=
  ∀ (d : Dev nD) (L : grid0.Coords) (O : CellTallies nD τ sig (HIx 1)) (W : Waits sig (HIx 1)), (∀ g, O g none = 0) →
    iprop(levAts (K (F := F)).L (K (F := F)).lev ∗ emp ∗ goPay m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tdPay m d L ∗ scopedBufs (V d (cV L) (jV L)) ∗ scopedSems0 (V d (cV L) (jV L))
            ∗ ∃ W', ⌜∀ p ∈ W', p ∈ W ∨ p.2 = none⌝ ∗ owes (V d (cV L) (jV L)) O W')

/-- What the launch proves from it: the program runs, the result ends at `G`, the four arguments unchanged. -/
def QRun : PUnit × MemSt nD τ sig (Elt F) → Prop := fun r => ∀ c : Dev nD,
  r.2.mem (oLoc c) = G m c ∧ r.2.mem (uLoc c) = m (uLoc c) ∧ r.2.mem (iLoc c) = m (iLoc c)
    ∧ r.2.mem (a2Loc c) = m (a2Loc c) ∧ r.2.mem (a3Loc c) = m (a3Loc c)

end Cert.Proof.KI

end
-- ==== Proof.SplitKI.lean ====
/-
  How the arrays the TensorCore holds whole divide among the 32 vector subcores.

  Subcore s of SparseCore c owns the batch positions [512·(2s+c), 512·(2s+c)+512). As (c, s) runs over 2 × 16 these
  32 intervals are pairwise disjoint and cover [0, 16384): so an index array held whole is the 32 slices held apart,
  and so is the result by its 32 row ranges. A table every subcore reads is not cut: it is held under 1024 read
  tokens beside a remainder, token number (16c + s)·32 + k being the k-th of subcore (c, s); those numbers enumerate
  [0, 1024) exactly once.
-/
import proofs.«219339_g11596411699725_week1_w4_1023_23_alg».proof.Proof.IfaceKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

/-! ## The grid's subcores -/

/-- A subcore of the grid: its SparseCore, then its number there. -/
abbrev GP : Type := Fin (grid0.bound 0) × Fin (grid0.bound 1)
abbrev LL (p : GP) : grid0.Coords := coordsV p.1 p.2

theorem base_LL (p : GP) : base (LL p) = 512 * (2 * p.2.val + p.1.val) := rfl
theorem tokIx_LL (p : GP) (k : Fin 32) : tokIx (LL p) k = (p.1.val * 16 + p.2.val) * 32 + k.val := rfl
theorem GP_lt (p : GP) : p.1.val < 2 ∧ p.2.val < 16 := ⟨p.1.isLt, p.2.isLt⟩

/-! ## The index arrays: 32 slices of 512 positions -/

theorem idxSet_eq (L : grid0.Coords) : idxSet L = (idxRect L).set := by
  show ((View.whole (main_arg0_scv : Ref sig .scVector)).slice (idxRect L)).set = _
  rw [View.set_slice]; exact Finset.map_refl

/-- The subcore's positions of an index array are the 512 from its first. -/
theorem mem_idxSet (L : grid0.Coords) (j : S16384.Idx) : j ∈ idxSet L ↔ base L ≤ (j 0).val ∧ (j 0).val < base L + 512 := by
  rw [idxSet_eq, Rect.mem_set_unit, k0_off1_eq]
  unfold base
  constructor
  · intro h
    have h0 := h 0
    simp only [Matrix.cons_val_zero] at h0
    change _ ∧ _ < _ + 512 at h0
    omega
  · intro h a
    obtain rfl : a = 0 := Subsingleton.elim _ _
    simp only [Matrix.cons_val_zero]
    change _ ∧ _ < _ + 512
    omega

theorem idx_disjoint : ∀ p ∈ (Finset.univ : Finset GP), ∀ p' ∈ (Finset.univ : Finset GP), p ≠ p' → Disjoint (idxSet (LL p)) (idxSet (LL p')) := by
  intro p _ p' _ hne
  rw [Finset.disjoint_left]
  intro j hj hj'
  rw [mem_idxSet, base_LL] at hj hj'
  have h := GP_lt p; have h' := GP_lt p'
  exact hne (Prod.ext (Fin.ext (by omega)) (Fin.ext (by omega)))

theorem idx_cover : (Finset.univ : Finset GP).biUnion (fun p => idxSet (LL p)) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 1024, show _ < 16 by omega⟩), ?_⟩
  rw [mem_idxSet, base_LL]
  dsimp only
  omega

/-- An index array held whole is its 32 slices held apart. -/
theorem uPts_split (d : Dev nD) (f : Buf (Elt F) (uLoc d)) :
    (uLoc d ↦{fullShare} f : sProp 𝕄)
      = bigSep Finset.univ fun c : Fin (grid0.bound 0) => bigSep Finset.univ fun s : Fin (grid0.bound 1) => uLoc d ↦[idxSet (coordsV c s)]{fullShare} f := by
  rw [← bigSep_univ_prod (fun p : GP => (uLoc d ↦[idxSet (LL p)]{fullShare} f : sProp 𝕄)),
    ← pointsTo_biUnion Finset.univ (ℓ := uLoc d) (fun p : GP => idxSet (LL p)) idx_disjoint, idx_cover]; try rfl
theorem iPts_split (d : Dev nD) (f : Buf (Elt F) (iLoc d)) :
    (iLoc d ↦{fullShare} f : sProp 𝕄)
      = bigSep Finset.univ fun c : Fin (grid0.bound 0) => bigSep Finset.univ fun s : Fin (grid0.bound 1) => iLoc d ↦[idxSet (coordsV c s)]{fullShare} f := by
  rw [← bigSep_univ_prod (fun p : GP => (iLoc d ↦[idxSet (LL p)]{fullShare} f : sProp 𝕄)),
    ← pointsTo_biUnion Finset.univ (ℓ := iLoc d) (fun p : GP => idxSet (LL p)) idx_disjoint, idx_cover]; try rfl

/-! ## The result: 32 ranges of 512 rows -/

theorem mem_outSet (L : grid0.Coords) (j : S16384x32.Idx) : j ∈ outSet L ↔ base L ≤ (j 0).val ∧ (j 0).val < base L + 512 := by
  unfold outSet; rw [Finset.mem_filter]; exact ⟨fun h => h.2, fun h => ⟨Finset.mem_univ _, h⟩⟩

theorem out_disjoint : ∀ p ∈ (Finset.univ : Finset GP), ∀ p' ∈ (Finset.univ : Finset GP), p ≠ p' → Disjoint (outSet (LL p)) (outSet (LL p')) := by
  intro p _ p' _ hne
  rw [Finset.disjoint_left]
  intro j hj hj'
  rw [mem_outSet, base_LL] at hj hj'
  have h := GP_lt p; have h' := GP_lt p'
  exact hne (Prod.ext (Fin.ext (by omega)) (Fin.ext (by omega)))

theorem out_cover : (Finset.univ : Finset GP).biUnion (fun p => outSet (LL p)) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 1024, show _ < 16 by omega⟩), ?_⟩
  rw [mem_outSet, base_LL]
  dsimp only
  omega

/-- The result held whole at one function is its 32 row ranges held apart at that function. -/
theorem oPts_split (d : Dev nD) (f : Buf (Elt F) (oLoc d)) :
    (oLoc d ↦{fullShare} f : sProp 𝕄)
      = bigSep Finset.univ fun c : Fin (grid0.bound 0) => bigSep Finset.univ fun s : Fin (grid0.bound 1) => oLoc d ↦[outSet (coordsV c s)]{fullShare} f := by
  rw [← bigSep_univ_prod (fun p : GP => (oLoc d ↦[outSet (LL p)]{fullShare} f : sProp 𝕄)),
    ← pointsTo_biUnion Finset.univ (ℓ := oLoc d) (fun p : GP => outSet (LL p)) out_disjoint, out_cover]; try rfl

/-! ## The tables: 1024 read tokens -/

theorem tok_image : (Finset.univ : Finset (GP × Fin 32)).image (fun x => tokIx (LL x.1) x.2) = Finset.range 1024 := by
  ext n
  simp only [Finset.mem_image, Finset.mem_univ, true_and, Finset.mem_range]
  constructor
  · rintro ⟨⟨p, k⟩, rfl⟩
    show (p.1.val * 16 + p.2.val) * 32 + k.val < 1024
    have h := GP_lt p; have hk := k.isLt
    omega
  · intro hn
    refine ⟨((⟨n / 512, show _ < 2 by omega⟩, ⟨n / 32 % 16, Nat.mod_lt _ (by decide)⟩), ⟨n % 32, Nat.mod_lt _ (by decide)⟩), ?_⟩
    rw [tokIx_LL]
    dsimp only
    omega

theorem tok_inj : Set.InjOn (fun x : GP × Fin 32 => tokIx (LL x.1) x.2) ((Finset.univ : Finset (GP × Fin 32)) : Set (GP × Fin 32)) := by
  rintro ⟨p, k⟩ _ ⟨p', k'⟩ _ e
  have e' : (p.1.val * 16 + p.2.val) * 32 + k.val = (p'.1.val * 16 + p'.2.val) * 32 + k'.val := e
  have h := GP_lt p; have h' := GP_lt p'; have hk := k.isLt; have hk' := k'.isLt
  refine Prod.ext (Prod.ext (Fin.ext ?_) (Fin.ext ?_)) (Fin.ext ?_) <;> dsimp only <;> omega

/-- A table held whole is a remainder and 1024 read tokens, 32 per subcore. -/
theorem toks_split (ℓ : Loc nD τ sig) (f : Buf (Elt F) ℓ) :
    (ℓ ↦{fullShare} f : sProp 𝕄) ⊣⊢ iprop((ℓ ↦{shareDrop fullShare 1024} f)
      ∗ bigSep Finset.univ fun c : Fin (grid0.bound 0) => bigSep Finset.univ fun s : Fin (grid0.bound 1) =>
          bigSep Finset.univ fun k : Fin 32 => ℓ ↦{shareTokN fullShare (tokIx (coordsV c s) k)} f) := by
  have e : (bigSep (Finset.range 1024) fun i => (ℓ ↦{shareTokN fullShare i} f : sProp 𝕄))
      = bigSep Finset.univ fun c : Fin (grid0.bound 0) => bigSep Finset.univ fun s : Fin (grid0.bound 1) =>
          bigSep Finset.univ fun k : Fin 32 => ℓ ↦{shareTokN fullShare (tokIx (coordsV c s) k)} f := by
    rw [← tok_image, SparseCore.bigSep_image_of_injOn tok_inj, bigSep_univ_prod, bigSep_univ_prod]
  rw [← e]
  exact Transfers.pointsTo_toks_range fullShare 1024

end Cert.Proof.KI

end
-- ==== Proof.LaunchKI.lean ====
/-
  The launch: from the task of one vector subcore (`TileSpec`) to the run of the whole program.

  The program is @main on the TensorCore beside the two SparseCores' sequencers and their 32 vector subcores. @main
  reshapes each table to [125000, 8, 32] (the same entries in row-major order), starts the kernel on every subcore,
  waits for them and returns. What the TensorCore holds whole it hands out in shares: each index array and the
  result cut into the 32 subcores' ranges of 512 positions, each reshaped table as 32 read tokens per subcore (the
  remainder of the table's share is not needed again). Every subcore hands its share back with its rows of the
  result at the one function `G`, so the 32 row ranges join to the result held whole at `G`; the index arrays join
  back unchanged, and the two table arguments were never handed out. The final memory therefore reads `QRun`.
-/
import proofs.«219339_g11596411699725_week1_w4_1023_23_alg».proof.Proof.IfaceKI
import proofs.«219339_g11596411699725_week1_w4_1023_23_alg».proof.Proof.SplitKI
import proofs.«219339_g11596411699725_week1_w4_1023_23_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.StableHlo (held wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

variable (m : (ℓ : Loc nD τ sig) → Buf (Elt F) ℓ) (ρ : Dev nD → PrngReg)

variable [FloatOps F]

/-! ## What the handshakes carry -/

instance tilePay_storable (d : Dev nD) (L : grid0.Coords) (fo : Buf (Elt F) (oLoc d)) : BI.Storable (upEmb : UEmb _ 𝕄) (tilePay m d L fo) := by
  unfold tilePay; infer_instance

/-- The one call hands SparseCore `c` the shares of its 16 subcores, each subcore its own, and brings them back with
    the result's rows at `G`. -/
def P : (K (F := F)).Pay (nD := nD) (Val := Elt F) (Name := ℕ) (U := UU) where
  st := fun q d c => match q with
    | 0 => bigSep Finset.univ fun s : Fin (grid0.bound 1) => goPay m d (coordsV (Fin.cast nCore_zero c) s)
  dn := fun q d c => match q with
    | 0 => bigSep Finset.univ fun s : Fin (grid0.bound 1) => tdPay m d (coordsV (Fin.cast nCore_zero c) s)
  go := fun q d c i => match q with
    | 0 => goPay m d (coordsV (Fin.cast nCore_zero c) (Fin.cast nSub_zero i))
  td := fun q d c i => match q with
    | 0 => tdPay m d (coordsV (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin (grid0.bound 1) => goPay m d (coordsV (Fin.cast nCore_zero c) s)))
  dn q d c := match q with
    | 0 => (inferInstance : BI.Storable (upEmb : UEmb _ 𝕄) (bigSep Finset.univ fun s : Fin (grid0.bound 1) => tdPay m d (coordsV (Fin.cast nCore_zero c) s)))
  go q d c i := match q with
    | 0 => (inferInstance : BI.Storable (upEmb : UEmb _ 𝕄) (goPay m d (coordsV (Fin.cast nCore_zero c) (Fin.cast nSub_zero i))))
  td q d c i := match q with
    | 0 => (inferInstance : BI.Storable (upEmb : UEmb _ 𝕄) (tdPay m d (coordsV (Fin.cast nCore_zero c) (Fin.cast nSub_zero i))))

/-! ## The launch theorem's obligations -/

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileSpec (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem P_st (d : Dev nD) (c : Fin ((K (F := F)).nCore 0)) :
    (P m).st 0 d c = bigSep Finset.univ fun s : Fin (grid0.bound 1) => goPay m d (coordsV (Fin.cast nCore_zero c) s) := rfl
theorem P_dn (d : Dev nD) (c : Fin ((K (F := F)).nCore 0)) :
    (P m).dn 0 d c = bigSep Finset.univ fun s : Fin (grid0.bound 1) => tdPay m d (coordsV (Fin.cast nCore_zero c) s) := rfl
theorem P_go (d : Dev nD) (c : Fin ((K (F := F)).nCore 0)) :
    (bigSep Finset.univ fun i : Fin ((K (F := F)).nSub 0) => (P m).go 0 d c i)
      = bigSep Finset.univ fun s : Fin (grid0.bound 1) => goPay m d (coordsV (Fin.cast nCore_zero c) s) :=
  bigSep_tasks (F := F) (fun s => goPay m d (coordsV (Fin.cast nCore_zero c) s))
theorem P_td (d : Dev nD) (c : Fin ((K (F := F)).nCore 0)) :
    (bigSep Finset.univ fun i : Fin ((K (F := F)).nSub 0) => (P m).td 0 d c i)
      = bigSep Finset.univ fun s : Fin (grid0.bound 1) => tdPay m d (coordsV (Fin.cast nCore_zero c) s) :=
  bigSep_tasks (F := F) (fun s => tdPay m d (coordsV (Fin.cast nCore_zero c) s))

/-- A SparseCore's operands are its subcores' shares, and so are its results. -/
theorem vecSplit : (K (F := F)).VecSplit' (P m) 0 := by
  intro d c
  rw [P_go, P_td, P_st, P_dn]
  iintro H; imodintro
  isplitl [H]; · iexact H
  iintro H; iexact H

/-! ## The launch element: the handshakes' rounds; the transfers' counters are not needed from it -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The shares, gathered -/

/-- A table's 1024 read tokens, 32 per subcore. -/
abbrev toks (ℓ : Loc nD τ sig) (f : Buf (Elt F) ℓ) : sProp 𝕄 :=
  bigSep Finset.univ fun c : Fin (grid0.bound 0) => bigSep Finset.univ fun s : Fin (grid0.bound 1) =>
    bigSep Finset.univ fun k : Fin 32 => ℓ ↦{shareTokN fullShare (tokIx (coordsV c s) k)} f

omit [FloatOps F] in
theorem bigSep2_sep {α β : Type} [Fintype α] [Fintype β] (Φ Ψ : α → β → sProp 𝕄) :
    (bigSep Finset.univ fun c => bigSep Finset.univ fun s => iprop(Φ c s ∗ Ψ c s))
      = iprop((bigSep Finset.univ fun c => bigSep Finset.univ fun s => Φ c s) ∗ (bigSep Finset.univ fun c => bigSep Finset.univ fun s => Ψ c s)) := by
  rw [← bigSep_sep']; exact bigSep_congr fun c _ => bigSep_sep' _ _ _

omit [FloatOps F] in
/-- All 32 shares together are the index arrays and the result held whole, beside the tables' tokens. -/
theorem pays_eq (d : Dev nD) (fo : Buf (Elt F) (oLoc d)) :
    (bigSep Finset.univ fun c : Fin (grid0.bound 0) => bigSep Finset.univ fun s : Fin (grid0.bound 1) => tilePay m d (coordsV c s) fo)
      = iprop((uLoc d ↦{fullShare} m (uLoc d)) ∗ (iLoc d ↦{fullShare} m (iLoc d)) ∗ toks (t0Loc d) (tab0 m d) ∗ toks (t1Loc d) (tab1 m d)
          ∗ (oLoc d ↦{fullShare} fo)) := by
  unfold tilePay
  rw [bigSep2_sep, bigSep2_sep, bigSep2_sep, bigSep2_sep, ← uPts_split, ← iPts_split, ← oPts_split]

theorem st0_eq (d : Dev nD) : (bigSep Finset.univ fun c : Fin ((K (F := F)).nCore 0) => (P m).st 0 d c)
    = iprop((uLoc d ↦{fullShare} m (uLoc d)) ∗ (iLoc d ↦{fullShare} m (iLoc d)) ∗ toks (t0Loc d) (tab0 m d) ∗ toks (t1Loc d) (tab1 m d)
        ∗ (oLoc d ↦{fullShare} m (oLoc d))) :=
  pays_eq m d (m (oLoc d))
theorem dn0_eq (d : Dev nD) : (bigSep Finset.univ fun c : Fin ((K (F := F)).nCore 0) => (P m).dn 0 d c)
    = iprop((uLoc d ↦{fullShare} m (uLoc d)) ∗ (iLoc d ↦{fullShare} m (iLoc d)) ∗ toks (t0Loc d) (tab0 m d) ∗ toks (t1Loc d) (tab1 m d)
        ∗ (oLoc d ↦{fullShare} G m d)) :=
  pays_eq m d (G m d)

/-! ## @main on the TensorCore -/

abbrev u' : DevRef τ sig := Proc.devRef .tc (main_arg0 : Ref sig .tc)
abbrev i' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev t0' : DevRef τ sig := Proc.devRef .tc (main_v0 : Ref sig .tc)
abbrev t1' : DevRef τ sig := Proc.devRef .tc (main_v1 : Ref sig .tc)
abbrev o' : DevRef τ sig := Proc.devRef .tc (main_v2 : Ref sig .tc)
abbrev opR0 : HloOp τ sig (Elt F) := StableHlo.reshape main_arg2 main_v0 rfl shapeCasts_S1000000x32_S125000x8x32
abbrev opR1 : HloOp τ sig (Elt F) := StableHlo.reshape main_arg3 main_v1 rfl shapeCasts_S1000000x32_S125000x8x32

/-- The TensorCore's arrays, all unscoped. -/
abbrev S7 : Finset (DevRef τ sig) := {u', i', a2', a3', t0', t1', o'}

omit [FloatOps F] in
theorem held_S7 (d : Dev nD) (W : Valuation τ sig (Elt F)) :
    (held (T d) S7 W : sProp 𝕄) = iprop((uLoc d ↦{fullShare} W u') ∗ (iLoc d ↦{fullShare} W i') ∗ (a2Loc d ↦{fullShare} W a2') ∗ (a3Loc d ↦{fullShare} W a3')
      ∗ (t0Loc d ↦{fullShare} W t0') ∗ (t1Loc d ↦{fullShare} W t1') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (a2Loc d ↦{fullShare} W main_arg2)
      ∗ (a3Loc d ↦{fullShare} W main_arg3) ∗ (t0Loc d ↦{fullShare} W main_v0) ∗ (t1Loc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the arrays after the two reshapes. -/
def V0 (d : Dev nD) : Valuation τ sig (Elt F) := fun b => m (d, b)
def V2 (d : Dev nD) : Valuation τ sig (Elt F) := (opR1 (F := F)).result ((opR0 (F := F)).result (V0 m d))

theorem unscoped_held (d : Dev nD) : (unscopedBufs d (fun b => m ((SparseCore.T d).loc b)) : sProp 𝕄) = held (T d) S7 (V0 m d) := by
  rw [unscopedBufs_eq, held_S7]; rfl

theorem V2_keep {b : DevRef τ sig} (d : Dev nD) (h0 : b ∉ ({t0'} : Finset (DevRef τ sig))) (h1 : b ∉ ({t1'} : Finset (DevRef τ sig))) : V2 m d b = V0 m d b := by
  unfold V2
  rw [(opR1 (F := F)).result_of_not_mem _ (b := b) h1, (opR0 (F := F)).result_of_not_mem _ (b := b) h0]

/-- A reshape's result is the argument's entries at the new shape. -/
theorem V2_t0 (d : Dev nD) : V2 m d t0' = tab0 m d := by
  unfold V2
  rw [(opR1 (F := F)).result_of_not_mem _ (b := t0') (show t0' ∉ ({t1'} : Finset (DevRef τ sig)) by decide)]
  exact StableHlo.reshape_result main_arg2 main_v0 rfl _ _ _ (V0 m d)
theorem V2_t1 (d : Dev nD) : V2 m d t1' = tab1 m d := by
  unfold V2
  refine (StableHlo.reshape_result main_arg3 main_v1 rfl _ _ _ _).trans ?_
  rw [(opR0 (F := F)).result_of_not_mem _ (b := a3') (show a3' ∉ ({t0'} : Finset (DevRef τ sig)) by decide)]
  rfl

theorem held_V2 (d : Dev nD) :
    (held (T d) S7 ((opR1 (F := F)).result ((opR0 (F := F)).result (V0 m d))) : sProp 𝕄) = iprop((uLoc d ↦{fullShare} m (uLoc d)) ∗ (iLoc d ↦{fullShare} m (iLoc d)) ∗ (a2Loc d ↦{fullShare} m (a2Loc d))
      ∗ (a3Loc d ↦{fullShare} m (a3Loc d)) ∗ (t0Loc d ↦{fullShare} tab0 m d) ∗ (t1Loc d ↦{fullShare} tab1 m d) ∗ (oLoc d ↦{fullShare} m (oLoc d))) := by
  show (held (T d) S7 (V2 m d) : sProp 𝕄) = _
  rw [held_S7, V2_t0, V2_t1, V2_keep m d (b := u') (by decide) (by decide), V2_keep m d (b := i') (by decide) (by decide),
    V2_keep m d (b := a2') (by decide) (by decide), V2_keep m d (b := a3') (by decide) (by decide), V2_keep m d (b := o') (by decide) (by decide)]
  rfl

theorem hR0 : (opR0 (F := F)).bufs ⊆ S7 := show ({a2', t0'} : Finset (DevRef τ sig)) ⊆ S7 by decide
theorem hR1 : (opR1 (F := F)).bufs ⊆ S7 := show ({a3', t1'} : Finset (DevRef τ sig)) ⊆ S7 by decide

/-- What @main leaves the claim: the result at `G`, the four arguments at their launch contents. -/
abbrev FIN (d : Dev nD) : sProp 𝕄 :=
  iprop((oLoc d ↦{fullShare} G m d) ∗ (uLoc d ↦{fullShare} m (uLoc d)) ∗ (iLoc d ↦{fullShare} m (iLoc d))
    ∗ (a2Loc d ↦{fullShare} m (a2Loc d)) ∗ (a3Loc d ↦{fullShare} m (a3Loc d)))

/-- @main on device `d`'s TensorCore: the two reshapes, then the call, from the 32 shares and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes, over the arrays held whole
  iapply (wp_hlo_within 𝒱 (SparseCore.T d) none Set.univ (op := opR0) (S := S7) hR0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S7) hR1 (V := (opR0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Hu, Hi, Ha2, Ha3, Ht0, Ht1, Ho⟩
  -- each reshaped table as read tokens; the remainder of its share is not needed again
  ihave Ht0' := ((toks_split (F := F) (t0Loc d) (tab0 m d)).1) $$ Ht0
  icases Ht0' with ⟨-, Ht0⟩
  ihave Ht1' := ((toks_split (F := F) (t1Loc d) (tab1 m d)).1) $$ Ht1
  icases Ht1' with ⟨-, Ht1⟩
  -- the call: the 32 shares out and back
  iapply ((K (F := F)).wp_run (D (F := F)) 𝒱 (EH := EH) (P := P m) κ d 0) $$ [Hst Hu Hi Ht0 Ht1 Ho Ha2 Ha3]
  isplitr; · iexact Hctx
  isplitl [Hst]; · iexact Hst
  isplitl [Hu Hi Ht0 Ht1 Ho]
  · rw [st0_eq]
    isplitl [Hu]; · iexact Hu
    isplitl [Hi]; · iexact Hi
    isplitl [Ht0]; · iexact Ht0
    isplitl [Ht1]; · iexact Ht1
    iexact Ho
  iintro ⟨Hst, Hdn⟩
  ihave Hdn' := (Entails.of_eq (dn0_eq m d)) $$ Hdn
  icases Hdn' with ⟨Hu, Hi, -, -, Ho⟩
  imodintro
  isplitl [Hst]; · iexact Hst
  isplitl [Ho]; · iexact Ho
  isplitl [Hu]; · iexact Hu
  isplitl [Hi]; · iexact Hi
  isplitl [Ha2]; · iexact Ha2
  iexact Ha3

def fq (d : Dev nD) (s' : Phys nD τ sig (Elt F)) : Prop :=
  s'.mem.mem (oLoc d) = G m d ∧ s'.mem.mem (uLoc d) = m (uLoc d) ∧ s'.mem.mem (iLoc d) = m (iLoc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ho, Hu, Hi, Ha2, Ha3⟩, HSI⟩
  ihave H := (persistent_entails_right (SI_pointsTo_agree (st := s') (ℓ := oLoc d) (I := Finset.univ) (q := fullShare) (f := G m d))) $$ [HSI Ho]
  · isplitl [HSI] <;> iassumption
  icases H with ⟨%h0, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (SI_pointsTo_agree (st := s') (ℓ := a3Loc d) (I := Finset.univ) (q := fullShare) (f := m (a3Loc d))) $$ [HSI Ha3]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-! ## The program's run -/

/-- Every weakly fair execution of the program's threads ends, nothing faulting, with the result at `G` and the four
    arguments unchanged — given the subcore's task. -/
theorem run_main [∀ e, Nonempty (Elt F e)] (hpre : PreOK m) (htile : TileSpec (F := F) m) :
    θ_run (Cert.KernelIdeal.defs (F := F)) (Cert.KernelIdeal.threads (F := F)) ⟨m, fun _ => 0, ρ⟩ (QRun m) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QRun m) (fun _ h => h)

end Cert.Proof.KI

end
-- ==== Proof.IfaceK.lean ====
/-
  The shared vocabulary of this certificate's kernel-side proof, generic in the float instance.

  The kernel runs once on each of the 32 vector subcores (2 SparseCores × 16 subcores). Subcore (c, s) owns the
  512 batch positions [512·(2s+c), 512·(2s+c)+512): it copies those words of the two index arrays into its
  scratch, and for each of 32 chunks of 16 positions copies, per position, the 8-row block `table3[idx / 8]` of
  each table (the tables reshaped to [125000, 8, 32]) into a double-buffered scratch, picks row `idx % 8` out of each
  block, multiplies the two rows entry by entry, and copies the 16 product rows out to the result.

  So the result array is ONE function of the four argument arrays: entry (b, f) is
  `user_table[user b, f] · item_table[item b, f]`, read here through the reshaped tables as
  `tab0[user b / 8, user b % 8, f] · tab1[item b / 8, item b % 8, f]` (`G` below). What a subcore is handed
  (`goPay`) and hands back (`tdPay`): its 512 words of each index array, 32 read tokens of each reshaped table
  (one per in-flight block copy: 16 slots × 2 buffers), and its 512 rows of the result, at the launch contents
  going in and at `G` coming back.
-/
import proofs.«219339_g11596411699725_week1_w4_1023_23_alg».proof.Kernel
import proofs.«219339_g11596411699725_week1_w4_1023_23_alg».proof.Proof.Gen.Kernel
import Idealize.ShloMosaic.Lib.SparseCore.Launch
import Idealize.ShloMosaic.Lib.Pipeline.Kit
import Idealize.ShloMosaic.Lib.Transfers
import Idealize.ShloMosaic.Lib.ValueIdx

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the launch handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The two index arrays, the two reshaped tables and the result, as locations of device `d`. -/
abbrev uLoc (d : Dev nD) : Loc nD τ sig := (SparseCore.T d).loc main_arg0
abbrev iLoc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev t0Loc (d : Dev nD) : Loc nD τ sig := (SparseCore.T d).loc main_v0
abbrev t1Loc (d : Dev nD) : Loc nD τ sig := (SparseCore.T d).loc main_v1
abbrev oLoc (d : Dev nD) : Loc nD τ sig := (SparseCore.T d).loc main_v2

variable (m : (ℓ : Loc nD τ sig) → Buf (Elt F) ℓ)

/-- A table as the kernel finds it: the argument's entries at the shape [125000, 8, 32]. -/
def tab0 (d : Dev nD) : Buf (Elt F) (t0Loc d) := shapeCast S125000x8x32 (m (a2Loc d)) shapeCasts_S1000000x32_S125000x8x32
def tab1 (d : Dev nD) : Buf (Elt F) (t1Loc d) := shapeCast S125000x8x32 (m (a3Loc d)) shapeCasts_S1000000x32_S125000x8x32

/-- The 8-row block and the row inside it that an index word names. -/
def blkOf (w : BitVec 32) : Fin 125000 := ⟨w.toNat / 8 % 125000, Nat.mod_lt _ (by decide)⟩
def subOf (w : BitVec 32) : Fin 8 := ⟨w.toNat % 8, Nat.mod_lt _ (by decide)⟩

/-- The rows of a reshaped table that an index array names, one per batch position. -/
def rowsOf (t : FVec F S125000x8x32 .f32) (u : IVec S16384 32) : FVec F S16384x32 .f32 :=
  fun j => t (ValueIdx.ix3 (blkOf (u (ValueIdx.ix1 (j 0)))) (subOf (u (ValueIdx.ix1 (j 0)))) (j 1))

variable [FloatOps F]

/-- The result: the entrywise product of the two tables' named rows. -/
def G (d : Dev nD) : Buf (Elt F) (oLoc d) := mulf (rowsOf (tab0 m d) (m (uLoc d))) (rowsOf (tab1 m d) (m (iLoc d)))

/-! ## A subcore's share -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev uV : Memref sig .scVector .hbm S16384 .i32 := Memref.whole main_arg0_scv
abbrev iV : Memref sig .scVector .hbm S16384 .i32 := Memref.whole main_arg1_scv
abbrev t0V : Memref sig .scVector .hbm S125000x8x32 .f32 := Memref.whole main_v0_scv
abbrev t1V : Memref sig .scVector .hbm S125000x8x32 .f32 := Memref.whole main_v1_scv
abbrev oV : Memref sig .scVector .hbm S16384x32 .f32 := Memref.whole main_v2_scv

/-- The subcore's 512 positions of an index array, as the body slices them. -/
abbrev idxRect (L : grid0.Coords) : Rect S16384 := Rect.unit (s := S16384) (k0_off1 L) S512.size (k0_off1_inb L)
abbrev uRow (L : grid0.Coords) : Memref sig .scVector .hbm S512 .i32 := (uV).slice (idxRect L) (fun _ => rfl)
abbrev iRow (L : grid0.Coords) : Memref sig .scVector .hbm S512 .i32 := (iV).slice (idxRect L) (fun _ => rfl)
abbrev idxSet (L : grid0.Coords) : Finset S16384.Idx := (uRow L).view.set

/-- The first batch position of the subcore. -/
def base (L : grid0.Coords) : ℕ := 512 * (2 * (L 1).val + (L 0).val)

/-- The subcore's 512 rows of the result. -/
def outSet (L : grid0.Coords) : Finset S16384x32.Idx :=
  Finset.univ.filter fun j => base L ≤ (j 0).val ∧ (j 0).val < base L + 512

/-- The number of the subcore's `k`-th read token of a table, among 1024. -/
def tokIx (L : grid0.Coords) (k : Fin 32) : ℕ := ((L 0).val * 16 + (L 1).val) * 32 + k.val

/-- What subcore `L` of device `d` is handed: its positions of both index arrays, 32 read tokens of each reshaped
    table, and its rows of the result at `fo`. -/
def tilePay (d : Dev nD) (L : grid0.Coords) (fo : Buf (Elt F) (oLoc d)) : sProp 𝕄 :=
  iprop((uLoc d ↦[idxSet L]{fullShare} m (uLoc d)) ∗ (iLoc d ↦[idxSet L]{fullShare} m (iLoc d))
    ∗ (bigSep Finset.univ fun k : Fin 32 => t0Loc d ↦{shareTokN fullShare (tokIx L k)} tab0 m d)
    ∗ (bigSep Finset.univ fun k : Fin 32 => t1Loc d ↦{shareTokN fullShare (tokIx L k)} tab1 m d)
    ∗ (oLoc d ↦[outSet L]{fullShare} fo))

abbrev goPay (d : Dev nD) (L : grid0.Coords) : sProp 𝕄 := tilePay m d L (m (oLoc d))
abbrev tdPay (d : Dev nD) (L : grid0.Coords) : sProp 𝕄 := tilePay m d L (G m d)

/-- What the proof asks of the launch memory: every index word is a row number of its table. -/
def PreOK : Prop := ∀ (d : Dev nD) (j : S16384.Idx), (m (uLoc d) j).toNat < 1000000 ∧ (m (iLoc d) j).toNat < 1000000

/-! ## The subcore's task, as the launch theorem asks it -/

abbrev cV (L : grid0.Coords) : Fin τ.nSC := (L 0).castLE hcore0
abbrev jV (L : grid0.Coords) : Fin τ.nSub := (L 1).castLE hsub0

/-- The kernel function at subcore `L`, on the whole arrays and the subcore's scratch, as the body table calls it. -/
abbrev tileProg (L : grid0.Coords) :=
  cc0__gmf_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1

/-- The task of subcore `L`: from its share at the launch contents, its scratch and semaphores, it runs to the end
    and hands back its share with its rows of the result at `G`. -/
def TileSpec : Prop :=
  ∀ (d : Dev nD) (L : grid0.Coords) (O : CellTallies nD τ sig (HIx 1)) (W : Waits sig (HIx 1)), (∀ g, O g none = 0) →
    iprop(levAts (K (F := F)).L (K (F := F)).lev ∗ emp ∗ goPay m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tdPay m d L ∗ scopedBufs (V d (cV L) (jV L)) ∗ scopedSems0 (V d (cV L) (jV L))
            ∗ ∃ W', ⌜∀ p ∈ W', p ∈ W ∨ p.2 = none⌝ ∗ owes (V d (cV L) (jV L)) O W')

/-- What the launch proves from it: the program runs, the result ends at `G`, the four arguments unchanged. -/
def QRun : PUnit × MemSt nD τ sig (Elt F) → Prop := fun r => ∀ c : Dev nD,
  r.2.mem (oLoc c) = G m c ∧ r.2.mem (uLoc c) = m (uLoc c) ∧ r.2.mem (iLoc c) = m (iLoc c)
    ∧ r.2.mem (a2Loc c) = m (a2Loc c) ∧ r.2.mem (a3Loc c) = m (a3Loc c)

end Cert.Proof.K

end
-- ==== Proof.SplitK.lean ====
/-
  How the arrays the TensorCore holds whole divide among the 32 vector subcores.

  Subcore s of SparseCore c owns the batch positions [512·(2s+c), 512·(2s+c)+512). As (c, s) runs over 2 × 16 these
  32 intervals are pairwise disjoint and cover [0, 16384): so an index array held whole is the 32 slices held apart,
  and so is the result by its 32 row ranges. A table every subcore reads is not cut: it is held under 1024 read
  tokens beside a remainder, token number (16c + s)·32 + k being the k-th of subcore (c, s); those numbers enumerate
  [0, 1024) exactly once.
-/
import proofs.«219339_g11596411699725_week1_w4_1023_23_alg».proof.Proof.IfaceK

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

/-! ## The grid's subcores -/

/-- A subcore of the grid: its SparseCore, then its number there. -/
abbrev GP : Type := Fin (grid0.bound 0) × Fin (grid0.bound 1)
abbrev LL (p : GP) : grid0.Coords := coordsV p.1 p.2

theorem base_LL (p : GP) : base (LL p) = 512 * (2 * p.2.val + p.1.val) := rfl
theorem tokIx_LL (p : GP) (k : Fin 32) : tokIx (LL p) k = (p.1.val * 16 + p.2.val) * 32 + k.val := rfl
theorem GP_lt (p : GP) : p.1.val < 2 ∧ p.2.val < 16 := ⟨p.1.isLt, p.2.isLt⟩

/-! ## The index arrays: 32 slices of 512 positions -/

theorem idxSet_eq (L : grid0.Coords) : idxSet L = (idxRect L).set := by
  show ((View.whole (main_arg0_scv : Ref sig .scVector)).slice (idxRect L)).set = _
  rw [View.set_slice]; exact Finset.map_refl

/-- The subcore's positions of an index array are the 512 from its first. -/
theorem mem_idxSet (L : grid0.Coords) (j : S16384.Idx) : j ∈ idxSet L ↔ base L ≤ (j 0).val ∧ (j 0).val < base L + 512 := by
  rw [idxSet_eq, Rect.mem_set_unit, k0_off1_eq]
  unfold base
  constructor
  · intro h
    have h0 := h 0
    simp only [Matrix.cons_val_zero] at h0
    change _ ∧ _ < _ + 512 at h0
    omega
  · intro h a
    obtain rfl : a = 0 := Subsingleton.elim _ _
    simp only [Matrix.cons_val_zero]
    change _ ∧ _ < _ + 512
    omega

theorem idx_disjoint : ∀ p ∈ (Finset.univ : Finset GP), ∀ p' ∈ (Finset.univ : Finset GP), p ≠ p' → Disjoint (idxSet (LL p)) (idxSet (LL p')) := by
  intro p _ p' _ hne
  rw [Finset.disjoint_left]
  intro j hj hj'
  rw [mem_idxSet, base_LL] at hj hj'
  have h := GP_lt p; have h' := GP_lt p'
  exact hne (Prod.ext (Fin.ext (by omega)) (Fin.ext (by omega)))

theorem idx_cover : (Finset.univ : Finset GP).biUnion (fun p => idxSet (LL p)) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 1024, show _ < 16 by omega⟩), ?_⟩
  rw [mem_idxSet, base_LL]
  dsimp only
  omega

/-- An index array held whole is its 32 slices held apart. -/
theorem uPts_split (d : Dev nD) (f : Buf (Elt F) (uLoc d)) :
    (uLoc d ↦{fullShare} f : sProp 𝕄)
      = bigSep Finset.univ fun c : Fin (grid0.bound 0) => bigSep Finset.univ fun s : Fin (grid0.bound 1) => uLoc d ↦[idxSet (coordsV c s)]{fullShare} f := by
  rw [← bigSep_univ_prod (fun p : GP => (uLoc d ↦[idxSet (LL p)]{fullShare} f : sProp 𝕄)),
    ← pointsTo_biUnion Finset.univ (ℓ := uLoc d) (fun p : GP => idxSet (LL p)) idx_disjoint, idx_cover]; try rfl
theorem iPts_split (d : Dev nD) (f : Buf (Elt F) (iLoc d)) :
    (iLoc d ↦{fullShare} f : sProp 𝕄)
      = bigSep Finset.univ fun c : Fin (grid0.bound 0) => bigSep Finset.univ fun s : Fin (grid0.bound 1) => iLoc d ↦[idxSet (coordsV c s)]{fullShare} f := by
  rw [← bigSep_univ_prod (fun p : GP => (iLoc d ↦[idxSet (LL p)]{fullShare} f : sProp 𝕄)),
    ← pointsTo_biUnion Finset.univ (ℓ := iLoc d) (fun p : GP => idxSet (LL p)) idx_disjoint, idx_cover]; try rfl

/-! ## The result: 32 ranges of 512 rows -/

theorem mem_outSet (L : grid0.Coords) (j : S16384x32.Idx) : j ∈ outSet L ↔ base L ≤ (j 0).val ∧ (j 0).val < base L + 512 := by
  unfold outSet; rw [Finset.mem_filter]; exact ⟨fun h => h.2, fun h => ⟨Finset.mem_univ _, h⟩⟩

theorem out_disjoint : ∀ p ∈ (Finset.univ : Finset GP), ∀ p' ∈ (Finset.univ : Finset GP), p ≠ p' → Disjoint (outSet (LL p)) (outSet (LL p')) := by
  intro p _ p' _ hne
  rw [Finset.disjoint_left]
  intro j hj hj'
  rw [mem_outSet, base_LL] at hj hj'
  have h := GP_lt p; have h' := GP_lt p'
  exact hne (Prod.ext (Fin.ext (by omega)) (Fin.ext (by omega)))

theorem out_cover : (Finset.univ : Finset GP).biUnion (fun p => outSet (LL p)) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 1024, show _ < 16 by omega⟩), ?_⟩
  rw [mem_outSet, base_LL]
  dsimp only
  omega

/-- The result held whole at one function is its 32 row ranges held apart at that function. -/
theorem oPts_split (d : Dev nD) (f : Buf (Elt F) (oLoc d)) :
    (oLoc d ↦{fullShare} f : sProp 𝕄)
      = bigSep Finset.univ fun c : Fin (grid0.bound 0) => bigSep Finset.univ fun s : Fin (grid0.bound 1) => oLoc d ↦[outSet (coordsV c s)]{fullShare} f := by
  rw [← bigSep_univ_prod (fun p : GP => (oLoc d ↦[outSet (LL p)]{fullShare} f : sProp 𝕄)),
    ← pointsTo_biUnion Finset.univ (ℓ := oLoc d) (fun p : GP => outSet (LL p)) out_disjoint, out_cover]; try rfl

/-! ## The tables: 1024 read tokens -/

theorem tok_image : (Finset.univ : Finset (GP × Fin 32)).image (fun x => tokIx (LL x.1) x.2) = Finset.range 1024 := by
  ext n
  simp only [Finset.mem_image, Finset.mem_univ, true_and, Finset.mem_range]
  constructor
  · rintro ⟨⟨p, k⟩, rfl⟩
    show (p.1.val * 16 + p.2.val) * 32 + k.val < 1024
    have h := GP_lt p; have hk := k.isLt
    omega
  · intro hn
    refine ⟨((⟨n / 512, show _ < 2 by omega⟩, ⟨n / 32 % 16, Nat.mod_lt _ (by decide)⟩), ⟨n % 32, Nat.mod_lt _ (by decide)⟩), ?_⟩
    rw [tokIx_LL]
    dsimp only
    omega

theorem tok_inj : Set.InjOn (fun x : GP × Fin 32 => tokIx (LL x.1) x.2) ((Finset.univ : Finset (GP × Fin 32)) : Set (GP × Fin 32)) := by
  rintro ⟨p, k⟩ _ ⟨p', k'⟩ _ e
  have e' : (p.1.val * 16 + p.2.val) * 32 + k.val = (p'.1.val * 16 + p'.2.val) * 32 + k'.val := e
  have h := GP_lt p; have h' := GP_lt p'; have hk := k.isLt; have hk' := k'.isLt
  refine Prod.ext (Prod.ext (Fin.ext ?_) (Fin.ext ?_)) (Fin.ext ?_) <;> dsimp only <;> omega

/-- A table held whole is a remainder and 1024 read tokens, 32 per subcore. -/
theorem toks_split (ℓ : Loc nD τ sig) (f : Buf (Elt F) ℓ) :
    (ℓ ↦{fullShare} f : sProp 𝕄) ⊣⊢ iprop((ℓ ↦{shareDrop fullShare 1024} f)
      ∗ bigSep Finset.univ fun c : Fin (grid0.bound 0) => bigSep Finset.univ fun s : Fin (grid0.bound 1) =>
          bigSep Finset.univ fun k : Fin 32 => ℓ ↦{shareTokN fullShare (tokIx (coordsV c s) k)} f) := by
  have e : (bigSep (Finset.range 1024) fun i => (ℓ ↦{shareTokN fullShare i} f : sProp 𝕄))
      = bigSep Finset.univ fun c : Fin (grid0.bound 0) => bigSep Finset.univ fun s : Fin (grid0.bound 1) =>
          bigSep Finset.univ fun k : Fin 32 => ℓ ↦{shareTokN fullShare (tokIx (coordsV c s) k)} f := by
    rw [← tok_image, SparseCore.bigSep_image_of_injOn tok_inj, bigSep_univ_prod, bigSep_univ_prod]
  rw [← e]
  exact Transfers.pointsTo_toks_range fullShare 1024

end Cert.Proof.K

end
-- ==== Proof.LaunchK.lean ====
/-
  The launch: from the task of one vector subcore (`TileSpec`) to the run of the whole program.

  The program is @main on the TensorCore beside the two SparseCores' sequencers and their 32 vector subcores. @main
  reshapes each table to [125000, 8, 32] (the same entries in row-major order), starts the kernel on every subcore,
  waits for them and returns. What the TensorCore holds whole it hands out in shares: each index array and the
  result cut into the 32 subcores' ranges of 512 positions, each reshaped table as 32 read tokens per subcore (the
  remainder of the table's share is not needed again). Every subcore hands its share back with its rows of the
  result at the one function `G`, so the 32 row ranges join to the result held whole at `G`; the index arrays join
  back unchanged, and the two table arguments were never handed out. The final memory therefore reads `QRun`.
-/
import proofs.«219339_g11596411699725_week1_w4_1023_23_alg».proof.Proof.IfaceK
import proofs.«219339_g11596411699725_week1_w4_1023_23_alg».proof.Proof.SplitK
import proofs.«219339_g11596411699725_week1_w4_1023_23_alg».proof.Proof.Gen.Kernel
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.StableHlo (held wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

variable (m : (ℓ : Loc nD τ sig) → Buf (Elt F) ℓ) (ρ : Dev nD → PrngReg)

variable [FloatOps F]

/-! ## What the handshakes carry -/

instance tilePay_storable (d : Dev nD) (L : grid0.Coords) (fo : Buf (Elt F) (oLoc d)) : BI.Storable (upEmb : UEmb _ 𝕄) (tilePay m d L fo) := by
  unfold tilePay; infer_instance

/-- The one call hands SparseCore `c` the shares of its 16 subcores, each subcore its own, and brings them back with
    the result's rows at `G`. -/
def P : (K (F := F)).Pay (nD := nD) (Val := Elt F) (Name := ℕ) (U := UU) where
  st := fun q d c => match q with
    | 0 => bigSep Finset.univ fun s : Fin (grid0.bound 1) => goPay m d (coordsV (Fin.cast nCore_zero c) s)
  dn := fun q d c => match q with
    | 0 => bigSep Finset.univ fun s : Fin (grid0.bound 1) => tdPay m d (coordsV (Fin.cast nCore_zero c) s)
  go := fun q d c i => match q with
    | 0 => goPay m d (coordsV (Fin.cast nCore_zero c) (Fin.cast nSub_zero i))
  td := fun q d c i => match q with
    | 0 => tdPay m d (coordsV (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin (grid0.bound 1) => goPay m d (coordsV (Fin.cast nCore_zero c) s)))
  dn q d c := match q with
    | 0 => (inferInstance : BI.Storable (upEmb : UEmb _ 𝕄) (bigSep Finset.univ fun s : Fin (grid0.bound 1) => tdPay m d (coordsV (Fin.cast nCore_zero c) s)))
  go q d c i := match q with
    | 0 => (inferInstance : BI.Storable (upEmb : UEmb _ 𝕄) (goPay m d (coordsV (Fin.cast nCore_zero c) (Fin.cast nSub_zero i))))
  td q d c i := match q with
    | 0 => (inferInstance : BI.Storable (upEmb : UEmb _ 𝕄) (tdPay m d (coordsV (Fin.cast nCore_zero c) (Fin.cast nSub_zero i))))

/-! ## The launch theorem's obligations -/

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileSpec (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem P_st (d : Dev nD) (c : Fin ((K (F := F)).nCore 0)) :
    (P m).st 0 d c = bigSep Finset.univ fun s : Fin (grid0.bound 1) => goPay m d (coordsV (Fin.cast nCore_zero c) s) := rfl
theorem P_dn (d : Dev nD) (c : Fin ((K (F := F)).nCore 0)) :
    (P m).dn 0 d c = bigSep Finset.univ fun s : Fin (grid0.bound 1) => tdPay m d (coordsV (Fin.cast nCore_zero c) s) := rfl
theorem P_go (d : Dev nD) (c : Fin ((K (F := F)).nCore 0)) :
    (bigSep Finset.univ fun i : Fin ((K (F := F)).nSub 0) => (P m).go 0 d c i)
      = bigSep Finset.univ fun s : Fin (grid0.bound 1) => goPay m d (coordsV (Fin.cast nCore_zero c) s) :=
  bigSep_tasks (F := F) (fun s => goPay m d (coordsV (Fin.cast nCore_zero c) s))
theorem P_td (d : Dev nD) (c : Fin ((K (F := F)).nCore 0)) :
    (bigSep Finset.univ fun i : Fin ((K (F := F)).nSub 0) => (P m).td 0 d c i)
      = bigSep Finset.univ fun s : Fin (grid0.bound 1) => tdPay m d (coordsV (Fin.cast nCore_zero c) s) :=
  bigSep_tasks (F := F) (fun s => tdPay m d (coordsV (Fin.cast nCore_zero c) s))

/-- A SparseCore's operands are its subcores' shares, and so are its results. -/
theorem vecSplit : (K (F := F)).VecSplit' (P m) 0 := by
  intro d c
  rw [P_go, P_td, P_st, P_dn]
  iintro H; imodintro
  isplitl [H]; · iexact H
  iintro H; iexact H

/-! ## The launch element: the handshakes' rounds; the transfers' counters are not needed from it -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The shares, gathered -/

/-- A table's 1024 read tokens, 32 per subcore. -/
abbrev toks (ℓ : Loc nD τ sig) (f : Buf (Elt F) ℓ) : sProp 𝕄 :=
  bigSep Finset.univ fun c : Fin (grid0.bound 0) => bigSep Finset.univ fun s : Fin (grid0.bound 1) =>
    bigSep Finset.univ fun k : Fin 32 => ℓ ↦{shareTokN fullShare (tokIx (coordsV c s) k)} f

omit [FloatOps F] in
theorem bigSep2_sep {α β : Type} [Fintype α] [Fintype β] (Φ Ψ : α → β → sProp 𝕄) :
    (bigSep Finset.univ fun c => bigSep Finset.univ fun s => iprop(Φ c s ∗ Ψ c s))
      = iprop((bigSep Finset.univ fun c => bigSep Finset.univ fun s => Φ c s) ∗ (bigSep Finset.univ fun c => bigSep Finset.univ fun s => Ψ c s)) := by
  rw [← bigSep_sep']; exact bigSep_congr fun c _ => bigSep_sep' _ _ _

omit [FloatOps F] in
/-- All 32 shares together are the index arrays and the result held whole, beside the tables' tokens. -/
theorem pays_eq (d : Dev nD) (fo : Buf (Elt F) (oLoc d)) :
    (bigSep Finset.univ fun c : Fin (grid0.bound 0) => bigSep Finset.univ fun s : Fin (grid0.bound 1) => tilePay m d (coordsV c s) fo)
      = iprop((uLoc d ↦{fullShare} m (uLoc d)) ∗ (iLoc d ↦{fullShare} m (iLoc d)) ∗ toks (t0Loc d) (tab0 m d) ∗ toks (t1Loc d) (tab1 m d)
          ∗ (oLoc d ↦{fullShare} fo)) := by
  unfold tilePay
  rw [bigSep2_sep, bigSep2_sep, bigSep2_sep, bigSep2_sep, ← uPts_split, ← iPts_split, ← oPts_split]

theorem st0_eq (d : Dev nD) : (bigSep Finset.univ fun c : Fin ((K (F := F)).nCore 0) => (P m).st 0 d c)
    = iprop((uLoc d ↦{fullShare} m (uLoc d)) ∗ (iLoc d ↦{fullShare} m (iLoc d)) ∗ toks (t0Loc d) (tab0 m d) ∗ toks (t1Loc d) (tab1 m d)
        ∗ (oLoc d ↦{fullShare} m (oLoc d))) :=
  pays_eq m d (m (oLoc d))
theorem dn0_eq (d : Dev nD) : (bigSep Finset.univ fun c : Fin ((K (F := F)).nCore 0) => (P m).dn 0 d c)
    = iprop((uLoc d ↦{fullShare} m (uLoc d)) ∗ (iLoc d ↦{fullShare} m (iLoc d)) ∗ toks (t0Loc d) (tab0 m d) ∗ toks (t1Loc d) (tab1 m d)
        ∗ (oLoc d ↦{fullShare} G m d)) :=
  pays_eq m d (G m d)

/-! ## @main on the TensorCore -/

abbrev u' : DevRef τ sig := Proc.devRef .tc (main_arg0 : Ref sig .tc)
abbrev i' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev t0' : DevRef τ sig := Proc.devRef .tc (main_v0 : Ref sig .tc)
abbrev t1' : DevRef τ sig := Proc.devRef .tc (main_v1 : Ref sig .tc)
abbrev o' : DevRef τ sig := Proc.devRef .tc (main_v2 : Ref sig .tc)
abbrev opR0 : HloOp τ sig (Elt F) := StableHlo.reshape main_arg2 main_v0 rfl shapeCasts_S1000000x32_S125000x8x32
abbrev opR1 : HloOp τ sig (Elt F) := StableHlo.reshape main_arg3 main_v1 rfl shapeCasts_S1000000x32_S125000x8x32

/-- The TensorCore's arrays, all unscoped. -/
abbrev S7 : Finset (DevRef τ sig) := {u', i', a2', a3', t0', t1', o'}

omit [FloatOps F] in
theorem held_S7 (d : Dev nD) (W : Valuation τ sig (Elt F)) :
    (held (T d) S7 W : sProp 𝕄) = iprop((uLoc d ↦{fullShare} W u') ∗ (iLoc d ↦{fullShare} W i') ∗ (a2Loc d ↦{fullShare} W a2') ∗ (a3Loc d ↦{fullShare} W a3')
      ∗ (t0Loc d ↦{fullShare} W t0') ∗ (t1Loc d ↦{fullShare} W t1') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (a2Loc d ↦{fullShare} W main_arg2)
      ∗ (a3Loc d ↦{fullShare} W main_arg3) ∗ (t0Loc d ↦{fullShare} W main_v0) ∗ (t1Loc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the arrays after the two reshapes. -/
def V0 (d : Dev nD) : Valuation τ sig (Elt F) := fun b => m (d, b)
def V2 (d : Dev nD) : Valuation τ sig (Elt F) := (opR1 (F := F)).result ((opR0 (F := F)).result (V0 m d))

theorem unscoped_held (d : Dev nD) : (unscopedBufs d (fun b => m ((SparseCore.T d).loc b)) : sProp 𝕄) = held (T d) S7 (V0 m d) := by
  rw [unscopedBufs_eq, held_S7]; rfl

theorem V2_keep {b : DevRef τ sig} (d : Dev nD) (h0 : b ∉ ({t0'} : Finset (DevRef τ sig))) (h1 : b ∉ ({t1'} : Finset (DevRef τ sig))) : V2 m d b = V0 m d b := by
  unfold V2
  rw [(opR1 (F := F)).result_of_not_mem _ (b := b) h1, (opR0 (F := F)).result_of_not_mem _ (b := b) h0]

/-- A reshape's result is the argument's entries at the new shape. -/
theorem V2_t0 (d : Dev nD) : V2 m d t0' = tab0 m d := by
  unfold V2
  rw [(opR1 (F := F)).result_of_not_mem _ (b := t0') (show t0' ∉ ({t1'} : Finset (DevRef τ sig)) by decide)]
  exact StableHlo.reshape_result main_arg2 main_v0 rfl _ _ _ (V0 m d)
theorem V2_t1 (d : Dev nD) : V2 m d t1' = tab1 m d := by
  unfold V2
  refine (StableHlo.reshape_result main_arg3 main_v1 rfl _ _ _ _).trans ?_
  rw [(opR0 (F := F)).result_of_not_mem _ (b := a3') (show a3' ∉ ({t0'} : Finset (DevRef τ sig)) by decide)]
  rfl

theorem held_V2 (d : Dev nD) :
    (held (T d) S7 ((opR1 (F := F)).result ((opR0 (F := F)).result (V0 m d))) : sProp 𝕄) = iprop((uLoc d ↦{fullShare} m (uLoc d)) ∗ (iLoc d ↦{fullShare} m (iLoc d)) ∗ (a2Loc d ↦{fullShare} m (a2Loc d))
      ∗ (a3Loc d ↦{fullShare} m (a3Loc d)) ∗ (t0Loc d ↦{fullShare} tab0 m d) ∗ (t1Loc d ↦{fullShare} tab1 m d) ∗ (oLoc d ↦{fullShare} m (oLoc d))) := by
  show (held (T d) S7 (V2 m d) : sProp 𝕄) = _
  rw [held_S7, V2_t0, V2_t1, V2_keep m d (b := u') (by decide) (by decide), V2_keep m d (b := i') (by decide) (by decide),
    V2_keep m d (b := a2') (by decide) (by decide), V2_keep m d (b := a3') (by decide) (by decide), V2_keep m d (b := o') (by decide) (by decide)]
  rfl

theorem hR0 : (opR0 (F := F)).bufs ⊆ S7 := show ({a2', t0'} : Finset (DevRef τ sig)) ⊆ S7 by decide
theorem hR1 : (opR1 (F := F)).bufs ⊆ S7 := show ({a3', t1'} : Finset (DevRef τ sig)) ⊆ S7 by decide

/-- What @main leaves the claim: the result at `G`, the four arguments at their launch contents. -/
abbrev FIN (d : Dev nD) : sProp 𝕄 :=
  iprop((oLoc d ↦{fullShare} G m d) ∗ (uLoc d ↦{fullShare} m (uLoc d)) ∗ (iLoc d ↦{fullShare} m (iLoc d))
    ∗ (a2Loc d ↦{fullShare} m (a2Loc d)) ∗ (a3Loc d ↦{fullShare} m (a3Loc d)))

/-- @main on device `d`'s TensorCore: the two reshapes, then the call, from the 32 shares and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes, over the arrays held whole
  iapply (wp_hlo_within 𝒱 (SparseCore.T d) none Set.univ (op := opR0) (S := S7) hR0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S7) hR1 (V := (opR0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Hu, Hi, Ha2, Ha3, Ht0, Ht1, Ho⟩
  -- each reshaped table as read tokens; the remainder of its share is not needed again
  ihave Ht0' := ((toks_split (F := F) (t0Loc d) (tab0 m d)).1) $$ Ht0
  icases Ht0' with ⟨-, Ht0⟩
  ihave Ht1' := ((toks_split (F := F) (t1Loc d) (tab1 m d)).1) $$ Ht1
  icases Ht1' with ⟨-, Ht1⟩
  -- the call: the 32 shares out and back
  iapply ((K (F := F)).wp_run (D (F := F)) 𝒱 (EH := EH) (P := P m) κ d 0) $$ [Hst Hu Hi Ht0 Ht1 Ho Ha2 Ha3]
  isplitr; · iexact Hctx
  isplitl [Hst]; · iexact Hst
  isplitl [Hu Hi Ht0 Ht1 Ho]
  · rw [st0_eq]
    isplitl [Hu]; · iexact Hu
    isplitl [Hi]; · iexact Hi
    isplitl [Ht0]; · iexact Ht0
    isplitl [Ht1]; · iexact Ht1
    iexact Ho
  iintro ⟨Hst, Hdn⟩
  ihave Hdn' := (Entails.of_eq (dn0_eq m d)) $$ Hdn
  icases Hdn' with ⟨Hu, Hi, -, -, Ho⟩
  imodintro
  isplitl [Hst]; · iexact Hst
  isplitl [Ho]; · iexact Ho
  isplitl [Hu]; · iexact Hu
  isplitl [Hi]; · iexact Hi
  isplitl [Ha2]; · iexact Ha2
  iexact Ha3

def fq (d : Dev nD) (s' : Phys nD τ sig (Elt F)) : Prop :=
  s'.mem.mem (oLoc d) = G m d ∧ s'.mem.mem (uLoc d) = m (uLoc d) ∧ s'.mem.mem (iLoc d) = m (iLoc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨Ho, Hu, Hi, Ha2, Ha3⟩, HSI⟩
  ihave H := (persistent_entails_right (SI_pointsTo_agree (st := s') (ℓ := oLoc d) (I := Finset.univ) (q := fullShare) (f := G m d))) $$ [HSI Ho]
  · isplitl [HSI] <;> iassumption
  icases H with ⟨%h0, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h3, HSI, -⟩
  ihave H := (SI_pointsTo_agree (st := s') (ℓ := a3Loc d) (I := Finset.univ) (q := fullShare) (f := m (a3Loc d))) $$ [HSI Ha3]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-! ## The program's run -/

/-- Every weakly fair execution of the program's threads ends, nothing faulting, with the result at `G` and the four
    arguments unchanged — given the subcore's task. -/
theorem run_main [∀ e, Nonempty (Elt F e)] (hpre : PreOK m) (htile : TileSpec (F := F) m) :
    θ_run (Cert.Kernel.defs (F := F)) (Cert.Kernel.threads (F := F)) ⟨m, fun _ => 0, ρ⟩ (QRun m) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QRun m) (fun _ h => h)

end Cert.Proof.K

end
-- ==== Proof.SlotsKI.lean ====
/-
  How a vector subcore's scratch buffers and its rows of the result divide into the pieces its copies address.

  The two block scratches have shape [2, 16, 8, 32]: two buffers of sixteen slots, a slot one 8-row block of a
  table. A buffer is the scratch restricted to one leading coordinate, with that unit axis dropped; a slot is a
  buffer restricted to one leading coordinate. Dropping a unit axis keeps the row-major order, so the elements of
  slot j of buffer b are exactly the indices (b, j, ·, ·) of the scratch: the 32 slots are pairwise disjoint and
  cover it, and the 16 slots of one buffer cover that buffer. So the scratch held whole is its 32 slots held
  apart, a buffer is its 16 slots, and sixteen slots held at sixteen different contents are the buffer held at the
  function that is the j-th contents on slot j. The output staging scratch [2, 2, 8, 32] is its two halves in the
  same way.

  The subcore's 512 rows of the result are written through the result's reshape to [2048, 8, 32], two pieces of
  two 8-row blocks per trip of the loop: 32 row ranges of 16 rows that partition the subcore's rows (below).
-/
import proofs.«219339_g11596411699725_week1_w4_1023_23_alg».proof.Proof.IfaceKI
import proofs.«219339_g11596411699725_week1_w4_1023_23_alg».proof.Proof.Gen.KernelIdeal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## In-bounds facts at a symbolic buffer and slot -/

theorem inb_buf16 (b : Fin 2) : ∀ a, (![b.val, 0, 0, 0] : Fin 4 → Nat) a + S1x16x8x32.size a ≤ S2x16x8x32.size a := by
  revert b; decide
theorem inb_slot (j : Fin 16) : ∀ a, (![j.val, 0, 0] : Fin 3 → Nat) a + S1x8x32.size a ≤ S16x8x32.size a := by
  revert j; decide
theorem inb_buf2 (b : Fin 2) : ∀ a, (![b.val, 0, 0, 0] : Fin 4 → Nat) a + S1x2x8x32.size a ≤ S2x2x8x32.size a := by
  revert b; decide

/-! ## The user table's block scratch -/

/-- Buffer b of the user table's block scratch: the scratch at leading coordinate b, the unit axis dropped. -/
abbrev bufA (b : Fin 2) : Memref sig .scVector .vmem S16x8x32 .f32 :=
  ((Memref.whole cc0_scratch2).slice (Rect.unit (s := S2x16x8x32) ![b.val, 0, 0, 0] S1x16x8x32.size (inb_buf16 b)) (fun _ => rfl)).squeeze S16x8x32
    squeezes_S1x16x8x32_S16x8x32

/-- Slot j of buffer b: one 8-row block. -/
abbrev slotA (b : Fin 2) (j : Fin 16) : Memref sig .scVector .vmem S1x8x32 .f32 :=
  (bufA b).slice (Rect.unit (s := S16x8x32) ![j.val, 0, 0] S1x8x32.size (inb_slot j)) (fun _ => rfl)

/-- The elements of buffer b and of slot (b, j), as sets of indices of the scratch. -/
abbrev bufASet (b : Fin 2) : Finset S2x16x8x32.Idx := (bufA b).view.set
abbrev slotASet (b : Fin 2) (j : Fin 16) : Finset S2x16x8x32.Idx := (slotA b j).view.set

/-- Where buffer b puts its index (j, r, f): at (b, j, r, f) of the scratch. -/
theorem bufA_emb (b : Fin 2) (x : S16x8x32.Idx) :
    (bufA b).view.emb x = (ix4 b (x 0) (x 1) (x 2) : S2x16x8x32.Idx) := by
  show (Rect.unit (s := S2x16x8x32) ![b.val, 0, 0, 0] S1x16x8x32.size (inb_buf16 b)).emb
      (Shape.reshapeEquiv squeezes_S1x16x8x32_S16x8x32.numel_eq x) = _
  rw [Shape.reshapeEquiv_eq_of_rowMajor _ (y := (ix4 (0 : Fin 1) (x 0) (x 1) (x 2) : S1x16x8x32.Idx))
    (by rw [Shape.rowMajor_val_four, Shape.rowMajor_val_three]
        show ((0 * 16 + (x 0).val) * 8 + (x 1).val) * 32 + (x 2).val = ((x 0).val * 8 + (x 1).val) * 32 + (x 2).val
        omega)]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The elements of a buffer: the scratch's indices with leading coordinate b. -/
theorem mem_bufA (b : Fin 2) (i : S2x16x8x32.Idx) : i ∈ bufASet b ↔ (i 0).val = b.val := by
  have e : bufASet b = (Rect.unit (s := S2x16x8x32) ![b.val, 0, 0, 0] S1x16x8x32.size (inb_buf16 b)).set := by
    show (((View.whole (cc0_scratch2 : Ref sig .scVector)).slice
      (Rect.unit (s := S2x16x8x32) ![b.val, 0, 0, 0] S1x16x8x32.size (inb_buf16 b))).reshape S16x8x32
        squeezes_S1x16x8x32_S16x8x32.numel_eq).set = _
    rw [View.set_reshape]; exact View.set_slice_whole _ _
  rw [e, Rect.mem_set_unit]
  constructor
  · intro h
    have h0 := h 0
    change b.val ≤ (i 0).val ∧ (i 0).val < b.val + 1 at h0
    omega
  · intro h a
    match a with
    | ⟨0, _⟩ => change b.val ≤ (i 0).val ∧ (i 0).val < b.val + 1; omega
    | ⟨1, _⟩ => change 0 ≤ (i 1).val ∧ (i 1).val < 0 + 16; have := (i 1).isLt; change (i 1).val < 16 at this; omega
    | ⟨2, _⟩ => change 0 ≤ (i 2).val ∧ (i 2).val < 0 + 8; have := (i 2).isLt; change (i 2).val < 8 at this; omega
    | ⟨3, _⟩ => change 0 ≤ (i 3).val ∧ (i 3).val < 0 + 32; have := (i 3).isLt; change (i 3).val < 32 at this; omega

/-- The elements of a slot: the scratch's indices (b, j, ·, ·). -/
theorem mem_slotA (b : Fin 2) (j : Fin 16) (i : S2x16x8x32.Idx) :
    i ∈ slotASet b j ↔ (i 0).val = b.val ∧ (i 1).val = j.val := by
  have e : slotASet b j = (Rect.unit (s := S16x8x32) ![j.val, 0, 0] S1x8x32.size (inb_slot j)).set.map (bufA b).view.emb :=
    View.set_slice (bufA b).view _
  rw [e, Finset.mem_map]
  constructor
  · rintro ⟨x, hx, rfl⟩
    rw [Rect.mem_set_unit] at hx
    have h0 := hx 0
    change j.val ≤ (x 0).val ∧ (x 0).val < j.val + 1 at h0
    rw [bufA_emb]
    exact ⟨rfl, show (x 0).val = j.val by omega⟩
  · rintro ⟨h0, h1⟩
    have e1 : i 1 = (j : Fin 16) := Fin.ext h1
    refine ⟨ix3 j (i 2) (i 3), ?_, ?_⟩
    · rw [Rect.mem_set_unit]
      intro a
      match a with
      | ⟨0, _⟩ => change j.val ≤ j.val ∧ j.val < j.val + 1; omega
      | ⟨1, _⟩ => change 0 ≤ (i 2).val ∧ (i 2).val < 0 + 8; have := (i 2).isLt; change (i 2).val < 8 at this; omega
      | ⟨2, _⟩ => change 0 ≤ (i 3).val ∧ (i 3).val < 0 + 32; have := (i 3).isLt; change (i 3).val < 32 at this; omega
    · rw [bufA_emb]
      funext a
      refine Fin.ext ?_
      match a with
      | ⟨0, _⟩ => exact h0.symm
      | ⟨1, _⟩ => exact h1.symm
      | ⟨2, _⟩ => rfl
      | ⟨3, _⟩ => rfl

theorem slotA_disjoint : ∀ p ∈ (Finset.univ : Finset (Fin 2 × Fin 16)), ∀ p' ∈ (Finset.univ : Finset (Fin 2 × Fin 16)), p ≠ p' →
    Disjoint (slotASet p.1 p.2) (slotASet p'.1 p'.2) := by
  intro p _ p' _ hne
  rw [Finset.disjoint_left]
  intro i hi hi'
  have h := (mem_slotA p.1 p.2 i).1 hi
  have h' := (mem_slotA p'.1 p'.2 i).1 hi'
  exact hne (Prod.ext (Fin.ext (by omega)) (Fin.ext (by omega)))

theorem slotA_cover : (Finset.univ : Finset (Fin 2 × Fin 16)).biUnion (fun p => slotASet p.1 p.2) = Finset.univ := by
  ext i
  simp only [Finset.mem_biUnion, Finset.mem_univ, true_and, iff_true]
  exact ⟨((i 0 : Fin 2), (i 1 : Fin 16)), (mem_slotA _ _ i).2 ⟨rfl, rfl⟩⟩

theorem slotA_disjoint_in (b : Fin 2) : ∀ j ∈ (Finset.univ : Finset (Fin 16)), ∀ j' ∈ (Finset.univ : Finset (Fin 16)), j ≠ j' →
    Disjoint (slotASet b j) (slotASet b j') := by
  intro j _ j' _ hne
  rw [Finset.disjoint_left]
  intro i hi hi'
  have h := (mem_slotA b j i).1 hi
  have h' := (mem_slotA b j' i).1 hi'
  exact hne (Fin.ext (by omega))

theorem slotA_cover_in (b : Fin 2) : (Finset.univ : Finset (Fin 16)).biUnion (fun j => slotASet b j) = bufASet b := by
  ext i
  simp only [Finset.mem_biUnion, Finset.mem_univ, true_and]
  constructor
  · rintro ⟨j, hj⟩
    exact (mem_bufA b i).2 ((mem_slotA b j i).1 hj).1
  · intro h
    exact ⟨(i 1 : Fin 16), (mem_slotA b _ i).2 ⟨(mem_bufA b i).1 h, rfl⟩⟩

/-- The user table's block scratch held whole is its 32 slots held apart. -/
theorem scrA_split (d : Dev nD) (L : grid0.Coords) (f : Buf (Elt F) ((V d (cV L) (jV L)).loc cc0_scratch2)) :
    ((Memref.whole cc0_scratch2).view.loc (V d (cV L) (jV L)) ↦{fullShare} f : sProp 𝕄)
      = bigSep Finset.univ fun b : Fin 2 => bigSep Finset.univ fun j : Fin 16 =>
          (slotA b j).view.loc (V d (cV L) (jV L)) ↦[(slotA b j).view.set]{fullShare} f := by
  rw [← bigSep_univ_prod (fun p : Fin 2 × Fin 16 =>
      ((slotA p.1 p.2).view.loc (V d (cV L) (jV L)) ↦[(slotA p.1 p.2).view.set]{fullShare} f : sProp 𝕄)),
    ← pointsTo_biUnion Finset.univ (ℓ := (V d (cV L) (jV L)).loc cc0_scratch2) (fun p : Fin 2 × Fin 16 => slotASet p.1 p.2)
      slotA_disjoint, slotA_cover]; try rfl

/-- A buffer is its 16 slots. -/
theorem bufA_split (d : Dev nD) (L : grid0.Coords) (b : Fin 2) (f : Buf (Elt F) ((V d (cV L) (jV L)).loc cc0_scratch2)) :
    ((bufA b).view.loc (V d (cV L) (jV L)) ↦[(bufA b).view.set]{fullShare} f : sProp 𝕄)
      = bigSep Finset.univ fun j : Fin 16 => (slotA b j).view.loc (V d (cV L) (jV L)) ↦[(slotA b j).view.set]{fullShare} f := by
  rw [← pointsTo_biUnion Finset.univ (ℓ := (V d (cV L) (jV L)).loc cc0_scratch2) (fun j : Fin 16 => slotASet b j)
      (slotA_disjoint_in b), slotA_cover_in b]; try rfl

/-- Sixteen contents, one per slot, as one contents of the scratch: the j-th on the indices (·, j, ·, ·). -/
def joinA (g : Fin 16 → S2x16x8x32.Idx → F .f32) : S2x16x8x32.Idx → F .f32 := fun i => g (i 1) i

/-- The 16 slots of a buffer held at 16 different contents are the buffer held at their join. -/
theorem bufA_join (d : Dev nD) (L : grid0.Coords) (b : Fin 2) (g : Fin 16 → Buf (Elt F) ((V d (cV L) (jV L)).loc cc0_scratch2)) :
    (bigSep Finset.univ fun j : Fin 16 => (slotA b j).view.loc (V d (cV L) (jV L)) ↦[(slotA b j).view.set]{fullShare} g j : sProp 𝕄)
      = ((bufA b).view.loc (V d (cV L) (jV L)) ↦[(bufA b).view.set]{fullShare} (joinA g : Buf (Elt F) ((V d (cV L) (jV L)).loc cc0_scratch2))) := by
  rw [bufA_split d L b]
  refine congrArg (bigSep Finset.univ) (funext fun j => ?_)
  exact pointsTo_congr fun i hi => by
    have h1 : (i 1 : Fin 16) = j := Fin.ext ((mem_slotA b j i).1 hi).2
    show g j i = g (i 1) i
    rw [h1]

/-! ## The item table's block scratch -/

/-- Buffer b of the item table's block scratch: the scratch at leading coordinate b, the unit axis dropped. -/
abbrev bufB (b : Fin 2) : Memref sig .scVector .vmem S16x8x32 .f32 :=
  ((Memref.whole cc0_scratch3).slice (Rect.unit (s := S2x16x8x32) ![b.val, 0, 0, 0] S1x16x8x32.size (inb_buf16 b)) (fun _ => rfl)).squeeze S16x8x32
    squeezes_S1x16x8x32_S16x8x32

/-- Slot j of buffer b: one 8-row block. -/
abbrev slotB (b : Fin 2) (j : Fin 16) : Memref sig .scVector .vmem S1x8x32 .f32 :=
  (bufB b).slice (Rect.unit (s := S16x8x32) ![j.val, 0, 0] S1x8x32.size (inb_slot j)) (fun _ => rfl)

/-- The elements of buffer b and of slot (b, j), as sets of indices of the scratch. -/
abbrev bufBSet (b : Fin 2) : Finset S2x16x8x32.Idx := (bufB b).view.set
abbrev slotBSet (b : Fin 2) (j : Fin 16) : Finset S2x16x8x32.Idx := (slotB b j).view.set

/-- Where buffer b puts its index (j, r, f): at (b, j, r, f) of the scratch. -/
theorem bufB_emb (b : Fin 2) (x : S16x8x32.Idx) :
    (bufB b).view.emb x = (ix4 b (x 0) (x 1) (x 2) : S2x16x8x32.Idx) := by
  show (Rect.unit (s := S2x16x8x32) ![b.val, 0, 0, 0] S1x16x8x32.size (inb_buf16 b)).emb
      (Shape.reshapeEquiv squeezes_S1x16x8x32_S16x8x32.numel_eq x) = _
  rw [Shape.reshapeEquiv_eq_of_rowMajor _ (y := (ix4 (0 : Fin 1) (x 0) (x 1) (x 2) : S1x16x8x32.Idx))
    (by rw [Shape.rowMajor_val_four, Shape.rowMajor_val_three]
        show ((0 * 16 + (x 0).val) * 8 + (x 1).val) * 32 + (x 2).val = ((x 0).val * 8 + (x 1).val) * 32 + (x 2).val
        omega)]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The elements of a buffer: the scratch's indices with leading coordinate b. -/
theorem mem_bufB (b : Fin 2) (i : S2x16x8x32.Idx) : i ∈ bufBSet b ↔ (i 0).val = b.val := by
  have e : bufBSet b = (Rect.unit (s := S2x16x8x32) ![b.val, 0, 0, 0] S1x16x8x32.size (inb_buf16 b)).set := by
    show (((View.whole (cc0_scratch3 : Ref sig .scVector)).slice
      (Rect.unit (s := S2x16x8x32) ![b.val, 0, 0, 0] S1x16x8x32.size (inb_buf16 b))).reshape S16x8x32
        squeezes_S1x16x8x32_S16x8x32.numel_eq).set = _
    rw [View.set_reshape]; exact View.set_slice_whole _ _
  rw [e, Rect.mem_set_unit]
  constructor
  · intro h
    have h0 := h 0
    change b.val ≤ (i 0).val ∧ (i 0).val < b.val + 1 at h0
    omega
  · intro h a
    match a with
    | ⟨0, _⟩ => change b.val ≤ (i 0).val ∧ (i 0).val < b.val + 1; omega
    | ⟨1, _⟩ => change 0 ≤ (i 1).val ∧ (i 1).val < 0 + 16; have := (i 1).isLt; change (i 1).val < 16 at this; omega
    | ⟨2, _⟩ => change 0 ≤ (i 2).val ∧ (i 2).val < 0 + 8; have := (i 2).isLt; change (i 2).val < 8 at this; omega
    | ⟨3, _⟩ => change 0 ≤ (i 3).val ∧ (i 3).val < 0 + 32; have := (i 3).isLt; change (i 3).val < 32 at this; omega

/-- The elements of a slot: the scratch's indices (b, j, ·, ·). -/
theorem mem_slotB (b : Fin 2) (j : Fin 16) (i : S2x16x8x32.Idx) :
    i ∈ slotBSet b j ↔ (i 0).val = b.val ∧ (i 1).val = j.val := by
  have e : slotBSet b j = (Rect.unit (s := S16x8x32) ![j.val, 0, 0] S1x8x32.size (inb_slot j)).set.map (bufB b).view.emb :=
    View.set_slice (bufB b).view _
  rw [e, Finset.mem_map]
  constructor
  · rintro ⟨x, hx, rfl⟩
    rw [Rect.mem_set_unit] at hx
    have h0 := hx 0
    change j.val ≤ (x 0).val ∧ (x 0).val < j.val + 1 at h0
    rw [bufB_emb]
    exact ⟨rfl, show (x 0).val = j.val by omega⟩
  · rintro ⟨h0, h1⟩
    have e1 : i 1 = (j : Fin 16) := Fin.ext h1
    refine ⟨ix3 j (i 2) (i 3), ?_, ?_⟩
    · rw [Rect.mem_set_unit]
      intro a
      match a with
      | ⟨0, _⟩ => change j.val ≤ j.val ∧ j.val < j.val + 1; omega
      | ⟨1, _⟩ => change 0 ≤ (i 2).val ∧ (i 2).val < 0 + 8; have := (i 2).isLt; change (i 2).val < 8 at this; omega
      | ⟨2, _⟩ => change 0 ≤ (i 3).val ∧ (i 3).val < 0 + 32; have := (i 3).isLt; change (i 3).val < 32 at this; omega
    · rw [bufB_emb]
      funext a
      refine Fin.ext ?_
      match a with
      | ⟨0, _⟩ => exact h0.symm
      | ⟨1, _⟩ => exact h1.symm
      | ⟨2, _⟩ => rfl
      | ⟨3, _⟩ => rfl

theorem slotB_disjoint : ∀ p ∈ (Finset.univ : Finset (Fin 2 × Fin 16)), ∀ p' ∈ (Finset.univ : Finset (Fin 2 × Fin 16)), p ≠ p' →
    Disjoint (slotBSet p.1 p.2) (slotBSet p'.1 p'.2) := by
  intro p _ p' _ hne
  rw [Finset.disjoint_left]
  intro i hi hi'
  have h := (mem_slotB p.1 p.2 i).1 hi
  have h' := (mem_slotB p'.1 p'.2 i).1 hi'
  exact hne (Prod.ext (Fin.ext (by omega)) (Fin.ext (by omega)))

theorem slotB_cover : (Finset.univ : Finset (Fin 2 × Fin 16)).biUnion (fun p => slotBSet p.1 p.2) = Finset.univ := by
  ext i
  simp only [Finset.mem_biUnion, Finset.mem_univ, true_and, iff_true]
  exact ⟨((i 0 : Fin 2), (i 1 : Fin 16)), (mem_slotB _ _ i).2 ⟨rfl, rfl⟩⟩

theorem slotB_disjoint_in (b : Fin 2) : ∀ j ∈ (Finset.univ : Finset (Fin 16)), ∀ j' ∈ (Finset.univ : Finset (Fin 16)), j ≠ j' →
    Disjoint (slotBSet b j) (slotBSet b j') := by
  intro j _ j' _ hne
  rw [Finset.disjoint_left]
  intro i hi hi'
  have h := (mem_slotB b j i).1 hi
  have h' := (mem_slotB b j' i).1 hi'
  exact hne (Fin.ext (by omega))

theorem slotB_cover_in (b : Fin 2) : (Finset.univ : Finset (Fin 16)).biUnion (fun j => slotBSet b j) = bufBSet b := by
  ext i
  simp only [Finset.mem_biUnion, Finset.mem_univ, true_and]
  constructor
  · rintro ⟨j, hj⟩
    exact (mem_bufB b i).2 ((mem_slotB b j i).1 hj).1
  · intro h
    exact ⟨(i 1 : Fin 16), (mem_slotB b _ i).2 ⟨(mem_bufB b i).1 h, rfl⟩⟩

/-- The item table's block scratch held whole is its 32 slots held apart. -/
theorem scrB_split (d : Dev nD) (L : grid0.Coords) (f : Buf (Elt F) ((V d (cV L) (jV L)).loc cc0_scratch3)) :
    ((Memref.whole cc0_scratch3).view.loc (V d (cV L) (jV L)) ↦{fullShare} f : sProp 𝕄)
      = bigSep Finset.univ fun b : Fin 2 => bigSep Finset.univ fun j : Fin 16 =>
          (slotB b j).view.loc (V d (cV L) (jV L)) ↦[(slotB b j).view.set]{fullShare} f := by
  rw [← bigSep_univ_prod (fun p : Fin 2 × Fin 16 =>
      ((slotB p.1 p.2).view.loc (V d (cV L) (jV L)) ↦[(slotB p.1 p.2).view.set]{fullShare} f : sProp 𝕄)),
    ← pointsTo_biUnion Finset.univ (ℓ := (V d (cV L) (jV L)).loc cc0_scratch3) (fun p : Fin 2 × Fin 16 => slotBSet p.1 p.2)
      slotB_disjoint, slotB_cover]; try rfl

/-- A buffer is its 16 slots. -/
theorem bufB_split (d : Dev nD) (L : grid0.Coords) (b : Fin 2) (f : Buf (Elt F) ((V d (cV L) (jV L)).loc cc0_scratch3)) :
    ((bufB b).view.loc (V d (cV L) (jV L)) ↦[(bufB b).view.set]{fullShare} f : sProp 𝕄)
      = bigSep Finset.univ fun j : Fin 16 => (slotB b j).view.loc (V d (cV L) (jV L)) ↦[(slotB b j).view.set]{fullShare} f := by
  rw [← pointsTo_biUnion Finset.univ (ℓ := (V d (cV L) (jV L)).loc cc0_scratch3) (fun j : Fin 16 => slotBSet b j)
      (slotB_disjoint_in b), slotB_cover_in b]; try rfl

/-- Sixteen contents, one per slot, as one contents of the scratch: the j-th on the indices (·, j, ·, ·). -/
def joinB (g : Fin 16 → S2x16x8x32.Idx → F .f32) : S2x16x8x32.Idx → F .f32 := fun i => g (i 1) i

/-- The 16 slots of a buffer held at 16 different contents are the buffer held at their join. -/
theorem bufB_join (d : Dev nD) (L : grid0.Coords) (b : Fin 2) (g : Fin 16 → Buf (Elt F) ((V d (cV L) (jV L)).loc cc0_scratch3)) :
    (bigSep Finset.univ fun j : Fin 16 => (slotB b j).view.loc (V d (cV L) (jV L)) ↦[(slotB b j).view.set]{fullShare} g j : sProp 𝕄)
      = ((bufB b).view.loc (V d (cV L) (jV L)) ↦[(bufB b).view.set]{fullShare} (joinB g : Buf (Elt F) ((V d (cV L) (jV L)).loc cc0_scratch3))) := by
  rw [bufB_split d L b]
  refine congrArg (bigSep Finset.univ) (funext fun j => ?_)
  exact pointsTo_congr fun i hi => by
    have h1 : (i 1 : Fin 16) = j := Fin.ext ((mem_slotB b j i).1 hi).2
    show g j i = g (i 1) i
    rw [h1]

/-! ## The subcore's rows of the result

The result [16384, 32] is copied out through its reshape to [2048, 8, 32]: block x₀, row x₁ of the reshape is row
8·x₀ + x₁ of the result (the same row-major position). Trip t of the subcore's loop writes two pieces of two blocks
each, at block offsets 128·s + 64·c + 4·t and two further: the rows [base + 32·t, +16) and [base + 32·t + 16, +16),
`base = 512·(2s + c)` the subcore's first row. Over the 16 trips these 32 row ranges are pairwise disjoint and cover
the subcore's 512 rows. -/

theorem trips_eq : k0_t1_loop.trips = 16 := rfl

/-- The result as the copy-out addresses it: reshaped to [2048, 8, 32]. -/
abbrev oBlocks : Memref sig .scVector .hbm S2048x8x32 .f32 :=
  (oV).reshape S2048x8x32 reshapes_S16384x32_S2048x8x32.1 reshapes_S16384x32_S2048x8x32.2 (Memref.isWhole_whole _).contiguous

/-- The two destinations of trip t's copies out. -/
abbrev piece0 (L : grid0.Coords) (t : Fin k0_t1_loop.trips) : Memref sig .scVector .hbm S2x8x32 .f32 :=
  (oBlocks).slice (Rect.unit (s := S2048x8x32) (k0_off68 L t) S2x8x32.size (k0_off68_inb L t)) (fun _ => rfl)
abbrev piece1 (L : grid0.Coords) (t : Fin k0_t1_loop.trips) : Memref sig .scVector .hbm S2x8x32 .f32 :=
  (oBlocks).slice (Rect.unit (s := S2048x8x32) (k0_off103 L t) S2x8x32.size (k0_off103_inb L t)) (fun _ => rfl)

abbrev piece0Set (L : grid0.Coords) (t : Fin k0_t1_loop.trips) : Finset S16384x32.Idx := (piece0 L t).view.set
abbrev piece1Set (L : grid0.Coords) (t : Fin k0_t1_loop.trips) : Finset S16384x32.Idx := (piece1 L t).view.set

/-- Where the reshape puts its index (blk, r, f): at row 8·blk + r, column f. -/
theorem oBlocks_emb (x : S2048x8x32.Idx) :
    (oBlocks).view.emb x = (ix2 (⟨(x 0).val * 8 + (x 1).val, by
      have h0 : (x 0).val < 2048 := (x 0).isLt
      have h1 : (x 1).val < 8 := (x 1).isLt
      omega⟩ : Fin 16384) (x 2) : S16384x32.Idx) := by
  show Shape.reshapeEquiv reshapes_S16384x32_S2048x8x32.1 x = _
  refine Shape.reshapeEquiv_eq_of_rowMajor _ ?_
  rw [Shape.rowMajor_val_two, Shape.rowMajor_val_three]
  rfl

/-- The elements of two blocks from block offset o: the rows [8·o, 8·o + 16). -/
theorem mem_blocks (off : Fin 3 → Nat) (o : Nat) (ho : off = ![o, 0, 0]) (inb : ∀ a, off a + S2x8x32.size a ≤ S2048x8x32.size a)
    (j : S16384x32.Idx) :
    j ∈ (((oBlocks).slice (Rect.unit (s := S2048x8x32) off S2x8x32.size inb) (fun _ => rfl)).view.set : Finset S16384x32.Idx)
      ↔ 8 * o ≤ (j 0).val ∧ (j 0).val < 8 * o + 16 := by
  subst ho
  have e : (((oBlocks).slice (Rect.unit (s := S2048x8x32) ![o, 0, 0] S2x8x32.size inb) (fun _ => rfl)).view.set : Finset S16384x32.Idx)
      = (Rect.unit (s := S2048x8x32) ![o, 0, 0] S2x8x32.size inb).set.map (oBlocks).view.emb := View.set_slice (oBlocks).view _
  rw [e, Finset.mem_map]
  have hj0 : (j 0).val < 16384 := (j 0).isLt
  constructor
  · rintro ⟨x, hx, rfl⟩
    rw [Rect.mem_set_unit] at hx
    have h0 := hx 0
    change o ≤ (x 0).val ∧ (x 0).val < o + 2 at h0
    have h1 : (x 1).val < 8 := (x 1).isLt
    rw [oBlocks_emb]
    show 8 * o ≤ (x 0).val * 8 + (x 1).val ∧ (x 0).val * 8 + (x 1).val < 8 * o + 16
    omega
  · rintro ⟨hlo, hhi⟩
    refine ⟨ix3 (⟨(j 0).val / 8, by omega⟩ : Fin 2048) (⟨(j 0).val % 8, Nat.mod_lt _ (by decide)⟩ : Fin 8) (j 1), ?_, ?_⟩
    · rw [Rect.mem_set_unit]
      intro a
      match a with
      | ⟨0, _⟩ => change o ≤ (j 0).val / 8 ∧ (j 0).val / 8 < o + 2; omega
      | ⟨1, _⟩ => change 0 ≤ (j 0).val % 8 ∧ (j 0).val % 8 < 0 + 8; omega
      | ⟨2, _⟩ => change 0 ≤ (j 1).val ∧ (j 1).val < 0 + 32; have := (j 1).isLt; change (j 1).val < 32 at this; omega
    · rw [oBlocks_emb]
      funext a
      refine Fin.ext ?_
      match a with
      | ⟨0, _⟩ => show (j 0).val / 8 * 8 + (j 0).val % 8 = (j 0).val; omega
      | ⟨1, _⟩ => rfl

theorem mem_piece0 (L : grid0.Coords) (t : Fin k0_t1_loop.trips) (j : S16384x32.Idx) :
    j ∈ piece0Set L t ↔ base L + 32 * t.val ≤ (j 0).val ∧ (j 0).val < base L + 32 * t.val + 16 := by
  rw [show piece0Set L t = _ from rfl, mem_blocks _ _ (k0_off68_eq L t)]
  unfold base; omega

theorem mem_piece1 (L : grid0.Coords) (t : Fin k0_t1_loop.trips) (j : S16384x32.Idx) :
    j ∈ piece1Set L t ↔ base L + 32 * t.val + 16 ≤ (j 0).val ∧ (j 0).val < base L + 32 * t.val + 32 := by
  rw [show piece1Set L t = _ from rfl, mem_blocks _ _ (k0_off103_eq L t)]
  unfold base; omega

theorem piece_disjoint (L : grid0.Coords) (t : Fin k0_t1_loop.trips) : Disjoint (piece0Set L t) (piece1Set L t) := by
  rw [Finset.disjoint_left]
  intro j h0 h1
  rw [mem_piece0] at h0; rw [mem_piece1] at h1
  omega

/-- The rows trip t writes. -/
abbrev tripSet (L : grid0.Coords) (t : Fin k0_t1_loop.trips) : Finset S16384x32.Idx := piece0Set L t ∪ piece1Set L t

theorem mem_tripSet (L : grid0.Coords) (t : Fin k0_t1_loop.trips) (j : S16384x32.Idx) :
    j ∈ tripSet L t ↔ base L + 32 * t.val ≤ (j 0).val ∧ (j 0).val < base L + 32 * t.val + 32 := by
  rw [Finset.mem_union, mem_piece0, mem_piece1]; omega

theorem trip_disjoint (L : grid0.Coords) : ∀ t ∈ (Finset.univ : Finset (Fin k0_t1_loop.trips)), ∀ t' ∈ (Finset.univ : Finset (Fin k0_t1_loop.trips)),
    t ≠ t' → Disjoint (tripSet L t) (tripSet L t') := by
  intro t _ t' _ hne
  rw [Finset.disjoint_left]
  intro j h h'
  rw [mem_tripSet] at h h'
  exact hne (Fin.ext (by omega))

theorem trip_cover (L : grid0.Coords) : (Finset.univ : Finset (Fin k0_t1_loop.trips)).biUnion (fun t => tripSet L t) = outSet L := by
  ext j
  simp only [Finset.mem_biUnion, Finset.mem_univ, true_and]
  have hout : j ∈ outSet L ↔ base L ≤ (j 0).val ∧ (j 0).val < base L + 512 := by
    unfold outSet; rw [Finset.mem_filter]; exact ⟨fun h => h.2, fun h => ⟨Finset.mem_univ _, h⟩⟩
  rw [hout]
  constructor
  · rintro ⟨t, ht⟩
    rw [mem_tripSet] at ht
    have ht16 : t.val < 16 := t.isLt
    omega
  · intro h
    refine ⟨⟨((j 0).val - base L) / 32, show _ < 16 by omega⟩, ?_⟩
    rw [mem_tripSet]
    dsimp only
    omega

/-- The subcore's rows of the result, held at one function, are the 32 pieces its copies out address, held apart
    at that function. -/
theorem oRows_split (d : Dev nD) (L : grid0.Coords) (f : Buf (Elt F) (oLoc d)) :
    (oLoc d ↦[outSet L]{fullShare} f : sProp 𝕄)
      = bigSep Finset.univ fun t : Fin k0_t1_loop.trips =>
          iprop(((piece0 L t).view.loc (V d (cV L) (jV L)) ↦[(piece0 L t).view.set]{fullShare} f)
            ∗ ((piece1 L t).view.loc (V d (cV L) (jV L)) ↦[(piece1 L t).view.set]{fullShare} f)) := by
  rw [← trip_cover L, pointsTo_biUnion Finset.univ (ℓ := oLoc d) (fun t => tripSet L t) (trip_disjoint L)]
  refine congrArg (bigSep Finset.univ) (funext fun t => ?_)
  have hu : (oLoc d ↦[piece0Set L t ∪ piece1Set L t]{fullShare} f : sProp 𝕄)
      ⊣⊢ iprop((oLoc d ↦[piece0Set L t]{fullShare} f) ∗ oLoc d ↦[piece1Set L t]{fullShare} f) := pointsTo_union (piece_disjoint L t)
  exact BI.equiv_iff.mp ⟨hu.1, hu.2⟩

/-! ## The output staging scratch

Shape [2, 2, 8, 32]: two halves, each two 8-row blocks, the 16 product rows of one chunk. -/

/-- Half b of the staging scratch: the scratch at leading coordinate b, the unit axis dropped. -/
abbrev bufO (b : Fin 2) : Memref sig .scVector .vmem S2x8x32 .f32 :=
  ((Memref.whole cc0_scratch4).slice (Rect.unit (s := S2x2x8x32) ![b.val, 0, 0, 0] S1x2x8x32.size (inb_buf2 b)) (fun _ => rfl)).squeeze S2x8x32
    squeezes_S1x2x8x32_S2x8x32

abbrev bufOSet (b : Fin 2) : Finset S2x2x8x32.Idx := (bufO b).view.set

/-- Where half b puts its index (k, r, f): at (b, k, r, f) of the scratch. -/
theorem bufO_emb (b : Fin 2) (x : S2x8x32.Idx) :
    (bufO b).view.emb x = (ix4 b (x 0) (x 1) (x 2) : S2x2x8x32.Idx) := by
  show (Rect.unit (s := S2x2x8x32) ![b.val, 0, 0, 0] S1x2x8x32.size (inb_buf2 b)).emb
      (Shape.reshapeEquiv squeezes_S1x2x8x32_S2x8x32.numel_eq x) = _
  rw [Shape.reshapeEquiv_eq_of_rowMajor _ (y := (ix4 (0 : Fin 1) (x 0) (x 1) (x 2) : S1x2x8x32.Idx))
    (by rw [Shape.rowMajor_val_four, Shape.rowMajor_val_three]
        show ((0 * 2 + (x 0).val) * 8 + (x 1).val) * 32 + (x 2).val = ((x 0).val * 8 + (x 1).val) * 32 + (x 2).val
        omega)]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The elements of a half: the scratch's indices with leading coordinate b. -/
theorem mem_bufO (b : Fin 2) (i : S2x2x8x32.Idx) : i ∈ bufOSet b ↔ (i 0).val = b.val := by
  have e : bufOSet b = (Rect.unit (s := S2x2x8x32) ![b.val, 0, 0, 0] S1x2x8x32.size (inb_buf2 b)).set := by
    show (((View.whole (cc0_scratch4 : Ref sig .scVector)).slice
      (Rect.unit (s := S2x2x8x32) ![b.val, 0, 0, 0] S1x2x8x32.size (inb_buf2 b))).reshape S2x8x32
        squeezes_S1x2x8x32_S2x8x32.numel_eq).set = _
    rw [View.set_reshape]; exact View.set_slice_whole _ _
  rw [e, Rect.mem_set_unit]
  constructor
  · intro h
    have h0 := h 0
    change b.val ≤ (i 0).val ∧ (i 0).val < b.val + 1 at h0
    omega
  · intro h a
    match a with
    | ⟨0, _⟩ => change b.val ≤ (i 0).val ∧ (i 0).val < b.val + 1; omega
    | ⟨1, _⟩ => change 0 ≤ (i 1).val ∧ (i 1).val < 0 + 2; have := (i 1).isLt; change (i 1).val < 2 at this; omega
    | ⟨2, _⟩ => change 0 ≤ (i 2).val ∧ (i 2).val < 0 + 8; have := (i 2).isLt; change (i 2).val < 8 at this; omega
    | ⟨3, _⟩ => change 0 ≤ (i 3).val ∧ (i 3).val < 0 + 32; have := (i 3).isLt; change (i 3).val < 32 at this; omega

theorem bufO_disjoint : ∀ b ∈ (Finset.univ : Finset (Fin 2)), ∀ b' ∈ (Finset.univ : Finset (Fin 2)), b ≠ b' →
    Disjoint (bufOSet b) (bufOSet b') := by
  intro b _ b' _ hne
  rw [Finset.disjoint_left]
  intro i hi hi'
  rw [mem_bufO] at hi hi'
  exact hne (Fin.ext (by omega))

theorem bufO_cover : (Finset.univ : Finset (Fin 2)).biUnion (fun b => bufOSet b) = Finset.univ := by
  ext i
  simp only [Finset.mem_biUnion, Finset.mem_univ, true_and, iff_true]
  exact ⟨(i 0 : Fin 2), (mem_bufO _ i).2 rfl⟩

/-- The staging scratch held whole is its two halves held apart. -/
theorem scrO_split (d : Dev nD) (L : grid0.Coords) (f : Buf (Elt F) ((V d (cV L) (jV L)).loc cc0_scratch4)) :
    ((Memref.whole cc0_scratch4).view.loc (V d (cV L) (jV L)) ↦{fullShare} f : sProp 𝕄)
      = bigSep Finset.univ fun b : Fin 2 => (bufO b).view.loc (V d (cV L) (jV L)) ↦[(bufO b).view.set]{fullShare} f := by
  rw [← pointsTo_biUnion Finset.univ (ℓ := (V d (cV L) (jV L)).loc cc0_scratch4) (fun b : Fin 2 => bufOSet b) bufO_disjoint, bufO_cover]; try rfl

end Cert.Proof.KI

end
-- ==== Proof.RingKI.lean ====
/-
  The double-buffered loop of a vector subcore, as separation-logic vocabulary.

  At the top of trip t (chunks 2t and 2t+1 of the subcore's 32 chunks of 16 positions) the sixteen block copies of
  chunk 2t into buffer 0 of each block scratch are in flight: one batch per table on one semaphore, each copy lending
  the block of the reshaped table it reads out of a read token of its own and landing in a slot of its own. Buffer 1
  is free. From trip 1 on, the two copy-outs of the previous trip (its 32 product rows, as two pieces of 16) are in
  flight as well. The rows of earlier trips hold the result function G; the rows of this and later trips their launch
  contents.
-/
import proofs.«219339_g11596411699725_week1_w4_1023_23_alg».proof.Proof.IfaceKI
import proofs.«219339_g11596411699725_week1_w4_1023_23_alg».proof.Proof.SlotsKI
import Idealize.ShloMosaic.Lib.Batch
import Idealize.ShloMosaic.Lib.Transfers
import Idealize.ShloMosaic.Lib.Pipeline.Kit

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

abbrev thrV (d : Dev nD) (L : grid0.Coords) : Thread nD τ := V d (cV L) (jV L)

abbrev sU : Memref sig .scVector .vmem S512 .i32 := Memref.whole cc0_scratch0
abbrev sI : Memref sig .scVector .vmem S512 .i32 := Memref.whole cc0_scratch1
abbrev sA : Memref sig .scVector .vmem S2x16x8x32 .f32 := Memref.whole cc0_scratch2
abbrev sB : Memref sig .scVector .vmem S2x16x8x32 .f32 := Memref.whole cc0_scratch3
abbrev sO : Memref sig .scVector .vmem S2x2x8x32 .f32 := Memref.whole cc0_scratch4

/-- An index word below a million is non-negative as a signed word, so its arithmetic shift by three is its quotient by eight. -/
theorem shr3_lt (x : BitVec 32) (hx : x.toNat < 1000000) : (IntOp.shrsi .vector x 3#32).toNat < 125000 := by
  have hm : x.msb = false := by
    rw [BitVec.msb_eq_false_iff_two_mul_lt]; omega
  unfold IntOp.shrsi
  rw [if_pos (by decide)]
  show (x.sshiftRight (3#32).toNat).toNat < 125000
  rw [BitVec.toNat_sshiftRight_of_msb_false hm]
  show x.toNat >>> 3 < 125000
  rw [Nat.shiftRight_eq_div_pow]; omega

/-- A block number below 125000 names a whole block of the reshaped table. -/
theorem chk_of_lt {w : BitVec 32} (h : w.toNat < 125000) (a : Fin 3) :
    (![w.toNat, 0, 0] : Fin 3 → ℕ) a + S1x8x32.size a ≤ S125000x8x32.size a := by
  match a with
  | ⟨0, _⟩ => show w.toNat + 1 ≤ 125000; omega
  | ⟨1, _⟩ => show 0 + 8 ≤ 8; omega
  | ⟨2, _⟩ => show 0 + 32 ≤ 32; omega

/-- One lane of the shifted index vector, as the body extracts it. -/
theorem lane_lt (v : IVec S16 32) (hv : ∀ x, (v x).toNat < 1000000) (off : Fin S16.rank → ℕ) (hs : S16.Slices off S1)
    (hp : ∀ a, (![0] : Fin S1.rank → ℕ) a < S1.size a) :
    (extractAt ![0] (extractStridedSlice S1 off (shrsi v (broadcast S16 3#32)) hs) hp).toNat < 125000 :=
  shr3_lt _ (hv _)

theorem slices16 : ∀ j : Fin 16, S16.Slices ![j.val] S1 := by decide

/-- Lane `j` of a loaded index vector, shifted: the block number the body computes. -/
abbrev wordOf (vec : IVec S16 32) (j : Fin 16) : BitVec 32 :=
  extractAt ![0] (extractStridedSlice S1 ![j.val] (shrsi vec (broadcast S16 3#32)) (slices16 j)) inpos_S1_p0

/-- The sixteen positions of an index scratch from offset `off` on, as the body loads them. -/
abbrev vecAt (s : Memref sig .scVector .vmem S512 .i32) (c : Buf (Elt F) (s.view.loc (thrV d L))) (off : Fin 1 → ℕ)
    (h : ∀ a, off a + S16.size a ≤ S512.size a) : IVec S16 32 :=
  s.view.readAt (Elt F) (Rect.unit (s := S512) off S16.size h).toLoadRect c

/-- The block of a reshaped table that a word below 125000 names. -/
abbrev blkSrc (tV : Memref sig .scVector .hbm S125000x8x32 .f32) (w : BitVec 32) (hw : w.toNat < 125000) : Memref sig .scVector .hbm S1x8x32 .f32 :=
  tV.slice (Rect.unit (s := S125000x8x32) ![w.toNat, 0, 0] S1x8x32.size (chk_of_lt hw)) (fun _ => rfl)

variable [∀ e, Nonempty (Elt F e)]

/-- One delivery of a batch of block copies: the slot holding the block, and the block's share of the table back (at the
    table's own location). -/
abbrev deliv1 (slot : Memref sig .scVector .vmem S1x8x32 .f32) (tV : Memref sig .scVector .hbm S125000x8x32 .f32) (w : BitVec 32)
    (hw : w.toNat < 125000) (q : PosShare TreeShare) (tab : Buf (Elt F) (tV.view.loc (thrV d L))) : sProp 𝕄 :=
  iprop((slot.view.loc (thrV d L) ↦[slot.view.set]{fullShare}
        slot.view.writes (Elt F) slot.view.junk [⟨Rect.whole S1x8x32, ReadAs.same.apply ((blkSrc tV w hw).view.read (Elt F) tab)⟩])
      ∗ (tV.view.loc (thrV d L) ↦[(blkSrc tV w hw).view.set]{q} tab))

/-- The token number of slot `j` of buffer `b`. -/
abbrev tokOf (b : Fin 2) (j : Fin 16) : Fin 32 := ⟨16 * b.val + j.val, by have := b.isLt; have := j.isLt; omega⟩

/-- The batch of sixteen block copies into the slots `slot j` out of table `tV` on semaphore `sem`, for the block
    numbers `w`: `k` issued, `u` units consumed. -/
abbrev ringBatch (slot : Fin 16 → Memref sig .scVector .vmem S1x8x32 .f32) (tV : Memref sig .scVector .hbm S125000x8x32 .f32)
    (tab : Buf (Elt F) ((tV).view.loc (thrV d L))) (sem : DmaSem sig) (b : Fin 2) (w : Fin 16 → BitVec 32)
    (hw : ∀ j : Fin 16, (w j).toNat < 125000) (k u : ℕ) : sProp 𝕄 :=
  Transfers.Batch (countersEmb (U := UU)) (thrV d L) (SemLoc.dma (sig := sig) sem) (default : HIx 1) 8192
    (fun j : Fin 16 => deliv1 (F := F) d L (slot j) tV (w j) (hw j) (shareTokN fullShare (tokIx L (tokOf b j))) tab) k u

/-- The rest of token `tokOf b j` while its block is lent; the token whole; a slot held by its own elements. -/
abbrev tokRest (tV : Memref sig .scVector .hbm S125000x8x32 .f32) (tab : Buf (Elt F) ((tV).view.loc (thrV d L))) (b : Fin 2) (w : Fin 16 → BitVec 32)
    (hw : ∀ j : Fin 16, (w j).toNat < 125000) (j : Fin 16) : sProp 𝕄 :=
  (tV).view.loc (thrV d L) ↦[Finset.univ \ (blkSrc tV (w j) (hw j)).view.set]{shareTokN fullShare (tokIx L (tokOf b j))} tab
abbrev tokWhole (tV : Memref sig .scVector .hbm S125000x8x32 .f32) (tab : Buf (Elt F) ((tV).view.loc (thrV d L))) (b : Fin 2) (j : Fin 16) : sProp 𝕄 :=
  (tV).view.loc (thrV d L) ↦{shareTokN fullShare (tokIx L (tokOf b j))} tab
abbrev slotHeld (slot : Memref sig .scVector .vmem S1x8x32 .f32) (f : Buf (Elt F) (slot.view.loc (thrV d L))) : sProp 𝕄 :=
  slot.view.loc (thrV d L) ↦[slot.view.set]{fullShare} f

/-- Trip number `n` as the loop counts it. -/
abbrev tripOf (n : ℕ) (h : n < 16) : Fin k0_t1_loop.trips := ⟨n, h⟩

/-- A copy-out in flight delivers: the piece of the result written with the staging half, and the staging half back. -/
abbrev outDeliv (piece : Memref sig .scVector .hbm S2x8x32 .f32) (fd : Buf (Elt F) (piece.view.loc (thrV d L))) (p : Fin 2)
    (Z : Buf (Elt F) ((bufO p).view.loc (thrV d L))) : sProp 𝕄 :=
  iprop((piece.view.loc (thrV d L) ↦[piece.view.set]{fullShare}
        piece.view.writes (Elt F) fd [⟨Rect.whole S2x8x32, ReadAs.same.apply ((bufO p).view.read (Elt F) Z)⟩])
      ∗ ((bufO p).view.loc (thrV d L) ↦[(bufO p).view.set]{fullShare} Z))

/-- The rows of the result at trip boundary `t`: trips before the previous one hold `G`, the previous trip's two pieces
    are in flight, this and later trips' pieces hold the launch contents. -/
def outRows (t : ℕ) : sProp 𝕄 :=
  bigSep Finset.univ fun t' : Fin k0_t1_loop.trips =>
    if t'.val + 1 < t then
      iprop(((piece0 L t').view.loc (thrV d L) ↦[(piece0 L t').view.set]{fullShare} G m d)
        ∗ ((piece1 L t').view.loc (thrV d L) ↦[(piece1 L t').view.set]{fullShare} G m d))
    else if t ≤ t'.val then
      iprop(((piece0 L t').view.loc (thrV d L) ↦[(piece0 L t').view.set]{fullShare} m (oLoc d))
        ∗ ((piece1 L t').view.loc (thrV d L) ↦[(piece1 L t').view.set]{fullShare} m (oLoc d)))
    else iprop(emp)

/-- The previous trip's two copy-outs in flight, each carrying product rows that agree with `G` on its piece. -/
def outFlightsAt (tp : Fin k0_t1_loop.trips) : sProp 𝕄 :=
  iprop(∃ (Z0 : Buf (Elt F) ((bufO 0).view.loc (thrV d L))) (Z1 : Buf (Elt F) ((bufO 1).view.loc (thrV d L))),
    ⌜(∀ j ∈ piece0Set L tp,
        (piece0 L tp).view.writes (Elt F) (m (oLoc d)) [⟨Rect.whole S2x8x32, ReadAs.same.apply ((bufO 0).view.read (Elt F) Z0)⟩] j = G m d j)
      ∧ (∀ j ∈ piece1Set L tp,
        (piece1 L tp).view.writes (Elt F) (m (oLoc d)) [⟨Rect.whole S2x8x32, ReadAs.same.apply ((bufO 1).view.read (Elt F) Z1)⟩] j = G m d j)⌝
    ∗ Transfers.Flight (countersEmb (U := UU)) (thrV d L) (SemLoc.dma (sig := sig) cc0_scratch9.sem) (default : HIx 1) 16384
        (outDeliv (F := F) d L (piece0 L tp) (m (oLoc d)) 0 Z0)
    ∗ Transfers.Flight (countersEmb (U := UU)) (thrV d L) (SemLoc.dma (sig := sig) cc0_scratch10.sem) (default : HIx 1) 16384
        (outDeliv (F := F) d L (piece1 L tp) (m (oLoc d)) 1 Z1))

/-- The staging halves and their semaphores at rest. -/
def outFree : sProp 𝕄 :=
  iprop((∃ f, (bufO 0).view.loc (thrV d L) ↦[(bufO 0).view.set]{fullShare} f) ∗ (∃ f, (bufO 1).view.loc (thrV d L) ↦[(bufO 1).view.set]{fullShare} f)
    ∗ semVal (thrV d L, SemLoc.dma cc0_scratch9.sem) 0 ∗ semVal (thrV d L, SemLoc.dma cc0_scratch10.sem) 0)

theorem pred_lt {t : ℕ} (h : 0 < t ∧ t ≤ 16) : t - 1 < 16 := by omega

/-- What the staging halves and their semaphores are at trip boundary `t`: free before the first trip; afterwards the
    previous trip's two copy-outs in flight. -/
def outFlights (t : ℕ) : sProp 𝕄 :=
  if ht : 0 < t ∧ t ≤ 16 then outFlightsAt m d L (tripOf (t - 1) (pred_lt ht)) else outFree (F := F) d L

/-- Buffer 0's block copies at trip boundary `t`: in flight for chunk 2t while a trip remains, at rest after the last. -/
def ringIn (su : Buf (Elt F) ((sU).view.loc (thrV d L))) (si : Buf (Elt F) ((sI).view.loc (thrV d L))) (t : ℕ) : sProp 𝕄 :=
  if t < 16 then
    iprop(∃ (wu wi : Fin 16 → BitVec 32) (hwu : ∀ j, (wu j).toNat < 125000) (hwi : ∀ j, (wi j).toNat < 125000),
      ⌜∃ (off : Fin 1 → ℕ) (h : ∀ a, off a + S16.size a ≤ S512.size a), off = ![32 * t]
          ∧ wu = (fun j => wordOf (vecAt (F := F) d L sU su off h) j) ∧ wi = (fun j => wordOf (vecAt (F := F) d L sI si off h) j)⌝
      ∗ ringBatch (F := F) d L (slotA 0) t0V (tab0 m d) cc0_scratch5.sem 0 wu hwu 16 0
      ∗ ringBatch (F := F) d L (slotB 0) t1V (tab1 m d) cc0_scratch7.sem 0 wi hwi 16 0
      ∗ (bigSep Finset.univ fun j : Fin 16 => tokRest (F := F) d L t0V (tab0 m d) 0 wu hwu j)
      ∗ (bigSep Finset.univ fun j : Fin 16 => tokRest (F := F) d L t1V (tab1 m d) 0 wi hwi j))
  else
    iprop((bigSep Finset.univ fun j : Fin 16 => iprop(∃ f, slotHeld (F := F) d L (slotA 0 j) f))
      ∗ (bigSep Finset.univ fun j : Fin 16 => iprop(∃ f, slotHeld (F := F) d L (slotB 0 j) f))
      ∗ (bigSep Finset.univ fun j : Fin 16 => tokWhole (F := F) d L t0V (tab0 m d) 0 j)
      ∗ (bigSep Finset.univ fun j : Fin 16 => tokWhole (F := F) d L t1V (tab1 m d) 0 j)
      ∗ semVal (thrV d L, SemLoc.dma cc0_scratch5.sem) 0 ∗ semVal (thrV d L, SemLoc.dma cc0_scratch7.sem) 0)

/-- The loop's invariant at trip boundary `t`. -/
def ringInv (su : Buf (Elt F) ((sU).view.loc (thrV d L))) (si : Buf (Elt F) ((sI).view.loc (thrV d L)))
    (O : CellTallies nD τ sig (HIx 1)) (W : Waits sig (HIx 1)) (t : ℕ) (_ : PUnit) : sProp 𝕄 :=
  iprop(Transfers.MayWaits (thrV d L) (none : HIx 1) O
    ∗ ((sU).view.loc (thrV d L) ↦{fullShare} su) ∗ ((sI).view.loc (thrV d L) ↦{fullShare} si)
    ∗ ringIn m d L su si t
    ∗ (bigSep Finset.univ fun j : Fin 16 => tokWhole (F := F) d L t0V (tab0 m d) 1 j)
    ∗ (bigSep Finset.univ fun j : Fin 16 => tokWhole (F := F) d L t1V (tab1 m d) 1 j)
    ∗ (bigSep Finset.univ fun j : Fin 16 => iprop(∃ f, slotHeld (F := F) d L (slotA 1 j) f))
    ∗ (bigSep Finset.univ fun j : Fin 16 => iprop(∃ f, slotHeld (F := F) d L (slotB 1 j) f))
    ∗ semVal (thrV d L, SemLoc.dma cc0_scratch6.sem) 0 ∗ semVal (thrV d L, SemLoc.dma cc0_scratch8.sem) 0
    ∗ outFlights m d L t ∗ outRows m d L t
    ∗ ∃ W', ⌜∀ p ∈ W', p ∈ W ∨ p.2 = none⌝ ∗ owes (thrV d L) O W')

end Cert.Proof.KI

end
-- ==== Proof.ExtractPureKI.lean ====
/-
  The inner loop of a subcore's chunk, as pure data.

  A chunk holds 16 batch positions, one per lane. For lane x the scratch of a table holds the 8-row block the
  position's index names, at row x of a [16, 8, 32] buffer; the position's row inside the block is the word w x of a
  lane vector (w x < 8). Trip f of the loop (f = 0 … 31) gathers, over the 16 lanes, entry (x, w x, f) of each table's
  buffer, multiplies the two gathered vectors lane by lane, and scatters the products to entries (x / 8, x % 8, f) of
  a [2, 8, 32] buffer. The 16 targets of one trip are pairwise distinct (distinct lanes have distinct (x / 8, x % 8)),
  so each receives its own lane's product; and a trip writes column f only, so what earlier trips wrote stays. After
  k trips every entry of the columns below k is the product the lane owes it (`Done k`); after 32, the whole buffer.
-/
import proofs.«219339_g11596411699725_week1_w4_1023_23_alg».proof.Proof.IfaceKI

noncomputable section

namespace Cert.Proof.KI

open Cert.KernelIdeal Cert.KernelIdeal.Gen

open Idealize.ShloMosaic

variable {F : FTy → Type} [FloatOps F]

/-! ## A scatter over pairwise distinct targets, read at an index -/

section Scatter

variable {s : Shape} {e : EltTy} {d : Fin 1 → Nat}

/-- One lane of an unmasked, non-adding scatter: the named entry takes the lane's value. -/
def putLane (idxs : Fin s.rank → IVec ⟨1, d⟩ 32) (v : Vec F ⟨1, d⟩ e) (g : Vec F s e) (k : Fin (d 0)) : Vec F s e :=
  fun j => if (∀ a, (j a).val = (idxs a (Shape.ofLane k)).toNat) then v (Shape.ofLane k) else g j

theorem storeIdx_eq_foldl (g : Vec F s e) (idxs : Fin s.rank → IVec ⟨1, d⟩ 32) (v : Vec F ⟨1, d⟩ e)
    (h : ∀ a x, (idxs a x).toNat < s.size a) :
    storeIdx g idxs v (fun _ => 1#1) false h = (List.finRange (d 0)).foldl (putLane idxs v) g := by
  unfold storeIdx
  congr 1
  funext g' k
  unfold putLane
  simp only [idxAt, BitVec.ofNat_eq_ofNat, ↓reduceIte, Bool.false_eq_true]

theorem foldl_putLane_keep (idxs : Fin s.rank → IVec ⟨1, d⟩ 32) (v : Vec F ⟨1, d⟩ e) (j : s.Idx) :
    ∀ (l : List (Fin (d 0))) (g : Vec F s e), (∀ k ∈ l, ¬ ∀ a, (j a).val = (idxs a (Shape.ofLane k)).toNat) → l.foldl (putLane idxs v) g j = g j := by
  intro l
  induction l with
  | nil => intro g _; rfl
  | cons k l ih =>
    intro g hn
    rw [List.foldl_cons, ih _ fun k' hk' => hn k' (List.mem_cons_of_mem _ hk')]
    exact if_neg (hn k (List.mem_cons_self ..))

theorem foldl_putLane_hit (idxs : Fin s.rank → IVec ⟨1, d⟩ 32) (v : Vec F ⟨1, d⟩ e) (j : s.Idx) (k : Fin (d 0))
    (hk : ∀ a, (j a).val = (idxs a (Shape.ofLane k)).toNat) :
    ∀ (l : List (Fin (d 0))) (g : Vec F s e), k ∈ l → (∀ k' ∈ l, (∀ a, (j a).val = (idxs a (Shape.ofLane k')).toNat) → k' = k) →
      l.foldl (putLane idxs v) g j = v (Shape.ofLane k) := by
  intro l
  induction l with
  | nil => intro g hm; exact absurd hm (List.not_mem_nil)
  | cons k0 l ih =>
    intro g hm hu
    rw [List.foldl_cons]
    by_cases hl : k ∈ l
    · exact ih _ hl fun k' hk' => hu k' (List.mem_cons_of_mem _ hk')
    · have h0 : k0 = k := by
        rcases List.mem_cons.mp hm with h | h
        · exact h.symm
        · exact absurd h hl
      subst h0
      rw [foldl_putLane_keep idxs v j l _ fun k' hk' hk'' => hl ((hu k' (List.mem_cons_of_mem _ hk') hk'') ▸ hk')]
      exact if_pos hk

/-- The scatter read at an entry some lane names: that lane's value, when no other lane names the entry. -/
theorem storeIdx_hit (g : Vec F s e) (idxs : Fin s.rank → IVec ⟨1, d⟩ 32) (v : Vec F ⟨1, d⟩ e) (h : ∀ a x, (idxs a x).toNat < s.size a)
    (hinj : ∀ k k' : Fin (d 0), (∀ a, (idxs a (Shape.ofLane k)).toNat = (idxs a (Shape.ofLane k')).toNat) → k = k')
    (j : s.Idx) (k : Fin (d 0)) (hk : ∀ a, (j a).val = (idxs a (Shape.ofLane k)).toNat) :
    storeIdx g idxs v (fun _ => 1#1) false h j = v (Shape.ofLane k) := by
  rw [storeIdx_eq_foldl]
  exact foldl_putLane_hit idxs v j k hk _ g (List.mem_finRange k) fun k' _ hk' => hinj k' k fun a => (hk' a).symm.trans (hk a)

/-- The scatter read at an entry no lane names: what was there. -/
theorem storeIdx_keep (g : Vec F s e) (idxs : Fin s.rank → IVec ⟨1, d⟩ 32) (v : Vec F ⟨1, d⟩ e) (h : ∀ a x, (idxs a x).toNat < s.size a)
    (j : s.Idx) (hn : ∀ k : Fin (d 0), ¬ ∀ a, (j a).val = (idxs a (Shape.ofLane k)).toNat) :
    storeIdx g idxs v (fun _ => 1#1) false h j = g j := by
  rw [storeIdx_eq_foldl]
  exact foldl_putLane_keep idxs v j _ g fun k _ => hn k

end Scatter

/-! ## The lanes and the trip number -/

/-- A lane index is the lane of its coordinate. -/
theorem lane_eta (x : S16.Idx) : (Shape.ofLane (d := ![16]) (x 0) : S16.Idx) = x := by
  funext a
  obtain rfl : a = 0 := Subsingleton.elim _ _
  exact Fin.ext rfl

/-- The induction variable of a loop from 0 by 1 is the trip number. -/
theorem iv_toNat (k : Nat) (hk : k < 2 ^ 32) : (Scf.iv 0#32 1#32 k).toNat = k := by
  unfold Scf.iv
  rw [BitVec.zero_add, BitVec.mul_one, BitVec.toNat_ofNat]
  exact Nat.mod_eq_of_lt hk

/-! ## The columns done after `k` trips -/

section Columns

variable (v3 w0 w1 vg vs : IVec S16 32) (X3 Y3 : Vec F S16x8x32 .f32)

/-- Every entry of the columns below `k` that a lane names is that lane's product. -/
def Done (k : Nat) (Z3 : Vec F S2x8x32 .f32) : Prop :=
  ∀ (x : S16.Idx) (jz : S2x8x32.Idx) (jx jy : S16x8x32.Idx), (jz 2).val < k →
    (jz 0).val = (vg x).toNat → (jz 1).val = (vs x).toNat →
    (jx 0).val = (v3 x).toNat → (jx 1).val = (w0 x).toNat → (jx 2).val = (jz 2).val →
    (jy 0).val = (v3 x).toNat → (jy 1).val = (w1 x).toNat → (jy 2).val = (jz 2).val →
    Z3 jz = FloatOps.mulf (X3 jx) (Y3 jy)

theorem Done_zero (Z3 : Vec F S2x8x32 .f32) : Done v3 w0 w1 vg vs X3 Y3 0 Z3 :=
  fun _ _ _ _ h => absurd h (Nat.not_lt_zero _)

/-- One trip: column `k` is written, the columns below it stay. -/
theorem Done_step (k : Nat) (t : BitVec 32) (ht : t.toNat = k) (Z3 : Vec F S2x8x32 .f32)
    (h1 : ∀ a x, ((![v3, w0, broadcast S16 t] : Fin 3 → IVec S16 32) a x).toNat < S16x8x32.size a)
    (h2 : ∀ a x, ((![v3, w1, broadcast S16 t] : Fin 3 → IVec S16 32) a x).toNat < S16x8x32.size a)
    (h3 : ∀ a x, ((![vg, vs, broadcast S16 t] : Fin 3 → IVec S16 32) a x).toNat < S2x8x32.size a)
    (hinj : ∀ x x' : S16.Idx, (vg x).toNat = (vg x').toNat → (vs x).toNat = (vs x').toNat → x = x')
    (hD : Done v3 w0 w1 vg vs X3 Y3 k Z3) :
    Done v3 w0 w1 vg vs X3 Y3 (k + 1)
      (storeIdx Z3 ![vg, vs, broadcast S16 t] (mulf (loadIdx X3 ![v3, w0, broadcast S16 t] h1) (loadIdx Y3 ![v3, w1, broadcast S16 t] h2))
        (fun _ => 1#1) false h3) := by
  intro x jz jx jy hlt hz0 hz1 hx0 hx1 hx2 hy0 hy1 hy2
  by_cases hk : (jz 2).val = k
  · have hnames : ∀ a : Fin 3, (jz a).val = ((![vg, vs, broadcast S16 t] : Fin 3 → IVec S16 32) a (Shape.ofLane (d := ![16]) (x 0))).toNat := by
      rw [lane_eta]
      intro a
      match a with
      | ⟨0, _⟩ => exact hz0
      | ⟨1, _⟩ => exact hz1
      | ⟨2, _⟩ => exact hk.trans ht.symm
    rw [storeIdx_hit Z3 _ _ h3 ?_ jz (x 0) hnames, lane_eta]
    · show FloatOps.mulf (X3 (idxAt _ h1 x)) (Y3 (idxAt _ h2 x)) = _
      have ex : idxAt (![v3, w0, broadcast S16 t] : Fin 3 → IVec S16 32) h1 x = jx := by
        funext a
        apply Fin.ext
        match a with
        | ⟨0, _⟩ => exact hx0.symm
        | ⟨1, _⟩ => exact hx1.symm
        | ⟨2, _⟩ => exact (hx2.trans (hk.trans ht.symm)).symm
      have ey : idxAt (![v3, w1, broadcast S16 t] : Fin 3 → IVec S16 32) h2 x = jy := by
        funext a
        apply Fin.ext
        match a with
        | ⟨0, _⟩ => exact hy0.symm
        | ⟨1, _⟩ => exact hy1.symm
        | ⟨2, _⟩ => exact (hy2.trans (hk.trans ht.symm)).symm
      rw [ex, ey]
    · intro kk kk' hkk
      have e := hinj (Shape.ofLane (d := ![16]) kk) (Shape.ofLane (d := ![16]) kk') (hkk (0 : Fin 3)) (hkk (1 : Fin 3))
      have := congrFun e 0
      exact Fin.ext (Fin.val_eq_of_eq this)
  · rw [storeIdx_keep Z3 _ _ h3 jz fun kk hkk => hk (Eq.trans (hkk (2 : Fin 3)) ht)]
    exact hD x jz jx jy (by omega) hz0 hz1 hx0 hx1 hx2 hy0 hy1 hy2

end Columns

end Cert.Proof.KI

end
-- ==== Proof.ExtractKI.lean ====
/-
  The inner loop of a subcore's chunk, run: for each of the two buffer halves, the 32 trips that gather the 16 lanes'
  rows out of the two tables' block buffers, multiply them lane by lane and scatter the products into the product
  buffer. Each trip is two indexed loads and one indexed store; an indexed load is a load of the whole buffer half
  followed by the gather, an indexed store a load and a store of the whole half holding the scatter. The loop's
  invariant is that the columns below the trip number are done (`Done`), so after the 32 trips every entry of the
  product buffer half that a lane names holds that lane's product.
-/
import proofs.«219339_g11596411699725_week1_w4_1023_23_alg».proof.Proof.IfaceKI
import proofs.«219339_g11596411699725_week1_w4_1023_23_alg».proof.Proof.ExtractPureKI
import proofs.«219339_g11596411699725_week1_w4_1023_23_alg».proof.Proof.Gen.KernelIdeal.Skeleton
import Idealize.ShloMosaic.Lib.SparseCore.Ops
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A memref through its whole rectangle is the memref -/

omit [FloatOps F] in
theorem access_whole_set {κ : Kind} {sp : Space} {s : Shape} {e : EltTy} (m : Memref sig κ sp s e) :
    (m.access (Rect.whole s)).set = m.view.set := by
  show (m.view.slice (Rect.whole s)).set = m.view.set
  rw [View.set_slice, Rect.set_whole]; rfl

omit [FloatOps F] in
theorem access_whole_read {κ : Kind} {sp : Space} {s : Shape} {e : EltTy} (m : Memref sig κ sp s e) (f : m.view.ty.Contents (Elt F)) :
    (m.access (Rect.whole s)).read (Elt F) f = m.view.read (Elt F) f := by
  funext x
  show _root_.cast _ (f (m.view.emb ((Rect.whole s).emb x))) = _root_.cast _ (f (m.view.emb x))
  rw [Rect.emb_whole_apply]

/-! ## Buffer 0 -/

/-- Buffer 0 of each table's block scratch as a [16, 8, 32] memref, and of the product scratch as [2, 8, 32]. -/
abbrev bX0 : Memref sig .scVector .vmem S16x8x32 .f32 :=
  ((Memref.whole cc0_scratch2 : Memref sig .scVector .vmem S2x16x8x32 .f32).slice (Rect.unit (s := S2x16x8x32) ![0, 0, 0, 0] S1x16x8x32.size inb_S2x16x8x32_S1x16x8x32_0_0_0_0) (fun _ => rfl)).squeeze S16x8x32 squeezes_S1x16x8x32_S16x8x32
abbrev bY0 : Memref sig .scVector .vmem S16x8x32 .f32 :=
  ((Memref.whole cc0_scratch3 : Memref sig .scVector .vmem S2x16x8x32 .f32).slice (Rect.unit (s := S2x16x8x32) ![0, 0, 0, 0] S1x16x8x32.size inb_S2x16x8x32_S1x16x8x32_0_0_0_0) (fun _ => rfl)).squeeze S16x8x32 squeezes_S1x16x8x32_S16x8x32
abbrev bZ0 : Memref sig .scVector .vmem S2x8x32 .f32 :=
  ((Memref.whole cc0_scratch4 : Memref sig .scVector .vmem S2x2x8x32 .f32).slice (Rect.unit (s := S2x2x8x32) ![0, 0, 0, 0] S1x2x8x32.size inb_S2x2x8x32_S1x2x8x32_0_0_0_0) (fun _ => rfl)).squeeze S2x8x32 squeezes_S1x2x8x32_S2x8x32
/-- The same through their whole rectangles: what the indexed loads and the indexed store go through. -/
abbrev AX0 := (bX0).access (Rect.whole S16x8x32)
abbrev AY0 := (bY0).access (Rect.whole S16x8x32)
abbrev AZ0 := (bZ0).access (Rect.whole S2x8x32)

theorem trips0 : k0_t2_loop.trips = 32 := by decide

section Loop0

variable (d : Dev nD) (L : grid0.Coords) (v2 : BitVec 32) (v3 : IVec S16 32) (k0_t1 : Fin k0_t1_loop.trips) (v348 : BitVec 32)
  (w0 w1 vg vs : IVec S16 32)
  (X : Buf (Elt F) ((AX0).loc (V d (cV L) (jV L)))) (Y : Buf (Elt F) ((AY0).loc (V d (cV L) (jV L))))

/-- Before trip `k`: the two block buffers as they were, the product buffer with the columns below `k` done. -/
def inv0 (k : Nat) (_ : Unit) : sProp 𝕄 :=
  iprop(∃ Zc : Buf (Elt F) ((AZ0).loc (V d (cV L) (jV L))),
    ((AX0).loc (V d (cV L) (jV L)) ↦[(AX0).set]{fullShare} X) ∗ ((AY0).loc (V d (cV L) (jV L)) ↦[(AY0).set]{fullShare} Y)
    ∗ ((AZ0).loc (V d (cV L) (jV L)) ↦[(AZ0).set]{fullShare} Zc)
    ∗ ⌜Done v3 w0 w1 vg vs ((AX0).read (Elt F) X) ((AY0).read (Elt F) Y) k ((AZ0).read (Elt F) Zc)⌝)

/-- One trip: two gathers, the lanes' products, one scatter into column `t`. -/
theorem region0
    (hchk : ∀ t : Fin k0_t2_loop.trips, k0_chk65 v3 w0 w1 vg vs (broadcast S16 (Scf.iv 0#32 1#32 t)))
    (hinj : ∀ x x' : S16.Idx, (vg x).toNat = (vg x').toNat → (vs x).toNat = (vs x').toNat → x = x')
    (t : Fin k0_t2_loop.trips) (u : Unit) :
    inv0 (F := F) d L v3 w0 w1 vg vs X Y t.val u
      ⊢ wp frame (wpE (defs₀ (F := F)) 𝒱₀ (V d (cV L) (jV L)) none) Set.univ
          (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs t u)
          (inv0 (F := F) d L v3 w0 w1 vg vs X Y (t.val + 1)) := by
  unfold inv0 k0_t2_body
  simp only [Prog.lift, Prog.bind_op, Prog.bind_ret, Prog.pure_eq_ret]
  iintro ⟨%Zc, HX, HY, HZ, %hD⟩
  rw [wp_assume_of _ _ _ _ (hchk t)]
  iapply (SparseCore.wp_vectorLoadIdx 𝒱₀ (V d (cV L) (jV L)) none Set.univ (base := bX0) (S := (AX0).set) (q := fullShare) subset_rfl) $$ HX; iintro HX
  iapply (SparseCore.wp_vectorLoadIdx 𝒱₀ (V d (cV L) (jV L)) none Set.univ (base := bY0) (S := (AY0).set) (q := fullShare) subset_rfl) $$ HY; iintro HY
  iapply (SparseCore.wp_vectorStoreIdx 𝒱₀ (V d (cV L) (jV L)) none Set.univ (base := bZ0)) $$ HZ; iintro HZ
  rw [wp_ret]; imodintro
  iexists _
  isplitl [HX]; · iexact HX
  isplitl [HY]; · iexact HY
  isplitl [HZ]; · iexact HZ
  ipureintro
  rw [View.read_write_univ]
  have ht : (Scf.iv 0#32 1#32 t.val).toNat = t.val := iv_toNat t.val (by have h1 := t.isLt; have h2 := trips0; omega)
  exact Done_step v3 w0 w1 vg vs _ _ t.val _ ht _ _ _ _ hinj hD

/-- The loop: from the three buffers, the product buffer ends with every column done. -/
theorem extract0
    (hchk : ∀ t : Fin k0_t2_loop.trips, k0_chk65 v3 w0 w1 vg vs (broadcast S16 (Scf.iv 0#32 1#32 t)))
    (hinj : ∀ x x' : S16.Idx, (vg x).toNat = (vg x').toNat → (vs x).toNat = (vs x').toNat → x = x')
    (Z : Buf (Elt F) ((AZ0).loc (V d (cV L) (jV L)))) :
    iprop(((AX0).loc (V d (cV L) (jV L)) ↦[(AX0).set]{fullShare} X) ∗ ((AY0).loc (V d (cV L) (jV L)) ↦[(AY0).set]{fullShare} Y)
        ∗ ((AZ0).loc (V d (cV L) (jV L)) ↦[(AZ0).set]{fullShare} Z))
      ⊢ wp frame (wpE (defs₀ (F := F)) 𝒱₀ (V d (cV L) (jV L)) none) Set.univ
          (Scf.Loop.for k0_t2_loop k0_t2_ok ⟨⟩ (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs))
          fun _ => (iprop(∃ Z' : Buf (Elt F) ((AZ0).loc (V d (cV L) (jV L))),
            ((AX0).loc (V d (cV L) (jV L)) ↦[(AX0).set]{fullShare} X) ∗ ((AY0).loc (V d (cV L) (jV L)) ↦[(AY0).set]{fullShare} Y)
            ∗ ((AZ0).loc (V d (cV L) (jV L)) ↦[(AZ0).set]{fullShare} Z')
            ∗ ⌜Done v3 w0 w1 vg vs ((AX0).read (Elt F) X) ((AY0).read (Elt F) Y) 32 ((AZ0).read (Elt F) Z')⌝) : sProp 𝕄) := by
  iintro ⟨HX, HY, HZ⟩
  iapply (Scf.wp_for frame (wpE (defs₀ (F := F)) 𝒱₀ (V d (cV L) (jV L)) none) Set.univ k0_t2_loop.lb k0_t2_loop.ub k0_t2_loop.st k0_t2_ok ⟨⟩
    (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs)
    (inv0 (F := F) d L v3 w0 w1 vg vs X Y) (region0 d L v2 v3 k0_t1 v348 w0 w1 vg vs X Y hchk hinj))
  isplitl [HX HY HZ]
  · unfold inv0
    iexists Z
    isplitl [HX]; · iexact HX
    isplitl [HY]; · iexact HY
    isplitl [HZ]; · iexact HZ
    ipureintro; exact Done_zero _ _ _ _ _ _ _ _
  · iintro %_ HI
    unfold inv0
    rw [show Scf.trips k0_t2_loop.lb k0_t2_loop.ub k0_t2_loop.st = 32 from trips0]
    iexact HI

end Loop0

/-! ## Buffer 1 -/

/-- Buffer 1 of each table's block scratch as a [16, 8, 32] memref, and of the product scratch as [2, 8, 32]. -/
abbrev bX1 : Memref sig .scVector .vmem S16x8x32 .f32 :=
  ((Memref.whole cc0_scratch2 : Memref sig .scVector .vmem S2x16x8x32 .f32).slice (Rect.unit (s := S2x16x8x32) ![1, 0, 0, 0] S1x16x8x32.size inb_S2x16x8x32_S1x16x8x32_1_0_0_0) (fun _ => rfl)).squeeze S16x8x32 squeezes_S1x16x8x32_S16x8x32
abbrev bY1 : Memref sig .scVector .vmem S16x8x32 .f32 :=
  ((Memref.whole cc0_scratch3 : Memref sig .scVector .vmem S2x16x8x32 .f32).slice (Rect.unit (s := S2x16x8x32) ![1, 0, 0, 0] S1x16x8x32.size inb_S2x16x8x32_S1x16x8x32_1_0_0_0) (fun _ => rfl)).squeeze S16x8x32 squeezes_S1x16x8x32_S16x8x32
abbrev bZ1 : Memref sig .scVector .vmem S2x8x32 .f32 :=
  ((Memref.whole cc0_scratch4 : Memref sig .scVector .vmem S2x2x8x32 .f32).slice (Rect.unit (s := S2x2x8x32) ![1, 0, 0, 0] S1x2x8x32.size inb_S2x2x8x32_S1x2x8x32_1_0_0_0) (fun _ => rfl)).squeeze S2x8x32 squeezes_S1x2x8x32_S2x8x32
/-- The same through their whole rectangles: what the indexed loads and the indexed store go through. -/
abbrev AX1 := (bX1).access (Rect.whole S16x8x32)
abbrev AY1 := (bY1).access (Rect.whole S16x8x32)
abbrev AZ1 := (bZ1).access (Rect.whole S2x8x32)

theorem trips1 : k0_t3_loop.trips = 32 := by decide

section Loop1

variable (d : Dev nD) (L : grid0.Coords) (v2 : BitVec 32) (v3 : IVec S16 32) (c0 c1 : BitVec 32) (k0_t1 : Fin k0_t1_loop.trips)
  (w0 w1 vg vs : IVec S16 32)
  (X : Buf (Elt F) ((AX1).loc (V d (cV L) (jV L)))) (Y : Buf (Elt F) ((AY1).loc (V d (cV L) (jV L))))

/-- Before trip `k`: the two block buffers as they were, the product buffer with the columns below `k` done. -/
def inv1 (k : Nat) (_ : Unit) : sProp 𝕄 :=
  iprop(∃ Zc : Buf (Elt F) ((AZ1).loc (V d (cV L) (jV L))),
    ((AX1).loc (V d (cV L) (jV L)) ↦[(AX1).set]{fullShare} X) ∗ ((AY1).loc (V d (cV L) (jV L)) ↦[(AY1).set]{fullShare} Y)
    ∗ ((AZ1).loc (V d (cV L) (jV L)) ↦[(AZ1).set]{fullShare} Zc)
    ∗ ⌜Done v3 w0 w1 vg vs ((AX1).read (Elt F) X) ((AY1).read (Elt F) Y) k ((AZ1).read (Elt F) Zc)⌝)

/-- One trip: two gathers, the lanes' products, one scatter into column `t`. -/
theorem region1
    (hchk : ∀ t : Fin k0_t3_loop.trips, k0_chk98 v3 w0 w1 vg vs (broadcast S16 (Scf.iv 0#32 1#32 t)))
    (hinj : ∀ x x' : S16.Idx, (vg x).toNat = (vg x').toNat → (vs x).toNat = (vs x').toNat → x = x')
    (t : Fin k0_t3_loop.trips) (u : Unit) :
    inv1 (F := F) d L v3 w0 w1 vg vs X Y t.val u
      ⊢ wp frame (wpE (defs₀ (F := F)) 𝒱₀ (V d (cV L) (jV L)) none) Set.univ
          (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs t u)
          (inv1 (F := F) d L v3 w0 w1 vg vs X Y (t.val + 1)) := by
  unfold inv1 k0_t3_body
  simp only [Prog.lift, Prog.bind_op, Prog.bind_ret, Prog.pure_eq_ret]
  iintro ⟨%Zc, HX, HY, HZ, %hD⟩
  rw [wp_assume_of _ _ _ _ (hchk t)]
  iapply (SparseCore.wp_vectorLoadIdx 𝒱₀ (V d (cV L) (jV L)) none Set.univ (base := bX1) (S := (AX1).set) (q := fullShare) subset_rfl) $$ HX; iintro HX
  iapply (SparseCore.wp_vectorLoadIdx 𝒱₀ (V d (cV L) (jV L)) none Set.univ (base := bY1) (S := (AY1).set) (q := fullShare) subset_rfl) $$ HY; iintro HY
  iapply (SparseCore.wp_vectorStoreIdx 𝒱₀ (V d (cV L) (jV L)) none Set.univ (base := bZ1)) $$ HZ; iintro HZ
  rw [wp_ret]; imodintro
  iexists _
  isplitl [HX]; · iexact HX
  isplitl [HY]; · iexact HY
  isplitl [HZ]; · iexact HZ
  ipureintro
  rw [View.read_write_univ]
  have ht : (Scf.iv 0#32 1#32 t.val).toNat = t.val := iv_toNat t.val (by have h1 := t.isLt; have h2 := trips1; omega)
  exact Done_step v3 w0 w1 vg vs _ _ t.val _ ht _ _ _ _ hinj hD

/-- The loop: from the three buffers, the product buffer ends with every column done. -/
theorem extract1
    (hchk : ∀ t : Fin k0_t3_loop.trips, k0_chk98 v3 w0 w1 vg vs (broadcast S16 (Scf.iv 0#32 1#32 t)))
    (hinj : ∀ x x' : S16.Idx, (vg x).toNat = (vg x').toNat → (vs x).toNat = (vs x').toNat → x = x')
    (Z : Buf (Elt F) ((AZ1).loc (V d (cV L) (jV L)))) :
    iprop(((AX1).loc (V d (cV L) (jV L)) ↦[(AX1).set]{fullShare} X) ∗ ((AY1).loc (V d (cV L) (jV L)) ↦[(AY1).set]{fullShare} Y)
        ∗ ((AZ1).loc (V d (cV L) (jV L)) ↦[(AZ1).set]{fullShare} Z))
      ⊢ wp frame (wpE (defs₀ (F := F)) 𝒱₀ (V d (cV L) (jV L)) none) Set.univ
          (Scf.Loop.for k0_t3_loop k0_t3_ok ⟨⟩ (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs))
          fun _ => (iprop(∃ Z' : Buf (Elt F) ((AZ1).loc (V d (cV L) (jV L))),
            ((AX1).loc (V d (cV L) (jV L)) ↦[(AX1).set]{fullShare} X) ∗ ((AY1).loc (V d (cV L) (jV L)) ↦[(AY1).set]{fullShare} Y)
            ∗ ((AZ1).loc (V d (cV L) (jV L)) ↦[(AZ1).set]{fullShare} Z')
            ∗ ⌜Done v3 w0 w1 vg vs ((AX1).read (Elt F) X) ((AY1).read (Elt F) Y) 32 ((AZ1).read (Elt F) Z')⌝) : sProp 𝕄) := by
  iintro ⟨HX, HY, HZ⟩
  iapply (Scf.wp_for frame (wpE (defs₀ (F := F)) 𝒱₀ (V d (cV L) (jV L)) none) Set.univ k0_t3_loop.lb k0_t3_loop.ub k0_t3_loop.st k0_t3_ok ⟨⟩
    (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs)
    (inv1 (F := F) d L v3 w0 w1 vg vs X Y) (region1 d L v2 v3 c0 c1 k0_t1 w0 w1 vg vs X Y hchk hinj))
  isplitl [HX HY HZ]
  · unfold inv1
    iexists Z
    isplitl [HX]; · iexact HX
    isplitl [HY]; · iexact HY
    isplitl [HZ]; · iexact HZ
    ipureintro; exact Done_zero _ _ _ _ _ _ _ _
  · iintro %_ HI
    unfold inv1
    rw [show Scf.trips k0_t3_loop.lb k0_t3_loop.ub k0_t3_loop.st = 32 from trips1]
    iexact HI

end Loop1

/-! ## The lanes' own vectors -/

/-- The lane numbers 0 … 15, and from them each lane's pair (x / 8, x % 8): the product buffer's row of lane x. -/
abbrev lanes : IVec S16 32 := iota .scVector S16 32 [0] iota_S16_d0_w32_scVector

omit [FloatOps F] in
theorem lanes_toNat (x : S16.Idx) : (lanes x).toNat = (x 0).val := by
  have h : ∀ l : Fin 16, (lanes (ValueIdx.ix1 l)).toNat = l.val := by decide
  exact (congrArg (fun y => (lanes y).toNat) (ValueIdx.eq_ix1 x)).trans (h (x 0))
theorem pay70_toNat (x : S16.Idx) : (k0_pay70 lanes x).toNat = (x 0).val / 8 := by
  have h : ∀ l : Fin 16, (k0_pay70 lanes (ValueIdx.ix1 l)).toNat = l.val / 8 := by unfold k0_pay70; decide
  exact (congrArg (fun y => (k0_pay70 lanes y).toNat) (ValueIdx.eq_ix1 x)).trans (h (x 0))
theorem pay71_toNat (x : S16.Idx) : (k0_pay71 lanes x).toNat = (x 0).val % 8 := by
  have h : ∀ l : Fin 16, (k0_pay71 lanes (ValueIdx.ix1 l)).toNat = l.val % 8 := by unfold k0_pay71; decide
  exact (congrArg (fun y => (k0_pay71 lanes y).toNat) (ValueIdx.eq_ix1 x)).trans (h (x 0))
theorem pay76_toNat (x : S16.Idx) : (k0_pay76 lanes x).toNat = (x 0).val / 8 := by
  have h : ∀ l : Fin 16, (k0_pay76 lanes (ValueIdx.ix1 l)).toNat = l.val / 8 := by unfold k0_pay76; decide
  exact (congrArg (fun y => (k0_pay76 lanes y).toNat) (ValueIdx.eq_ix1 x)).trans (h (x 0))
theorem pay77_toNat (x : S16.Idx) : (k0_pay77 lanes 7#32 x).toNat = (x 0).val % 8 := by
  have h : ∀ l : Fin 16, (k0_pay77 lanes 7#32 (ValueIdx.ix1 l)).toNat = l.val % 8 := by unfold k0_pay77; decide
  exact (congrArg (fun y => (k0_pay77 lanes 7#32 y).toNat) (ValueIdx.eq_ix1 x)).trans (h (x 0))

omit [FloatOps F] in
/-- Distinct lanes have distinct pairs. -/
theorem pair_inj {vg vs : IVec S16 32} (hg : ∀ x, (vg x).toNat = (x 0).val / 8) (hs : ∀ x, (vs x).toNat = (x 0).val % 8)
    (x x' : S16.Idx) (eg : (vg x).toNat = (vg x').toNat) (es : (vs x).toNat = (vs x').toNat) : x = x' := by
  rw [hg, hg] at eg; rw [hs, hs] at es
  funext a
  obtain rfl : a = 0 := Subsingleton.elim _ _
  exact Fin.ext (by omega)

omit [FloatOps F] in
/-- The three index triples of a trip are in range when the lane vectors are. -/
theorem ranges_trip {v3 w0 w1 vg vs : IVec S16 32} (h3 : ∀ x, (v3 x).toNat < 16) (h0 : ∀ x, (w0 x).toNat < 8) (h1 : ∀ x, (w1 x).toNat < 8)
    (hg : ∀ x, (vg x).toNat < 2) (hs : ∀ x, (vs x).toNat < 8) (k : Nat) (hk : k < 32) :
    (∀ a x, ((![v3, w0, broadcast S16 (Scf.iv 0#32 1#32 k)] : Fin 3 → IVec S16 32) a x).toNat < S16x8x32.size a) ∧
    (∀ a x, ((![v3, w1, broadcast S16 (Scf.iv 0#32 1#32 k)] : Fin 3 → IVec S16 32) a x).toNat < S16x8x32.size a) ∧
    (∀ a x, ((![vg, vs, broadcast S16 (Scf.iv 0#32 1#32 k)] : Fin 3 → IVec S16 32) a x).toNat < S2x8x32.size a) := by
  have ht : ∀ x : S16.Idx, ((broadcast S16 (Scf.iv 0#32 1#32 k) : IVec S16 32) x).toNat < 32 := fun _ => by
    show (Scf.iv 0#32 1#32 k).toNat < 32
    rw [iv_toNat k (by omega)]; exact hk
  refine ⟨fun a x => ?_, fun a x => ?_, fun a x => ?_⟩
  · match a with
    | ⟨0, _⟩ => exact h3 x
    | ⟨1, _⟩ => exact h0 x
    | ⟨2, _⟩ => exact ht x
  · match a with
    | ⟨0, _⟩ => exact h3 x
    | ⟨1, _⟩ => exact h1 x
    | ⟨2, _⟩ => exact ht x
  · match a with
    | ⟨0, _⟩ => exact hg x
    | ⟨1, _⟩ => exact hs x
    | ⟨2, _⟩ => exact ht x

omit [FloatOps F] in
theorem chk0_of_ranges {v3 w0 w1 vg vs : IVec S16 32} (h3 : ∀ x, (v3 x).toNat < 16) (h0 : ∀ x, (w0 x).toNat < 8) (h1 : ∀ x, (w1 x).toNat < 8)
    (hg : ∀ x, (vg x).toNat < 2) (hs : ∀ x, (vs x).toNat < 8) (t : Fin k0_t2_loop.trips) :
    k0_chk65 v3 w0 w1 vg vs (broadcast S16 (Scf.iv 0#32 1#32 t)) :=
  ranges_trip h3 h0 h1 hg hs t.val (by have h1 := t.isLt; have h2 := trips0; omega)
omit [FloatOps F] in
theorem chk1_of_ranges {v3 w0 w1 vg vs : IVec S16 32} (h3 : ∀ x, (v3 x).toNat < 16) (h0 : ∀ x, (w0 x).toNat < 8) (h1 : ∀ x, (w1 x).toNat < 8)
    (hg : ∀ x, (vg x).toNat < 2) (hs : ∀ x, (vs x).toNat < 8) (t : Fin k0_t3_loop.trips) :
    k0_chk98 v3 w0 w1 vg vs (broadcast S16 (Scf.iv 0#32 1#32 t)) :=
  ranges_trip h3 h0 h1 hg hs t.val (by have h1 := t.isLt; have h2 := trips1; omega)

/-- The product buffer read at lane `l`'s entry of column `f`, when the lane vectors are the lanes' own: the product
    of the two block buffers' entries at (l, the lane's row word, f). -/
theorem Done_at {v3 w0 w1 vg vs : IVec S16 32} {X3 Y3 : Vec F S16x8x32 .f32} {Z3 : Vec F S2x8x32 .f32}
    (h3 : ∀ x, (v3 x).toNat = (x 0).val) (hg : ∀ x, (vg x).toNat = (x 0).val / 8) (hs : ∀ x, (vs x).toNat = (x 0).val % 8)
    (hD : Done v3 w0 w1 vg vs X3 Y3 32 Z3) (l : Fin 16) (f : Fin 32) (r0 r1 : Fin 8)
    (h0 : (w0 (ValueIdx.ix1 l)).toNat = r0.val) (h1 : (w1 (ValueIdx.ix1 l)).toNat = r1.val) :
    Z3 (ValueIdx.ix3 (⟨l.val / 8, by omega⟩ : Fin 2) (⟨l.val % 8, by omega⟩ : Fin 8) f)
      = FloatOps.mulf (X3 (ValueIdx.ix3 l r0 f)) (Y3 (ValueIdx.ix3 l r1 f)) :=
  hD (ValueIdx.ix1 l) _ _ _ f.isLt (hg (ValueIdx.ix1 l)).symm (hs (ValueIdx.ix1 l)).symm (h3 (ValueIdx.ix1 l)).symm h0.symm rfl
    (h3 (ValueIdx.ix1 l)).symm h1.symm rfl

end Cert.Proof.KI

end
-- ==== Proof.ValueKI.lean ====
/-
  What one subcore writes, as values.

  Subcore L copies its 512 words of each index array into scratch: scratch word q is the word of batch position
  `base L + q`. From a word w below 1000000 the body takes the block number `w >> 3` (arithmetic; w is not
  negative, so it is w / 8) and the row inside the block `w & 7 = w % 8`. The block of the reshaped table at
  block number w / 8, read at row w % 8, is row w of the table: exactly how the result function `G` reads the
  tables. So the product of the two tables' entries at (w_user / 8, w_user % 8, f) and (w_item / 8, w_item % 8, f)
  is `G` at (base L + q, f).

  In trip t, half p, lane l the scratch word is q = 32·t + 16·p + l. The inner loop leaves lane l's product at
  (l / 8, l % 8, f) of the staging half, and the copy out puts staging entry (y₀, y₁, f) at row
  base L + 32·t + 16·p + 8·y₀ + y₁ of the result: lane l = 8·y₀ + y₁ lands at row base L + q. So what a piece
  receives agrees with `G` on the piece's rows.
-/
import proofs.«219339_g11596411699725_week1_w4_1023_23_alg».proof.Proof.IfaceKI
import proofs.«219339_g11596411699725_week1_w4_1023_23_alg».proof.Proof.SlotsKI
import proofs.«219339_g11596411699725_week1_w4_1023_23_alg».proof.Proof.ExtractPureKI
import proofs.«219339_g11596411699725_week1_w4_1023_23_alg».proof.Proof.Gen.KernelIdeal

noncomputable section

namespace Cert.Proof.KI

open Cert.KernelIdeal Cert.KernelIdeal.Gen

open Idealize.ShloMosaic Idealize.ShloMosaic.ValueIdx

variable {F : FTy → Type}

/-! ## The two words the body takes from an index word -/

/-- An index word below a million is not negative, so its arithmetic shift right by three is its quotient by eight. -/
theorem shr3_toNat (w : BitVec 32) (hw : w.toNat < 1000000) : (IntOp.shrsi .vector w 3#32).toNat = w.toNat / 8 := by
  have hm : w.msb = false := by
    rw [BitVec.msb_eq_false_iff_two_mul_lt]; omega
  unfold IntOp.shrsi
  rw [if_pos (by decide)]
  show (w.sshiftRight (3#32).toNat).toNat = w.toNat / 8
  rw [BitVec.toNat_sshiftRight_of_msb_false hm]
  show w.toNat >>> 3 = w.toNat / 8
  rw [Nat.shiftRight_eq_div_pow]

/-- The low three bits of a word are its remainder by eight. -/
theorem and7_toNat (w : BitVec 32) : (IntOp.andi w 7#32).toNat = w.toNat % 8 := by
  show (w &&& 7#32).toNat = w.toNat % 8
  rw [BitVec.toNat_and]
  exact Nat.and_two_pow_sub_one_eq_mod w.toNat 3

/-- The block number and the row inside the block, as the result function names them. -/
theorem blkOf_val (w : BitVec 32) (hw : w.toNat < 1000000) : (blkOf w).val = w.toNat / 8 := by
  show w.toNat / 8 % 125000 = w.toNat / 8
  omega
theorem subOf_val (w : BitVec 32) : (subOf w).val = w.toNat % 8 := rfl
theorem blkOf_mk (w : BitVec 32) (hw : w.toNat < 1000000) (h : w.toNat / 8 < 125000) : (⟨w.toNat / 8, h⟩ : Fin 125000) = blkOf w :=
  Fin.ext (blkOf_val w hw).symm
theorem subOf_mk (w : BitVec 32) (h : w.toNat % 8 < 8) : (⟨w.toNat % 8, h⟩ : Fin 8) = subOf w := Fin.ext rfl

/-! ## The subcore's words of an index array -/

theorem base_add_lt (L : grid0.Coords) (q : Fin 512) : base L + q.val < 16384 := by
  have h0 : (L 0).val < 2 := (L 0).isLt
  have h1 : (L 1).val < 16 := (L 1).isLt
  have hq := q.isLt
  unfold base; omega

/-- The batch position of scratch word q of subcore L. -/
def rowOf (L : grid0.Coords) (q : Fin 512) : Fin 16384 := ⟨base L + q.val, base_add_lt L q⟩

/-- Word q of the subcore's slice of an index array is the array's word at batch position base L + q. -/
theorem uRow_emb (L : grid0.Coords) (q : Fin 512) : (uRow L).view.emb (ix1 q : S512.Idx) = (ix1 (rowOf L q) : S16384.Idx) := by
  refine (eq_ix1 ((uRow L).view.emb (ix1 q : S512.Idx) : S16384.Idx)).trans (congrArg ix1 (Fin.ext ?_))
  show (k0_off1 L) 0 + 1 * q.val = base L + q.val
  rw [k0_off1_eq]
  unfold base
  show 1024 * (L 1).val + 512 * (L 0).val + 1 * q.val = _
  omega
theorem iRow_emb (L : grid0.Coords) (q : Fin 512) : (iRow L).view.emb (ix1 q : S512.Idx) = (ix1 (rowOf L q) : S16384.Idx) := by
  refine (eq_ix1 ((iRow L).view.emb (ix1 q : S512.Idx) : S16384.Idx)).trans (congrArg ix1 (Fin.ext ?_))
  show (k0_off1 L) 0 + 1 * q.val = base L + q.val
  rw [k0_off1_eq]
  unfold base
  show 1024 * (L 1).val + 512 * (L 0).val + 1 * q.val = _
  omega

/-! ## One lane's product is the result function at the lane's batch position -/

section Value

variable [FloatOps F] (m : (ℓ : Loc nD τ sig) → Buf (Elt F) ℓ) (d : Dev nD) (L : grid0.Coords)
variable (su si : S512.Idx → BitVec 32)
variable (hpre : PreOK m)
variable (hsu : ∀ j, su j = m (uLoc d) ((uRow L).view.emb j)) (hsi : ∀ j, si j = m (iLoc d) ((iRow L).view.emb j))

include hpre hsu in
theorem su_lt (j : S512.Idx) : (su j).toNat < 1000000 := by rw [hsu]; exact (hpre d _).1
include hpre hsi in
theorem si_lt (j : S512.Idx) : (si j).toNat < 1000000 := by rw [hsi]; exact (hpre d _).2

include hsu hsi in
/-- The product of the two tables' entries the words of scratch position q name is the result function at batch
    position base L + q. -/
theorem tile_value (q : Fin 512) (f : Fin 32) :
    FloatOps.mulf (tab0 m d (ix3 (blkOf (su (ix1 q))) (subOf (su (ix1 q))) f))
        (tab1 m d (ix3 (blkOf (si (ix1 q))) (subOf (si (ix1 q))) f))
      = G m d (ix2 (rowOf L q) f) := by
  show _ = FloatOps.mulf (rowsOf (tab0 m d) (m (uLoc d)) (ix2 (rowOf L q) f)) (rowsOf (tab1 m d) (m (iLoc d)) (ix2 (rowOf L q) f))
  unfold rowsOf
  have eu : m (uLoc d) (ix1 ((ix2 (rowOf L q) f : S16384x32.Idx) 0)) = su (ix1 q) := by
    rw [hsu, uRow_emb]
  have ei : m (iLoc d) (ix1 ((ix2 (rowOf L q) f : S16384x32.Idx) 0)) = si (ix1 q) := by
    rw [hsi, iRow_emb]
  rw [eu, ei]

/-! ## What a piece receives agrees with the result function on the piece's rows -/

/-- The scratch position of trip t, half p, lane l. -/
def qpos (t : Fin k0_t1_loop.trips) (p : Fin 2) (l : Fin 16) : Fin 512 :=
  ⟨32 * t.val + 16 * p.val + l.val, by have ht : t.val < 16 := t.isLt; have := p.isLt; have := l.isLt; omega⟩

omit [FloatOps F] in
/-- Where two blocks of the result from block offset o put their index (y₀, y₁, f): at row 8·o + 8·y₀ + y₁, column f. -/
theorem blocks_emb (o : Nat) (inb : ∀ a, (![o, 0, 0] : Fin 3 → Nat) a + S2x8x32.size a ≤ S2048x8x32.size a) (y : S2x8x32.Idx) :
    (((oBlocks).slice (Rect.unit (s := S2048x8x32) ![o, 0, 0] S2x8x32.size inb) (fun _ => rfl)).view.emb y : S16384x32.Idx)
      = ix2 (⟨8 * o + 8 * (y 0).val + (y 1).val, by
          have h0 := inb 0
          change o + 2 ≤ 2048 at h0
          have hy0 : (y 0).val < 2 := (y 0).isLt
          have hy1 : (y 1).val < 8 := (y 1).isLt
          omega⟩ : Fin 16384) (y 2) := by
  show (oBlocks).view.emb ((Rect.unit (s := S2048x8x32) ![o, 0, 0] S2x8x32.size inb).emb y) = _
  rw [oBlocks_emb]
  funext a
  refine Fin.ext ?_
  match a with
  | ⟨0, _⟩ =>
    show ((Rect.unit (s := S2048x8x32) ![o, 0, 0] S2x8x32.size inb).emb y 0).val * 8
        + ((Rect.unit (s := S2048x8x32) ![o, 0, 0] S2x8x32.size inb).emb y 1).val = 8 * o + 8 * (y 0).val + (y 1).val
    rw [Rect.emb_apply, Rect.emb_apply]
    show (o + 1 * (y 0).val) * 8 + (0 + 1 * (y 1).val) = _
    omega
  | ⟨1, _⟩ =>
    show ((Rect.unit (s := S2048x8x32) ![o, 0, 0] S2x8x32.size inb).emb y 2).val = (y 2).val
    rw [Rect.emb_apply]
    show 0 + 1 * (y 2).val = _
    omega

variable (X Y : Vec F S16x8x32 .f32) (Zp : Vec F S2x8x32 .f32)

include hsu hsi in
/-- Two blocks of the result from block offset o, with 8·o the first row of trip t's half p: a function that is the
    staging half through those blocks' view agrees with the result function on their rows, when the staging half
    holds each lane's product of the two landed blocks' entries at the lane's row words. -/
theorem blocks_value (t : Fin k0_t1_loop.trips) (p : Fin 2) (o : Nat) (ho : 8 * o = base L + 32 * t.val + 16 * p.val)
    (inb : ∀ a, (![o, 0, 0] : Fin 3 → Nat) a + S2x8x32.size a ≤ S2048x8x32.size a)
    (hX : ∀ (l : Fin 16) (r : Fin 8) (f : Fin 32), X (ix3 l r f) = tab0 m d (ix3 (blkOf (su (ix1 (qpos t p l)))) r f))
    (hY : ∀ (l : Fin 16) (r : Fin 8) (f : Fin 32), Y (ix3 l r f) = tab1 m d (ix3 (blkOf (si (ix1 (qpos t p l)))) r f))
    (hZ : ∀ (l : Fin 16) (f : Fin 32), Zp (ix3 (⟨l.val / 8, by have := l.isLt; omega⟩ : Fin 2) (⟨l.val % 8, Nat.mod_lt _ (by decide)⟩ : Fin 8) f)
      = FloatOps.mulf (X (ix3 l (subOf (su (ix1 (qpos t p l)))) f)) (Y (ix3 l (subOf (si (ix1 (qpos t p l)))) f)))
    (g : S16384x32.Idx → F .f32)
    (hg : ∀ y : S2x8x32.Idx, g (((oBlocks).slice (Rect.unit (s := S2048x8x32) ![o, 0, 0] S2x8x32.size inb) (fun _ => rfl)).view.emb y) = Zp y) :
    ∀ j ∈ (((oBlocks).slice (Rect.unit (s := S2048x8x32) ![o, 0, 0] S2x8x32.size inb) (fun _ => rfl)).view.set : Finset S16384x32.Idx),
      g j = G m d j := by
  intro j hj
  obtain ⟨(y : S2x8x32.Idx), -, rfl⟩ := Finset.mem_map.1 hj
  have hy0 : (y 0).val < 2 := (y 0).isLt
  have hy1 : (y 1).val < 8 := (y 1).isLt
  let l : Fin 16 := ⟨8 * (y 0).val + (y 1).val, by omega⟩
  have ey : y = ix3 (⟨l.val / 8, by have := l.isLt; omega⟩ : Fin 2) (⟨l.val % 8, Nat.mod_lt _ (by decide)⟩ : Fin 8) (y 2) := by
    refine (eq_ix3 y).trans ?_
    have e0 : y 0 = (⟨l.val / 8, by have := l.isLt; omega⟩ : Fin 2) := Fin.ext (by show (y 0).val = (8 * (y 0).val + (y 1).val) / 8; omega)
    have e1 : y 1 = (⟨l.val % 8, Nat.mod_lt _ (by decide)⟩ : Fin 8) := Fin.ext (by show (y 1).val = (8 * (y 0).val + (y 1).val) % 8; omega)
    exact congrArg₂ (fun (a : Fin 2) (b : Fin 8) => (ix3 a b (y 2) : S2x8x32.Idx)) e0 e1
  have erow : (((oBlocks).slice (Rect.unit (s := S2048x8x32) ![o, 0, 0] S2x8x32.size inb) (fun _ => rfl)).view.emb y : S16384x32.Idx)
      = ix2 (rowOf L (qpos t p l)) (y 2) := by
    rw [blocks_emb]
    refine congrArg (fun r : Fin 16384 => ix2 r (y 2)) (Fin.ext ?_)
    show 8 * o + 8 * (y 0).val + (y 1).val = base L + (32 * t.val + 16 * p.val + (8 * (y 0).val + (y 1).val))
    omega
  have hval : Zp y = G m d (ix2 (rowOf L (qpos t p l)) (y 2) : S16384x32.Idx) :=
    (congrArg Zp ey).trans ((hZ l (y 2)).trans
      ((congrArg₂ (fun a b : F .f32 => FloatOps.mulf a b) (hX l (subOf (su (ix1 (qpos t p l)))) (y 2)) (hY l (subOf (si (ix1 (qpos t p l)))) (y 2))).trans
        (tile_value m d L su si hsu hsi (qpos t p l) (y 2))))
  exact (hg y).trans (hval.trans (congrArg (G m d : S16384x32.Idx → F .f32) erow.symm))

include hsu hsi in
/-- The first piece of trip t (half 0). -/
theorem piece0_value (t : Fin k0_t1_loop.trips)
    (hX : ∀ (l : Fin 16) (r : Fin 8) (f : Fin 32), X (ix3 l r f) = tab0 m d (ix3 (blkOf (su (ix1 (qpos t 0 l)))) r f))
    (hY : ∀ (l : Fin 16) (r : Fin 8) (f : Fin 32), Y (ix3 l r f) = tab1 m d (ix3 (blkOf (si (ix1 (qpos t 0 l)))) r f))
    (hZ : ∀ (l : Fin 16) (f : Fin 32), Zp (ix3 (⟨l.val / 8, by have := l.isLt; omega⟩ : Fin 2) (⟨l.val % 8, Nat.mod_lt _ (by decide)⟩ : Fin 8) f)
      = FloatOps.mulf (X (ix3 l (subOf (su (ix1 (qpos t 0 l)))) f)) (Y (ix3 l (subOf (si (ix1 (qpos t 0 l)))) f)))
    (g : S16384x32.Idx → F .f32) (hg : ∀ y : S2x8x32.Idx, g ((piece0 L t).view.emb y) = Zp y) :
    ∀ j ∈ piece0Set L t, g j = G m d j := by
  have e := k0_off68_eq L t
  have inb := k0_off68_inb L t
  have key : ∀ (off : Fin 3 → Nat) (inb' : ∀ a, off a + S2x8x32.size a ≤ S2048x8x32.size a), off = ![128 * (L 1).val + 64 * (L 0).val + 4 * t.val, 0, 0] →
      (∀ y : S2x8x32.Idx, g (((oBlocks).slice (Rect.unit (s := S2048x8x32) off S2x8x32.size inb') (fun _ => rfl)).view.emb y) = Zp y) →
      ∀ j ∈ (((oBlocks).slice (Rect.unit (s := S2048x8x32) off S2x8x32.size inb') (fun _ => rfl)).view.set : Finset S16384x32.Idx), g j = G m d j := by
    intro off inb' hoff hg'
    subst hoff
    exact blocks_value m d L su si hsu hsi X Y Zp t 0 _ (by unfold base; show 8 * (128 * (L 1).val + 64 * (L 0).val + 4 * t.val) = 512 * (2 * (L 1).val + (L 0).val) + 32 * t.val + 16 * 0; omega)
      inb' hX hY hZ g hg'
  exact key _ inb e hg

include hsu hsi in
/-- The second piece of trip t (half 1). -/
theorem piece1_value (t : Fin k0_t1_loop.trips)
    (hX : ∀ (l : Fin 16) (r : Fin 8) (f : Fin 32), X (ix3 l r f) = tab0 m d (ix3 (blkOf (su (ix1 (qpos t 1 l)))) r f))
    (hY : ∀ (l : Fin 16) (r : Fin 8) (f : Fin 32), Y (ix3 l r f) = tab1 m d (ix3 (blkOf (si (ix1 (qpos t 1 l)))) r f))
    (hZ : ∀ (l : Fin 16) (f : Fin 32), Zp (ix3 (⟨l.val / 8, by have := l.isLt; omega⟩ : Fin 2) (⟨l.val % 8, Nat.mod_lt _ (by decide)⟩ : Fin 8) f)
      = FloatOps.mulf (X (ix3 l (subOf (su (ix1 (qpos t 1 l)))) f)) (Y (ix3 l (subOf (si (ix1 (qpos t 1 l)))) f)))
    (g : S16384x32.Idx → F .f32) (hg : ∀ y : S2x8x32.Idx, g ((piece1 L t).view.emb y) = Zp y) :
    ∀ j ∈ piece1Set L t, g j = G m d j := by
  have e := k0_off103_eq L t
  have inb := k0_off103_inb L t
  have key : ∀ (off : Fin 3 → Nat) (inb' : ∀ a, off a + S2x8x32.size a ≤ S2048x8x32.size a), off = ![128 * (L 1).val + 64 * (L 0).val + 4 * t.val + 2, 0, 0] →
      (∀ y : S2x8x32.Idx, g (((oBlocks).slice (Rect.unit (s := S2048x8x32) off S2x8x32.size inb') (fun _ => rfl)).view.emb y) = Zp y) →
      ∀ j ∈ (((oBlocks).slice (Rect.unit (s := S2048x8x32) off S2x8x32.size inb') (fun _ => rfl)).view.set : Finset S16384x32.Idx), g j = G m d j := by
    intro off inb' hoff hg'
    subst hoff
    exact blocks_value m d L su si hsu hsi X Y Zp t 1 _ (by unfold base; show 8 * (128 * (L 1).val + 64 * (L 0).val + 4 * t.val + 2) = 512 * (2 * (L 1).val + (L 0).val) + 32 * t.val + 16 * 1; omega)
      inb' hX hY hZ g hg'
  exact key _ inb e hg

end Value

end Cert.Proof.KI

end
-- ==== Proof.GlueKI.lean ====
/-
  The glue around the inner loop inside one trip of the double-buffered loop.

  When the sixteen block copies of a chunk have landed, each slot of the buffer holds one 8-row block of a table:
  the sixteen slots together are the buffer, at the contents that is slot l's own on the indices (·, l, ·, ·). Read at
  (l, r, f) through the buffer that is the table's entry (block number of lane l, r, f). The staging half the inner loop
  scatters into is the staging half the copy-out reads. So the inner loop runs from the landed slots and the staging
  half, and afterwards the slots are held apart again, at the same contents.
-/
import proofs.«219339_g11596411699725_week1_w4_1023_23_alg».proof.Proof.RingKI
import proofs.«219339_g11596411699725_week1_w4_1023_23_alg».proof.Proof.SlotsKI
import proofs.«219339_g11596411699725_week1_w4_1023_23_alg».proof.Proof.ExtractKI
import proofs.«219339_g11596411699725_week1_w4_1023_23_alg».proof.Proof.ValueKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] [∀ e, Nonempty (Elt F e)]

/-! ## Reading a landed slot, and a table's block -/

section Reads

variable (d : Dev nD) (L : grid0.Coords)

omit [FloatOps F] in
/-- A slot that one whole write over anything filled reads the written value. -/
theorem slot_landed_read (sl : Memref sig .scVector .vmem S1x8x32 .f32) (w : (Rect.whole S1x8x32).shape.Idx → Elt F .f32) (y : S1x8x32.Idx) :
    sl.view.read (Elt F) (sl.view.writes (Elt F) sl.view.junk [⟨Rect.whole S1x8x32, w⟩]) y = w y := by
  have hw := View.read_writes_cons_emb sl.view sl.view.junk (Rect.whole S1x8x32) w [] y
  rwa [Rect.emb_whole_apply] at hw

omit [FloatOps F] [∀ e, Nonempty (Elt F e)] in
/-- Block number w of the reshaped user table, read at row r and column f of the block, is the table at (w, r, f). -/
theorem blk0_read (tab : Buf (Elt F) ((t0V).view.loc (thrV d L))) (w : BitVec 32) (hw : w.toNat < 125000) (r : Fin 8) (f : Fin 32) :
    (blkSrc t0V w hw).view.read (Elt F) tab (ix3 (0 : Fin 1) r f) = tab (ix3 (⟨w.toNat, hw⟩ : Fin 125000) r f) := by
  refine ((View.read_apply _ _).trans (cast_eq _ _)).trans (congrArg tab ?_)
  show (Rect.unit (s := S125000x8x32) ![w.toNat, 0, 0] S1x8x32.size (chk_of_lt hw)).emb (ix3 (0 : Fin 1) r f) = _
  funext a
  refine Fin.ext ?_
  match a with
  | ⟨0, _⟩ => show w.toNat + 1 * 0 = w.toNat; omega
  | ⟨1, _⟩ => show 0 + 1 * r.val = r.val; omega
  | ⟨2, _⟩ => show 0 + 1 * f.val = f.val; omega
omit [FloatOps F] [∀ e, Nonempty (Elt F e)] in
theorem blk1_read (tab : Buf (Elt F) ((t1V).view.loc (thrV d L))) (w : BitVec 32) (hw : w.toNat < 125000) (r : Fin 8) (f : Fin 32) :
    (blkSrc t1V w hw).view.read (Elt F) tab (ix3 (0 : Fin 1) r f) = tab (ix3 (⟨w.toNat, hw⟩ : Fin 125000) r f) := by
  refine ((View.read_apply _ _).trans (cast_eq _ _)).trans (congrArg tab ?_)
  show (Rect.unit (s := S125000x8x32) ![w.toNat, 0, 0] S1x8x32.size (chk_of_lt hw)).emb (ix3 (0 : Fin 1) r f) = _
  funext a
  refine Fin.ext ?_
  match a with
  | ⟨0, _⟩ => show w.toNat + 1 * 0 = w.toNat; omega
  | ⟨1, _⟩ => show 0 + 1 * r.val = r.val; omega
  | ⟨2, _⟩ => show 0 + 1 * f.val = f.val; omega

omit [FloatOps F] [∀ e, Nonempty (Elt F e)] in
/-- Where slot (b, l) puts its index (0, r, f): at (b, l, r, f) of the scratch. -/
theorem slotA_emb0 (b : Fin 2) (l : Fin 16) (r : Fin 8) (f : Fin 32) :
    (slotA b l).view.emb (ix3 (0 : Fin 1) r f : S1x8x32.Idx) = (ix4 b l r f : S2x16x8x32.Idx) := by
  show (bufA b).view.emb ((Rect.unit (s := S16x8x32) ![l.val, 0, 0] S1x8x32.size (inb_slot l)).emb (ix3 (0 : Fin 1) r f)) = _
  rw [bufA_emb]
  have e0 : (Rect.unit (s := S16x8x32) ![l.val, 0, 0] S1x8x32.size (inb_slot l)).emb (ix3 (0 : Fin 1) r f) 0 = l :=
    Fin.ext (by show l.val + 1 * 0 = l.val; omega)
  have e1 : (Rect.unit (s := S16x8x32) ![l.val, 0, 0] S1x8x32.size (inb_slot l)).emb (ix3 (0 : Fin 1) r f) 1 = r :=
    Fin.ext (by show 0 + 1 * r.val = r.val; omega)
  have e2 : (Rect.unit (s := S16x8x32) ![l.val, 0, 0] S1x8x32.size (inb_slot l)).emb (ix3 (0 : Fin 1) r f) 2 = f :=
    Fin.ext (by show 0 + 1 * f.val = f.val; omega)
  rw [e0, e1, e2]
omit [FloatOps F] [∀ e, Nonempty (Elt F e)] in
theorem slotB_emb0 (b : Fin 2) (l : Fin 16) (r : Fin 8) (f : Fin 32) :
    (slotB b l).view.emb (ix3 (0 : Fin 1) r f : S1x8x32.Idx) = (ix4 b l r f : S2x16x8x32.Idx) := by
  show (bufB b).view.emb ((Rect.unit (s := S16x8x32) ![l.val, 0, 0] S1x8x32.size (inb_slot l)).emb (ix3 (0 : Fin 1) r f)) = _
  rw [bufB_emb]
  have e0 : (Rect.unit (s := S16x8x32) ![l.val, 0, 0] S1x8x32.size (inb_slot l)).emb (ix3 (0 : Fin 1) r f) 0 = l :=
    Fin.ext (by show l.val + 1 * 0 = l.val; omega)
  have e1 : (Rect.unit (s := S16x8x32) ![l.val, 0, 0] S1x8x32.size (inb_slot l)).emb (ix3 (0 : Fin 1) r f) 1 = r :=
    Fin.ext (by show 0 + 1 * r.val = r.val; omega)
  have e2 : (Rect.unit (s := S16x8x32) ![l.val, 0, 0] S1x8x32.size (inb_slot l)).emb (ix3 (0 : Fin 1) r f) 2 = f :=
    Fin.ext (by show 0 + 1 * f.val = f.val; omega)
  rw [e0, e1, e2]

end Reads

/-! ## Half 0 -/

section Half0

variable (d : Dev nD) (L : grid0.Coords)

omit [FloatOps F] [∀ e, Nonempty (Elt F e)] in
/-- The staging half as the copy-out addresses it is the staging half as the indexed store addresses it. -/
theorem stagingO0 (Z : Buf (Elt F) ((bufO 0).view.loc (thrV d L))) :
    ((bufO 0).view.loc (thrV d L) ↦[(bufO 0).view.set]{fullShare} Z : sProp 𝕄)
      = ((AZ0).loc (thrV d L) ↦[(AZ0).set]{fullShare} Z) := by
  rw [access_whole_set]; rfl
omit [FloatOps F] [∀ e, Nonempty (Elt F e)] in
theorem stagingO0_read (Z : Buf (Elt F) ((bufO 0).view.loc (thrV d L))) :
    (AZ0).read (Elt F) Z = (bufO 0).view.read (Elt F) Z := by
  rw [access_whole_read]; rfl

omit [FloatOps F] [∀ e, Nonempty (Elt F e)] in
/-- The sixteen slots of buffer 0 of the user table's scratch, each at its own contents, are the buffer at their join. -/
theorem landedA0 (g : Fin 16 → Buf (Elt F) ((thrV d L).loc cc0_scratch2)) :
    (bigSep Finset.univ fun j : Fin 16 => (slotA 0 j).view.loc (thrV d L) ↦[(slotA 0 j).view.set]{fullShare} g j : sProp 𝕄)
      = ((AX0).loc (thrV d L) ↦[(AX0).set]{fullShare} (joinA g : Buf (Elt F) ((thrV d L).loc cc0_scratch2))) := by
  rw [bufA_join d L 0 g, access_whole_set]; rfl
omit [FloatOps F] [∀ e, Nonempty (Elt F e)] in
/-- and the buffer at one contents is its sixteen slots at that contents. -/
theorem splitA0 (X : Buf (Elt F) ((thrV d L).loc cc0_scratch2)) :
    ((AX0).loc (thrV d L) ↦[(AX0).set]{fullShare} X : sProp 𝕄)
      = bigSep Finset.univ fun j : Fin 16 => (slotA 0 j).view.loc (thrV d L) ↦[(slotA 0 j).view.set]{fullShare} X := by
  rw [← bufA_split d L 0 X, access_whole_set]; rfl
omit [FloatOps F] [∀ e, Nonempty (Elt F e)] in
theorem landedB0 (g : Fin 16 → Buf (Elt F) ((thrV d L).loc cc0_scratch3)) :
    (bigSep Finset.univ fun j : Fin 16 => (slotB 0 j).view.loc (thrV d L) ↦[(slotB 0 j).view.set]{fullShare} g j : sProp 𝕄)
      = ((AY0).loc (thrV d L) ↦[(AY0).set]{fullShare} (joinB g : Buf (Elt F) ((thrV d L).loc cc0_scratch3))) := by
  rw [bufB_join d L 0 g, access_whole_set]; rfl
omit [FloatOps F] [∀ e, Nonempty (Elt F e)] in
theorem splitB0 (Y : Buf (Elt F) ((thrV d L).loc cc0_scratch3)) :
    ((AY0).loc (thrV d L) ↦[(AY0).set]{fullShare} Y : sProp 𝕄)
      = bigSep Finset.univ fun j : Fin 16 => (slotB 0 j).view.loc (thrV d L) ↦[(slotB 0 j).view.set]{fullShare} Y := by
  rw [← bufB_split d L 0 Y, access_whole_set]; rfl

omit [FloatOps F] [∀ e, Nonempty (Elt F e)] in
/-- The joined buffer read at (l, r, f) is what slot l's own contents holds at (0, r, f) of the slot. -/
theorem joinA0_read (g : Fin 16 → Buf (Elt F) ((thrV d L).loc cc0_scratch2)) (l : Fin 16) (r : Fin 8) (f : Fin 32) :
    (AX0).read (Elt F) (joinA g : Buf (Elt F) ((thrV d L).loc cc0_scratch2)) (ix3 l r f)
      = (slotA 0 l).view.read (Elt F) (g l) (ix3 (0 : Fin 1) r f) := by
  rw [access_whole_read]
  refine ((View.read_apply _ _).trans (cast_eq _ _)).trans ?_
  show joinA g ((bufA 0).view.emb (ix3 l r f)) = _
  rw [bufA_emb]
  show g l (ix4 (0 : Fin 2) l r f) = _
  rw [← slotA_emb0 0 l r f]
  exact ((View.read_apply _ _).trans (cast_eq _ _)).symm
omit [FloatOps F] [∀ e, Nonempty (Elt F e)] in
theorem joinB0_read (g : Fin 16 → Buf (Elt F) ((thrV d L).loc cc0_scratch3)) (l : Fin 16) (r : Fin 8) (f : Fin 32) :
    (AY0).read (Elt F) (joinB g : Buf (Elt F) ((thrV d L).loc cc0_scratch3)) (ix3 l r f)
      = (slotB 0 l).view.read (Elt F) (g l) (ix3 (0 : Fin 1) r f) := by
  rw [access_whole_read]
  refine ((View.read_apply _ _).trans (cast_eq _ _)).trans ?_
  show joinB g ((bufB 0).view.emb (ix3 l r f)) = _
  rw [bufB_emb]
  show g l (ix4 (0 : Fin 2) l r f) = _
  rw [← slotB_emb0 0 l r f]
  exact ((View.read_apply _ _).trans (cast_eq _ _)).symm

omit [FloatOps F] in
/-- The sixteen landed slots joined, read at (l, r, f): the table's entry (block number of lane l, r, f). -/
theorem landedA0_read (tab : Buf (Elt F) ((t0V).view.loc (thrV d L))) (wu : Fin 16 → BitVec 32) (hwu : ∀ j, (wu j).toNat < 125000)
    (l : Fin 16) (r : Fin 8) (f : Fin 32) :
    (AX0).read (Elt F) (joinA fun k : Fin 16 => (slotA 0 k).view.writes (Elt F) (slotA 0 k).view.junk
        [⟨Rect.whole S1x8x32, ReadAs.same.apply ((blkSrc t0V (wu k) (hwu k)).view.read (Elt F) tab)⟩]) (ix3 l r f)
      = tab (ix3 (⟨(wu l).toNat, hwu l⟩ : Fin 125000) r f) :=
  (joinA0_read d L _ l r f).trans ((slot_landed_read (slotA 0 l) _ _).trans (blk0_read d L tab (wu l) (hwu l) r f))
omit [FloatOps F] in
theorem landedB0_read (tab : Buf (Elt F) ((t1V).view.loc (thrV d L))) (wi : Fin 16 → BitVec 32) (hwi : ∀ j, (wi j).toNat < 125000)
    (l : Fin 16) (r : Fin 8) (f : Fin 32) :
    (AY0).read (Elt F) (joinB fun k : Fin 16 => (slotB 0 k).view.writes (Elt F) (slotB 0 k).view.junk
        [⟨Rect.whole S1x8x32, ReadAs.same.apply ((blkSrc t1V (wi k) (hwi k)).view.read (Elt F) tab)⟩]) (ix3 l r f)
      = tab (ix3 (⟨(wi l).toNat, hwi l⟩ : Fin 125000) r f) :=
  (joinB0_read d L _ l r f).trans ((slot_landed_read (slotB 0 l) _ _).trans (blk1_read d L tab (wi l) (hwi l) r f))

variable (v2 : BitVec 32) (v3 : IVec S16 32) (k0_t1 : Fin k0_t1_loop.trips) (v348 : BitVec 32) (w0 w1 vg vs : IVec S16 32)
  (X : Buf (Elt F) ((AX0).loc (thrV d L))) (Y : Buf (Elt F) ((AY0).loc (thrV d L)))

omit [∀ e, Nonempty (Elt F e)] in
/-- The inner loop ahead of a continuation: the continuation runs from the three buffers, the product buffer with
    every column done. -/
theorem loop0_bind {α : Type} (k : Unit → Prog (TpuEff nD τ sig (Elt F) Λ₀ (.scVector ((L 0).castLE hcore0) ((L 1).castLE hsub0))) α) (Q : α → sProp 𝕄)
    (hchk : ∀ t : Fin k0_t2_loop.trips, k0_chk65 v3 w0 w1 vg vs (broadcast S16 (Scf.iv 0#32 1#32 t)))
    (hinj : ∀ x x' : S16.Idx, (vg x).toNat = (vg x').toNat → (vs x).toNat = (vs x').toNat → x = x')
    (Z : Buf (Elt F) ((AZ0).loc (thrV d L))) :
    iprop(((AX0).loc (thrV d L) ↦[(AX0).set]{fullShare} X) ∗ ((AY0).loc (thrV d L) ↦[(AY0).set]{fullShare} Y)
        ∗ ((AZ0).loc (thrV d L) ↦[(AZ0).set]{fullShare} Z)
        ∗ (∀ Z' : Buf (Elt F) ((AZ0).loc (thrV d L)),
            (⌜Done v3 w0 w1 vg vs ((AX0).read (Elt F) X) ((AY0).read (Elt F) Y) 32 ((AZ0).read (Elt F) Z')⌝
              ∗ ((AX0).loc (thrV d L) ↦[(AX0).set]{fullShare} X) ∗ ((AY0).loc (thrV d L) ↦[(AY0).set]{fullShare} Y)
              ∗ ((AZ0).loc (thrV d L) ↦[(AZ0).set]{fullShare} Z'))
            -∗ wp frame (wpE (defs₀ (F := F)) 𝒱₀ (thrV d L) none) Set.univ (k ⟨⟩) Q))
      ⊢ wp frame (wpE (defs₀ (F := F)) 𝒱₀ (thrV d L) none) Set.univ
          (Scf.Loop.for k0_t2_loop k0_t2_ok ⟨⟩ (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs) >>= k) Q := by
  rw [wp_bind]
  iintro ⟨HX, HY, HZ, Hk⟩
  iapply (wp_wand_r frame (wpE (defs₀ (F := F)) 𝒱₀ (thrV d L) none) Set.univ)
  isplitl [HX HY HZ]
  · iapply (extract0 d L v2 v3 k0_t1 v348 w0 w1 vg vs X Y hchk hinj Z)
    isplitl [HX]; · iexact HX
    isplitl [HY]; · iexact HY
    iexact HZ
  · iintro %u ⟨%Z', HX, HY, HZ, %hD⟩
    iapply Hk
    isplitr; · ipureintro; exact hD
    isplitl [HX]; · iexact HX
    isplitl [HY]; · iexact HY
    iexact HZ

end Half0

/-! ## Half 1 -/

section Half1

variable (d : Dev nD) (L : grid0.Coords)

omit [FloatOps F] [∀ e, Nonempty (Elt F e)] in
/-- The staging half as the copy-out addresses it is the staging half as the indexed store addresses it. -/
theorem stagingO1 (Z : Buf (Elt F) ((bufO 1).view.loc (thrV d L))) :
    ((bufO 1).view.loc (thrV d L) ↦[(bufO 1).view.set]{fullShare} Z : sProp 𝕄)
      = ((AZ1).loc (thrV d L) ↦[(AZ1).set]{fullShare} Z) := by
  rw [access_whole_set]; rfl
omit [FloatOps F] [∀ e, Nonempty (Elt F e)] in
theorem stagingO1_read (Z : Buf (Elt F) ((bufO 1).view.loc (thrV d L))) :
    (AZ1).read (Elt F) Z = (bufO 1).view.read (Elt F) Z := by
  rw [access_whole_read]; rfl

omit [FloatOps F] [∀ e, Nonempty (Elt F e)] in
/-- The sixteen slots of buffer 1 of the user table's scratch, each at its own contents, are the buffer at their join. -/
theorem landedA1 (g : Fin 16 → Buf (Elt F) ((thrV d L).loc cc0_scratch2)) :
    (bigSep Finset.univ fun j : Fin 16 => (slotA 1 j).view.loc (thrV d L) ↦[(slotA 1 j).view.set]{fullShare} g j : sProp 𝕄)
      = ((AX1).loc (thrV d L) ↦[(AX1).set]{fullShare} (joinA g : Buf (Elt F) ((thrV d L).loc cc0_scratch2))) := by
  rw [bufA_join d L 1 g, access_whole_set]; rfl
omit [FloatOps F] [∀ e, Nonempty (Elt F e)] in
/-- and the buffer at one contents is its sixteen slots at that contents. -/
theorem splitA1 (X : Buf (Elt F) ((thrV d L).loc cc0_scratch2)) :
    ((AX1).loc (thrV d L) ↦[(AX1).set]{fullShare} X : sProp 𝕄)
      = bigSep Finset.univ fun j : Fin 16 => (slotA 1 j).view.loc (thrV d L) ↦[(slotA 1 j).view.set]{fullShare} X := by
  rw [← bufA_split d L 1 X, access_whole_set]; rfl
omit [FloatOps F] [∀ e, Nonempty (Elt F e)] in
theorem landedB1 (g : Fin 16 → Buf (Elt F) ((thrV d L).loc cc0_scratch3)) :
    (bigSep Finset.univ fun j : Fin 16 => (slotB 1 j).view.loc (thrV d L) ↦[(slotB 1 j).view.set]{fullShare} g j : sProp 𝕄)
      = ((AY1).loc (thrV d L) ↦[(AY1).set]{fullShare} (joinB g : Buf (Elt F) ((thrV d L).loc cc0_scratch3))) := by
  rw [bufB_join d L 1 g, access_whole_set]; rfl
omit [FloatOps F] [∀ e, Nonempty (Elt F e)] in
theorem splitB1 (Y : Buf (Elt F) ((thrV d L).loc cc0_scratch3)) :
    ((AY1).loc (thrV d L) ↦[(AY1).set]{fullShare} Y : sProp 𝕄)
      = bigSep Finset.univ fun j : Fin 16 => (slotB 1 j).view.loc (thrV d L) ↦[(slotB 1 j).view.set]{fullShare} Y := by
  rw [← bufB_split d L 1 Y, access_whole_set]; rfl

omit [FloatOps F] [∀ e, Nonempty (Elt F e)] in
/-- The joined buffer read at (l, r, f) is what slot l's own contents holds at (0, r, f) of the slot. -/
theorem joinA1_read (g : Fin 16 → Buf (Elt F) ((thrV d L).loc cc0_scratch2)) (l : Fin 16) (r : Fin 8) (f : Fin 32) :
    (AX1).read (Elt F) (joinA g : Buf (Elt F) ((thrV d L).loc cc0_scratch2)) (ix3 l r f)
      = (slotA 1 l).view.read (Elt F) (g l) (ix3 (0 : Fin 1) r f) := by
  rw [access_whole_read]
  refine ((View.read_apply _ _).trans (cast_eq _ _)).trans ?_
  show joinA g ((bufA 1).view.emb (ix3 l r f)) = _
  rw [bufA_emb]
  show g l (ix4 (1 : Fin 2) l r f) = _
  rw [← slotA_emb0 1 l r f]
  exact ((View.read_apply _ _).trans (cast_eq _ _)).symm
omit [FloatOps F] [∀ e, Nonempty (Elt F e)] in
theorem joinB1_read (g : Fin 16 → Buf (Elt F) ((thrV d L).loc cc0_scratch3)) (l : Fin 16) (r : Fin 8) (f : Fin 32) :
    (AY1).read (Elt F) (joinB g : Buf (Elt F) ((thrV d L).loc cc0_scratch3)) (ix3 l r f)
      = (slotB 1 l).view.read (Elt F) (g l) (ix3 (0 : Fin 1) r f) := by
  rw [access_whole_read]
  refine ((View.read_apply _ _).trans (cast_eq _ _)).trans ?_
  show joinB g ((bufB 1).view.emb (ix3 l r f)) = _
  rw [bufB_emb]
  show g l (ix4 (1 : Fin 2) l r f) = _
  rw [← slotB_emb0 1 l r f]
  exact ((View.read_apply _ _).trans (cast_eq _ _)).symm

omit [FloatOps F] in
/-- The sixteen landed slots joined, read at (l, r, f): the table's entry (block number of lane l, r, f). -/
theorem landedA1_read (tab : Buf (Elt F) ((t0V).view.loc (thrV d L))) (wu : Fin 16 → BitVec 32) (hwu : ∀ j, (wu j).toNat < 125000)
    (l : Fin 16) (r : Fin 8) (f : Fin 32) :
    (AX1).read (Elt F) (joinA fun k : Fin 16 => (slotA 1 k).view.writes (Elt F) (slotA 1 k).view.junk
        [⟨Rect.whole S1x8x32, ReadAs.same.apply ((blkSrc t0V (wu k) (hwu k)).view.read (Elt F) tab)⟩]) (ix3 l r f)
      = tab (ix3 (⟨(wu l).toNat, hwu l⟩ : Fin 125000) r f) :=
  (joinA1_read d L _ l r f).trans ((slot_landed_read (slotA 1 l) _ _).trans (blk0_read d L tab (wu l) (hwu l) r f))
omit [FloatOps F] in
theorem landedB1_read (tab : Buf (Elt F) ((t1V).view.loc (thrV d L))) (wi : Fin 16 → BitVec 32) (hwi : ∀ j, (wi j).toNat < 125000)
    (l : Fin 16) (r : Fin 8) (f : Fin 32) :
    (AY1).read (Elt F) (joinB fun k : Fin 16 => (slotB 1 k).view.writes (Elt F) (slotB 1 k).view.junk
        [⟨Rect.whole S1x8x32, ReadAs.same.apply ((blkSrc t1V (wi k) (hwi k)).view.read (Elt F) tab)⟩]) (ix3 l r f)
      = tab (ix3 (⟨(wi l).toNat, hwi l⟩ : Fin 125000) r f) :=
  (joinB1_read d L _ l r f).trans ((slot_landed_read (slotB 1 l) _ _).trans (blk1_read d L tab (wi l) (hwi l) r f))

variable (v2 : BitVec 32) (v3 : IVec S16 32) (c0 c1 : BitVec 32) (k0_t1 : Fin k0_t1_loop.trips) (w0 w1 vg vs : IVec S16 32)
  (X : Buf (Elt F) ((AX1).loc (thrV d L))) (Y : Buf (Elt F) ((AY1).loc (thrV d L)))

omit [∀ e, Nonempty (Elt F e)] in
/-- The inner loop ahead of a continuation: the continuation runs from the three buffers, the product buffer with
    every column done. -/
theorem loop1_bind {α : Type} (k : Unit → Prog (TpuEff nD τ sig (Elt F) Λ₀ (.scVector ((L 0).castLE hcore0) ((L 1).castLE hsub0))) α) (Q : α → sProp 𝕄)
    (hchk : ∀ t : Fin k0_t3_loop.trips, k0_chk98 v3 w0 w1 vg vs (broadcast S16 (Scf.iv 0#32 1#32 t)))
    (hinj : ∀ x x' : S16.Idx, (vg x).toNat = (vg x').toNat → (vs x).toNat = (vs x').toNat → x = x')
    (Z : Buf (Elt F) ((AZ1).loc (thrV d L))) :
    iprop(((AX1).loc (thrV d L) ↦[(AX1).set]{fullShare} X) ∗ ((AY1).loc (thrV d L) ↦[(AY1).set]{fullShare} Y)
        ∗ ((AZ1).loc (thrV d L) ↦[(AZ1).set]{fullShare} Z)
        ∗ (∀ Z' : Buf (Elt F) ((AZ1).loc (thrV d L)),
            (⌜Done v3 w0 w1 vg vs ((AX1).read (Elt F) X) ((AY1).read (Elt F) Y) 32 ((AZ1).read (Elt F) Z')⌝
              ∗ ((AX1).loc (thrV d L) ↦[(AX1).set]{fullShare} X) ∗ ((AY1).loc (thrV d L) ↦[(AY1).set]{fullShare} Y)
              ∗ ((AZ1).loc (thrV d L) ↦[(AZ1).set]{fullShare} Z'))
            -∗ wp frame (wpE (defs₀ (F := F)) 𝒱₀ (thrV d L) none) Set.univ (k ⟨⟩) Q))
      ⊢ wp frame (wpE (defs₀ (F := F)) 𝒱₀ (thrV d L) none) Set.univ
          (Scf.Loop.for k0_t3_loop k0_t3_ok ⟨⟩ (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs) >>= k) Q := by
  rw [wp_bind]
  iintro ⟨HX, HY, HZ, Hk⟩
  iapply (wp_wand_r frame (wpE (defs₀ (F := F)) 𝒱₀ (thrV d L) none) Set.univ)
  isplitl [HX HY HZ]
  · iapply (extract1 d L v2 v3 c0 c1 k0_t1 w0 w1 vg vs X Y hchk hinj Z)
    isplitl [HX]; · iexact HX
    isplitl [HY]; · iexact HY
    iexact HZ
  · iintro %u ⟨%Z', HX, HY, HZ, %hD⟩
    iapply Hk
    isplitr; · ipureintro; exact hD
    isplitl [HX]; · iexact HX
    isplitl [HY]; · iexact HY
    iexact HZ

end Half1

/-! ## The lane vectors of a trip -/

section Lanes

variable (d : Dev nD) (L : grid0.Coords)

omit [FloatOps F] [∀ e, Nonempty (Elt F e)] in
/-- Lane l of the sixteen words loaded from offset `off` of an index scratch is the scratch's word `off + l`. -/
theorem laneU (su : Buf (Elt F) ((sU).view.loc (thrV d L))) (off : Fin 1 → ℕ) (h : ∀ a, off a + S16.size a ≤ S512.size a)
    (l : Fin 16) (q : Fin 512) (hq : off 0 + l.val = q.val) :
    vecAt (F := F) d L sU su off h (ix1 l) = su (ix1 q) := by
  show su ((Rect.unit (s := S512) off S16.size h).toLoadRect.idx (ix1 l)) = su (ix1 q)
  refine congrArg su ?_
  funext a
  obtain rfl : a = 0 := Subsingleton.elim _ _
  refine Fin.ext ?_
  show off 0 + 1 * l.val = q.val
  omega
omit [FloatOps F] [∀ e, Nonempty (Elt F e)] in
theorem laneI (si : Buf (Elt F) ((sI).view.loc (thrV d L))) (off : Fin 1 → ℕ) (h : ∀ a, off a + S16.size a ≤ S512.size a)
    (l : Fin 16) (q : Fin 512) (hq : off 0 + l.val = q.val) :
    vecAt (F := F) d L sI si off h (ix1 l) = si (ix1 q) := by
  show si ((Rect.unit (s := S512) off S16.size h).toLoadRect.idx (ix1 l)) = si (ix1 q)
  refine congrArg si ?_
  funext a
  obtain rfl : a = 0 := Subsingleton.elim _ _
  refine Fin.ext ?_
  show off 0 + 1 * l.val = q.val
  omega

omit [FloatOps F] [∀ e, Nonempty (Elt F e)] in
theorem off67_lane (t : Fin k0_t1_loop.trips) (l : Fin 16) : (k0_off67 t) 0 + l.val = (qpos t 0 l).val := by
  rw [k0_off67_eq]; show 32 * t.val + l.val = 32 * t.val + 16 * 0 + l.val; omega
omit [FloatOps F] [∀ e, Nonempty (Elt F e)] in
theorem off102_lane (t : Fin k0_t1_loop.trips) (l : Fin 16) : (k0_off102 t) 0 + l.val = (qpos t 1 l).val := by
  rw [k0_off102_eq]; show 32 * t.val + 16 + l.val = 32 * t.val + 16 * 1 + l.val; omega

omit [FloatOps F] [∀ e, Nonempty (Elt F e)] in
/-- The block number the body computes from lane j of a loaded index vector is the word's quotient by eight. -/
theorem wordOf_eq (vec : IVec S16 32) (j : Fin 16) : wordOf vec j = IntOp.shrsi .vector (vec (ix1 j)) 3#32 := by
  show IntOp.shrsi .vector (vec _) 3#32 = IntOp.shrsi .vector (vec (ix1 j)) 3#32
  refine congrArg (fun x => IntOp.shrsi .vector (vec x) 3#32) ?_
  funext a
  obtain rfl : a = 0 := Subsingleton.elim _ _
  exact Fin.ext (Nat.add_zero _)
omit [FloatOps F] [∀ e, Nonempty (Elt F e)] in
theorem blk_of_word (vec : IVec S16 32) (j : Fin 16) (hv : (vec (ix1 j)).toNat < 1000000) (h : (wordOf vec j).toNat < 125000) :
    (⟨(wordOf vec j).toNat, h⟩ : Fin 125000) = blkOf (vec (ix1 j)) :=
  Fin.ext (by show (wordOf vec j).toNat = (blkOf (vec (ix1 j))).val; rw [wordOf_eq, shr3_toNat _ hv, blkOf_val _ hv])

omit [FloatOps F] [∀ e, Nonempty (Elt F e)] in
/-- The row word: the low three bits of the lane's index word. -/
theorem and7_lane (v : IVec S16 32) (x : S16.Idx) : ((andi v (broadcast S16 7#32)) x).toNat = (v x).toNat % 8 := and7_toNat (v x)
omit [FloatOps F] [∀ e, Nonempty (Elt F e)] in
theorem and7_lt (v : IVec S16 32) (x : S16.Idx) : ((andi v (broadcast S16 7#32)) x).toNat < 8 := by
  rw [and7_lane]; exact Nat.mod_lt _ (by decide)

omit [∀ e, Nonempty (Elt F e)] in
theorem pay68_eq (v : Vec F S16 .i32) : k0_pay68 v = andi v (broadcast S16 7#32) := rfl
omit [∀ e, Nonempty (Elt F e)] in
theorem pay69_eq (v : Vec F S16 .i32) : k0_pay69 v = andi v (broadcast S16 7#32) := rfl
omit [∀ e, Nonempty (Elt F e)] in
theorem pay74_eq (v : Vec F S16 .i32) : k0_pay74 v = andi v (broadcast S16 7#32) := rfl
omit [∀ e, Nonempty (Elt F e)] in
theorem pay75_eq (v : Vec F S16 .i32) : k0_pay75 v = andi v (broadcast S16 7#32) := rfl

omit [FloatOps F] [∀ e, Nonempty (Elt F e)] in
theorem lanes_lt (x : S16.Idx) : (lanes x).toNat < 16 := by rw [lanes_toNat]; exact (x 0).isLt
omit [FloatOps F] [∀ e, Nonempty (Elt F e)] in
theorem pay70_lt (x : S16.Idx) : (k0_pay70 lanes x).toNat < 2 := by
  rw [pay70_toNat]; have h : (x 0).val < 16 := (x 0).isLt; omega
omit [FloatOps F] [∀ e, Nonempty (Elt F e)] in
theorem pay71_lt (x : S16.Idx) : (k0_pay71 lanes x).toNat < 8 := by
  rw [pay71_toNat]; exact Nat.mod_lt _ (by decide)
omit [FloatOps F] [∀ e, Nonempty (Elt F e)] in
theorem pay76_lt (x : S16.Idx) : (k0_pay76 lanes x).toNat < 2 := by
  rw [pay76_toNat]; have h : (x 0).val < 16 := (x 0).isLt; omega
omit [FloatOps F] [∀ e, Nonempty (Elt F e)] in
theorem pay77_lt (x : S16.Idx) : (k0_pay77 lanes 7#32 x).toNat < 8 := by
  rw [pay77_toNat]; exact Nat.mod_lt _ (by decide)

omit [∀ e, Nonempty (Elt F e)] in
/-- The trips' range conditions and the distinctness of the lanes' targets, for the vectors the trip computes. -/
theorem chk0_trip (vu vi : Vec F S16 .i32) (t : Fin k0_t2_loop.trips) :
    k0_chk65 lanes (k0_pay68 vu) (k0_pay69 vi) (k0_pay70 lanes) (k0_pay71 lanes) (broadcast S16 (Scf.iv 0#32 1#32 t)) :=
  chk0_of_ranges lanes_lt (fun x => by rw [pay68_eq]; exact and7_lt _ x) (fun x => by rw [pay69_eq]; exact and7_lt _ x) pay70_lt pay71_lt t
omit [∀ e, Nonempty (Elt F e)] in
theorem chk1_trip (vu vi : Vec F S16 .i32) (t : Fin k0_t3_loop.trips) :
    k0_chk98 lanes (k0_pay74 vu) (k0_pay75 vi) (k0_pay76 lanes) (k0_pay77 lanes 7#32) (broadcast S16 (Scf.iv 0#32 1#32 t)) :=
  chk1_of_ranges lanes_lt (fun x => by rw [pay74_eq]; exact and7_lt _ x) (fun x => by rw [pay75_eq]; exact and7_lt _ x) pay76_lt pay77_lt t
omit [FloatOps F] [∀ e, Nonempty (Elt F e)] in
theorem inj0_trip : ∀ x x' : S16.Idx, (k0_pay70 lanes x).toNat = (k0_pay70 lanes x').toNat → (k0_pay71 lanes x).toNat = (k0_pay71 lanes x').toNat → x = x' :=
  pair_inj pay70_toNat pay71_toNat
omit [FloatOps F] [∀ e, Nonempty (Elt F e)] in
theorem inj1_trip : ∀ x x' : S16.Idx, (k0_pay76 lanes x).toNat = (k0_pay76 lanes x').toNat → (k0_pay77 lanes 7#32 x).toNat = (k0_pay77 lanes 7#32 x').toNat → x = x' :=
  pair_inj pay76_toNat pay77_toNat

omit [∀ e, Nonempty (Elt F e)] in
/-- The row word of lane l in trip t is the row, inside its block, of the index word at the lane's scratch position. -/
theorem rowU0 (su : Buf (Elt F) ((sU).view.loc (thrV d L))) (t : Fin k0_t1_loop.trips) (l : Fin 16) :
    (k0_pay68 (F := F) (vecAt (F := F) d L sU su (k0_off67 t) (k0_off67_inb t)) (ix1 l)).toNat = (subOf (su (ix1 (qpos t 0 l)))).val := by
  rw [pay68_eq, and7_lane, laneU d L su _ _ l (qpos t 0 l) (off67_lane t l)]; rfl
omit [∀ e, Nonempty (Elt F e)] in
theorem rowI0 (si : Buf (Elt F) ((sI).view.loc (thrV d L))) (t : Fin k0_t1_loop.trips) (l : Fin 16) :
    (k0_pay69 (F := F) (vecAt (F := F) d L sI si (k0_off67 t) (k0_off67_inb t)) (ix1 l)).toNat = (subOf (si (ix1 (qpos t 0 l)))).val := by
  rw [pay69_eq, and7_lane, laneI d L si _ _ l (qpos t 0 l) (off67_lane t l)]; rfl
omit [∀ e, Nonempty (Elt F e)] in
theorem rowU1 (su : Buf (Elt F) ((sU).view.loc (thrV d L))) (t : Fin k0_t1_loop.trips) (l : Fin 16) :
    (k0_pay74 (F := F) (vecAt (F := F) d L sU su (k0_off102 t) (k0_off102_inb t)) (ix1 l)).toNat = (subOf (su (ix1 (qpos t 1 l)))).val := by
  rw [pay74_eq, and7_lane, laneU d L su _ _ l (qpos t 1 l) (off102_lane t l)]; rfl
omit [∀ e, Nonempty (Elt F e)] in
theorem rowI1 (si : Buf (Elt F) ((sI).view.loc (thrV d L))) (t : Fin k0_t1_loop.trips) (l : Fin 16) :
    (k0_pay75 (F := F) (vecAt (F := F) d L sI si (k0_off102 t) (k0_off102_inb t)) (ix1 l)).toNat = (subOf (si (ix1 (qpos t 1 l)))).val := by
  rw [pay75_eq, and7_lane, laneI d L si _ _ l (qpos t 1 l) (off102_lane t l)]; rfl

end Lanes

end Cert.Proof.KI

end
-- ==== Proof.StepKI.lean ====
/-
  Putting the loop's invariant back together at the end of a trip.

  At trip boundary t the subcore's 16 pairs of result pieces are in one of three states: trips before the previous one
  hold the result function, the previous trip's two pieces are in flight (the invariant holds nothing of them), this
  and later trips' pieces hold the launch contents. A trip takes its own two pieces out, and at its end the previous
  trip's pieces have come back holding the result function while its own have gone into flight: the rows at boundary
  t + 1. Likewise the block copies of the next chunk into buffer 0 (while a trip remains) and the two copy-outs in
  flight are the invariant's clauses at t + 1. What a copy-out writes agrees with the result function on its piece
  because the staging half holds every lane's product (`Done`) of the two landed blocks' entries.
-/
import proofs.«219339_g11596411699725_week1_w4_1023_23_alg».proof.Proof.RingKI
import proofs.«219339_g11596411699725_week1_w4_1023_23_alg».proof.Proof.SlotsKI
import proofs.«219339_g11596411699725_week1_w4_1023_23_alg».proof.Proof.GlueKI
import proofs.«219339_g11596411699725_week1_w4_1023_23_alg».proof.Proof.ValueKI
import proofs.«219339_g11596411699725_week1_w4_1023_23_alg».proof.Proof.Gen.KernelIdeal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

/-! ## The rows of the result across a trip -/

/-- What the invariant says of trip `t'`'s two pieces at boundary `t`. -/
abbrev rowsAt (t : ℕ) (t' : Fin k0_t1_loop.trips) : sProp 𝕄 :=
  if t'.val + 1 < t then
    iprop(((piece0 L t').view.loc (thrV d L) ↦[(piece0 L t').view.set]{fullShare} G m d)
      ∗ ((piece1 L t').view.loc (thrV d L) ↦[(piece1 L t').view.set]{fullShare} G m d))
  else if t ≤ t'.val then
    iprop(((piece0 L t').view.loc (thrV d L) ↦[(piece0 L t').view.set]{fullShare} m (oLoc d))
      ∗ ((piece1 L t').view.loc (thrV d L) ↦[(piece1 L t').view.set]{fullShare} m (oLoc d)))
  else iprop(emp)

omit [∀ e, Nonempty (Elt F e)] in
theorem outRows_eq (t : ℕ) : outRows m d L t = bigSep Finset.univ (rowsAt m d L t) := rfl

omit [∀ e, Nonempty (Elt F e)] in
theorem rowsAt_done (t : ℕ) (t' : Fin k0_t1_loop.trips) (h : t'.val + 1 < t) :
    rowsAt m d L t t' = iprop(((piece0 L t').view.loc (thrV d L) ↦[(piece0 L t').view.set]{fullShare} G m d) ∗ ((piece1 L t').view.loc (thrV d L) ↦[(piece1 L t').view.set]{fullShare} G m d)) := if_pos h
omit [∀ e, Nonempty (Elt F e)] in
theorem rowsAt_todo (t : ℕ) (t' : Fin k0_t1_loop.trips) (h : t ≤ t'.val) :
    rowsAt m d L t t' = iprop(((piece0 L t').view.loc (thrV d L) ↦[(piece0 L t').view.set]{fullShare} m (oLoc d)) ∗ ((piece1 L t').view.loc (thrV d L) ↦[(piece1 L t').view.set]{fullShare} m (oLoc d))) :=
  (if_neg (by omega)).trans (if_pos h)
omit [∀ e, Nonempty (Elt F e)] in
theorem rowsAt_fly (t : ℕ) (t' : Fin k0_t1_loop.trips) (h1 : ¬ t'.val + 1 < t) (h2 : ¬ t ≤ t'.val) :
    rowsAt m d L t t' = iprop(emp) := (if_neg h1).trans (if_neg h2)

omit [∀ e, Nonempty (Elt F e)] in
/-- This trip's two pieces come out of the rows at their launch contents. -/
theorem outRows_take (t : Fin k0_t1_loop.trips) :
    outRows m d L t.val = iprop((((piece0 L t).view.loc (thrV d L) ↦[(piece0 L t).view.set]{fullShare} m (oLoc d))
        ∗ ((piece1 L t).view.loc (thrV d L) ↦[(piece1 L t).view.set]{fullShare} m (oLoc d)))
      ∗ bigSep ((Finset.univ : Finset (Fin k0_t1_loop.trips)).erase t) (rowsAt m d L t.val)) := by
  rw [outRows_eq, SparseCore.bigSep_erase' (Finset.mem_univ t), rowsAt_todo m d L t.val t (le_refl _)]

theorem pred_trip_lt (t : Fin k0_t1_loop.trips) : t.val - 1 < 16 := by have h : t.val < 16 := t.isLt; omega

omit [∀ e, Nonempty (Elt F e)] in
/-- At the end of a trip after the first: the previous trip's pieces are back holding the result function, this
    trip's are in flight, every other trip's are as they were. -/
theorem outRows_put (t : Fin k0_t1_loop.trips) (ht : 0 < t.val) :
    iprop((((piece0 L (tripOf (t.val - 1) (pred_trip_lt t))).view.loc (thrV d L) ↦[(piece0 L (tripOf (t.val - 1) (pred_trip_lt t))).view.set]{fullShare} G m d)
          ∗ ((piece1 L (tripOf (t.val - 1) (pred_trip_lt t))).view.loc (thrV d L) ↦[(piece1 L (tripOf (t.val - 1) (pred_trip_lt t))).view.set]{fullShare} G m d))
        ∗ bigSep ((Finset.univ : Finset (Fin k0_t1_loop.trips)).erase t) (rowsAt m d L t.val))
      ⊢ outRows m d L (t.val + 1) := by
  have htv : t.val < 16 := t.isLt
  have hne : tripOf (t.val - 1) (pred_trip_lt t) ≠ t := fun e => by
    have := congrArg Fin.val e
    change t.val - 1 = t.val at this
    omega
  have htp : tripOf (t.val - 1) (pred_trip_lt t) ∈ (Finset.univ : Finset (Fin k0_t1_loop.trips)).erase t :=
    Finset.mem_erase.mpr ⟨hne, Finset.mem_univ _⟩
  have e1 : rowsAt m d L (t.val + 1) t = iprop(emp) := rowsAt_fly m d L _ _ (by omega) (by omega)
  have e2 := rowsAt_done m d L (t.val + 1) (tripOf (t.val - 1) (pred_trip_lt t)) (by show t.val - 1 + 1 < t.val + 1; omega)
  have e3 : rowsAt m d L t.val (tripOf (t.val - 1) (pred_trip_lt t)) = iprop(emp) :=
    rowsAt_fly m d L _ _ (by show ¬ t.val - 1 + 1 < t.val; omega) (by show ¬ t.val ≤ t.val - 1; omega)
  have e4 : bigSep (((Finset.univ : Finset (Fin k0_t1_loop.trips)).erase t).erase (tripOf (t.val - 1) (pred_trip_lt t))) (rowsAt m d L (t.val + 1))
      = bigSep (((Finset.univ : Finset (Fin k0_t1_loop.trips)).erase t).erase (tripOf (t.val - 1) (pred_trip_lt t))) (rowsAt m d L t.val) := by
    refine bigSep_congr fun t' ht' => ?_
    have h1 : t' ≠ tripOf (t.val - 1) (pred_trip_lt t) := (Finset.mem_erase.mp ht').1
    have h2 : t' ≠ t := (Finset.mem_erase.mp (Finset.mem_erase.mp ht').2).1
    have h1' : t'.val ≠ t.val - 1 := fun e => h1 (Fin.ext e)
    have h2' : t'.val ≠ t.val := fun e => h2 (Fin.ext e)
    by_cases hlt : t'.val + 1 < t.val
    · rw [rowsAt_done m d L _ _ hlt, rowsAt_done m d L (t.val + 1) t' (by omega)]
    · rw [rowsAt_todo m d L t.val t' (by omega), rowsAt_todo m d L (t.val + 1) t' (by omega)]
  rw [outRows_eq, SparseCore.bigSep_erase' (Finset.mem_univ t) (Φ := rowsAt m d L (t.val + 1)),
    SparseCore.bigSep_erase' htp (Φ := rowsAt m d L (t.val + 1)), e1, e2, e4,
    SparseCore.bigSep_erase' htp (Φ := rowsAt m d L t.val), e3]
  iintro ⟨HG, -, Hrest⟩
  isplitr; · iempintro
  isplitl [HG]; · iexact HG
  iexact Hrest

omit [∀ e, Nonempty (Elt F e)] in
/-- At the end of the first trip: its pieces are in flight, every other trip's are as they were. -/
theorem outRows_put0 (t : Fin k0_t1_loop.trips) (ht : t.val = 0) :
    bigSep ((Finset.univ : Finset (Fin k0_t1_loop.trips)).erase t) (rowsAt m d L 0) ⊢ outRows m d L 1 := by
  have e1 : rowsAt m d L 1 t = iprop(emp) := rowsAt_fly m d L _ _ (by omega) (by omega)
  have e4 : bigSep ((Finset.univ : Finset (Fin k0_t1_loop.trips)).erase t) (rowsAt m d L 1)
      = bigSep ((Finset.univ : Finset (Fin k0_t1_loop.trips)).erase t) (rowsAt m d L 0) := by
    refine bigSep_congr fun t' ht' => ?_
    have h2 : t' ≠ t := (Finset.mem_erase.mp ht').1
    have h2' : t'.val ≠ t.val := fun e => h2 (Fin.ext e)
    rw [rowsAt_todo m d L 0 t' (by omega), rowsAt_todo m d L 1 t' (by omega)]
  rw [outRows_eq, SparseCore.bigSep_erase' (Finset.mem_univ t) (Φ := rowsAt m d L 1), e1, e4]
  iintro H
  isplitr; · iempintro
  iexact H

/-! ## Whether a trip remains -/

theorem cond3_lt : ∀ t : Fin k0_t1_loop.trips, k0_cond3 t = 1#1 → t.val + 1 < 16 := by decide +kernel
theorem cond3_not : ∀ t : Fin k0_t1_loop.trips, ¬ k0_cond3 t = 1#1 → t.val + 1 = 16 := by decide +kernel

/-! ## Buffer 0's block copies at the next boundary -/

variable (su : Buf (Elt F) ((sU).view.loc (thrV d L))) (si : Buf (Elt F) ((sI).view.loc (thrV d L)))

theorem ringIn_lt (n : ℕ) (hn : n < 16) :
    ringIn m d L su si n = iprop(∃ (wu wi : Fin 16 → BitVec 32) (hwu : ∀ j, (wu j).toNat < 125000) (hwi : ∀ j, (wi j).toNat < 125000),
      ⌜∃ (off : Fin 1 → ℕ) (h : ∀ a, off a + S16.size a ≤ S512.size a), off = ![32 * n]
          ∧ wu = (fun j => wordOf (vecAt (F := F) d L sU su off h) j) ∧ wi = (fun j => wordOf (vecAt (F := F) d L sI si off h) j)⌝
      ∗ ringBatch (F := F) d L (slotA 0) t0V (tab0 m d) cc0_scratch5.sem 0 wu hwu 16 0
      ∗ ringBatch (F := F) d L (slotB 0) t1V (tab1 m d) cc0_scratch7.sem 0 wi hwi 16 0
      ∗ (bigSep Finset.univ fun j : Fin 16 => tokRest (F := F) d L t0V (tab0 m d) 0 wu hwu j)
      ∗ (bigSep Finset.univ fun j : Fin 16 => tokRest (F := F) d L t1V (tab1 m d) 0 wi hwi j)) := if_pos hn

theorem ringIn_ge (n : ℕ) (hn : ¬ n < 16) :
    ringIn m d L su si n = iprop((bigSep Finset.univ fun j : Fin 16 => iprop(∃ f, slotHeld (F := F) d L (slotA 0 j) f))
      ∗ (bigSep Finset.univ fun j : Fin 16 => iprop(∃ f, slotHeld (F := F) d L (slotB 0 j) f))
      ∗ (bigSep Finset.univ fun j : Fin 16 => tokWhole (F := F) d L t0V (tab0 m d) 0 j)
      ∗ (bigSep Finset.univ fun j : Fin 16 => tokWhole (F := F) d L t1V (tab1 m d) 0 j)
      ∗ semVal (thrV d L, SemLoc.dma cc0_scratch5.sem) 0 ∗ semVal (thrV d L, SemLoc.dma cc0_scratch7.sem) 0) := if_neg hn

/-- While a trip remains: the batches just issued for the next chunk, with their token rests, are the next boundary's. -/
theorem ringIn_next (t : Fin k0_t1_loop.trips) (h3 : k0_cond3 t = 1#1)
    (hwu' : ∀ j : Fin 16, (wordOf (vecAt (F := F) d L sU su (k0_off69 t) (k0_off69_inb t h3)) j).toNat < 125000)
    (hwi' : ∀ j : Fin 16, (wordOf (vecAt (F := F) d L sI si (k0_off69 t) (k0_off69_inb t h3)) j).toNat < 125000) :
    iprop(ringBatch (F := F) d L (slotA 0) t0V (tab0 m d) cc0_scratch5.sem 0 (fun j => wordOf (vecAt (F := F) d L sU su (k0_off69 t) (k0_off69_inb t h3)) j) hwu' 16 0
        ∗ ringBatch (F := F) d L (slotB 0) t1V (tab1 m d) cc0_scratch7.sem 0 (fun j => wordOf (vecAt (F := F) d L sI si (k0_off69 t) (k0_off69_inb t h3)) j) hwi' 16 0
        ∗ (bigSep Finset.univ fun j : Fin 16 => tokRest (F := F) d L t0V (tab0 m d) 0 (fun j => wordOf (vecAt (F := F) d L sU su (k0_off69 t) (k0_off69_inb t h3)) j) hwu' j)
        ∗ (bigSep Finset.univ fun j : Fin 16 => tokRest (F := F) d L t1V (tab1 m d) 0 (fun j => wordOf (vecAt (F := F) d L sI si (k0_off69 t) (k0_off69_inb t h3)) j) hwi' j))
      ⊢ ringIn m d L su si (t.val + 1) := by
  rw [ringIn_lt m d L su si (t.val + 1) (cond3_lt t h3)]
  iintro ⟨HA, HB, RA, RB⟩
  iexists (fun j => wordOf (vecAt (F := F) d L sU su (k0_off69 t) (k0_off69_inb t h3)) j),
    (fun j => wordOf (vecAt (F := F) d L sI si (k0_off69 t) (k0_off69_inb t h3)) j), hwu', hwi'
  isplitr
  · ipureintro
    exact ⟨k0_off69 t, k0_off69_inb t h3, (k0_off69_eq t).trans (congrArg (fun n : ℕ => (![n] : Fin 1 → ℕ)) (by omega)), rfl, rfl⟩
  isplitl [HA]; · iexact HA
  isplitl [HB]; · iexact HB
  isplitl [RA]; · iexact RA
  iexact RB

/-! ## The copy-outs in flight at the next boundary -/

/-- The two copy-outs of trip `t`, each writing what agrees with the result function on its piece, are the next
    boundary's flights. -/
theorem outFlights_next (t : Fin k0_t1_loop.trips)
    (Z0 : Buf (Elt F) ((bufO 0).view.loc (thrV d L))) (Z1 : Buf (Elt F) ((bufO 1).view.loc (thrV d L)))
    (h0 : ∀ j ∈ piece0Set L t,
        (piece0 L t).view.writes (Elt F) (m (oLoc d)) [⟨Rect.whole S2x8x32, ReadAs.same.apply ((bufO 0).view.read (Elt F) Z0)⟩] j = G m d j)
    (h1 : ∀ j ∈ piece1Set L t,
        (piece1 L t).view.writes (Elt F) (m (oLoc d)) [⟨Rect.whole S2x8x32, ReadAs.same.apply ((bufO 1).view.read (Elt F) Z1)⟩] j = G m d j) :
    iprop(Transfers.Flight (countersEmb (U := UU)) (thrV d L) (SemLoc.dma (sig := sig) cc0_scratch9.sem) (default : HIx 1) 16384
          (outDeliv (F := F) d L (piece0 L t) (m (oLoc d)) 0 Z0)
        ∗ Transfers.Flight (countersEmb (U := UU)) (thrV d L) (SemLoc.dma (sig := sig) cc0_scratch10.sem) (default : HIx 1) 16384
          (outDeliv (F := F) d L (piece1 L t) (m (oLoc d)) 1 Z1))
      ⊢ outFlights m d L (t.val + 1) := by
  have htv : t.val < 16 := t.isLt
  have ht : 0 < t.val + 1 ∧ t.val + 1 ≤ 16 := ⟨by omega, by omega⟩
  unfold outFlights
  rw [dif_pos ht]
  have e : tripOf (t.val + 1 - 1) (pred_lt ht) = t := Fin.ext (by show t.val + 1 - 1 = t.val; omega)
  rw [e]
  unfold outFlightsAt
  iintro ⟨F0, F1⟩
  iexists Z0, Z1
  isplitr; · ipureintro; exact ⟨h0, h1⟩
  isplitl [F0]; · iexact F0
  iexact F1

/-! ## What a copy-out writes agrees with the result function -/

omit [FloatOps F] [∀ e, Nonempty (Elt F e)] in
/-- One whole write through a view, read back through the view: the written value. -/
theorem writes_whole_read {κ : Kind} {sp : Space} {s : Shape} {e : EltTy} (v : View sig κ sp s e) (f : v.ty.Contents (Elt F))
    (w : (Rect.whole s).shape.Idx → Elt F e) (y : s.Idx) :
    v.read (Elt F) (v.writes (Elt F) f [⟨Rect.whole s, w⟩]) y = w y := by
  have hw := View.read_writes_cons_emb v f (Rect.whole s) w [] y
  rwa [Rect.emb_whole_apply] at hw

omit [FloatOps F] [∀ e, Nonempty (Elt F e)] in
/-- One whole write through a view leaves, on the view's own elements, the same contents whatever was there before. -/
theorem writes_whole_base {κ : Kind} {sp : Space} {s : Shape} {e : EltTy} (v : View sig κ sp s e) (f f' : v.ty.Contents (Elt F))
    (w : (Rect.whole s).shape.Idx → Elt F e) (j : v.ty.Idx) (hj : j ∈ v.set) :
    v.writes (Elt F) f [⟨Rect.whole s, w⟩] j = v.writes (Elt F) f' [⟨Rect.whole s, w⟩] j := by
  obtain ⟨y, -, rfl⟩ := Finset.mem_map.1 hj
  have e : (v.slice (Rect.whole s)).emb y = v.emb y := by
    show v.emb ((Rect.whole s).emb y) = v.emb y
    rw [Rect.emb_whole_apply]
  rw [← e]
  exact (View.write_emb_of_mem (v := v.slice (Rect.whole s)) f w (Finset.mem_univ y)).trans
    (View.write_emb_of_mem (v := v.slice (Rect.whole s)) f' w (Finset.mem_univ y)).symm

omit [FloatOps F] in
/-- A piece that came back from its copy-out, restated over anything: it holds any function the written piece agrees
    with on the piece's rows. -/
theorem piece_back (piece : Memref sig .scVector .hbm S2x8x32 .f32) (f : Buf (Elt F) (piece.view.loc (thrV d L)))
    (w : (Rect.whole S2x8x32).shape.Idx → Elt F .f32) (g : Buf (Elt F) (piece.view.loc (thrV d L)))
    (h : ∀ j ∈ piece.view.set, piece.view.writes (Elt F) f [⟨Rect.whole S2x8x32, w⟩] j = g j) :
    (piece.view.loc (thrV d L) ↦[piece.view.set]{fullShare} piece.view.writes (Elt F) piece.view.junk [⟨Rect.whole S2x8x32, w⟩] : sProp 𝕄)
      = (piece.view.loc (thrV d L) ↦[piece.view.set]{fullShare} g) :=
  pointsTo_congr fun j hj => (writes_whole_base piece.view _ f w j hj).trans (h j hj)

section Written

variable (hpre : PreOK m)
variable (hsu : ∀ j, su j = m (uLoc d) ((uRow L).view.emb j)) (hsi : ∀ j, si j = m (iLoc d) ((iRow L).view.emb j))

include hpre hsu hsi in
/-- Half 0 of trip `t`: with the staging half holding every lane's product of the landed blocks' entries, what the
    copy-out writes onto piece 0 agrees with the result function on the piece. -/
theorem written_eq_G0 (t : Fin k0_t1_loop.trips) (wu wi : Fin 16 → BitVec 32) (hwu : ∀ j, (wu j).toNat < 125000) (hwi : ∀ j, (wi j).toNat < 125000)
    (off : Fin 1 → ℕ) (h : ∀ a, off a + S16.size a ≤ S512.size a) (hoff : off = ![32 * t.val])
    (hU : wu = fun j => wordOf (vecAt (F := F) d L sU su off h) j) (hI : wi = fun j => wordOf (vecAt (F := F) d L sI si off h) j)
    (Z' : Buf (Elt F) ((bufO 0).view.loc (thrV d L)))
    (hD : Done lanes (k0_pay68 (F := F) (vecAt (F := F) d L sU su (k0_off67 t) (k0_off67_inb t))) (k0_pay69 (F := F) (vecAt (F := F) d L sI si (k0_off67 t) (k0_off67_inb t)))
      (k0_pay70 lanes) (k0_pay71 lanes)
      ((AX0).read (Elt F) (joinA fun k : Fin 16 => (slotA 0 k).view.writes (Elt F) (slotA 0 k).view.junk [⟨Rect.whole S1x8x32, ReadAs.same.apply ((blkSrc t0V (wu k) (hwu k)).view.read (Elt F) (tab0 m d))⟩]))
      ((AY0).read (Elt F) (joinB fun k : Fin 16 => (slotB 0 k).view.writes (Elt F) (slotB 0 k).view.junk [⟨Rect.whole S1x8x32, ReadAs.same.apply ((blkSrc t1V (wi k) (hwi k)).view.read (Elt F) (tab1 m d))⟩]))
      32 ((AZ0).read (Elt F) Z')) :
    ∀ j ∈ piece0Set L t,
      (piece0 L t).view.writes (Elt F) (m (oLoc d)) [⟨Rect.whole S2x8x32, ReadAs.same.apply ((bufO 0).view.read (Elt F) Z')⟩] j = G m d j := by
  rw [stagingO0_read] at hD
  refine piece0_value m d L su si hsu hsi
    ((AX0).read (Elt F) (joinA fun k : Fin 16 => (slotA 0 k).view.writes (Elt F) (slotA 0 k).view.junk [⟨Rect.whole S1x8x32, ReadAs.same.apply ((blkSrc t0V (wu k) (hwu k)).view.read (Elt F) (tab0 m d))⟩]))
    ((AY0).read (Elt F) (joinB fun k : Fin 16 => (slotB 0 k).view.writes (Elt F) (slotB 0 k).view.junk [⟨Rect.whole S1x8x32, ReadAs.same.apply ((blkSrc t1V (wi k) (hwi k)).view.read (Elt F) (tab1 m d))⟩]))
    ((bufO 0).view.read (Elt F) Z') t ?hX ?hY ?hZ _ ?hg
  case hX =>
    intro l r f
    have hl := laneU (F := F) d L su off h l (qpos t 0 l) (by rw [hoff]; show 32 * t.val + l.val = 32 * t.val + 16 * 0 + l.val; omega)
    have hv : ((vecAt (F := F) d L sU su off h) (ix1 l)).toNat < 1000000 := by rw [hl]; exact su_lt m d L su hpre hsu _
    rw [landedA0_read d L (tab0 m d) wu hwu l r f]
    have hb : (⟨(wu l).toNat, hwu l⟩ : Fin 125000) = blkOf (su (ix1 (qpos t 0 l))) := by
      subst hU
      exact (blk_of_word _ l hv _).trans (congrArg blkOf hl)
    rw [hb]
  case hY =>
    intro l r f
    have hl := laneI (F := F) d L si off h l (qpos t 0 l) (by rw [hoff]; show 32 * t.val + l.val = 32 * t.val + 16 * 0 + l.val; omega)
    have hv : ((vecAt (F := F) d L sI si off h) (ix1 l)).toNat < 1000000 := by rw [hl]; exact si_lt m d L si hpre hsi _
    rw [landedB0_read d L (tab1 m d) wi hwi l r f]
    have hb : (⟨(wi l).toNat, hwi l⟩ : Fin 125000) = blkOf (si (ix1 (qpos t 0 l))) := by
      subst hI
      exact (blk_of_word _ l hv _).trans (congrArg blkOf hl)
    rw [hb]
  case hZ =>
    exact fun l f => Done_at lanes_toNat pay70_toNat pay71_toNat hD l f _ _ (rowU0 (F := F) d L su t l) (rowI0 (F := F) d L si t l)
  case hg =>
    exact fun y => ((View.read_apply _ _).trans (cast_eq _ _)).symm.trans (writes_whole_read _ _ _ y)

include hpre hsu hsi in
/-- Half 1 of trip `t`: with the staging half holding every lane's product of the landed blocks' entries, what the
    copy-out writes onto piece 1 agrees with the result function on the piece. -/
theorem written_eq_G1 (t : Fin k0_t1_loop.trips) (wu wi : Fin 16 → BitVec 32) (hwu : ∀ j, (wu j).toNat < 125000) (hwi : ∀ j, (wi j).toNat < 125000)
    (off : Fin 1 → ℕ) (h : ∀ a, off a + S16.size a ≤ S512.size a) (hoff : off = ![32 * t.val + 16])
    (hU : wu = fun j => wordOf (vecAt (F := F) d L sU su off h) j) (hI : wi = fun j => wordOf (vecAt (F := F) d L sI si off h) j)
    (Z' : Buf (Elt F) ((bufO 1).view.loc (thrV d L)))
    (hD : Done lanes (k0_pay74 (F := F) (vecAt (F := F) d L sU su (k0_off102 t) (k0_off102_inb t))) (k0_pay75 (F := F) (vecAt (F := F) d L sI si (k0_off102 t) (k0_off102_inb t)))
      (k0_pay76 lanes) (k0_pay77 lanes 7#32)
      ((AX1).read (Elt F) (joinA fun k : Fin 16 => (slotA 1 k).view.writes (Elt F) (slotA 1 k).view.junk [⟨Rect.whole S1x8x32, ReadAs.same.apply ((blkSrc t0V (wu k) (hwu k)).view.read (Elt F) (tab0 m d))⟩]))
      ((AY1).read (Elt F) (joinB fun k : Fin 16 => (slotB 1 k).view.writes (Elt F) (slotB 1 k).view.junk [⟨Rect.whole S1x8x32, ReadAs.same.apply ((blkSrc t1V (wi k) (hwi k)).view.read (Elt F) (tab1 m d))⟩]))
      32 ((AZ1).read (Elt F) Z')) :
    ∀ j ∈ piece1Set L t,
      (piece1 L t).view.writes (Elt F) (m (oLoc d)) [⟨Rect.whole S2x8x32, ReadAs.same.apply ((bufO 1).view.read (Elt F) Z')⟩] j = G m d j := by
  rw [stagingO1_read] at hD
  refine piece1_value m d L su si hsu hsi
    ((AX1).read (Elt F) (joinA fun k : Fin 16 => (slotA 1 k).view.writes (Elt F) (slotA 1 k).view.junk [⟨Rect.whole S1x8x32, ReadAs.same.apply ((blkSrc t0V (wu k) (hwu k)).view.read (Elt F) (tab0 m d))⟩]))
    ((AY1).read (Elt F) (joinB fun k : Fin 16 => (slotB 1 k).view.writes (Elt F) (slotB 1 k).view.junk [⟨Rect.whole S1x8x32, ReadAs.same.apply ((blkSrc t1V (wi k) (hwi k)).view.read (Elt F) (tab1 m d))⟩]))
    ((bufO 1).view.read (Elt F) Z') t ?hX ?hY ?hZ _ ?hg
  case hX =>
    intro l r f
    have hl := laneU (F := F) d L su off h l (qpos t 1 l) (by rw [hoff]; show 32 * t.val + 16 + l.val = 32 * t.val + 16 * 1 + l.val; omega)
    have hv : ((vecAt (F := F) d L sU su off h) (ix1 l)).toNat < 1000000 := by rw [hl]; exact su_lt m d L su hpre hsu _
    rw [landedA1_read d L (tab0 m d) wu hwu l r f]
    have hb : (⟨(wu l).toNat, hwu l⟩ : Fin 125000) = blkOf (su (ix1 (qpos t 1 l))) := by
      subst hU
      exact (blk_of_word _ l hv _).trans (congrArg blkOf hl)
    rw [hb]
  case hY =>
    intro l r f
    have hl := laneI (F := F) d L si off h l (qpos t 1 l) (by rw [hoff]; show 32 * t.val + 16 + l.val = 32 * t.val + 16 * 1 + l.val; omega)
    have hv : ((vecAt (F := F) d L sI si off h) (ix1 l)).toNat < 1000000 := by rw [hl]; exact si_lt m d L si hpre hsi _
    rw [landedB1_read d L (tab1 m d) wi hwi l r f]
    have hb : (⟨(wi l).toNat, hwi l⟩ : Fin 125000) = blkOf (si (ix1 (qpos t 1 l))) := by
      subst hI
      exact (blk_of_word _ l hv _).trans (congrArg blkOf hl)
    rw [hb]
  case hZ =>
    exact fun l f => Done_at lanes_toNat pay76_toNat pay77_toNat hD l f _ _ (rowU1 (F := F) d L su t l) (rowI1 (F := F) d L si t l)
  case hg =>
    exact fun y => ((View.read_apply _ _).trans (cast_eq _ _)).symm.trans (writes_whole_read _ _ _ y)

end Written

end Cert.Proof.KI

end
-- ==== Proof.TripPreKI.lean ====
/-
  Small facts shared by the cases of one trip of the double-buffered loop: a sixteen-fold product written out slot by
  slot, the allocation of a batch on a cell named by its number, which guards of a trip hold at which trips, and that
  a load off an index scratch reads words of its contents.
-/
import proofs.«219339_g11596411699725_week1_w4_1023_23_alg».proof.Proof.RingKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable [FloatOps F] [∀ e, Nonempty (Elt F e)]
variable (d : Dev nD) (L : grid0.Coords)

omit [FloatOps F] [∀ e, Nonempty (Elt F e)] in
/-- A product over the 16 slots of a buffer, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [∀ e, Nonempty (Elt F e)] in
/-- The same with each slot spelt by its number and bound. -/
theorem bigSep_fin16m (Φ : Fin 16 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩) := bigSep_fin16 Φ

/-- Allocation of a stated batch from a cell spelt by its number. -/
theorem batch_alloc_lit {n : ℕ} (h : n < 8) (D : Fin 16 → sProp 𝕄) [∀ t, Storable (upEmb : UEmb _ 𝕄) (D t)] :
    (semVal (thrV d L, SemLoc.dma (sig := sig) ⟨n, h⟩) 0 : sProp 𝕄)
      ⊢ |={Set.univ}=> Transfers.Batch (countersEmb (U := UU)) (thrV d L) (SemLoc.dma (sig := sig) ⟨n, h⟩) (default : HIx 1) 8192 D 0 0 :=
  Transfers.batch_alloc' (Lvl := ℕ) (countersEmb (U := UU)) (thrV d L) (default : HIx 1) 8192 D (sm := SemLoc.dma (sig := sig) ⟨n, h⟩) (E := Set.univ)

/-- From the second trip on, the chunk number of either half is at least 2: the copy-out that last used the staging
    half is waited for. In the first trip it is not. -/
theorem cond_out0 : ∀ t : Fin k0_t1_loop.trips, 0 < t.val →
    Scalar.cmpi .ne (Scalar.extui (Scalar.cmpi .sge (Scalar.addi (Scalar.muli (Scf.iv 0#32 1#32 t.val) 2#32) 0#32) 2#32)) 0#32 = 1#1 := by decide +kernel
theorem cond_out1 : ∀ t : Fin k0_t1_loop.trips, 0 < t.val →
    Scalar.cmpi .ne (Scalar.extui (Scalar.cmpi .sge (Scalar.addi (Scalar.muli (Scf.iv 0#32 1#32 t.val) 2#32) 1#32) 2#32)) 0#32 = 1#1 := by decide +kernel
theorem cond_out0_first : ∀ t : Fin k0_t1_loop.trips, t.val = 0 →
    ¬ Scalar.cmpi .ne (Scalar.extui (Scalar.cmpi .sge (Scalar.addi (Scalar.muli (Scf.iv 0#32 1#32 t.val) 2#32) 0#32) 2#32)) 0#32 = 1#1 := by decide +kernel
theorem cond_out1_first : ∀ t : Fin k0_t1_loop.trips, t.val = 0 →
    ¬ Scalar.cmpi .ne (Scalar.extui (Scalar.cmpi .sge (Scalar.addi (Scalar.muli (Scf.iv 0#32 1#32 t.val) 2#32) 1#32) 2#32)) 0#32 = 1#1 := by decide +kernel
theorem cond1_all : ∀ t : Fin k0_t1_loop.trips, k0_cond1 t = 1#1 := by decide +kernel

omit [FloatOps F] [∀ e, Nonempty (Elt F e)] in
/-- A load off an index scratch reads entries of its contents. -/
theorem readAtU_lt' (s : Buf (Elt F) ((thrV d L).loc cc0_scratch0)) (hs : ∀ j, (s j).toNat < 1000000) (r : LoadRect S512) (x : r.shape.Idx) :
    ((sU).view.readAt (Elt F) r s x).toNat < 1000000 := by
  rw [View.readAt_apply]; simp only [Memref.view_whole, View.read_whole]; exact hs _
omit [FloatOps F] [∀ e, Nonempty (Elt F e)] in
theorem readAtI_lt' (s : Buf (Elt F) ((thrV d L).loc cc0_scratch1)) (hs : ∀ j, (s j).toNat < 1000000) (r : LoadRect S512) (x : r.shape.Idx) :
    ((sI).view.readAt (Elt F) r s x).toNat < 1000000 := by
  rw [View.readAt_apply]; simp only [Memref.view_whole, View.read_whole]; exact hs _

end Cert.Proof.KI

end
-- ==== Proof.CloseKI.lean ====
/-
  Closing the loop's invariant at the end of a trip: the invariant spelt out clause by clause, the sixteen slots of a
  buffer given back under one contents, and the waits a trip records, every one of them on a semaphore of the
  subcore's own at the index the invariant allows.
-/
import proofs.«219339_g11596411699725_week1_w4_1023_23_alg».proof.Proof.RingKI
import proofs.«219339_g11596411699725_week1_w4_1023_23_alg».proof.Proof.SlotsKI
import proofs.«219339_g11596411699725_week1_w4_1023_23_alg».proof.Proof.GlueKI
import proofs.«219339_g11596411699725_week1_w4_1023_23_alg».proof.Proof.StepKI

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

/-- The invariant, clause by clause. -/
theorem ringInv_eq (su : Buf (Elt F) ((sU).view.loc (thrV d L))) (si : Buf (Elt F) ((sI).view.loc (thrV d L)))
    (O : CellTallies nD τ sig (HIx 1)) (W : Waits sig (HIx 1)) (n : ℕ) :
    ringInv m d L su si O W n ⟨⟩ = iprop(Transfers.MayWaits (thrV d L) (none : HIx 1) O
      ∗ ((sU).view.loc (thrV d L) ↦{fullShare} su) ∗ ((sI).view.loc (thrV d L) ↦{fullShare} si)
      ∗ ringIn m d L su si n
      ∗ (bigSep Finset.univ fun j : Fin 16 => tokWhole (F := F) d L t0V (tab0 m d) 1 j)
      ∗ (bigSep Finset.univ fun j : Fin 16 => tokWhole (F := F) d L t1V (tab1 m d) 1 j)
      ∗ (bigSep Finset.univ fun j : Fin 16 => iprop(∃ f, slotHeld (F := F) d L (slotA 1 j) f))
      ∗ (bigSep Finset.univ fun j : Fin 16 => iprop(∃ f, slotHeld (F := F) d L (slotB 1 j) f))
      ∗ semVal (thrV d L, SemLoc.dma cc0_scratch6.sem) 0 ∗ semVal (thrV d L, SemLoc.dma cc0_scratch8.sem) 0
      ∗ outFlights m d L n ∗ outRows m d L n
      ∗ ∃ W', ⌜∀ p ∈ W', p ∈ W ∨ p.2 = none⌝ ∗ owes (thrV d L) O W') := rfl

omit [∀ e, Nonempty (Elt F e)] in
/-- The end of the first trip, stated at the trip's own number. -/
theorem outRows_put0' (t : Fin k0_t1_loop.trips) (ht : t.val = 0) :
    bigSep ((Finset.univ : Finset (Fin k0_t1_loop.trips)).erase t) (rowsAt m d L t.val) ⊢ outRows m d L (t.val + 1) := by
  rw [ht]
  exact outRows_put0 m d L t ht

/-! ## A buffer's slots given back -/

omit [FloatOps F] in
theorem slotsA0_back (X : Buf (Elt F) ((thrV d L).loc cc0_scratch2)) :
    ((AX0).loc (thrV d L) ↦[(AX0).set]{fullShare} X : sProp 𝕄) ⊢ bigSep Finset.univ fun j : Fin 16 => iprop(∃ f, slotHeld (F := F) d L (slotA 0 j) f) := by
  rw [splitA0]
  refine bigSep_mono fun j _ => (show ((slotA 0 j).view.loc (thrV d L) ↦[(slotA 0 j).view.set]{fullShare} X : sProp 𝕄)
    ⊢ iprop(∃ f, slotHeld (F := F) d L (slotA 0 j) f) from ?_)
  iintro H; iexists X; iexact H
omit [FloatOps F] in
theorem slotsA1_back (X : Buf (Elt F) ((thrV d L).loc cc0_scratch2)) :
    ((AX1).loc (thrV d L) ↦[(AX1).set]{fullShare} X : sProp 𝕄) ⊢ bigSep Finset.univ fun j : Fin 16 => iprop(∃ f, slotHeld (F := F) d L (slotA 1 j) f) := by
  rw [splitA1]
  refine bigSep_mono fun j _ => (show ((slotA 1 j).view.loc (thrV d L) ↦[(slotA 1 j).view.set]{fullShare} X : sProp 𝕄)
    ⊢ iprop(∃ f, slotHeld (F := F) d L (slotA 1 j) f) from ?_)
  iintro H; iexists X; iexact H
omit [FloatOps F] in
theorem slotsB0_back (Y : Buf (Elt F) ((thrV d L).loc cc0_scratch3)) :
    ((AY0).loc (thrV d L) ↦[(AY0).set]{fullShare} Y : sProp 𝕄) ⊢ bigSep Finset.univ fun j : Fin 16 => iprop(∃ f, slotHeld (F := F) d L (slotB 0 j) f) := by
  rw [splitB0]
  refine bigSep_mono fun j _ => (show ((slotB 0 j).view.loc (thrV d L) ↦[(slotB 0 j).view.set]{fullShare} Y : sProp 𝕄)
    ⊢ iprop(∃ f, slotHeld (F := F) d L (slotB 0 j) f) from ?_)
  iintro H; iexists Y; iexact H
omit [FloatOps F] in
theorem slotsB1_back (Y : Buf (Elt F) ((thrV d L).loc cc0_scratch3)) :
    ((AY1).loc (thrV d L) ↦[(AY1).set]{fullShare} Y : sProp 𝕄) ⊢ bigSep Finset.univ fun j : Fin 16 => iprop(∃ f, slotHeld (F := F) d L (slotB 1 j) f) := by
  rw [splitB1]
  refine bigSep_mono fun j _ => (show ((slotB 1 j).view.loc (thrV d L) ↦[(slotB 1 j).view.set]{fullShare} Y : sProp 𝕄)
    ⊢ iprop(∃ f, slotHeld (F := F) d L (slotB 1 j) f) from ?_)
  iintro H; iexists Y; iexact H

/-! ## The waits a trip records -/

omit [FloatOps F] [∀ e, Nonempty (Elt F e)] in
theorem waits_base (W' : Waits sig (HIx 1)) : ∀ p ∈ W', p ∈ W' ∨ p.2 = none := fun _ hp => Or.inl hp
omit [FloatOps F] [∀ e, Nonempty (Elt F e)] in
theorem waits_insert {sm : SemLoc sig} {s W' : Waits sig (HIx 1)} (h : ∀ p ∈ s, p ∈ W' ∨ p.2 = none) :
    ∀ p ∈ insert (sm, (default : HIx 1)) s, p ∈ W' ∨ p.2 = none :=
  fun p hp => (Finset.mem_insert.mp hp).elim (fun e => Or.inr (e ▸ rfl)) (h p)
omit [FloatOps F] [∀ e, Nonempty (Elt F e)] in
theorem waits_trans {W W' Wf : Waits sig (HIx 1)} (h : ∀ p ∈ Wf, p ∈ W' ∨ p.2 = none) (hW' : ∀ p ∈ W', p ∈ W ∨ p.2 = none) :
    ∀ p ∈ Wf, p ∈ W ∨ p.2 = none :=
  fun p hp => (h p hp).elim (hW' p) Or.inr

end Cert.Proof.KI

end
-- ==== Proof.TripFirstKI.lean ====
/-
  The first trip of the double-buffered loop: nothing was copied out before it, so the staging halves are free and
  neither half waits for an earlier copy-out; otherwise as every trip while a trip remains.
-/
import proofs.«219339_g11596411699725_week1_w4_1023_23_alg».proof.Proof.RingKI
import proofs.«219339_g11596411699725_week1_w4_1023_23_alg».proof.Proof.ExtractKI
import proofs.«219339_g11596411699725_week1_w4_1023_23_alg».proof.Proof.GlueKI
import proofs.«219339_g11596411699725_week1_w4_1023_23_alg».proof.Proof.StepKI
import proofs.«219339_g11596411699725_week1_w4_1023_23_alg».proof.Proof.TripPreKI
import proofs.«219339_g11596411699725_week1_w4_1023_23_alg».proof.Proof.CloseKI
import proofs.«219339_g11596411699725_week1_w4_1023_23_alg».proof.Proof.Gen.KernelIdeal.Skeleton
import Idealize.ShloMosaic.Lib.SparseCore.Launch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

set_option maxHeartbeats 4000000 in
/-- The first trip keeps the invariant. -/
theorem trip_first (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) (ht0 : t.val = 0) (h3 : k0_cond3 t = 1#1) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  subst hv3
  have ht16 : t.val < 16 := t.isLt
  have h1 : k0_cond1 t = 1#1 := cond1_all t
  have hc0 := cond_out0_first t ht0
  have hc1 := cond_out1_first t ht0
  have hsu' : ∀ j, (su j).toNat < 1000000 := fun j => by rw [hsu]; exact (hpre d _).1
  have hsi' : ∀ j, (si j).toNat < 1000000 := fun j => by rw [hsi]; exact (hpre d _).2
  have hfl : outFlights (F := F) m d L t.val = outFree (F := F) d L := by
    unfold outFlights; exact dif_neg (by omega)
  unfold ringInv
  rw [ringIn_lt (F := F) m d L su si t.val ht16, hfl]
  unfold outFree
  iintro ⟨#Hlv, #Hmw, Hs0, Hs1, ⟨%wu, %wi, %hwu, %hwi, %hw, HBu0, HBi0, RA, RB⟩, TA1, TB1, SA1, SB1, Hu1, Hi1, ⟨⟨%Zf0, Hbo0⟩, ⟨%Zf1, Hbo1⟩, Ho0, Ho1⟩, Hrows, %W', %hW', HO⟩
  ihave RA := (Entails.of_eq (bigSep_fin16m (F := F) _)) $$ RA
  icases RA with ⟨RA0, RA1, RA2, RA3, RA4, RA5, RA6, RA7, RA8, RA9, RA10, RA11, RA12, RA13, RA14, RA15⟩
  ihave RB := (Entails.of_eq (bigSep_fin16m (F := F) _)) $$ RB
  icases RB with ⟨RB0, RB1, RB2, RB3, RB4, RB5, RB6, RB7, RB8, RB9, RB10, RB11, RB12, RB13, RB14, RB15⟩
  ihave TA1 := (Entails.of_eq (bigSep_fin16m (F := F) _)) $$ TA1
  icases TA1 with ⟨TA0, TA1, TA2, TA3, TA4, TA5, TA6, TA7, TA8, TA9, TA10, TA11, TA12, TA13, TA14, TA15⟩
  ihave TB1 := (Entails.of_eq (bigSep_fin16m (F := F) _)) $$ TB1
  icases TB1 with ⟨TB0, TB1, TB2, TB3, TB4, TB5, TB6, TB7, TB8, TB9, TB10, TB11, TB12, TB13, TB14, TB15⟩
  ihave SA1 := (Entails.of_eq (bigSep_fin16m (F := F) _)) $$ SA1
  icases SA1 with ⟨⟨%SAf0, SA0⟩, ⟨%SAf1, SA1⟩, ⟨%SAf2, SA2⟩, ⟨%SAf3, SA3⟩, ⟨%SAf4, SA4⟩, ⟨%SAf5, SA5⟩, ⟨%SAf6, SA6⟩, ⟨%SAf7, SA7⟩, ⟨%SAf8, SA8⟩, ⟨%SAf9, SA9⟩, ⟨%SAf10, SA10⟩, ⟨%SAf11, SA11⟩, ⟨%SAf12, SA12⟩, ⟨%SAf13, SA13⟩, ⟨%SAf14, SA14⟩, ⟨%SAf15, SA15⟩⟩
  ihave SB1 := (Entails.of_eq (bigSep_fin16m (F := F) _)) $$ SB1
  icases SB1 with ⟨⟨%SBf0, SB0⟩, ⟨%SBf1, SB1⟩, ⟨%SBf2, SB2⟩, ⟨%SBf3, SB3⟩, ⟨%SBf4, SB4⟩, ⟨%SBf5, SB5⟩, ⟨%SBf6, SB6⟩, ⟨%SBf7, SB7⟩, ⟨%SBf8, SB8⟩, ⟨%SBf9, SB9⟩, ⟨%SBf10, SB10⟩, ⟨%SBf11, SB11⟩, ⟨%SBf12, SB12⟩, ⟨%SBf13, SB13⟩, ⟨%SBf14, SB14⟩, ⟨%SBf15, SB15⟩⟩
  have hwu1 : ∀ j : Fin 16, (wordOf (vecAt (F := F) d L sU su (k0_off34 t) (k0_off34_inb t h1)) j).toNat < 125000 :=
    fun j => by refine lane_lt _ ?_ _ _ _; intro x; exact readAtU_lt' d L su hsu' _ _
  have hwi1 : ∀ j : Fin 16, (wordOf (vecAt (F := F) d L sI si (k0_off34 t) (k0_off34_inb t h1)) j).toNat < 125000 :=
    fun j => by refine lane_lt _ ?_ _ _ _; intro x; exact readAtI_lt' d L si hsi' _ _
  imod (Transfers.batch_alloc' (Lvl := ℕ) (countersEmb (U := UU)) (thrV d L) (default : HIx 1) 8192
      (fun j : Fin 16 => deliv1 (F := F) d L (slotA 1 j) t0V (wordOf (vecAt (F := F) d L sU su (k0_off34 t) (k0_off34_inb t h1)) j) (hwu1 j)
        (shareTokN fullShare (tokIx L (tokOf 1 j))) (tab0 m d)) (sm := SemLoc.dma (sig := sig) cc0_scratch6.sem) (E := Set.univ)) $$ Hu1 with HBu1
  imod (Transfers.batch_alloc' (Lvl := ℕ) (countersEmb (U := UU)) (thrV d L) (default : HIx 1) 8192
      (fun j : Fin 16 => deliv1 (F := F) d L (slotB 1 j) t1V (wordOf (vecAt (F := F) d L sI si (k0_off34 t) (k0_off34_inb t h1)) j) (hwi1 j)
        (shareTokN fullShare (tokIx L (tokOf 1 j))) (tab1 m d)) (sm := SemLoc.dma (sig := sig) cc0_scratch8.sem) (E := Set.univ)) $$ Hi1 with HBi1
  unfold k0_t1_body
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave TA0 : (tokRest (F := F) d L t0V (tab0 m d) 1 (fun j => wordOf (vecAt (F := F) d L sU su (k0_off34 t) (k0_off34_inb t h1)) j) hwu1 ⟨0, by decide⟩) $$ [TA0]
  · iexact TA0
  ihave TA1 : (tokRest (F := F) d L t0V (tab0 m d) 1 (fun j => wordOf (vecAt (F := F) d L sU su (k0_off34 t) (k0_off34_inb t h1)) j) hwu1 ⟨1, by decide⟩) $$ [TA1]
  · iexact TA1
  ihave TA2 : (tokRest (F := F) d L t0V (tab0 m d) 1 (fun j => wordOf (vecAt (F := F) d L sU su (k0_off34 t) (k0_off34_inb t h1)) j) hwu1 ⟨2, by decide⟩) $$ [TA2]
  · iexact TA2
  ihave TA3 : (tokRest (F := F) d L t0V (tab0 m d) 1 (fun j => wordOf (vecAt (F := F) d L sU su (k0_off34 t) (k0_off34_inb t h1)) j) hwu1 ⟨3, by decide⟩) $$ [TA3]
  · iexact TA3
  ihave TA4 : (tokRest (F := F) d L t0V (tab0 m d) 1 (fun j => wordOf (vecAt (F := F) d L sU su (k0_off34 t) (k0_off34_inb t h1)) j) hwu1 ⟨4, by decide⟩) $$ [TA4]
  · iexact TA4
  ihave TA5 : (tokRest (F := F) d L t0V (tab0 m d) 1 (fun j => wordOf (vecAt (F := F) d L sU su (k0_off34 t) (k0_off34_inb t h1)) j) hwu1 ⟨5, by decide⟩) $$ [TA5]
  · iexact TA5
  ihave TA6 : (tokRest (F := F) d L t0V (tab0 m d) 1 (fun j => wordOf (vecAt (F := F) d L sU su (k0_off34 t) (k0_off34_inb t h1)) j) hwu1 ⟨6, by decide⟩) $$ [TA6]
  · iexact TA6
  ihave TA7 : (tokRest (F := F) d L t0V (tab0 m d) 1 (fun j => wordOf (vecAt (F := F) d L sU su (k0_off34 t) (k0_off34_inb t h1)) j) hwu1 ⟨7, by decide⟩) $$ [TA7]
  · iexact TA7
  ihave TA8 : (tokRest (F := F) d L t0V (tab0 m d) 1 (fun j => wordOf (vecAt (F := F) d L sU su (k0_off34 t) (k0_off34_inb t h1)) j) hwu1 ⟨8, by decide⟩) $$ [TA8]
  · iexact TA8
  ihave TA9 : (tokRest (F := F) d L t0V (tab0 m d) 1 (fun j => wordOf (vecAt (F := F) d L sU su (k0_off34 t) (k0_off34_inb t h1)) j) hwu1 ⟨9, by decide⟩) $$ [TA9]
  · iexact TA9
  ihave TA10 : (tokRest (F := F) d L t0V (tab0 m d) 1 (fun j => wordOf (vecAt (F := F) d L sU su (k0_off34 t) (k0_off34_inb t h1)) j) hwu1 ⟨10, by decide⟩) $$ [TA10]
  · iexact TA10
  ihave TA11 : (tokRest (F := F) d L t0V (tab0 m d) 1 (fun j => wordOf (vecAt (F := F) d L sU su (k0_off34 t) (k0_off34_inb t h1)) j) hwu1 ⟨11, by decide⟩) $$ [TA11]
  · iexact TA11
  ihave TA12 : (tokRest (F := F) d L t0V (tab0 m d) 1 (fun j => wordOf (vecAt (F := F) d L sU su (k0_off34 t) (k0_off34_inb t h1)) j) hwu1 ⟨12, by decide⟩) $$ [TA12]
  · iexact TA12
  ihave TA13 : (tokRest (F := F) d L t0V (tab0 m d) 1 (fun j => wordOf (vecAt (F := F) d L sU su (k0_off34 t) (k0_off34_inb t h1)) j) hwu1 ⟨13, by decide⟩) $$ [TA13]
  · iexact TA13
  ihave TA14 : (tokRest (F := F) d L t0V (tab0 m d) 1 (fun j => wordOf (vecAt (F := F) d L sU su (k0_off34 t) (k0_off34_inb t h1)) j) hwu1 ⟨14, by decide⟩) $$ [TA14]
  · iexact TA14
  ihave TA15 : (tokRest (F := F) d L t0V (tab0 m d) 1 (fun j => wordOf (vecAt (F := F) d L sU su (k0_off34 t) (k0_off34_inb t h1)) j) hwu1 ⟨15, by decide⟩) $$ [TA15]
  · iexact TA15
  ihave TB0 : (tokRest (F := F) d L t1V (tab1 m d) 1 (fun j => wordOf (vecAt (F := F) d L sI si (k0_off34 t) (k0_off34_inb t h1)) j) hwi1 ⟨0, by decide⟩) $$ [TB0]
  · iexact TB0
  ihave TB1 : (tokRest (F := F) d L t1V (tab1 m d) 1 (fun j => wordOf (vecAt (F := F) d L sI si (k0_off34 t) (k0_off34_inb t h1)) j) hwi1 ⟨1, by decide⟩) $$ [TB1]
  · iexact TB1
  ihave TB2 : (tokRest (F := F) d L t1V (tab1 m d) 1 (fun j => wordOf (vecAt (F := F) d L sI si (k0_off34 t) (k0_off34_inb t h1)) j) hwi1 ⟨2, by decide⟩) $$ [TB2]
  · iexact TB2
  ihave TB3 : (tokRest (F := F) d L t1V (tab1 m d) 1 (fun j => wordOf (vecAt (F := F) d L sI si (k0_off34 t) (k0_off34_inb t h1)) j) hwi1 ⟨3, by decide⟩) $$ [TB3]
  · iexact TB3
  ihave TB4 : (tokRest (F := F) d L t1V (tab1 m d) 1 (fun j => wordOf (vecAt (F := F) d L sI si (k0_off34 t) (k0_off34_inb t h1)) j) hwi1 ⟨4, by decide⟩) $$ [TB4]
  · iexact TB4
  ihave TB5 : (tokRest (F := F) d L t1V (tab1 m d) 1 (fun j => wordOf (vecAt (F := F) d L sI si (k0_off34 t) (k0_off34_inb t h1)) j) hwi1 ⟨5, by decide⟩) $$ [TB5]
  · iexact TB5
  ihave TB6 : (tokRest (F := F) d L t1V (tab1 m d) 1 (fun j => wordOf (vecAt (F := F) d L sI si (k0_off34 t) (k0_off34_inb t h1)) j) hwi1 ⟨6, by decide⟩) $$ [TB6]
  · iexact TB6
  ihave TB7 : (tokRest (F := F) d L t1V (tab1 m d) 1 (fun j => wordOf (vecAt (F := F) d L sI si (k0_off34 t) (k0_off34_inb t h1)) j) hwi1 ⟨7, by decide⟩) $$ [TB7]
  · iexact TB7
  ihave TB8 : (tokRest (F := F) d L t1V (tab1 m d) 1 (fun j => wordOf (vecAt (F := F) d L sI si (k0_off34 t) (k0_off34_inb t h1)) j) hwi1 ⟨8, by decide⟩) $$ [TB8]
  · iexact TB8
  ihave TB9 : (tokRest (F := F) d L t1V (tab1 m d) 1 (fun j => wordOf (vecAt (F := F) d L sI si (k0_off34 t) (k0_off34_inb t h1)) j) hwi1 ⟨9, by decide⟩) $$ [TB9]
  · iexact TB9
  ihave TB10 : (tokRest (F := F) d L t1V (tab1 m d) 1 (fun j => wordOf (vecAt (F := F) d L sI si (k0_off34 t) (k0_off34_inb t h1)) j) hwi1 ⟨10, by decide⟩) $$ [TB10]
  · iexact TB10
  ihave TB11 : (tokRest (F := F) d L t1V (tab1 m d) 1 (fun j => wordOf (vecAt (F := F) d L sI si (k0_off34 t) (k0_off34_inb t h1)) j) hwi1 ⟨11, by decide⟩) $$ [TB11]
  · iexact TB11
  ihave TB12 : (tokRest (F := F) d L t1V (tab1 m d) 1 (fun j => wordOf (vecAt (F := F) d L sI si (k0_off34 t) (k0_off34_inb t h1)) j) hwi1 ⟨12, by decide⟩) $$ [TB12]
  · iexact TB12
  ihave TB13 : (tokRest (F := F) d L t1V (tab1 m d) 1 (fun j => wordOf (vecAt (F := F) d L sI si (k0_off34 t) (k0_off34_inb t h1)) j) hwi1 ⟨13, by decide⟩) $$ [TB13]
  · iexact TB13
  ihave TB14 : (tokRest (F := F) d L t1V (tab1 m d) 1 (fun j => wordOf (vecAt (F := F) d L sI si (k0_off34 t) (k0_off34_inb t h1)) j) hwi1 ⟨14, by decide⟩) $$ [TB14]
  · iexact TB14
  ihave TB15 : (tokRest (F := F) d L t1V (tab1 m d) 1 (fun j => wordOf (vecAt (F := F) d L sI si (k0_off34 t) (k0_off34_inb t h1)) j) hwi1 ⟨15, by decide⟩) $$ [TB15]
  · iexact TB15
  -- the sixteen landed blocks of each table joined into buffer 0
  ihave HX := (Entails.of_eq ((bigSep_fin16m (F := F) (fun j : Fin 16 => (slotA 0 j).view.loc (thrV d L) ↦[(slotA 0 j).view.set]{fullShare}
      (slotA 0 j).view.writes (Elt F) (slotA 0 j).view.junk [⟨Rect.whole S1x8x32, ReadAs.same.apply ((blkSrc t0V (wu j) (hwu j)).view.read (Elt F) (tab0 m d))⟩])).symm.trans
      (landedA0 (F := F) d L _))) $$ [HBu0_dst0 HBu0_dst1 HBu0_dst2 HBu0_dst3 HBu0_dst4 HBu0_dst5 HBu0_dst6 HBu0_dst7 HBu0_dst8 HBu0_dst9 HBu0_dst10 HBu0_dst11 HBu0_dst12 HBu0_dst13 HBu0_dst14 HBu0_dst15]
  · isplitl [HBu0_dst0]; · iexact HBu0_dst0
    isplitl [HBu0_dst1]; · iexact HBu0_dst1
    isplitl [HBu0_dst2]; · iexact HBu0_dst2
    isplitl [HBu0_dst3]; · iexact HBu0_dst3
    isplitl [HBu0_dst4]; · iexact HBu0_dst4
    isplitl [HBu0_dst5]; · iexact HBu0_dst5
    isplitl [HBu0_dst6]; · iexact HBu0_dst6
    isplitl [HBu0_dst7]; · iexact HBu0_dst7
    isplitl [HBu0_dst8]; · iexact HBu0_dst8
    isplitl [HBu0_dst9]; · iexact HBu0_dst9
    isplitl [HBu0_dst10]; · iexact HBu0_dst10
    isplitl [HBu0_dst11]; · iexact HBu0_dst11
    isplitl [HBu0_dst12]; · iexact HBu0_dst12
    isplitl [HBu0_dst13]; · iexact HBu0_dst13
    isplitl [HBu0_dst14]; · iexact HBu0_dst14
    iexact HBu0_dst15
  ihave HY := (Entails.of_eq ((bigSep_fin16m (F := F) (fun j : Fin 16 => (slotB 0 j).view.loc (thrV d L) ↦[(slotB 0 j).view.set]{fullShare}
      (slotB 0 j).view.writes (Elt F) (slotB 0 j).view.junk [⟨Rect.whole S1x8x32, ReadAs.same.apply ((blkSrc t1V (wi j) (hwi j)).view.read (Elt F) (tab1 m d))⟩])).symm.trans
      (landedB0 (F := F) d L _))) $$ [HBi0_dst0 HBi0_dst1 HBi0_dst2 HBi0_dst3 HBi0_dst4 HBi0_dst5 HBi0_dst6 HBi0_dst7 HBi0_dst8 HBi0_dst9 HBi0_dst10 HBi0_dst11 HBi0_dst12 HBi0_dst13 HBi0_dst14 HBi0_dst15]
  · isplitl [HBi0_dst0]; · iexact HBi0_dst0
    isplitl [HBi0_dst1]; · iexact HBi0_dst1
    isplitl [HBi0_dst2]; · iexact HBi0_dst2
    isplitl [HBi0_dst3]; · iexact HBi0_dst3
    isplitl [HBi0_dst4]; · iexact HBi0_dst4
    isplitl [HBi0_dst5]; · iexact HBi0_dst5
    isplitl [HBi0_dst6]; · iexact HBi0_dst6
    isplitl [HBi0_dst7]; · iexact HBi0_dst7
    isplitl [HBi0_dst8]; · iexact HBi0_dst8
    isplitl [HBi0_dst9]; · iexact HBi0_dst9
    isplitl [HBi0_dst10]; · iexact HBi0_dst10
    isplitl [HBi0_dst11]; · iexact HBi0_dst11
    isplitl [HBi0_dst12]; · iexact HBi0_dst12
    isplitl [HBi0_dst13]; · iexact HBi0_dst13
    isplitl [HBi0_dst14]; · iexact HBi0_dst14
    iexact HBi0_dst15
  ihave HZ := (Entails.of_eq (stagingO0 (F := F) d L _)) $$ Hbo0
  iapply (loop0_bind (F := F) d L _ _ _ _ _ _ _ _ _ _ _ _ (chk0_trip _ _) inj0_trip _)
  isplitl [HX]; · iexact HX
  isplitl [HY]; · iexact HY
  isplitl [HZ]; · iexact HZ
  iintro %Z0' ⟨%hD0, HX, HY, HZ⟩
  ihave HXs := (Entails.of_eq ((splitA0 (F := F) d L _).trans (bigSep_fin16m (F := F) _))) $$ HX
  icases HXs with ⟨SA0_0, SA0_1, SA0_2, SA0_3, SA0_4, SA0_5, SA0_6, SA0_7, SA0_8, SA0_9, SA0_10, SA0_11, SA0_12, SA0_13, SA0_14, SA0_15⟩
  ihave HYs := (Entails.of_eq ((splitB0 (F := F) d L _).trans (bigSep_fin16m (F := F) _))) $$ HY
  icases HYs with ⟨SB0_0, SB0_1, SB0_2, SB0_3, SB0_4, SB0_5, SB0_6, SB0_7, SB0_8, SB0_9, SB0_10, SB0_11, SB0_12, SB0_13, SB0_14, SB0_15⟩
  ihave Hbo0 := (Entails.of_eq (stagingO0 (F := F) d L _).symm) $$ HZ
  ihave Hrows := (Entails.of_eq (outRows_take (F := F) m d L t)) $$ Hrows
  icases Hrows with ⟨⟨Hp0, Hp1⟩, Hrest⟩
  have hwu2 : ∀ j : Fin 16, (wordOf (vecAt (F := F) d L sU su (k0_off69 t) (k0_off69_inb t h3)) j).toNat < 125000 :=
    fun j => by refine lane_lt _ ?_ _ _ _; intro x; exact readAtU_lt' d L su hsu' _ _
  have hwi2 : ∀ j : Fin 16, (wordOf (vecAt (F := F) d L sI si (k0_off69 t) (k0_off69_inb t h3)) j).toNat < 125000 :=
    fun j => by refine lane_lt _ ?_ _ _ _; intro x; exact readAtI_lt' d L si hsi' _ _
  imod (batch_alloc_lit (F := F) d L _
      (fun j : Fin 16 => deliv1 (F := F) d L (slotA 0 j) t0V (wordOf (vecAt (F := F) d L sU su (k0_off69 t) (k0_off69_inb t h3)) j) (hwu2 j)
        (shareTokN fullShare (tokIx L (tokOf 0 j))) (tab0 m d))) $$ HBu0 with HBu0
  imod (batch_alloc_lit (F := F) d L _
      (fun j : Fin 16 => deliv1 (F := F) d L (slotB 0 j) t1V (wordOf (vecAt (F := F) d L sI si (k0_off69 t) (k0_off69_inb t h3)) j) (hwi2 j)
        (shareTokN fullShare (tokIx L (tokOf 0 j))) (tab1 m d))) $$ HBi0 with HBi0
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave HX := (Entails.of_eq ((bigSep_fin16m (F := F) (fun j : Fin 16 => (slotA 1 j).view.loc (thrV d L) ↦[(slotA 1 j).view.set]{fullShare}
      (slotA 1 j).view.writes (Elt F) (slotA 1 j).view.junk [⟨Rect.whole S1x8x32, ReadAs.same.apply ((blkSrc t0V (wordOf (vecAt (F := F) d L sU su (k0_off34 t) (k0_off34_inb t h1)) j) (hwu1 j)).view.read (Elt F) (tab0 m d))⟩])).symm.trans
      (landedA1 (F := F) d L _))) $$ [HBu1_dst0 HBu1_dst1 HBu1_dst2 HBu1_dst3 HBu1_dst4 HBu1_dst5 HBu1_dst6 HBu1_dst7 HBu1_dst8 HBu1_dst9 HBu1_dst10 HBu1_dst11 HBu1_dst12 HBu1_dst13 HBu1_dst14 HBu1_dst15]
  · isplitl [HBu1_dst0]; · iexact HBu1_dst0
    isplitl [HBu1_dst1]; · iexact HBu1_dst1
    isplitl [HBu1_dst2]; · iexact HBu1_dst2
    isplitl [HBu1_dst3]; · iexact HBu1_dst3
    isplitl [HBu1_dst4]; · iexact HBu1_dst4
    isplitl [HBu1_dst5]; · iexact HBu1_dst5
    isplitl [HBu1_dst6]; · iexact HBu1_dst6
    isplitl [HBu1_dst7]; · iexact HBu1_dst7
    isplitl [HBu1_dst8]; · iexact HBu1_dst8
    isplitl [HBu1_dst9]; · iexact HBu1_dst9
    isplitl [HBu1_dst10]; · iexact HBu1_dst10
    isplitl [HBu1_dst11]; · iexact HBu1_dst11
    isplitl [HBu1_dst12]; · iexact HBu1_dst12
    isplitl [HBu1_dst13]; · iexact HBu1_dst13
    isplitl [HBu1_dst14]; · iexact HBu1_dst14
    iexact HBu1_dst15
  ihave HY := (Entails.of_eq ((bigSep_fin16m (F := F) (fun j : Fin 16 => (slotB 1 j).view.loc (thrV d L) ↦[(slotB 1 j).view.set]{fullShare}
      (slotB 1 j).view.writes (Elt F) (slotB 1 j).view.junk [⟨Rect.whole S1x8x32, ReadAs.same.apply ((blkSrc t1V (wordOf (vecAt (F := F) d L sI si (k0_off34 t) (k0_off34_inb t h1)) j) (hwi1 j)).view.read (Elt F) (tab1 m d))⟩])).symm.trans
      (landedB1 (F := F) d L _))) $$ [HBi1_dst0 HBi1_dst1 HBi1_dst2 HBi1_dst3 HBi1_dst4 HBi1_dst5 HBi1_dst6 HBi1_dst7 HBi1_dst8 HBi1_dst9 HBi1_dst10 HBi1_dst11 HBi1_dst12 HBi1_dst13 HBi1_dst14 HBi1_dst15]
  · isplitl [HBi1_dst0]; · iexact HBi1_dst0
    isplitl [HBi1_dst1]; · iexact HBi1_dst1
    isplitl [HBi1_dst2]; · iexact HBi1_dst2
    isplitl [HBi1_dst3]; · iexact HBi1_dst3
    isplitl [HBi1_dst4]; · iexact HBi1_dst4
    isplitl [HBi1_dst5]; · iexact HBi1_dst5
    isplitl [HBi1_dst6]; · iexact HBi1_dst6
    isplitl [HBi1_dst7]; · iexact HBi1_dst7
    isplitl [HBi1_dst8]; · iexact HBi1_dst8
    isplitl [HBi1_dst9]; · iexact HBi1_dst9
    isplitl [HBi1_dst10]; · iexact HBi1_dst10
    isplitl [HBi1_dst11]; · iexact HBi1_dst11
    isplitl [HBi1_dst12]; · iexact HBi1_dst12
    isplitl [HBi1_dst13]; · iexact HBi1_dst13
    isplitl [HBi1_dst14]; · iexact HBi1_dst14
    iexact HBi1_dst15
  ihave HZ := (Entails.of_eq (stagingO1 (F := F) d L _)) $$ Hbo1
  iapply (loop1_bind (F := F) d L _ _ _ _ _ _ _ _ _ _ _ _ _ (chk1_trip _ _) inj1_trip _)
  isplitl [HX]; · iexact HX
  isplitl [HY]; · iexact HY
  isplitl [HZ]; · iexact HZ
  iintro %Z1' ⟨%hD1, HX1, HY1, HZ⟩
  ihave Hbo1 := (Entails.of_eq (stagingO1 (F := F) d L _).symm) $$ HZ
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  sl_step
  obtain ⟨off, hoffh, hoff, hU, hI⟩ := hw
  have hG0 := written_eq_G0 (F := F) m d L su si hpre hsu hsi t wu wi hwu hwi off hoffh hoff hU hI Z0' hD0
  have hG1 := written_eq_G1 (F := F) m d L su si hpre hsu hsi t (fun j => wordOf (vecAt (F := F) d L sU su (k0_off34 t) (k0_off34_inb t h1)) j)
    (fun j => wordOf (vecAt (F := F) d L sI si (k0_off34 t) (k0_off34_inb t h1)) j) hwu1 hwi1 (k0_off34 t) (k0_off34_inb t h1) (k0_off34_eq t) rfl rfl Z1' hD1
  isplitr; · iexact Hlv
  isplitr; · iexact Hmw
  isplitl [Hs0]; · iexact Hs0
  isplitl [Hs1]; · iexact Hs1
  isplitl [HBu0 HBi0 RA0 RA1 RA2 RA3 RA4 RA5 RA6 RA7 RA8 RA9 RA10 RA11 RA12 RA13 RA14 RA15 RB0 RB1 RB2 RB3 RB4 RB5 RB6 RB7 RB8 RB9 RB10 RB11 RB12 RB13 RB14 RB15]
  · iapply (ringIn_next (F := F) m d L su si t h3 hwu2 hwi2)
    isplitl [HBu0]; · iexact HBu0
    isplitl [HBi0]; · iexact HBi0
    isplitl [RA0 RA1 RA2 RA3 RA4 RA5 RA6 RA7 RA8 RA9 RA10 RA11 RA12 RA13 RA14 RA15]
    · iapply (Entails.of_eq (bigSep_fin16m (F := F) _).symm)
      isplitl [RA0]; · iexact RA0
      isplitl [RA1]; · iexact RA1
      isplitl [RA2]; · iexact RA2
      isplitl [RA3]; · iexact RA3
      isplitl [RA4]; · iexact RA4
      isplitl [RA5]; · iexact RA5
      isplitl [RA6]; · iexact RA6
      isplitl [RA7]; · iexact RA7
      isplitl [RA8]; · iexact RA8
      isplitl [RA9]; · iexact RA9
      isplitl [RA10]; · iexact RA10
      isplitl [RA11]; · iexact RA11
      isplitl [RA12]; · iexact RA12
      isplitl [RA13]; · iexact RA13
      isplitl [RA14]; · iexact RA14
      iexact RA15
    iapply (Entails.of_eq (bigSep_fin16m (F := F) _).symm)
    isplitl [RB0]; · iexact RB0
    isplitl [RB1]; · iexact RB1
    isplitl [RB2]; · iexact RB2
    isplitl [RB3]; · iexact RB3
    isplitl [RB4]; · iexact RB4
    isplitl [RB5]; · iexact RB5
    isplitl [RB6]; · iexact RB6
    isplitl [RB7]; · iexact RB7
    isplitl [RB8]; · iexact RB8
    isplitl [RB9]; · iexact RB9
    isplitl [RB10]; · iexact RB10
    isplitl [RB11]; · iexact RB11
    isplitl [RB12]; · iexact RB12
    isplitl [RB13]; · iexact RB13
    isplitl [RB14]; · iexact RB14
    iexact RB15
  isplitl [TA0 TA1 TA2 TA3 TA4 TA5 TA6 TA7 TA8 TA9 TA10 TA11 TA12 TA13 TA14 TA15]
  · iapply (Entails.of_eq (bigSep_fin16m (F := F) _).symm)
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [TB0 TB1 TB2 TB3 TB4 TB5 TB6 TB7 TB8 TB9 TB10 TB11 TB12 TB13 TB14 TB15]
  · iapply (Entails.of_eq (bigSep_fin16m (F := F) _).symm)
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  isplitl [HX1]; · iapply (slotsA1_back (F := F) d L _); iexact HX1
  isplitl [HY1]; · iapply (slotsB1_back (F := F) d L _); iexact HY1
  isplitl [HBu1]; · iexact HBu1
  isplitl [HBi1]; · iexact HBi1
  isplitl [Ho0 Ho1]
  · iapply (outFlights_next (F := F) m d L t Z0' Z1' hG0 hG1)
    isplitl [Ho0]; · iexact Ho0
    iexact Ho1
  isplitl [Hrest]
  · iapply (outRows_put0' (F := F) m d L t ht0); iexact Hrest
  iexists _
  isplitr
  rotate_left
  · iexact HO
  · ipureintro
    exact waits_trans (by repeat (first | exact waits_base W' | refine waits_insert ?_)) hW'

end Cert.Proof.KI

end
-- ==== Proof.TripMidKI.lean ====
/-
  One trip of the double-buffered loop, the middle case: a trip came before (its two copy-outs are in flight) and a trip follows
  (the block copies of chunk 2t+2 are started). From the invariant at trip boundary t to the invariant at t + 1.

  Half 0 of the trip: start the block copies of chunk 2t+1 into buffer 1 (one batch per table), wait for the sixteen
  copies of chunk 2t in buffer 0 (its batch's last wait hands every slot and every lent block back), from trip 1 on
  wait for the copy-out that last used staging half 0, pick row idx % 8 of each landed block and multiply (the inner
  loop over the 32 columns), copy the 16 product rows out. Half 1 is the same with the buffers exchanged, and starts
  chunk 2t+2 only while a trip remains.
-/
import proofs.«219339_g11596411699725_week1_w4_1023_23_alg».proof.Proof.RingKI
import proofs.«219339_g11596411699725_week1_w4_1023_23_alg».proof.Proof.ExtractKI
import proofs.«219339_g11596411699725_week1_w4_1023_23_alg».proof.Proof.GlueKI
import proofs.«219339_g11596411699725_week1_w4_1023_23_alg».proof.Proof.StepKI
import proofs.«219339_g11596411699725_week1_w4_1023_23_alg».proof.Proof.TripPreKI
import proofs.«219339_g11596411699725_week1_w4_1023_23_alg».proof.Proof.Gen.KernelIdeal.Skeleton
import Idealize.ShloMosaic.Lib.SparseCore.Launch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

omit [FloatOps F] [∀ e, Nonempty (Elt F e)] in
/-- A wait recorded at the loop's own index keeps the record's shape. -/
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

set_option maxHeartbeats 4000000 in
/-- A middle trip of the loop keeps the invariant. -/
theorem trip_mid (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) (ht0 : 0 < t.val) (h3 : k0_cond3 t = 1#1) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  subst hv3
  have ht16 : t.val < 16 := t.isLt
  have h1 : k0_cond1 t = 1#1 := cond1_all t
  have hc0 := cond_out0 t ht0
  have hc1 := cond_out1 t ht0
  have hsu' : ∀ j, (su j).toNat < 1000000 := fun j => by rw [hsu]; exact (hpre d _).1
  have hsi' : ∀ j, (si j).toNat < 1000000 := fun j => by rw [hsi]; exact (hpre d _).2
  have hfl : outFlights (F := F) m d L t.val = outFlightsAt m d L (tripOf (t.val - 1) (pred_lt ⟨ht0, Nat.le_of_lt ht16⟩)) := by
    unfold outFlights; exact dif_pos ⟨ht0, Nat.le_of_lt ht16⟩
  unfold ringInv
  rw [ringIn_lt (F := F) m d L su si t.val ht16, hfl]
  unfold outFlightsAt
  iintro ⟨#Hlv, #Hmw, Hs0, Hs1, ⟨%wu, %wi, %hwu, %hwi, %hw, HBu0, HBi0, RA, RB⟩, TA1, TB1, SA1, SB1, Hu1, Hi1, ⟨%Z0, %Z1, %hZ, HF0, HF1⟩, Hrows, %W', %hW', HO⟩
  ihave RA := (Entails.of_eq (bigSep_fin16m (F := F) _)) $$ RA
  icases RA with ⟨RA0, RA1, RA2, RA3, RA4, RA5, RA6, RA7, RA8, RA9, RA10, RA11, RA12, RA13, RA14, RA15⟩
  ihave RB := (Entails.of_eq (bigSep_fin16m (F := F) _)) $$ RB
  icases RB with ⟨RB0, RB1, RB2, RB3, RB4, RB5, RB6, RB7, RB8, RB9, RB10, RB11, RB12, RB13, RB14, RB15⟩
  ihave TA1 := (Entails.of_eq (bigSep_fin16m (F := F) _)) $$ TA1
  icases TA1 with ⟨TA0, TA1, TA2, TA3, TA4, TA5, TA6, TA7, TA8, TA9, TA10, TA11, TA12, TA13, TA14, TA15⟩
  ihave TB1 := (Entails.of_eq (bigSep_fin16m (F := F) _)) $$ TB1
  icases TB1 with ⟨TB0, TB1, TB2, TB3, TB4, TB5, TB6, TB7, TB8, TB9, TB10, TB11, TB12, TB13, TB14, TB15⟩
  ihave SA1 := (Entails.of_eq (bigSep_fin16m (F := F) _)) $$ SA1
  icases SA1 with ⟨⟨%SAf0, SA0⟩, ⟨%SAf1, SA1⟩, ⟨%SAf2, SA2⟩, ⟨%SAf3, SA3⟩, ⟨%SAf4, SA4⟩, ⟨%SAf5, SA5⟩, ⟨%SAf6, SA6⟩, ⟨%SAf7, SA7⟩, ⟨%SAf8, SA8⟩, ⟨%SAf9, SA9⟩, ⟨%SAf10, SA10⟩, ⟨%SAf11, SA11⟩, ⟨%SAf12, SA12⟩, ⟨%SAf13, SA13⟩, ⟨%SAf14, SA14⟩, ⟨%SAf15, SA15⟩⟩
  ihave SB1 := (Entails.of_eq (bigSep_fin16m (F := F) _)) $$ SB1
  icases SB1 with ⟨⟨%SBf0, SB0⟩, ⟨%SBf1, SB1⟩, ⟨%SBf2, SB2⟩, ⟨%SBf3, SB3⟩, ⟨%SBf4, SB4⟩, ⟨%SBf5, SB5⟩, ⟨%SBf6, SB6⟩, ⟨%SBf7, SB7⟩, ⟨%SBf8, SB8⟩, ⟨%SBf9, SB9⟩, ⟨%SBf10, SB10⟩, ⟨%SBf11, SB11⟩, ⟨%SBf12, SB12⟩, ⟨%SBf13, SB13⟩, ⟨%SBf14, SB14⟩, ⟨%SBf15, SB15⟩⟩
  have hwu1 : ∀ j : Fin 16, (wordOf (vecAt (F := F) d L sU su (k0_off34 t) (k0_off34_inb t h1)) j).toNat < 125000 :=
    fun j => by refine lane_lt _ ?_ _ _ _; intro x; exact readAtU_lt' d L su hsu' _ _
  have hwi1 : ∀ j : Fin 16, (wordOf (vecAt (F := F) d L sI si (k0_off34 t) (k0_off34_inb t h1)) j).toNat < 125000 :=
    fun j => by refine lane_lt _ ?_ _ _ _; intro x; exact readAtI_lt' d L si hsi' _ _
  imod (Transfers.batch_alloc' (Lvl := ℕ) (countersEmb (U := UU)) (thrV d L) (default : HIx 1) 8192
      (fun j : Fin 16 => deliv1 (F := F) d L (slotA 1 j) t0V (wordOf (vecAt (F := F) d L sU su (k0_off34 t) (k0_off34_inb t h1)) j) (hwu1 j)
        (shareTokN fullShare (tokIx L (tokOf 1 j))) (tab0 m d)) (sm := SemLoc.dma (sig := sig) cc0_scratch6.sem) (E := Set.univ)) $$ Hu1 with HBu1
  imod (Transfers.batch_alloc' (Lvl := ℕ) (countersEmb (U := UU)) (thrV d L) (default : HIx 1) 8192
      (fun j : Fin 16 => deliv1 (F := F) d L (slotB 1 j) t1V (wordOf (vecAt (F := F) d L sI si (k0_off34 t) (k0_off34_inb t h1)) j) (hwi1 j)
        (shareTokN fullShare (tokIx L (tokOf 1 j))) (tab1 m d)) (sm := SemLoc.dma (sig := sig) cc0_scratch8.sem) (E := Set.univ)) $$ Hi1 with HBi1
  unfold k0_t1_body
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF0 HO]
  · isplitl [HF0]; · iexact HF0
    isplitl [HO]; · iexact HO
    iapply ((K (F := F)).mayWait_none (SemLoc.dma cc0_scratch9.sem) hO); iexact Hlv
  iintro ⟨⟨Hpc0, Hbo0⟩, Ho0, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave TA0 : (tokRest (F := F) d L t0V (tab0 m d) 1 (fun j => wordOf (vecAt (F := F) d L sU su (k0_off34 t) (k0_off34_inb t h1)) j) hwu1 ⟨0, by decide⟩) $$ [TA0]
  · iexact TA0
  ihave TA1 : (tokRest (F := F) d L t0V (tab0 m d) 1 (fun j => wordOf (vecAt (F := F) d L sU su (k0_off34 t) (k0_off34_inb t h1)) j) hwu1 ⟨1, by decide⟩) $$ [TA1]
  · iexact TA1
  ihave TA2 : (tokRest (F := F) d L t0V (tab0 m d) 1 (fun j => wordOf (vecAt (F := F) d L sU su (k0_off34 t) (k0_off34_inb t h1)) j) hwu1 ⟨2, by decide⟩) $$ [TA2]
  · iexact TA2
  ihave TA3 : (tokRest (F := F) d L t0V (tab0 m d) 1 (fun j => wordOf (vecAt (F := F) d L sU su (k0_off34 t) (k0_off34_inb t h1)) j) hwu1 ⟨3, by decide⟩) $$ [TA3]
  · iexact TA3
  ihave TA4 : (tokRest (F := F) d L t0V (tab0 m d) 1 (fun j => wordOf (vecAt (F := F) d L sU su (k0_off34 t) (k0_off34_inb t h1)) j) hwu1 ⟨4, by decide⟩) $$ [TA4]
  · iexact TA4
  ihave TA5 : (tokRest (F := F) d L t0V (tab0 m d) 1 (fun j => wordOf (vecAt (F := F) d L sU su (k0_off34 t) (k0_off34_inb t h1)) j) hwu1 ⟨5, by decide⟩) $$ [TA5]
  · iexact TA5
  ihave TA6 : (tokRest (F := F) d L t0V (tab0 m d) 1 (fun j => wordOf (vecAt (F := F) d L sU su (k0_off34 t) (k0_off34_inb t h1)) j) hwu1 ⟨6, by decide⟩) $$ [TA6]
  · iexact TA6
  ihave TA7 : (tokRest (F := F) d L t0V (tab0 m d) 1 (fun j => wordOf (vecAt (F := F) d L sU su (k0_off34 t) (k0_off34_inb t h1)) j) hwu1 ⟨7, by decide⟩) $$ [TA7]
  · iexact TA7
  ihave TA8 : (tokRest (F := F) d L t0V (tab0 m d) 1 (fun j => wordOf (vecAt (F := F) d L sU su (k0_off34 t) (k0_off34_inb t h1)) j) hwu1 ⟨8, by decide⟩) $$ [TA8]
  · iexact TA8
  ihave TA9 : (tokRest (F := F) d L t0V (tab0 m d) 1 (fun j => wordOf (vecAt (F := F) d L sU su (k0_off34 t) (k0_off34_inb t h1)) j) hwu1 ⟨9, by decide⟩) $$ [TA9]
  · iexact TA9
  ihave TA10 : (tokRest (F := F) d L t0V (tab0 m d) 1 (fun j => wordOf (vecAt (F := F) d L sU su (k0_off34 t) (k0_off34_inb t h1)) j) hwu1 ⟨10, by decide⟩) $$ [TA10]
  · iexact TA10
  ihave TA11 : (tokRest (F := F) d L t0V (tab0 m d) 1 (fun j => wordOf (vecAt (F := F) d L sU su (k0_off34 t) (k0_off34_inb t h1)) j) hwu1 ⟨11, by decide⟩) $$ [TA11]
  · iexact TA11
  ihave TA12 : (tokRest (F := F) d L t0V (tab0 m d) 1 (fun j => wordOf (vecAt (F := F) d L sU su (k0_off34 t) (k0_off34_inb t h1)) j) hwu1 ⟨12, by decide⟩) $$ [TA12]
  · iexact TA12
  ihave TA13 : (tokRest (F := F) d L t0V (tab0 m d) 1 (fun j => wordOf (vecAt (F := F) d L sU su (k0_off34 t) (k0_off34_inb t h1)) j) hwu1 ⟨13, by decide⟩) $$ [TA13]
  · iexact TA13
  ihave TA14 : (tokRest (F := F) d L t0V (tab0 m d) 1 (fun j => wordOf (vecAt (F := F) d L sU su (k0_off34 t) (k0_off34_inb t h1)) j) hwu1 ⟨14, by decide⟩) $$ [TA14]
  · iexact TA14
  ihave TA15 : (tokRest (F := F) d L t0V (tab0 m d) 1 (fun j => wordOf (vecAt (F := F) d L sU su (k0_off34 t) (k0_off34_inb t h1)) j) hwu1 ⟨15, by decide⟩) $$ [TA15]
  · iexact TA15
  ihave TB0 : (tokRest (F := F) d L t1V (tab1 m d) 1 (fun j => wordOf (vecAt (F := F) d L sI si (k0_off34 t) (k0_off34_inb t h1)) j) hwi1 ⟨0, by decide⟩) $$ [TB0]
  · iexact TB0
  ihave TB1 : (tokRest (F := F) d L t1V (tab1 m d) 1 (fun j => wordOf (vecAt (F := F) d L sI si (k0_off34 t) (k0_off34_inb t h1)) j) hwi1 ⟨1, by decide⟩) $$ [TB1]
  · iexact TB1
  ihave TB2 : (tokRest (F := F) d L t1V (tab1 m d) 1 (fun j => wordOf (vecAt (F := F) d L sI si (k0_off34 t) (k0_off34_inb t h1)) j) hwi1 ⟨2, by decide⟩) $$ [TB2]
  · iexact TB2
  ihave TB3 : (tokRest (F := F) d L t1V (tab1 m d) 1 (fun j => wordOf (vecAt (F := F) d L sI si (k0_off34 t) (k0_off34_inb t h1)) j) hwi1 ⟨3, by decide⟩) $$ [TB3]
  · iexact TB3
  ihave TB4 : (tokRest (F := F) d L t1V (tab1 m d) 1 (fun j => wordOf (vecAt (F := F) d L sI si (k0_off34 t) (k0_off34_inb t h1)) j) hwi1 ⟨4, by decide⟩) $$ [TB4]
  · iexact TB4
  ihave TB5 : (tokRest (F := F) d L t1V (tab1 m d) 1 (fun j => wordOf (vecAt (F := F) d L sI si (k0_off34 t) (k0_off34_inb t h1)) j) hwi1 ⟨5, by decide⟩) $$ [TB5]
  · iexact TB5
  ihave TB6 : (tokRest (F := F) d L t1V (tab1 m d) 1 (fun j => wordOf (vecAt (F := F) d L sI si (k0_off34 t) (k0_off34_inb t h1)) j) hwi1 ⟨6, by decide⟩) $$ [TB6]
  · iexact TB6
  ihave TB7 : (tokRest (F := F) d L t1V (tab1 m d) 1 (fun j => wordOf (vecAt (F := F) d L sI si (k0_off34 t) (k0_off34_inb t h1)) j) hwi1 ⟨7, by decide⟩) $$ [TB7]
  · iexact TB7
  ihave TB8 : (tokRest (F := F) d L t1V (tab1 m d) 1 (fun j => wordOf (vecAt (F := F) d L sI si (k0_off34 t) (k0_off34_inb t h1)) j) hwi1 ⟨8, by decide⟩) $$ [TB8]
  · iexact TB8
  ihave TB9 : (tokRest (F := F) d L t1V (tab1 m d) 1 (fun j => wordOf (vecAt (F := F) d L sI si (k0_off34 t) (k0_off34_inb t h1)) j) hwi1 ⟨9, by decide⟩) $$ [TB9]
  · iexact TB9
  ihave TB10 : (tokRest (F := F) d L t1V (tab1 m d) 1 (fun j => wordOf (vecAt (F := F) d L sI si (k0_off34 t) (k0_off34_inb t h1)) j) hwi1 ⟨10, by decide⟩) $$ [TB10]
  · iexact TB10
  ihave TB11 : (tokRest (F := F) d L t1V (tab1 m d) 1 (fun j => wordOf (vecAt (F := F) d L sI si (k0_off34 t) (k0_off34_inb t h1)) j) hwi1 ⟨11, by decide⟩) $$ [TB11]
  · iexact TB11
  ihave TB12 : (tokRest (F := F) d L t1V (tab1 m d) 1 (fun j => wordOf (vecAt (F := F) d L sI si (k0_off34 t) (k0_off34_inb t h1)) j) hwi1 ⟨12, by decide⟩) $$ [TB12]
  · iexact TB12
  ihave TB13 : (tokRest (F := F) d L t1V (tab1 m d) 1 (fun j => wordOf (vecAt (F := F) d L sI si (k0_off34 t) (k0_off34_inb t h1)) j) hwi1 ⟨13, by decide⟩) $$ [TB13]
  · iexact TB13
  ihave TB14 : (tokRest (F := F) d L t1V (tab1 m d) 1 (fun j => wordOf (vecAt (F := F) d L sI si (k0_off34 t) (k0_off34_inb t h1)) j) hwi1 ⟨14, by decide⟩) $$ [TB14]
  · iexact TB14
  ihave TB15 : (tokRest (F := F) d L t1V (tab1 m d) 1 (fun j => wordOf (vecAt (F := F) d L sI si (k0_off34 t) (k0_off34_inb t h1)) j) hwi1 ⟨15, by decide⟩) $$ [TB15]
  · iexact TB15
  -- the sixteen landed blocks of each table joined into buffer 0
  ihave HX := (Entails.of_eq ((bigSep_fin16m (F := F) (fun j : Fin 16 => (slotA 0 j).view.loc (thrV d L) ↦[(slotA 0 j).view.set]{fullShare}
      (slotA 0 j).view.writes (Elt F) (slotA 0 j).view.junk [⟨Rect.whole S1x8x32, ReadAs.same.apply ((blkSrc t0V (wu j) (hwu j)).view.read (Elt F) (tab0 m d))⟩])).symm.trans
      (landedA0 (F := F) d L _))) $$ [HBu0_dst0 HBu0_dst1 HBu0_dst2 HBu0_dst3 HBu0_dst4 HBu0_dst5 HBu0_dst6 HBu0_dst7 HBu0_dst8 HBu0_dst9 HBu0_dst10 HBu0_dst11 HBu0_dst12 HBu0_dst13 HBu0_dst14 HBu0_dst15]
  · isplitl [HBu0_dst0]; · iexact HBu0_dst0
    isplitl [HBu0_dst1]; · iexact HBu0_dst1
    isplitl [HBu0_dst2]; · iexact HBu0_dst2
    isplitl [HBu0_dst3]; · iexact HBu0_dst3
    isplitl [HBu0_dst4]; · iexact HBu0_dst4
    isplitl [HBu0_dst5]; · iexact HBu0_dst5
    isplitl [HBu0_dst6]; · iexact HBu0_dst6
    isplitl [HBu0_dst7]; · iexact HBu0_dst7
    isplitl [HBu0_dst8]; · iexact HBu0_dst8
    isplitl [HBu0_dst9]; · iexact HBu0_dst9
    isplitl [HBu0_dst10]; · iexact HBu0_dst10
    isplitl [HBu0_dst11]; · iexact HBu0_dst11
    isplitl [HBu0_dst12]; · iexact HBu0_dst12
    isplitl [HBu0_dst13]; · iexact HBu0_dst13
    isplitl [HBu0_dst14]; · iexact HBu0_dst14
    iexact HBu0_dst15
  ihave HY := (Entails.of_eq ((bigSep_fin16m (F := F) (fun j : Fin 16 => (slotB 0 j).view.loc (thrV d L) ↦[(slotB 0 j).view.set]{fullShare}
      (slotB 0 j).view.writes (Elt F) (slotB 0 j).view.junk [⟨Rect.whole S1x8x32, ReadAs.same.apply ((blkSrc t1V (wi j) (hwi j)).view.read (Elt F) (tab1 m d))⟩])).symm.trans
      (landedB0 (F := F) d L _))) $$ [HBi0_dst0 HBi0_dst1 HBi0_dst2 HBi0_dst3 HBi0_dst4 HBi0_dst5 HBi0_dst6 HBi0_dst7 HBi0_dst8 HBi0_dst9 HBi0_dst10 HBi0_dst11 HBi0_dst12 HBi0_dst13 HBi0_dst14 HBi0_dst15]
  · isplitl [HBi0_dst0]; · iexact HBi0_dst0
    isplitl [HBi0_dst1]; · iexact HBi0_dst1
    isplitl [HBi0_dst2]; · iexact HBi0_dst2
    isplitl [HBi0_dst3]; · iexact HBi0_dst3
    isplitl [HBi0_dst4]; · iexact HBi0_dst4
    isplitl [HBi0_dst5]; · iexact HBi0_dst5
    isplitl [HBi0_dst6]; · iexact HBi0_dst6
    isplitl [HBi0_dst7]; · iexact HBi0_dst7
    isplitl [HBi0_dst8]; · iexact HBi0_dst8
    isplitl [HBi0_dst9]; · iexact HBi0_dst9
    isplitl [HBi0_dst10]; · iexact HBi0_dst10
    isplitl [HBi0_dst11]; · iexact HBi0_dst11
    isplitl [HBi0_dst12]; · iexact HBi0_dst12
    isplitl [HBi0_dst13]; · iexact HBi0_dst13
    isplitl [HBi0_dst14]; · iexact HBi0_dst14
    iexact HBi0_dst15
  ihave HZ := (Entails.of_eq (stagingO0 (F := F) d L _)) $$ Hbo0
  iapply (loop0_bind (F := F) d L _ _ _ _ _ _ _ _ _ _ _ _ (chk0_trip _ _) inj0_trip _)
  isplitl [HX]; · iexact HX
  isplitl [HY]; · iexact HY
  isplitl [HZ]; · iexact HZ
  iintro %Z0' ⟨%hD0, HX, HY, HZ⟩
  ihave HXs := (Entails.of_eq ((splitA0 (F := F) d L _).trans (bigSep_fin16m (F := F) _))) $$ HX
  icases HXs with ⟨SA0_0, SA0_1, SA0_2, SA0_3, SA0_4, SA0_5, SA0_6, SA0_7, SA0_8, SA0_9, SA0_10, SA0_11, SA0_12, SA0_13, SA0_14, SA0_15⟩
  ihave HYs := (Entails.of_eq ((splitB0 (F := F) d L _).trans (bigSep_fin16m (F := F) _))) $$ HY
  icases HYs with ⟨SB0_0, SB0_1, SB0_2, SB0_3, SB0_4, SB0_5, SB0_6, SB0_7, SB0_8, SB0_9, SB0_10, SB0_11, SB0_12, SB0_13, SB0_14, SB0_15⟩
  ihave Hbo0 := (Entails.of_eq (stagingO0 (F := F) d L _).symm) $$ HZ
  ihave Hrows := (Entails.of_eq (outRows_take (F := F) m d L t)) $$ Hrows
  icases Hrows with ⟨⟨Hp0, Hp1⟩, Hrest⟩
  have hwu2 : ∀ j : Fin 16, (wordOf (vecAt (F := F) d L sU su (k0_off69 t) (k0_off69_inb t h3)) j).toNat < 125000 :=
    fun j => by refine lane_lt _ ?_ _ _ _; intro x; exact readAtU_lt' d L su hsu' _ _
  have hwi2 : ∀ j : Fin 16, (wordOf (vecAt (F := F) d L sI si (k0_off69 t) (k0_off69_inb t h3)) j).toNat < 125000 :=
    fun j => by refine lane_lt _ ?_ _ _ _; intro x; exact readAtI_lt' d L si hsi' _ _
  imod (batch_alloc_lit (F := F) d L _
      (fun j : Fin 16 => deliv1 (F := F) d L (slotA 0 j) t0V (wordOf (vecAt (F := F) d L sU su (k0_off69 t) (k0_off69_inb t h3)) j) (hwu2 j)
        (shareTokN fullShare (tokIx L (tokOf 0 j))) (tab0 m d))) $$ HBu0 with HBu0
  imod (batch_alloc_lit (F := F) d L _
      (fun j : Fin 16 => deliv1 (F := F) d L (slotB 0 j) t1V (wordOf (vecAt (F := F) d L sI si (k0_off69 t) (k0_off69_inb t h3)) j) (hwi2 j)
        (shareTokN fullShare (tokIx L (tokOf 0 j))) (tab1 m d))) $$ HBi0 with HBi0
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF1 HO]
  · isplitl [HF1]; · iexact HF1
    isplitl [HO]; · iexact HO
    iapply ((K (F := F)).mayWait_none (SemLoc.dma cc0_scratch10.sem) hO); iexact Hlv
  iintro ⟨⟨Hpc1, Hbo1⟩, Ho1, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave HX := (Entails.of_eq ((bigSep_fin16m (F := F) (fun j : Fin 16 => (slotA 1 j).view.loc (thrV d L) ↦[(slotA 1 j).view.set]{fullShare}
      (slotA 1 j).view.writes (Elt F) (slotA 1 j).view.junk [⟨Rect.whole S1x8x32, ReadAs.same.apply ((blkSrc t0V (wordOf (vecAt (F := F) d L sU su (k0_off34 t) (k0_off34_inb t h1)) j) (hwu1 j)).view.read (Elt F) (tab0 m d))⟩])).symm.trans
      (landedA1 (F := F) d L _))) $$ [HBu1_dst0 HBu1_dst1 HBu1_dst2 HBu1_dst3 HBu1_dst4 HBu1_dst5 HBu1_dst6 HBu1_dst7 HBu1_dst8 HBu1_dst9 HBu1_dst10 HBu1_dst11 HBu1_dst12 HBu1_dst13 HBu1_dst14 HBu1_dst15]
  · isplitl [HBu1_dst0]; · iexact HBu1_dst0
    isplitl [HBu1_dst1]; · iexact HBu1_dst1
    isplitl [HBu1_dst2]; · iexact HBu1_dst2
    isplitl [HBu1_dst3]; · iexact HBu1_dst3
    isplitl [HBu1_dst4]; · iexact HBu1_dst4
    isplitl [HBu1_dst5]; · iexact HBu1_dst5
    isplitl [HBu1_dst6]; · iexact HBu1_dst6
    isplitl [HBu1_dst7]; · iexact HBu1_dst7
    isplitl [HBu1_dst8]; · iexact HBu1_dst8
    isplitl [HBu1_dst9]; · iexact HBu1_dst9
    isplitl [HBu1_dst10]; · iexact HBu1_dst10
    isplitl [HBu1_dst11]; · iexact HBu1_dst11
    isplitl [HBu1_dst12]; · iexact HBu1_dst12
    isplitl [HBu1_dst13]; · iexact HBu1_dst13
    isplitl [HBu1_dst14]; · iexact HBu1_dst14
    iexact HBu1_dst15
  ihave HY := (Entails.of_eq ((bigSep_fin16m (F := F) (fun j : Fin 16 => (slotB 1 j).view.loc (thrV d L) ↦[(slotB 1 j).view.set]{fullShare}
      (slotB 1 j).view.writes (Elt F) (slotB 1 j).view.junk [⟨Rect.whole S1x8x32, ReadAs.same.apply ((blkSrc t1V (wordOf (vecAt (F := F) d L sI si (k0_off34 t) (k0_off34_inb t h1)) j) (hwi1 j)).view.read (Elt F) (tab1 m d))⟩])).symm.trans
      (landedB1 (F := F) d L _))) $$ [HBi1_dst0 HBi1_dst1 HBi1_dst2 HBi1_dst3 HBi1_dst4 HBi1_dst5 HBi1_dst6 HBi1_dst7 HBi1_dst8 HBi1_dst9 HBi1_dst10 HBi1_dst11 HBi1_dst12 HBi1_dst13 HBi1_dst14 HBi1_dst15]
  · isplitl [HBi1_dst0]; · iexact HBi1_dst0
    isplitl [HBi1_dst1]; · iexact HBi1_dst1
    isplitl [HBi1_dst2]; · iexact HBi1_dst2
    isplitl [HBi1_dst3]; · iexact HBi1_dst3
    isplitl [HBi1_dst4]; · iexact HBi1_dst4
    isplitl [HBi1_dst5]; · iexact HBi1_dst5
    isplitl [HBi1_dst6]; · iexact HBi1_dst6
    isplitl [HBi1_dst7]; · iexact HBi1_dst7
    isplitl [HBi1_dst8]; · iexact HBi1_dst8
    isplitl [HBi1_dst9]; · iexact HBi1_dst9
    isplitl [HBi1_dst10]; · iexact HBi1_dst10
    isplitl [HBi1_dst11]; · iexact HBi1_dst11
    isplitl [HBi1_dst12]; · iexact HBi1_dst12
    isplitl [HBi1_dst13]; · iexact HBi1_dst13
    isplitl [HBi1_dst14]; · iexact HBi1_dst14
    iexact HBi1_dst15
  ihave HZ := (Entails.of_eq (stagingO1 (F := F) d L _)) $$ Hbo1
  iapply (loop1_bind (F := F) d L _ _ _ _ _ _ _ _ _ _ _ _ _ (chk1_trip _ _) inj1_trip _)
  isplitl [HX]; · iexact HX
  isplitl [HY]; · iexact HY
  isplitl [HZ]; · iexact HZ
  iintro %Z1' ⟨%hD1, HX, HY, HZ⟩
  ihave HXs := (Entails.of_eq ((splitA1 (F := F) d L _).trans (bigSep_fin16m (F := F) _))) $$ HX
  icases HXs with ⟨SA1_0, SA1_1, SA1_2, SA1_3, SA1_4, SA1_5, SA1_6, SA1_7, SA1_8, SA1_9, SA1_10, SA1_11, SA1_12, SA1_13, SA1_14, SA1_15⟩
  ihave HYs := (Entails.of_eq ((splitB1 (F := F) d L _).trans (bigSep_fin16m (F := F) _))) $$ HY
  icases HYs with ⟨SB1_0, SB1_1, SB1_2, SB1_3, SB1_4, SB1_5, SB1_6, SB1_7, SB1_8, SB1_9, SB1_10, SB1_11, SB1_12, SB1_13, SB1_14, SB1_15⟩
  ihave Hbo1 := (Entails.of_eq (stagingO1 (F := F) d L _).symm) $$ HZ
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  sl_step
  isplitr; · iexact Hlv
  obtain ⟨off, hoffb, hoff, hU, hI⟩ := hw
  have hG0 := written_eq_G0 (F := F) m d L su si hpre hsu hsi t wu wi hwu hwi off hoffb hoff hU hI Z0' hD0
  have hG1 := written_eq_G1 (F := F) m d L su si hpre hsu hsi t (fun j => wordOf (vecAt (F := F) d L sU su (k0_off34 t) (k0_off34_inb t h1)) j)
    (fun j => wordOf (vecAt (F := F) d L sI si (k0_off34 t) (k0_off34_inb t h1)) j) hwu1 hwi1 (k0_off34 t) (k0_off34_inb t h1) (k0_off34_eq t) rfl rfl Z1' hD1
  isplitr; · iexact Hmw
  isplitl [Hs0]; · iexact Hs0
  isplitl [Hs1]; · iexact Hs1
  isplitl [HBu0 HBi0 RA0 RA1 RA2 RA3 RA4 RA5 RA6 RA7 RA8 RA9 RA10 RA11 RA12 RA13 RA14 RA15 RB0 RB1 RB2 RB3 RB4 RB5 RB6 RB7 RB8 RB9 RB10 RB11 RB12 RB13 RB14 RB15]
  · iapply (ringIn_next (F := F) m d L su si t h3 hwu2 hwi2)
    isplitl [HBu0]; · iexact HBu0
    isplitl [HBi0]; · iexact HBi0
    isplitl [RA0 RA1 RA2 RA3 RA4 RA5 RA6 RA7 RA8 RA9 RA10 RA11 RA12 RA13 RA14 RA15]
    · iapply (Entails.of_eq (bigSep_fin16m (F := F) _).symm)
      isplitl [RA0]; · iexact RA0
      isplitl [RA1]; · iexact RA1
      isplitl [RA2]; · iexact RA2
      isplitl [RA3]; · iexact RA3
      isplitl [RA4]; · iexact RA4
      isplitl [RA5]; · iexact RA5
      isplitl [RA6]; · iexact RA6
      isplitl [RA7]; · iexact RA7
      isplitl [RA8]; · iexact RA8
      isplitl [RA9]; · iexact RA9
      isplitl [RA10]; · iexact RA10
      isplitl [RA11]; · iexact RA11
      isplitl [RA12]; · iexact RA12
      isplitl [RA13]; · iexact RA13
      isplitl [RA14]; · iexact RA14
      iexact RA15
    · iapply (Entails.of_eq (bigSep_fin16m (F := F) _).symm)
      isplitl [RB0]; · iexact RB0
      isplitl [RB1]; · iexact RB1
      isplitl [RB2]; · iexact RB2
      isplitl [RB3]; · iexact RB3
      isplitl [RB4]; · iexact RB4
      isplitl [RB5]; · iexact RB5
      isplitl [RB6]; · iexact RB6
      isplitl [RB7]; · iexact RB7
      isplitl [RB8]; · iexact RB8
      isplitl [RB9]; · iexact RB9
      isplitl [RB10]; · iexact RB10
      isplitl [RB11]; · iexact RB11
      isplitl [RB12]; · iexact RB12
      isplitl [RB13]; · iexact RB13
      isplitl [RB14]; · iexact RB14
      iexact RB15
  isplitl [TA0 TA1 TA2 TA3 TA4 TA5 TA6 TA7 TA8 TA9 TA10 TA11 TA12 TA13 TA14 TA15]
  · iapply (Entails.of_eq (bigSep_fin16m (F := F) _).symm)
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [TB0 TB1 TB2 TB3 TB4 TB5 TB6 TB7 TB8 TB9 TB10 TB11 TB12 TB13 TB14 TB15]
  · iapply (Entails.of_eq (bigSep_fin16m (F := F) _).symm)
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  isplitl [SA1_0 SA1_1 SA1_2 SA1_3 SA1_4 SA1_5 SA1_6 SA1_7 SA1_8 SA1_9 SA1_10 SA1_11 SA1_12 SA1_13 SA1_14 SA1_15]
  · iapply (Entails.of_eq (bigSep_fin16m (F := F) _).symm)
    isplitl [SA1_0]; · (iexists _; iexact SA1_0)
    isplitl [SA1_1]; · (iexists _; iexact SA1_1)
    isplitl [SA1_2]; · (iexists _; iexact SA1_2)
    isplitl [SA1_3]; · (iexists _; iexact SA1_3)
    isplitl [SA1_4]; · (iexists _; iexact SA1_4)
    isplitl [SA1_5]; · (iexists _; iexact SA1_5)
    isplitl [SA1_6]; · (iexists _; iexact SA1_6)
    isplitl [SA1_7]; · (iexists _; iexact SA1_7)
    isplitl [SA1_8]; · (iexists _; iexact SA1_8)
    isplitl [SA1_9]; · (iexists _; iexact SA1_9)
    isplitl [SA1_10]; · (iexists _; iexact SA1_10)
    isplitl [SA1_11]; · (iexists _; iexact SA1_11)
    isplitl [SA1_12]; · (iexists _; iexact SA1_12)
    isplitl [SA1_13]; · (iexists _; iexact SA1_13)
    isplitl [SA1_14]; · (iexists _; iexact SA1_14)
    iexists _; iexact SA1_15
  isplitl [SB1_0 SB1_1 SB1_2 SB1_3 SB1_4 SB1_5 SB1_6 SB1_7 SB1_8 SB1_9 SB1_10 SB1_11 SB1_12 SB1_13 SB1_14 SB1_15]
  · iapply (Entails.of_eq (bigSep_fin16m (F := F) _).symm)
    isplitl [SB1_0]; · (iexists _; iexact SB1_0)
    isplitl [SB1_1]; · (iexists _; iexact SB1_1)
    isplitl [SB1_2]; · (iexists _; iexact SB1_2)
    isplitl [SB1_3]; · (iexists _; iexact SB1_3)
    isplitl [SB1_4]; · (iexists _; iexact SB1_4)
    isplitl [SB1_5]; · (iexists _; iexact SB1_5)
    isplitl [SB1_6]; · (iexists _; iexact SB1_6)
    isplitl [SB1_7]; · (iexists _; iexact SB1_7)
    isplitl [SB1_8]; · (iexists _; iexact SB1_8)
    isplitl [SB1_9]; · (iexists _; iexact SB1_9)
    isplitl [SB1_10]; · (iexists _; iexact SB1_10)
    isplitl [SB1_11]; · (iexists _; iexact SB1_11)
    isplitl [SB1_12]; · (iexists _; iexact SB1_12)
    isplitl [SB1_13]; · (iexists _; iexact SB1_13)
    isplitl [SB1_14]; · (iexists _; iexact SB1_14)
    iexists _; iexact SB1_15
  isplitl [HBu1]; · iexact HBu1
  isplitl [HBi1]; · iexact HBi1
  isplitl [Ho0 Ho1]
  · iapply (outFlights_next (F := F) m d L t Z0' Z1' hG0 hG1)
    isplitl [Ho0]; · iexact Ho0
    iexact Ho1
  isplitl [Hpc0 Hpc1 Hrest]
  · ihave Hpc0 := (Entails.of_eq (piece_back (F := F) d L (piece0 L (tripOf (t.val - 1) (pred_lt ⟨ht0, Nat.le_of_lt ht16⟩))) (m (oLoc d)) _ (G m d) hZ.1)) $$ Hpc0
    ihave Hpc1 := (Entails.of_eq (piece_back (F := F) d L (piece1 L (tripOf (t.val - 1) (pred_lt ⟨ht0, Nat.le_of_lt ht16⟩))) (m (oLoc d)) _ (G m d) hZ.2)) $$ Hpc1
    iapply (outRows_put (F := F) m d L t ht0)
    isplitl [Hpc0 Hpc1]
    · isplitl [Hpc0]
      · iexact Hpc0
      · iexact Hpc1
    · iexact Hrest
  iexists _
  isplitr
  rotate_left
  · iexact HO
  · ipureintro
    repeat (first | exact hW' | apply waits_ok)

end Cert.Proof.KI

end
-- ==== Proof.TripLastKI.lean ====
/-
  The last trip of the double-buffered loop: no chunk follows, so half 1 starts no block copies and buffer 0 is left
  at rest; otherwise as every trip after the first.
-/
import proofs.«219339_g11596411699725_week1_w4_1023_23_alg».proof.Proof.RingKI
import proofs.«219339_g11596411699725_week1_w4_1023_23_alg».proof.Proof.ExtractKI
import proofs.«219339_g11596411699725_week1_w4_1023_23_alg».proof.Proof.GlueKI
import proofs.«219339_g11596411699725_week1_w4_1023_23_alg».proof.Proof.StepKI
import proofs.«219339_g11596411699725_week1_w4_1023_23_alg».proof.Proof.TripPreKI
import proofs.«219339_g11596411699725_week1_w4_1023_23_alg».proof.Proof.CloseKI
import proofs.«219339_g11596411699725_week1_w4_1023_23_alg».proof.Proof.Gen.KernelIdeal.Skeleton
import Idealize.ShloMosaic.Lib.SparseCore.Launch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

set_option maxHeartbeats 4000000 in
/-- The last trip keeps the invariant. -/
theorem trip_last (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) (ht0 : 0 < t.val) (h3 : ¬ k0_cond3 t = 1#1) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  subst hv3
  have ht16 : t.val < 16 := t.isLt
  have h1 : k0_cond1 t = 1#1 := cond1_all t
  have hc0 := cond_out0 t ht0
  have hc1 := cond_out1 t ht0
  have hsu' : ∀ j, (su j).toNat < 1000000 := fun j => by rw [hsu]; exact (hpre d _).1
  have hsi' : ∀ j, (si j).toNat < 1000000 := fun j => by rw [hsi]; exact (hpre d _).2
  have hfl : outFlights (F := F) m d L t.val = outFlightsAt m d L (tripOf (t.val - 1) (pred_lt ⟨ht0, Nat.le_of_lt ht16⟩)) := by
    unfold outFlights; exact dif_pos ⟨ht0, Nat.le_of_lt ht16⟩
  unfold ringInv
  rw [ringIn_lt (F := F) m d L su si t.val ht16, hfl]
  unfold outFlightsAt
  iintro ⟨#Hlv, #Hmw, Hs0, Hs1, ⟨%wu, %wi, %hwu, %hwi, %hw, HBu0, HBi0, RA, RB⟩, TA1, TB1, SA1, SB1, Hu1, Hi1, ⟨%Z0, %Z1, %hZ, HF0, HF1⟩, Hrows, %W', %hW', HO⟩
  ihave RA := (Entails.of_eq (bigSep_fin16m (F := F) _)) $$ RA
  icases RA with ⟨RA0, RA1, RA2, RA3, RA4, RA5, RA6, RA7, RA8, RA9, RA10, RA11, RA12, RA13, RA14, RA15⟩
  ihave RB := (Entails.of_eq (bigSep_fin16m (F := F) _)) $$ RB
  icases RB with ⟨RB0, RB1, RB2, RB3, RB4, RB5, RB6, RB7, RB8, RB9, RB10, RB11, RB12, RB13, RB14, RB15⟩
  ihave TA1 := (Entails.of_eq (bigSep_fin16m (F := F) _)) $$ TA1
  icases TA1 with ⟨TA0, TA1, TA2, TA3, TA4, TA5, TA6, TA7, TA8, TA9, TA10, TA11, TA12, TA13, TA14, TA15⟩
  ihave TB1 := (Entails.of_eq (bigSep_fin16m (F := F) _)) $$ TB1
  icases TB1 with ⟨TB0, TB1, TB2, TB3, TB4, TB5, TB6, TB7, TB8, TB9, TB10, TB11, TB12, TB13, TB14, TB15⟩
  ihave SA1 := (Entails.of_eq (bigSep_fin16m (F := F) _)) $$ SA1
  icases SA1 with ⟨⟨%SAf0, SA0⟩, ⟨%SAf1, SA1⟩, ⟨%SAf2, SA2⟩, ⟨%SAf3, SA3⟩, ⟨%SAf4, SA4⟩, ⟨%SAf5, SA5⟩, ⟨%SAf6, SA6⟩, ⟨%SAf7, SA7⟩, ⟨%SAf8, SA8⟩, ⟨%SAf9, SA9⟩, ⟨%SAf10, SA10⟩, ⟨%SAf11, SA11⟩, ⟨%SAf12, SA12⟩, ⟨%SAf13, SA13⟩, ⟨%SAf14, SA14⟩, ⟨%SAf15, SA15⟩⟩
  ihave SB1 := (Entails.of_eq (bigSep_fin16m (F := F) _)) $$ SB1
  icases SB1 with ⟨⟨%SBf0, SB0⟩, ⟨%SBf1, SB1⟩, ⟨%SBf2, SB2⟩, ⟨%SBf3, SB3⟩, ⟨%SBf4, SB4⟩, ⟨%SBf5, SB5⟩, ⟨%SBf6, SB6⟩, ⟨%SBf7, SB7⟩, ⟨%SBf8, SB8⟩, ⟨%SBf9, SB9⟩, ⟨%SBf10, SB10⟩, ⟨%SBf11, SB11⟩, ⟨%SBf12, SB12⟩, ⟨%SBf13, SB13⟩, ⟨%SBf14, SB14⟩, ⟨%SBf15, SB15⟩⟩
  have hwu1 : ∀ j : Fin 16, (wordOf (vecAt (F := F) d L sU su (k0_off34 t) (k0_off34_inb t h1)) j).toNat < 125000 :=
    fun j => by refine lane_lt _ ?_ _ _ _; intro x; exact readAtU_lt' d L su hsu' _ _
  have hwi1 : ∀ j : Fin 16, (wordOf (vecAt (F := F) d L sI si (k0_off34 t) (k0_off34_inb t h1)) j).toNat < 125000 :=
    fun j => by refine lane_lt _ ?_ _ _ _; intro x; exact readAtI_lt' d L si hsi' _ _
  imod (Transfers.batch_alloc' (Lvl := ℕ) (countersEmb (U := UU)) (thrV d L) (default : HIx 1) 8192
      (fun j : Fin 16 => deliv1 (F := F) d L (slotA 1 j) t0V (wordOf (vecAt (F := F) d L sU su (k0_off34 t) (k0_off34_inb t h1)) j) (hwu1 j)
        (shareTokN fullShare (tokIx L (tokOf 1 j))) (tab0 m d)) (sm := SemLoc.dma (sig := sig) cc0_scratch6.sem) (E := Set.univ)) $$ Hu1 with HBu1
  imod (Transfers.batch_alloc' (Lvl := ℕ) (countersEmb (U := UU)) (thrV d L) (default : HIx 1) 8192
      (fun j : Fin 16 => deliv1 (F := F) d L (slotB 1 j) t1V (wordOf (vecAt (F := F) d L sI si (k0_off34 t) (k0_off34_inb t h1)) j) (hwi1 j)
        (shareTokN fullShare (tokIx L (tokOf 1 j))) (tab1 m d)) (sm := SemLoc.dma (sig := sig) cc0_scratch8.sem) (E := Set.univ)) $$ Hi1 with HBi1
  unfold k0_t1_body
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF0 HO]
  · isplitl [HF0]; · iexact HF0
    isplitl [HO]; · iexact HO
    iapply ((K (F := F)).mayWait_none (SemLoc.dma cc0_scratch9.sem) hO); iexact Hlv
  iintro ⟨⟨Hpc0, Hbo0⟩, Ho0, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave TA0 : (tokRest (F := F) d L t0V (tab0 m d) 1 (fun j => wordOf (vecAt (F := F) d L sU su (k0_off34 t) (k0_off34_inb t h1)) j) hwu1 ⟨0, by decide⟩) $$ [TA0]
  · iexact TA0
  ihave TA1 : (tokRest (F := F) d L t0V (tab0 m d) 1 (fun j => wordOf (vecAt (F := F) d L sU su (k0_off34 t) (k0_off34_inb t h1)) j) hwu1 ⟨1, by decide⟩) $$ [TA1]
  · iexact TA1
  ihave TA2 : (tokRest (F := F) d L t0V (tab0 m d) 1 (fun j => wordOf (vecAt (F := F) d L sU su (k0_off34 t) (k0_off34_inb t h1)) j) hwu1 ⟨2, by decide⟩) $$ [TA2]
  · iexact TA2
  ihave TA3 : (tokRest (F := F) d L t0V (tab0 m d) 1 (fun j => wordOf (vecAt (F := F) d L sU su (k0_off34 t) (k0_off34_inb t h1)) j) hwu1 ⟨3, by decide⟩) $$ [TA3]
  · iexact TA3
  ihave TA4 : (tokRest (F := F) d L t0V (tab0 m d) 1 (fun j => wordOf (vecAt (F := F) d L sU su (k0_off34 t) (k0_off34_inb t h1)) j) hwu1 ⟨4, by decide⟩) $$ [TA4]
  · iexact TA4
  ihave TA5 : (tokRest (F := F) d L t0V (tab0 m d) 1 (fun j => wordOf (vecAt (F := F) d L sU su (k0_off34 t) (k0_off34_inb t h1)) j) hwu1 ⟨5, by decide⟩) $$ [TA5]
  · iexact TA5
  ihave TA6 : (tokRest (F := F) d L t0V (tab0 m d) 1 (fun j => wordOf (vecAt (F := F) d L sU su (k0_off34 t) (k0_off34_inb t h1)) j) hwu1 ⟨6, by decide⟩) $$ [TA6]
  · iexact TA6
  ihave TA7 : (tokRest (F := F) d L t0V (tab0 m d) 1 (fun j => wordOf (vecAt (F := F) d L sU su (k0_off34 t) (k0_off34_inb t h1)) j) hwu1 ⟨7, by decide⟩) $$ [TA7]
  · iexact TA7
  ihave TA8 : (tokRest (F := F) d L t0V (tab0 m d) 1 (fun j => wordOf (vecAt (F := F) d L sU su (k0_off34 t) (k0_off34_inb t h1)) j) hwu1 ⟨8, by decide⟩) $$ [TA8]
  · iexact TA8
  ihave TA9 : (tokRest (F := F) d L t0V (tab0 m d) 1 (fun j => wordOf (vecAt (F := F) d L sU su (k0_off34 t) (k0_off34_inb t h1)) j) hwu1 ⟨9, by decide⟩) $$ [TA9]
  · iexact TA9
  ihave TA10 : (tokRest (F := F) d L t0V (tab0 m d) 1 (fun j => wordOf (vecAt (F := F) d L sU su (k0_off34 t) (k0_off34_inb t h1)) j) hwu1 ⟨10, by decide⟩) $$ [TA10]
  · iexact TA10
  ihave TA11 : (tokRest (F := F) d L t0V (tab0 m d) 1 (fun j => wordOf (vecAt (F := F) d L sU su (k0_off34 t) (k0_off34_inb t h1)) j) hwu1 ⟨11, by decide⟩) $$ [TA11]
  · iexact TA11
  ihave TA12 : (tokRest (F := F) d L t0V (tab0 m d) 1 (fun j => wordOf (vecAt (F := F) d L sU su (k0_off34 t) (k0_off34_inb t h1)) j) hwu1 ⟨12, by decide⟩) $$ [TA12]
  · iexact TA12
  ihave TA13 : (tokRest (F := F) d L t0V (tab0 m d) 1 (fun j => wordOf (vecAt (F := F) d L sU su (k0_off34 t) (k0_off34_inb t h1)) j) hwu1 ⟨13, by decide⟩) $$ [TA13]
  · iexact TA13
  ihave TA14 : (tokRest (F := F) d L t0V (tab0 m d) 1 (fun j => wordOf (vecAt (F := F) d L sU su (k0_off34 t) (k0_off34_inb t h1)) j) hwu1 ⟨14, by decide⟩) $$ [TA14]
  · iexact TA14
  ihave TA15 : (tokRest (F := F) d L t0V (tab0 m d) 1 (fun j => wordOf (vecAt (F := F) d L sU su (k0_off34 t) (k0_off34_inb t h1)) j) hwu1 ⟨15, by decide⟩) $$ [TA15]
  · iexact TA15
  ihave TB0 : (tokRest (F := F) d L t1V (tab1 m d) 1 (fun j => wordOf (vecAt (F := F) d L sI si (k0_off34 t) (k0_off34_inb t h1)) j) hwi1 ⟨0, by decide⟩) $$ [TB0]
  · iexact TB0
  ihave TB1 : (tokRest (F := F) d L t1V (tab1 m d) 1 (fun j => wordOf (vecAt (F := F) d L sI si (k0_off34 t) (k0_off34_inb t h1)) j) hwi1 ⟨1, by decide⟩) $$ [TB1]
  · iexact TB1
  ihave TB2 : (tokRest (F := F) d L t1V (tab1 m d) 1 (fun j => wordOf (vecAt (F := F) d L sI si (k0_off34 t) (k0_off34_inb t h1)) j) hwi1 ⟨2, by decide⟩) $$ [TB2]
  · iexact TB2
  ihave TB3 : (tokRest (F := F) d L t1V (tab1 m d) 1 (fun j => wordOf (vecAt (F := F) d L sI si (k0_off34 t) (k0_off34_inb t h1)) j) hwi1 ⟨3, by decide⟩) $$ [TB3]
  · iexact TB3
  ihave TB4 : (tokRest (F := F) d L t1V (tab1 m d) 1 (fun j => wordOf (vecAt (F := F) d L sI si (k0_off34 t) (k0_off34_inb t h1)) j) hwi1 ⟨4, by decide⟩) $$ [TB4]
  · iexact TB4
  ihave TB5 : (tokRest (F := F) d L t1V (tab1 m d) 1 (fun j => wordOf (vecAt (F := F) d L sI si (k0_off34 t) (k0_off34_inb t h1)) j) hwi1 ⟨5, by decide⟩) $$ [TB5]
  · iexact TB5
  ihave TB6 : (tokRest (F := F) d L t1V (tab1 m d) 1 (fun j => wordOf (vecAt (F := F) d L sI si (k0_off34 t) (k0_off34_inb t h1)) j) hwi1 ⟨6, by decide⟩) $$ [TB6]
  · iexact TB6
  ihave TB7 : (tokRest (F := F) d L t1V (tab1 m d) 1 (fun j => wordOf (vecAt (F := F) d L sI si (k0_off34 t) (k0_off34_inb t h1)) j) hwi1 ⟨7, by decide⟩) $$ [TB7]
  · iexact TB7
  ihave TB8 : (tokRest (F := F) d L t1V (tab1 m d) 1 (fun j => wordOf (vecAt (F := F) d L sI si (k0_off34 t) (k0_off34_inb t h1)) j) hwi1 ⟨8, by decide⟩) $$ [TB8]
  · iexact TB8
  ihave TB9 : (tokRest (F := F) d L t1V (tab1 m d) 1 (fun j => wordOf (vecAt (F := F) d L sI si (k0_off34 t) (k0_off34_inb t h1)) j) hwi1 ⟨9, by decide⟩) $$ [TB9]
  · iexact TB9
  ihave TB10 : (tokRest (F := F) d L t1V (tab1 m d) 1 (fun j => wordOf (vecAt (F := F) d L sI si (k0_off34 t) (k0_off34_inb t h1)) j) hwi1 ⟨10, by decide⟩) $$ [TB10]
  · iexact TB10
  ihave TB11 : (tokRest (F := F) d L t1V (tab1 m d) 1 (fun j => wordOf (vecAt (F := F) d L sI si (k0_off34 t) (k0_off34_inb t h1)) j) hwi1 ⟨11, by decide⟩) $$ [TB11]
  · iexact TB11
  ihave TB12 : (tokRest (F := F) d L t1V (tab1 m d) 1 (fun j => wordOf (vecAt (F := F) d L sI si (k0_off34 t) (k0_off34_inb t h1)) j) hwi1 ⟨12, by decide⟩) $$ [TB12]
  · iexact TB12
  ihave TB13 : (tokRest (F := F) d L t1V (tab1 m d) 1 (fun j => wordOf (vecAt (F := F) d L sI si (k0_off34 t) (k0_off34_inb t h1)) j) hwi1 ⟨13, by decide⟩) $$ [TB13]
  · iexact TB13
  ihave TB14 : (tokRest (F := F) d L t1V (tab1 m d) 1 (fun j => wordOf (vecAt (F := F) d L sI si (k0_off34 t) (k0_off34_inb t h1)) j) hwi1 ⟨14, by decide⟩) $$ [TB14]
  · iexact TB14
  ihave TB15 : (tokRest (F := F) d L t1V (tab1 m d) 1 (fun j => wordOf (vecAt (F := F) d L sI si (k0_off34 t) (k0_off34_inb t h1)) j) hwi1 ⟨15, by decide⟩) $$ [TB15]
  · iexact TB15
  -- the sixteen landed blocks of each table joined into buffer 0
  ihave HX := (Entails.of_eq ((bigSep_fin16m (F := F) (fun j : Fin 16 => (slotA 0 j).view.loc (thrV d L) ↦[(slotA 0 j).view.set]{fullShare}
      (slotA 0 j).view.writes (Elt F) (slotA 0 j).view.junk [⟨Rect.whole S1x8x32, ReadAs.same.apply ((blkSrc t0V (wu j) (hwu j)).view.read (Elt F) (tab0 m d))⟩])).symm.trans
      (landedA0 (F := F) d L _))) $$ [HBu0_dst0 HBu0_dst1 HBu0_dst2 HBu0_dst3 HBu0_dst4 HBu0_dst5 HBu0_dst6 HBu0_dst7 HBu0_dst8 HBu0_dst9 HBu0_dst10 HBu0_dst11 HBu0_dst12 HBu0_dst13 HBu0_dst14 HBu0_dst15]
  · isplitl [HBu0_dst0]; · iexact HBu0_dst0
    isplitl [HBu0_dst1]; · iexact HBu0_dst1
    isplitl [HBu0_dst2]; · iexact HBu0_dst2
    isplitl [HBu0_dst3]; · iexact HBu0_dst3
    isplitl [HBu0_dst4]; · iexact HBu0_dst4
    isplitl [HBu0_dst5]; · iexact HBu0_dst5
    isplitl [HBu0_dst6]; · iexact HBu0_dst6
    isplitl [HBu0_dst7]; · iexact HBu0_dst7
    isplitl [HBu0_dst8]; · iexact HBu0_dst8
    isplitl [HBu0_dst9]; · iexact HBu0_dst9
    isplitl [HBu0_dst10]; · iexact HBu0_dst10
    isplitl [HBu0_dst11]; · iexact HBu0_dst11
    isplitl [HBu0_dst12]; · iexact HBu0_dst12
    isplitl [HBu0_dst13]; · iexact HBu0_dst13
    isplitl [HBu0_dst14]; · iexact HBu0_dst14
    iexact HBu0_dst15
  ihave HY := (Entails.of_eq ((bigSep_fin16m (F := F) (fun j : Fin 16 => (slotB 0 j).view.loc (thrV d L) ↦[(slotB 0 j).view.set]{fullShare}
      (slotB 0 j).view.writes (Elt F) (slotB 0 j).view.junk [⟨Rect.whole S1x8x32, ReadAs.same.apply ((blkSrc t1V (wi j) (hwi j)).view.read (Elt F) (tab1 m d))⟩])).symm.trans
      (landedB0 (F := F) d L _))) $$ [HBi0_dst0 HBi0_dst1 HBi0_dst2 HBi0_dst3 HBi0_dst4 HBi0_dst5 HBi0_dst6 HBi0_dst7 HBi0_dst8 HBi0_dst9 HBi0_dst10 HBi0_dst11 HBi0_dst12 HBi0_dst13 HBi0_dst14 HBi0_dst15]
  · isplitl [HBi0_dst0]; · iexact HBi0_dst0
    isplitl [HBi0_dst1]; · iexact HBi0_dst1
    isplitl [HBi0_dst2]; · iexact HBi0_dst2
    isplitl [HBi0_dst3]; · iexact HBi0_dst3
    isplitl [HBi0_dst4]; · iexact HBi0_dst4
    isplitl [HBi0_dst5]; · iexact HBi0_dst5
    isplitl [HBi0_dst6]; · iexact HBi0_dst6
    isplitl [HBi0_dst7]; · iexact HBi0_dst7
    isplitl [HBi0_dst8]; · iexact HBi0_dst8
    isplitl [HBi0_dst9]; · iexact HBi0_dst9
    isplitl [HBi0_dst10]; · iexact HBi0_dst10
    isplitl [HBi0_dst11]; · iexact HBi0_dst11
    isplitl [HBi0_dst12]; · iexact HBi0_dst12
    isplitl [HBi0_dst13]; · iexact HBi0_dst13
    isplitl [HBi0_dst14]; · iexact HBi0_dst14
    iexact HBi0_dst15
  ihave HZ := (Entails.of_eq (stagingO0 (F := F) d L _)) $$ Hbo0
  iapply (loop0_bind (F := F) d L _ _ _ _ _ _ _ _ _ _ _ _ (chk0_trip _ _) inj0_trip _)
  isplitl [HX]; · iexact HX
  isplitl [HY]; · iexact HY
  isplitl [HZ]; · iexact HZ
  iintro %Z0' ⟨%hD0, HX0, HY0, HZ⟩
  ihave Hbo0 := (Entails.of_eq (stagingO0 (F := F) d L _).symm) $$ HZ
  ihave Hrows := (Entails.of_eq (outRows_take (F := F) m d L t)) $$ Hrows
  icases Hrows with ⟨⟨Hp0, Hp1⟩, Hrest⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF1 HO]
  · isplitl [HF1]; · iexact HF1
    isplitl [HO]; · iexact HO
    iapply ((K (F := F)).mayWait_none (SemLoc.dma cc0_scratch10.sem) hO); iexact Hlv
  iintro ⟨⟨Hpc1, Hbo1⟩, Ho1, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave HX := (Entails.of_eq ((bigSep_fin16m (F := F) (fun j : Fin 16 => (slotA 1 j).view.loc (thrV d L) ↦[(slotA 1 j).view.set]{fullShare}
      (slotA 1 j).view.writes (Elt F) (slotA 1 j).view.junk [⟨Rect.whole S1x8x32, ReadAs.same.apply ((blkSrc t0V (wordOf (vecAt (F := F) d L sU su (k0_off34 t) (k0_off34_inb t h1)) j) (hwu1 j)).view.read (Elt F) (tab0 m d))⟩])).symm.trans
      (landedA1 (F := F) d L _))) $$ [HBu1_dst0 HBu1_dst1 HBu1_dst2 HBu1_dst3 HBu1_dst4 HBu1_dst5 HBu1_dst6 HBu1_dst7 HBu1_dst8 HBu1_dst9 HBu1_dst10 HBu1_dst11 HBu1_dst12 HBu1_dst13 HBu1_dst14 HBu1_dst15]
  · isplitl [HBu1_dst0]; · iexact HBu1_dst0
    isplitl [HBu1_dst1]; · iexact HBu1_dst1
    isplitl [HBu1_dst2]; · iexact HBu1_dst2
    isplitl [HBu1_dst3]; · iexact HBu1_dst3
    isplitl [HBu1_dst4]; · iexact HBu1_dst4
    isplitl [HBu1_dst5]; · iexact HBu1_dst5
    isplitl [HBu1_dst6]; · iexact HBu1_dst6
    isplitl [HBu1_dst7]; · iexact HBu1_dst7
    isplitl [HBu1_dst8]; · iexact HBu1_dst8
    isplitl [HBu1_dst9]; · iexact HBu1_dst9
    isplitl [HBu1_dst10]; · iexact HBu1_dst10
    isplitl [HBu1_dst11]; · iexact HBu1_dst11
    isplitl [HBu1_dst12]; · iexact HBu1_dst12
    isplitl [HBu1_dst13]; · iexact HBu1_dst13
    isplitl [HBu1_dst14]; · iexact HBu1_dst14
    iexact HBu1_dst15
  ihave HY := (Entails.of_eq ((bigSep_fin16m (F := F) (fun j : Fin 16 => (slotB 1 j).view.loc (thrV d L) ↦[(slotB 1 j).view.set]{fullShare}
      (slotB 1 j).view.writes (Elt F) (slotB 1 j).view.junk [⟨Rect.whole S1x8x32, ReadAs.same.apply ((blkSrc t1V (wordOf (vecAt (F := F) d L sI si (k0_off34 t) (k0_off34_inb t h1)) j) (hwi1 j)).view.read (Elt F) (tab1 m d))⟩])).symm.trans
      (landedB1 (F := F) d L _))) $$ [HBi1_dst0 HBi1_dst1 HBi1_dst2 HBi1_dst3 HBi1_dst4 HBi1_dst5 HBi1_dst6 HBi1_dst7 HBi1_dst8 HBi1_dst9 HBi1_dst10 HBi1_dst11 HBi1_dst12 HBi1_dst13 HBi1_dst14 HBi1_dst15]
  · isplitl [HBi1_dst0]; · iexact HBi1_dst0
    isplitl [HBi1_dst1]; · iexact HBi1_dst1
    isplitl [HBi1_dst2]; · iexact HBi1_dst2
    isplitl [HBi1_dst3]; · iexact HBi1_dst3
    isplitl [HBi1_dst4]; · iexact HBi1_dst4
    isplitl [HBi1_dst5]; · iexact HBi1_dst5
    isplitl [HBi1_dst6]; · iexact HBi1_dst6
    isplitl [HBi1_dst7]; · iexact HBi1_dst7
    isplitl [HBi1_dst8]; · iexact HBi1_dst8
    isplitl [HBi1_dst9]; · iexact HBi1_dst9
    isplitl [HBi1_dst10]; · iexact HBi1_dst10
    isplitl [HBi1_dst11]; · iexact HBi1_dst11
    isplitl [HBi1_dst12]; · iexact HBi1_dst12
    isplitl [HBi1_dst13]; · iexact HBi1_dst13
    isplitl [HBi1_dst14]; · iexact HBi1_dst14
    iexact HBi1_dst15
  ihave HZ := (Entails.of_eq (stagingO1 (F := F) d L _)) $$ Hbo1
  iapply (loop1_bind (F := F) d L _ _ _ _ _ _ _ _ _ _ _ _ _ (chk1_trip _ _) inj1_trip _)
  isplitl [HX]; · iexact HX
  isplitl [HY]; · iexact HY
  isplitl [HZ]; · iexact HZ
  iintro %Z1' ⟨%hD1, HX1, HY1, HZ⟩
  ihave Hbo1 := (Entails.of_eq (stagingO1 (F := F) d L _).symm) $$ HZ
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  sl_step
  obtain ⟨off, hoffh, hoff, hU, hI⟩ := hw
  have hG0 := written_eq_G0 (F := F) m d L su si hpre hsu hsi t wu wi hwu hwi off hoffh hoff hU hI Z0' hD0
  have hG1 := written_eq_G1 (F := F) m d L su si hpre hsu hsi t (fun j => wordOf (vecAt (F := F) d L sU su (k0_off34 t) (k0_off34_inb t h1)) j)
    (fun j => wordOf (vecAt (F := F) d L sI si (k0_off34 t) (k0_off34_inb t h1)) j) hwu1 hwi1 (k0_off34 t) (k0_off34_inb t h1) (k0_off34_eq t) rfl rfl Z1' hD1
  isplitr; · iexact Hlv
  isplitr; · iexact Hmw
  isplitl [Hs0]; · iexact Hs0
  isplitl [Hs1]; · iexact Hs1
  isplitl [HX0 HY0 RA0 RA1 RA2 RA3 RA4 RA5 RA6 RA7 RA8 RA9 RA10 RA11 RA12 RA13 RA14 RA15 RB0 RB1 RB2 RB3 RB4 RB5 RB6 RB7 RB8 RB9 RB10 RB11 RB12 RB13 RB14 RB15 HBu0 HBi0]
  · iapply (Entails.of_eq (ringIn_ge (F := F) m d L su si (t.val + 1) (by have := cond3_not t h3; omega)).symm)
    isplitl [HX0]; · iapply (slotsA0_back (F := F) d L _); iexact HX0
    isplitl [HY0]; · iapply (slotsB0_back (F := F) d L _); iexact HY0
    isplitl [RA0 RA1 RA2 RA3 RA4 RA5 RA6 RA7 RA8 RA9 RA10 RA11 RA12 RA13 RA14 RA15]
    · iapply (Entails.of_eq (bigSep_fin16m (F := F) _).symm)
      isplitl [RA0]; · iexact RA0
      isplitl [RA1]; · iexact RA1
      isplitl [RA2]; · iexact RA2
      isplitl [RA3]; · iexact RA3
      isplitl [RA4]; · iexact RA4
      isplitl [RA5]; · iexact RA5
      isplitl [RA6]; · iexact RA6
      isplitl [RA7]; · iexact RA7
      isplitl [RA8]; · iexact RA8
      isplitl [RA9]; · iexact RA9
      isplitl [RA10]; · iexact RA10
      isplitl [RA11]; · iexact RA11
      isplitl [RA12]; · iexact RA12
      isplitl [RA13]; · iexact RA13
      isplitl [RA14]; · iexact RA14
      iexact RA15
    isplitl [RB0 RB1 RB2 RB3 RB4 RB5 RB6 RB7 RB8 RB9 RB10 RB11 RB12 RB13 RB14 RB15]
    · iapply (Entails.of_eq (bigSep_fin16m (F := F) _).symm)
      isplitl [RB0]; · iexact RB0
      isplitl [RB1]; · iexact RB1
      isplitl [RB2]; · iexact RB2
      isplitl [RB3]; · iexact RB3
      isplitl [RB4]; · iexact RB4
      isplitl [RB5]; · iexact RB5
      isplitl [RB6]; · iexact RB6
      isplitl [RB7]; · iexact RB7
      isplitl [RB8]; · iexact RB8
      isplitl [RB9]; · iexact RB9
      isplitl [RB10]; · iexact RB10
      isplitl [RB11]; · iexact RB11
      isplitl [RB12]; · iexact RB12
      isplitl [RB13]; · iexact RB13
      isplitl [RB14]; · iexact RB14
      iexact RB15
    isplitl [HBu0]; · iexact HBu0
    iexact HBi0
  isplitl [TA0 TA1 TA2 TA3 TA4 TA5 TA6 TA7 TA8 TA9 TA10 TA11 TA12 TA13 TA14 TA15]
  · iapply (Entails.of_eq (bigSep_fin16m (F := F) _).symm)
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [TB0 TB1 TB2 TB3 TB4 TB5 TB6 TB7 TB8 TB9 TB10 TB11 TB12 TB13 TB14 TB15]
  · iapply (Entails.of_eq (bigSep_fin16m (F := F) _).symm)
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  isplitl [HX1]; · iapply (slotsA1_back (F := F) d L _); iexact HX1
  isplitl [HY1]; · iapply (slotsB1_back (F := F) d L _); iexact HY1
  isplitl [HBu1]; · iexact HBu1
  isplitl [HBi1]; · iexact HBi1
  isplitl [Ho0 Ho1]
  · iapply (outFlights_next (F := F) m d L t Z0' Z1' hG0 hG1)
    isplitl [Ho0]; · iexact Ho0
    iexact Ho1
  isplitl [Hpc0 Hpc1 Hrest]
  · ihave Hg0 := (Entails.of_eq (piece_back (F := F) d L (piece0 L (tripOf (t.val - 1) (pred_lt ⟨ht0, Nat.le_of_lt ht16⟩))) (m (oLoc d)) _ (G m d) hZ.1)) $$ Hpc0
    ihave Hg1 := (Entails.of_eq (piece_back (F := F) d L (piece1 L (tripOf (t.val - 1) (pred_lt ⟨ht0, Nat.le_of_lt ht16⟩))) (m (oLoc d)) _ (G m d) hZ.2)) $$ Hpc1
    iapply (outRows_put (F := F) m d L t ht0)
    isplitl [Hg0 Hg1]
    · isplitl [Hg0]; · iexact Hg0
      iexact Hg1
    iexact Hrest
  iexists _
  isplitr
  rotate_left
  · iexact HO
  · ipureintro
    exact waits_trans (by repeat (first | exact waits_base W' | refine waits_insert ?_)) hW'

end Cert.Proof.KI

end
-- ==== Proof.TripKI.lean ====
/-
  One trip of the double-buffered loop keeps the loop's invariant: the three cases — the first trip (no copy-out in
  flight yet), a middle trip, the last trip (no further chunk to start) — put together.
-/
import proofs.«219339_g11596411699725_week1_w4_1023_23_alg».proof.Proof.TripFirstKI
import proofs.«219339_g11596411699725_week1_w4_1023_23_alg».proof.Proof.TripMidKI
import proofs.«219339_g11596411699725_week1_w4_1023_23_alg».proof.Proof.TripLastKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

set_option maxHeartbeats 8000000 in
/-- One trip of the loop keeps the invariant. -/
theorem trip (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  by_cases h3 : k0_cond3 t = 1#1
  · rcases Nat.eq_zero_or_pos t.val with ht0 | ht0
    · exact trip_first m d L hpre O W hO su hsu si hsi v2 v3 hv3 t ht0 h3
    · exact trip_mid m d L hpre O W hO su hsu si hsi v2 v3 hv3 t ht0 h3
  · have ht0 : 0 < t.val := by have := cond3_not t h3; omega
    exact trip_last m d L hpre O W hO su hsu si hsi v2 v3 hv3 t ht0 h3

end Cert.Proof.KI

end
-- ==== Proof.WireKI.lean ====
/-
  The loop's invariant at its two ends, unfolded.

  Before the first trip nothing has been copied out: the staging halves are free and every piece of the subcore's rows
  holds its launch contents, so the rows are the subcore's share of the result as it was handed over. After the last
  trip buffer 0 is at rest, the last trip's two copy-outs are the only ones in flight, and every earlier piece holds
  the result function.
-/
import proofs.«219339_g11596411699725_week1_w4_1023_23_alg».proof.Proof.RingKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)
variable [∀ e, Nonempty (Elt F e)]

/-! ## Before the first trip -/

/-- Buffer 0's block copies of chunk 0 in flight are the invariant's first clause at trip 0. -/
theorem ringIn_zero (su : Buf (Elt F) ((sU).view.loc (thrV d L))) (si : Buf (Elt F) ((sI).view.loc (thrV d L)))
    (hwu : ∀ j : Fin 16, (wordOf (vecAt (F := F) d L sU su ![0] inb_S512_S16_0) j).toNat < 125000)
    (hwi : ∀ j : Fin 16, (wordOf (vecAt (F := F) d L sI si ![0] inb_S512_S16_0) j).toNat < 125000) :
    iprop(ringBatch (F := F) d L (slotA 0) t0V (tab0 m d) cc0_scratch5.sem 0 (fun j => wordOf (vecAt (F := F) d L sU su ![0] inb_S512_S16_0) j) hwu 16 0
        ∗ ringBatch (F := F) d L (slotB 0) t1V (tab1 m d) cc0_scratch7.sem 0 (fun j => wordOf (vecAt (F := F) d L sI si ![0] inb_S512_S16_0) j) hwi 16 0
        ∗ (bigSep Finset.univ fun j : Fin 16 => tokRest (F := F) d L t0V (tab0 m d) 0 (fun j => wordOf (vecAt (F := F) d L sU su ![0] inb_S512_S16_0) j) hwu j)
        ∗ (bigSep Finset.univ fun j : Fin 16 => tokRest (F := F) d L t1V (tab1 m d) 0 (fun j => wordOf (vecAt (F := F) d L sI si ![0] inb_S512_S16_0) j) hwi j))
      ⊢ ringIn m d L su si 0 := by
  unfold ringIn
  rw [if_pos (by decide)]
  iintro ⟨H1, H2, H3, H4⟩
  iexists (fun j => wordOf (vecAt (F := F) d L sU su ![0] inb_S512_S16_0) j)
  iexists (fun j => wordOf (vecAt (F := F) d L sI si ![0] inb_S512_S16_0) j)
  iexists hwu
  iexists hwi
  isplitr
  · ipureintro; exact ⟨![0], inb_S512_S16_0, rfl, rfl, rfl⟩
  isplitl [H1]; · iexact H1
  isplitl [H2]; · iexact H2
  isplitl [H3]; · iexact H3
  iexact H4

/-- Before the first trip the staging halves and their semaphores are at rest. -/
theorem outFlights_zero : outFlights m d L 0 = outFree (F := F) d L := by
  unfold outFlights
  exact dif_neg (by omega)

/-- Before the first trip every piece holds its launch contents: the subcore's rows as handed over. -/
theorem outRows_zero : (oLoc d ↦[outSet L]{fullShare} m (oLoc d) : sProp 𝕄) = outRows m d L 0 := by
  rw [oRows_split (F := F) d L (m (oLoc d))]
  unfold outRows
  refine bigSep_congr fun t' _ => ?_
  rw [if_neg (by omega), if_pos (by omega)]

/-! ## After the last trip -/

/-- After the last trip buffer 0 is at rest. -/
theorem ringIn_last (su : Buf (Elt F) ((sU).view.loc (thrV d L))) (si : Buf (Elt F) ((sI).view.loc (thrV d L))) :
    ringIn m d L su si 16
      = iprop((bigSep Finset.univ fun j : Fin 16 => iprop(∃ f, slotHeld (F := F) d L (slotA 0 j) f))
        ∗ (bigSep Finset.univ fun j : Fin 16 => iprop(∃ f, slotHeld (F := F) d L (slotB 0 j) f))
        ∗ (bigSep Finset.univ fun j : Fin 16 => tokWhole (F := F) d L t0V (tab0 m d) 0 j)
        ∗ (bigSep Finset.univ fun j : Fin 16 => tokWhole (F := F) d L t1V (tab1 m d) 0 j)
        ∗ semVal (thrV d L, SemLoc.dma cc0_scratch5.sem) 0 ∗ semVal (thrV d L, SemLoc.dma cc0_scratch7.sem) 0) := by
  unfold ringIn
  exact if_neg (by decide)

/-- After the last trip its two copy-outs are in flight. -/
theorem outFlights_last : outFlights m d L 16 = outFlightsAt m d L (tripOf 15 (by decide)) := by
  unfold outFlights
  exact dif_pos ⟨by decide, le_refl _⟩

/-- After the last trip every earlier piece holds the result function; with the last trip's two pieces at the result
    function too, the subcore's rows hold it. -/
theorem outRows_last :
    iprop(outRows m d L 16
        ∗ ((piece0 L (tripOf 15 (by decide))).view.loc (thrV d L) ↦[(piece0 L (tripOf 15 (by decide))).view.set]{fullShare} G m d)
        ∗ ((piece1 L (tripOf 15 (by decide))).view.loc (thrV d L) ↦[(piece1 L (tripOf 15 (by decide))).view.set]{fullShare} G m d))
      ⊢ (oLoc d ↦[outSet L]{fullShare} G m d : sProp 𝕄) := by
  rw [oRows_split (F := F) d L (G m d), SparseCore.bigSep_erase' (Finset.mem_univ (tripOf 15 (by decide)))]
  unfold outRows
  rw [SparseCore.bigSep_erase' (Finset.mem_univ (tripOf 15 (by decide)))]
  rw [if_neg (show ¬ ((tripOf 15 (by decide)).val + 1 < 16) by decide), if_neg (show ¬ (16 ≤ (tripOf 15 (by decide)).val) by decide)]
  have e : (bigSep ((Finset.univ : Finset (Fin k0_t1_loop.trips)).erase (tripOf 15 (by decide))) fun t' : Fin k0_t1_loop.trips =>
        (if t'.val + 1 < 16 then
          iprop(((piece0 L t').view.loc (thrV d L) ↦[(piece0 L t').view.set]{fullShare} G m d)
            ∗ ((piece1 L t').view.loc (thrV d L) ↦[(piece1 L t').view.set]{fullShare} G m d))
        else if 16 ≤ t'.val then
          iprop(((piece0 L t').view.loc (thrV d L) ↦[(piece0 L t').view.set]{fullShare} m (oLoc d))
            ∗ ((piece1 L t').view.loc (thrV d L) ↦[(piece1 L t').view.set]{fullShare} m (oLoc d)))
        else iprop(emp) : sProp 𝕄))
      = bigSep ((Finset.univ : Finset (Fin k0_t1_loop.trips)).erase (tripOf 15 (by decide))) fun t' : Fin k0_t1_loop.trips =>
          iprop(((piece0 L t').view.loc (V d (cV L) (jV L)) ↦[(piece0 L t').view.set]{fullShare} G m d)
            ∗ ((piece1 L t').view.loc (V d (cV L) (jV L)) ↦[(piece1 L t').view.set]{fullShare} G m d)) := by
    refine bigSep_congr fun t' ht' => ?_
    have hne : t' ≠ tripOf 15 (by decide) := (Finset.mem_erase.mp ht').1
    have hlt : t'.val < 16 := t'.isLt
    have : t'.val ≠ 15 := fun h => hne (Fin.ext h)
    rw [if_pos (by omega)]
  rw [e]
  iintro ⟨⟨-, HR⟩, H0, H1⟩
  isplitl [H0 H1]
  · isplitl [H0]; · iexact H0
    iexact H1
  · iexact HR

/-! ## Pieces each held at some contents are the whole held at some contents -/

omit [FloatOps F] in
/-- Pairwise disjoint element sets of one location, each held at contents of its own, are their union held at some
    contents. -/
theorem pointsTo_biUnion_exists {T : Type} (ℓ : Loc nD τ sig) (q : PosShare TreeShare) (S : Finset T) (K : T → Finset (Idx ℓ)) (f₀ : Buf (Elt F) ℓ)
    (h : ∀ t ∈ S, ∀ t' ∈ S, t ≠ t' → Disjoint (K t) (K t')) :
    bigSep S (fun t => iprop(∃ f, ℓ ↦[K t]{q} f)) ⊢ (iprop(∃ g, ℓ ↦[S.biUnion K]{q} g) : sProp 𝕄) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f, ℓ ↦[K t]{q} f) ∗ bigSep S (fun t => iprop(∃ f, ℓ ↦[K t]{q} f))) ⊢ _ from ?_)
    iintro ⟨⟨%f, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

omit [FloatOps F] in
theorem fin2_univ (Φ : Fin 2 → sProp 𝕄) : bigSep Finset.univ Φ = iprop(Φ 0 ∗ Φ 1) := by
  rw [show (Finset.univ : Finset (Fin 2)) = {0, 1} by decide, SparseCore.bigSep_insert' (by decide), bigSep_singleton]

omit [FloatOps F] in
/-- The 32 slots of the user table's block scratch, each held at some contents, are the scratch held at some contents. -/
theorem scrA_rejoin (f₀ : Buf (Elt F) ((thrV d L).loc cc0_scratch2)) :
    iprop((bigSep Finset.univ fun j : Fin 16 => iprop(∃ f, slotHeld (F := F) d L (slotA 0 j) f))
        ∗ (bigSep Finset.univ fun j : Fin 16 => iprop(∃ f, slotHeld (F := F) d L (slotA 1 j) f)))
      ⊢ (iprop(∃ g, (sA).view.loc (thrV d L) ↦{fullShare} g) : sProp 𝕄) := by
  have e : iprop((bigSep Finset.univ fun j : Fin 16 => iprop(∃ f, slotHeld (F := F) d L (slotA 0 j) f))
        ∗ (bigSep Finset.univ fun j : Fin 16 => iprop(∃ f, slotHeld (F := F) d L (slotA 1 j) f)))
      = bigSep (Finset.univ : Finset (Fin 2 × Fin 16)) (fun p => iprop(∃ f, (thrV d L).loc cc0_scratch2 ↦[slotASet p.1 p.2]{fullShare} f) : Fin 2 × Fin 16 → sProp 𝕄) := by
    rw [bigSep_univ_prod (fun p : Fin 2 × Fin 16 => (iprop(∃ f, (thrV d L).loc cc0_scratch2 ↦[slotASet p.1 p.2]{fullShare} f) : sProp 𝕄)), fin2_univ]
  rw [e]
  refine (pointsTo_biUnion_exists (F := F) ((thrV d L).loc cc0_scratch2) fullShare Finset.univ (fun p : Fin 2 × Fin 16 => slotASet p.1 p.2) f₀ slotA_disjoint).trans ?_
  rw [slotA_cover]

omit [FloatOps F] in
/-- The same for the item table's block scratch. -/
theorem scrB_rejoin (f₀ : Buf (Elt F) ((thrV d L).loc cc0_scratch3)) :
    iprop((bigSep Finset.univ fun j : Fin 16 => iprop(∃ f, slotHeld (F := F) d L (slotB 0 j) f))
        ∗ (bigSep Finset.univ fun j : Fin 16 => iprop(∃ f, slotHeld (F := F) d L (slotB 1 j) f)))
      ⊢ (iprop(∃ g, (sB).view.loc (thrV d L) ↦{fullShare} g) : sProp 𝕄) := by
  have e : iprop((bigSep Finset.univ fun j : Fin 16 => iprop(∃ f, slotHeld (F := F) d L (slotB 0 j) f))
        ∗ (bigSep Finset.univ fun j : Fin 16 => iprop(∃ f, slotHeld (F := F) d L (slotB 1 j) f)))
      = bigSep (Finset.univ : Finset (Fin 2 × Fin 16)) (fun p => iprop(∃ f, (thrV d L).loc cc0_scratch3 ↦[slotBSet p.1 p.2]{fullShare} f) : Fin 2 × Fin 16 → sProp 𝕄) := by
    rw [bigSep_univ_prod (fun p : Fin 2 × Fin 16 => (iprop(∃ f, (thrV d L).loc cc0_scratch3 ↦[slotBSet p.1 p.2]{fullShare} f) : sProp 𝕄)), fin2_univ]
  rw [e]
  refine (pointsTo_biUnion_exists (F := F) ((thrV d L).loc cc0_scratch3) fullShare Finset.univ (fun p : Fin 2 × Fin 16 => slotBSet p.1 p.2) f₀ slotB_disjoint).trans ?_
  rw [slotB_cover]

omit [FloatOps F] in
/-- The two halves of the staging scratch, each held at some contents, are the scratch held at some contents. -/
theorem scrO_rejoin (f₀ : Buf (Elt F) ((thrV d L).loc cc0_scratch4)) :
    iprop((∃ f, (bufO 0).view.loc (thrV d L) ↦[(bufO 0).view.set]{fullShare} f) ∗ (∃ f, (bufO 1).view.loc (thrV d L) ↦[(bufO 1).view.set]{fullShare} f))
      ⊢ (iprop(∃ g, (sO).view.loc (thrV d L) ↦{fullShare} g) : sProp 𝕄) := by
  have e : iprop((∃ f, (bufO 0).view.loc (thrV d L) ↦[(bufO 0).view.set]{fullShare} f) ∗ (∃ f, (bufO 1).view.loc (thrV d L) ↦[(bufO 1).view.set]{fullShare} f))
      = bigSep (Finset.univ : Finset (Fin 2)) (fun b => iprop(∃ f, (thrV d L).loc cc0_scratch4 ↦[bufOSet b]{fullShare} f) : Fin 2 → sProp 𝕄) := by
    rw [fin2_univ]
  rw [e]
  refine (pointsTo_biUnion_exists (F := F) ((thrV d L).loc cc0_scratch4) fullShare Finset.univ (fun b : Fin 2 => bufOSet b) f₀ bufO_disjoint).trans ?_
  rw [bufO_cover]

/-! ## The 32 read tokens of a table -/

omit [FloatOps F] in
theorem tokOf_image : (Finset.univ : Finset (Fin 2 × Fin 16)).image (fun p => tokOf p.1 p.2) = (Finset.univ : Finset (Fin 32)) := by decide
omit [FloatOps F] in
theorem tokOf_injOn : Set.InjOn (fun p : Fin 2 × Fin 16 => tokOf p.1 p.2) ((Finset.univ : Finset (Fin 2 × Fin 16)) : Set (Fin 2 × Fin 16)) := by
  rintro ⟨b, j⟩ _ ⟨b', j'⟩ _ e
  have e' : 16 * b.val + j.val = 16 * b'.val + j'.val := congrArg Fin.val e
  have hj := j.isLt; have hj' := j'.isLt
  refine Prod.ext (Fin.ext ?_) (Fin.ext ?_) <;> dsimp only <;> omega

omit [FloatOps F] in
/-- The tokens of the two buffers' slots are the subcore's 32 tokens. -/
theorem toks_join (tV : Memref sig .scVector .hbm S125000x8x32 .f32) (tab : Buf (Elt F) ((tV).view.loc (thrV d L))) :
    iprop((bigSep Finset.univ fun j : Fin 16 => tokWhole (F := F) d L tV tab 0 j) ∗ (bigSep Finset.univ fun j : Fin 16 => tokWhole (F := F) d L tV tab 1 j))
      = (bigSep Finset.univ fun k : Fin 32 => ((tV).view.loc (thrV d L) ↦{shareTokN fullShare (tokIx L k)} tab : sProp 𝕄)) := by
  rw [← tokOf_image, SparseCore.bigSep_image_of_injOn tokOf_injOn, bigSep_univ_prod, fin2_univ]

end Cert.Proof.KI

end
-- ==== Proof.BodyKI2.lean ====
/-
  The task of one vector subcore, at a subcore `L` of the grid: from its share of the arrays, its scratch and its
  semaphores it runs to the end and hands the share back with its 512 rows of the result at the result function.

  Before the loop: the subcore's 512 words of each index array are copied into scratch (the landed words are those
  of the batch positions base L + q, all below 1000000), and the sixteen block copies of chunk 0 are started into
  buffer 0 of each block scratch, one batch per table, each copy lending its block out of a read token of its own.
  That is the loop's invariant at trip 0: the staging halves free, every piece of the subcore's rows at its launch
  contents. Each trip keeps the invariant (the trip lemma). After the sixteenth trip buffer 0 is at rest and the
  last trip's two copy-outs are in flight; the two final waits hand their pieces back holding the result function,
  every earlier piece holds it already, and the 32 pieces are the subcore's rows. The slots, the staging halves and
  the tokens are put back together into the scratches and the two products of 32 tokens the subcore was handed.
-/
import proofs.«219339_g11596411699725_week1_w4_1023_23_alg».proof.Proof.IfaceKI
import proofs.«219339_g11596411699725_week1_w4_1023_23_alg».proof.Proof.RingKI
import proofs.«219339_g11596411699725_week1_w4_1023_23_alg».proof.Proof.TripKI
import proofs.«219339_g11596411699725_week1_w4_1023_23_alg».proof.Proof.WireKI
import proofs.«219339_g11596411699725_week1_w4_1023_23_alg».proof.Proof.Gen.KernelIdeal.Skeleton
import Idealize.ShloMosaic.Lib.SparseCore.Launch
import Idealize.ShloMosaic.Lib.SparseCore.Ops
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

/-- A DMA semaphore of the subcore, as a cell. -/
abbrev cellV (d : Dev nD) (L : grid0.Coords) (s : DmaSem sig) : GSem nD τ sig := (V d (cV L) (jV L), .dma s)

omit [FloatOps F] in
theorem ownSems0_V :
    (ownSems0 (V d (cV L) (jV L)) : sProp 𝕄)
      = iprop(semVal (cellV d L cc0_scratch5.sem) 0 ∗ semVal (cellV d L cc0_scratch6.sem) 0 ∗ semVal (cellV d L cc0_scratch7.sem) 0 ∗ semVal (cellV d L cc0_scratch8.sem) 0 ∗ semVal (cellV d L cc0_scratch9.sem) 0 ∗ semVal (cellV d L cc0_scratch10.sem) 0 ∗ semVal (cellV d L cc0_scoped0.sem) 0 ∗ semVal (cellV d L cc0_scoped1.sem) 0 ∗ bigSep (((((((((ownCells (V d (cV L) (jV L))).erase (cellV d L cc0_scratch5.sem)).erase (cellV d L cc0_scratch6.sem)).erase (cellV d L cc0_scratch7.sem)).erase (cellV d L cc0_scratch8.sem)).erase (cellV d L cc0_scratch9.sem)).erase (cellV d L cc0_scratch10.sem)).erase (cellV d L cc0_scoped0.sem)).erase (cellV d L cc0_scoped1.sem)) fun g => semVal g 0) := by
  unfold SparseCore.Cfg.ownSems0
  rw [SparseCore.bigSep_erase' ((mem_ownCells (g := (cellV d L cc0_scratch5.sem))).mpr ⟨rfl, by show (SemLoc.dma cc0_scratch5.sem : SemLoc sig).isScoped .scVector = true; decide⟩),
    SparseCore.bigSep_erase' (Finset.mem_erase.mpr ⟨fun e => absurd (Prod.mk.inj e).2 (by decide), (mem_ownCells (g := (cellV d L cc0_scratch6.sem))).mpr ⟨rfl, by show (SemLoc.dma cc0_scratch6.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (cellV d L cc0_scratch7.sem))).mpr ⟨rfl, by show (SemLoc.dma cc0_scratch7.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scratch8.sem))).mpr ⟨rfl, by show (SemLoc.dma cc0_scratch8.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scratch9.sem))).mpr ⟨rfl, by show (SemLoc.dma cc0_scratch9.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scratch10.sem))).mpr ⟨rfl, by show (SemLoc.dma cc0_scratch10.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped0.sem))).mpr ⟨rfl, by show (SemLoc.dma cc0_scoped0.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped1.sem))).mpr ⟨rfl, by show (SemLoc.dma cc0_scoped1.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩)]

omit [FloatOps F] in
theorem pts_u (f : Buf (Elt F) (uLoc d)) :
    ((uRow L).view.loc (thrV d L) ↦[(uRow L).view.set]{fullShare} f : sProp 𝕄) = uLoc d ↦[idxSet L]{fullShare} f := rfl
omit [FloatOps F] in
theorem pts_i (f : Buf (Elt F) (iLoc d)) :
    ((iRow L).view.loc (thrV d L) ↦[(iRow L).view.set]{fullShare} f : sProp 𝕄) = iLoc d ↦[idxSet L]{fullShare} f := rfl
omit [FloatOps F] in
theorem pts_t0 (q : PosShare TreeShare) (f : Buf (Elt F) (t0Loc d)) :
    ((t0V).view.loc (thrV d L) ↦{q} f : sProp 𝕄) = t0Loc d ↦{q} f := by
  simp only [Memref.view_whole, View.set_whole]
omit [FloatOps F] in
theorem pts_t1 (q : PosShare TreeShare) (f : Buf (Elt F) (t1Loc d)) :
    ((t1V).view.loc (thrV d L) ↦{q} f : sProp 𝕄) = t1Loc d ↦{q} f := by
  simp only [Memref.view_whole, View.set_whole]
omit [FloatOps F] in
theorem pts_s0 (f : Buf (Elt F) ((thrV d L).loc cc0_scratch0)) :
    ((sU).view.loc (thrV d L) ↦{fullShare} f : sProp 𝕄) = (thrV d L).loc cc0_scratch0 ↦{fullShare} f := rfl
omit [FloatOps F] in
theorem pts_s1 (f : Buf (Elt F) ((thrV d L).loc cc0_scratch1)) :
    ((sI).view.loc (thrV d L) ↦{fullShare} f : sProp 𝕄) = (thrV d L).loc cc0_scratch1 ↦{fullShare} f := rfl
omit [FloatOps F] in
theorem pts_s2 (f : Buf (Elt F) ((thrV d L).loc cc0_scratch2)) :
    ((sA).view.loc (thrV d L) ↦{fullShare} f : sProp 𝕄) = (thrV d L).loc cc0_scratch2 ↦{fullShare} f := rfl
omit [FloatOps F] in
theorem pts_s3 (f : Buf (Elt F) ((thrV d L).loc cc0_scratch3)) :
    ((sB).view.loc (thrV d L) ↦{fullShare} f : sProp 𝕄) = (thrV d L).loc cc0_scratch3 ↦{fullShare} f := rfl
omit [FloatOps F] in
theorem pts_s4 (f : Buf (Elt F) ((thrV d L).loc cc0_scratch4)) :
    ((sO).view.loc (thrV d L) ↦{fullShare} f : sProp 𝕄) = (thrV d L).loc cc0_scratch4 ↦{fullShare} f := rfl

omit [FloatOps F] in
/-- A load off the index scratch reads entries of its contents. -/
theorem readAtU_lt (s : Buf (Elt F) ((thrV d L).loc cc0_scratch0)) (hs : ∀ j, (s j).toNat < 1000000) (r : LoadRect S512) (x : r.shape.Idx) :
    ((sU).view.readAt (Elt F) r s x).toNat < 1000000 := by
  rw [View.readAt_apply]; simp only [Memref.view_whole, View.read_whole]; exact hs _
omit [FloatOps F] in
theorem readAtI_lt (s : Buf (Elt F) ((thrV d L).loc cc0_scratch1)) (hs : ∀ j, (s j).toNat < 1000000) (r : LoadRect S512) (x : r.shape.Idx) :
    ((sI).view.readAt (Elt F) r s x).toNat < 1000000 := by
  rw [View.readAt_apply]; simp only [Memref.view_whole, View.read_whole]; exact hs _

omit [FloatOps F] in
/-- The index scratch after its copy has landed, renamed: a function below a million everywhere, equal to what landed. -/
theorem restateU (f0 : Buf (Elt F) ((thrV d L).loc cc0_scratch0)) (w : S512.Idx → BitVec 32) (hw : ∀ j, (w j).toNat < 1000000) :
    ((sU).view.loc (thrV d L) ↦{fullShare} (sU).view.write (Elt F) f0 w Finset.univ : sProp 𝕄)
      ⊢ iprop(∃ su : Buf (Elt F) ((thrV d L).loc cc0_scratch0), ⌜(∀ j, (su j).toNat < 1000000) ∧ su = w⌝ ∗ (sU).view.loc (thrV d L) ↦{fullShare} su) := by
  iintro H
  iexists w
  isplitr
  · ipureintro; exact ⟨hw, rfl⟩
  · have e : (sU).view.write (Elt F) f0 w Finset.univ = w := by
      simp only [Memref.view_whole]; exact View.write_whole_univ _ _ _
    rw [e]; iexact H
omit [FloatOps F] in
theorem restateI (f1 : Buf (Elt F) ((thrV d L).loc cc0_scratch1)) (w : S512.Idx → BitVec 32) (hw : ∀ j, (w j).toNat < 1000000) :
    ((sI).view.loc (thrV d L) ↦{fullShare} (sI).view.write (Elt F) f1 w Finset.univ : sProp 𝕄)
      ⊢ iprop(∃ si : Buf (Elt F) ((thrV d L).loc cc0_scratch1), ⌜(∀ j, (si j).toNat < 1000000) ∧ si = w⌝ ∗ (sI).view.loc (thrV d L) ↦{fullShare} si) := by
  iintro H
  iexists w
  isplitr
  · ipureintro; exact ⟨hw, rfl⟩
  · have e : (sI).view.write (Elt F) f1 w Finset.univ = w := by
      simp only [Memref.view_whole]; exact View.write_whole_univ _ _ _
    rw [e]; iexact H

omit [FloatOps F] in
/-- A product over the 32 slots, written out. -/
theorem sep32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- A product over the 16 slots of a buffer, written out. -/
theorem sep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem sep2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

omit [FloatOps F] in
/-- The same products with the indices spelt as pairs (value, bound), the spelling a batch's deliveries meet. -/
theorem sep16m (Φ : Fin 16 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩) := sep16 Φ
omit [FloatOps F] in
theorem sep32m (Φ : Fin 32 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩ ∗ Φ ⟨28, by decide⟩ ∗ Φ ⟨29, by decide⟩ ∗ Φ ⟨30, by decide⟩ ∗ Φ ⟨31, by decide⟩) := sep32 Φ

omit [FloatOps F] in
/-- The tokens of the two buffers' slots, back as the subcore's 32 tokens of the reshaped user table. -/
theorem toks0_back (tab : Buf (Elt F) (t0Loc d)) :
    iprop((bigSep Finset.univ fun j : Fin 16 => tokWhole (F := F) d L t0V tab 0 j) ∗ (bigSep Finset.univ fun j : Fin 16 => tokWhole (F := F) d L t0V tab 1 j))
      = (bigSep Finset.univ fun k : Fin 32 => (t0Loc d ↦{shareTokN fullShare (tokIx L k)} tab : sProp 𝕄)) :=
  (toks_join (F := F) d L t0V tab).trans (bigSep_congr fun k _ => pts_t0 (F := F) d L _ tab)
omit [FloatOps F] in
theorem toks1_back (tab : Buf (Elt F) (t1Loc d)) :
    iprop((bigSep Finset.univ fun j : Fin 16 => tokWhole (F := F) d L t1V tab 0 j) ∗ (bigSep Finset.univ fun j : Fin 16 => tokWhole (F := F) d L t1V tab 1 j))
      = (bigSep Finset.univ fun k : Fin 32 => (t1Loc d ↦{shareTokN fullShare (tokIx L k)} tab : sProp 𝕄)) :=
  (toks_join (F := F) d L t1V tab).trans (bigSep_congr fun k _ => pts_t1 (F := F) d L _ tab)

/-- The invariant's clauses after the last trip, at a trip count that is 16. -/
theorem ringIn_last' (su : Buf (Elt F) ((sU).view.loc (thrV d L))) (si : Buf (Elt F) ((sI).view.loc (thrV d L))) (n : ℕ) (hn : n = 16) :
    ringIn m d L su si n
      = iprop((bigSep Finset.univ fun j : Fin 16 => iprop(∃ f, slotHeld (F := F) d L (slotA 0 j) f))
        ∗ (bigSep Finset.univ fun j : Fin 16 => iprop(∃ f, slotHeld (F := F) d L (slotB 0 j) f))
        ∗ (bigSep Finset.univ fun j : Fin 16 => tokWhole (F := F) d L t0V (tab0 m d) 0 j)
        ∗ (bigSep Finset.univ fun j : Fin 16 => tokWhole (F := F) d L t1V (tab1 m d) 0 j)
        ∗ semVal (thrV d L, SemLoc.dma cc0_scratch5.sem) 0 ∗ semVal (thrV d L, SemLoc.dma cc0_scratch7.sem) 0) := by
  subst hn; exact ringIn_last (F := F) m d L su si
theorem outFlights_last' (n : ℕ) (hn : n = 16) : outFlights m d L n = outFlightsAt m d L (tripOf 15 (by decide)) := by
  subst hn; exact outFlights_last (F := F) m d L
theorem outRows_last' (n : ℕ) (hn : n = 16) :
    iprop(outRows m d L n
        ∗ ((piece0 L (tripOf 15 (by decide))).view.loc (thrV d L) ↦[(piece0 L (tripOf 15 (by decide))).view.set]{fullShare} G m d)
        ∗ ((piece1 L (tripOf 15 (by decide))).view.loc (thrV d L) ↦[(piece1 L (tripOf 15 (by decide))).view.set]{fullShare} G m d))
      ⊢ (oLoc d ↦[outSet L]{fullShare} G m d : sProp 𝕄) := by
  subst hn; exact outRows_last (F := F) m d L

set_option maxHeartbeats 1600000 in
theorem tile_body2 (hF : (K (F := F)).Facts) (hpre : PreOK m) (O : CellTallies nD τ sig (HIx 1)) (W : Waits sig (HIx 1)) (hO : ∀ g, O g none = 0) :
    iprop(levAts (K (F := F)).L (K (F := F)).lev ∗ emp ∗ goPay m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tdPay m d L ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg
  simp only [cc0__gmf_body_eq_skeleton]; unfold cc0__gmf_body_skel
  rw [(K (F := F)).scopedBufs_V hF d (cV L) (jV L), SparseCore.Cfg.scopedSems0_V (Val := Elt F) d (cV L) (jV L), ownSems0_V, ownBufs_V]
  unfold goPay tilePay

  rw [show (fun k : Fin 32 => (t0Loc d ↦{shareTokN fullShare (tokIx L k)} tab0 m d : sProp 𝕄))
        = fun k : Fin 32 => ((t0V).view.loc (thrV d L) ↦{shareTokN fullShare (tokIx L k)} tab0 m d : sProp 𝕄)
      from funext fun k => (pts_t0 (F := F) d L _ _).symm,
    show (fun k : Fin 32 => (t1Loc d ↦{shareTokN fullShare (tokIx L k)} tab1 m d : sProp 𝕄))
        = fun k : Fin 32 => ((t1V).view.loc (thrV d L) ↦{shareTokN fullShare (tokIx L k)} tab1 m d : sProp 𝕄)
      from funext fun k => (pts_t1 (F := F) d L _ _).symm,
    sep32m, sep32m]

  iintro ⟨#Hlv, -, ⟨Hu, Hi, ⟨A0, A1, A2, A3, A4, A5, A6, A7, A8, A9, A10, A11, A12, A13, A14, A15, A16, A17, A18, A19, A20, A21, A22, A23, A24, A25, A26, A27, A28, A29, A30, A31⟩, ⟨B0, B1, B2, B3, B4, B5, B6, B7, B8, B9, B10, B11, B12, B13, B14, B15, B16, B17, B18, B19, B20, B21, B22, B23, B24, B25, B26, B27, B28, B29, B30, B31⟩, Ho⟩, ⟨⟨%f0, Hs0⟩, ⟨%f1, Hs1⟩, ⟨%f2, Hs2⟩, ⟨%f3, Hs3⟩, ⟨%f4, Hs4⟩, Hbufs⟩,
    ⟨Hu0, Hu1, Hi0, Hi1, Ho0, Ho1, Hr0, Hr1, Hsems⟩, HO⟩
  ihave Hmw := ((K (F := F)).mayWaits_none (thr := V d (cV L) (jV L)) hO) $$ Hlv
  ihave Hu := (Entails.of_eq (pts_u (F := F) d L _).symm) $$ Hu
  ihave Hi := (Entails.of_eq (pts_i (F := F) d L _).symm) $$ Hi
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hs2 := (Entails.of_eq (scrA_split (F := F) d L f2)) $$ Hs2
  ihave Hs2 := (Entails.of_eq (sep2 _)) $$ Hs2
  icases Hs2 with ⟨Hs2a, Hs2b⟩
  ihave Hs2a := (Entails.of_eq (sep16m _)) $$ Hs2a
  icases Hs2a with ⟨SA0_0, SA0_1, SA0_2, SA0_3, SA0_4, SA0_5, SA0_6, SA0_7, SA0_8, SA0_9, SA0_10, SA0_11, SA0_12, SA0_13, SA0_14, SA0_15⟩
  ihave Hs2b := (Entails.of_eq (sep16m _)) $$ Hs2b
  icases Hs2b with ⟨SA1_0, SA1_1, SA1_2, SA1_3, SA1_4, SA1_5, SA1_6, SA1_7, SA1_8, SA1_9, SA1_10, SA1_11, SA1_12, SA1_13, SA1_14, SA1_15⟩
  ihave Hs3 := (Entails.of_eq (scrB_split (F := F) d L f3)) $$ Hs3
  ihave Hs3 := (Entails.of_eq (sep2 _)) $$ Hs3
  icases Hs3 with ⟨Hs3a, Hs3b⟩
  ihave Hs3a := (Entails.of_eq (sep16m _)) $$ Hs3a
  icases Hs3a with ⟨SB0_0, SB0_1, SB0_2, SB0_3, SB0_4, SB0_5, SB0_6, SB0_7, SB0_8, SB0_9, SB0_10, SB0_11, SB0_12, SB0_13, SB0_14, SB0_15⟩
  ihave Hs3b := (Entails.of_eq (sep16m _)) $$ Hs3b
  icases Hs3b with ⟨SB1_0, SB1_1, SB1_2, SB1_3, SB1_4, SB1_5, SB1_6, SB1_7, SB1_8, SB1_9, SB1_10, SB1_11, SB1_12, SB1_13, SB1_14, SB1_15⟩
  ihave Hs4 := (Entails.of_eq (scrO_split (F := F) d L f4)) $$ Hs4
  ihave Hs4 := (Entails.of_eq (sep2 _)) $$ Hs4
  icases Hs4 with ⟨SO0, SO1⟩
  set_option sl_exec.maxSteps 7 in sl_exec
  have hw0 : ∀ j, ((tile_body2.sl.dma0 m d L) j).toNat < 1000000 := fun j => (hpre d _).1
  have hw1 : ∀ j, ((tile_body2.sl.dma0_1 m d L) j).toNat < 1000000 := fun j => (hpre d _).2
  ihave Hs0 := (restateU (F := F) d L f0 (tile_body2.sl.dma0 m d L) hw0) $$ Hs0
  icases Hs0 with ⟨%su, ⟨%hsu, %hsu_eq⟩, Hs0⟩
  ihave Hs1 := (restateI (F := F) d L f1 (tile_body2.sl.dma0_1 m d L) hw1) $$ Hs1
  icases Hs1 with ⟨%si, ⟨%hsi, %hsi_eq⟩, Hs1⟩
  have hwu0 : ∀ j : Fin 16, (wordOf (vecAt (F := F) d L sU su ![0] inb_S512_S16_0) j).toNat < 125000 :=
    fun j => by refine lane_lt _ ?_ _ _ _; intro x; exact readAtU_lt d L su hsu _ _
  have hwi0 : ∀ j : Fin 16, (wordOf (vecAt (F := F) d L sI si ![0] inb_S512_S16_0) j).toNat < 125000 :=
    fun j => by refine lane_lt _ ?_ _ _ _; intro x; exact readAtI_lt d L si hsi _ _
  imod (Transfers.batch_alloc' (Lvl := ℕ) (countersEmb (U := UU)) (thrV d L) (default : HIx 1) 8192
      (fun j : Fin 16 => deliv1 (F := F) d L (slotA 0 j) t0V (wordOf (vecAt (F := F) d L sU su ![0] inb_S512_S16_0) j) (hwu0 j)
        (shareTokN fullShare (tokIx L (tokOf 0 j))) (tab0 m d)) (sm := SemLoc.dma (sig := sig) cc0_scratch5.sem) (E := Set.univ)) $$ Hu0 with HBu0
  imod (Transfers.batch_alloc' (Lvl := ℕ) (countersEmb (U := UU)) (thrV d L) (default : HIx 1) 8192
      (fun j : Fin 16 => deliv1 (F := F) d L (slotB 0 j) t1V (wordOf (vecAt (F := F) d L sI si ![0] inb_S512_S16_0) j) (hwi0 j)
        (shareTokN fullShare (tokIx L (tokOf 0 j))) (tab1 m d)) (sm := SemLoc.dma (sig := sig) cc0_scratch7.sem) (E := Set.univ)) $$ Hi0 with HBi0
  sl_exec (disch := first
    | (intro a; refine chk_of_lt ?_ a; refine lane_lt _ ?_ _ _ _; intro x; first | exact readAtU_lt d L _ hsu _ _ | exact readAtI_lt d L _ hsi _ _)
    | (intro _ a; refine chk_of_lt ?_ a; refine lane_lt _ ?_ _ _ _; intro x; first | exact readAtU_lt d L _ hsu _ _ | exact readAtI_lt d L _ hsi _ _))
  have hsu' : ∀ j, su j = m (uLoc d) ((uRow L).view.emb j) := fun j => by rw [hsu_eq]; rfl
  have hsi' : ∀ j, si j = m (iLoc d) ((iRow L).view.emb j) := fun j => by rw [hsi_eq]; rfl
  sl_for (fun t a => iprop(levAts (K (F := F)).L (K (F := F)).lev ∗ ringInv m d L su si O W t a)) $$ [Hs0 Hs1 HBu0 HBi0 A0 A1 A2 A3 A4 A5 A6 A7 A8 A9 A10 A11 A12 A13 A14 A15 A16 A17 A18 A19 A20 A21 A22 A23 A24 A25 A26 A27 A28 A29 A30 A31 B0 B1 B2 B3 B4 B5 B6 B7 B8 B9 B10 B11 B12 B13 B14 B15 B16 B17 B18 B19 B20 B21 B22 B23 B24 B25 B26 B27 B28 B29 B30 B31 SA1_0 SA1_1 SA1_2 SA1_3 SA1_4 SA1_5 SA1_6 SA1_7 SA1_8 SA1_9 SA1_10 SA1_11 SA1_12 SA1_13 SA1_14 SA1_15 SB1_0 SB1_1 SB1_2 SB1_3 SB1_4 SB1_5 SB1_6 SB1_7 SB1_8 SB1_9 SB1_10 SB1_11 SB1_12 SB1_13 SB1_14 SB1_15 Hu1 Hi1 SO0 SO1 Ho0 Ho1 Ho HO]
  case region =>
    intro k acc
    cases acc
    exact trip m d L hpre O W hO su hsu' si hsi' (tile_body2.sl.v2 L) tile_body2.sl.v3 rfl k
  · unfold ringInv
    isplitr; · iexact Hlv
    isplitr; · iexact Hmw
    isplitl [Hs0]; · iexact Hs0
    isplitl [Hs1]; · iexact Hs1
    isplitl [HBu0 HBi0 A0 A1 A2 A3 A4 A5 A6 A7 A8 A9 A10 A11 A12 A13 A14 A15 B0 B1 B2 B3 B4 B5 B6 B7 B8 B9 B10 B11 B12 B13 B14 B15]
    · iapply (ringIn_zero (F := F) m d L su si hwu0 hwi0)
      isplitl [HBu0]; · iexact HBu0
      isplitl [HBi0]; · iexact HBi0
      isplitl [A0 A1 A2 A3 A4 A5 A6 A7 A8 A9 A10 A11 A12 A13 A14 A15]
      · iapply (Entails.of_eq (sep16m _).symm)
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        iexact A15
      iapply (Entails.of_eq (sep16m _).symm)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      iexact B15
    isplitl [A16 A17 A18 A19 A20 A21 A22 A23 A24 A25 A26 A27 A28 A29 A30 A31]
    · iapply (Entails.of_eq (sep16m _).symm)
      isplitl [A16]; · iexact A16
      isplitl [A17]; · iexact A17
      isplitl [A18]; · iexact A18
      isplitl [A19]; · iexact A19
      isplitl [A20]; · iexact A20
      isplitl [A21]; · iexact A21
      isplitl [A22]; · iexact A22
      isplitl [A23]; · iexact A23
      isplitl [A24]; · iexact A24
      isplitl [A25]; · iexact A25
      isplitl [A26]; · iexact A26
      isplitl [A27]; · iexact A27
      isplitl [A28]; · iexact A28
      isplitl [A29]; · iexact A29
      isplitl [A30]; · iexact A30
      iexact A31
    isplitl [B16 B17 B18 B19 B20 B21 B22 B23 B24 B25 B26 B27 B28 B29 B30 B31]
    · iapply (Entails.of_eq (sep16m _).symm)
      isplitl [B16]; · iexact B16
      isplitl [B17]; · iexact B17
      isplitl [B18]; · iexact B18
      isplitl [B19]; · iexact B19
      isplitl [B20]; · iexact B20
      isplitl [B21]; · iexact B21
      isplitl [B22]; · iexact B22
      isplitl [B23]; · iexact B23
      isplitl [B24]; · iexact B24
      isplitl [B25]; · iexact B25
      isplitl [B26]; · iexact B26
      isplitl [B27]; · iexact B27
      isplitl [B28]; · iexact B28
      isplitl [B29]; · iexact B29
      isplitl [B30]; · iexact B30
      iexact B31
    isplitl [SA1_0 SA1_1 SA1_2 SA1_3 SA1_4 SA1_5 SA1_6 SA1_7 SA1_8 SA1_9 SA1_10 SA1_11 SA1_12 SA1_13 SA1_14 SA1_15]
    · iapply (Entails.of_eq (sep16m _).symm)
      isplitl [SA1_0]; · (iexists _; iexact SA1_0)
      isplitl [SA1_1]; · (iexists _; iexact SA1_1)
      isplitl [SA1_2]; · (iexists _; iexact SA1_2)
      isplitl [SA1_3]; · (iexists _; iexact SA1_3)
      isplitl [SA1_4]; · (iexists _; iexact SA1_4)
      isplitl [SA1_5]; · (iexists _; iexact SA1_5)
      isplitl [SA1_6]; · (iexists _; iexact SA1_6)
      isplitl [SA1_7]; · (iexists _; iexact SA1_7)
      isplitl [SA1_8]; · (iexists _; iexact SA1_8)
      isplitl [SA1_9]; · (iexists _; iexact SA1_9)
      isplitl [SA1_10]; · (iexists _; iexact SA1_10)
      isplitl [SA1_11]; · (iexists _; iexact SA1_11)
      isplitl [SA1_12]; · (iexists _; iexact SA1_12)
      isplitl [SA1_13]; · (iexists _; iexact SA1_13)
      isplitl [SA1_14]; · (iexists _; iexact SA1_14)
      (iexists _; iexact SA1_15)
    isplitl [SB1_0 SB1_1 SB1_2 SB1_3 SB1_4 SB1_5 SB1_6 SB1_7 SB1_8 SB1_9 SB1_10 SB1_11 SB1_12 SB1_13 SB1_14 SB1_15]
    · iapply (Entails.of_eq (sep16m _).symm)
      isplitl [SB1_0]; · (iexists _; iexact SB1_0)
      isplitl [SB1_1]; · (iexists _; iexact SB1_1)
      isplitl [SB1_2]; · (iexists _; iexact SB1_2)
      isplitl [SB1_3]; · (iexists _; iexact SB1_3)
      isplitl [SB1_4]; · (iexists _; iexact SB1_4)
      isplitl [SB1_5]; · (iexists _; iexact SB1_5)
      isplitl [SB1_6]; · (iexists _; iexact SB1_6)
      isplitl [SB1_7]; · (iexists _; iexact SB1_7)
      isplitl [SB1_8]; · (iexists _; iexact SB1_8)
      isplitl [SB1_9]; · (iexists _; iexact SB1_9)
      isplitl [SB1_10]; · (iexists _; iexact SB1_10)
      isplitl [SB1_11]; · (iexists _; iexact SB1_11)
      isplitl [SB1_12]; · (iexists _; iexact SB1_12)
      isplitl [SB1_13]; · (iexists _; iexact SB1_13)
      isplitl [SB1_14]; · (iexists _; iexact SB1_14)
      (iexists _; iexact SB1_15)
    isplitl [Hu1]; · iexact Hu1
    isplitl [Hi1]; · iexact Hi1
    isplitl [SO0 SO1 Ho0 Ho1]
    · iapply (Entails.of_eq (outFlights_zero (F := F) m d L).symm)
      unfold outFree
      isplitl [SO0]; · iexists _; iexact SO0
      isplitl [SO1]; · iexists _; iexact SO1
      isplitl [Ho0]; · iexact Ho0
      iexact Ho1
    isplitl [Ho]; · iapply (Entails.of_eq (outRows_zero (F := F) m d L)); iexact Ho
    iexists _; isplitr
    rotate_left
    · iexact HO
    · ipureintro
      intro p hp
      rcases Finset.mem_insert.mp hp with h | hp
      · exact .inr (h ▸ rfl)
      rcases Finset.mem_insert.mp hp with h | hp
      · exact .inr (h ▸ rfl)
      exact .inl hp
  iintro %_ HI
  icases HI with ⟨-, HI⟩
  unfold ringInv
  icases HI with ⟨-, Hs0, Hs1, Hin, T0b1, T1b1, SA1, SB1, Hu1, Hi1, Hfl, Hrows, %W', %hW', HO⟩
  ihave Hin := (Entails.of_eq (ringIn_last' (F := F) m d L su si (Scf.trips k0_t1_loop.lb k0_t1_loop.ub k0_t1_loop.st) rfl)) $$ Hin
  icases Hin with ⟨SA0, SB0, T0b0, T1b0, Hu0, Hi0⟩
  ihave Hfl := (Entails.of_eq (outFlights_last' (F := F) m d L (Scf.trips k0_t1_loop.lb k0_t1_loop.ub k0_t1_loop.st) rfl)) $$ Hfl
  unfold outFlightsAt
  icases Hfl with ⟨%Z0, %Z1, ⟨%hZ0, %hZ1⟩, HF0, HF1⟩
  sl_exec
  iapply (Transfers.wp_waitLocalO (countersEmb (U := UU)) 𝒱₀ (thrV d L) none (default : HIx 1) (N := 16384) rfl) $$ [HF0 HO]
  · isplitl [HF0]; · iexact HF0
    isplitl [HO]; · iexact HO
    iapply ((K (F := F)).mayWait_none (SemLoc.dma cc0_scratch9.sem) hO); iexact Hlv
  iintro ⟨⟨Hpc0, Hbo0⟩, Ho0, HO⟩
  sl_exec
  iapply (Transfers.wp_waitLocalO (countersEmb (U := UU)) 𝒱₀ (thrV d L) none (default : HIx 1) (N := 16384) rfl) $$ [HF1 HO]
  · isplitl [HF1]; · iexact HF1
    isplitl [HO]; · iexact HO
    iapply ((K (F := F)).mayWait_none (SemLoc.dma cc0_scratch10.sem) hO); iexact Hlv
  iintro ⟨⟨Hpc1, Hbo1⟩, Ho1, HO⟩
  sl_step
  ihave Hpc0 := (Entails.of_eq (pointsTo_congr hZ0)) $$ Hpc0
  ihave Hpc1 := (Entails.of_eq (pointsTo_congr hZ1)) $$ Hpc1
  ihave Hout := (outRows_last' (F := F) m d L (Scf.trips k0_t1_loop.lb k0_t1_loop.ub k0_t1_loop.st) rfl) $$ [Hrows Hpc0 Hpc1]
  · isplitl [Hrows]; · iexact Hrows
    isplitl [Hpc0]; · iexact Hpc0
    iexact Hpc1
  ihave HT0 := (Entails.of_eq (toks0_back (F := F) d L (tab0 m d))) $$ [T0b0 T0b1]
  · isplitl [T0b0]; · iexact T0b0
    iexact T0b1
  ihave HT1 := (Entails.of_eq (toks1_back (F := F) d L (tab1 m d))) $$ [T1b0 T1b1]
  · isplitl [T1b0]; · iexact T1b0
    iexact T1b1
  ihave HsA := (scrA_rejoin (F := F) d L f2) $$ [SA0 SA1]
  · isplitl [SA0]; · iexact SA0
    iexact SA1
  ihave HsB := (scrB_rejoin (F := F) d L f3) $$ [SB0 SB1]
  · isplitl [SB0]; · iexact SB0
    iexact SB1
  ihave HsO := (scrO_rejoin (F := F) d L f4) $$ [Hbo0 Hbo1]
  · isplitl [Hbo0]; · iexists _; iexact Hbo0
    iexists _; iexact Hbo1
  isplitl [Hu Hi HT0 HT1 Hout]
  · unfold tdPay tilePay
    isplitl [Hu]; · iexact Hu
    isplitl [Hi]; · iexact Hi
    isplitl [HT0]; · iexact HT0
    isplitl [HT1]; · iexact HT1
    iexact Hout
  isplitl [Hs0 Hs1 HsA HsB HsO Hbufs]
  · isplitl [Hs0]; · iexists _; iexact Hs0
    isplitl [Hs1]; · iexists _; iexact Hs1
    isplitl [HsA]; · iexact HsA
    isplitl [HsB]; · iexact HsB
    isplitl [HsO]; · iexact HsO
    iexact Hbufs
  isplitl [Hu0 Hu1 Hi0 Hi1 Ho0 Ho1 Hr0 Hr1 Hsems]
  · isplitl [Hu0]; · iexact Hu0
    isplitl [Hu1]; · iexact Hu1
    isplitl [Hi0]; · iexact Hi0
    isplitl [Hi1]; · iexact Hi1
    isplitl [Ho0]; · iexact Ho0
    isplitl [Ho1]; · iexact Ho1
    isplitl [Hr0]; · iexact Hr0
    isplitl [Hr1]; · iexact Hr1
    iexact Hsems
  iexists _; isplitr
  rotate_left
  · iexact HO
  · ipureintro
    intro p hp
    rcases Finset.mem_insert.mp hp with h | hp
    · exact .inr (h ▸ rfl)
    rcases Finset.mem_insert.mp hp with h | hp
    · exact .inr (h ▸ rfl)
    exact hW' p hp

/-- Every subcore does its task. -/
theorem tileSpec (hF : (K (F := F)).Facts) (hpre : PreOK m) : TileSpec (F := F) m :=
  fun d L O W hO => tile_body2 m d L hF hpre O W hO

end Cert.Proof.KI

end
-- ==== Proof.SlotsK.lean ====
/-
  How a vector subcore's scratch buffers and its rows of the result divide into the pieces its copies address.

  The two block scratches have shape [2, 16, 8, 32]: two buffers of sixteen slots, a slot one 8-row block of a
  table. A buffer is the scratch restricted to one leading coordinate, with that unit axis dropped; a slot is a
  buffer restricted to one leading coordinate. Dropping a unit axis keeps the row-major order, so the elements of
  slot j of buffer b are exactly the indices (b, j, ·, ·) of the scratch: the 32 slots are pairwise disjoint and
  cover it, and the 16 slots of one buffer cover that buffer. So the scratch held whole is its 32 slots held
  apart, a buffer is its 16 slots, and sixteen slots held at sixteen different contents are the buffer held at the
  function that is the j-th contents on slot j. The output staging scratch [2, 2, 8, 32] is its two halves in the
  same way.

  The subcore's 512 rows of the result are written through the result's reshape to [2048, 8, 32], two pieces of
  two 8-row blocks per trip of the loop: 32 row ranges of 16 rows that partition the subcore's rows (below).
-/
import proofs.«219339_g11596411699725_week1_w4_1023_23_alg».proof.Proof.IfaceK
import proofs.«219339_g11596411699725_week1_w4_1023_23_alg».proof.Proof.Gen.Kernel

noncomputable section

namespace Cert.Proof.K

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## In-bounds facts at a symbolic buffer and slot -/

theorem inb_buf16 (b : Fin 2) : ∀ a, (![b.val, 0, 0, 0] : Fin 4 → Nat) a + S1x16x8x32.size a ≤ S2x16x8x32.size a := by
  revert b; decide
theorem inb_slot (j : Fin 16) : ∀ a, (![j.val, 0, 0] : Fin 3 → Nat) a + S1x8x32.size a ≤ S16x8x32.size a := by
  revert j; decide
theorem inb_buf2 (b : Fin 2) : ∀ a, (![b.val, 0, 0, 0] : Fin 4 → Nat) a + S1x2x8x32.size a ≤ S2x2x8x32.size a := by
  revert b; decide

/-! ## The user table's block scratch -/

/-- Buffer b of the user table's block scratch: the scratch at leading coordinate b, the unit axis dropped. -/
abbrev bufA (b : Fin 2) : Memref sig .scVector .vmem S16x8x32 .f32 :=
  ((Memref.whole cc0_scratch2).slice (Rect.unit (s := S2x16x8x32) ![b.val, 0, 0, 0] S1x16x8x32.size (inb_buf16 b)) (fun _ => rfl)).squeeze S16x8x32
    squeezes_S1x16x8x32_S16x8x32

/-- Slot j of buffer b: one 8-row block. -/
abbrev slotA (b : Fin 2) (j : Fin 16) : Memref sig .scVector .vmem S1x8x32 .f32 :=
  (bufA b).slice (Rect.unit (s := S16x8x32) ![j.val, 0, 0] S1x8x32.size (inb_slot j)) (fun _ => rfl)

/-- The elements of buffer b and of slot (b, j), as sets of indices of the scratch. -/
abbrev bufASet (b : Fin 2) : Finset S2x16x8x32.Idx := (bufA b).view.set
abbrev slotASet (b : Fin 2) (j : Fin 16) : Finset S2x16x8x32.Idx := (slotA b j).view.set

/-- Where buffer b puts its index (j, r, f): at (b, j, r, f) of the scratch. -/
theorem bufA_emb (b : Fin 2) (x : S16x8x32.Idx) :
    (bufA b).view.emb x = (ix4 b (x 0) (x 1) (x 2) : S2x16x8x32.Idx) := by
  show (Rect.unit (s := S2x16x8x32) ![b.val, 0, 0, 0] S1x16x8x32.size (inb_buf16 b)).emb
      (Shape.reshapeEquiv squeezes_S1x16x8x32_S16x8x32.numel_eq x) = _
  rw [Shape.reshapeEquiv_eq_of_rowMajor _ (y := (ix4 (0 : Fin 1) (x 0) (x 1) (x 2) : S1x16x8x32.Idx))
    (by rw [Shape.rowMajor_val_four, Shape.rowMajor_val_three]
        show ((0 * 16 + (x 0).val) * 8 + (x 1).val) * 32 + (x 2).val = ((x 0).val * 8 + (x 1).val) * 32 + (x 2).val
        omega)]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The elements of a buffer: the scratch's indices with leading coordinate b. -/
theorem mem_bufA (b : Fin 2) (i : S2x16x8x32.Idx) : i ∈ bufASet b ↔ (i 0).val = b.val := by
  have e : bufASet b = (Rect.unit (s := S2x16x8x32) ![b.val, 0, 0, 0] S1x16x8x32.size (inb_buf16 b)).set := by
    show (((View.whole (cc0_scratch2 : Ref sig .scVector)).slice
      (Rect.unit (s := S2x16x8x32) ![b.val, 0, 0, 0] S1x16x8x32.size (inb_buf16 b))).reshape S16x8x32
        squeezes_S1x16x8x32_S16x8x32.numel_eq).set = _
    rw [View.set_reshape]; exact View.set_slice_whole _ _
  rw [e, Rect.mem_set_unit]
  constructor
  · intro h
    have h0 := h 0
    change b.val ≤ (i 0).val ∧ (i 0).val < b.val + 1 at h0
    omega
  · intro h a
    match a with
    | ⟨0, _⟩ => change b.val ≤ (i 0).val ∧ (i 0).val < b.val + 1; omega
    | ⟨1, _⟩ => change 0 ≤ (i 1).val ∧ (i 1).val < 0 + 16; have := (i 1).isLt; change (i 1).val < 16 at this; omega
    | ⟨2, _⟩ => change 0 ≤ (i 2).val ∧ (i 2).val < 0 + 8; have := (i 2).isLt; change (i 2).val < 8 at this; omega
    | ⟨3, _⟩ => change 0 ≤ (i 3).val ∧ (i 3).val < 0 + 32; have := (i 3).isLt; change (i 3).val < 32 at this; omega

/-- The elements of a slot: the scratch's indices (b, j, ·, ·). -/
theorem mem_slotA (b : Fin 2) (j : Fin 16) (i : S2x16x8x32.Idx) :
    i ∈ slotASet b j ↔ (i 0).val = b.val ∧ (i 1).val = j.val := by
  have e : slotASet b j = (Rect.unit (s := S16x8x32) ![j.val, 0, 0] S1x8x32.size (inb_slot j)).set.map (bufA b).view.emb :=
    View.set_slice (bufA b).view _
  rw [e, Finset.mem_map]
  constructor
  · rintro ⟨x, hx, rfl⟩
    rw [Rect.mem_set_unit] at hx
    have h0 := hx 0
    change j.val ≤ (x 0).val ∧ (x 0).val < j.val + 1 at h0
    rw [bufA_emb]
    exact ⟨rfl, show (x 0).val = j.val by omega⟩
  · rintro ⟨h0, h1⟩
    have e1 : i 1 = (j : Fin 16) := Fin.ext h1
    refine ⟨ix3 j (i 2) (i 3), ?_, ?_⟩
    · rw [Rect.mem_set_unit]
      intro a
      match a with
      | ⟨0, _⟩ => change j.val ≤ j.val ∧ j.val < j.val + 1; omega
      | ⟨1, _⟩ => change 0 ≤ (i 2).val ∧ (i 2).val < 0 + 8; have := (i 2).isLt; change (i 2).val < 8 at this; omega
      | ⟨2, _⟩ => change 0 ≤ (i 3).val ∧ (i 3).val < 0 + 32; have := (i 3).isLt; change (i 3).val < 32 at this; omega
    · rw [bufA_emb]
      funext a
      refine Fin.ext ?_
      match a with
      | ⟨0, _⟩ => exact h0.symm
      | ⟨1, _⟩ => exact h1.symm
      | ⟨2, _⟩ => rfl
      | ⟨3, _⟩ => rfl

theorem slotA_disjoint : ∀ p ∈ (Finset.univ : Finset (Fin 2 × Fin 16)), ∀ p' ∈ (Finset.univ : Finset (Fin 2 × Fin 16)), p ≠ p' →
    Disjoint (slotASet p.1 p.2) (slotASet p'.1 p'.2) := by
  intro p _ p' _ hne
  rw [Finset.disjoint_left]
  intro i hi hi'
  have h := (mem_slotA p.1 p.2 i).1 hi
  have h' := (mem_slotA p'.1 p'.2 i).1 hi'
  exact hne (Prod.ext (Fin.ext (by omega)) (Fin.ext (by omega)))

theorem slotA_cover : (Finset.univ : Finset (Fin 2 × Fin 16)).biUnion (fun p => slotASet p.1 p.2) = Finset.univ := by
  ext i
  simp only [Finset.mem_biUnion, Finset.mem_univ, true_and, iff_true]
  exact ⟨((i 0 : Fin 2), (i 1 : Fin 16)), (mem_slotA _ _ i).2 ⟨rfl, rfl⟩⟩

theorem slotA_disjoint_in (b : Fin 2) : ∀ j ∈ (Finset.univ : Finset (Fin 16)), ∀ j' ∈ (Finset.univ : Finset (Fin 16)), j ≠ j' →
    Disjoint (slotASet b j) (slotASet b j') := by
  intro j _ j' _ hne
  rw [Finset.disjoint_left]
  intro i hi hi'
  have h := (mem_slotA b j i).1 hi
  have h' := (mem_slotA b j' i).1 hi'
  exact hne (Fin.ext (by omega))

theorem slotA_cover_in (b : Fin 2) : (Finset.univ : Finset (Fin 16)).biUnion (fun j => slotASet b j) = bufASet b := by
  ext i
  simp only [Finset.mem_biUnion, Finset.mem_univ, true_and]
  constructor
  · rintro ⟨j, hj⟩
    exact (mem_bufA b i).2 ((mem_slotA b j i).1 hj).1
  · intro h
    exact ⟨(i 1 : Fin 16), (mem_slotA b _ i).2 ⟨(mem_bufA b i).1 h, rfl⟩⟩

/-- The user table's block scratch held whole is its 32 slots held apart. -/
theorem scrA_split (d : Dev nD) (L : grid0.Coords) (f : Buf (Elt F) ((V d (cV L) (jV L)).loc cc0_scratch2)) :
    ((Memref.whole cc0_scratch2).view.loc (V d (cV L) (jV L)) ↦{fullShare} f : sProp 𝕄)
      = bigSep Finset.univ fun b : Fin 2 => bigSep Finset.univ fun j : Fin 16 =>
          (slotA b j).view.loc (V d (cV L) (jV L)) ↦[(slotA b j).view.set]{fullShare} f := by
  rw [← bigSep_univ_prod (fun p : Fin 2 × Fin 16 =>
      ((slotA p.1 p.2).view.loc (V d (cV L) (jV L)) ↦[(slotA p.1 p.2).view.set]{fullShare} f : sProp 𝕄)),
    ← pointsTo_biUnion Finset.univ (ℓ := (V d (cV L) (jV L)).loc cc0_scratch2) (fun p : Fin 2 × Fin 16 => slotASet p.1 p.2)
      slotA_disjoint, slotA_cover]; try rfl

/-- A buffer is its 16 slots. -/
theorem bufA_split (d : Dev nD) (L : grid0.Coords) (b : Fin 2) (f : Buf (Elt F) ((V d (cV L) (jV L)).loc cc0_scratch2)) :
    ((bufA b).view.loc (V d (cV L) (jV L)) ↦[(bufA b).view.set]{fullShare} f : sProp 𝕄)
      = bigSep Finset.univ fun j : Fin 16 => (slotA b j).view.loc (V d (cV L) (jV L)) ↦[(slotA b j).view.set]{fullShare} f := by
  rw [← pointsTo_biUnion Finset.univ (ℓ := (V d (cV L) (jV L)).loc cc0_scratch2) (fun j : Fin 16 => slotASet b j)
      (slotA_disjoint_in b), slotA_cover_in b]; try rfl

/-- Sixteen contents, one per slot, as one contents of the scratch: the j-th on the indices (·, j, ·, ·). -/
def joinA (g : Fin 16 → S2x16x8x32.Idx → F .f32) : S2x16x8x32.Idx → F .f32 := fun i => g (i 1) i

/-- The 16 slots of a buffer held at 16 different contents are the buffer held at their join. -/
theorem bufA_join (d : Dev nD) (L : grid0.Coords) (b : Fin 2) (g : Fin 16 → Buf (Elt F) ((V d (cV L) (jV L)).loc cc0_scratch2)) :
    (bigSep Finset.univ fun j : Fin 16 => (slotA b j).view.loc (V d (cV L) (jV L)) ↦[(slotA b j).view.set]{fullShare} g j : sProp 𝕄)
      = ((bufA b).view.loc (V d (cV L) (jV L)) ↦[(bufA b).view.set]{fullShare} (joinA g : Buf (Elt F) ((V d (cV L) (jV L)).loc cc0_scratch2))) := by
  rw [bufA_split d L b]
  refine congrArg (bigSep Finset.univ) (funext fun j => ?_)
  exact pointsTo_congr fun i hi => by
    have h1 : (i 1 : Fin 16) = j := Fin.ext ((mem_slotA b j i).1 hi).2
    show g j i = g (i 1) i
    rw [h1]

/-! ## The item table's block scratch -/

/-- Buffer b of the item table's block scratch: the scratch at leading coordinate b, the unit axis dropped. -/
abbrev bufB (b : Fin 2) : Memref sig .scVector .vmem S16x8x32 .f32 :=
  ((Memref.whole cc0_scratch3).slice (Rect.unit (s := S2x16x8x32) ![b.val, 0, 0, 0] S1x16x8x32.size (inb_buf16 b)) (fun _ => rfl)).squeeze S16x8x32
    squeezes_S1x16x8x32_S16x8x32

/-- Slot j of buffer b: one 8-row block. -/
abbrev slotB (b : Fin 2) (j : Fin 16) : Memref sig .scVector .vmem S1x8x32 .f32 :=
  (bufB b).slice (Rect.unit (s := S16x8x32) ![j.val, 0, 0] S1x8x32.size (inb_slot j)) (fun _ => rfl)

/-- The elements of buffer b and of slot (b, j), as sets of indices of the scratch. -/
abbrev bufBSet (b : Fin 2) : Finset S2x16x8x32.Idx := (bufB b).view.set
abbrev slotBSet (b : Fin 2) (j : Fin 16) : Finset S2x16x8x32.Idx := (slotB b j).view.set

/-- Where buffer b puts its index (j, r, f): at (b, j, r, f) of the scratch. -/
theorem bufB_emb (b : Fin 2) (x : S16x8x32.Idx) :
    (bufB b).view.emb x = (ix4 b (x 0) (x 1) (x 2) : S2x16x8x32.Idx) := by
  show (Rect.unit (s := S2x16x8x32) ![b.val, 0, 0, 0] S1x16x8x32.size (inb_buf16 b)).emb
      (Shape.reshapeEquiv squeezes_S1x16x8x32_S16x8x32.numel_eq x) = _
  rw [Shape.reshapeEquiv_eq_of_rowMajor _ (y := (ix4 (0 : Fin 1) (x 0) (x 1) (x 2) : S1x16x8x32.Idx))
    (by rw [Shape.rowMajor_val_four, Shape.rowMajor_val_three]
        show ((0 * 16 + (x 0).val) * 8 + (x 1).val) * 32 + (x 2).val = ((x 0).val * 8 + (x 1).val) * 32 + (x 2).val
        omega)]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The elements of a buffer: the scratch's indices with leading coordinate b. -/
theorem mem_bufB (b : Fin 2) (i : S2x16x8x32.Idx) : i ∈ bufBSet b ↔ (i 0).val = b.val := by
  have e : bufBSet b = (Rect.unit (s := S2x16x8x32) ![b.val, 0, 0, 0] S1x16x8x32.size (inb_buf16 b)).set := by
    show (((View.whole (cc0_scratch3 : Ref sig .scVector)).slice
      (Rect.unit (s := S2x16x8x32) ![b.val, 0, 0, 0] S1x16x8x32.size (inb_buf16 b))).reshape S16x8x32
        squeezes_S1x16x8x32_S16x8x32.numel_eq).set = _
    rw [View.set_reshape]; exact View.set_slice_whole _ _
  rw [e, Rect.mem_set_unit]
  constructor
  · intro h
    have h0 := h 0
    change b.val ≤ (i 0).val ∧ (i 0).val < b.val + 1 at h0
    omega
  · intro h a
    match a with
    | ⟨0, _⟩ => change b.val ≤ (i 0).val ∧ (i 0).val < b.val + 1; omega
    | ⟨1, _⟩ => change 0 ≤ (i 1).val ∧ (i 1).val < 0 + 16; have := (i 1).isLt; change (i 1).val < 16 at this; omega
    | ⟨2, _⟩ => change 0 ≤ (i 2).val ∧ (i 2).val < 0 + 8; have := (i 2).isLt; change (i 2).val < 8 at this; omega
    | ⟨3, _⟩ => change 0 ≤ (i 3).val ∧ (i 3).val < 0 + 32; have := (i 3).isLt; change (i 3).val < 32 at this; omega

/-- The elements of a slot: the scratch's indices (b, j, ·, ·). -/
theorem mem_slotB (b : Fin 2) (j : Fin 16) (i : S2x16x8x32.Idx) :
    i ∈ slotBSet b j ↔ (i 0).val = b.val ∧ (i 1).val = j.val := by
  have e : slotBSet b j = (Rect.unit (s := S16x8x32) ![j.val, 0, 0] S1x8x32.size (inb_slot j)).set.map (bufB b).view.emb :=
    View.set_slice (bufB b).view _
  rw [e, Finset.mem_map]
  constructor
  · rintro ⟨x, hx, rfl⟩
    rw [Rect.mem_set_unit] at hx
    have h0 := hx 0
    change j.val ≤ (x 0).val ∧ (x 0).val < j.val + 1 at h0
    rw [bufB_emb]
    exact ⟨rfl, show (x 0).val = j.val by omega⟩
  · rintro ⟨h0, h1⟩
    have e1 : i 1 = (j : Fin 16) := Fin.ext h1
    refine ⟨ix3 j (i 2) (i 3), ?_, ?_⟩
    · rw [Rect.mem_set_unit]
      intro a
      match a with
      | ⟨0, _⟩ => change j.val ≤ j.val ∧ j.val < j.val + 1; omega
      | ⟨1, _⟩ => change 0 ≤ (i 2).val ∧ (i 2).val < 0 + 8; have := (i 2).isLt; change (i 2).val < 8 at this; omega
      | ⟨2, _⟩ => change 0 ≤ (i 3).val ∧ (i 3).val < 0 + 32; have := (i 3).isLt; change (i 3).val < 32 at this; omega
    · rw [bufB_emb]
      funext a
      refine Fin.ext ?_
      match a with
      | ⟨0, _⟩ => exact h0.symm
      | ⟨1, _⟩ => exact h1.symm
      | ⟨2, _⟩ => rfl
      | ⟨3, _⟩ => rfl

theorem slotB_disjoint : ∀ p ∈ (Finset.univ : Finset (Fin 2 × Fin 16)), ∀ p' ∈ (Finset.univ : Finset (Fin 2 × Fin 16)), p ≠ p' →
    Disjoint (slotBSet p.1 p.2) (slotBSet p'.1 p'.2) := by
  intro p _ p' _ hne
  rw [Finset.disjoint_left]
  intro i hi hi'
  have h := (mem_slotB p.1 p.2 i).1 hi
  have h' := (mem_slotB p'.1 p'.2 i).1 hi'
  exact hne (Prod.ext (Fin.ext (by omega)) (Fin.ext (by omega)))

theorem slotB_cover : (Finset.univ : Finset (Fin 2 × Fin 16)).biUnion (fun p => slotBSet p.1 p.2) = Finset.univ := by
  ext i
  simp only [Finset.mem_biUnion, Finset.mem_univ, true_and, iff_true]
  exact ⟨((i 0 : Fin 2), (i 1 : Fin 16)), (mem_slotB _ _ i).2 ⟨rfl, rfl⟩⟩

theorem slotB_disjoint_in (b : Fin 2) : ∀ j ∈ (Finset.univ : Finset (Fin 16)), ∀ j' ∈ (Finset.univ : Finset (Fin 16)), j ≠ j' →
    Disjoint (slotBSet b j) (slotBSet b j') := by
  intro j _ j' _ hne
  rw [Finset.disjoint_left]
  intro i hi hi'
  have h := (mem_slotB b j i).1 hi
  have h' := (mem_slotB b j' i).1 hi'
  exact hne (Fin.ext (by omega))

theorem slotB_cover_in (b : Fin 2) : (Finset.univ : Finset (Fin 16)).biUnion (fun j => slotBSet b j) = bufBSet b := by
  ext i
  simp only [Finset.mem_biUnion, Finset.mem_univ, true_and]
  constructor
  · rintro ⟨j, hj⟩
    exact (mem_bufB b i).2 ((mem_slotB b j i).1 hj).1
  · intro h
    exact ⟨(i 1 : Fin 16), (mem_slotB b _ i).2 ⟨(mem_bufB b i).1 h, rfl⟩⟩

/-- The item table's block scratch held whole is its 32 slots held apart. -/
theorem scrB_split (d : Dev nD) (L : grid0.Coords) (f : Buf (Elt F) ((V d (cV L) (jV L)).loc cc0_scratch3)) :
    ((Memref.whole cc0_scratch3).view.loc (V d (cV L) (jV L)) ↦{fullShare} f : sProp 𝕄)
      = bigSep Finset.univ fun b : Fin 2 => bigSep Finset.univ fun j : Fin 16 =>
          (slotB b j).view.loc (V d (cV L) (jV L)) ↦[(slotB b j).view.set]{fullShare} f := by
  rw [← bigSep_univ_prod (fun p : Fin 2 × Fin 16 =>
      ((slotB p.1 p.2).view.loc (V d (cV L) (jV L)) ↦[(slotB p.1 p.2).view.set]{fullShare} f : sProp 𝕄)),
    ← pointsTo_biUnion Finset.univ (ℓ := (V d (cV L) (jV L)).loc cc0_scratch3) (fun p : Fin 2 × Fin 16 => slotBSet p.1 p.2)
      slotB_disjoint, slotB_cover]; try rfl

/-- A buffer is its 16 slots. -/
theorem bufB_split (d : Dev nD) (L : grid0.Coords) (b : Fin 2) (f : Buf (Elt F) ((V d (cV L) (jV L)).loc cc0_scratch3)) :
    ((bufB b).view.loc (V d (cV L) (jV L)) ↦[(bufB b).view.set]{fullShare} f : sProp 𝕄)
      = bigSep Finset.univ fun j : Fin 16 => (slotB b j).view.loc (V d (cV L) (jV L)) ↦[(slotB b j).view.set]{fullShare} f := by
  rw [← pointsTo_biUnion Finset.univ (ℓ := (V d (cV L) (jV L)).loc cc0_scratch3) (fun j : Fin 16 => slotBSet b j)
      (slotB_disjoint_in b), slotB_cover_in b]; try rfl

/-- Sixteen contents, one per slot, as one contents of the scratch: the j-th on the indices (·, j, ·, ·). -/
def joinB (g : Fin 16 → S2x16x8x32.Idx → F .f32) : S2x16x8x32.Idx → F .f32 := fun i => g (i 1) i

/-- The 16 slots of a buffer held at 16 different contents are the buffer held at their join. -/
theorem bufB_join (d : Dev nD) (L : grid0.Coords) (b : Fin 2) (g : Fin 16 → Buf (Elt F) ((V d (cV L) (jV L)).loc cc0_scratch3)) :
    (bigSep Finset.univ fun j : Fin 16 => (slotB b j).view.loc (V d (cV L) (jV L)) ↦[(slotB b j).view.set]{fullShare} g j : sProp 𝕄)
      = ((bufB b).view.loc (V d (cV L) (jV L)) ↦[(bufB b).view.set]{fullShare} (joinB g : Buf (Elt F) ((V d (cV L) (jV L)).loc cc0_scratch3))) := by
  rw [bufB_split d L b]
  refine congrArg (bigSep Finset.univ) (funext fun j => ?_)
  exact pointsTo_congr fun i hi => by
    have h1 : (i 1 : Fin 16) = j := Fin.ext ((mem_slotB b j i).1 hi).2
    show g j i = g (i 1) i
    rw [h1]

/-! ## The subcore's rows of the result

The result [16384, 32] is copied out through its reshape to [2048, 8, 32]: block x₀, row x₁ of the reshape is row
8·x₀ + x₁ of the result (the same row-major position). Trip t of the subcore's loop writes two pieces of two blocks
each, at block offsets 128·s + 64·c + 4·t and two further: the rows [base + 32·t, +16) and [base + 32·t + 16, +16),
`base = 512·(2s + c)` the subcore's first row. Over the 16 trips these 32 row ranges are pairwise disjoint and cover
the subcore's 512 rows. -/

theorem trips_eq : k0_t1_loop.trips = 16 := rfl

/-- The result as the copy-out addresses it: reshaped to [2048, 8, 32]. -/
abbrev oBlocks : Memref sig .scVector .hbm S2048x8x32 .f32 :=
  (oV).reshape S2048x8x32 reshapes_S16384x32_S2048x8x32.1 reshapes_S16384x32_S2048x8x32.2 (Memref.isWhole_whole _).contiguous

/-- The two destinations of trip t's copies out. -/
abbrev piece0 (L : grid0.Coords) (t : Fin k0_t1_loop.trips) : Memref sig .scVector .hbm S2x8x32 .f32 :=
  (oBlocks).slice (Rect.unit (s := S2048x8x32) (k0_off68 L t) S2x8x32.size (k0_off68_inb L t)) (fun _ => rfl)
abbrev piece1 (L : grid0.Coords) (t : Fin k0_t1_loop.trips) : Memref sig .scVector .hbm S2x8x32 .f32 :=
  (oBlocks).slice (Rect.unit (s := S2048x8x32) (k0_off103 L t) S2x8x32.size (k0_off103_inb L t)) (fun _ => rfl)

abbrev piece0Set (L : grid0.Coords) (t : Fin k0_t1_loop.trips) : Finset S16384x32.Idx := (piece0 L t).view.set
abbrev piece1Set (L : grid0.Coords) (t : Fin k0_t1_loop.trips) : Finset S16384x32.Idx := (piece1 L t).view.set

/-- Where the reshape puts its index (blk, r, f): at row 8·blk + r, column f. -/
theorem oBlocks_emb (x : S2048x8x32.Idx) :
    (oBlocks).view.emb x = (ix2 (⟨(x 0).val * 8 + (x 1).val, by
      have h0 : (x 0).val < 2048 := (x 0).isLt
      have h1 : (x 1).val < 8 := (x 1).isLt
      omega⟩ : Fin 16384) (x 2) : S16384x32.Idx) := by
  show Shape.reshapeEquiv reshapes_S16384x32_S2048x8x32.1 x = _
  refine Shape.reshapeEquiv_eq_of_rowMajor _ ?_
  rw [Shape.rowMajor_val_two, Shape.rowMajor_val_three]
  rfl

/-- The elements of two blocks from block offset o: the rows [8·o, 8·o + 16). -/
theorem mem_blocks (off : Fin 3 → Nat) (o : Nat) (ho : off = ![o, 0, 0]) (inb : ∀ a, off a + S2x8x32.size a ≤ S2048x8x32.size a)
    (j : S16384x32.Idx) :
    j ∈ (((oBlocks).slice (Rect.unit (s := S2048x8x32) off S2x8x32.size inb) (fun _ => rfl)).view.set : Finset S16384x32.Idx)
      ↔ 8 * o ≤ (j 0).val ∧ (j 0).val < 8 * o + 16 := by
  subst ho
  have e : (((oBlocks).slice (Rect.unit (s := S2048x8x32) ![o, 0, 0] S2x8x32.size inb) (fun _ => rfl)).view.set : Finset S16384x32.Idx)
      = (Rect.unit (s := S2048x8x32) ![o, 0, 0] S2x8x32.size inb).set.map (oBlocks).view.emb := View.set_slice (oBlocks).view _
  rw [e, Finset.mem_map]
  have hj0 : (j 0).val < 16384 := (j 0).isLt
  constructor
  · rintro ⟨x, hx, rfl⟩
    rw [Rect.mem_set_unit] at hx
    have h0 := hx 0
    change o ≤ (x 0).val ∧ (x 0).val < o + 2 at h0
    have h1 : (x 1).val < 8 := (x 1).isLt
    rw [oBlocks_emb]
    show 8 * o ≤ (x 0).val * 8 + (x 1).val ∧ (x 0).val * 8 + (x 1).val < 8 * o + 16
    omega
  · rintro ⟨hlo, hhi⟩
    refine ⟨ix3 (⟨(j 0).val / 8, by omega⟩ : Fin 2048) (⟨(j 0).val % 8, Nat.mod_lt _ (by decide)⟩ : Fin 8) (j 1), ?_, ?_⟩
    · rw [Rect.mem_set_unit]
      intro a
      match a with
      | ⟨0, _⟩ => change o ≤ (j 0).val / 8 ∧ (j 0).val / 8 < o + 2; omega
      | ⟨1, _⟩ => change 0 ≤ (j 0).val % 8 ∧ (j 0).val % 8 < 0 + 8; omega
      | ⟨2, _⟩ => change 0 ≤ (j 1).val ∧ (j 1).val < 0 + 32; have := (j 1).isLt; change (j 1).val < 32 at this; omega
    · rw [oBlocks_emb]
      funext a
      refine Fin.ext ?_
      match a with
      | ⟨0, _⟩ => show (j 0).val / 8 * 8 + (j 0).val % 8 = (j 0).val; omega
      | ⟨1, _⟩ => rfl

theorem mem_piece0 (L : grid0.Coords) (t : Fin k0_t1_loop.trips) (j : S16384x32.Idx) :
    j ∈ piece0Set L t ↔ base L + 32 * t.val ≤ (j 0).val ∧ (j 0).val < base L + 32 * t.val + 16 := by
  rw [show piece0Set L t = _ from rfl, mem_blocks _ _ (k0_off68_eq L t)]
  unfold base; omega

theorem mem_piece1 (L : grid0.Coords) (t : Fin k0_t1_loop.trips) (j : S16384x32.Idx) :
    j ∈ piece1Set L t ↔ base L + 32 * t.val + 16 ≤ (j 0).val ∧ (j 0).val < base L + 32 * t.val + 32 := by
  rw [show piece1Set L t = _ from rfl, mem_blocks _ _ (k0_off103_eq L t)]
  unfold base; omega

theorem piece_disjoint (L : grid0.Coords) (t : Fin k0_t1_loop.trips) : Disjoint (piece0Set L t) (piece1Set L t) := by
  rw [Finset.disjoint_left]
  intro j h0 h1
  rw [mem_piece0] at h0; rw [mem_piece1] at h1
  omega

/-- The rows trip t writes. -/
abbrev tripSet (L : grid0.Coords) (t : Fin k0_t1_loop.trips) : Finset S16384x32.Idx := piece0Set L t ∪ piece1Set L t

theorem mem_tripSet (L : grid0.Coords) (t : Fin k0_t1_loop.trips) (j : S16384x32.Idx) :
    j ∈ tripSet L t ↔ base L + 32 * t.val ≤ (j 0).val ∧ (j 0).val < base L + 32 * t.val + 32 := by
  rw [Finset.mem_union, mem_piece0, mem_piece1]; omega

theorem trip_disjoint (L : grid0.Coords) : ∀ t ∈ (Finset.univ : Finset (Fin k0_t1_loop.trips)), ∀ t' ∈ (Finset.univ : Finset (Fin k0_t1_loop.trips)),
    t ≠ t' → Disjoint (tripSet L t) (tripSet L t') := by
  intro t _ t' _ hne
  rw [Finset.disjoint_left]
  intro j h h'
  rw [mem_tripSet] at h h'
  exact hne (Fin.ext (by omega))

theorem trip_cover (L : grid0.Coords) : (Finset.univ : Finset (Fin k0_t1_loop.trips)).biUnion (fun t => tripSet L t) = outSet L := by
  ext j
  simp only [Finset.mem_biUnion, Finset.mem_univ, true_and]
  have hout : j ∈ outSet L ↔ base L ≤ (j 0).val ∧ (j 0).val < base L + 512 := by
    unfold outSet; rw [Finset.mem_filter]; exact ⟨fun h => h.2, fun h => ⟨Finset.mem_univ _, h⟩⟩
  rw [hout]
  constructor
  · rintro ⟨t, ht⟩
    rw [mem_tripSet] at ht
    have ht16 : t.val < 16 := t.isLt
    omega
  · intro h
    refine ⟨⟨((j 0).val - base L) / 32, show _ < 16 by omega⟩, ?_⟩
    rw [mem_tripSet]
    dsimp only
    omega

/-- The subcore's rows of the result, held at one function, are the 32 pieces its copies out address, held apart
    at that function. -/
theorem oRows_split (d : Dev nD) (L : grid0.Coords) (f : Buf (Elt F) (oLoc d)) :
    (oLoc d ↦[outSet L]{fullShare} f : sProp 𝕄)
      = bigSep Finset.univ fun t : Fin k0_t1_loop.trips =>
          iprop(((piece0 L t).view.loc (V d (cV L) (jV L)) ↦[(piece0 L t).view.set]{fullShare} f)
            ∗ ((piece1 L t).view.loc (V d (cV L) (jV L)) ↦[(piece1 L t).view.set]{fullShare} f)) := by
  rw [← trip_cover L, pointsTo_biUnion Finset.univ (ℓ := oLoc d) (fun t => tripSet L t) (trip_disjoint L)]
  refine congrArg (bigSep Finset.univ) (funext fun t => ?_)
  have hu : (oLoc d ↦[piece0Set L t ∪ piece1Set L t]{fullShare} f : sProp 𝕄)
      ⊣⊢ iprop((oLoc d ↦[piece0Set L t]{fullShare} f) ∗ oLoc d ↦[piece1Set L t]{fullShare} f) := pointsTo_union (piece_disjoint L t)
  exact BI.equiv_iff.mp ⟨hu.1, hu.2⟩

/-! ## The output staging scratch

Shape [2, 2, 8, 32]: two halves, each two 8-row blocks, the 16 product rows of one chunk. -/

/-- Half b of the staging scratch: the scratch at leading coordinate b, the unit axis dropped. -/
abbrev bufO (b : Fin 2) : Memref sig .scVector .vmem S2x8x32 .f32 :=
  ((Memref.whole cc0_scratch4).slice (Rect.unit (s := S2x2x8x32) ![b.val, 0, 0, 0] S1x2x8x32.size (inb_buf2 b)) (fun _ => rfl)).squeeze S2x8x32
    squeezes_S1x2x8x32_S2x8x32

abbrev bufOSet (b : Fin 2) : Finset S2x2x8x32.Idx := (bufO b).view.set

/-- Where half b puts its index (k, r, f): at (b, k, r, f) of the scratch. -/
theorem bufO_emb (b : Fin 2) (x : S2x8x32.Idx) :
    (bufO b).view.emb x = (ix4 b (x 0) (x 1) (x 2) : S2x2x8x32.Idx) := by
  show (Rect.unit (s := S2x2x8x32) ![b.val, 0, 0, 0] S1x2x8x32.size (inb_buf2 b)).emb
      (Shape.reshapeEquiv squeezes_S1x2x8x32_S2x8x32.numel_eq x) = _
  rw [Shape.reshapeEquiv_eq_of_rowMajor _ (y := (ix4 (0 : Fin 1) (x 0) (x 1) (x 2) : S1x2x8x32.Idx))
    (by rw [Shape.rowMajor_val_four, Shape.rowMajor_val_three]
        show ((0 * 2 + (x 0).val) * 8 + (x 1).val) * 32 + (x 2).val = ((x 0).val * 8 + (x 1).val) * 32 + (x 2).val
        omega)]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The elements of a half: the scratch's indices with leading coordinate b. -/
theorem mem_bufO (b : Fin 2) (i : S2x2x8x32.Idx) : i ∈ bufOSet b ↔ (i 0).val = b.val := by
  have e : bufOSet b = (Rect.unit (s := S2x2x8x32) ![b.val, 0, 0, 0] S1x2x8x32.size (inb_buf2 b)).set := by
    show (((View.whole (cc0_scratch4 : Ref sig .scVector)).slice
      (Rect.unit (s := S2x2x8x32) ![b.val, 0, 0, 0] S1x2x8x32.size (inb_buf2 b))).reshape S2x8x32
        squeezes_S1x2x8x32_S2x8x32.numel_eq).set = _
    rw [View.set_reshape]; exact View.set_slice_whole _ _
  rw [e, Rect.mem_set_unit]
  constructor
  · intro h
    have h0 := h 0
    change b.val ≤ (i 0).val ∧ (i 0).val < b.val + 1 at h0
    omega
  · intro h a
    match a with
    | ⟨0, _⟩ => change b.val ≤ (i 0).val ∧ (i 0).val < b.val + 1; omega
    | ⟨1, _⟩ => change 0 ≤ (i 1).val ∧ (i 1).val < 0 + 2; have := (i 1).isLt; change (i 1).val < 2 at this; omega
    | ⟨2, _⟩ => change 0 ≤ (i 2).val ∧ (i 2).val < 0 + 8; have := (i 2).isLt; change (i 2).val < 8 at this; omega
    | ⟨3, _⟩ => change 0 ≤ (i 3).val ∧ (i 3).val < 0 + 32; have := (i 3).isLt; change (i 3).val < 32 at this; omega

theorem bufO_disjoint : ∀ b ∈ (Finset.univ : Finset (Fin 2)), ∀ b' ∈ (Finset.univ : Finset (Fin 2)), b ≠ b' →
    Disjoint (bufOSet b) (bufOSet b') := by
  intro b _ b' _ hne
  rw [Finset.disjoint_left]
  intro i hi hi'
  rw [mem_bufO] at hi hi'
  exact hne (Fin.ext (by omega))

theorem bufO_cover : (Finset.univ : Finset (Fin 2)).biUnion (fun b => bufOSet b) = Finset.univ := by
  ext i
  simp only [Finset.mem_biUnion, Finset.mem_univ, true_and, iff_true]
  exact ⟨(i 0 : Fin 2), (mem_bufO _ i).2 rfl⟩

/-- The staging scratch held whole is its two halves held apart. -/
theorem scrO_split (d : Dev nD) (L : grid0.Coords) (f : Buf (Elt F) ((V d (cV L) (jV L)).loc cc0_scratch4)) :
    ((Memref.whole cc0_scratch4).view.loc (V d (cV L) (jV L)) ↦{fullShare} f : sProp 𝕄)
      = bigSep Finset.univ fun b : Fin 2 => (bufO b).view.loc (V d (cV L) (jV L)) ↦[(bufO b).view.set]{fullShare} f := by
  rw [← pointsTo_biUnion Finset.univ (ℓ := (V d (cV L) (jV L)).loc cc0_scratch4) (fun b : Fin 2 => bufOSet b) bufO_disjoint, bufO_cover]; try rfl

end Cert.Proof.K

end
-- ==== Proof.RingK.lean ====
/-
  The double-buffered loop of a vector subcore, as separation-logic vocabulary.

  At the top of trip t (chunks 2t and 2t+1 of the subcore's 32 chunks of 16 positions) the sixteen block copies of
  chunk 2t into buffer 0 of each block scratch are in flight: one batch per table on one semaphore, each copy lending
  the block of the reshaped table it reads out of a read token of its own and landing in a slot of its own. Buffer 1
  is free. From trip 1 on, the two copy-outs of the previous trip (its 32 product rows, as two pieces of 16) are in
  flight as well. The rows of earlier trips hold the result function G; the rows of this and later trips their launch
  contents.
-/
import proofs.«219339_g11596411699725_week1_w4_1023_23_alg».proof.Proof.IfaceK
import proofs.«219339_g11596411699725_week1_w4_1023_23_alg».proof.Proof.SlotsK
import Idealize.ShloMosaic.Lib.Batch
import Idealize.ShloMosaic.Lib.Transfers
import Idealize.ShloMosaic.Lib.Pipeline.Kit

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

abbrev thrV (d : Dev nD) (L : grid0.Coords) : Thread nD τ := V d (cV L) (jV L)

abbrev sU : Memref sig .scVector .vmem S512 .i32 := Memref.whole cc0_scratch0
abbrev sI : Memref sig .scVector .vmem S512 .i32 := Memref.whole cc0_scratch1
abbrev sA : Memref sig .scVector .vmem S2x16x8x32 .f32 := Memref.whole cc0_scratch2
abbrev sB : Memref sig .scVector .vmem S2x16x8x32 .f32 := Memref.whole cc0_scratch3
abbrev sO : Memref sig .scVector .vmem S2x2x8x32 .f32 := Memref.whole cc0_scratch4

/-- An index word below a million is non-negative as a signed word, so its arithmetic shift by three is its quotient by eight. -/
theorem shr3_lt (x : BitVec 32) (hx : x.toNat < 1000000) : (IntOp.shrsi .vector x 3#32).toNat < 125000 := by
  have hm : x.msb = false := by
    rw [BitVec.msb_eq_false_iff_two_mul_lt]; omega
  unfold IntOp.shrsi
  rw [if_pos (by decide)]
  show (x.sshiftRight (3#32).toNat).toNat < 125000
  rw [BitVec.toNat_sshiftRight_of_msb_false hm]
  show x.toNat >>> 3 < 125000
  rw [Nat.shiftRight_eq_div_pow]; omega

/-- A block number below 125000 names a whole block of the reshaped table. -/
theorem chk_of_lt {w : BitVec 32} (h : w.toNat < 125000) (a : Fin 3) :
    (![w.toNat, 0, 0] : Fin 3 → ℕ) a + S1x8x32.size a ≤ S125000x8x32.size a := by
  match a with
  | ⟨0, _⟩ => show w.toNat + 1 ≤ 125000; omega
  | ⟨1, _⟩ => show 0 + 8 ≤ 8; omega
  | ⟨2, _⟩ => show 0 + 32 ≤ 32; omega

/-- One lane of the shifted index vector, as the body extracts it. -/
theorem lane_lt (v : IVec S16 32) (hv : ∀ x, (v x).toNat < 1000000) (off : Fin S16.rank → ℕ) (hs : S16.Slices off S1)
    (hp : ∀ a, (![0] : Fin S1.rank → ℕ) a < S1.size a) :
    (extractAt ![0] (extractStridedSlice S1 off (shrsi v (broadcast S16 3#32)) hs) hp).toNat < 125000 :=
  shr3_lt _ (hv _)

theorem slices16 : ∀ j : Fin 16, S16.Slices ![j.val] S1 := by decide

/-- Lane `j` of a loaded index vector, shifted: the block number the body computes. -/
abbrev wordOf (vec : IVec S16 32) (j : Fin 16) : BitVec 32 :=
  extractAt ![0] (extractStridedSlice S1 ![j.val] (shrsi vec (broadcast S16 3#32)) (slices16 j)) inpos_S1_p0

/-- The sixteen positions of an index scratch from offset `off` on, as the body loads them. -/
abbrev vecAt (s : Memref sig .scVector .vmem S512 .i32) (c : Buf (Elt F) (s.view.loc (thrV d L))) (off : Fin 1 → ℕ)
    (h : ∀ a, off a + S16.size a ≤ S512.size a) : IVec S16 32 :=
  s.view.readAt (Elt F) (Rect.unit (s := S512) off S16.size h).toLoadRect c

/-- The block of a reshaped table that a word below 125000 names. -/
abbrev blkSrc (tV : Memref sig .scVector .hbm S125000x8x32 .f32) (w : BitVec 32) (hw : w.toNat < 125000) : Memref sig .scVector .hbm S1x8x32 .f32 :=
  tV.slice (Rect.unit (s := S125000x8x32) ![w.toNat, 0, 0] S1x8x32.size (chk_of_lt hw)) (fun _ => rfl)

variable [∀ e, Nonempty (Elt F e)]

/-- One delivery of a batch of block copies: the slot holding the block, and the block's share of the table back (at the
    table's own location). -/
abbrev deliv1 (slot : Memref sig .scVector .vmem S1x8x32 .f32) (tV : Memref sig .scVector .hbm S125000x8x32 .f32) (w : BitVec 32)
    (hw : w.toNat < 125000) (q : PosShare TreeShare) (tab : Buf (Elt F) (tV.view.loc (thrV d L))) : sProp 𝕄 :=
  iprop((slot.view.loc (thrV d L) ↦[slot.view.set]{fullShare}
        slot.view.writes (Elt F) slot.view.junk [⟨Rect.whole S1x8x32, ReadAs.same.apply ((blkSrc tV w hw).view.read (Elt F) tab)⟩])
      ∗ (tV.view.loc (thrV d L) ↦[(blkSrc tV w hw).view.set]{q} tab))

/-- The token number of slot `j` of buffer `b`. -/
abbrev tokOf (b : Fin 2) (j : Fin 16) : Fin 32 := ⟨16 * b.val + j.val, by have := b.isLt; have := j.isLt; omega⟩

/-- The batch of sixteen block copies into the slots `slot j` out of table `tV` on semaphore `sem`, for the block
    numbers `w`: `k` issued, `u` units consumed. -/
abbrev ringBatch (slot : Fin 16 → Memref sig .scVector .vmem S1x8x32 .f32) (tV : Memref sig .scVector .hbm S125000x8x32 .f32)
    (tab : Buf (Elt F) ((tV).view.loc (thrV d L))) (sem : DmaSem sig) (b : Fin 2) (w : Fin 16 → BitVec 32)
    (hw : ∀ j : Fin 16, (w j).toNat < 125000) (k u : ℕ) : sProp 𝕄 :=
  Transfers.Batch (countersEmb (U := UU)) (thrV d L) (SemLoc.dma (sig := sig) sem) (default : HIx 1) 8192
    (fun j : Fin 16 => deliv1 (F := F) d L (slot j) tV (w j) (hw j) (shareTokN fullShare (tokIx L (tokOf b j))) tab) k u

/-- The rest of token `tokOf b j` while its block is lent; the token whole; a slot held by its own elements. -/
abbrev tokRest (tV : Memref sig .scVector .hbm S125000x8x32 .f32) (tab : Buf (Elt F) ((tV).view.loc (thrV d L))) (b : Fin 2) (w : Fin 16 → BitVec 32)
    (hw : ∀ j : Fin 16, (w j).toNat < 125000) (j : Fin 16) : sProp 𝕄 :=
  (tV).view.loc (thrV d L) ↦[Finset.univ \ (blkSrc tV (w j) (hw j)).view.set]{shareTokN fullShare (tokIx L (tokOf b j))} tab
abbrev tokWhole (tV : Memref sig .scVector .hbm S125000x8x32 .f32) (tab : Buf (Elt F) ((tV).view.loc (thrV d L))) (b : Fin 2) (j : Fin 16) : sProp 𝕄 :=
  (tV).view.loc (thrV d L) ↦{shareTokN fullShare (tokIx L (tokOf b j))} tab
abbrev slotHeld (slot : Memref sig .scVector .vmem S1x8x32 .f32) (f : Buf (Elt F) (slot.view.loc (thrV d L))) : sProp 𝕄 :=
  slot.view.loc (thrV d L) ↦[slot.view.set]{fullShare} f

/-- Trip number `n` as the loop counts it. -/
abbrev tripOf (n : ℕ) (h : n < 16) : Fin k0_t1_loop.trips := ⟨n, h⟩

/-- A copy-out in flight delivers: the piece of the result written with the staging half, and the staging half back. -/
abbrev outDeliv (piece : Memref sig .scVector .hbm S2x8x32 .f32) (fd : Buf (Elt F) (piece.view.loc (thrV d L))) (p : Fin 2)
    (Z : Buf (Elt F) ((bufO p).view.loc (thrV d L))) : sProp 𝕄 :=
  iprop((piece.view.loc (thrV d L) ↦[piece.view.set]{fullShare}
        piece.view.writes (Elt F) fd [⟨Rect.whole S2x8x32, ReadAs.same.apply ((bufO p).view.read (Elt F) Z)⟩])
      ∗ ((bufO p).view.loc (thrV d L) ↦[(bufO p).view.set]{fullShare} Z))

/-- The rows of the result at trip boundary `t`: trips before the previous one hold `G`, the previous trip's two pieces
    are in flight, this and later trips' pieces hold the launch contents. -/
def outRows (t : ℕ) : sProp 𝕄 :=
  bigSep Finset.univ fun t' : Fin k0_t1_loop.trips =>
    if t'.val + 1 < t then
      iprop(((piece0 L t').view.loc (thrV d L) ↦[(piece0 L t').view.set]{fullShare} G m d)
        ∗ ((piece1 L t').view.loc (thrV d L) ↦[(piece1 L t').view.set]{fullShare} G m d))
    else if t ≤ t'.val then
      iprop(((piece0 L t').view.loc (thrV d L) ↦[(piece0 L t').view.set]{fullShare} m (oLoc d))
        ∗ ((piece1 L t').view.loc (thrV d L) ↦[(piece1 L t').view.set]{fullShare} m (oLoc d)))
    else iprop(emp)

/-- The previous trip's two copy-outs in flight, each carrying product rows that agree with `G` on its piece. -/
def outFlightsAt (tp : Fin k0_t1_loop.trips) : sProp 𝕄 :=
  iprop(∃ (Z0 : Buf (Elt F) ((bufO 0).view.loc (thrV d L))) (Z1 : Buf (Elt F) ((bufO 1).view.loc (thrV d L))),
    ⌜(∀ j ∈ piece0Set L tp,
        (piece0 L tp).view.writes (Elt F) (m (oLoc d)) [⟨Rect.whole S2x8x32, ReadAs.same.apply ((bufO 0).view.read (Elt F) Z0)⟩] j = G m d j)
      ∧ (∀ j ∈ piece1Set L tp,
        (piece1 L tp).view.writes (Elt F) (m (oLoc d)) [⟨Rect.whole S2x8x32, ReadAs.same.apply ((bufO 1).view.read (Elt F) Z1)⟩] j = G m d j)⌝
    ∗ Transfers.Flight (countersEmb (U := UU)) (thrV d L) (SemLoc.dma (sig := sig) cc0_scratch9.sem) (default : HIx 1) 16384
        (outDeliv (F := F) d L (piece0 L tp) (m (oLoc d)) 0 Z0)
    ∗ Transfers.Flight (countersEmb (U := UU)) (thrV d L) (SemLoc.dma (sig := sig) cc0_scratch10.sem) (default : HIx 1) 16384
        (outDeliv (F := F) d L (piece1 L tp) (m (oLoc d)) 1 Z1))

/-- The staging halves and their semaphores at rest. -/
def outFree : sProp 𝕄 :=
  iprop((∃ f, (bufO 0).view.loc (thrV d L) ↦[(bufO 0).view.set]{fullShare} f) ∗ (∃ f, (bufO 1).view.loc (thrV d L) ↦[(bufO 1).view.set]{fullShare} f)
    ∗ semVal (thrV d L, SemLoc.dma cc0_scratch9.sem) 0 ∗ semVal (thrV d L, SemLoc.dma cc0_scratch10.sem) 0)

theorem pred_lt {t : ℕ} (h : 0 < t ∧ t ≤ 16) : t - 1 < 16 := by omega

/-- What the staging halves and their semaphores are at trip boundary `t`: free before the first trip; afterwards the
    previous trip's two copy-outs in flight. -/
def outFlights (t : ℕ) : sProp 𝕄 :=
  if ht : 0 < t ∧ t ≤ 16 then outFlightsAt m d L (tripOf (t - 1) (pred_lt ht)) else outFree (F := F) d L

/-- Buffer 0's block copies at trip boundary `t`: in flight for chunk 2t while a trip remains, at rest after the last. -/
def ringIn (su : Buf (Elt F) ((sU).view.loc (thrV d L))) (si : Buf (Elt F) ((sI).view.loc (thrV d L))) (t : ℕ) : sProp 𝕄 :=
  if t < 16 then
    iprop(∃ (wu wi : Fin 16 → BitVec 32) (hwu : ∀ j, (wu j).toNat < 125000) (hwi : ∀ j, (wi j).toNat < 125000),
      ⌜∃ (off : Fin 1 → ℕ) (h : ∀ a, off a + S16.size a ≤ S512.size a), off = ![32 * t]
          ∧ wu = (fun j => wordOf (vecAt (F := F) d L sU su off h) j) ∧ wi = (fun j => wordOf (vecAt (F := F) d L sI si off h) j)⌝
      ∗ ringBatch (F := F) d L (slotA 0) t0V (tab0 m d) cc0_scratch5.sem 0 wu hwu 16 0
      ∗ ringBatch (F := F) d L (slotB 0) t1V (tab1 m d) cc0_scratch7.sem 0 wi hwi 16 0
      ∗ (bigSep Finset.univ fun j : Fin 16 => tokRest (F := F) d L t0V (tab0 m d) 0 wu hwu j)
      ∗ (bigSep Finset.univ fun j : Fin 16 => tokRest (F := F) d L t1V (tab1 m d) 0 wi hwi j))
  else
    iprop((bigSep Finset.univ fun j : Fin 16 => iprop(∃ f, slotHeld (F := F) d L (slotA 0 j) f))
      ∗ (bigSep Finset.univ fun j : Fin 16 => iprop(∃ f, slotHeld (F := F) d L (slotB 0 j) f))
      ∗ (bigSep Finset.univ fun j : Fin 16 => tokWhole (F := F) d L t0V (tab0 m d) 0 j)
      ∗ (bigSep Finset.univ fun j : Fin 16 => tokWhole (F := F) d L t1V (tab1 m d) 0 j)
      ∗ semVal (thrV d L, SemLoc.dma cc0_scratch5.sem) 0 ∗ semVal (thrV d L, SemLoc.dma cc0_scratch7.sem) 0)

/-- The loop's invariant at trip boundary `t`. -/
def ringInv (su : Buf (Elt F) ((sU).view.loc (thrV d L))) (si : Buf (Elt F) ((sI).view.loc (thrV d L)))
    (O : CellTallies nD τ sig (HIx 1)) (W : Waits sig (HIx 1)) (t : ℕ) (_ : PUnit) : sProp 𝕄 :=
  iprop(Transfers.MayWaits (thrV d L) (none : HIx 1) O
    ∗ ((sU).view.loc (thrV d L) ↦{fullShare} su) ∗ ((sI).view.loc (thrV d L) ↦{fullShare} si)
    ∗ ringIn m d L su si t
    ∗ (bigSep Finset.univ fun j : Fin 16 => tokWhole (F := F) d L t0V (tab0 m d) 1 j)
    ∗ (bigSep Finset.univ fun j : Fin 16 => tokWhole (F := F) d L t1V (tab1 m d) 1 j)
    ∗ (bigSep Finset.univ fun j : Fin 16 => iprop(∃ f, slotHeld (F := F) d L (slotA 1 j) f))
    ∗ (bigSep Finset.univ fun j : Fin 16 => iprop(∃ f, slotHeld (F := F) d L (slotB 1 j) f))
    ∗ semVal (thrV d L, SemLoc.dma cc0_scratch6.sem) 0 ∗ semVal (thrV d L, SemLoc.dma cc0_scratch8.sem) 0
    ∗ outFlights m d L t ∗ outRows m d L t
    ∗ ∃ W', ⌜∀ p ∈ W', p ∈ W ∨ p.2 = none⌝ ∗ owes (thrV d L) O W')

end Cert.Proof.K

end
-- ==== Proof.ExtractPureK.lean ====
/-
  The inner loop of a subcore's chunk, as pure data.

  A chunk holds 16 batch positions, one per lane. For lane x the scratch of a table holds the 8-row block the
  position's index names, at row x of a [16, 8, 32] buffer; the position's row inside the block is the word w x of a
  lane vector (w x < 8). Trip f of the loop (f = 0 … 31) gathers, over the 16 lanes, entry (x, w x, f) of each table's
  buffer, multiplies the two gathered vectors lane by lane, and scatters the products to entries (x / 8, x % 8, f) of
  a [2, 8, 32] buffer. The 16 targets of one trip are pairwise distinct (distinct lanes have distinct (x / 8, x % 8)),
  so each receives its own lane's product; and a trip writes column f only, so what earlier trips wrote stays. After
  k trips every entry of the columns below k is the product the lane owes it (`Done k`); after 32, the whole buffer.
-/
import proofs.«219339_g11596411699725_week1_w4_1023_23_alg».proof.Proof.IfaceK

noncomputable section

namespace Cert.Proof.K

open Cert.Kernel Cert.Kernel.Gen

open Idealize.ShloMosaic

variable {F : FTy → Type} [FloatOps F]

/-! ## A scatter over pairwise distinct targets, read at an index -/

section Scatter

variable {s : Shape} {e : EltTy} {d : Fin 1 → Nat}

/-- One lane of an unmasked, non-adding scatter: the named entry takes the lane's value. -/
def putLane (idxs : Fin s.rank → IVec ⟨1, d⟩ 32) (v : Vec F ⟨1, d⟩ e) (g : Vec F s e) (k : Fin (d 0)) : Vec F s e :=
  fun j => if (∀ a, (j a).val = (idxs a (Shape.ofLane k)).toNat) then v (Shape.ofLane k) else g j

theorem storeIdx_eq_foldl (g : Vec F s e) (idxs : Fin s.rank → IVec ⟨1, d⟩ 32) (v : Vec F ⟨1, d⟩ e)
    (h : ∀ a x, (idxs a x).toNat < s.size a) :
    storeIdx g idxs v (fun _ => 1#1) false h = (List.finRange (d 0)).foldl (putLane idxs v) g := by
  unfold storeIdx
  congr 1
  funext g' k
  unfold putLane
  simp only [idxAt, BitVec.ofNat_eq_ofNat, ↓reduceIte, Bool.false_eq_true]

theorem foldl_putLane_keep (idxs : Fin s.rank → IVec ⟨1, d⟩ 32) (v : Vec F ⟨1, d⟩ e) (j : s.Idx) :
    ∀ (l : List (Fin (d 0))) (g : Vec F s e), (∀ k ∈ l, ¬ ∀ a, (j a).val = (idxs a (Shape.ofLane k)).toNat) → l.foldl (putLane idxs v) g j = g j := by
  intro l
  induction l with
  | nil => intro g _; rfl
  | cons k l ih =>
    intro g hn
    rw [List.foldl_cons, ih _ fun k' hk' => hn k' (List.mem_cons_of_mem _ hk')]
    exact if_neg (hn k (List.mem_cons_self ..))

theorem foldl_putLane_hit (idxs : Fin s.rank → IVec ⟨1, d⟩ 32) (v : Vec F ⟨1, d⟩ e) (j : s.Idx) (k : Fin (d 0))
    (hk : ∀ a, (j a).val = (idxs a (Shape.ofLane k)).toNat) :
    ∀ (l : List (Fin (d 0))) (g : Vec F s e), k ∈ l → (∀ k' ∈ l, (∀ a, (j a).val = (idxs a (Shape.ofLane k')).toNat) → k' = k) →
      l.foldl (putLane idxs v) g j = v (Shape.ofLane k) := by
  intro l
  induction l with
  | nil => intro g hm; exact absurd hm (List.not_mem_nil)
  | cons k0 l ih =>
    intro g hm hu
    rw [List.foldl_cons]
    by_cases hl : k ∈ l
    · exact ih _ hl fun k' hk' => hu k' (List.mem_cons_of_mem _ hk')
    · have h0 : k0 = k := by
        rcases List.mem_cons.mp hm with h | h
        · exact h.symm
        · exact absurd h hl
      subst h0
      rw [foldl_putLane_keep idxs v j l _ fun k' hk' hk'' => hl ((hu k' (List.mem_cons_of_mem _ hk') hk'') ▸ hk')]
      exact if_pos hk

/-- The scatter read at an entry some lane names: that lane's value, when no other lane names the entry. -/
theorem storeIdx_hit (g : Vec F s e) (idxs : Fin s.rank → IVec ⟨1, d⟩ 32) (v : Vec F ⟨1, d⟩ e) (h : ∀ a x, (idxs a x).toNat < s.size a)
    (hinj : ∀ k k' : Fin (d 0), (∀ a, (idxs a (Shape.ofLane k)).toNat = (idxs a (Shape.ofLane k')).toNat) → k = k')
    (j : s.Idx) (k : Fin (d 0)) (hk : ∀ a, (j a).val = (idxs a (Shape.ofLane k)).toNat) :
    storeIdx g idxs v (fun _ => 1#1) false h j = v (Shape.ofLane k) := by
  rw [storeIdx_eq_foldl]
  exact foldl_putLane_hit idxs v j k hk _ g (List.mem_finRange k) fun k' _ hk' => hinj k' k fun a => (hk' a).symm.trans (hk a)

/-- The scatter read at an entry no lane names: what was there. -/
theorem storeIdx_keep (g : Vec F s e) (idxs : Fin s.rank → IVec ⟨1, d⟩ 32) (v : Vec F ⟨1, d⟩ e) (h : ∀ a x, (idxs a x).toNat < s.size a)
    (j : s.Idx) (hn : ∀ k : Fin (d 0), ¬ ∀ a, (j a).val = (idxs a (Shape.ofLane k)).toNat) :
    storeIdx g idxs v (fun _ => 1#1) false h j = g j := by
  rw [storeIdx_eq_foldl]
  exact foldl_putLane_keep idxs v j _ g fun k _ => hn k

end Scatter

/-! ## The lanes and the trip number -/

/-- A lane index is the lane of its coordinate. -/
theorem lane_eta (x : S16.Idx) : (Shape.ofLane (d := ![16]) (x 0) : S16.Idx) = x := by
  funext a
  obtain rfl : a = 0 := Subsingleton.elim _ _
  exact Fin.ext rfl

/-- The induction variable of a loop from 0 by 1 is the trip number. -/
theorem iv_toNat (k : Nat) (hk : k < 2 ^ 32) : (Scf.iv 0#32 1#32 k).toNat = k := by
  unfold Scf.iv
  rw [BitVec.zero_add, BitVec.mul_one, BitVec.toNat_ofNat]
  exact Nat.mod_eq_of_lt hk

/-! ## The columns done after `k` trips -/

section Columns

variable (v3 w0 w1 vg vs : IVec S16 32) (X3 Y3 : Vec F S16x8x32 .f32)

/-- Every entry of the columns below `k` that a lane names is that lane's product. -/
def Done (k : Nat) (Z3 : Vec F S2x8x32 .f32) : Prop :=
  ∀ (x : S16.Idx) (jz : S2x8x32.Idx) (jx jy : S16x8x32.Idx), (jz 2).val < k →
    (jz 0).val = (vg x).toNat → (jz 1).val = (vs x).toNat →
    (jx 0).val = (v3 x).toNat → (jx 1).val = (w0 x).toNat → (jx 2).val = (jz 2).val →
    (jy 0).val = (v3 x).toNat → (jy 1).val = (w1 x).toNat → (jy 2).val = (jz 2).val →
    Z3 jz = FloatOps.mulf (X3 jx) (Y3 jy)

theorem Done_zero (Z3 : Vec F S2x8x32 .f32) : Done v3 w0 w1 vg vs X3 Y3 0 Z3 :=
  fun _ _ _ _ h => absurd h (Nat.not_lt_zero _)

/-- One trip: column `k` is written, the columns below it stay. -/
theorem Done_step (k : Nat) (t : BitVec 32) (ht : t.toNat = k) (Z3 : Vec F S2x8x32 .f32)
    (h1 : ∀ a x, ((![v3, w0, broadcast S16 t] : Fin 3 → IVec S16 32) a x).toNat < S16x8x32.size a)
    (h2 : ∀ a x, ((![v3, w1, broadcast S16 t] : Fin 3 → IVec S16 32) a x).toNat < S16x8x32.size a)
    (h3 : ∀ a x, ((![vg, vs, broadcast S16 t] : Fin 3 → IVec S16 32) a x).toNat < S2x8x32.size a)
    (hinj : ∀ x x' : S16.Idx, (vg x).toNat = (vg x').toNat → (vs x).toNat = (vs x').toNat → x = x')
    (hD : Done v3 w0 w1 vg vs X3 Y3 k Z3) :
    Done v3 w0 w1 vg vs X3 Y3 (k + 1)
      (storeIdx Z3 ![vg, vs, broadcast S16 t] (mulf (loadIdx X3 ![v3, w0, broadcast S16 t] h1) (loadIdx Y3 ![v3, w1, broadcast S16 t] h2))
        (fun _ => 1#1) false h3) := by
  intro x jz jx jy hlt hz0 hz1 hx0 hx1 hx2 hy0 hy1 hy2
  by_cases hk : (jz 2).val = k
  · have hnames : ∀ a : Fin 3, (jz a).val = ((![vg, vs, broadcast S16 t] : Fin 3 → IVec S16 32) a (Shape.ofLane (d := ![16]) (x 0))).toNat := by
      rw [lane_eta]
      intro a
      match a with
      | ⟨0, _⟩ => exact hz0
      | ⟨1, _⟩ => exact hz1
      | ⟨2, _⟩ => exact hk.trans ht.symm
    rw [storeIdx_hit Z3 _ _ h3 ?_ jz (x 0) hnames, lane_eta]
    · show FloatOps.mulf (X3 (idxAt _ h1 x)) (Y3 (idxAt _ h2 x)) = _
      have ex : idxAt (![v3, w0, broadcast S16 t] : Fin 3 → IVec S16 32) h1 x = jx := by
        funext a
        apply Fin.ext
        match a with
        | ⟨0, _⟩ => exact hx0.symm
        | ⟨1, _⟩ => exact hx1.symm
        | ⟨2, _⟩ => exact (hx2.trans (hk.trans ht.symm)).symm
      have ey : idxAt (![v3, w1, broadcast S16 t] : Fin 3 → IVec S16 32) h2 x = jy := by
        funext a
        apply Fin.ext
        match a with
        | ⟨0, _⟩ => exact hy0.symm
        | ⟨1, _⟩ => exact hy1.symm
        | ⟨2, _⟩ => exact (hy2.trans (hk.trans ht.symm)).symm
      rw [ex, ey]
    · intro kk kk' hkk
      have e := hinj (Shape.ofLane (d := ![16]) kk) (Shape.ofLane (d := ![16]) kk') (hkk (0 : Fin 3)) (hkk (1 : Fin 3))
      have := congrFun e 0
      exact Fin.ext (Fin.val_eq_of_eq this)
  · rw [storeIdx_keep Z3 _ _ h3 jz fun kk hkk => hk (Eq.trans (hkk (2 : Fin 3)) ht)]
    exact hD x jz jx jy (by omega) hz0 hz1 hx0 hx1 hx2 hy0 hy1 hy2

end Columns

end Cert.Proof.K

end
-- ==== Proof.ExtractK.lean ====
/-
  The inner loop of a subcore's chunk, run: for each of the two buffer halves, the 32 trips that gather the 16 lanes'
  rows out of the two tables' block buffers, multiply them lane by lane and scatter the products into the product
  buffer. Each trip is two indexed loads and one indexed store; an indexed load is a load of the whole buffer half
  followed by the gather, an indexed store a load and a store of the whole half holding the scatter. The loop's
  invariant is that the columns below the trip number are done (`Done`), so after the 32 trips every entry of the
  product buffer half that a lane names holds that lane's product.
-/
import proofs.«219339_g11596411699725_week1_w4_1023_23_alg».proof.Proof.IfaceK
import proofs.«219339_g11596411699725_week1_w4_1023_23_alg».proof.Proof.ExtractPureK
import proofs.«219339_g11596411699725_week1_w4_1023_23_alg».proof.Proof.Gen.Kernel.Skeleton
import Idealize.ShloMosaic.Lib.SparseCore.Ops
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A memref through its whole rectangle is the memref -/

omit [FloatOps F] in
theorem access_whole_set {κ : Kind} {sp : Space} {s : Shape} {e : EltTy} (m : Memref sig κ sp s e) :
    (m.access (Rect.whole s)).set = m.view.set := by
  show (m.view.slice (Rect.whole s)).set = m.view.set
  rw [View.set_slice, Rect.set_whole]; rfl

omit [FloatOps F] in
theorem access_whole_read {κ : Kind} {sp : Space} {s : Shape} {e : EltTy} (m : Memref sig κ sp s e) (f : m.view.ty.Contents (Elt F)) :
    (m.access (Rect.whole s)).read (Elt F) f = m.view.read (Elt F) f := by
  funext x
  show _root_.cast _ (f (m.view.emb ((Rect.whole s).emb x))) = _root_.cast _ (f (m.view.emb x))
  rw [Rect.emb_whole_apply]

/-! ## Buffer 0 -/

/-- Buffer 0 of each table's block scratch as a [16, 8, 32] memref, and of the product scratch as [2, 8, 32]. -/
abbrev bX0 : Memref sig .scVector .vmem S16x8x32 .f32 :=
  ((Memref.whole cc0_scratch2 : Memref sig .scVector .vmem S2x16x8x32 .f32).slice (Rect.unit (s := S2x16x8x32) ![0, 0, 0, 0] S1x16x8x32.size inb_S2x16x8x32_S1x16x8x32_0_0_0_0) (fun _ => rfl)).squeeze S16x8x32 squeezes_S1x16x8x32_S16x8x32
abbrev bY0 : Memref sig .scVector .vmem S16x8x32 .f32 :=
  ((Memref.whole cc0_scratch3 : Memref sig .scVector .vmem S2x16x8x32 .f32).slice (Rect.unit (s := S2x16x8x32) ![0, 0, 0, 0] S1x16x8x32.size inb_S2x16x8x32_S1x16x8x32_0_0_0_0) (fun _ => rfl)).squeeze S16x8x32 squeezes_S1x16x8x32_S16x8x32
abbrev bZ0 : Memref sig .scVector .vmem S2x8x32 .f32 :=
  ((Memref.whole cc0_scratch4 : Memref sig .scVector .vmem S2x2x8x32 .f32).slice (Rect.unit (s := S2x2x8x32) ![0, 0, 0, 0] S1x2x8x32.size inb_S2x2x8x32_S1x2x8x32_0_0_0_0) (fun _ => rfl)).squeeze S2x8x32 squeezes_S1x2x8x32_S2x8x32
/-- The same through their whole rectangles: what the indexed loads and the indexed store go through. -/
abbrev AX0 := (bX0).access (Rect.whole S16x8x32)
abbrev AY0 := (bY0).access (Rect.whole S16x8x32)
abbrev AZ0 := (bZ0).access (Rect.whole S2x8x32)

theorem trips0 : k0_t2_loop.trips = 32 := by decide

section Loop0

variable (d : Dev nD) (L : grid0.Coords) (v2 : BitVec 32) (v3 : IVec S16 32) (k0_t1 : Fin k0_t1_loop.trips) (v348 : BitVec 32)
  (w0 w1 vg vs : IVec S16 32)
  (X : Buf (Elt F) ((AX0).loc (V d (cV L) (jV L)))) (Y : Buf (Elt F) ((AY0).loc (V d (cV L) (jV L))))

/-- Before trip `k`: the two block buffers as they were, the product buffer with the columns below `k` done. -/
def inv0 (k : Nat) (_ : Unit) : sProp 𝕄 :=
  iprop(∃ Zc : Buf (Elt F) ((AZ0).loc (V d (cV L) (jV L))),
    ((AX0).loc (V d (cV L) (jV L)) ↦[(AX0).set]{fullShare} X) ∗ ((AY0).loc (V d (cV L) (jV L)) ↦[(AY0).set]{fullShare} Y)
    ∗ ((AZ0).loc (V d (cV L) (jV L)) ↦[(AZ0).set]{fullShare} Zc)
    ∗ ⌜Done v3 w0 w1 vg vs ((AX0).read (Elt F) X) ((AY0).read (Elt F) Y) k ((AZ0).read (Elt F) Zc)⌝)

/-- One trip: two gathers, the lanes' products, one scatter into column `t`. -/
theorem region0
    (hchk : ∀ t : Fin k0_t2_loop.trips, k0_chk65 v3 w0 w1 vg vs (broadcast S16 (Scf.iv 0#32 1#32 t)))
    (hinj : ∀ x x' : S16.Idx, (vg x).toNat = (vg x').toNat → (vs x).toNat = (vs x').toNat → x = x')
    (t : Fin k0_t2_loop.trips) (u : Unit) :
    inv0 (F := F) d L v3 w0 w1 vg vs X Y t.val u
      ⊢ wp frame (wpE (defs₀ (F := F)) 𝒱₀ (V d (cV L) (jV L)) none) Set.univ
          (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs t u)
          (inv0 (F := F) d L v3 w0 w1 vg vs X Y (t.val + 1)) := by
  unfold inv0 k0_t2_body
  simp only [Prog.lift, Prog.bind_op, Prog.bind_ret, Prog.pure_eq_ret]
  iintro ⟨%Zc, HX, HY, HZ, %hD⟩
  rw [wp_assume_of _ _ _ _ (hchk t)]
  iapply (SparseCore.wp_vectorLoadIdx 𝒱₀ (V d (cV L) (jV L)) none Set.univ (base := bX0) (S := (AX0).set) (q := fullShare) subset_rfl) $$ HX; iintro HX
  iapply (SparseCore.wp_vectorLoadIdx 𝒱₀ (V d (cV L) (jV L)) none Set.univ (base := bY0) (S := (AY0).set) (q := fullShare) subset_rfl) $$ HY; iintro HY
  iapply (SparseCore.wp_vectorStoreIdx 𝒱₀ (V d (cV L) (jV L)) none Set.univ (base := bZ0)) $$ HZ; iintro HZ
  rw [wp_ret]; imodintro
  iexists _
  isplitl [HX]; · iexact HX
  isplitl [HY]; · iexact HY
  isplitl [HZ]; · iexact HZ
  ipureintro
  rw [View.read_write_univ]
  have ht : (Scf.iv 0#32 1#32 t.val).toNat = t.val := iv_toNat t.val (by have h1 := t.isLt; have h2 := trips0; omega)
  exact Done_step v3 w0 w1 vg vs _ _ t.val _ ht _ _ _ _ hinj hD

/-- The loop: from the three buffers, the product buffer ends with every column done. -/
theorem extract0
    (hchk : ∀ t : Fin k0_t2_loop.trips, k0_chk65 v3 w0 w1 vg vs (broadcast S16 (Scf.iv 0#32 1#32 t)))
    (hinj : ∀ x x' : S16.Idx, (vg x).toNat = (vg x').toNat → (vs x).toNat = (vs x').toNat → x = x')
    (Z : Buf (Elt F) ((AZ0).loc (V d (cV L) (jV L)))) :
    iprop(((AX0).loc (V d (cV L) (jV L)) ↦[(AX0).set]{fullShare} X) ∗ ((AY0).loc (V d (cV L) (jV L)) ↦[(AY0).set]{fullShare} Y)
        ∗ ((AZ0).loc (V d (cV L) (jV L)) ↦[(AZ0).set]{fullShare} Z))
      ⊢ wp frame (wpE (defs₀ (F := F)) 𝒱₀ (V d (cV L) (jV L)) none) Set.univ
          (Scf.Loop.for k0_t2_loop k0_t2_ok ⟨⟩ (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs))
          fun _ => (iprop(∃ Z' : Buf (Elt F) ((AZ0).loc (V d (cV L) (jV L))),
            ((AX0).loc (V d (cV L) (jV L)) ↦[(AX0).set]{fullShare} X) ∗ ((AY0).loc (V d (cV L) (jV L)) ↦[(AY0).set]{fullShare} Y)
            ∗ ((AZ0).loc (V d (cV L) (jV L)) ↦[(AZ0).set]{fullShare} Z')
            ∗ ⌜Done v3 w0 w1 vg vs ((AX0).read (Elt F) X) ((AY0).read (Elt F) Y) 32 ((AZ0).read (Elt F) Z')⌝) : sProp 𝕄) := by
  iintro ⟨HX, HY, HZ⟩
  iapply (Scf.wp_for frame (wpE (defs₀ (F := F)) 𝒱₀ (V d (cV L) (jV L)) none) Set.univ k0_t2_loop.lb k0_t2_loop.ub k0_t2_loop.st k0_t2_ok ⟨⟩
    (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs)
    (inv0 (F := F) d L v3 w0 w1 vg vs X Y) (region0 d L v2 v3 k0_t1 v348 w0 w1 vg vs X Y hchk hinj))
  isplitl [HX HY HZ]
  · unfold inv0
    iexists Z
    isplitl [HX]; · iexact HX
    isplitl [HY]; · iexact HY
    isplitl [HZ]; · iexact HZ
    ipureintro; exact Done_zero _ _ _ _ _ _ _ _
  · iintro %_ HI
    unfold inv0
    rw [show Scf.trips k0_t2_loop.lb k0_t2_loop.ub k0_t2_loop.st = 32 from trips0]
    iexact HI

end Loop0

/-! ## Buffer 1 -/

/-- Buffer 1 of each table's block scratch as a [16, 8, 32] memref, and of the product scratch as [2, 8, 32]. -/
abbrev bX1 : Memref sig .scVector .vmem S16x8x32 .f32 :=
  ((Memref.whole cc0_scratch2 : Memref sig .scVector .vmem S2x16x8x32 .f32).slice (Rect.unit (s := S2x16x8x32) ![1, 0, 0, 0] S1x16x8x32.size inb_S2x16x8x32_S1x16x8x32_1_0_0_0) (fun _ => rfl)).squeeze S16x8x32 squeezes_S1x16x8x32_S16x8x32
abbrev bY1 : Memref sig .scVector .vmem S16x8x32 .f32 :=
  ((Memref.whole cc0_scratch3 : Memref sig .scVector .vmem S2x16x8x32 .f32).slice (Rect.unit (s := S2x16x8x32) ![1, 0, 0, 0] S1x16x8x32.size inb_S2x16x8x32_S1x16x8x32_1_0_0_0) (fun _ => rfl)).squeeze S16x8x32 squeezes_S1x16x8x32_S16x8x32
abbrev bZ1 : Memref sig .scVector .vmem S2x8x32 .f32 :=
  ((Memref.whole cc0_scratch4 : Memref sig .scVector .vmem S2x2x8x32 .f32).slice (Rect.unit (s := S2x2x8x32) ![1, 0, 0, 0] S1x2x8x32.size inb_S2x2x8x32_S1x2x8x32_1_0_0_0) (fun _ => rfl)).squeeze S2x8x32 squeezes_S1x2x8x32_S2x8x32
/-- The same through their whole rectangles: what the indexed loads and the indexed store go through. -/
abbrev AX1 := (bX1).access (Rect.whole S16x8x32)
abbrev AY1 := (bY1).access (Rect.whole S16x8x32)
abbrev AZ1 := (bZ1).access (Rect.whole S2x8x32)

theorem trips1 : k0_t3_loop.trips = 32 := by decide

section Loop1

variable (d : Dev nD) (L : grid0.Coords) (v2 : BitVec 32) (v3 : IVec S16 32) (c0 c1 : BitVec 32) (k0_t1 : Fin k0_t1_loop.trips)
  (w0 w1 vg vs : IVec S16 32)
  (X : Buf (Elt F) ((AX1).loc (V d (cV L) (jV L)))) (Y : Buf (Elt F) ((AY1).loc (V d (cV L) (jV L))))

/-- Before trip `k`: the two block buffers as they were, the product buffer with the columns below `k` done. -/
def inv1 (k : Nat) (_ : Unit) : sProp 𝕄 :=
  iprop(∃ Zc : Buf (Elt F) ((AZ1).loc (V d (cV L) (jV L))),
    ((AX1).loc (V d (cV L) (jV L)) ↦[(AX1).set]{fullShare} X) ∗ ((AY1).loc (V d (cV L) (jV L)) ↦[(AY1).set]{fullShare} Y)
    ∗ ((AZ1).loc (V d (cV L) (jV L)) ↦[(AZ1).set]{fullShare} Zc)
    ∗ ⌜Done v3 w0 w1 vg vs ((AX1).read (Elt F) X) ((AY1).read (Elt F) Y) k ((AZ1).read (Elt F) Zc)⌝)

/-- One trip: two gathers, the lanes' products, one scatter into column `t`. -/
theorem region1
    (hchk : ∀ t : Fin k0_t3_loop.trips, k0_chk98 v3 w0 w1 vg vs (broadcast S16 (Scf.iv 0#32 1#32 t)))
    (hinj : ∀ x x' : S16.Idx, (vg x).toNat = (vg x').toNat → (vs x).toNat = (vs x').toNat → x = x')
    (t : Fin k0_t3_loop.trips) (u : Unit) :
    inv1 (F := F) d L v3 w0 w1 vg vs X Y t.val u
      ⊢ wp frame (wpE (defs₀ (F := F)) 𝒱₀ (V d (cV L) (jV L)) none) Set.univ
          (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs t u)
          (inv1 (F := F) d L v3 w0 w1 vg vs X Y (t.val + 1)) := by
  unfold inv1 k0_t3_body
  simp only [Prog.lift, Prog.bind_op, Prog.bind_ret, Prog.pure_eq_ret]
  iintro ⟨%Zc, HX, HY, HZ, %hD⟩
  rw [wp_assume_of _ _ _ _ (hchk t)]
  iapply (SparseCore.wp_vectorLoadIdx 𝒱₀ (V d (cV L) (jV L)) none Set.univ (base := bX1) (S := (AX1).set) (q := fullShare) subset_rfl) $$ HX; iintro HX
  iapply (SparseCore.wp_vectorLoadIdx 𝒱₀ (V d (cV L) (jV L)) none Set.univ (base := bY1) (S := (AY1).set) (q := fullShare) subset_rfl) $$ HY; iintro HY
  iapply (SparseCore.wp_vectorStoreIdx 𝒱₀ (V d (cV L) (jV L)) none Set.univ (base := bZ1)) $$ HZ; iintro HZ
  rw [wp_ret]; imodintro
  iexists _
  isplitl [HX]; · iexact HX
  isplitl [HY]; · iexact HY
  isplitl [HZ]; · iexact HZ
  ipureintro
  rw [View.read_write_univ]
  have ht : (Scf.iv 0#32 1#32 t.val).toNat = t.val := iv_toNat t.val (by have h1 := t.isLt; have h2 := trips1; omega)
  exact Done_step v3 w0 w1 vg vs _ _ t.val _ ht _ _ _ _ hinj hD

/-- The loop: from the three buffers, the product buffer ends with every column done. -/
theorem extract1
    (hchk : ∀ t : Fin k0_t3_loop.trips, k0_chk98 v3 w0 w1 vg vs (broadcast S16 (Scf.iv 0#32 1#32 t)))
    (hinj : ∀ x x' : S16.Idx, (vg x).toNat = (vg x').toNat → (vs x).toNat = (vs x').toNat → x = x')
    (Z : Buf (Elt F) ((AZ1).loc (V d (cV L) (jV L)))) :
    iprop(((AX1).loc (V d (cV L) (jV L)) ↦[(AX1).set]{fullShare} X) ∗ ((AY1).loc (V d (cV L) (jV L)) ↦[(AY1).set]{fullShare} Y)
        ∗ ((AZ1).loc (V d (cV L) (jV L)) ↦[(AZ1).set]{fullShare} Z))
      ⊢ wp frame (wpE (defs₀ (F := F)) 𝒱₀ (V d (cV L) (jV L)) none) Set.univ
          (Scf.Loop.for k0_t3_loop k0_t3_ok ⟨⟩ (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs))
          fun _ => (iprop(∃ Z' : Buf (Elt F) ((AZ1).loc (V d (cV L) (jV L))),
            ((AX1).loc (V d (cV L) (jV L)) ↦[(AX1).set]{fullShare} X) ∗ ((AY1).loc (V d (cV L) (jV L)) ↦[(AY1).set]{fullShare} Y)
            ∗ ((AZ1).loc (V d (cV L) (jV L)) ↦[(AZ1).set]{fullShare} Z')
            ∗ ⌜Done v3 w0 w1 vg vs ((AX1).read (Elt F) X) ((AY1).read (Elt F) Y) 32 ((AZ1).read (Elt F) Z')⌝) : sProp 𝕄) := by
  iintro ⟨HX, HY, HZ⟩
  iapply (Scf.wp_for frame (wpE (defs₀ (F := F)) 𝒱₀ (V d (cV L) (jV L)) none) Set.univ k0_t3_loop.lb k0_t3_loop.ub k0_t3_loop.st k0_t3_ok ⟨⟩
    (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs)
    (inv1 (F := F) d L v3 w0 w1 vg vs X Y) (region1 d L v2 v3 c0 c1 k0_t1 w0 w1 vg vs X Y hchk hinj))
  isplitl [HX HY HZ]
  · unfold inv1
    iexists Z
    isplitl [HX]; · iexact HX
    isplitl [HY]; · iexact HY
    isplitl [HZ]; · iexact HZ
    ipureintro; exact Done_zero _ _ _ _ _ _ _ _
  · iintro %_ HI
    unfold inv1
    rw [show Scf.trips k0_t3_loop.lb k0_t3_loop.ub k0_t3_loop.st = 32 from trips1]
    iexact HI

end Loop1

/-! ## The lanes' own vectors -/

/-- The lane numbers 0 … 15, and from them each lane's pair (x / 8, x % 8): the product buffer's row of lane x. -/
abbrev lanes : IVec S16 32 := iota .scVector S16 32 [0] iota_S16_d0_w32_scVector

omit [FloatOps F] in
theorem lanes_toNat (x : S16.Idx) : (lanes x).toNat = (x 0).val := by
  have h : ∀ l : Fin 16, (lanes (ValueIdx.ix1 l)).toNat = l.val := by decide
  exact (congrArg (fun y => (lanes y).toNat) (ValueIdx.eq_ix1 x)).trans (h (x 0))
theorem pay70_toNat (x : S16.Idx) : (k0_pay70 lanes x).toNat = (x 0).val / 8 := by
  have h : ∀ l : Fin 16, (k0_pay70 lanes (ValueIdx.ix1 l)).toNat = l.val / 8 := by unfold k0_pay70; decide
  exact (congrArg (fun y => (k0_pay70 lanes y).toNat) (ValueIdx.eq_ix1 x)).trans (h (x 0))
theorem pay71_toNat (x : S16.Idx) : (k0_pay71 lanes x).toNat = (x 0).val % 8 := by
  have h : ∀ l : Fin 16, (k0_pay71 lanes (ValueIdx.ix1 l)).toNat = l.val % 8 := by unfold k0_pay71; decide
  exact (congrArg (fun y => (k0_pay71 lanes y).toNat) (ValueIdx.eq_ix1 x)).trans (h (x 0))
theorem pay76_toNat (x : S16.Idx) : (k0_pay76 lanes x).toNat = (x 0).val / 8 := by
  have h : ∀ l : Fin 16, (k0_pay76 lanes (ValueIdx.ix1 l)).toNat = l.val / 8 := by unfold k0_pay76; decide
  exact (congrArg (fun y => (k0_pay76 lanes y).toNat) (ValueIdx.eq_ix1 x)).trans (h (x 0))
theorem pay77_toNat (x : S16.Idx) : (k0_pay77 lanes 7#32 x).toNat = (x 0).val % 8 := by
  have h : ∀ l : Fin 16, (k0_pay77 lanes 7#32 (ValueIdx.ix1 l)).toNat = l.val % 8 := by unfold k0_pay77; decide
  exact (congrArg (fun y => (k0_pay77 lanes 7#32 y).toNat) (ValueIdx.eq_ix1 x)).trans (h (x 0))

omit [FloatOps F] in
/-- Distinct lanes have distinct pairs. -/
theorem pair_inj {vg vs : IVec S16 32} (hg : ∀ x, (vg x).toNat = (x 0).val / 8) (hs : ∀ x, (vs x).toNat = (x 0).val % 8)
    (x x' : S16.Idx) (eg : (vg x).toNat = (vg x').toNat) (es : (vs x).toNat = (vs x').toNat) : x = x' := by
  rw [hg, hg] at eg; rw [hs, hs] at es
  funext a
  obtain rfl : a = 0 := Subsingleton.elim _ _
  exact Fin.ext (by omega)

omit [FloatOps F] in
/-- The three index triples of a trip are in range when the lane vectors are. -/
theorem ranges_trip {v3 w0 w1 vg vs : IVec S16 32} (h3 : ∀ x, (v3 x).toNat < 16) (h0 : ∀ x, (w0 x).toNat < 8) (h1 : ∀ x, (w1 x).toNat < 8)
    (hg : ∀ x, (vg x).toNat < 2) (hs : ∀ x, (vs x).toNat < 8) (k : Nat) (hk : k < 32) :
    (∀ a x, ((![v3, w0, broadcast S16 (Scf.iv 0#32 1#32 k)] : Fin 3 → IVec S16 32) a x).toNat < S16x8x32.size a) ∧
    (∀ a x, ((![v3, w1, broadcast S16 (Scf.iv 0#32 1#32 k)] : Fin 3 → IVec S16 32) a x).toNat < S16x8x32.size a) ∧
    (∀ a x, ((![vg, vs, broadcast S16 (Scf.iv 0#32 1#32 k)] : Fin 3 → IVec S16 32) a x).toNat < S2x8x32.size a) := by
  have ht : ∀ x : S16.Idx, ((broadcast S16 (Scf.iv 0#32 1#32 k) : IVec S16 32) x).toNat < 32 := fun _ => by
    show (Scf.iv 0#32 1#32 k).toNat < 32
    rw [iv_toNat k (by omega)]; exact hk
  refine ⟨fun a x => ?_, fun a x => ?_, fun a x => ?_⟩
  · match a with
    | ⟨0, _⟩ => exact h3 x
    | ⟨1, _⟩ => exact h0 x
    | ⟨2, _⟩ => exact ht x
  · match a with
    | ⟨0, _⟩ => exact h3 x
    | ⟨1, _⟩ => exact h1 x
    | ⟨2, _⟩ => exact ht x
  · match a with
    | ⟨0, _⟩ => exact hg x
    | ⟨1, _⟩ => exact hs x
    | ⟨2, _⟩ => exact ht x

omit [FloatOps F] in
theorem chk0_of_ranges {v3 w0 w1 vg vs : IVec S16 32} (h3 : ∀ x, (v3 x).toNat < 16) (h0 : ∀ x, (w0 x).toNat < 8) (h1 : ∀ x, (w1 x).toNat < 8)
    (hg : ∀ x, (vg x).toNat < 2) (hs : ∀ x, (vs x).toNat < 8) (t : Fin k0_t2_loop.trips) :
    k0_chk65 v3 w0 w1 vg vs (broadcast S16 (Scf.iv 0#32 1#32 t)) :=
  ranges_trip h3 h0 h1 hg hs t.val (by have h1 := t.isLt; have h2 := trips0; omega)
omit [FloatOps F] in
theorem chk1_of_ranges {v3 w0 w1 vg vs : IVec S16 32} (h3 : ∀ x, (v3 x).toNat < 16) (h0 : ∀ x, (w0 x).toNat < 8) (h1 : ∀ x, (w1 x).toNat < 8)
    (hg : ∀ x, (vg x).toNat < 2) (hs : ∀ x, (vs x).toNat < 8) (t : Fin k0_t3_loop.trips) :
    k0_chk98 v3 w0 w1 vg vs (broadcast S16 (Scf.iv 0#32 1#32 t)) :=
  ranges_trip h3 h0 h1 hg hs t.val (by have h1 := t.isLt; have h2 := trips1; omega)

/-- The product buffer read at lane `l`'s entry of column `f`, when the lane vectors are the lanes' own: the product
    of the two block buffers' entries at (l, the lane's row word, f). -/
theorem Done_at {v3 w0 w1 vg vs : IVec S16 32} {X3 Y3 : Vec F S16x8x32 .f32} {Z3 : Vec F S2x8x32 .f32}
    (h3 : ∀ x, (v3 x).toNat = (x 0).val) (hg : ∀ x, (vg x).toNat = (x 0).val / 8) (hs : ∀ x, (vs x).toNat = (x 0).val % 8)
    (hD : Done v3 w0 w1 vg vs X3 Y3 32 Z3) (l : Fin 16) (f : Fin 32) (r0 r1 : Fin 8)
    (h0 : (w0 (ValueIdx.ix1 l)).toNat = r0.val) (h1 : (w1 (ValueIdx.ix1 l)).toNat = r1.val) :
    Z3 (ValueIdx.ix3 (⟨l.val / 8, by omega⟩ : Fin 2) (⟨l.val % 8, by omega⟩ : Fin 8) f)
      = FloatOps.mulf (X3 (ValueIdx.ix3 l r0 f)) (Y3 (ValueIdx.ix3 l r1 f)) :=
  hD (ValueIdx.ix1 l) _ _ _ f.isLt (hg (ValueIdx.ix1 l)).symm (hs (ValueIdx.ix1 l)).symm (h3 (ValueIdx.ix1 l)).symm h0.symm rfl
    (h3 (ValueIdx.ix1 l)).symm h1.symm rfl

end Cert.Proof.K

end
-- ==== Proof.ValueK.lean ====
/-
  What one subcore writes, as values.

  Subcore L copies its 512 words of each index array into scratch: scratch word q is the word of batch position
  `base L + q`. From a word w below 1000000 the body takes the block number `w >> 3` (arithmetic; w is not
  negative, so it is w / 8) and the row inside the block `w & 7 = w % 8`. The block of the reshaped table at
  block number w / 8, read at row w % 8, is row w of the table: exactly how the result function `G` reads the
  tables. So the product of the two tables' entries at (w_user / 8, w_user % 8, f) and (w_item / 8, w_item % 8, f)
  is `G` at (base L + q, f).

  In trip t, half p, lane l the scratch word is q = 32·t + 16·p + l. The inner loop leaves lane l's product at
  (l / 8, l % 8, f) of the staging half, and the copy out puts staging entry (y₀, y₁, f) at row
  base L + 32·t + 16·p + 8·y₀ + y₁ of the result: lane l = 8·y₀ + y₁ lands at row base L + q. So what a piece
  receives agrees with `G` on the piece's rows.
-/
import proofs.«219339_g11596411699725_week1_w4_1023_23_alg».proof.Proof.IfaceK
import proofs.«219339_g11596411699725_week1_w4_1023_23_alg».proof.Proof.SlotsK
import proofs.«219339_g11596411699725_week1_w4_1023_23_alg».proof.Proof.ExtractPureK
import proofs.«219339_g11596411699725_week1_w4_1023_23_alg».proof.Proof.Gen.Kernel

noncomputable section

namespace Cert.Proof.K

open Cert.Kernel Cert.Kernel.Gen

open Idealize.ShloMosaic Idealize.ShloMosaic.ValueIdx

variable {F : FTy → Type}

/-! ## The two words the body takes from an index word -/

/-- An index word below a million is not negative, so its arithmetic shift right by three is its quotient by eight. -/
theorem shr3_toNat (w : BitVec 32) (hw : w.toNat < 1000000) : (IntOp.shrsi .vector w 3#32).toNat = w.toNat / 8 := by
  have hm : w.msb = false := by
    rw [BitVec.msb_eq_false_iff_two_mul_lt]; omega
  unfold IntOp.shrsi
  rw [if_pos (by decide)]
  show (w.sshiftRight (3#32).toNat).toNat = w.toNat / 8
  rw [BitVec.toNat_sshiftRight_of_msb_false hm]
  show w.toNat >>> 3 = w.toNat / 8
  rw [Nat.shiftRight_eq_div_pow]

/-- The low three bits of a word are its remainder by eight. -/
theorem and7_toNat (w : BitVec 32) : (IntOp.andi w 7#32).toNat = w.toNat % 8 := by
  show (w &&& 7#32).toNat = w.toNat % 8
  rw [BitVec.toNat_and]
  exact Nat.and_two_pow_sub_one_eq_mod w.toNat 3

/-- The block number and the row inside the block, as the result function names them. -/
theorem blkOf_val (w : BitVec 32) (hw : w.toNat < 1000000) : (blkOf w).val = w.toNat / 8 := by
  show w.toNat / 8 % 125000 = w.toNat / 8
  omega
theorem subOf_val (w : BitVec 32) : (subOf w).val = w.toNat % 8 := rfl
theorem blkOf_mk (w : BitVec 32) (hw : w.toNat < 1000000) (h : w.toNat / 8 < 125000) : (⟨w.toNat / 8, h⟩ : Fin 125000) = blkOf w :=
  Fin.ext (blkOf_val w hw).symm
theorem subOf_mk (w : BitVec 32) (h : w.toNat % 8 < 8) : (⟨w.toNat % 8, h⟩ : Fin 8) = subOf w := Fin.ext rfl

/-! ## The subcore's words of an index array -/

theorem base_add_lt (L : grid0.Coords) (q : Fin 512) : base L + q.val < 16384 := by
  have h0 : (L 0).val < 2 := (L 0).isLt
  have h1 : (L 1).val < 16 := (L 1).isLt
  have hq := q.isLt
  unfold base; omega

/-- The batch position of scratch word q of subcore L. -/
def rowOf (L : grid0.Coords) (q : Fin 512) : Fin 16384 := ⟨base L + q.val, base_add_lt L q⟩

/-- Word q of the subcore's slice of an index array is the array's word at batch position base L + q. -/
theorem uRow_emb (L : grid0.Coords) (q : Fin 512) : (uRow L).view.emb (ix1 q : S512.Idx) = (ix1 (rowOf L q) : S16384.Idx) := by
  refine (eq_ix1 ((uRow L).view.emb (ix1 q : S512.Idx) : S16384.Idx)).trans (congrArg ix1 (Fin.ext ?_))
  show (k0_off1 L) 0 + 1 * q.val = base L + q.val
  rw [k0_off1_eq]
  unfold base
  show 1024 * (L 1).val + 512 * (L 0).val + 1 * q.val = _
  omega
theorem iRow_emb (L : grid0.Coords) (q : Fin 512) : (iRow L).view.emb (ix1 q : S512.Idx) = (ix1 (rowOf L q) : S16384.Idx) := by
  refine (eq_ix1 ((iRow L).view.emb (ix1 q : S512.Idx) : S16384.Idx)).trans (congrArg ix1 (Fin.ext ?_))
  show (k0_off1 L) 0 + 1 * q.val = base L + q.val
  rw [k0_off1_eq]
  unfold base
  show 1024 * (L 1).val + 512 * (L 0).val + 1 * q.val = _
  omega

/-! ## One lane's product is the result function at the lane's batch position -/

section Value

variable [FloatOps F] (m : (ℓ : Loc nD τ sig) → Buf (Elt F) ℓ) (d : Dev nD) (L : grid0.Coords)
variable (su si : S512.Idx → BitVec 32)
variable (hpre : PreOK m)
variable (hsu : ∀ j, su j = m (uLoc d) ((uRow L).view.emb j)) (hsi : ∀ j, si j = m (iLoc d) ((iRow L).view.emb j))

include hpre hsu in
theorem su_lt (j : S512.Idx) : (su j).toNat < 1000000 := by rw [hsu]; exact (hpre d _).1
include hpre hsi in
theorem si_lt (j : S512.Idx) : (si j).toNat < 1000000 := by rw [hsi]; exact (hpre d _).2

include hsu hsi in
/-- The product of the two tables' entries the words of scratch position q name is the result function at batch
    position base L + q. -/
theorem tile_value (q : Fin 512) (f : Fin 32) :
    FloatOps.mulf (tab0 m d (ix3 (blkOf (su (ix1 q))) (subOf (su (ix1 q))) f))
        (tab1 m d (ix3 (blkOf (si (ix1 q))) (subOf (si (ix1 q))) f))
      = G m d (ix2 (rowOf L q) f) := by
  show _ = FloatOps.mulf (rowsOf (tab0 m d) (m (uLoc d)) (ix2 (rowOf L q) f)) (rowsOf (tab1 m d) (m (iLoc d)) (ix2 (rowOf L q) f))
  unfold rowsOf
  have eu : m (uLoc d) (ix1 ((ix2 (rowOf L q) f : S16384x32.Idx) 0)) = su (ix1 q) := by
    rw [hsu, uRow_emb]
  have ei : m (iLoc d) (ix1 ((ix2 (rowOf L q) f : S16384x32.Idx) 0)) = si (ix1 q) := by
    rw [hsi, iRow_emb]
  rw [eu, ei]

/-! ## What a piece receives agrees with the result function on the piece's rows -/

/-- The scratch position of trip t, half p, lane l. -/
def qpos (t : Fin k0_t1_loop.trips) (p : Fin 2) (l : Fin 16) : Fin 512 :=
  ⟨32 * t.val + 16 * p.val + l.val, by have ht : t.val < 16 := t.isLt; have := p.isLt; have := l.isLt; omega⟩

omit [FloatOps F] in
/-- Where two blocks of the result from block offset o put their index (y₀, y₁, f): at row 8·o + 8·y₀ + y₁, column f. -/
theorem blocks_emb (o : Nat) (inb : ∀ a, (![o, 0, 0] : Fin 3 → Nat) a + S2x8x32.size a ≤ S2048x8x32.size a) (y : S2x8x32.Idx) :
    (((oBlocks).slice (Rect.unit (s := S2048x8x32) ![o, 0, 0] S2x8x32.size inb) (fun _ => rfl)).view.emb y : S16384x32.Idx)
      = ix2 (⟨8 * o + 8 * (y 0).val + (y 1).val, by
          have h0 := inb 0
          change o + 2 ≤ 2048 at h0
          have hy0 : (y 0).val < 2 := (y 0).isLt
          have hy1 : (y 1).val < 8 := (y 1).isLt
          omega⟩ : Fin 16384) (y 2) := by
  show (oBlocks).view.emb ((Rect.unit (s := S2048x8x32) ![o, 0, 0] S2x8x32.size inb).emb y) = _
  rw [oBlocks_emb]
  funext a
  refine Fin.ext ?_
  match a with
  | ⟨0, _⟩ =>
    show ((Rect.unit (s := S2048x8x32) ![o, 0, 0] S2x8x32.size inb).emb y 0).val * 8
        + ((Rect.unit (s := S2048x8x32) ![o, 0, 0] S2x8x32.size inb).emb y 1).val = 8 * o + 8 * (y 0).val + (y 1).val
    rw [Rect.emb_apply, Rect.emb_apply]
    show (o + 1 * (y 0).val) * 8 + (0 + 1 * (y 1).val) = _
    omega
  | ⟨1, _⟩ =>
    show ((Rect.unit (s := S2048x8x32) ![o, 0, 0] S2x8x32.size inb).emb y 2).val = (y 2).val
    rw [Rect.emb_apply]
    show 0 + 1 * (y 2).val = _
    omega

variable (X Y : Vec F S16x8x32 .f32) (Zp : Vec F S2x8x32 .f32)

include hsu hsi in
/-- Two blocks of the result from block offset o, with 8·o the first row of trip t's half p: a function that is the
    staging half through those blocks' view agrees with the result function on their rows, when the staging half
    holds each lane's product of the two landed blocks' entries at the lane's row words. -/
theorem blocks_value (t : Fin k0_t1_loop.trips) (p : Fin 2) (o : Nat) (ho : 8 * o = base L + 32 * t.val + 16 * p.val)
    (inb : ∀ a, (![o, 0, 0] : Fin 3 → Nat) a + S2x8x32.size a ≤ S2048x8x32.size a)
    (hX : ∀ (l : Fin 16) (r : Fin 8) (f : Fin 32), X (ix3 l r f) = tab0 m d (ix3 (blkOf (su (ix1 (qpos t p l)))) r f))
    (hY : ∀ (l : Fin 16) (r : Fin 8) (f : Fin 32), Y (ix3 l r f) = tab1 m d (ix3 (blkOf (si (ix1 (qpos t p l)))) r f))
    (hZ : ∀ (l : Fin 16) (f : Fin 32), Zp (ix3 (⟨l.val / 8, by have := l.isLt; omega⟩ : Fin 2) (⟨l.val % 8, Nat.mod_lt _ (by decide)⟩ : Fin 8) f)
      = FloatOps.mulf (X (ix3 l (subOf (su (ix1 (qpos t p l)))) f)) (Y (ix3 l (subOf (si (ix1 (qpos t p l)))) f)))
    (g : S16384x32.Idx → F .f32)
    (hg : ∀ y : S2x8x32.Idx, g (((oBlocks).slice (Rect.unit (s := S2048x8x32) ![o, 0, 0] S2x8x32.size inb) (fun _ => rfl)).view.emb y) = Zp y) :
    ∀ j ∈ (((oBlocks).slice (Rect.unit (s := S2048x8x32) ![o, 0, 0] S2x8x32.size inb) (fun _ => rfl)).view.set : Finset S16384x32.Idx),
      g j = G m d j := by
  intro j hj
  obtain ⟨(y : S2x8x32.Idx), -, rfl⟩ := Finset.mem_map.1 hj
  have hy0 : (y 0).val < 2 := (y 0).isLt
  have hy1 : (y 1).val < 8 := (y 1).isLt
  let l : Fin 16 := ⟨8 * (y 0).val + (y 1).val, by omega⟩
  have ey : y = ix3 (⟨l.val / 8, by have := l.isLt; omega⟩ : Fin 2) (⟨l.val % 8, Nat.mod_lt _ (by decide)⟩ : Fin 8) (y 2) := by
    refine (eq_ix3 y).trans ?_
    have e0 : y 0 = (⟨l.val / 8, by have := l.isLt; omega⟩ : Fin 2) := Fin.ext (by show (y 0).val = (8 * (y 0).val + (y 1).val) / 8; omega)
    have e1 : y 1 = (⟨l.val % 8, Nat.mod_lt _ (by decide)⟩ : Fin 8) := Fin.ext (by show (y 1).val = (8 * (y 0).val + (y 1).val) % 8; omega)
    exact congrArg₂ (fun (a : Fin 2) (b : Fin 8) => (ix3 a b (y 2) : S2x8x32.Idx)) e0 e1
  have erow : (((oBlocks).slice (Rect.unit (s := S2048x8x32) ![o, 0, 0] S2x8x32.size inb) (fun _ => rfl)).view.emb y : S16384x32.Idx)
      = ix2 (rowOf L (qpos t p l)) (y 2) := by
    rw [blocks_emb]
    refine congrArg (fun r : Fin 16384 => ix2 r (y 2)) (Fin.ext ?_)
    show 8 * o + 8 * (y 0).val + (y 1).val = base L + (32 * t.val + 16 * p.val + (8 * (y 0).val + (y 1).val))
    omega
  have hval : Zp y = G m d (ix2 (rowOf L (qpos t p l)) (y 2) : S16384x32.Idx) :=
    (congrArg Zp ey).trans ((hZ l (y 2)).trans
      ((congrArg₂ (fun a b : F .f32 => FloatOps.mulf a b) (hX l (subOf (su (ix1 (qpos t p l)))) (y 2)) (hY l (subOf (si (ix1 (qpos t p l)))) (y 2))).trans
        (tile_value m d L su si hsu hsi (qpos t p l) (y 2))))
  exact (hg y).trans (hval.trans (congrArg (G m d : S16384x32.Idx → F .f32) erow.symm))

include hsu hsi in
/-- The first piece of trip t (half 0). -/
theorem piece0_value (t : Fin k0_t1_loop.trips)
    (hX : ∀ (l : Fin 16) (r : Fin 8) (f : Fin 32), X (ix3 l r f) = tab0 m d (ix3 (blkOf (su (ix1 (qpos t 0 l)))) r f))
    (hY : ∀ (l : Fin 16) (r : Fin 8) (f : Fin 32), Y (ix3 l r f) = tab1 m d (ix3 (blkOf (si (ix1 (qpos t 0 l)))) r f))
    (hZ : ∀ (l : Fin 16) (f : Fin 32), Zp (ix3 (⟨l.val / 8, by have := l.isLt; omega⟩ : Fin 2) (⟨l.val % 8, Nat.mod_lt _ (by decide)⟩ : Fin 8) f)
      = FloatOps.mulf (X (ix3 l (subOf (su (ix1 (qpos t 0 l)))) f)) (Y (ix3 l (subOf (si (ix1 (qpos t 0 l)))) f)))
    (g : S16384x32.Idx → F .f32) (hg : ∀ y : S2x8x32.Idx, g ((piece0 L t).view.emb y) = Zp y) :
    ∀ j ∈ piece0Set L t, g j = G m d j := by
  have e := k0_off68_eq L t
  have inb := k0_off68_inb L t
  have key : ∀ (off : Fin 3 → Nat) (inb' : ∀ a, off a + S2x8x32.size a ≤ S2048x8x32.size a), off = ![128 * (L 1).val + 64 * (L 0).val + 4 * t.val, 0, 0] →
      (∀ y : S2x8x32.Idx, g (((oBlocks).slice (Rect.unit (s := S2048x8x32) off S2x8x32.size inb') (fun _ => rfl)).view.emb y) = Zp y) →
      ∀ j ∈ (((oBlocks).slice (Rect.unit (s := S2048x8x32) off S2x8x32.size inb') (fun _ => rfl)).view.set : Finset S16384x32.Idx), g j = G m d j := by
    intro off inb' hoff hg'
    subst hoff
    exact blocks_value m d L su si hsu hsi X Y Zp t 0 _ (by unfold base; show 8 * (128 * (L 1).val + 64 * (L 0).val + 4 * t.val) = 512 * (2 * (L 1).val + (L 0).val) + 32 * t.val + 16 * 0; omega)
      inb' hX hY hZ g hg'
  exact key _ inb e hg

include hsu hsi in
/-- The second piece of trip t (half 1). -/
theorem piece1_value (t : Fin k0_t1_loop.trips)
    (hX : ∀ (l : Fin 16) (r : Fin 8) (f : Fin 32), X (ix3 l r f) = tab0 m d (ix3 (blkOf (su (ix1 (qpos t 1 l)))) r f))
    (hY : ∀ (l : Fin 16) (r : Fin 8) (f : Fin 32), Y (ix3 l r f) = tab1 m d (ix3 (blkOf (si (ix1 (qpos t 1 l)))) r f))
    (hZ : ∀ (l : Fin 16) (f : Fin 32), Zp (ix3 (⟨l.val / 8, by have := l.isLt; omega⟩ : Fin 2) (⟨l.val % 8, Nat.mod_lt _ (by decide)⟩ : Fin 8) f)
      = FloatOps.mulf (X (ix3 l (subOf (su (ix1 (qpos t 1 l)))) f)) (Y (ix3 l (subOf (si (ix1 (qpos t 1 l)))) f)))
    (g : S16384x32.Idx → F .f32) (hg : ∀ y : S2x8x32.Idx, g ((piece1 L t).view.emb y) = Zp y) :
    ∀ j ∈ piece1Set L t, g j = G m d j := by
  have e := k0_off103_eq L t
  have inb := k0_off103_inb L t
  have key : ∀ (off : Fin 3 → Nat) (inb' : ∀ a, off a + S2x8x32.size a ≤ S2048x8x32.size a), off = ![128 * (L 1).val + 64 * (L 0).val + 4 * t.val + 2, 0, 0] →
      (∀ y : S2x8x32.Idx, g (((oBlocks).slice (Rect.unit (s := S2048x8x32) off S2x8x32.size inb') (fun _ => rfl)).view.emb y) = Zp y) →
      ∀ j ∈ (((oBlocks).slice (Rect.unit (s := S2048x8x32) off S2x8x32.size inb') (fun _ => rfl)).view.set : Finset S16384x32.Idx), g j = G m d j := by
    intro off inb' hoff hg'
    subst hoff
    exact blocks_value m d L su si hsu hsi X Y Zp t 1 _ (by unfold base; show 8 * (128 * (L 1).val + 64 * (L 0).val + 4 * t.val + 2) = 512 * (2 * (L 1).val + (L 0).val) + 32 * t.val + 16 * 1; omega)
      inb' hX hY hZ g hg'
  exact key _ inb e hg

end Value

end Cert.Proof.K

end
-- ==== Proof.GlueK.lean ====
/-
  The glue around the inner loop inside one trip of the double-buffered loop.

  When the sixteen block copies of a chunk have landed, each slot of the buffer holds one 8-row block of a table:
  the sixteen slots together are the buffer, at the contents that is slot l's own on the indices (·, l, ·, ·). Read at
  (l, r, f) through the buffer that is the table's entry (block number of lane l, r, f). The staging half the inner loop
  scatters into is the staging half the copy-out reads. So the inner loop runs from the landed slots and the staging
  half, and afterwards the slots are held apart again, at the same contents.
-/
import proofs.«219339_g11596411699725_week1_w4_1023_23_alg».proof.Proof.RingK
import proofs.«219339_g11596411699725_week1_w4_1023_23_alg».proof.Proof.SlotsK
import proofs.«219339_g11596411699725_week1_w4_1023_23_alg».proof.Proof.ExtractK
import proofs.«219339_g11596411699725_week1_w4_1023_23_alg».proof.Proof.ValueK

noncomputable section

namespace Cert.Proof.K

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] [∀ e, Nonempty (Elt F e)]

/-! ## Reading a landed slot, and a table's block -/

section Reads

variable (d : Dev nD) (L : grid0.Coords)

omit [FloatOps F] in
/-- A slot that one whole write over anything filled reads the written value. -/
theorem slot_landed_read (sl : Memref sig .scVector .vmem S1x8x32 .f32) (w : (Rect.whole S1x8x32).shape.Idx → Elt F .f32) (y : S1x8x32.Idx) :
    sl.view.read (Elt F) (sl.view.writes (Elt F) sl.view.junk [⟨Rect.whole S1x8x32, w⟩]) y = w y := by
  have hw := View.read_writes_cons_emb sl.view sl.view.junk (Rect.whole S1x8x32) w [] y
  rwa [Rect.emb_whole_apply] at hw

omit [FloatOps F] [∀ e, Nonempty (Elt F e)] in
/-- Block number w of the reshaped user table, read at row r and column f of the block, is the table at (w, r, f). -/
theorem blk0_read (tab : Buf (Elt F) ((t0V).view.loc (thrV d L))) (w : BitVec 32) (hw : w.toNat < 125000) (r : Fin 8) (f : Fin 32) :
    (blkSrc t0V w hw).view.read (Elt F) tab (ix3 (0 : Fin 1) r f) = tab (ix3 (⟨w.toNat, hw⟩ : Fin 125000) r f) := by
  refine ((View.read_apply _ _).trans (cast_eq _ _)).trans (congrArg tab ?_)
  show (Rect.unit (s := S125000x8x32) ![w.toNat, 0, 0] S1x8x32.size (chk_of_lt hw)).emb (ix3 (0 : Fin 1) r f) = _
  funext a
  refine Fin.ext ?_
  match a with
  | ⟨0, _⟩ => show w.toNat + 1 * 0 = w.toNat; omega
  | ⟨1, _⟩ => show 0 + 1 * r.val = r.val; omega
  | ⟨2, _⟩ => show 0 + 1 * f.val = f.val; omega
omit [FloatOps F] [∀ e, Nonempty (Elt F e)] in
theorem blk1_read (tab : Buf (Elt F) ((t1V).view.loc (thrV d L))) (w : BitVec 32) (hw : w.toNat < 125000) (r : Fin 8) (f : Fin 32) :
    (blkSrc t1V w hw).view.read (Elt F) tab (ix3 (0 : Fin 1) r f) = tab (ix3 (⟨w.toNat, hw⟩ : Fin 125000) r f) := by
  refine ((View.read_apply _ _).trans (cast_eq _ _)).trans (congrArg tab ?_)
  show (Rect.unit (s := S125000x8x32) ![w.toNat, 0, 0] S1x8x32.size (chk_of_lt hw)).emb (ix3 (0 : Fin 1) r f) = _
  funext a
  refine Fin.ext ?_
  match a with
  | ⟨0, _⟩ => show w.toNat + 1 * 0 = w.toNat; omega
  | ⟨1, _⟩ => show 0 + 1 * r.val = r.val; omega
  | ⟨2, _⟩ => show 0 + 1 * f.val = f.val; omega

omit [FloatOps F] [∀ e, Nonempty (Elt F e)] in
/-- Where slot (b, l) puts its index (0, r, f): at (b, l, r, f) of the scratch. -/
theorem slotA_emb0 (b : Fin 2) (l : Fin 16) (r : Fin 8) (f : Fin 32) :
    (slotA b l).view.emb (ix3 (0 : Fin 1) r f : S1x8x32.Idx) = (ix4 b l r f : S2x16x8x32.Idx) := by
  show (bufA b).view.emb ((Rect.unit (s := S16x8x32) ![l.val, 0, 0] S1x8x32.size (inb_slot l)).emb (ix3 (0 : Fin 1) r f)) = _
  rw [bufA_emb]
  have e0 : (Rect.unit (s := S16x8x32) ![l.val, 0, 0] S1x8x32.size (inb_slot l)).emb (ix3 (0 : Fin 1) r f) 0 = l :=
    Fin.ext (by show l.val + 1 * 0 = l.val; omega)
  have e1 : (Rect.unit (s := S16x8x32) ![l.val, 0, 0] S1x8x32.size (inb_slot l)).emb (ix3 (0 : Fin 1) r f) 1 = r :=
    Fin.ext (by show 0 + 1 * r.val = r.val; omega)
  have e2 : (Rect.unit (s := S16x8x32) ![l.val, 0, 0] S1x8x32.size (inb_slot l)).emb (ix3 (0 : Fin 1) r f) 2 = f :=
    Fin.ext (by show 0 + 1 * f.val = f.val; omega)
  rw [e0, e1, e2]
omit [FloatOps F] [∀ e, Nonempty (Elt F e)] in
theorem slotB_emb0 (b : Fin 2) (l : Fin 16) (r : Fin 8) (f : Fin 32) :
    (slotB b l).view.emb (ix3 (0 : Fin 1) r f : S1x8x32.Idx) = (ix4 b l r f : S2x16x8x32.Idx) := by
  show (bufB b).view.emb ((Rect.unit (s := S16x8x32) ![l.val, 0, 0] S1x8x32.size (inb_slot l)).emb (ix3 (0 : Fin 1) r f)) = _
  rw [bufB_emb]
  have e0 : (Rect.unit (s := S16x8x32) ![l.val, 0, 0] S1x8x32.size (inb_slot l)).emb (ix3 (0 : Fin 1) r f) 0 = l :=
    Fin.ext (by show l.val + 1 * 0 = l.val; omega)
  have e1 : (Rect.unit (s := S16x8x32) ![l.val, 0, 0] S1x8x32.size (inb_slot l)).emb (ix3 (0 : Fin 1) r f) 1 = r :=
    Fin.ext (by show 0 + 1 * r.val = r.val; omega)
  have e2 : (Rect.unit (s := S16x8x32) ![l.val, 0, 0] S1x8x32.size (inb_slot l)).emb (ix3 (0 : Fin 1) r f) 2 = f :=
    Fin.ext (by show 0 + 1 * f.val = f.val; omega)
  rw [e0, e1, e2]

end Reads

/-! ## Half 0 -/

section Half0

variable (d : Dev nD) (L : grid0.Coords)

omit [FloatOps F] [∀ e, Nonempty (Elt F e)] in
/-- The staging half as the copy-out addresses it is the staging half as the indexed store addresses it. -/
theorem stagingO0 (Z : Buf (Elt F) ((bufO 0).view.loc (thrV d L))) :
    ((bufO 0).view.loc (thrV d L) ↦[(bufO 0).view.set]{fullShare} Z : sProp 𝕄)
      = ((AZ0).loc (thrV d L) ↦[(AZ0).set]{fullShare} Z) := by
  rw [access_whole_set]; rfl
omit [FloatOps F] [∀ e, Nonempty (Elt F e)] in
theorem stagingO0_read (Z : Buf (Elt F) ((bufO 0).view.loc (thrV d L))) :
    (AZ0).read (Elt F) Z = (bufO 0).view.read (Elt F) Z := by
  rw [access_whole_read]; rfl

omit [FloatOps F] [∀ e, Nonempty (Elt F e)] in
/-- The sixteen slots of buffer 0 of the user table's scratch, each at its own contents, are the buffer at their join. -/
theorem landedA0 (g : Fin 16 → Buf (Elt F) ((thrV d L).loc cc0_scratch2)) :
    (bigSep Finset.univ fun j : Fin 16 => (slotA 0 j).view.loc (thrV d L) ↦[(slotA 0 j).view.set]{fullShare} g j : sProp 𝕄)
      = ((AX0).loc (thrV d L) ↦[(AX0).set]{fullShare} (joinA g : Buf (Elt F) ((thrV d L).loc cc0_scratch2))) := by
  rw [bufA_join d L 0 g, access_whole_set]; rfl
omit [FloatOps F] [∀ e, Nonempty (Elt F e)] in
/-- and the buffer at one contents is its sixteen slots at that contents. -/
theorem splitA0 (X : Buf (Elt F) ((thrV d L).loc cc0_scratch2)) :
    ((AX0).loc (thrV d L) ↦[(AX0).set]{fullShare} X : sProp 𝕄)
      = bigSep Finset.univ fun j : Fin 16 => (slotA 0 j).view.loc (thrV d L) ↦[(slotA 0 j).view.set]{fullShare} X := by
  rw [← bufA_split d L 0 X, access_whole_set]; rfl
omit [FloatOps F] [∀ e, Nonempty (Elt F e)] in
theorem landedB0 (g : Fin 16 → Buf (Elt F) ((thrV d L).loc cc0_scratch3)) :
    (bigSep Finset.univ fun j : Fin 16 => (slotB 0 j).view.loc (thrV d L) ↦[(slotB 0 j).view.set]{fullShare} g j : sProp 𝕄)
      = ((AY0).loc (thrV d L) ↦[(AY0).set]{fullShare} (joinB g : Buf (Elt F) ((thrV d L).loc cc0_scratch3))) := by
  rw [bufB_join d L 0 g, access_whole_set]; rfl
omit [FloatOps F] [∀ e, Nonempty (Elt F e)] in
theorem splitB0 (Y : Buf (Elt F) ((thrV d L).loc cc0_scratch3)) :
    ((AY0).loc (thrV d L) ↦[(AY0).set]{fullShare} Y : sProp 𝕄)
      = bigSep Finset.univ fun j : Fin 16 => (slotB 0 j).view.loc (thrV d L) ↦[(slotB 0 j).view.set]{fullShare} Y := by
  rw [← bufB_split d L 0 Y, access_whole_set]; rfl

omit [FloatOps F] [∀ e, Nonempty (Elt F e)] in
/-- The joined buffer read at (l, r, f) is what slot l's own contents holds at (0, r, f) of the slot. -/
theorem joinA0_read (g : Fin 16 → Buf (Elt F) ((thrV d L).loc cc0_scratch2)) (l : Fin 16) (r : Fin 8) (f : Fin 32) :
    (AX0).read (Elt F) (joinA g : Buf (Elt F) ((thrV d L).loc cc0_scratch2)) (ix3 l r f)
      = (slotA 0 l).view.read (Elt F) (g l) (ix3 (0 : Fin 1) r f) := by
  rw [access_whole_read]
  refine ((View.read_apply _ _).trans (cast_eq _ _)).trans ?_
  show joinA g ((bufA 0).view.emb (ix3 l r f)) = _
  rw [bufA_emb]
  show g l (ix4 (0 : Fin 2) l r f) = _
  rw [← slotA_emb0 0 l r f]
  exact ((View.read_apply _ _).trans (cast_eq _ _)).symm
omit [FloatOps F] [∀ e, Nonempty (Elt F e)] in
theorem joinB0_read (g : Fin 16 → Buf (Elt F) ((thrV d L).loc cc0_scratch3)) (l : Fin 16) (r : Fin 8) (f : Fin 32) :
    (AY0).read (Elt F) (joinB g : Buf (Elt F) ((thrV d L).loc cc0_scratch3)) (ix3 l r f)
      = (slotB 0 l).view.read (Elt F) (g l) (ix3 (0 : Fin 1) r f) := by
  rw [access_whole_read]
  refine ((View.read_apply _ _).trans (cast_eq _ _)).trans ?_
  show joinB g ((bufB 0).view.emb (ix3 l r f)) = _
  rw [bufB_emb]
  show g l (ix4 (0 : Fin 2) l r f) = _
  rw [← slotB_emb0 0 l r f]
  exact ((View.read_apply _ _).trans (cast_eq _ _)).symm

omit [FloatOps F] in
/-- The sixteen landed slots joined, read at (l, r, f): the table's entry (block number of lane l, r, f). -/
theorem landedA0_read (tab : Buf (Elt F) ((t0V).view.loc (thrV d L))) (wu : Fin 16 → BitVec 32) (hwu : ∀ j, (wu j).toNat < 125000)
    (l : Fin 16) (r : Fin 8) (f : Fin 32) :
    (AX0).read (Elt F) (joinA fun k : Fin 16 => (slotA 0 k).view.writes (Elt F) (slotA 0 k).view.junk
        [⟨Rect.whole S1x8x32, ReadAs.same.apply ((blkSrc t0V (wu k) (hwu k)).view.read (Elt F) tab)⟩]) (ix3 l r f)
      = tab (ix3 (⟨(wu l).toNat, hwu l⟩ : Fin 125000) r f) :=
  (joinA0_read d L _ l r f).trans ((slot_landed_read (slotA 0 l) _ _).trans (blk0_read d L tab (wu l) (hwu l) r f))
omit [FloatOps F] in
theorem landedB0_read (tab : Buf (Elt F) ((t1V).view.loc (thrV d L))) (wi : Fin 16 → BitVec 32) (hwi : ∀ j, (wi j).toNat < 125000)
    (l : Fin 16) (r : Fin 8) (f : Fin 32) :
    (AY0).read (Elt F) (joinB fun k : Fin 16 => (slotB 0 k).view.writes (Elt F) (slotB 0 k).view.junk
        [⟨Rect.whole S1x8x32, ReadAs.same.apply ((blkSrc t1V (wi k) (hwi k)).view.read (Elt F) tab)⟩]) (ix3 l r f)
      = tab (ix3 (⟨(wi l).toNat, hwi l⟩ : Fin 125000) r f) :=
  (joinB0_read d L _ l r f).trans ((slot_landed_read (slotB 0 l) _ _).trans (blk1_read d L tab (wi l) (hwi l) r f))

variable (v2 : BitVec 32) (v3 : IVec S16 32) (k0_t1 : Fin k0_t1_loop.trips) (v348 : BitVec 32) (w0 w1 vg vs : IVec S16 32)
  (X : Buf (Elt F) ((AX0).loc (thrV d L))) (Y : Buf (Elt F) ((AY0).loc (thrV d L)))

omit [∀ e, Nonempty (Elt F e)] in
/-- The inner loop ahead of a continuation: the continuation runs from the three buffers, the product buffer with
    every column done. -/
theorem loop0_bind {α : Type} (k : Unit → Prog (TpuEff nD τ sig (Elt F) Λ₀ (.scVector ((L 0).castLE hcore0) ((L 1).castLE hsub0))) α) (Q : α → sProp 𝕄)
    (hchk : ∀ t : Fin k0_t2_loop.trips, k0_chk65 v3 w0 w1 vg vs (broadcast S16 (Scf.iv 0#32 1#32 t)))
    (hinj : ∀ x x' : S16.Idx, (vg x).toNat = (vg x').toNat → (vs x).toNat = (vs x').toNat → x = x')
    (Z : Buf (Elt F) ((AZ0).loc (thrV d L))) :
    iprop(((AX0).loc (thrV d L) ↦[(AX0).set]{fullShare} X) ∗ ((AY0).loc (thrV d L) ↦[(AY0).set]{fullShare} Y)
        ∗ ((AZ0).loc (thrV d L) ↦[(AZ0).set]{fullShare} Z)
        ∗ (∀ Z' : Buf (Elt F) ((AZ0).loc (thrV d L)),
            (⌜Done v3 w0 w1 vg vs ((AX0).read (Elt F) X) ((AY0).read (Elt F) Y) 32 ((AZ0).read (Elt F) Z')⌝
              ∗ ((AX0).loc (thrV d L) ↦[(AX0).set]{fullShare} X) ∗ ((AY0).loc (thrV d L) ↦[(AY0).set]{fullShare} Y)
              ∗ ((AZ0).loc (thrV d L) ↦[(AZ0).set]{fullShare} Z'))
            -∗ wp frame (wpE (defs₀ (F := F)) 𝒱₀ (thrV d L) none) Set.univ (k ⟨⟩) Q))
      ⊢ wp frame (wpE (defs₀ (F := F)) 𝒱₀ (thrV d L) none) Set.univ
          (Scf.Loop.for k0_t2_loop k0_t2_ok ⟨⟩ (k0_t2_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 k0_t1 v348 w0 w1 vg vs) >>= k) Q := by
  rw [wp_bind]
  iintro ⟨HX, HY, HZ, Hk⟩
  iapply (wp_wand_r frame (wpE (defs₀ (F := F)) 𝒱₀ (thrV d L) none) Set.univ)
  isplitl [HX HY HZ]
  · iapply (extract0 d L v2 v3 k0_t1 v348 w0 w1 vg vs X Y hchk hinj Z)
    isplitl [HX]; · iexact HX
    isplitl [HY]; · iexact HY
    iexact HZ
  · iintro %u ⟨%Z', HX, HY, HZ, %hD⟩
    iapply Hk
    isplitr; · ipureintro; exact hD
    isplitl [HX]; · iexact HX
    isplitl [HY]; · iexact HY
    iexact HZ

end Half0

/-! ## Half 1 -/

section Half1

variable (d : Dev nD) (L : grid0.Coords)

omit [FloatOps F] [∀ e, Nonempty (Elt F e)] in
/-- The staging half as the copy-out addresses it is the staging half as the indexed store addresses it. -/
theorem stagingO1 (Z : Buf (Elt F) ((bufO 1).view.loc (thrV d L))) :
    ((bufO 1).view.loc (thrV d L) ↦[(bufO 1).view.set]{fullShare} Z : sProp 𝕄)
      = ((AZ1).loc (thrV d L) ↦[(AZ1).set]{fullShare} Z) := by
  rw [access_whole_set]; rfl
omit [FloatOps F] [∀ e, Nonempty (Elt F e)] in
theorem stagingO1_read (Z : Buf (Elt F) ((bufO 1).view.loc (thrV d L))) :
    (AZ1).read (Elt F) Z = (bufO 1).view.read (Elt F) Z := by
  rw [access_whole_read]; rfl

omit [FloatOps F] [∀ e, Nonempty (Elt F e)] in
/-- The sixteen slots of buffer 1 of the user table's scratch, each at its own contents, are the buffer at their join. -/
theorem landedA1 (g : Fin 16 → Buf (Elt F) ((thrV d L).loc cc0_scratch2)) :
    (bigSep Finset.univ fun j : Fin 16 => (slotA 1 j).view.loc (thrV d L) ↦[(slotA 1 j).view.set]{fullShare} g j : sProp 𝕄)
      = ((AX1).loc (thrV d L) ↦[(AX1).set]{fullShare} (joinA g : Buf (Elt F) ((thrV d L).loc cc0_scratch2))) := by
  rw [bufA_join d L 1 g, access_whole_set]; rfl
omit [FloatOps F] [∀ e, Nonempty (Elt F e)] in
/-- and the buffer at one contents is its sixteen slots at that contents. -/
theorem splitA1 (X : Buf (Elt F) ((thrV d L).loc cc0_scratch2)) :
    ((AX1).loc (thrV d L) ↦[(AX1).set]{fullShare} X : sProp 𝕄)
      = bigSep Finset.univ fun j : Fin 16 => (slotA 1 j).view.loc (thrV d L) ↦[(slotA 1 j).view.set]{fullShare} X := by
  rw [← bufA_split d L 1 X, access_whole_set]; rfl
omit [FloatOps F] [∀ e, Nonempty (Elt F e)] in
theorem landedB1 (g : Fin 16 → Buf (Elt F) ((thrV d L).loc cc0_scratch3)) :
    (bigSep Finset.univ fun j : Fin 16 => (slotB 1 j).view.loc (thrV d L) ↦[(slotB 1 j).view.set]{fullShare} g j : sProp 𝕄)
      = ((AY1).loc (thrV d L) ↦[(AY1).set]{fullShare} (joinB g : Buf (Elt F) ((thrV d L).loc cc0_scratch3))) := by
  rw [bufB_join d L 1 g, access_whole_set]; rfl
omit [FloatOps F] [∀ e, Nonempty (Elt F e)] in
theorem splitB1 (Y : Buf (Elt F) ((thrV d L).loc cc0_scratch3)) :
    ((AY1).loc (thrV d L) ↦[(AY1).set]{fullShare} Y : sProp 𝕄)
      = bigSep Finset.univ fun j : Fin 16 => (slotB 1 j).view.loc (thrV d L) ↦[(slotB 1 j).view.set]{fullShare} Y := by
  rw [← bufB_split d L 1 Y, access_whole_set]; rfl

omit [FloatOps F] [∀ e, Nonempty (Elt F e)] in
/-- The joined buffer read at (l, r, f) is what slot l's own contents holds at (0, r, f) of the slot. -/
theorem joinA1_read (g : Fin 16 → Buf (Elt F) ((thrV d L).loc cc0_scratch2)) (l : Fin 16) (r : Fin 8) (f : Fin 32) :
    (AX1).read (Elt F) (joinA g : Buf (Elt F) ((thrV d L).loc cc0_scratch2)) (ix3 l r f)
      = (slotA 1 l).view.read (Elt F) (g l) (ix3 (0 : Fin 1) r f) := by
  rw [access_whole_read]
  refine ((View.read_apply _ _).trans (cast_eq _ _)).trans ?_
  show joinA g ((bufA 1).view.emb (ix3 l r f)) = _
  rw [bufA_emb]
  show g l (ix4 (1 : Fin 2) l r f) = _
  rw [← slotA_emb0 1 l r f]
  exact ((View.read_apply _ _).trans (cast_eq _ _)).symm
omit [FloatOps F] [∀ e, Nonempty (Elt F e)] in
theorem joinB1_read (g : Fin 16 → Buf (Elt F) ((thrV d L).loc cc0_scratch3)) (l : Fin 16) (r : Fin 8) (f : Fin 32) :
    (AY1).read (Elt F) (joinB g : Buf (Elt F) ((thrV d L).loc cc0_scratch3)) (ix3 l r f)
      = (slotB 1 l).view.read (Elt F) (g l) (ix3 (0 : Fin 1) r f) := by
  rw [access_whole_read]
  refine ((View.read_apply _ _).trans (cast_eq _ _)).trans ?_
  show joinB g ((bufB 1).view.emb (ix3 l r f)) = _
  rw [bufB_emb]
  show g l (ix4 (1 : Fin 2) l r f) = _
  rw [← slotB_emb0 1 l r f]
  exact ((View.read_apply _ _).trans (cast_eq _ _)).symm

omit [FloatOps F] in
/-- The sixteen landed slots joined, read at (l, r, f): the table's entry (block number of lane l, r, f). -/
theorem landedA1_read (tab : Buf (Elt F) ((t0V).view.loc (thrV d L))) (wu : Fin 16 → BitVec 32) (hwu : ∀ j, (wu j).toNat < 125000)
    (l : Fin 16) (r : Fin 8) (f : Fin 32) :
    (AX1).read (Elt F) (joinA fun k : Fin 16 => (slotA 1 k).view.writes (Elt F) (slotA 1 k).view.junk
        [⟨Rect.whole S1x8x32, ReadAs.same.apply ((blkSrc t0V (wu k) (hwu k)).view.read (Elt F) tab)⟩]) (ix3 l r f)
      = tab (ix3 (⟨(wu l).toNat, hwu l⟩ : Fin 125000) r f) :=
  (joinA1_read d L _ l r f).trans ((slot_landed_read (slotA 1 l) _ _).trans (blk0_read d L tab (wu l) (hwu l) r f))
omit [FloatOps F] in
theorem landedB1_read (tab : Buf (Elt F) ((t1V).view.loc (thrV d L))) (wi : Fin 16 → BitVec 32) (hwi : ∀ j, (wi j).toNat < 125000)
    (l : Fin 16) (r : Fin 8) (f : Fin 32) :
    (AY1).read (Elt F) (joinB fun k : Fin 16 => (slotB 1 k).view.writes (Elt F) (slotB 1 k).view.junk
        [⟨Rect.whole S1x8x32, ReadAs.same.apply ((blkSrc t1V (wi k) (hwi k)).view.read (Elt F) tab)⟩]) (ix3 l r f)
      = tab (ix3 (⟨(wi l).toNat, hwi l⟩ : Fin 125000) r f) :=
  (joinB1_read d L _ l r f).trans ((slot_landed_read (slotB 1 l) _ _).trans (blk1_read d L tab (wi l) (hwi l) r f))

variable (v2 : BitVec 32) (v3 : IVec S16 32) (c0 c1 : BitVec 32) (k0_t1 : Fin k0_t1_loop.trips) (w0 w1 vg vs : IVec S16 32)
  (X : Buf (Elt F) ((AX1).loc (thrV d L))) (Y : Buf (Elt F) ((AY1).loc (thrV d L)))

omit [∀ e, Nonempty (Elt F e)] in
/-- The inner loop ahead of a continuation: the continuation runs from the three buffers, the product buffer with
    every column done. -/
theorem loop1_bind {α : Type} (k : Unit → Prog (TpuEff nD τ sig (Elt F) Λ₀ (.scVector ((L 0).castLE hcore0) ((L 1).castLE hsub0))) α) (Q : α → sProp 𝕄)
    (hchk : ∀ t : Fin k0_t3_loop.trips, k0_chk98 v3 w0 w1 vg vs (broadcast S16 (Scf.iv 0#32 1#32 t)))
    (hinj : ∀ x x' : S16.Idx, (vg x).toNat = (vg x').toNat → (vs x).toNat = (vs x').toNat → x = x')
    (Z : Buf (Elt F) ((AZ1).loc (thrV d L))) :
    iprop(((AX1).loc (thrV d L) ↦[(AX1).set]{fullShare} X) ∗ ((AY1).loc (thrV d L) ↦[(AY1).set]{fullShare} Y)
        ∗ ((AZ1).loc (thrV d L) ↦[(AZ1).set]{fullShare} Z)
        ∗ (∀ Z' : Buf (Elt F) ((AZ1).loc (thrV d L)),
            (⌜Done v3 w0 w1 vg vs ((AX1).read (Elt F) X) ((AY1).read (Elt F) Y) 32 ((AZ1).read (Elt F) Z')⌝
              ∗ ((AX1).loc (thrV d L) ↦[(AX1).set]{fullShare} X) ∗ ((AY1).loc (thrV d L) ↦[(AY1).set]{fullShare} Y)
              ∗ ((AZ1).loc (thrV d L) ↦[(AZ1).set]{fullShare} Z'))
            -∗ wp frame (wpE (defs₀ (F := F)) 𝒱₀ (thrV d L) none) Set.univ (k ⟨⟩) Q))
      ⊢ wp frame (wpE (defs₀ (F := F)) 𝒱₀ (thrV d L) none) Set.univ
          (Scf.Loop.for k0_t3_loop k0_t3_ok ⟨⟩ (k0_t3_body (F := F) L uV (Memref.isWhole_whole _) iV (Memref.isWhole_whole _) t0V (Memref.isWhole_whole _) t1V (Memref.isWhole_whole _)
            oV (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scratch9 cc0_scratch10
            cc0_scoped0 cc0_scoped1 v2 v3 c0 c1 k0_t1 w0 w1 vg vs) >>= k) Q := by
  rw [wp_bind]
  iintro ⟨HX, HY, HZ, Hk⟩
  iapply (wp_wand_r frame (wpE (defs₀ (F := F)) 𝒱₀ (thrV d L) none) Set.univ)
  isplitl [HX HY HZ]
  · iapply (extract1 d L v2 v3 c0 c1 k0_t1 w0 w1 vg vs X Y hchk hinj Z)
    isplitl [HX]; · iexact HX
    isplitl [HY]; · iexact HY
    iexact HZ
  · iintro %u ⟨%Z', HX, HY, HZ, %hD⟩
    iapply Hk
    isplitr; · ipureintro; exact hD
    isplitl [HX]; · iexact HX
    isplitl [HY]; · iexact HY
    iexact HZ

end Half1

/-! ## The lane vectors of a trip -/

section Lanes

variable (d : Dev nD) (L : grid0.Coords)

omit [FloatOps F] [∀ e, Nonempty (Elt F e)] in
/-- Lane l of the sixteen words loaded from offset `off` of an index scratch is the scratch's word `off + l`. -/
theorem laneU (su : Buf (Elt F) ((sU).view.loc (thrV d L))) (off : Fin 1 → ℕ) (h : ∀ a, off a + S16.size a ≤ S512.size a)
    (l : Fin 16) (q : Fin 512) (hq : off 0 + l.val = q.val) :
    vecAt (F := F) d L sU su off h (ix1 l) = su (ix1 q) := by
  show su ((Rect.unit (s := S512) off S16.size h).toLoadRect.idx (ix1 l)) = su (ix1 q)
  refine congrArg su ?_
  funext a
  obtain rfl : a = 0 := Subsingleton.elim _ _
  refine Fin.ext ?_
  show off 0 + 1 * l.val = q.val
  omega
omit [FloatOps F] [∀ e, Nonempty (Elt F e)] in
theorem laneI (si : Buf (Elt F) ((sI).view.loc (thrV d L))) (off : Fin 1 → ℕ) (h : ∀ a, off a + S16.size a ≤ S512.size a)
    (l : Fin 16) (q : Fin 512) (hq : off 0 + l.val = q.val) :
    vecAt (F := F) d L sI si off h (ix1 l) = si (ix1 q) := by
  show si ((Rect.unit (s := S512) off S16.size h).toLoadRect.idx (ix1 l)) = si (ix1 q)
  refine congrArg si ?_
  funext a
  obtain rfl : a = 0 := Subsingleton.elim _ _
  refine Fin.ext ?_
  show off 0 + 1 * l.val = q.val
  omega

omit [FloatOps F] [∀ e, Nonempty (Elt F e)] in
theorem off67_lane (t : Fin k0_t1_loop.trips) (l : Fin 16) : (k0_off67 t) 0 + l.val = (qpos t 0 l).val := by
  rw [k0_off67_eq]; show 32 * t.val + l.val = 32 * t.val + 16 * 0 + l.val; omega
omit [FloatOps F] [∀ e, Nonempty (Elt F e)] in
theorem off102_lane (t : Fin k0_t1_loop.trips) (l : Fin 16) : (k0_off102 t) 0 + l.val = (qpos t 1 l).val := by
  rw [k0_off102_eq]; show 32 * t.val + 16 + l.val = 32 * t.val + 16 * 1 + l.val; omega

omit [FloatOps F] [∀ e, Nonempty (Elt F e)] in
/-- The block number the body computes from lane j of a loaded index vector is the word's quotient by eight. -/
theorem wordOf_eq (vec : IVec S16 32) (j : Fin 16) : wordOf vec j = IntOp.shrsi .vector (vec (ix1 j)) 3#32 := by
  show IntOp.shrsi .vector (vec _) 3#32 = IntOp.shrsi .vector (vec (ix1 j)) 3#32
  refine congrArg (fun x => IntOp.shrsi .vector (vec x) 3#32) ?_
  funext a
  obtain rfl : a = 0 := Subsingleton.elim _ _
  exact Fin.ext (Nat.add_zero _)
omit [FloatOps F] [∀ e, Nonempty (Elt F e)] in
theorem blk_of_word (vec : IVec S16 32) (j : Fin 16) (hv : (vec (ix1 j)).toNat < 1000000) (h : (wordOf vec j).toNat < 125000) :
    (⟨(wordOf vec j).toNat, h⟩ : Fin 125000) = blkOf (vec (ix1 j)) :=
  Fin.ext (by show (wordOf vec j).toNat = (blkOf (vec (ix1 j))).val; rw [wordOf_eq, shr3_toNat _ hv, blkOf_val _ hv])

omit [FloatOps F] [∀ e, Nonempty (Elt F e)] in
/-- The row word: the low three bits of the lane's index word. -/
theorem and7_lane (v : IVec S16 32) (x : S16.Idx) : ((andi v (broadcast S16 7#32)) x).toNat = (v x).toNat % 8 := and7_toNat (v x)
omit [FloatOps F] [∀ e, Nonempty (Elt F e)] in
theorem and7_lt (v : IVec S16 32) (x : S16.Idx) : ((andi v (broadcast S16 7#32)) x).toNat < 8 := by
  rw [and7_lane]; exact Nat.mod_lt _ (by decide)

omit [∀ e, Nonempty (Elt F e)] in
theorem pay68_eq (v : Vec F S16 .i32) : k0_pay68 v = andi v (broadcast S16 7#32) := rfl
omit [∀ e, Nonempty (Elt F e)] in
theorem pay69_eq (v : Vec F S16 .i32) : k0_pay69 v = andi v (broadcast S16 7#32) := rfl
omit [∀ e, Nonempty (Elt F e)] in
theorem pay74_eq (v : Vec F S16 .i32) : k0_pay74 v = andi v (broadcast S16 7#32) := rfl
omit [∀ e, Nonempty (Elt F e)] in
theorem pay75_eq (v : Vec F S16 .i32) : k0_pay75 v = andi v (broadcast S16 7#32) := rfl

omit [FloatOps F] [∀ e, Nonempty (Elt F e)] in
theorem lanes_lt (x : S16.Idx) : (lanes x).toNat < 16 := by rw [lanes_toNat]; exact (x 0).isLt
omit [FloatOps F] [∀ e, Nonempty (Elt F e)] in
theorem pay70_lt (x : S16.Idx) : (k0_pay70 lanes x).toNat < 2 := by
  rw [pay70_toNat]; have h : (x 0).val < 16 := (x 0).isLt; omega
omit [FloatOps F] [∀ e, Nonempty (Elt F e)] in
theorem pay71_lt (x : S16.Idx) : (k0_pay71 lanes x).toNat < 8 := by
  rw [pay71_toNat]; exact Nat.mod_lt _ (by decide)
omit [FloatOps F] [∀ e, Nonempty (Elt F e)] in
theorem pay76_lt (x : S16.Idx) : (k0_pay76 lanes x).toNat < 2 := by
  rw [pay76_toNat]; have h : (x 0).val < 16 := (x 0).isLt; omega
omit [FloatOps F] [∀ e, Nonempty (Elt F e)] in
theorem pay77_lt (x : S16.Idx) : (k0_pay77 lanes 7#32 x).toNat < 8 := by
  rw [pay77_toNat]; exact Nat.mod_lt _ (by decide)

omit [∀ e, Nonempty (Elt F e)] in
/-- The trips' range conditions and the distinctness of the lanes' targets, for the vectors the trip computes. -/
theorem chk0_trip (vu vi : Vec F S16 .i32) (t : Fin k0_t2_loop.trips) :
    k0_chk65 lanes (k0_pay68 vu) (k0_pay69 vi) (k0_pay70 lanes) (k0_pay71 lanes) (broadcast S16 (Scf.iv 0#32 1#32 t)) :=
  chk0_of_ranges lanes_lt (fun x => by rw [pay68_eq]; exact and7_lt _ x) (fun x => by rw [pay69_eq]; exact and7_lt _ x) pay70_lt pay71_lt t
omit [∀ e, Nonempty (Elt F e)] in
theorem chk1_trip (vu vi : Vec F S16 .i32) (t : Fin k0_t3_loop.trips) :
    k0_chk98 lanes (k0_pay74 vu) (k0_pay75 vi) (k0_pay76 lanes) (k0_pay77 lanes 7#32) (broadcast S16 (Scf.iv 0#32 1#32 t)) :=
  chk1_of_ranges lanes_lt (fun x => by rw [pay74_eq]; exact and7_lt _ x) (fun x => by rw [pay75_eq]; exact and7_lt _ x) pay76_lt pay77_lt t
omit [FloatOps F] [∀ e, Nonempty (Elt F e)] in
theorem inj0_trip : ∀ x x' : S16.Idx, (k0_pay70 lanes x).toNat = (k0_pay70 lanes x').toNat → (k0_pay71 lanes x).toNat = (k0_pay71 lanes x').toNat → x = x' :=
  pair_inj pay70_toNat pay71_toNat
omit [FloatOps F] [∀ e, Nonempty (Elt F e)] in
theorem inj1_trip : ∀ x x' : S16.Idx, (k0_pay76 lanes x).toNat = (k0_pay76 lanes x').toNat → (k0_pay77 lanes 7#32 x).toNat = (k0_pay77 lanes 7#32 x').toNat → x = x' :=
  pair_inj pay76_toNat pay77_toNat

omit [∀ e, Nonempty (Elt F e)] in
/-- The row word of lane l in trip t is the row, inside its block, of the index word at the lane's scratch position. -/
theorem rowU0 (su : Buf (Elt F) ((sU).view.loc (thrV d L))) (t : Fin k0_t1_loop.trips) (l : Fin 16) :
    (k0_pay68 (F := F) (vecAt (F := F) d L sU su (k0_off67 t) (k0_off67_inb t)) (ix1 l)).toNat = (subOf (su (ix1 (qpos t 0 l)))).val := by
  rw [pay68_eq, and7_lane, laneU d L su _ _ l (qpos t 0 l) (off67_lane t l)]; rfl
omit [∀ e, Nonempty (Elt F e)] in
theorem rowI0 (si : Buf (Elt F) ((sI).view.loc (thrV d L))) (t : Fin k0_t1_loop.trips) (l : Fin 16) :
    (k0_pay69 (F := F) (vecAt (F := F) d L sI si (k0_off67 t) (k0_off67_inb t)) (ix1 l)).toNat = (subOf (si (ix1 (qpos t 0 l)))).val := by
  rw [pay69_eq, and7_lane, laneI d L si _ _ l (qpos t 0 l) (off67_lane t l)]; rfl
omit [∀ e, Nonempty (Elt F e)] in
theorem rowU1 (su : Buf (Elt F) ((sU).view.loc (thrV d L))) (t : Fin k0_t1_loop.trips) (l : Fin 16) :
    (k0_pay74 (F := F) (vecAt (F := F) d L sU su (k0_off102 t) (k0_off102_inb t)) (ix1 l)).toNat = (subOf (su (ix1 (qpos t 1 l)))).val := by
  rw [pay74_eq, and7_lane, laneU d L su _ _ l (qpos t 1 l) (off102_lane t l)]; rfl
omit [∀ e, Nonempty (Elt F e)] in
theorem rowI1 (si : Buf (Elt F) ((sI).view.loc (thrV d L))) (t : Fin k0_t1_loop.trips) (l : Fin 16) :
    (k0_pay75 (F := F) (vecAt (F := F) d L sI si (k0_off102 t) (k0_off102_inb t)) (ix1 l)).toNat = (subOf (si (ix1 (qpos t 1 l)))).val := by
  rw [pay75_eq, and7_lane, laneI d L si _ _ l (qpos t 1 l) (off102_lane t l)]; rfl

end Lanes

end Cert.Proof.K

end
-- ==== Proof.StepK.lean ====
/-
  Putting the loop's invariant back together at the end of a trip.

  At trip boundary t the subcore's 16 pairs of result pieces are in one of three states: trips before the previous one
  hold the result function, the previous trip's two pieces are in flight (the invariant holds nothing of them), this
  and later trips' pieces hold the launch contents. A trip takes its own two pieces out, and at its end the previous
  trip's pieces have come back holding the result function while its own have gone into flight: the rows at boundary
  t + 1. Likewise the block copies of the next chunk into buffer 0 (while a trip remains) and the two copy-outs in
  flight are the invariant's clauses at t + 1. What a copy-out writes agrees with the result function on its piece
  because the staging half holds every lane's product (`Done`) of the two landed blocks' entries.
-/
import proofs.«219339_g11596411699725_week1_w4_1023_23_alg».proof.Proof.RingK
import proofs.«219339_g11596411699725_week1_w4_1023_23_alg».proof.Proof.SlotsK
import proofs.«219339_g11596411699725_week1_w4_1023_23_alg».proof.Proof.GlueK
import proofs.«219339_g11596411699725_week1_w4_1023_23_alg».proof.Proof.ValueK
import proofs.«219339_g11596411699725_week1_w4_1023_23_alg».proof.Proof.Gen.Kernel

noncomputable section

namespace Cert.Proof.K

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

/-! ## The rows of the result across a trip -/

/-- What the invariant says of trip `t'`'s two pieces at boundary `t`. -/
abbrev rowsAt (t : ℕ) (t' : Fin k0_t1_loop.trips) : sProp 𝕄 :=
  if t'.val + 1 < t then
    iprop(((piece0 L t').view.loc (thrV d L) ↦[(piece0 L t').view.set]{fullShare} G m d)
      ∗ ((piece1 L t').view.loc (thrV d L) ↦[(piece1 L t').view.set]{fullShare} G m d))
  else if t ≤ t'.val then
    iprop(((piece0 L t').view.loc (thrV d L) ↦[(piece0 L t').view.set]{fullShare} m (oLoc d))
      ∗ ((piece1 L t').view.loc (thrV d L) ↦[(piece1 L t').view.set]{fullShare} m (oLoc d)))
  else iprop(emp)

omit [∀ e, Nonempty (Elt F e)] in
theorem outRows_eq (t : ℕ) : outRows m d L t = bigSep Finset.univ (rowsAt m d L t) := rfl

omit [∀ e, Nonempty (Elt F e)] in
theorem rowsAt_done (t : ℕ) (t' : Fin k0_t1_loop.trips) (h : t'.val + 1 < t) :
    rowsAt m d L t t' = iprop(((piece0 L t').view.loc (thrV d L) ↦[(piece0 L t').view.set]{fullShare} G m d) ∗ ((piece1 L t').view.loc (thrV d L) ↦[(piece1 L t').view.set]{fullShare} G m d)) := if_pos h
omit [∀ e, Nonempty (Elt F e)] in
theorem rowsAt_todo (t : ℕ) (t' : Fin k0_t1_loop.trips) (h : t ≤ t'.val) :
    rowsAt m d L t t' = iprop(((piece0 L t').view.loc (thrV d L) ↦[(piece0 L t').view.set]{fullShare} m (oLoc d)) ∗ ((piece1 L t').view.loc (thrV d L) ↦[(piece1 L t').view.set]{fullShare} m (oLoc d))) :=
  (if_neg (by omega)).trans (if_pos h)
omit [∀ e, Nonempty (Elt F e)] in
theorem rowsAt_fly (t : ℕ) (t' : Fin k0_t1_loop.trips) (h1 : ¬ t'.val + 1 < t) (h2 : ¬ t ≤ t'.val) :
    rowsAt m d L t t' = iprop(emp) := (if_neg h1).trans (if_neg h2)

omit [∀ e, Nonempty (Elt F e)] in
/-- This trip's two pieces come out of the rows at their launch contents. -/
theorem outRows_take (t : Fin k0_t1_loop.trips) :
    outRows m d L t.val = iprop((((piece0 L t).view.loc (thrV d L) ↦[(piece0 L t).view.set]{fullShare} m (oLoc d))
        ∗ ((piece1 L t).view.loc (thrV d L) ↦[(piece1 L t).view.set]{fullShare} m (oLoc d)))
      ∗ bigSep ((Finset.univ : Finset (Fin k0_t1_loop.trips)).erase t) (rowsAt m d L t.val)) := by
  rw [outRows_eq, SparseCore.bigSep_erase' (Finset.mem_univ t), rowsAt_todo m d L t.val t (le_refl _)]

theorem pred_trip_lt (t : Fin k0_t1_loop.trips) : t.val - 1 < 16 := by have h : t.val < 16 := t.isLt; omega

omit [∀ e, Nonempty (Elt F e)] in
/-- At the end of a trip after the first: the previous trip's pieces are back holding the result function, this
    trip's are in flight, every other trip's are as they were. -/
theorem outRows_put (t : Fin k0_t1_loop.trips) (ht : 0 < t.val) :
    iprop((((piece0 L (tripOf (t.val - 1) (pred_trip_lt t))).view.loc (thrV d L) ↦[(piece0 L (tripOf (t.val - 1) (pred_trip_lt t))).view.set]{fullShare} G m d)
          ∗ ((piece1 L (tripOf (t.val - 1) (pred_trip_lt t))).view.loc (thrV d L) ↦[(piece1 L (tripOf (t.val - 1) (pred_trip_lt t))).view.set]{fullShare} G m d))
        ∗ bigSep ((Finset.univ : Finset (Fin k0_t1_loop.trips)).erase t) (rowsAt m d L t.val))
      ⊢ outRows m d L (t.val + 1) := by
  have htv : t.val < 16 := t.isLt
  have hne : tripOf (t.val - 1) (pred_trip_lt t) ≠ t := fun e => by
    have := congrArg Fin.val e
    change t.val - 1 = t.val at this
    omega
  have htp : tripOf (t.val - 1) (pred_trip_lt t) ∈ (Finset.univ : Finset (Fin k0_t1_loop.trips)).erase t :=
    Finset.mem_erase.mpr ⟨hne, Finset.mem_univ _⟩
  have e1 : rowsAt m d L (t.val + 1) t = iprop(emp) := rowsAt_fly m d L _ _ (by omega) (by omega)
  have e2 := rowsAt_done m d L (t.val + 1) (tripOf (t.val - 1) (pred_trip_lt t)) (by show t.val - 1 + 1 < t.val + 1; omega)
  have e3 : rowsAt m d L t.val (tripOf (t.val - 1) (pred_trip_lt t)) = iprop(emp) :=
    rowsAt_fly m d L _ _ (by show ¬ t.val - 1 + 1 < t.val; omega) (by show ¬ t.val ≤ t.val - 1; omega)
  have e4 : bigSep (((Finset.univ : Finset (Fin k0_t1_loop.trips)).erase t).erase (tripOf (t.val - 1) (pred_trip_lt t))) (rowsAt m d L (t.val + 1))
      = bigSep (((Finset.univ : Finset (Fin k0_t1_loop.trips)).erase t).erase (tripOf (t.val - 1) (pred_trip_lt t))) (rowsAt m d L t.val) := by
    refine bigSep_congr fun t' ht' => ?_
    have h1 : t' ≠ tripOf (t.val - 1) (pred_trip_lt t) := (Finset.mem_erase.mp ht').1
    have h2 : t' ≠ t := (Finset.mem_erase.mp (Finset.mem_erase.mp ht').2).1
    have h1' : t'.val ≠ t.val - 1 := fun e => h1 (Fin.ext e)
    have h2' : t'.val ≠ t.val := fun e => h2 (Fin.ext e)
    by_cases hlt : t'.val + 1 < t.val
    · rw [rowsAt_done m d L _ _ hlt, rowsAt_done m d L (t.val + 1) t' (by omega)]
    · rw [rowsAt_todo m d L t.val t' (by omega), rowsAt_todo m d L (t.val + 1) t' (by omega)]
  rw [outRows_eq, SparseCore.bigSep_erase' (Finset.mem_univ t) (Φ := rowsAt m d L (t.val + 1)),
    SparseCore.bigSep_erase' htp (Φ := rowsAt m d L (t.val + 1)), e1, e2, e4,
    SparseCore.bigSep_erase' htp (Φ := rowsAt m d L t.val), e3]
  iintro ⟨HG, -, Hrest⟩
  isplitr; · iempintro
  isplitl [HG]; · iexact HG
  iexact Hrest

omit [∀ e, Nonempty (Elt F e)] in
/-- At the end of the first trip: its pieces are in flight, every other trip's are as they were. -/
theorem outRows_put0 (t : Fin k0_t1_loop.trips) (ht : t.val = 0) :
    bigSep ((Finset.univ : Finset (Fin k0_t1_loop.trips)).erase t) (rowsAt m d L 0) ⊢ outRows m d L 1 := by
  have e1 : rowsAt m d L 1 t = iprop(emp) := rowsAt_fly m d L _ _ (by omega) (by omega)
  have e4 : bigSep ((Finset.univ : Finset (Fin k0_t1_loop.trips)).erase t) (rowsAt m d L 1)
      = bigSep ((Finset.univ : Finset (Fin k0_t1_loop.trips)).erase t) (rowsAt m d L 0) := by
    refine bigSep_congr fun t' ht' => ?_
    have h2 : t' ≠ t := (Finset.mem_erase.mp ht').1
    have h2' : t'.val ≠ t.val := fun e => h2 (Fin.ext e)
    rw [rowsAt_todo m d L 0 t' (by omega), rowsAt_todo m d L 1 t' (by omega)]
  rw [outRows_eq, SparseCore.bigSep_erase' (Finset.mem_univ t) (Φ := rowsAt m d L 1), e1, e4]
  iintro H
  isplitr; · iempintro
  iexact H

/-! ## Whether a trip remains -/

theorem cond3_lt : ∀ t : Fin k0_t1_loop.trips, k0_cond3 t = 1#1 → t.val + 1 < 16 := by decide +kernel
theorem cond3_not : ∀ t : Fin k0_t1_loop.trips, ¬ k0_cond3 t = 1#1 → t.val + 1 = 16 := by decide +kernel

/-! ## Buffer 0's block copies at the next boundary -/

variable (su : Buf (Elt F) ((sU).view.loc (thrV d L))) (si : Buf (Elt F) ((sI).view.loc (thrV d L)))

theorem ringIn_lt (n : ℕ) (hn : n < 16) :
    ringIn m d L su si n = iprop(∃ (wu wi : Fin 16 → BitVec 32) (hwu : ∀ j, (wu j).toNat < 125000) (hwi : ∀ j, (wi j).toNat < 125000),
      ⌜∃ (off : Fin 1 → ℕ) (h : ∀ a, off a + S16.size a ≤ S512.size a), off = ![32 * n]
          ∧ wu = (fun j => wordOf (vecAt (F := F) d L sU su off h) j) ∧ wi = (fun j => wordOf (vecAt (F := F) d L sI si off h) j)⌝
      ∗ ringBatch (F := F) d L (slotA 0) t0V (tab0 m d) cc0_scratch5.sem 0 wu hwu 16 0
      ∗ ringBatch (F := F) d L (slotB 0) t1V (tab1 m d) cc0_scratch7.sem 0 wi hwi 16 0
      ∗ (bigSep Finset.univ fun j : Fin 16 => tokRest (F := F) d L t0V (tab0 m d) 0 wu hwu j)
      ∗ (bigSep Finset.univ fun j : Fin 16 => tokRest (F := F) d L t1V (tab1 m d) 0 wi hwi j)) := if_pos hn

theorem ringIn_ge (n : ℕ) (hn : ¬ n < 16) :
    ringIn m d L su si n = iprop((bigSep Finset.univ fun j : Fin 16 => iprop(∃ f, slotHeld (F := F) d L (slotA 0 j) f))
      ∗ (bigSep Finset.univ fun j : Fin 16 => iprop(∃ f, slotHeld (F := F) d L (slotB 0 j) f))
      ∗ (bigSep Finset.univ fun j : Fin 16 => tokWhole (F := F) d L t0V (tab0 m d) 0 j)
      ∗ (bigSep Finset.univ fun j : Fin 16 => tokWhole (F := F) d L t1V (tab1 m d) 0 j)
      ∗ semVal (thrV d L, SemLoc.dma cc0_scratch5.sem) 0 ∗ semVal (thrV d L, SemLoc.dma cc0_scratch7.sem) 0) := if_neg hn

/-- While a trip remains: the batches just issued for the next chunk, with their token rests, are the next boundary's. -/
theorem ringIn_next (t : Fin k0_t1_loop.trips) (h3 : k0_cond3 t = 1#1)
    (hwu' : ∀ j : Fin 16, (wordOf (vecAt (F := F) d L sU su (k0_off69 t) (k0_off69_inb t h3)) j).toNat < 125000)
    (hwi' : ∀ j : Fin 16, (wordOf (vecAt (F := F) d L sI si (k0_off69 t) (k0_off69_inb t h3)) j).toNat < 125000) :
    iprop(ringBatch (F := F) d L (slotA 0) t0V (tab0 m d) cc0_scratch5.sem 0 (fun j => wordOf (vecAt (F := F) d L sU su (k0_off69 t) (k0_off69_inb t h3)) j) hwu' 16 0
        ∗ ringBatch (F := F) d L (slotB 0) t1V (tab1 m d) cc0_scratch7.sem 0 (fun j => wordOf (vecAt (F := F) d L sI si (k0_off69 t) (k0_off69_inb t h3)) j) hwi' 16 0
        ∗ (bigSep Finset.univ fun j : Fin 16 => tokRest (F := F) d L t0V (tab0 m d) 0 (fun j => wordOf (vecAt (F := F) d L sU su (k0_off69 t) (k0_off69_inb t h3)) j) hwu' j)
        ∗ (bigSep Finset.univ fun j : Fin 16 => tokRest (F := F) d L t1V (tab1 m d) 0 (fun j => wordOf (vecAt (F := F) d L sI si (k0_off69 t) (k0_off69_inb t h3)) j) hwi' j))
      ⊢ ringIn m d L su si (t.val + 1) := by
  rw [ringIn_lt m d L su si (t.val + 1) (cond3_lt t h3)]
  iintro ⟨HA, HB, RA, RB⟩
  iexists (fun j => wordOf (vecAt (F := F) d L sU su (k0_off69 t) (k0_off69_inb t h3)) j),
    (fun j => wordOf (vecAt (F := F) d L sI si (k0_off69 t) (k0_off69_inb t h3)) j), hwu', hwi'
  isplitr
  · ipureintro
    exact ⟨k0_off69 t, k0_off69_inb t h3, (k0_off69_eq t).trans (congrArg (fun n : ℕ => (![n] : Fin 1 → ℕ)) (by omega)), rfl, rfl⟩
  isplitl [HA]; · iexact HA
  isplitl [HB]; · iexact HB
  isplitl [RA]; · iexact RA
  iexact RB

/-! ## The copy-outs in flight at the next boundary -/

/-- The two copy-outs of trip `t`, each writing what agrees with the result function on its piece, are the next
    boundary's flights. -/
theorem outFlights_next (t : Fin k0_t1_loop.trips)
    (Z0 : Buf (Elt F) ((bufO 0).view.loc (thrV d L))) (Z1 : Buf (Elt F) ((bufO 1).view.loc (thrV d L)))
    (h0 : ∀ j ∈ piece0Set L t,
        (piece0 L t).view.writes (Elt F) (m (oLoc d)) [⟨Rect.whole S2x8x32, ReadAs.same.apply ((bufO 0).view.read (Elt F) Z0)⟩] j = G m d j)
    (h1 : ∀ j ∈ piece1Set L t,
        (piece1 L t).view.writes (Elt F) (m (oLoc d)) [⟨Rect.whole S2x8x32, ReadAs.same.apply ((bufO 1).view.read (Elt F) Z1)⟩] j = G m d j) :
    iprop(Transfers.Flight (countersEmb (U := UU)) (thrV d L) (SemLoc.dma (sig := sig) cc0_scratch9.sem) (default : HIx 1) 16384
          (outDeliv (F := F) d L (piece0 L t) (m (oLoc d)) 0 Z0)
        ∗ Transfers.Flight (countersEmb (U := UU)) (thrV d L) (SemLoc.dma (sig := sig) cc0_scratch10.sem) (default : HIx 1) 16384
          (outDeliv (F := F) d L (piece1 L t) (m (oLoc d)) 1 Z1))
      ⊢ outFlights m d L (t.val + 1) := by
  have htv : t.val < 16 := t.isLt
  have ht : 0 < t.val + 1 ∧ t.val + 1 ≤ 16 := ⟨by omega, by omega⟩
  unfold outFlights
  rw [dif_pos ht]
  have e : tripOf (t.val + 1 - 1) (pred_lt ht) = t := Fin.ext (by show t.val + 1 - 1 = t.val; omega)
  rw [e]
  unfold outFlightsAt
  iintro ⟨F0, F1⟩
  iexists Z0, Z1
  isplitr; · ipureintro; exact ⟨h0, h1⟩
  isplitl [F0]; · iexact F0
  iexact F1

/-! ## What a copy-out writes agrees with the result function -/

omit [FloatOps F] [∀ e, Nonempty (Elt F e)] in
/-- One whole write through a view, read back through the view: the written value. -/
theorem writes_whole_read {κ : Kind} {sp : Space} {s : Shape} {e : EltTy} (v : View sig κ sp s e) (f : v.ty.Contents (Elt F))
    (w : (Rect.whole s).shape.Idx → Elt F e) (y : s.Idx) :
    v.read (Elt F) (v.writes (Elt F) f [⟨Rect.whole s, w⟩]) y = w y := by
  have hw := View.read_writes_cons_emb v f (Rect.whole s) w [] y
  rwa [Rect.emb_whole_apply] at hw

omit [FloatOps F] [∀ e, Nonempty (Elt F e)] in
/-- One whole write through a view leaves, on the view's own elements, the same contents whatever was there before. -/
theorem writes_whole_base {κ : Kind} {sp : Space} {s : Shape} {e : EltTy} (v : View sig κ sp s e) (f f' : v.ty.Contents (Elt F))
    (w : (Rect.whole s).shape.Idx → Elt F e) (j : v.ty.Idx) (hj : j ∈ v.set) :
    v.writes (Elt F) f [⟨Rect.whole s, w⟩] j = v.writes (Elt F) f' [⟨Rect.whole s, w⟩] j := by
  obtain ⟨y, -, rfl⟩ := Finset.mem_map.1 hj
  have e : (v.slice (Rect.whole s)).emb y = v.emb y := by
    show v.emb ((Rect.whole s).emb y) = v.emb y
    rw [Rect.emb_whole_apply]
  rw [← e]
  exact (View.write_emb_of_mem (v := v.slice (Rect.whole s)) f w (Finset.mem_univ y)).trans
    (View.write_emb_of_mem (v := v.slice (Rect.whole s)) f' w (Finset.mem_univ y)).symm

omit [FloatOps F] in
/-- A piece that came back from its copy-out, restated over anything: it holds any function the written piece agrees
    with on the piece's rows. -/
theorem piece_back (piece : Memref sig .scVector .hbm S2x8x32 .f32) (f : Buf (Elt F) (piece.view.loc (thrV d L)))
    (w : (Rect.whole S2x8x32).shape.Idx → Elt F .f32) (g : Buf (Elt F) (piece.view.loc (thrV d L)))
    (h : ∀ j ∈ piece.view.set, piece.view.writes (Elt F) f [⟨Rect.whole S2x8x32, w⟩] j = g j) :
    (piece.view.loc (thrV d L) ↦[piece.view.set]{fullShare} piece.view.writes (Elt F) piece.view.junk [⟨Rect.whole S2x8x32, w⟩] : sProp 𝕄)
      = (piece.view.loc (thrV d L) ↦[piece.view.set]{fullShare} g) :=
  pointsTo_congr fun j hj => (writes_whole_base piece.view _ f w j hj).trans (h j hj)

section Written

variable (hpre : PreOK m)
variable (hsu : ∀ j, su j = m (uLoc d) ((uRow L).view.emb j)) (hsi : ∀ j, si j = m (iLoc d) ((iRow L).view.emb j))

include hpre hsu hsi in
/-- Half 0 of trip `t`: with the staging half holding every lane's product of the landed blocks' entries, what the
    copy-out writes onto piece 0 agrees with the result function on the piece. -/
theorem written_eq_G0 (t : Fin k0_t1_loop.trips) (wu wi : Fin 16 → BitVec 32) (hwu : ∀ j, (wu j).toNat < 125000) (hwi : ∀ j, (wi j).toNat < 125000)
    (off : Fin 1 → ℕ) (h : ∀ a, off a + S16.size a ≤ S512.size a) (hoff : off = ![32 * t.val])
    (hU : wu = fun j => wordOf (vecAt (F := F) d L sU su off h) j) (hI : wi = fun j => wordOf (vecAt (F := F) d L sI si off h) j)
    (Z' : Buf (Elt F) ((bufO 0).view.loc (thrV d L)))
    (hD : Done lanes (k0_pay68 (F := F) (vecAt (F := F) d L sU su (k0_off67 t) (k0_off67_inb t))) (k0_pay69 (F := F) (vecAt (F := F) d L sI si (k0_off67 t) (k0_off67_inb t)))
      (k0_pay70 lanes) (k0_pay71 lanes)
      ((AX0).read (Elt F) (joinA fun k : Fin 16 => (slotA 0 k).view.writes (Elt F) (slotA 0 k).view.junk [⟨Rect.whole S1x8x32, ReadAs.same.apply ((blkSrc t0V (wu k) (hwu k)).view.read (Elt F) (tab0 m d))⟩]))
      ((AY0).read (Elt F) (joinB fun k : Fin 16 => (slotB 0 k).view.writes (Elt F) (slotB 0 k).view.junk [⟨Rect.whole S1x8x32, ReadAs.same.apply ((blkSrc t1V (wi k) (hwi k)).view.read (Elt F) (tab1 m d))⟩]))
      32 ((AZ0).read (Elt F) Z')) :
    ∀ j ∈ piece0Set L t,
      (piece0 L t).view.writes (Elt F) (m (oLoc d)) [⟨Rect.whole S2x8x32, ReadAs.same.apply ((bufO 0).view.read (Elt F) Z')⟩] j = G m d j := by
  rw [stagingO0_read] at hD
  refine piece0_value m d L su si hsu hsi
    ((AX0).read (Elt F) (joinA fun k : Fin 16 => (slotA 0 k).view.writes (Elt F) (slotA 0 k).view.junk [⟨Rect.whole S1x8x32, ReadAs.same.apply ((blkSrc t0V (wu k) (hwu k)).view.read (Elt F) (tab0 m d))⟩]))
    ((AY0).read (Elt F) (joinB fun k : Fin 16 => (slotB 0 k).view.writes (Elt F) (slotB 0 k).view.junk [⟨Rect.whole S1x8x32, ReadAs.same.apply ((blkSrc t1V (wi k) (hwi k)).view.read (Elt F) (tab1 m d))⟩]))
    ((bufO 0).view.read (Elt F) Z') t ?hX ?hY ?hZ _ ?hg
  case hX =>
    intro l r f
    have hl := laneU (F := F) d L su off h l (qpos t 0 l) (by rw [hoff]; show 32 * t.val + l.val = 32 * t.val + 16 * 0 + l.val; omega)
    have hv : ((vecAt (F := F) d L sU su off h) (ix1 l)).toNat < 1000000 := by rw [hl]; exact su_lt m d L su hpre hsu _
    rw [landedA0_read d L (tab0 m d) wu hwu l r f]
    have hb : (⟨(wu l).toNat, hwu l⟩ : Fin 125000) = blkOf (su (ix1 (qpos t 0 l))) := by
      subst hU
      exact (blk_of_word _ l hv _).trans (congrArg blkOf hl)
    rw [hb]
  case hY =>
    intro l r f
    have hl := laneI (F := F) d L si off h l (qpos t 0 l) (by rw [hoff]; show 32 * t.val + l.val = 32 * t.val + 16 * 0 + l.val; omega)
    have hv : ((vecAt (F := F) d L sI si off h) (ix1 l)).toNat < 1000000 := by rw [hl]; exact si_lt m d L si hpre hsi _
    rw [landedB0_read d L (tab1 m d) wi hwi l r f]
    have hb : (⟨(wi l).toNat, hwi l⟩ : Fin 125000) = blkOf (si (ix1 (qpos t 0 l))) := by
      subst hI
      exact (blk_of_word _ l hv _).trans (congrArg blkOf hl)
    rw [hb]
  case hZ =>
    exact fun l f => Done_at lanes_toNat pay70_toNat pay71_toNat hD l f _ _ (rowU0 (F := F) d L su t l) (rowI0 (F := F) d L si t l)
  case hg =>
    exact fun y => ((View.read_apply _ _).trans (cast_eq _ _)).symm.trans (writes_whole_read _ _ _ y)

include hpre hsu hsi in
/-- Half 1 of trip `t`: with the staging half holding every lane's product of the landed blocks' entries, what the
    copy-out writes onto piece 1 agrees with the result function on the piece. -/
theorem written_eq_G1 (t : Fin k0_t1_loop.trips) (wu wi : Fin 16 → BitVec 32) (hwu : ∀ j, (wu j).toNat < 125000) (hwi : ∀ j, (wi j).toNat < 125000)
    (off : Fin 1 → ℕ) (h : ∀ a, off a + S16.size a ≤ S512.size a) (hoff : off = ![32 * t.val + 16])
    (hU : wu = fun j => wordOf (vecAt (F := F) d L sU su off h) j) (hI : wi = fun j => wordOf (vecAt (F := F) d L sI si off h) j)
    (Z' : Buf (Elt F) ((bufO 1).view.loc (thrV d L)))
    (hD : Done lanes (k0_pay74 (F := F) (vecAt (F := F) d L sU su (k0_off102 t) (k0_off102_inb t))) (k0_pay75 (F := F) (vecAt (F := F) d L sI si (k0_off102 t) (k0_off102_inb t)))
      (k0_pay76 lanes) (k0_pay77 lanes 7#32)
      ((AX1).read (Elt F) (joinA fun k : Fin 16 => (slotA 1 k).view.writes (Elt F) (slotA 1 k).view.junk [⟨Rect.whole S1x8x32, ReadAs.same.apply ((blkSrc t0V (wu k) (hwu k)).view.read (Elt F) (tab0 m d))⟩]))
      ((AY1).read (Elt F) (joinB fun k : Fin 16 => (slotB 1 k).view.writes (Elt F) (slotB 1 k).view.junk [⟨Rect.whole S1x8x32, ReadAs.same.apply ((blkSrc t1V (wi k) (hwi k)).view.read (Elt F) (tab1 m d))⟩]))
      32 ((AZ1).read (Elt F) Z')) :
    ∀ j ∈ piece1Set L t,
      (piece1 L t).view.writes (Elt F) (m (oLoc d)) [⟨Rect.whole S2x8x32, ReadAs.same.apply ((bufO 1).view.read (Elt F) Z')⟩] j = G m d j := by
  rw [stagingO1_read] at hD
  refine piece1_value m d L su si hsu hsi
    ((AX1).read (Elt F) (joinA fun k : Fin 16 => (slotA 1 k).view.writes (Elt F) (slotA 1 k).view.junk [⟨Rect.whole S1x8x32, ReadAs.same.apply ((blkSrc t0V (wu k) (hwu k)).view.read (Elt F) (tab0 m d))⟩]))
    ((AY1).read (Elt F) (joinB fun k : Fin 16 => (slotB 1 k).view.writes (Elt F) (slotB 1 k).view.junk [⟨Rect.whole S1x8x32, ReadAs.same.apply ((blkSrc t1V (wi k) (hwi k)).view.read (Elt F) (tab1 m d))⟩]))
    ((bufO 1).view.read (Elt F) Z') t ?hX ?hY ?hZ _ ?hg
  case hX =>
    intro l r f
    have hl := laneU (F := F) d L su off h l (qpos t 1 l) (by rw [hoff]; show 32 * t.val + 16 + l.val = 32 * t.val + 16 * 1 + l.val; omega)
    have hv : ((vecAt (F := F) d L sU su off h) (ix1 l)).toNat < 1000000 := by rw [hl]; exact su_lt m d L su hpre hsu _
    rw [landedA1_read d L (tab0 m d) wu hwu l r f]
    have hb : (⟨(wu l).toNat, hwu l⟩ : Fin 125000) = blkOf (su (ix1 (qpos t 1 l))) := by
      subst hU
      exact (blk_of_word _ l hv _).trans (congrArg blkOf hl)
    rw [hb]
  case hY =>
    intro l r f
    have hl := laneI (F := F) d L si off h l (qpos t 1 l) (by rw [hoff]; show 32 * t.val + 16 + l.val = 32 * t.val + 16 * 1 + l.val; omega)
    have hv : ((vecAt (F := F) d L sI si off h) (ix1 l)).toNat < 1000000 := by rw [hl]; exact si_lt m d L si hpre hsi _
    rw [landedB1_read d L (tab1 m d) wi hwi l r f]
    have hb : (⟨(wi l).toNat, hwi l⟩ : Fin 125000) = blkOf (si (ix1 (qpos t 1 l))) := by
      subst hI
      exact (blk_of_word _ l hv _).trans (congrArg blkOf hl)
    rw [hb]
  case hZ =>
    exact fun l f => Done_at lanes_toNat pay76_toNat pay77_toNat hD l f _ _ (rowU1 (F := F) d L su t l) (rowI1 (F := F) d L si t l)
  case hg =>
    exact fun y => ((View.read_apply _ _).trans (cast_eq _ _)).symm.trans (writes_whole_read _ _ _ y)

end Written

end Cert.Proof.K

end
-- ==== Proof.TripPreK.lean ====
/-
  Small facts shared by the cases of one trip of the double-buffered loop: a sixteen-fold product written out slot by
  slot, the allocation of a batch on a cell named by its number, which guards of a trip hold at which trips, and that
  a load off an index scratch reads words of its contents.
-/
import proofs.«219339_g11596411699725_week1_w4_1023_23_alg».proof.Proof.RingK

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable [FloatOps F] [∀ e, Nonempty (Elt F e)]
variable (d : Dev nD) (L : grid0.Coords)

omit [FloatOps F] [∀ e, Nonempty (Elt F e)] in
/-- A product over the 16 slots of a buffer, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [∀ e, Nonempty (Elt F e)] in
/-- The same with each slot spelt by its number and bound. -/
theorem bigSep_fin16m (Φ : Fin 16 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩) := bigSep_fin16 Φ

/-- Allocation of a stated batch from a cell spelt by its number. -/
theorem batch_alloc_lit {n : ℕ} (h : n < 8) (D : Fin 16 → sProp 𝕄) [∀ t, Storable (upEmb : UEmb _ 𝕄) (D t)] :
    (semVal (thrV d L, SemLoc.dma (sig := sig) ⟨n, h⟩) 0 : sProp 𝕄)
      ⊢ |={Set.univ}=> Transfers.Batch (countersEmb (U := UU)) (thrV d L) (SemLoc.dma (sig := sig) ⟨n, h⟩) (default : HIx 1) 8192 D 0 0 :=
  Transfers.batch_alloc' (Lvl := ℕ) (countersEmb (U := UU)) (thrV d L) (default : HIx 1) 8192 D (sm := SemLoc.dma (sig := sig) ⟨n, h⟩) (E := Set.univ)

/-- From the second trip on, the chunk number of either half is at least 2: the copy-out that last used the staging
    half is waited for. In the first trip it is not. -/
theorem cond_out0 : ∀ t : Fin k0_t1_loop.trips, 0 < t.val →
    Scalar.cmpi .ne (Scalar.extui (Scalar.cmpi .sge (Scalar.addi (Scalar.muli (Scf.iv 0#32 1#32 t.val) 2#32) 0#32) 2#32)) 0#32 = 1#1 := by decide +kernel
theorem cond_out1 : ∀ t : Fin k0_t1_loop.trips, 0 < t.val →
    Scalar.cmpi .ne (Scalar.extui (Scalar.cmpi .sge (Scalar.addi (Scalar.muli (Scf.iv 0#32 1#32 t.val) 2#32) 1#32) 2#32)) 0#32 = 1#1 := by decide +kernel
theorem cond_out0_first : ∀ t : Fin k0_t1_loop.trips, t.val = 0 →
    ¬ Scalar.cmpi .ne (Scalar.extui (Scalar.cmpi .sge (Scalar.addi (Scalar.muli (Scf.iv 0#32 1#32 t.val) 2#32) 0#32) 2#32)) 0#32 = 1#1 := by decide +kernel
theorem cond_out1_first : ∀ t : Fin k0_t1_loop.trips, t.val = 0 →
    ¬ Scalar.cmpi .ne (Scalar.extui (Scalar.cmpi .sge (Scalar.addi (Scalar.muli (Scf.iv 0#32 1#32 t.val) 2#32) 1#32) 2#32)) 0#32 = 1#1 := by decide +kernel
theorem cond1_all : ∀ t : Fin k0_t1_loop.trips, k0_cond1 t = 1#1 := by decide +kernel

omit [FloatOps F] [∀ e, Nonempty (Elt F e)] in
/-- A load off an index scratch reads entries of its contents. -/
theorem readAtU_lt' (s : Buf (Elt F) ((thrV d L).loc cc0_scratch0)) (hs : ∀ j, (s j).toNat < 1000000) (r : LoadRect S512) (x : r.shape.Idx) :
    ((sU).view.readAt (Elt F) r s x).toNat < 1000000 := by
  rw [View.readAt_apply]; simp only [Memref.view_whole, View.read_whole]; exact hs _
omit [FloatOps F] [∀ e, Nonempty (Elt F e)] in
theorem readAtI_lt' (s : Buf (Elt F) ((thrV d L).loc cc0_scratch1)) (hs : ∀ j, (s j).toNat < 1000000) (r : LoadRect S512) (x : r.shape.Idx) :
    ((sI).view.readAt (Elt F) r s x).toNat < 1000000 := by
  rw [View.readAt_apply]; simp only [Memref.view_whole, View.read_whole]; exact hs _

end Cert.Proof.K

end
-- ==== Proof.CloseK.lean ====
/-
  Closing the loop's invariant at the end of a trip: the invariant spelt out clause by clause, the sixteen slots of a
  buffer given back under one contents, and the waits a trip records, every one of them on a semaphore of the
  subcore's own at the index the invariant allows.
-/
import proofs.«219339_g11596411699725_week1_w4_1023_23_alg».proof.Proof.RingK
import proofs.«219339_g11596411699725_week1_w4_1023_23_alg».proof.Proof.SlotsK
import proofs.«219339_g11596411699725_week1_w4_1023_23_alg».proof.Proof.GlueK
import proofs.«219339_g11596411699725_week1_w4_1023_23_alg».proof.Proof.StepK

noncomputable section

namespace Cert.Proof.K

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

/-- The invariant, clause by clause. -/
theorem ringInv_eq (su : Buf (Elt F) ((sU).view.loc (thrV d L))) (si : Buf (Elt F) ((sI).view.loc (thrV d L)))
    (O : CellTallies nD τ sig (HIx 1)) (W : Waits sig (HIx 1)) (n : ℕ) :
    ringInv m d L su si O W n ⟨⟩ = iprop(Transfers.MayWaits (thrV d L) (none : HIx 1) O
      ∗ ((sU).view.loc (thrV d L) ↦{fullShare} su) ∗ ((sI).view.loc (thrV d L) ↦{fullShare} si)
      ∗ ringIn m d L su si n
      ∗ (bigSep Finset.univ fun j : Fin 16 => tokWhole (F := F) d L t0V (tab0 m d) 1 j)
      ∗ (bigSep Finset.univ fun j : Fin 16 => tokWhole (F := F) d L t1V (tab1 m d) 1 j)
      ∗ (bigSep Finset.univ fun j : Fin 16 => iprop(∃ f, slotHeld (F := F) d L (slotA 1 j) f))
      ∗ (bigSep Finset.univ fun j : Fin 16 => iprop(∃ f, slotHeld (F := F) d L (slotB 1 j) f))
      ∗ semVal (thrV d L, SemLoc.dma cc0_scratch6.sem) 0 ∗ semVal (thrV d L, SemLoc.dma cc0_scratch8.sem) 0
      ∗ outFlights m d L n ∗ outRows m d L n
      ∗ ∃ W', ⌜∀ p ∈ W', p ∈ W ∨ p.2 = none⌝ ∗ owes (thrV d L) O W') := rfl

omit [∀ e, Nonempty (Elt F e)] in
/-- The end of the first trip, stated at the trip's own number. -/
theorem outRows_put0' (t : Fin k0_t1_loop.trips) (ht : t.val = 0) :
    bigSep ((Finset.univ : Finset (Fin k0_t1_loop.trips)).erase t) (rowsAt m d L t.val) ⊢ outRows m d L (t.val + 1) := by
  rw [ht]
  exact outRows_put0 m d L t ht

/-! ## A buffer's slots given back -/

omit [FloatOps F] in
theorem slotsA0_back (X : Buf (Elt F) ((thrV d L).loc cc0_scratch2)) :
    ((AX0).loc (thrV d L) ↦[(AX0).set]{fullShare} X : sProp 𝕄) ⊢ bigSep Finset.univ fun j : Fin 16 => iprop(∃ f, slotHeld (F := F) d L (slotA 0 j) f) := by
  rw [splitA0]
  refine bigSep_mono fun j _ => (show ((slotA 0 j).view.loc (thrV d L) ↦[(slotA 0 j).view.set]{fullShare} X : sProp 𝕄)
    ⊢ iprop(∃ f, slotHeld (F := F) d L (slotA 0 j) f) from ?_)
  iintro H; iexists X; iexact H
omit [FloatOps F] in
theorem slotsA1_back (X : Buf (Elt F) ((thrV d L).loc cc0_scratch2)) :
    ((AX1).loc (thrV d L) ↦[(AX1).set]{fullShare} X : sProp 𝕄) ⊢ bigSep Finset.univ fun j : Fin 16 => iprop(∃ f, slotHeld (F := F) d L (slotA 1 j) f) := by
  rw [splitA1]
  refine bigSep_mono fun j _ => (show ((slotA 1 j).view.loc (thrV d L) ↦[(slotA 1 j).view.set]{fullShare} X : sProp 𝕄)
    ⊢ iprop(∃ f, slotHeld (F := F) d L (slotA 1 j) f) from ?_)
  iintro H; iexists X; iexact H
omit [FloatOps F] in
theorem slotsB0_back (Y : Buf (Elt F) ((thrV d L).loc cc0_scratch3)) :
    ((AY0).loc (thrV d L) ↦[(AY0).set]{fullShare} Y : sProp 𝕄) ⊢ bigSep Finset.univ fun j : Fin 16 => iprop(∃ f, slotHeld (F := F) d L (slotB 0 j) f) := by
  rw [splitB0]
  refine bigSep_mono fun j _ => (show ((slotB 0 j).view.loc (thrV d L) ↦[(slotB 0 j).view.set]{fullShare} Y : sProp 𝕄)
    ⊢ iprop(∃ f, slotHeld (F := F) d L (slotB 0 j) f) from ?_)
  iintro H; iexists Y; iexact H
omit [FloatOps F] in
theorem slotsB1_back (Y : Buf (Elt F) ((thrV d L).loc cc0_scratch3)) :
    ((AY1).loc (thrV d L) ↦[(AY1).set]{fullShare} Y : sProp 𝕄) ⊢ bigSep Finset.univ fun j : Fin 16 => iprop(∃ f, slotHeld (F := F) d L (slotB 1 j) f) := by
  rw [splitB1]
  refine bigSep_mono fun j _ => (show ((slotB 1 j).view.loc (thrV d L) ↦[(slotB 1 j).view.set]{fullShare} Y : sProp 𝕄)
    ⊢ iprop(∃ f, slotHeld (F := F) d L (slotB 1 j) f) from ?_)
  iintro H; iexists Y; iexact H

/-! ## The waits a trip records -/

omit [FloatOps F] [∀ e, Nonempty (Elt F e)] in
theorem waits_base (W' : Waits sig (HIx 1)) : ∀ p ∈ W', p ∈ W' ∨ p.2 = none := fun _ hp => Or.inl hp
omit [FloatOps F] [∀ e, Nonempty (Elt F e)] in
theorem waits_insert {sm : SemLoc sig} {s W' : Waits sig (HIx 1)} (h : ∀ p ∈ s, p ∈ W' ∨ p.2 = none) :
    ∀ p ∈ insert (sm, (default : HIx 1)) s, p ∈ W' ∨ p.2 = none :=
  fun p hp => (Finset.mem_insert.mp hp).elim (fun e => Or.inr (e ▸ rfl)) (h p)
omit [FloatOps F] [∀ e, Nonempty (Elt F e)] in
theorem waits_trans {W W' Wf : Waits sig (HIx 1)} (h : ∀ p ∈ Wf, p ∈ W' ∨ p.2 = none) (hW' : ∀ p ∈ W', p ∈ W ∨ p.2 = none) :
    ∀ p ∈ Wf, p ∈ W ∨ p.2 = none :=
  fun p hp => (h p hp).elim (hW' p) Or.inr

end Cert.Proof.K

end
-- ==== Proof.TripFirstK.lean ====
/-
  The first trip of the double-buffered loop: nothing was copied out before it, so the staging halves are free and
  neither half waits for an earlier copy-out; otherwise as every trip while a trip remains.
-/
import proofs.«219339_g11596411699725_week1_w4_1023_23_alg».proof.Proof.RingK
import proofs.«219339_g11596411699725_week1_w4_1023_23_alg».proof.Proof.ExtractK
import proofs.«219339_g11596411699725_week1_w4_1023_23_alg».proof.Proof.GlueK
import proofs.«219339_g11596411699725_week1_w4_1023_23_alg».proof.Proof.StepK
import proofs.«219339_g11596411699725_week1_w4_1023_23_alg».proof.Proof.TripPreK
import proofs.«219339_g11596411699725_week1_w4_1023_23_alg».proof.Proof.CloseK
import proofs.«219339_g11596411699725_week1_w4_1023_23_alg».proof.Proof.Gen.Kernel.Skeleton
import Idealize.ShloMosaic.Lib.SparseCore.Launch
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

set_option maxHeartbeats 4000000 in
/-- The first trip keeps the invariant. -/
theorem trip_first (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) (ht0 : t.val = 0) (h3 : k0_cond3 t = 1#1) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  subst hv3
  have ht16 : t.val < 16 := t.isLt
  have h1 : k0_cond1 t = 1#1 := cond1_all t
  have hc0 := cond_out0_first t ht0
  have hc1 := cond_out1_first t ht0
  have hsu' : ∀ j, (su j).toNat < 1000000 := fun j => by rw [hsu]; exact (hpre d _).1
  have hsi' : ∀ j, (si j).toNat < 1000000 := fun j => by rw [hsi]; exact (hpre d _).2
  have hfl : outFlights (F := F) m d L t.val = outFree (F := F) d L := by
    unfold outFlights; exact dif_neg (by omega)
  unfold ringInv
  rw [ringIn_lt (F := F) m d L su si t.val ht16, hfl]
  unfold outFree
  iintro ⟨#Hlv, #Hmw, Hs0, Hs1, ⟨%wu, %wi, %hwu, %hwi, %hw, HBu0, HBi0, RA, RB⟩, TA1, TB1, SA1, SB1, Hu1, Hi1, ⟨⟨%Zf0, Hbo0⟩, ⟨%Zf1, Hbo1⟩, Ho0, Ho1⟩, Hrows, %W', %hW', HO⟩
  ihave RA := (Entails.of_eq (bigSep_fin16m (F := F) _)) $$ RA
  icases RA with ⟨RA0, RA1, RA2, RA3, RA4, RA5, RA6, RA7, RA8, RA9, RA10, RA11, RA12, RA13, RA14, RA15⟩
  ihave RB := (Entails.of_eq (bigSep_fin16m (F := F) _)) $$ RB
  icases RB with ⟨RB0, RB1, RB2, RB3, RB4, RB5, RB6, RB7, RB8, RB9, RB10, RB11, RB12, RB13, RB14, RB15⟩
  ihave TA1 := (Entails.of_eq (bigSep_fin16m (F := F) _)) $$ TA1
  icases TA1 with ⟨TA0, TA1, TA2, TA3, TA4, TA5, TA6, TA7, TA8, TA9, TA10, TA11, TA12, TA13, TA14, TA15⟩
  ihave TB1 := (Entails.of_eq (bigSep_fin16m (F := F) _)) $$ TB1
  icases TB1 with ⟨TB0, TB1, TB2, TB3, TB4, TB5, TB6, TB7, TB8, TB9, TB10, TB11, TB12, TB13, TB14, TB15⟩
  ihave SA1 := (Entails.of_eq (bigSep_fin16m (F := F) _)) $$ SA1
  icases SA1 with ⟨⟨%SAf0, SA0⟩, ⟨%SAf1, SA1⟩, ⟨%SAf2, SA2⟩, ⟨%SAf3, SA3⟩, ⟨%SAf4, SA4⟩, ⟨%SAf5, SA5⟩, ⟨%SAf6, SA6⟩, ⟨%SAf7, SA7⟩, ⟨%SAf8, SA8⟩, ⟨%SAf9, SA9⟩, ⟨%SAf10, SA10⟩, ⟨%SAf11, SA11⟩, ⟨%SAf12, SA12⟩, ⟨%SAf13, SA13⟩, ⟨%SAf14, SA14⟩, ⟨%SAf15, SA15⟩⟩
  ihave SB1 := (Entails.of_eq (bigSep_fin16m (F := F) _)) $$ SB1
  icases SB1 with ⟨⟨%SBf0, SB0⟩, ⟨%SBf1, SB1⟩, ⟨%SBf2, SB2⟩, ⟨%SBf3, SB3⟩, ⟨%SBf4, SB4⟩, ⟨%SBf5, SB5⟩, ⟨%SBf6, SB6⟩, ⟨%SBf7, SB7⟩, ⟨%SBf8, SB8⟩, ⟨%SBf9, SB9⟩, ⟨%SBf10, SB10⟩, ⟨%SBf11, SB11⟩, ⟨%SBf12, SB12⟩, ⟨%SBf13, SB13⟩, ⟨%SBf14, SB14⟩, ⟨%SBf15, SB15⟩⟩
  have hwu1 : ∀ j : Fin 16, (wordOf (vecAt (F := F) d L sU su (k0_off34 t) (k0_off34_inb t h1)) j).toNat < 125000 :=
    fun j => by refine lane_lt _ ?_ _ _ _; intro x; exact readAtU_lt' d L su hsu' _ _
  have hwi1 : ∀ j : Fin 16, (wordOf (vecAt (F := F) d L sI si (k0_off34 t) (k0_off34_inb t h1)) j).toNat < 125000 :=
    fun j => by refine lane_lt _ ?_ _ _ _; intro x; exact readAtI_lt' d L si hsi' _ _
  imod (Transfers.batch_alloc' (Lvl := ℕ) (countersEmb (U := UU)) (thrV d L) (default : HIx 1) 8192
      (fun j : Fin 16 => deliv1 (F := F) d L (slotA 1 j) t0V (wordOf (vecAt (F := F) d L sU su (k0_off34 t) (k0_off34_inb t h1)) j) (hwu1 j)
        (shareTokN fullShare (tokIx L (tokOf 1 j))) (tab0 m d)) (sm := SemLoc.dma (sig := sig) cc0_scratch6.sem) (E := Set.univ)) $$ Hu1 with HBu1
  imod (Transfers.batch_alloc' (Lvl := ℕ) (countersEmb (U := UU)) (thrV d L) (default : HIx 1) 8192
      (fun j : Fin 16 => deliv1 (F := F) d L (slotB 1 j) t1V (wordOf (vecAt (F := F) d L sI si (k0_off34 t) (k0_off34_inb t h1)) j) (hwi1 j)
        (shareTokN fullShare (tokIx L (tokOf 1 j))) (tab1 m d)) (sm := SemLoc.dma (sig := sig) cc0_scratch8.sem) (E := Set.univ)) $$ Hi1 with HBi1
  unfold k0_t1_body
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave TA0 : (tokRest (F := F) d L t0V (tab0 m d) 1 (fun j => wordOf (vecAt (F := F) d L sU su (k0_off34 t) (k0_off34_inb t h1)) j) hwu1 ⟨0, by decide⟩) $$ [TA0]
  · iexact TA0
  ihave TA1 : (tokRest (F := F) d L t0V (tab0 m d) 1 (fun j => wordOf (vecAt (F := F) d L sU su (k0_off34 t) (k0_off34_inb t h1)) j) hwu1 ⟨1, by decide⟩) $$ [TA1]
  · iexact TA1
  ihave TA2 : (tokRest (F := F) d L t0V (tab0 m d) 1 (fun j => wordOf (vecAt (F := F) d L sU su (k0_off34 t) (k0_off34_inb t h1)) j) hwu1 ⟨2, by decide⟩) $$ [TA2]
  · iexact TA2
  ihave TA3 : (tokRest (F := F) d L t0V (tab0 m d) 1 (fun j => wordOf (vecAt (F := F) d L sU su (k0_off34 t) (k0_off34_inb t h1)) j) hwu1 ⟨3, by decide⟩) $$ [TA3]
  · iexact TA3
  ihave TA4 : (tokRest (F := F) d L t0V (tab0 m d) 1 (fun j => wordOf (vecAt (F := F) d L sU su (k0_off34 t) (k0_off34_inb t h1)) j) hwu1 ⟨4, by decide⟩) $$ [TA4]
  · iexact TA4
  ihave TA5 : (tokRest (F := F) d L t0V (tab0 m d) 1 (fun j => wordOf (vecAt (F := F) d L sU su (k0_off34 t) (k0_off34_inb t h1)) j) hwu1 ⟨5, by decide⟩) $$ [TA5]
  · iexact TA5
  ihave TA6 : (tokRest (F := F) d L t0V (tab0 m d) 1 (fun j => wordOf (vecAt (F := F) d L sU su (k0_off34 t) (k0_off34_inb t h1)) j) hwu1 ⟨6, by decide⟩) $$ [TA6]
  · iexact TA6
  ihave TA7 : (tokRest (F := F) d L t0V (tab0 m d) 1 (fun j => wordOf (vecAt (F := F) d L sU su (k0_off34 t) (k0_off34_inb t h1)) j) hwu1 ⟨7, by decide⟩) $$ [TA7]
  · iexact TA7
  ihave TA8 : (tokRest (F := F) d L t0V (tab0 m d) 1 (fun j => wordOf (vecAt (F := F) d L sU su (k0_off34 t) (k0_off34_inb t h1)) j) hwu1 ⟨8, by decide⟩) $$ [TA8]
  · iexact TA8
  ihave TA9 : (tokRest (F := F) d L t0V (tab0 m d) 1 (fun j => wordOf (vecAt (F := F) d L sU su (k0_off34 t) (k0_off34_inb t h1)) j) hwu1 ⟨9, by decide⟩) $$ [TA9]
  · iexact TA9
  ihave TA10 : (tokRest (F := F) d L t0V (tab0 m d) 1 (fun j => wordOf (vecAt (F := F) d L sU su (k0_off34 t) (k0_off34_inb t h1)) j) hwu1 ⟨10, by decide⟩) $$ [TA10]
  · iexact TA10
  ihave TA11 : (tokRest (F := F) d L t0V (tab0 m d) 1 (fun j => wordOf (vecAt (F := F) d L sU su (k0_off34 t) (k0_off34_inb t h1)) j) hwu1 ⟨11, by decide⟩) $$ [TA11]
  · iexact TA11
  ihave TA12 : (tokRest (F := F) d L t0V (tab0 m d) 1 (fun j => wordOf (vecAt (F := F) d L sU su (k0_off34 t) (k0_off34_inb t h1)) j) hwu1 ⟨12, by decide⟩) $$ [TA12]
  · iexact TA12
  ihave TA13 : (tokRest (F := F) d L t0V (tab0 m d) 1 (fun j => wordOf (vecAt (F := F) d L sU su (k0_off34 t) (k0_off34_inb t h1)) j) hwu1 ⟨13, by decide⟩) $$ [TA13]
  · iexact TA13
  ihave TA14 : (tokRest (F := F) d L t0V (tab0 m d) 1 (fun j => wordOf (vecAt (F := F) d L sU su (k0_off34 t) (k0_off34_inb t h1)) j) hwu1 ⟨14, by decide⟩) $$ [TA14]
  · iexact TA14
  ihave TA15 : (tokRest (F := F) d L t0V (tab0 m d) 1 (fun j => wordOf (vecAt (F := F) d L sU su (k0_off34 t) (k0_off34_inb t h1)) j) hwu1 ⟨15, by decide⟩) $$ [TA15]
  · iexact TA15
  ihave TB0 : (tokRest (F := F) d L t1V (tab1 m d) 1 (fun j => wordOf (vecAt (F := F) d L sI si (k0_off34 t) (k0_off34_inb t h1)) j) hwi1 ⟨0, by decide⟩) $$ [TB0]
  · iexact TB0
  ihave TB1 : (tokRest (F := F) d L t1V (tab1 m d) 1 (fun j => wordOf (vecAt (F := F) d L sI si (k0_off34 t) (k0_off34_inb t h1)) j) hwi1 ⟨1, by decide⟩) $$ [TB1]
  · iexact TB1
  ihave TB2 : (tokRest (F := F) d L t1V (tab1 m d) 1 (fun j => wordOf (vecAt (F := F) d L sI si (k0_off34 t) (k0_off34_inb t h1)) j) hwi1 ⟨2, by decide⟩) $$ [TB2]
  · iexact TB2
  ihave TB3 : (tokRest (F := F) d L t1V (tab1 m d) 1 (fun j => wordOf (vecAt (F := F) d L sI si (k0_off34 t) (k0_off34_inb t h1)) j) hwi1 ⟨3, by decide⟩) $$ [TB3]
  · iexact TB3
  ihave TB4 : (tokRest (F := F) d L t1V (tab1 m d) 1 (fun j => wordOf (vecAt (F := F) d L sI si (k0_off34 t) (k0_off34_inb t h1)) j) hwi1 ⟨4, by decide⟩) $$ [TB4]
  · iexact TB4
  ihave TB5 : (tokRest (F := F) d L t1V (tab1 m d) 1 (fun j => wordOf (vecAt (F := F) d L sI si (k0_off34 t) (k0_off34_inb t h1)) j) hwi1 ⟨5, by decide⟩) $$ [TB5]
  · iexact TB5
  ihave TB6 : (tokRest (F := F) d L t1V (tab1 m d) 1 (fun j => wordOf (vecAt (F := F) d L sI si (k0_off34 t) (k0_off34_inb t h1)) j) hwi1 ⟨6, by decide⟩) $$ [TB6]
  · iexact TB6
  ihave TB7 : (tokRest (F := F) d L t1V (tab1 m d) 1 (fun j => wordOf (vecAt (F := F) d L sI si (k0_off34 t) (k0_off34_inb t h1)) j) hwi1 ⟨7, by decide⟩) $$ [TB7]
  · iexact TB7
  ihave TB8 : (tokRest (F := F) d L t1V (tab1 m d) 1 (fun j => wordOf (vecAt (F := F) d L sI si (k0_off34 t) (k0_off34_inb t h1)) j) hwi1 ⟨8, by decide⟩) $$ [TB8]
  · iexact TB8
  ihave TB9 : (tokRest (F := F) d L t1V (tab1 m d) 1 (fun j => wordOf (vecAt (F := F) d L sI si (k0_off34 t) (k0_off34_inb t h1)) j) hwi1 ⟨9, by decide⟩) $$ [TB9]
  · iexact TB9
  ihave TB10 : (tokRest (F := F) d L t1V (tab1 m d) 1 (fun j => wordOf (vecAt (F := F) d L sI si (k0_off34 t) (k0_off34_inb t h1)) j) hwi1 ⟨10, by decide⟩) $$ [TB10]
  · iexact TB10
  ihave TB11 : (tokRest (F := F) d L t1V (tab1 m d) 1 (fun j => wordOf (vecAt (F := F) d L sI si (k0_off34 t) (k0_off34_inb t h1)) j) hwi1 ⟨11, by decide⟩) $$ [TB11]
  · iexact TB11
  ihave TB12 : (tokRest (F := F) d L t1V (tab1 m d) 1 (fun j => wordOf (vecAt (F := F) d L sI si (k0_off34 t) (k0_off34_inb t h1)) j) hwi1 ⟨12, by decide⟩) $$ [TB12]
  · iexact TB12
  ihave TB13 : (tokRest (F := F) d L t1V (tab1 m d) 1 (fun j => wordOf (vecAt (F := F) d L sI si (k0_off34 t) (k0_off34_inb t h1)) j) hwi1 ⟨13, by decide⟩) $$ [TB13]
  · iexact TB13
  ihave TB14 : (tokRest (F := F) d L t1V (tab1 m d) 1 (fun j => wordOf (vecAt (F := F) d L sI si (k0_off34 t) (k0_off34_inb t h1)) j) hwi1 ⟨14, by decide⟩) $$ [TB14]
  · iexact TB14
  ihave TB15 : (tokRest (F := F) d L t1V (tab1 m d) 1 (fun j => wordOf (vecAt (F := F) d L sI si (k0_off34 t) (k0_off34_inb t h1)) j) hwi1 ⟨15, by decide⟩) $$ [TB15]
  · iexact TB15
  -- the sixteen landed blocks of each table joined into buffer 0
  ihave HX := (Entails.of_eq ((bigSep_fin16m (F := F) (fun j : Fin 16 => (slotA 0 j).view.loc (thrV d L) ↦[(slotA 0 j).view.set]{fullShare}
      (slotA 0 j).view.writes (Elt F) (slotA 0 j).view.junk [⟨Rect.whole S1x8x32, ReadAs.same.apply ((blkSrc t0V (wu j) (hwu j)).view.read (Elt F) (tab0 m d))⟩])).symm.trans
      (landedA0 (F := F) d L _))) $$ [HBu0_dst0 HBu0_dst1 HBu0_dst2 HBu0_dst3 HBu0_dst4 HBu0_dst5 HBu0_dst6 HBu0_dst7 HBu0_dst8 HBu0_dst9 HBu0_dst10 HBu0_dst11 HBu0_dst12 HBu0_dst13 HBu0_dst14 HBu0_dst15]
  · isplitl [HBu0_dst0]; · iexact HBu0_dst0
    isplitl [HBu0_dst1]; · iexact HBu0_dst1
    isplitl [HBu0_dst2]; · iexact HBu0_dst2
    isplitl [HBu0_dst3]; · iexact HBu0_dst3
    isplitl [HBu0_dst4]; · iexact HBu0_dst4
    isplitl [HBu0_dst5]; · iexact HBu0_dst5
    isplitl [HBu0_dst6]; · iexact HBu0_dst6
    isplitl [HBu0_dst7]; · iexact HBu0_dst7
    isplitl [HBu0_dst8]; · iexact HBu0_dst8
    isplitl [HBu0_dst9]; · iexact HBu0_dst9
    isplitl [HBu0_dst10]; · iexact HBu0_dst10
    isplitl [HBu0_dst11]; · iexact HBu0_dst11
    isplitl [HBu0_dst12]; · iexact HBu0_dst12
    isplitl [HBu0_dst13]; · iexact HBu0_dst13
    isplitl [HBu0_dst14]; · iexact HBu0_dst14
    iexact HBu0_dst15
  ihave HY := (Entails.of_eq ((bigSep_fin16m (F := F) (fun j : Fin 16 => (slotB 0 j).view.loc (thrV d L) ↦[(slotB 0 j).view.set]{fullShare}
      (slotB 0 j).view.writes (Elt F) (slotB 0 j).view.junk [⟨Rect.whole S1x8x32, ReadAs.same.apply ((blkSrc t1V (wi j) (hwi j)).view.read (Elt F) (tab1 m d))⟩])).symm.trans
      (landedB0 (F := F) d L _))) $$ [HBi0_dst0 HBi0_dst1 HBi0_dst2 HBi0_dst3 HBi0_dst4 HBi0_dst5 HBi0_dst6 HBi0_dst7 HBi0_dst8 HBi0_dst9 HBi0_dst10 HBi0_dst11 HBi0_dst12 HBi0_dst13 HBi0_dst14 HBi0_dst15]
  · isplitl [HBi0_dst0]; · iexact HBi0_dst0
    isplitl [HBi0_dst1]; · iexact HBi0_dst1
    isplitl [HBi0_dst2]; · iexact HBi0_dst2
    isplitl [HBi0_dst3]; · iexact HBi0_dst3
    isplitl [HBi0_dst4]; · iexact HBi0_dst4
    isplitl [HBi0_dst5]; · iexact HBi0_dst5
    isplitl [HBi0_dst6]; · iexact HBi0_dst6
    isplitl [HBi0_dst7]; · iexact HBi0_dst7
    isplitl [HBi0_dst8]; · iexact HBi0_dst8
    isplitl [HBi0_dst9]; · iexact HBi0_dst9
    isplitl [HBi0_dst10]; · iexact HBi0_dst10
    isplitl [HBi0_dst11]; · iexact HBi0_dst11
    isplitl [HBi0_dst12]; · iexact HBi0_dst12
    isplitl [HBi0_dst13]; · iexact HBi0_dst13
    isplitl [HBi0_dst14]; · iexact HBi0_dst14
    iexact HBi0_dst15
  ihave HZ := (Entails.of_eq (stagingO0 (F := F) d L _)) $$ Hbo0
  iapply (loop0_bind (F := F) d L _ _ _ _ _ _ _ _ _ _ _ _ (chk0_trip _ _) inj0_trip _)
  isplitl [HX]; · iexact HX
  isplitl [HY]; · iexact HY
  isplitl [HZ]; · iexact HZ
  iintro %Z0' ⟨%hD0, HX, HY, HZ⟩
  ihave HXs := (Entails.of_eq ((splitA0 (F := F) d L _).trans (bigSep_fin16m (F := F) _))) $$ HX
  icases HXs with ⟨SA0_0, SA0_1, SA0_2, SA0_3, SA0_4, SA0_5, SA0_6, SA0_7, SA0_8, SA0_9, SA0_10, SA0_11, SA0_12, SA0_13, SA0_14, SA0_15⟩
  ihave HYs := (Entails.of_eq ((splitB0 (F := F) d L _).trans (bigSep_fin16m (F := F) _))) $$ HY
  icases HYs with ⟨SB0_0, SB0_1, SB0_2, SB0_3, SB0_4, SB0_5, SB0_6, SB0_7, SB0_8, SB0_9, SB0_10, SB0_11, SB0_12, SB0_13, SB0_14, SB0_15⟩
  ihave Hbo0 := (Entails.of_eq (stagingO0 (F := F) d L _).symm) $$ HZ
  ihave Hrows := (Entails.of_eq (outRows_take (F := F) m d L t)) $$ Hrows
  icases Hrows with ⟨⟨Hp0, Hp1⟩, Hrest⟩
  have hwu2 : ∀ j : Fin 16, (wordOf (vecAt (F := F) d L sU su (k0_off69 t) (k0_off69_inb t h3)) j).toNat < 125000 :=
    fun j => by refine lane_lt _ ?_ _ _ _; intro x; exact readAtU_lt' d L su hsu' _ _
  have hwi2 : ∀ j : Fin 16, (wordOf (vecAt (F := F) d L sI si (k0_off69 t) (k0_off69_inb t h3)) j).toNat < 125000 :=
    fun j => by refine lane_lt _ ?_ _ _ _; intro x; exact readAtI_lt' d L si hsi' _ _
  imod (batch_alloc_lit (F := F) d L _
      (fun j : Fin 16 => deliv1 (F := F) d L (slotA 0 j) t0V (wordOf (vecAt (F := F) d L sU su (k0_off69 t) (k0_off69_inb t h3)) j) (hwu2 j)
        (shareTokN fullShare (tokIx L (tokOf 0 j))) (tab0 m d))) $$ HBu0 with HBu0
  imod (batch_alloc_lit (F := F) d L _
      (fun j : Fin 16 => deliv1 (F := F) d L (slotB 0 j) t1V (wordOf (vecAt (F := F) d L sI si (k0_off69 t) (k0_off69_inb t h3)) j) (hwi2 j)
        (shareTokN fullShare (tokIx L (tokOf 0 j))) (tab1 m d))) $$ HBi0 with HBi0
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave HX := (Entails.of_eq ((bigSep_fin16m (F := F) (fun j : Fin 16 => (slotA 1 j).view.loc (thrV d L) ↦[(slotA 1 j).view.set]{fullShare}
      (slotA 1 j).view.writes (Elt F) (slotA 1 j).view.junk [⟨Rect.whole S1x8x32, ReadAs.same.apply ((blkSrc t0V (wordOf (vecAt (F := F) d L sU su (k0_off34 t) (k0_off34_inb t h1)) j) (hwu1 j)).view.read (Elt F) (tab0 m d))⟩])).symm.trans
      (landedA1 (F := F) d L _))) $$ [HBu1_dst0 HBu1_dst1 HBu1_dst2 HBu1_dst3 HBu1_dst4 HBu1_dst5 HBu1_dst6 HBu1_dst7 HBu1_dst8 HBu1_dst9 HBu1_dst10 HBu1_dst11 HBu1_dst12 HBu1_dst13 HBu1_dst14 HBu1_dst15]
  · isplitl [HBu1_dst0]; · iexact HBu1_dst0
    isplitl [HBu1_dst1]; · iexact HBu1_dst1
    isplitl [HBu1_dst2]; · iexact HBu1_dst2
    isplitl [HBu1_dst3]; · iexact HBu1_dst3
    isplitl [HBu1_dst4]; · iexact HBu1_dst4
    isplitl [HBu1_dst5]; · iexact HBu1_dst5
    isplitl [HBu1_dst6]; · iexact HBu1_dst6
    isplitl [HBu1_dst7]; · iexact HBu1_dst7
    isplitl [HBu1_dst8]; · iexact HBu1_dst8
    isplitl [HBu1_dst9]; · iexact HBu1_dst9
    isplitl [HBu1_dst10]; · iexact HBu1_dst10
    isplitl [HBu1_dst11]; · iexact HBu1_dst11
    isplitl [HBu1_dst12]; · iexact HBu1_dst12
    isplitl [HBu1_dst13]; · iexact HBu1_dst13
    isplitl [HBu1_dst14]; · iexact HBu1_dst14
    iexact HBu1_dst15
  ihave HY := (Entails.of_eq ((bigSep_fin16m (F := F) (fun j : Fin 16 => (slotB 1 j).view.loc (thrV d L) ↦[(slotB 1 j).view.set]{fullShare}
      (slotB 1 j).view.writes (Elt F) (slotB 1 j).view.junk [⟨Rect.whole S1x8x32, ReadAs.same.apply ((blkSrc t1V (wordOf (vecAt (F := F) d L sI si (k0_off34 t) (k0_off34_inb t h1)) j) (hwi1 j)).view.read (Elt F) (tab1 m d))⟩])).symm.trans
      (landedB1 (F := F) d L _))) $$ [HBi1_dst0 HBi1_dst1 HBi1_dst2 HBi1_dst3 HBi1_dst4 HBi1_dst5 HBi1_dst6 HBi1_dst7 HBi1_dst8 HBi1_dst9 HBi1_dst10 HBi1_dst11 HBi1_dst12 HBi1_dst13 HBi1_dst14 HBi1_dst15]
  · isplitl [HBi1_dst0]; · iexact HBi1_dst0
    isplitl [HBi1_dst1]; · iexact HBi1_dst1
    isplitl [HBi1_dst2]; · iexact HBi1_dst2
    isplitl [HBi1_dst3]; · iexact HBi1_dst3
    isplitl [HBi1_dst4]; · iexact HBi1_dst4
    isplitl [HBi1_dst5]; · iexact HBi1_dst5
    isplitl [HBi1_dst6]; · iexact HBi1_dst6
    isplitl [HBi1_dst7]; · iexact HBi1_dst7
    isplitl [HBi1_dst8]; · iexact HBi1_dst8
    isplitl [HBi1_dst9]; · iexact HBi1_dst9
    isplitl [HBi1_dst10]; · iexact HBi1_dst10
    isplitl [HBi1_dst11]; · iexact HBi1_dst11
    isplitl [HBi1_dst12]; · iexact HBi1_dst12
    isplitl [HBi1_dst13]; · iexact HBi1_dst13
    isplitl [HBi1_dst14]; · iexact HBi1_dst14
    iexact HBi1_dst15
  ihave HZ := (Entails.of_eq (stagingO1 (F := F) d L _)) $$ Hbo1
  iapply (loop1_bind (F := F) d L _ _ _ _ _ _ _ _ _ _ _ _ _ (chk1_trip _ _) inj1_trip _)
  isplitl [HX]; · iexact HX
  isplitl [HY]; · iexact HY
  isplitl [HZ]; · iexact HZ
  iintro %Z1' ⟨%hD1, HX1, HY1, HZ⟩
  ihave Hbo1 := (Entails.of_eq (stagingO1 (F := F) d L _).symm) $$ HZ
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  sl_step
  obtain ⟨off, hoffh, hoff, hU, hI⟩ := hw
  have hG0 := written_eq_G0 (F := F) m d L su si hpre hsu hsi t wu wi hwu hwi off hoffh hoff hU hI Z0' hD0
  have hG1 := written_eq_G1 (F := F) m d L su si hpre hsu hsi t (fun j => wordOf (vecAt (F := F) d L sU su (k0_off34 t) (k0_off34_inb t h1)) j)
    (fun j => wordOf (vecAt (F := F) d L sI si (k0_off34 t) (k0_off34_inb t h1)) j) hwu1 hwi1 (k0_off34 t) (k0_off34_inb t h1) (k0_off34_eq t) rfl rfl Z1' hD1
  isplitr; · iexact Hlv
  isplitr; · iexact Hmw
  isplitl [Hs0]; · iexact Hs0
  isplitl [Hs1]; · iexact Hs1
  isplitl [HBu0 HBi0 RA0 RA1 RA2 RA3 RA4 RA5 RA6 RA7 RA8 RA9 RA10 RA11 RA12 RA13 RA14 RA15 RB0 RB1 RB2 RB3 RB4 RB5 RB6 RB7 RB8 RB9 RB10 RB11 RB12 RB13 RB14 RB15]
  · iapply (ringIn_next (F := F) m d L su si t h3 hwu2 hwi2)
    isplitl [HBu0]; · iexact HBu0
    isplitl [HBi0]; · iexact HBi0
    isplitl [RA0 RA1 RA2 RA3 RA4 RA5 RA6 RA7 RA8 RA9 RA10 RA11 RA12 RA13 RA14 RA15]
    · iapply (Entails.of_eq (bigSep_fin16m (F := F) _).symm)
      isplitl [RA0]; · iexact RA0
      isplitl [RA1]; · iexact RA1
      isplitl [RA2]; · iexact RA2
      isplitl [RA3]; · iexact RA3
      isplitl [RA4]; · iexact RA4
      isplitl [RA5]; · iexact RA5
      isplitl [RA6]; · iexact RA6
      isplitl [RA7]; · iexact RA7
      isplitl [RA8]; · iexact RA8
      isplitl [RA9]; · iexact RA9
      isplitl [RA10]; · iexact RA10
      isplitl [RA11]; · iexact RA11
      isplitl [RA12]; · iexact RA12
      isplitl [RA13]; · iexact RA13
      isplitl [RA14]; · iexact RA14
      iexact RA15
    iapply (Entails.of_eq (bigSep_fin16m (F := F) _).symm)
    isplitl [RB0]; · iexact RB0
    isplitl [RB1]; · iexact RB1
    isplitl [RB2]; · iexact RB2
    isplitl [RB3]; · iexact RB3
    isplitl [RB4]; · iexact RB4
    isplitl [RB5]; · iexact RB5
    isplitl [RB6]; · iexact RB6
    isplitl [RB7]; · iexact RB7
    isplitl [RB8]; · iexact RB8
    isplitl [RB9]; · iexact RB9
    isplitl [RB10]; · iexact RB10
    isplitl [RB11]; · iexact RB11
    isplitl [RB12]; · iexact RB12
    isplitl [RB13]; · iexact RB13
    isplitl [RB14]; · iexact RB14
    iexact RB15
  isplitl [TA0 TA1 TA2 TA3 TA4 TA5 TA6 TA7 TA8 TA9 TA10 TA11 TA12 TA13 TA14 TA15]
  · iapply (Entails.of_eq (bigSep_fin16m (F := F) _).symm)
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [TB0 TB1 TB2 TB3 TB4 TB5 TB6 TB7 TB8 TB9 TB10 TB11 TB12 TB13 TB14 TB15]
  · iapply (Entails.of_eq (bigSep_fin16m (F := F) _).symm)
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  isplitl [HX1]; · iapply (slotsA1_back (F := F) d L _); iexact HX1
  isplitl [HY1]; · iapply (slotsB1_back (F := F) d L _); iexact HY1
  isplitl [HBu1]; · iexact HBu1
  isplitl [HBi1]; · iexact HBi1
  isplitl [Ho0 Ho1]
  · iapply (outFlights_next (F := F) m d L t Z0' Z1' hG0 hG1)
    isplitl [Ho0]; · iexact Ho0
    iexact Ho1
  isplitl [Hrest]
  · iapply (outRows_put0' (F := F) m d L t ht0); iexact Hrest
  iexists _
  isplitr
  rotate_left
  · iexact HO
  · ipureintro
    exact waits_trans (by repeat (first | exact waits_base W' | refine waits_insert ?_)) hW'

end Cert.Proof.K

end
-- ==== Proof.TripMidK.lean ====
/-
  One trip of the double-buffered loop, the middle case: a trip came before (its two copy-outs are in flight) and a trip follows
  (the block copies of chunk 2t+2 are started). From the invariant at trip boundary t to the invariant at t + 1.

  Half 0 of the trip: start the block copies of chunk 2t+1 into buffer 1 (one batch per table), wait for the sixteen
  copies of chunk 2t in buffer 0 (its batch's last wait hands every slot and every lent block back), from trip 1 on
  wait for the copy-out that last used staging half 0, pick row idx % 8 of each landed block and multiply (the inner
  loop over the 32 columns), copy the 16 product rows out. Half 1 is the same with the buffers exchanged, and starts
  chunk 2t+2 only while a trip remains.
-/
import proofs.«219339_g11596411699725_week1_w4_1023_23_alg».proof.Proof.RingK
import proofs.«219339_g11596411699725_week1_w4_1023_23_alg».proof.Proof.ExtractK
import proofs.«219339_g11596411699725_week1_w4_1023_23_alg».proof.Proof.GlueK
import proofs.«219339_g11596411699725_week1_w4_1023_23_alg».proof.Proof.StepK
import proofs.«219339_g11596411699725_week1_w4_1023_23_alg».proof.Proof.TripPreK
import proofs.«219339_g11596411699725_week1_w4_1023_23_alg».proof.Proof.Gen.Kernel.Skeleton
import Idealize.ShloMosaic.Lib.SparseCore.Launch
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

omit [FloatOps F] [∀ e, Nonempty (Elt F e)] in
/-- A wait recorded at the loop's own index keeps the record's shape. -/
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

set_option maxHeartbeats 4000000 in
/-- A middle trip of the loop keeps the invariant. -/
theorem trip_mid (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) (ht0 : 0 < t.val) (h3 : k0_cond3 t = 1#1) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  subst hv3
  have ht16 : t.val < 16 := t.isLt
  have h1 : k0_cond1 t = 1#1 := cond1_all t
  have hc0 := cond_out0 t ht0
  have hc1 := cond_out1 t ht0
  have hsu' : ∀ j, (su j).toNat < 1000000 := fun j => by rw [hsu]; exact (hpre d _).1
  have hsi' : ∀ j, (si j).toNat < 1000000 := fun j => by rw [hsi]; exact (hpre d _).2
  have hfl : outFlights (F := F) m d L t.val = outFlightsAt m d L (tripOf (t.val - 1) (pred_lt ⟨ht0, Nat.le_of_lt ht16⟩)) := by
    unfold outFlights; exact dif_pos ⟨ht0, Nat.le_of_lt ht16⟩
  unfold ringInv
  rw [ringIn_lt (F := F) m d L su si t.val ht16, hfl]
  unfold outFlightsAt
  iintro ⟨#Hlv, #Hmw, Hs0, Hs1, ⟨%wu, %wi, %hwu, %hwi, %hw, HBu0, HBi0, RA, RB⟩, TA1, TB1, SA1, SB1, Hu1, Hi1, ⟨%Z0, %Z1, %hZ, HF0, HF1⟩, Hrows, %W', %hW', HO⟩
  ihave RA := (Entails.of_eq (bigSep_fin16m (F := F) _)) $$ RA
  icases RA with ⟨RA0, RA1, RA2, RA3, RA4, RA5, RA6, RA7, RA8, RA9, RA10, RA11, RA12, RA13, RA14, RA15⟩
  ihave RB := (Entails.of_eq (bigSep_fin16m (F := F) _)) $$ RB
  icases RB with ⟨RB0, RB1, RB2, RB3, RB4, RB5, RB6, RB7, RB8, RB9, RB10, RB11, RB12, RB13, RB14, RB15⟩
  ihave TA1 := (Entails.of_eq (bigSep_fin16m (F := F) _)) $$ TA1
  icases TA1 with ⟨TA0, TA1, TA2, TA3, TA4, TA5, TA6, TA7, TA8, TA9, TA10, TA11, TA12, TA13, TA14, TA15⟩
  ihave TB1 := (Entails.of_eq (bigSep_fin16m (F := F) _)) $$ TB1
  icases TB1 with ⟨TB0, TB1, TB2, TB3, TB4, TB5, TB6, TB7, TB8, TB9, TB10, TB11, TB12, TB13, TB14, TB15⟩
  ihave SA1 := (Entails.of_eq (bigSep_fin16m (F := F) _)) $$ SA1
  icases SA1 with ⟨⟨%SAf0, SA0⟩, ⟨%SAf1, SA1⟩, ⟨%SAf2, SA2⟩, ⟨%SAf3, SA3⟩, ⟨%SAf4, SA4⟩, ⟨%SAf5, SA5⟩, ⟨%SAf6, SA6⟩, ⟨%SAf7, SA7⟩, ⟨%SAf8, SA8⟩, ⟨%SAf9, SA9⟩, ⟨%SAf10, SA10⟩, ⟨%SAf11, SA11⟩, ⟨%SAf12, SA12⟩, ⟨%SAf13, SA13⟩, ⟨%SAf14, SA14⟩, ⟨%SAf15, SA15⟩⟩
  ihave SB1 := (Entails.of_eq (bigSep_fin16m (F := F) _)) $$ SB1
  icases SB1 with ⟨⟨%SBf0, SB0⟩, ⟨%SBf1, SB1⟩, ⟨%SBf2, SB2⟩, ⟨%SBf3, SB3⟩, ⟨%SBf4, SB4⟩, ⟨%SBf5, SB5⟩, ⟨%SBf6, SB6⟩, ⟨%SBf7, SB7⟩, ⟨%SBf8, SB8⟩, ⟨%SBf9, SB9⟩, ⟨%SBf10, SB10⟩, ⟨%SBf11, SB11⟩, ⟨%SBf12, SB12⟩, ⟨%SBf13, SB13⟩, ⟨%SBf14, SB14⟩, ⟨%SBf15, SB15⟩⟩
  have hwu1 : ∀ j : Fin 16, (wordOf (vecAt (F := F) d L sU su (k0_off34 t) (k0_off34_inb t h1)) j).toNat < 125000 :=
    fun j => by refine lane_lt _ ?_ _ _ _; intro x; exact readAtU_lt' d L su hsu' _ _
  have hwi1 : ∀ j : Fin 16, (wordOf (vecAt (F := F) d L sI si (k0_off34 t) (k0_off34_inb t h1)) j).toNat < 125000 :=
    fun j => by refine lane_lt _ ?_ _ _ _; intro x; exact readAtI_lt' d L si hsi' _ _
  imod (Transfers.batch_alloc' (Lvl := ℕ) (countersEmb (U := UU)) (thrV d L) (default : HIx 1) 8192
      (fun j : Fin 16 => deliv1 (F := F) d L (slotA 1 j) t0V (wordOf (vecAt (F := F) d L sU su (k0_off34 t) (k0_off34_inb t h1)) j) (hwu1 j)
        (shareTokN fullShare (tokIx L (tokOf 1 j))) (tab0 m d)) (sm := SemLoc.dma (sig := sig) cc0_scratch6.sem) (E := Set.univ)) $$ Hu1 with HBu1
  imod (Transfers.batch_alloc' (Lvl := ℕ) (countersEmb (U := UU)) (thrV d L) (default : HIx 1) 8192
      (fun j : Fin 16 => deliv1 (F := F) d L (slotB 1 j) t1V (wordOf (vecAt (F := F) d L sI si (k0_off34 t) (k0_off34_inb t h1)) j) (hwi1 j)
        (shareTokN fullShare (tokIx L (tokOf 1 j))) (tab1 m d)) (sm := SemLoc.dma (sig := sig) cc0_scratch8.sem) (E := Set.univ)) $$ Hi1 with HBi1
  unfold k0_t1_body
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF0 HO]
  · isplitl [HF0]; · iexact HF0
    isplitl [HO]; · iexact HO
    iapply ((K (F := F)).mayWait_none (SemLoc.dma cc0_scratch9.sem) hO); iexact Hlv
  iintro ⟨⟨Hpc0, Hbo0⟩, Ho0, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave TA0 : (tokRest (F := F) d L t0V (tab0 m d) 1 (fun j => wordOf (vecAt (F := F) d L sU su (k0_off34 t) (k0_off34_inb t h1)) j) hwu1 ⟨0, by decide⟩) $$ [TA0]
  · iexact TA0
  ihave TA1 : (tokRest (F := F) d L t0V (tab0 m d) 1 (fun j => wordOf (vecAt (F := F) d L sU su (k0_off34 t) (k0_off34_inb t h1)) j) hwu1 ⟨1, by decide⟩) $$ [TA1]
  · iexact TA1
  ihave TA2 : (tokRest (F := F) d L t0V (tab0 m d) 1 (fun j => wordOf (vecAt (F := F) d L sU su (k0_off34 t) (k0_off34_inb t h1)) j) hwu1 ⟨2, by decide⟩) $$ [TA2]
  · iexact TA2
  ihave TA3 : (tokRest (F := F) d L t0V (tab0 m d) 1 (fun j => wordOf (vecAt (F := F) d L sU su (k0_off34 t) (k0_off34_inb t h1)) j) hwu1 ⟨3, by decide⟩) $$ [TA3]
  · iexact TA3
  ihave TA4 : (tokRest (F := F) d L t0V (tab0 m d) 1 (fun j => wordOf (vecAt (F := F) d L sU su (k0_off34 t) (k0_off34_inb t h1)) j) hwu1 ⟨4, by decide⟩) $$ [TA4]
  · iexact TA4
  ihave TA5 : (tokRest (F := F) d L t0V (tab0 m d) 1 (fun j => wordOf (vecAt (F := F) d L sU su (k0_off34 t) (k0_off34_inb t h1)) j) hwu1 ⟨5, by decide⟩) $$ [TA5]
  · iexact TA5
  ihave TA6 : (tokRest (F := F) d L t0V (tab0 m d) 1 (fun j => wordOf (vecAt (F := F) d L sU su (k0_off34 t) (k0_off34_inb t h1)) j) hwu1 ⟨6, by decide⟩) $$ [TA6]
  · iexact TA6
  ihave TA7 : (tokRest (F := F) d L t0V (tab0 m d) 1 (fun j => wordOf (vecAt (F := F) d L sU su (k0_off34 t) (k0_off34_inb t h1)) j) hwu1 ⟨7, by decide⟩) $$ [TA7]
  · iexact TA7
  ihave TA8 : (tokRest (F := F) d L t0V (tab0 m d) 1 (fun j => wordOf (vecAt (F := F) d L sU su (k0_off34 t) (k0_off34_inb t h1)) j) hwu1 ⟨8, by decide⟩) $$ [TA8]
  · iexact TA8
  ihave TA9 : (tokRest (F := F) d L t0V (tab0 m d) 1 (fun j => wordOf (vecAt (F := F) d L sU su (k0_off34 t) (k0_off34_inb t h1)) j) hwu1 ⟨9, by decide⟩) $$ [TA9]
  · iexact TA9
  ihave TA10 : (tokRest (F := F) d L t0V (tab0 m d) 1 (fun j => wordOf (vecAt (F := F) d L sU su (k0_off34 t) (k0_off34_inb t h1)) j) hwu1 ⟨10, by decide⟩) $$ [TA10]
  · iexact TA10
  ihave TA11 : (tokRest (F := F) d L t0V (tab0 m d) 1 (fun j => wordOf (vecAt (F := F) d L sU su (k0_off34 t) (k0_off34_inb t h1)) j) hwu1 ⟨11, by decide⟩) $$ [TA11]
  · iexact TA11
  ihave TA12 : (tokRest (F := F) d L t0V (tab0 m d) 1 (fun j => wordOf (vecAt (F := F) d L sU su (k0_off34 t) (k0_off34_inb t h1)) j) hwu1 ⟨12, by decide⟩) $$ [TA12]
  · iexact TA12
  ihave TA13 : (tokRest (F := F) d L t0V (tab0 m d) 1 (fun j => wordOf (vecAt (F := F) d L sU su (k0_off34 t) (k0_off34_inb t h1)) j) hwu1 ⟨13, by decide⟩) $$ [TA13]
  · iexact TA13
  ihave TA14 : (tokRest (F := F) d L t0V (tab0 m d) 1 (fun j => wordOf (vecAt (F := F) d L sU su (k0_off34 t) (k0_off34_inb t h1)) j) hwu1 ⟨14, by decide⟩) $$ [TA14]
  · iexact TA14
  ihave TA15 : (tokRest (F := F) d L t0V (tab0 m d) 1 (fun j => wordOf (vecAt (F := F) d L sU su (k0_off34 t) (k0_off34_inb t h1)) j) hwu1 ⟨15, by decide⟩) $$ [TA15]
  · iexact TA15
  ihave TB0 : (tokRest (F := F) d L t1V (tab1 m d) 1 (fun j => wordOf (vecAt (F := F) d L sI si (k0_off34 t) (k0_off34_inb t h1)) j) hwi1 ⟨0, by decide⟩) $$ [TB0]
  · iexact TB0
  ihave TB1 : (tokRest (F := F) d L t1V (tab1 m d) 1 (fun j => wordOf (vecAt (F := F) d L sI si (k0_off34 t) (k0_off34_inb t h1)) j) hwi1 ⟨1, by decide⟩) $$ [TB1]
  · iexact TB1
  ihave TB2 : (tokRest (F := F) d L t1V (tab1 m d) 1 (fun j => wordOf (vecAt (F := F) d L sI si (k0_off34 t) (k0_off34_inb t h1)) j) hwi1 ⟨2, by decide⟩) $$ [TB2]
  · iexact TB2
  ihave TB3 : (tokRest (F := F) d L t1V (tab1 m d) 1 (fun j => wordOf (vecAt (F := F) d L sI si (k0_off34 t) (k0_off34_inb t h1)) j) hwi1 ⟨3, by decide⟩) $$ [TB3]
  · iexact TB3
  ihave TB4 : (tokRest (F := F) d L t1V (tab1 m d) 1 (fun j => wordOf (vecAt (F := F) d L sI si (k0_off34 t) (k0_off34_inb t h1)) j) hwi1 ⟨4, by decide⟩) $$ [TB4]
  · iexact TB4
  ihave TB5 : (tokRest (F := F) d L t1V (tab1 m d) 1 (fun j => wordOf (vecAt (F := F) d L sI si (k0_off34 t) (k0_off34_inb t h1)) j) hwi1 ⟨5, by decide⟩) $$ [TB5]
  · iexact TB5
  ihave TB6 : (tokRest (F := F) d L t1V (tab1 m d) 1 (fun j => wordOf (vecAt (F := F) d L sI si (k0_off34 t) (k0_off34_inb t h1)) j) hwi1 ⟨6, by decide⟩) $$ [TB6]
  · iexact TB6
  ihave TB7 : (tokRest (F := F) d L t1V (tab1 m d) 1 (fun j => wordOf (vecAt (F := F) d L sI si (k0_off34 t) (k0_off34_inb t h1)) j) hwi1 ⟨7, by decide⟩) $$ [TB7]
  · iexact TB7
  ihave TB8 : (tokRest (F := F) d L t1V (tab1 m d) 1 (fun j => wordOf (vecAt (F := F) d L sI si (k0_off34 t) (k0_off34_inb t h1)) j) hwi1 ⟨8, by decide⟩) $$ [TB8]
  · iexact TB8
  ihave TB9 : (tokRest (F := F) d L t1V (tab1 m d) 1 (fun j => wordOf (vecAt (F := F) d L sI si (k0_off34 t) (k0_off34_inb t h1)) j) hwi1 ⟨9, by decide⟩) $$ [TB9]
  · iexact TB9
  ihave TB10 : (tokRest (F := F) d L t1V (tab1 m d) 1 (fun j => wordOf (vecAt (F := F) d L sI si (k0_off34 t) (k0_off34_inb t h1)) j) hwi1 ⟨10, by decide⟩) $$ [TB10]
  · iexact TB10
  ihave TB11 : (tokRest (F := F) d L t1V (tab1 m d) 1 (fun j => wordOf (vecAt (F := F) d L sI si (k0_off34 t) (k0_off34_inb t h1)) j) hwi1 ⟨11, by decide⟩) $$ [TB11]
  · iexact TB11
  ihave TB12 : (tokRest (F := F) d L t1V (tab1 m d) 1 (fun j => wordOf (vecAt (F := F) d L sI si (k0_off34 t) (k0_off34_inb t h1)) j) hwi1 ⟨12, by decide⟩) $$ [TB12]
  · iexact TB12
  ihave TB13 : (tokRest (F := F) d L t1V (tab1 m d) 1 (fun j => wordOf (vecAt (F := F) d L sI si (k0_off34 t) (k0_off34_inb t h1)) j) hwi1 ⟨13, by decide⟩) $$ [TB13]
  · iexact TB13
  ihave TB14 : (tokRest (F := F) d L t1V (tab1 m d) 1 (fun j => wordOf (vecAt (F := F) d L sI si (k0_off34 t) (k0_off34_inb t h1)) j) hwi1 ⟨14, by decide⟩) $$ [TB14]
  · iexact TB14
  ihave TB15 : (tokRest (F := F) d L t1V (tab1 m d) 1 (fun j => wordOf (vecAt (F := F) d L sI si (k0_off34 t) (k0_off34_inb t h1)) j) hwi1 ⟨15, by decide⟩) $$ [TB15]
  · iexact TB15
  -- the sixteen landed blocks of each table joined into buffer 0
  ihave HX := (Entails.of_eq ((bigSep_fin16m (F := F) (fun j : Fin 16 => (slotA 0 j).view.loc (thrV d L) ↦[(slotA 0 j).view.set]{fullShare}
      (slotA 0 j).view.writes (Elt F) (slotA 0 j).view.junk [⟨Rect.whole S1x8x32, ReadAs.same.apply ((blkSrc t0V (wu j) (hwu j)).view.read (Elt F) (tab0 m d))⟩])).symm.trans
      (landedA0 (F := F) d L _))) $$ [HBu0_dst0 HBu0_dst1 HBu0_dst2 HBu0_dst3 HBu0_dst4 HBu0_dst5 HBu0_dst6 HBu0_dst7 HBu0_dst8 HBu0_dst9 HBu0_dst10 HBu0_dst11 HBu0_dst12 HBu0_dst13 HBu0_dst14 HBu0_dst15]
  · isplitl [HBu0_dst0]; · iexact HBu0_dst0
    isplitl [HBu0_dst1]; · iexact HBu0_dst1
    isplitl [HBu0_dst2]; · iexact HBu0_dst2
    isplitl [HBu0_dst3]; · iexact HBu0_dst3
    isplitl [HBu0_dst4]; · iexact HBu0_dst4
    isplitl [HBu0_dst5]; · iexact HBu0_dst5
    isplitl [HBu0_dst6]; · iexact HBu0_dst6
    isplitl [HBu0_dst7]; · iexact HBu0_dst7
    isplitl [HBu0_dst8]; · iexact HBu0_dst8
    isplitl [HBu0_dst9]; · iexact HBu0_dst9
    isplitl [HBu0_dst10]; · iexact HBu0_dst10
    isplitl [HBu0_dst11]; · iexact HBu0_dst11
    isplitl [HBu0_dst12]; · iexact HBu0_dst12
    isplitl [HBu0_dst13]; · iexact HBu0_dst13
    isplitl [HBu0_dst14]; · iexact HBu0_dst14
    iexact HBu0_dst15
  ihave HY := (Entails.of_eq ((bigSep_fin16m (F := F) (fun j : Fin 16 => (slotB 0 j).view.loc (thrV d L) ↦[(slotB 0 j).view.set]{fullShare}
      (slotB 0 j).view.writes (Elt F) (slotB 0 j).view.junk [⟨Rect.whole S1x8x32, ReadAs.same.apply ((blkSrc t1V (wi j) (hwi j)).view.read (Elt F) (tab1 m d))⟩])).symm.trans
      (landedB0 (F := F) d L _))) $$ [HBi0_dst0 HBi0_dst1 HBi0_dst2 HBi0_dst3 HBi0_dst4 HBi0_dst5 HBi0_dst6 HBi0_dst7 HBi0_dst8 HBi0_dst9 HBi0_dst10 HBi0_dst11 HBi0_dst12 HBi0_dst13 HBi0_dst14 HBi0_dst15]
  · isplitl [HBi0_dst0]; · iexact HBi0_dst0
    isplitl [HBi0_dst1]; · iexact HBi0_dst1
    isplitl [HBi0_dst2]; · iexact HBi0_dst2
    isplitl [HBi0_dst3]; · iexact HBi0_dst3
    isplitl [HBi0_dst4]; · iexact HBi0_dst4
    isplitl [HBi0_dst5]; · iexact HBi0_dst5
    isplitl [HBi0_dst6]; · iexact HBi0_dst6
    isplitl [HBi0_dst7]; · iexact HBi0_dst7
    isplitl [HBi0_dst8]; · iexact HBi0_dst8
    isplitl [HBi0_dst9]; · iexact HBi0_dst9
    isplitl [HBi0_dst10]; · iexact HBi0_dst10
    isplitl [HBi0_dst11]; · iexact HBi0_dst11
    isplitl [HBi0_dst12]; · iexact HBi0_dst12
    isplitl [HBi0_dst13]; · iexact HBi0_dst13
    isplitl [HBi0_dst14]; · iexact HBi0_dst14
    iexact HBi0_dst15
  ihave HZ := (Entails.of_eq (stagingO0 (F := F) d L _)) $$ Hbo0
  iapply (loop0_bind (F := F) d L _ _ _ _ _ _ _ _ _ _ _ _ (chk0_trip _ _) inj0_trip _)
  isplitl [HX]; · iexact HX
  isplitl [HY]; · iexact HY
  isplitl [HZ]; · iexact HZ
  iintro %Z0' ⟨%hD0, HX, HY, HZ⟩
  ihave HXs := (Entails.of_eq ((splitA0 (F := F) d L _).trans (bigSep_fin16m (F := F) _))) $$ HX
  icases HXs with ⟨SA0_0, SA0_1, SA0_2, SA0_3, SA0_4, SA0_5, SA0_6, SA0_7, SA0_8, SA0_9, SA0_10, SA0_11, SA0_12, SA0_13, SA0_14, SA0_15⟩
  ihave HYs := (Entails.of_eq ((splitB0 (F := F) d L _).trans (bigSep_fin16m (F := F) _))) $$ HY
  icases HYs with ⟨SB0_0, SB0_1, SB0_2, SB0_3, SB0_4, SB0_5, SB0_6, SB0_7, SB0_8, SB0_9, SB0_10, SB0_11, SB0_12, SB0_13, SB0_14, SB0_15⟩
  ihave Hbo0 := (Entails.of_eq (stagingO0 (F := F) d L _).symm) $$ HZ
  ihave Hrows := (Entails.of_eq (outRows_take (F := F) m d L t)) $$ Hrows
  icases Hrows with ⟨⟨Hp0, Hp1⟩, Hrest⟩
  have hwu2 : ∀ j : Fin 16, (wordOf (vecAt (F := F) d L sU su (k0_off69 t) (k0_off69_inb t h3)) j).toNat < 125000 :=
    fun j => by refine lane_lt _ ?_ _ _ _; intro x; exact readAtU_lt' d L su hsu' _ _
  have hwi2 : ∀ j : Fin 16, (wordOf (vecAt (F := F) d L sI si (k0_off69 t) (k0_off69_inb t h3)) j).toNat < 125000 :=
    fun j => by refine lane_lt _ ?_ _ _ _; intro x; exact readAtI_lt' d L si hsi' _ _
  imod (batch_alloc_lit (F := F) d L _
      (fun j : Fin 16 => deliv1 (F := F) d L (slotA 0 j) t0V (wordOf (vecAt (F := F) d L sU su (k0_off69 t) (k0_off69_inb t h3)) j) (hwu2 j)
        (shareTokN fullShare (tokIx L (tokOf 0 j))) (tab0 m d))) $$ HBu0 with HBu0
  imod (batch_alloc_lit (F := F) d L _
      (fun j : Fin 16 => deliv1 (F := F) d L (slotB 0 j) t1V (wordOf (vecAt (F := F) d L sI si (k0_off69 t) (k0_off69_inb t h3)) j) (hwi2 j)
        (shareTokN fullShare (tokIx L (tokOf 0 j))) (tab1 m d))) $$ HBi0 with HBi0
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF1 HO]
  · isplitl [HF1]; · iexact HF1
    isplitl [HO]; · iexact HO
    iapply ((K (F := F)).mayWait_none (SemLoc.dma cc0_scratch10.sem) hO); iexact Hlv
  iintro ⟨⟨Hpc1, Hbo1⟩, Ho1, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave HX := (Entails.of_eq ((bigSep_fin16m (F := F) (fun j : Fin 16 => (slotA 1 j).view.loc (thrV d L) ↦[(slotA 1 j).view.set]{fullShare}
      (slotA 1 j).view.writes (Elt F) (slotA 1 j).view.junk [⟨Rect.whole S1x8x32, ReadAs.same.apply ((blkSrc t0V (wordOf (vecAt (F := F) d L sU su (k0_off34 t) (k0_off34_inb t h1)) j) (hwu1 j)).view.read (Elt F) (tab0 m d))⟩])).symm.trans
      (landedA1 (F := F) d L _))) $$ [HBu1_dst0 HBu1_dst1 HBu1_dst2 HBu1_dst3 HBu1_dst4 HBu1_dst5 HBu1_dst6 HBu1_dst7 HBu1_dst8 HBu1_dst9 HBu1_dst10 HBu1_dst11 HBu1_dst12 HBu1_dst13 HBu1_dst14 HBu1_dst15]
  · isplitl [HBu1_dst0]; · iexact HBu1_dst0
    isplitl [HBu1_dst1]; · iexact HBu1_dst1
    isplitl [HBu1_dst2]; · iexact HBu1_dst2
    isplitl [HBu1_dst3]; · iexact HBu1_dst3
    isplitl [HBu1_dst4]; · iexact HBu1_dst4
    isplitl [HBu1_dst5]; · iexact HBu1_dst5
    isplitl [HBu1_dst6]; · iexact HBu1_dst6
    isplitl [HBu1_dst7]; · iexact HBu1_dst7
    isplitl [HBu1_dst8]; · iexact HBu1_dst8
    isplitl [HBu1_dst9]; · iexact HBu1_dst9
    isplitl [HBu1_dst10]; · iexact HBu1_dst10
    isplitl [HBu1_dst11]; · iexact HBu1_dst11
    isplitl [HBu1_dst12]; · iexact HBu1_dst12
    isplitl [HBu1_dst13]; · iexact HBu1_dst13
    isplitl [HBu1_dst14]; · iexact HBu1_dst14
    iexact HBu1_dst15
  ihave HY := (Entails.of_eq ((bigSep_fin16m (F := F) (fun j : Fin 16 => (slotB 1 j).view.loc (thrV d L) ↦[(slotB 1 j).view.set]{fullShare}
      (slotB 1 j).view.writes (Elt F) (slotB 1 j).view.junk [⟨Rect.whole S1x8x32, ReadAs.same.apply ((blkSrc t1V (wordOf (vecAt (F := F) d L sI si (k0_off34 t) (k0_off34_inb t h1)) j) (hwi1 j)).view.read (Elt F) (tab1 m d))⟩])).symm.trans
      (landedB1 (F := F) d L _))) $$ [HBi1_dst0 HBi1_dst1 HBi1_dst2 HBi1_dst3 HBi1_dst4 HBi1_dst5 HBi1_dst6 HBi1_dst7 HBi1_dst8 HBi1_dst9 HBi1_dst10 HBi1_dst11 HBi1_dst12 HBi1_dst13 HBi1_dst14 HBi1_dst15]
  · isplitl [HBi1_dst0]; · iexact HBi1_dst0
    isplitl [HBi1_dst1]; · iexact HBi1_dst1
    isplitl [HBi1_dst2]; · iexact HBi1_dst2
    isplitl [HBi1_dst3]; · iexact HBi1_dst3
    isplitl [HBi1_dst4]; · iexact HBi1_dst4
    isplitl [HBi1_dst5]; · iexact HBi1_dst5
    isplitl [HBi1_dst6]; · iexact HBi1_dst6
    isplitl [HBi1_dst7]; · iexact HBi1_dst7
    isplitl [HBi1_dst8]; · iexact HBi1_dst8
    isplitl [HBi1_dst9]; · iexact HBi1_dst9
    isplitl [HBi1_dst10]; · iexact HBi1_dst10
    isplitl [HBi1_dst11]; · iexact HBi1_dst11
    isplitl [HBi1_dst12]; · iexact HBi1_dst12
    isplitl [HBi1_dst13]; · iexact HBi1_dst13
    isplitl [HBi1_dst14]; · iexact HBi1_dst14
    iexact HBi1_dst15
  ihave HZ := (Entails.of_eq (stagingO1 (F := F) d L _)) $$ Hbo1
  iapply (loop1_bind (F := F) d L _ _ _ _ _ _ _ _ _ _ _ _ _ (chk1_trip _ _) inj1_trip _)
  isplitl [HX]; · iexact HX
  isplitl [HY]; · iexact HY
  isplitl [HZ]; · iexact HZ
  iintro %Z1' ⟨%hD1, HX, HY, HZ⟩
  ihave HXs := (Entails.of_eq ((splitA1 (F := F) d L _).trans (bigSep_fin16m (F := F) _))) $$ HX
  icases HXs with ⟨SA1_0, SA1_1, SA1_2, SA1_3, SA1_4, SA1_5, SA1_6, SA1_7, SA1_8, SA1_9, SA1_10, SA1_11, SA1_12, SA1_13, SA1_14, SA1_15⟩
  ihave HYs := (Entails.of_eq ((splitB1 (F := F) d L _).trans (bigSep_fin16m (F := F) _))) $$ HY
  icases HYs with ⟨SB1_0, SB1_1, SB1_2, SB1_3, SB1_4, SB1_5, SB1_6, SB1_7, SB1_8, SB1_9, SB1_10, SB1_11, SB1_12, SB1_13, SB1_14, SB1_15⟩
  ihave Hbo1 := (Entails.of_eq (stagingO1 (F := F) d L _).symm) $$ HZ
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  sl_step
  isplitr; · iexact Hlv
  obtain ⟨off, hoffb, hoff, hU, hI⟩ := hw
  have hG0 := written_eq_G0 (F := F) m d L su si hpre hsu hsi t wu wi hwu hwi off hoffb hoff hU hI Z0' hD0
  have hG1 := written_eq_G1 (F := F) m d L su si hpre hsu hsi t (fun j => wordOf (vecAt (F := F) d L sU su (k0_off34 t) (k0_off34_inb t h1)) j)
    (fun j => wordOf (vecAt (F := F) d L sI si (k0_off34 t) (k0_off34_inb t h1)) j) hwu1 hwi1 (k0_off34 t) (k0_off34_inb t h1) (k0_off34_eq t) rfl rfl Z1' hD1
  isplitr; · iexact Hmw
  isplitl [Hs0]; · iexact Hs0
  isplitl [Hs1]; · iexact Hs1
  isplitl [HBu0 HBi0 RA0 RA1 RA2 RA3 RA4 RA5 RA6 RA7 RA8 RA9 RA10 RA11 RA12 RA13 RA14 RA15 RB0 RB1 RB2 RB3 RB4 RB5 RB6 RB7 RB8 RB9 RB10 RB11 RB12 RB13 RB14 RB15]
  · iapply (ringIn_next (F := F) m d L su si t h3 hwu2 hwi2)
    isplitl [HBu0]; · iexact HBu0
    isplitl [HBi0]; · iexact HBi0
    isplitl [RA0 RA1 RA2 RA3 RA4 RA5 RA6 RA7 RA8 RA9 RA10 RA11 RA12 RA13 RA14 RA15]
    · iapply (Entails.of_eq (bigSep_fin16m (F := F) _).symm)
      isplitl [RA0]; · iexact RA0
      isplitl [RA1]; · iexact RA1
      isplitl [RA2]; · iexact RA2
      isplitl [RA3]; · iexact RA3
      isplitl [RA4]; · iexact RA4
      isplitl [RA5]; · iexact RA5
      isplitl [RA6]; · iexact RA6
      isplitl [RA7]; · iexact RA7
      isplitl [RA8]; · iexact RA8
      isplitl [RA9]; · iexact RA9
      isplitl [RA10]; · iexact RA10
      isplitl [RA11]; · iexact RA11
      isplitl [RA12]; · iexact RA12
      isplitl [RA13]; · iexact RA13
      isplitl [RA14]; · iexact RA14
      iexact RA15
    · iapply (Entails.of_eq (bigSep_fin16m (F := F) _).symm)
      isplitl [RB0]; · iexact RB0
      isplitl [RB1]; · iexact RB1
      isplitl [RB2]; · iexact RB2
      isplitl [RB3]; · iexact RB3
      isplitl [RB4]; · iexact RB4
      isplitl [RB5]; · iexact RB5
      isplitl [RB6]; · iexact RB6
      isplitl [RB7]; · iexact RB7
      isplitl [RB8]; · iexact RB8
      isplitl [RB9]; · iexact RB9
      isplitl [RB10]; · iexact RB10
      isplitl [RB11]; · iexact RB11
      isplitl [RB12]; · iexact RB12
      isplitl [RB13]; · iexact RB13
      isplitl [RB14]; · iexact RB14
      iexact RB15
  isplitl [TA0 TA1 TA2 TA3 TA4 TA5 TA6 TA7 TA8 TA9 TA10 TA11 TA12 TA13 TA14 TA15]
  · iapply (Entails.of_eq (bigSep_fin16m (F := F) _).symm)
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [TB0 TB1 TB2 TB3 TB4 TB5 TB6 TB7 TB8 TB9 TB10 TB11 TB12 TB13 TB14 TB15]
  · iapply (Entails.of_eq (bigSep_fin16m (F := F) _).symm)
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  isplitl [SA1_0 SA1_1 SA1_2 SA1_3 SA1_4 SA1_5 SA1_6 SA1_7 SA1_8 SA1_9 SA1_10 SA1_11 SA1_12 SA1_13 SA1_14 SA1_15]
  · iapply (Entails.of_eq (bigSep_fin16m (F := F) _).symm)
    isplitl [SA1_0]; · (iexists _; iexact SA1_0)
    isplitl [SA1_1]; · (iexists _; iexact SA1_1)
    isplitl [SA1_2]; · (iexists _; iexact SA1_2)
    isplitl [SA1_3]; · (iexists _; iexact SA1_3)
    isplitl [SA1_4]; · (iexists _; iexact SA1_4)
    isplitl [SA1_5]; · (iexists _; iexact SA1_5)
    isplitl [SA1_6]; · (iexists _; iexact SA1_6)
    isplitl [SA1_7]; · (iexists _; iexact SA1_7)
    isplitl [SA1_8]; · (iexists _; iexact SA1_8)
    isplitl [SA1_9]; · (iexists _; iexact SA1_9)
    isplitl [SA1_10]; · (iexists _; iexact SA1_10)
    isplitl [SA1_11]; · (iexists _; iexact SA1_11)
    isplitl [SA1_12]; · (iexists _; iexact SA1_12)
    isplitl [SA1_13]; · (iexists _; iexact SA1_13)
    isplitl [SA1_14]; · (iexists _; iexact SA1_14)
    iexists _; iexact SA1_15
  isplitl [SB1_0 SB1_1 SB1_2 SB1_3 SB1_4 SB1_5 SB1_6 SB1_7 SB1_8 SB1_9 SB1_10 SB1_11 SB1_12 SB1_13 SB1_14 SB1_15]
  · iapply (Entails.of_eq (bigSep_fin16m (F := F) _).symm)
    isplitl [SB1_0]; · (iexists _; iexact SB1_0)
    isplitl [SB1_1]; · (iexists _; iexact SB1_1)
    isplitl [SB1_2]; · (iexists _; iexact SB1_2)
    isplitl [SB1_3]; · (iexists _; iexact SB1_3)
    isplitl [SB1_4]; · (iexists _; iexact SB1_4)
    isplitl [SB1_5]; · (iexists _; iexact SB1_5)
    isplitl [SB1_6]; · (iexists _; iexact SB1_6)
    isplitl [SB1_7]; · (iexists _; iexact SB1_7)
    isplitl [SB1_8]; · (iexists _; iexact SB1_8)
    isplitl [SB1_9]; · (iexists _; iexact SB1_9)
    isplitl [SB1_10]; · (iexists _; iexact SB1_10)
    isplitl [SB1_11]; · (iexists _; iexact SB1_11)
    isplitl [SB1_12]; · (iexists _; iexact SB1_12)
    isplitl [SB1_13]; · (iexists _; iexact SB1_13)
    isplitl [SB1_14]; · (iexists _; iexact SB1_14)
    iexists _; iexact SB1_15
  isplitl [HBu1]; · iexact HBu1
  isplitl [HBi1]; · iexact HBi1
  isplitl [Ho0 Ho1]
  · iapply (outFlights_next (F := F) m d L t Z0' Z1' hG0 hG1)
    isplitl [Ho0]; · iexact Ho0
    iexact Ho1
  isplitl [Hpc0 Hpc1 Hrest]
  · ihave Hpc0 := (Entails.of_eq (piece_back (F := F) d L (piece0 L (tripOf (t.val - 1) (pred_lt ⟨ht0, Nat.le_of_lt ht16⟩))) (m (oLoc d)) _ (G m d) hZ.1)) $$ Hpc0
    ihave Hpc1 := (Entails.of_eq (piece_back (F := F) d L (piece1 L (tripOf (t.val - 1) (pred_lt ⟨ht0, Nat.le_of_lt ht16⟩))) (m (oLoc d)) _ (G m d) hZ.2)) $$ Hpc1
    iapply (outRows_put (F := F) m d L t ht0)
    isplitl [Hpc0 Hpc1]
    · isplitl [Hpc0]
      · iexact Hpc0
      · iexact Hpc1
    · iexact Hrest
  iexists _
  isplitr
  rotate_left
  · iexact HO
  · ipureintro
    repeat (first | exact hW' | apply waits_ok)

end Cert.Proof.K

end
-- ==== Proof.TripLastK.lean ====
/-
  The last trip of the double-buffered loop: no chunk follows, so half 1 starts no block copies and buffer 0 is left
  at rest; otherwise as every trip after the first.
-/
import proofs.«219339_g11596411699725_week1_w4_1023_23_alg».proof.Proof.RingK
import proofs.«219339_g11596411699725_week1_w4_1023_23_alg».proof.Proof.ExtractK
import proofs.«219339_g11596411699725_week1_w4_1023_23_alg».proof.Proof.GlueK
import proofs.«219339_g11596411699725_week1_w4_1023_23_alg».proof.Proof.StepK
import proofs.«219339_g11596411699725_week1_w4_1023_23_alg».proof.Proof.TripPreK
import proofs.«219339_g11596411699725_week1_w4_1023_23_alg».proof.Proof.CloseK
import proofs.«219339_g11596411699725_week1_w4_1023_23_alg».proof.Proof.Gen.Kernel.Skeleton
import Idealize.ShloMosaic.Lib.SparseCore.Launch
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

set_option maxHeartbeats 4000000 in
/-- The last trip keeps the invariant. -/
theorem trip_last (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) (ht0 : 0 < t.val) (h3 : ¬ k0_cond3 t = 1#1) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  subst hv3
  have ht16 : t.val < 16 := t.isLt
  have h1 : k0_cond1 t = 1#1 := cond1_all t
  have hc0 := cond_out0 t ht0
  have hc1 := cond_out1 t ht0
  have hsu' : ∀ j, (su j).toNat < 1000000 := fun j => by rw [hsu]; exact (hpre d _).1
  have hsi' : ∀ j, (si j).toNat < 1000000 := fun j => by rw [hsi]; exact (hpre d _).2
  have hfl : outFlights (F := F) m d L t.val = outFlightsAt m d L (tripOf (t.val - 1) (pred_lt ⟨ht0, Nat.le_of_lt ht16⟩)) := by
    unfold outFlights; exact dif_pos ⟨ht0, Nat.le_of_lt ht16⟩
  unfold ringInv
  rw [ringIn_lt (F := F) m d L su si t.val ht16, hfl]
  unfold outFlightsAt
  iintro ⟨#Hlv, #Hmw, Hs0, Hs1, ⟨%wu, %wi, %hwu, %hwi, %hw, HBu0, HBi0, RA, RB⟩, TA1, TB1, SA1, SB1, Hu1, Hi1, ⟨%Z0, %Z1, %hZ, HF0, HF1⟩, Hrows, %W', %hW', HO⟩
  ihave RA := (Entails.of_eq (bigSep_fin16m (F := F) _)) $$ RA
  icases RA with ⟨RA0, RA1, RA2, RA3, RA4, RA5, RA6, RA7, RA8, RA9, RA10, RA11, RA12, RA13, RA14, RA15⟩
  ihave RB := (Entails.of_eq (bigSep_fin16m (F := F) _)) $$ RB
  icases RB with ⟨RB0, RB1, RB2, RB3, RB4, RB5, RB6, RB7, RB8, RB9, RB10, RB11, RB12, RB13, RB14, RB15⟩
  ihave TA1 := (Entails.of_eq (bigSep_fin16m (F := F) _)) $$ TA1
  icases TA1 with ⟨TA0, TA1, TA2, TA3, TA4, TA5, TA6, TA7, TA8, TA9, TA10, TA11, TA12, TA13, TA14, TA15⟩
  ihave TB1 := (Entails.of_eq (bigSep_fin16m (F := F) _)) $$ TB1
  icases TB1 with ⟨TB0, TB1, TB2, TB3, TB4, TB5, TB6, TB7, TB8, TB9, TB10, TB11, TB12, TB13, TB14, TB15⟩
  ihave SA1 := (Entails.of_eq (bigSep_fin16m (F := F) _)) $$ SA1
  icases SA1 with ⟨⟨%SAf0, SA0⟩, ⟨%SAf1, SA1⟩, ⟨%SAf2, SA2⟩, ⟨%SAf3, SA3⟩, ⟨%SAf4, SA4⟩, ⟨%SAf5, SA5⟩, ⟨%SAf6, SA6⟩, ⟨%SAf7, SA7⟩, ⟨%SAf8, SA8⟩, ⟨%SAf9, SA9⟩, ⟨%SAf10, SA10⟩, ⟨%SAf11, SA11⟩, ⟨%SAf12, SA12⟩, ⟨%SAf13, SA13⟩, ⟨%SAf14, SA14⟩, ⟨%SAf15, SA15⟩⟩
  ihave SB1 := (Entails.of_eq (bigSep_fin16m (F := F) _)) $$ SB1
  icases SB1 with ⟨⟨%SBf0, SB0⟩, ⟨%SBf1, SB1⟩, ⟨%SBf2, SB2⟩, ⟨%SBf3, SB3⟩, ⟨%SBf4, SB4⟩, ⟨%SBf5, SB5⟩, ⟨%SBf6, SB6⟩, ⟨%SBf7, SB7⟩, ⟨%SBf8, SB8⟩, ⟨%SBf9, SB9⟩, ⟨%SBf10, SB10⟩, ⟨%SBf11, SB11⟩, ⟨%SBf12, SB12⟩, ⟨%SBf13, SB13⟩, ⟨%SBf14, SB14⟩, ⟨%SBf15, SB15⟩⟩
  have hwu1 : ∀ j : Fin 16, (wordOf (vecAt (F := F) d L sU su (k0_off34 t) (k0_off34_inb t h1)) j).toNat < 125000 :=
    fun j => by refine lane_lt _ ?_ _ _ _; intro x; exact readAtU_lt' d L su hsu' _ _
  have hwi1 : ∀ j : Fin 16, (wordOf (vecAt (F := F) d L sI si (k0_off34 t) (k0_off34_inb t h1)) j).toNat < 125000 :=
    fun j => by refine lane_lt _ ?_ _ _ _; intro x; exact readAtI_lt' d L si hsi' _ _
  imod (Transfers.batch_alloc' (Lvl := ℕ) (countersEmb (U := UU)) (thrV d L) (default : HIx 1) 8192
      (fun j : Fin 16 => deliv1 (F := F) d L (slotA 1 j) t0V (wordOf (vecAt (F := F) d L sU su (k0_off34 t) (k0_off34_inb t h1)) j) (hwu1 j)
        (shareTokN fullShare (tokIx L (tokOf 1 j))) (tab0 m d)) (sm := SemLoc.dma (sig := sig) cc0_scratch6.sem) (E := Set.univ)) $$ Hu1 with HBu1
  imod (Transfers.batch_alloc' (Lvl := ℕ) (countersEmb (U := UU)) (thrV d L) (default : HIx 1) 8192
      (fun j : Fin 16 => deliv1 (F := F) d L (slotB 1 j) t1V (wordOf (vecAt (F := F) d L sI si (k0_off34 t) (k0_off34_inb t h1)) j) (hwi1 j)
        (shareTokN fullShare (tokIx L (tokOf 1 j))) (tab1 m d)) (sm := SemLoc.dma (sig := sig) cc0_scratch8.sem) (E := Set.univ)) $$ Hi1 with HBi1
  unfold k0_t1_body
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF0 HO]
  · isplitl [HF0]; · iexact HF0
    isplitl [HO]; · iexact HO
    iapply ((K (F := F)).mayWait_none (SemLoc.dma cc0_scratch9.sem) hO); iexact Hlv
  iintro ⟨⟨Hpc0, Hbo0⟩, Ho0, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave TA0 : (tokRest (F := F) d L t0V (tab0 m d) 1 (fun j => wordOf (vecAt (F := F) d L sU su (k0_off34 t) (k0_off34_inb t h1)) j) hwu1 ⟨0, by decide⟩) $$ [TA0]
  · iexact TA0
  ihave TA1 : (tokRest (F := F) d L t0V (tab0 m d) 1 (fun j => wordOf (vecAt (F := F) d L sU su (k0_off34 t) (k0_off34_inb t h1)) j) hwu1 ⟨1, by decide⟩) $$ [TA1]
  · iexact TA1
  ihave TA2 : (tokRest (F := F) d L t0V (tab0 m d) 1 (fun j => wordOf (vecAt (F := F) d L sU su (k0_off34 t) (k0_off34_inb t h1)) j) hwu1 ⟨2, by decide⟩) $$ [TA2]
  · iexact TA2
  ihave TA3 : (tokRest (F := F) d L t0V (tab0 m d) 1 (fun j => wordOf (vecAt (F := F) d L sU su (k0_off34 t) (k0_off34_inb t h1)) j) hwu1 ⟨3, by decide⟩) $$ [TA3]
  · iexact TA3
  ihave TA4 : (tokRest (F := F) d L t0V (tab0 m d) 1 (fun j => wordOf (vecAt (F := F) d L sU su (k0_off34 t) (k0_off34_inb t h1)) j) hwu1 ⟨4, by decide⟩) $$ [TA4]
  · iexact TA4
  ihave TA5 : (tokRest (F := F) d L t0V (tab0 m d) 1 (fun j => wordOf (vecAt (F := F) d L sU su (k0_off34 t) (k0_off34_inb t h1)) j) hwu1 ⟨5, by decide⟩) $$ [TA5]
  · iexact TA5
  ihave TA6 : (tokRest (F := F) d L t0V (tab0 m d) 1 (fun j => wordOf (vecAt (F := F) d L sU su (k0_off34 t) (k0_off34_inb t h1)) j) hwu1 ⟨6, by decide⟩) $$ [TA6]
  · iexact TA6
  ihave TA7 : (tokRest (F := F) d L t0V (tab0 m d) 1 (fun j => wordOf (vecAt (F := F) d L sU su (k0_off34 t) (k0_off34_inb t h1)) j) hwu1 ⟨7, by decide⟩) $$ [TA7]
  · iexact TA7
  ihave TA8 : (tokRest (F := F) d L t0V (tab0 m d) 1 (fun j => wordOf (vecAt (F := F) d L sU su (k0_off34 t) (k0_off34_inb t h1)) j) hwu1 ⟨8, by decide⟩) $$ [TA8]
  · iexact TA8
  ihave TA9 : (tokRest (F := F) d L t0V (tab0 m d) 1 (fun j => wordOf (vecAt (F := F) d L sU su (k0_off34 t) (k0_off34_inb t h1)) j) hwu1 ⟨9, by decide⟩) $$ [TA9]
  · iexact TA9
  ihave TA10 : (tokRest (F := F) d L t0V (tab0 m d) 1 (fun j => wordOf (vecAt (F := F) d L sU su (k0_off34 t) (k0_off34_inb t h1)) j) hwu1 ⟨10, by decide⟩) $$ [TA10]
  · iexact TA10
  ihave TA11 : (tokRest (F := F) d L t0V (tab0 m d) 1 (fun j => wordOf (vecAt (F := F) d L sU su (k0_off34 t) (k0_off34_inb t h1)) j) hwu1 ⟨11, by decide⟩) $$ [TA11]
  · iexact TA11
  ihave TA12 : (tokRest (F := F) d L t0V (tab0 m d) 1 (fun j => wordOf (vecAt (F := F) d L sU su (k0_off34 t) (k0_off34_inb t h1)) j) hwu1 ⟨12, by decide⟩) $$ [TA12]
  · iexact TA12
  ihave TA13 : (tokRest (F := F) d L t0V (tab0 m d) 1 (fun j => wordOf (vecAt (F := F) d L sU su (k0_off34 t) (k0_off34_inb t h1)) j) hwu1 ⟨13, by decide⟩) $$ [TA13]
  · iexact TA13
  ihave TA14 : (tokRest (F := F) d L t0V (tab0 m d) 1 (fun j => wordOf (vecAt (F := F) d L sU su (k0_off34 t) (k0_off34_inb t h1)) j) hwu1 ⟨14, by decide⟩) $$ [TA14]
  · iexact TA14
  ihave TA15 : (tokRest (F := F) d L t0V (tab0 m d) 1 (fun j => wordOf (vecAt (F := F) d L sU su (k0_off34 t) (k0_off34_inb t h1)) j) hwu1 ⟨15, by decide⟩) $$ [TA15]
  · iexact TA15
  ihave TB0 : (tokRest (F := F) d L t1V (tab1 m d) 1 (fun j => wordOf (vecAt (F := F) d L sI si (k0_off34 t) (k0_off34_inb t h1)) j) hwi1 ⟨0, by decide⟩) $$ [TB0]
  · iexact TB0
  ihave TB1 : (tokRest (F := F) d L t1V (tab1 m d) 1 (fun j => wordOf (vecAt (F := F) d L sI si (k0_off34 t) (k0_off34_inb t h1)) j) hwi1 ⟨1, by decide⟩) $$ [TB1]
  · iexact TB1
  ihave TB2 : (tokRest (F := F) d L t1V (tab1 m d) 1 (fun j => wordOf (vecAt (F := F) d L sI si (k0_off34 t) (k0_off34_inb t h1)) j) hwi1 ⟨2, by decide⟩) $$ [TB2]
  · iexact TB2
  ihave TB3 : (tokRest (F := F) d L t1V (tab1 m d) 1 (fun j => wordOf (vecAt (F := F) d L sI si (k0_off34 t) (k0_off34_inb t h1)) j) hwi1 ⟨3, by decide⟩) $$ [TB3]
  · iexact TB3
  ihave TB4 : (tokRest (F := F) d L t1V (tab1 m d) 1 (fun j => wordOf (vecAt (F := F) d L sI si (k0_off34 t) (k0_off34_inb t h1)) j) hwi1 ⟨4, by decide⟩) $$ [TB4]
  · iexact TB4
  ihave TB5 : (tokRest (F := F) d L t1V (tab1 m d) 1 (fun j => wordOf (vecAt (F := F) d L sI si (k0_off34 t) (k0_off34_inb t h1)) j) hwi1 ⟨5, by decide⟩) $$ [TB5]
  · iexact TB5
  ihave TB6 : (tokRest (F := F) d L t1V (tab1 m d) 1 (fun j => wordOf (vecAt (F := F) d L sI si (k0_off34 t) (k0_off34_inb t h1)) j) hwi1 ⟨6, by decide⟩) $$ [TB6]
  · iexact TB6
  ihave TB7 : (tokRest (F := F) d L t1V (tab1 m d) 1 (fun j => wordOf (vecAt (F := F) d L sI si (k0_off34 t) (k0_off34_inb t h1)) j) hwi1 ⟨7, by decide⟩) $$ [TB7]
  · iexact TB7
  ihave TB8 : (tokRest (F := F) d L t1V (tab1 m d) 1 (fun j => wordOf (vecAt (F := F) d L sI si (k0_off34 t) (k0_off34_inb t h1)) j) hwi1 ⟨8, by decide⟩) $$ [TB8]
  · iexact TB8
  ihave TB9 : (tokRest (F := F) d L t1V (tab1 m d) 1 (fun j => wordOf (vecAt (F := F) d L sI si (k0_off34 t) (k0_off34_inb t h1)) j) hwi1 ⟨9, by decide⟩) $$ [TB9]
  · iexact TB9
  ihave TB10 : (tokRest (F := F) d L t1V (tab1 m d) 1 (fun j => wordOf (vecAt (F := F) d L sI si (k0_off34 t) (k0_off34_inb t h1)) j) hwi1 ⟨10, by decide⟩) $$ [TB10]
  · iexact TB10
  ihave TB11 : (tokRest (F := F) d L t1V (tab1 m d) 1 (fun j => wordOf (vecAt (F := F) d L sI si (k0_off34 t) (k0_off34_inb t h1)) j) hwi1 ⟨11, by decide⟩) $$ [TB11]
  · iexact TB11
  ihave TB12 : (tokRest (F := F) d L t1V (tab1 m d) 1 (fun j => wordOf (vecAt (F := F) d L sI si (k0_off34 t) (k0_off34_inb t h1)) j) hwi1 ⟨12, by decide⟩) $$ [TB12]
  · iexact TB12
  ihave TB13 : (tokRest (F := F) d L t1V (tab1 m d) 1 (fun j => wordOf (vecAt (F := F) d L sI si (k0_off34 t) (k0_off34_inb t h1)) j) hwi1 ⟨13, by decide⟩) $$ [TB13]
  · iexact TB13
  ihave TB14 : (tokRest (F := F) d L t1V (tab1 m d) 1 (fun j => wordOf (vecAt (F := F) d L sI si (k0_off34 t) (k0_off34_inb t h1)) j) hwi1 ⟨14, by decide⟩) $$ [TB14]
  · iexact TB14
  ihave TB15 : (tokRest (F := F) d L t1V (tab1 m d) 1 (fun j => wordOf (vecAt (F := F) d L sI si (k0_off34 t) (k0_off34_inb t h1)) j) hwi1 ⟨15, by decide⟩) $$ [TB15]
  · iexact TB15
  -- the sixteen landed blocks of each table joined into buffer 0
  ihave HX := (Entails.of_eq ((bigSep_fin16m (F := F) (fun j : Fin 16 => (slotA 0 j).view.loc (thrV d L) ↦[(slotA 0 j).view.set]{fullShare}
      (slotA 0 j).view.writes (Elt F) (slotA 0 j).view.junk [⟨Rect.whole S1x8x32, ReadAs.same.apply ((blkSrc t0V (wu j) (hwu j)).view.read (Elt F) (tab0 m d))⟩])).symm.trans
      (landedA0 (F := F) d L _))) $$ [HBu0_dst0 HBu0_dst1 HBu0_dst2 HBu0_dst3 HBu0_dst4 HBu0_dst5 HBu0_dst6 HBu0_dst7 HBu0_dst8 HBu0_dst9 HBu0_dst10 HBu0_dst11 HBu0_dst12 HBu0_dst13 HBu0_dst14 HBu0_dst15]
  · isplitl [HBu0_dst0]; · iexact HBu0_dst0
    isplitl [HBu0_dst1]; · iexact HBu0_dst1
    isplitl [HBu0_dst2]; · iexact HBu0_dst2
    isplitl [HBu0_dst3]; · iexact HBu0_dst3
    isplitl [HBu0_dst4]; · iexact HBu0_dst4
    isplitl [HBu0_dst5]; · iexact HBu0_dst5
    isplitl [HBu0_dst6]; · iexact HBu0_dst6
    isplitl [HBu0_dst7]; · iexact HBu0_dst7
    isplitl [HBu0_dst8]; · iexact HBu0_dst8
    isplitl [HBu0_dst9]; · iexact HBu0_dst9
    isplitl [HBu0_dst10]; · iexact HBu0_dst10
    isplitl [HBu0_dst11]; · iexact HBu0_dst11
    isplitl [HBu0_dst12]; · iexact HBu0_dst12
    isplitl [HBu0_dst13]; · iexact HBu0_dst13
    isplitl [HBu0_dst14]; · iexact HBu0_dst14
    iexact HBu0_dst15
  ihave HY := (Entails.of_eq ((bigSep_fin16m (F := F) (fun j : Fin 16 => (slotB 0 j).view.loc (thrV d L) ↦[(slotB 0 j).view.set]{fullShare}
      (slotB 0 j).view.writes (Elt F) (slotB 0 j).view.junk [⟨Rect.whole S1x8x32, ReadAs.same.apply ((blkSrc t1V (wi j) (hwi j)).view.read (Elt F) (tab1 m d))⟩])).symm.trans
      (landedB0 (F := F) d L _))) $$ [HBi0_dst0 HBi0_dst1 HBi0_dst2 HBi0_dst3 HBi0_dst4 HBi0_dst5 HBi0_dst6 HBi0_dst7 HBi0_dst8 HBi0_dst9 HBi0_dst10 HBi0_dst11 HBi0_dst12 HBi0_dst13 HBi0_dst14 HBi0_dst15]
  · isplitl [HBi0_dst0]; · iexact HBi0_dst0
    isplitl [HBi0_dst1]; · iexact HBi0_dst1
    isplitl [HBi0_dst2]; · iexact HBi0_dst2
    isplitl [HBi0_dst3]; · iexact HBi0_dst3
    isplitl [HBi0_dst4]; · iexact HBi0_dst4
    isplitl [HBi0_dst5]; · iexact HBi0_dst5
    isplitl [HBi0_dst6]; · iexact HBi0_dst6
    isplitl [HBi0_dst7]; · iexact HBi0_dst7
    isplitl [HBi0_dst8]; · iexact HBi0_dst8
    isplitl [HBi0_dst9]; · iexact HBi0_dst9
    isplitl [HBi0_dst10]; · iexact HBi0_dst10
    isplitl [HBi0_dst11]; · iexact HBi0_dst11
    isplitl [HBi0_dst12]; · iexact HBi0_dst12
    isplitl [HBi0_dst13]; · iexact HBi0_dst13
    isplitl [HBi0_dst14]; · iexact HBi0_dst14
    iexact HBi0_dst15
  ihave HZ := (Entails.of_eq (stagingO0 (F := F) d L _)) $$ Hbo0
  iapply (loop0_bind (F := F) d L _ _ _ _ _ _ _ _ _ _ _ _ (chk0_trip _ _) inj0_trip _)
  isplitl [HX]; · iexact HX
  isplitl [HY]; · iexact HY
  isplitl [HZ]; · iexact HZ
  iintro %Z0' ⟨%hD0, HX0, HY0, HZ⟩
  ihave Hbo0 := (Entails.of_eq (stagingO0 (F := F) d L _).symm) $$ HZ
  ihave Hrows := (Entails.of_eq (outRows_take (F := F) m d L t)) $$ Hrows
  icases Hrows with ⟨⟨Hp0, Hp1⟩, Hrest⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  iapply (Transfers.wp_waitLocalO (countersEmb (U := UU)) 𝒱₀ (thrV d L) none (default : HIx 1) (N := 16384) rfl) $$ [HF1 HO]
  · isplitl [HF1]; · iexact HF1
    isplitl [HO]; · iexact HO
    iapply ((K (F := F)).mayWait_none (SemLoc.dma cc0_scratch10.sem) hO); iexact Hlv
  iintro ⟨⟨Hpc1, Hbo1⟩, Ho1, HO⟩
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  ihave HX := (Entails.of_eq ((bigSep_fin16m (F := F) (fun j : Fin 16 => (slotA 1 j).view.loc (thrV d L) ↦[(slotA 1 j).view.set]{fullShare}
      (slotA 1 j).view.writes (Elt F) (slotA 1 j).view.junk [⟨Rect.whole S1x8x32, ReadAs.same.apply ((blkSrc t0V (wordOf (vecAt (F := F) d L sU su (k0_off34 t) (k0_off34_inb t h1)) j) (hwu1 j)).view.read (Elt F) (tab0 m d))⟩])).symm.trans
      (landedA1 (F := F) d L _))) $$ [HBu1_dst0 HBu1_dst1 HBu1_dst2 HBu1_dst3 HBu1_dst4 HBu1_dst5 HBu1_dst6 HBu1_dst7 HBu1_dst8 HBu1_dst9 HBu1_dst10 HBu1_dst11 HBu1_dst12 HBu1_dst13 HBu1_dst14 HBu1_dst15]
  · isplitl [HBu1_dst0]; · iexact HBu1_dst0
    isplitl [HBu1_dst1]; · iexact HBu1_dst1
    isplitl [HBu1_dst2]; · iexact HBu1_dst2
    isplitl [HBu1_dst3]; · iexact HBu1_dst3
    isplitl [HBu1_dst4]; · iexact HBu1_dst4
    isplitl [HBu1_dst5]; · iexact HBu1_dst5
    isplitl [HBu1_dst6]; · iexact HBu1_dst6
    isplitl [HBu1_dst7]; · iexact HBu1_dst7
    isplitl [HBu1_dst8]; · iexact HBu1_dst8
    isplitl [HBu1_dst9]; · iexact HBu1_dst9
    isplitl [HBu1_dst10]; · iexact HBu1_dst10
    isplitl [HBu1_dst11]; · iexact HBu1_dst11
    isplitl [HBu1_dst12]; · iexact HBu1_dst12
    isplitl [HBu1_dst13]; · iexact HBu1_dst13
    isplitl [HBu1_dst14]; · iexact HBu1_dst14
    iexact HBu1_dst15
  ihave HY := (Entails.of_eq ((bigSep_fin16m (F := F) (fun j : Fin 16 => (slotB 1 j).view.loc (thrV d L) ↦[(slotB 1 j).view.set]{fullShare}
      (slotB 1 j).view.writes (Elt F) (slotB 1 j).view.junk [⟨Rect.whole S1x8x32, ReadAs.same.apply ((blkSrc t1V (wordOf (vecAt (F := F) d L sI si (k0_off34 t) (k0_off34_inb t h1)) j) (hwi1 j)).view.read (Elt F) (tab1 m d))⟩])).symm.trans
      (landedB1 (F := F) d L _))) $$ [HBi1_dst0 HBi1_dst1 HBi1_dst2 HBi1_dst3 HBi1_dst4 HBi1_dst5 HBi1_dst6 HBi1_dst7 HBi1_dst8 HBi1_dst9 HBi1_dst10 HBi1_dst11 HBi1_dst12 HBi1_dst13 HBi1_dst14 HBi1_dst15]
  · isplitl [HBi1_dst0]; · iexact HBi1_dst0
    isplitl [HBi1_dst1]; · iexact HBi1_dst1
    isplitl [HBi1_dst2]; · iexact HBi1_dst2
    isplitl [HBi1_dst3]; · iexact HBi1_dst3
    isplitl [HBi1_dst4]; · iexact HBi1_dst4
    isplitl [HBi1_dst5]; · iexact HBi1_dst5
    isplitl [HBi1_dst6]; · iexact HBi1_dst6
    isplitl [HBi1_dst7]; · iexact HBi1_dst7
    isplitl [HBi1_dst8]; · iexact HBi1_dst8
    isplitl [HBi1_dst9]; · iexact HBi1_dst9
    isplitl [HBi1_dst10]; · iexact HBi1_dst10
    isplitl [HBi1_dst11]; · iexact HBi1_dst11
    isplitl [HBi1_dst12]; · iexact HBi1_dst12
    isplitl [HBi1_dst13]; · iexact HBi1_dst13
    isplitl [HBi1_dst14]; · iexact HBi1_dst14
    iexact HBi1_dst15
  ihave HZ := (Entails.of_eq (stagingO1 (F := F) d L _)) $$ Hbo1
  iapply (loop1_bind (F := F) d L _ _ _ _ _ _ _ _ _ _ _ _ _ (chk1_trip _ _) inj1_trip _)
  isplitl [HX]; · iexact HX
  isplitl [HY]; · iexact HY
  isplitl [HZ]; · iexact HZ
  iintro %Z1' ⟨%hD1, HX1, HY1, HZ⟩
  ihave Hbo1 := (Entails.of_eq (stagingO1 (F := F) d L _).symm) $$ HZ
  sl_exec (disch := first
    | (intro a; refine chk_of_lt ?_ a; refine lane_lt _ ?_ _ _ _; intro x; first | exact readAtU_lt' d L _ hsu' _ _ | exact readAtI_lt' d L _ hsi' _ _)
    | (intro _ a; refine chk_of_lt ?_ a; refine lane_lt _ ?_ _ _ _; intro x; first | exact readAtU_lt' d L _ hsu' _ _ | exact readAtI_lt' d L _ hsi' _ _))
  sl_step
  obtain ⟨off, hoffh, hoff, hU, hI⟩ := hw
  have hG0 := written_eq_G0 (F := F) m d L su si hpre hsu hsi t wu wi hwu hwi off hoffh hoff hU hI Z0' hD0
  have hG1 := written_eq_G1 (F := F) m d L su si hpre hsu hsi t (fun j => wordOf (vecAt (F := F) d L sU su (k0_off34 t) (k0_off34_inb t h1)) j)
    (fun j => wordOf (vecAt (F := F) d L sI si (k0_off34 t) (k0_off34_inb t h1)) j) hwu1 hwi1 (k0_off34 t) (k0_off34_inb t h1) (k0_off34_eq t) rfl rfl Z1' hD1
  isplitr; · iexact Hlv
  isplitr; · iexact Hmw
  isplitl [Hs0]; · iexact Hs0
  isplitl [Hs1]; · iexact Hs1
  isplitl [HX0 HY0 RA0 RA1 RA2 RA3 RA4 RA5 RA6 RA7 RA8 RA9 RA10 RA11 RA12 RA13 RA14 RA15 RB0 RB1 RB2 RB3 RB4 RB5 RB6 RB7 RB8 RB9 RB10 RB11 RB12 RB13 RB14 RB15 HBu0 HBi0]
  · iapply (Entails.of_eq (ringIn_ge (F := F) m d L su si (t.val + 1) (by have := cond3_not t h3; omega)).symm)
    isplitl [HX0]; · iapply (slotsA0_back (F := F) d L _); iexact HX0
    isplitl [HY0]; · iapply (slotsB0_back (F := F) d L _); iexact HY0
    isplitl [RA0 RA1 RA2 RA3 RA4 RA5 RA6 RA7 RA8 RA9 RA10 RA11 RA12 RA13 RA14 RA15]
    · iapply (Entails.of_eq (bigSep_fin16m (F := F) _).symm)
      isplitl [RA0]; · iexact RA0
      isplitl [RA1]; · iexact RA1
      isplitl [RA2]; · iexact RA2
      isplitl [RA3]; · iexact RA3
      isplitl [RA4]; · iexact RA4
      isplitl [RA5]; · iexact RA5
      isplitl [RA6]; · iexact RA6
      isplitl [RA7]; · iexact RA7
      isplitl [RA8]; · iexact RA8
      isplitl [RA9]; · iexact RA9
      isplitl [RA10]; · iexact RA10
      isplitl [RA11]; · iexact RA11
      isplitl [RA12]; · iexact RA12
      isplitl [RA13]; · iexact RA13
      isplitl [RA14]; · iexact RA14
      iexact RA15
    isplitl [RB0 RB1 RB2 RB3 RB4 RB5 RB6 RB7 RB8 RB9 RB10 RB11 RB12 RB13 RB14 RB15]
    · iapply (Entails.of_eq (bigSep_fin16m (F := F) _).symm)
      isplitl [RB0]; · iexact RB0
      isplitl [RB1]; · iexact RB1
      isplitl [RB2]; · iexact RB2
      isplitl [RB3]; · iexact RB3
      isplitl [RB4]; · iexact RB4
      isplitl [RB5]; · iexact RB5
      isplitl [RB6]; · iexact RB6
      isplitl [RB7]; · iexact RB7
      isplitl [RB8]; · iexact RB8
      isplitl [RB9]; · iexact RB9
      isplitl [RB10]; · iexact RB10
      isplitl [RB11]; · iexact RB11
      isplitl [RB12]; · iexact RB12
      isplitl [RB13]; · iexact RB13
      isplitl [RB14]; · iexact RB14
      iexact RB15
    isplitl [HBu0]; · iexact HBu0
    iexact HBi0
  isplitl [TA0 TA1 TA2 TA3 TA4 TA5 TA6 TA7 TA8 TA9 TA10 TA11 TA12 TA13 TA14 TA15]
  · iapply (Entails.of_eq (bigSep_fin16m (F := F) _).symm)
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [TB0 TB1 TB2 TB3 TB4 TB5 TB6 TB7 TB8 TB9 TB10 TB11 TB12 TB13 TB14 TB15]
  · iapply (Entails.of_eq (bigSep_fin16m (F := F) _).symm)
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  isplitl [HX1]; · iapply (slotsA1_back (F := F) d L _); iexact HX1
  isplitl [HY1]; · iapply (slotsB1_back (F := F) d L _); iexact HY1
  isplitl [HBu1]; · iexact HBu1
  isplitl [HBi1]; · iexact HBi1
  isplitl [Ho0 Ho1]
  · iapply (outFlights_next (F := F) m d L t Z0' Z1' hG0 hG1)
    isplitl [Ho0]; · iexact Ho0
    iexact Ho1
  isplitl [Hpc0 Hpc1 Hrest]
  · ihave Hg0 := (Entails.of_eq (piece_back (F := F) d L (piece0 L (tripOf (t.val - 1) (pred_lt ⟨ht0, Nat.le_of_lt ht16⟩))) (m (oLoc d)) _ (G m d) hZ.1)) $$ Hpc0
    ihave Hg1 := (Entails.of_eq (piece_back (F := F) d L (piece1 L (tripOf (t.val - 1) (pred_lt ⟨ht0, Nat.le_of_lt ht16⟩))) (m (oLoc d)) _ (G m d) hZ.2)) $$ Hpc1
    iapply (outRows_put (F := F) m d L t ht0)
    isplitl [Hg0 Hg1]
    · isplitl [Hg0]; · iexact Hg0
      iexact Hg1
    iexact Hrest
  iexists _
  isplitr
  rotate_left
  · iexact HO
  · ipureintro
    exact waits_trans (by repeat (first | exact waits_base W' | refine waits_insert ?_)) hW'

end Cert.Proof.K

end
-- ==== Proof.TripK.lean ====
/-
  One trip of the double-buffered loop keeps the loop's invariant: the three cases — the first trip (no copy-out in
  flight yet), a middle trip, the last trip (no further chunk to start) — put together.
-/
import proofs.«219339_g11596411699725_week1_w4_1023_23_alg».proof.Proof.TripFirstK
import proofs.«219339_g11596411699725_week1_w4_1023_23_alg».proof.Proof.TripMidK
import proofs.«219339_g11596411699725_week1_w4_1023_23_alg».proof.Proof.TripLastK

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

set_option maxHeartbeats 8000000 in
/-- One trip of the loop keeps the invariant. -/
theorem trip (hpre : PreOK m) (O : CellTallies nD τ sig (HIx 1)) (W : Waits sig (HIx 1)) (hO : ∀ g, O g none = 0)
    (su : Buf (Elt F) ((sU).view.loc (thrV d L))) (hsu : ∀ j, su j = m (uLoc d) ((uRow L).view.emb j))
    (si : Buf (Elt F) ((sI).view.loc (thrV d L))) (hsi : ∀ j, si j = m (iLoc d) ((iRow L).view.emb j))
    (v2 : BitVec 32) (v3 : IVec S16 32) (hv3 : v3 = iota .scVector S16 32 [0] iota_S16_d0_w32_scVector)
    (t : Fin k0_t1_loop.trips) :
    iprop(levAts (K (F := F)).L (K (F := F)).lev ∗ ringInv m d L su si O W t.val ⟨⟩)
      ⊢ wp frame (wpE (defs₀ (F := F)) 𝒱₀ (thrV d L) none) Set.univ
          (k0_t1_body (F := F) L uV (Memref.isWhole_whole _) iV (Memref.isWhole_whole _) t0V (Memref.isWhole_whole _) t1V (Memref.isWhole_whole _)
    oV (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10
    cc0_scoped0 cc0_scoped1 v2 v3 0#32 t ⟨⟩)
          (fun _ => iprop(levAts (K (F := F)).L (K (F := F)).lev ∗ ringInv m d L su si O W (t.val + 1) ⟨⟩)) := by
  by_cases h3 : k0_cond3 t = 1#1
  · rcases Nat.eq_zero_or_pos t.val with ht0 | ht0
    · exact trip_first m d L hpre O W hO su hsu si hsi v2 v3 hv3 t ht0 h3
    · exact trip_mid m d L hpre O W hO su hsu si hsi v2 v3 hv3 t ht0 h3
  · have ht0 : 0 < t.val := by have := cond3_not t h3; omega
    exact trip_last m d L hpre O W hO su hsu si hsi v2 v3 hv3 t ht0 h3

end Cert.Proof.K

end
-- ==== Proof.WireK.lean ====
/-
  The loop's invariant at its two ends, unfolded.

  Before the first trip nothing has been copied out: the staging halves are free and every piece of the subcore's rows
  holds its launch contents, so the rows are the subcore's share of the result as it was handed over. After the last
  trip buffer 0 is at rest, the last trip's two copy-outs are the only ones in flight, and every earlier piece holds
  the result function.
-/
import proofs.«219339_g11596411699725_week1_w4_1023_23_alg».proof.Proof.RingK

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)
variable [∀ e, Nonempty (Elt F e)]

/-! ## Before the first trip -/

/-- Buffer 0's block copies of chunk 0 in flight are the invariant's first clause at trip 0. -/
theorem ringIn_zero (su : Buf (Elt F) ((sU).view.loc (thrV d L))) (si : Buf (Elt F) ((sI).view.loc (thrV d L)))
    (hwu : ∀ j : Fin 16, (wordOf (vecAt (F := F) d L sU su ![0] inb_S512_S16_0) j).toNat < 125000)
    (hwi : ∀ j : Fin 16, (wordOf (vecAt (F := F) d L sI si ![0] inb_S512_S16_0) j).toNat < 125000) :
    iprop(ringBatch (F := F) d L (slotA 0) t0V (tab0 m d) cc0_scratch5.sem 0 (fun j => wordOf (vecAt (F := F) d L sU su ![0] inb_S512_S16_0) j) hwu 16 0
        ∗ ringBatch (F := F) d L (slotB 0) t1V (tab1 m d) cc0_scratch7.sem 0 (fun j => wordOf (vecAt (F := F) d L sI si ![0] inb_S512_S16_0) j) hwi 16 0
        ∗ (bigSep Finset.univ fun j : Fin 16 => tokRest (F := F) d L t0V (tab0 m d) 0 (fun j => wordOf (vecAt (F := F) d L sU su ![0] inb_S512_S16_0) j) hwu j)
        ∗ (bigSep Finset.univ fun j : Fin 16 => tokRest (F := F) d L t1V (tab1 m d) 0 (fun j => wordOf (vecAt (F := F) d L sI si ![0] inb_S512_S16_0) j) hwi j))
      ⊢ ringIn m d L su si 0 := by
  unfold ringIn
  rw [if_pos (by decide)]
  iintro ⟨H1, H2, H3, H4⟩
  iexists (fun j => wordOf (vecAt (F := F) d L sU su ![0] inb_S512_S16_0) j)
  iexists (fun j => wordOf (vecAt (F := F) d L sI si ![0] inb_S512_S16_0) j)
  iexists hwu
  iexists hwi
  isplitr
  · ipureintro; exact ⟨![0], inb_S512_S16_0, rfl, rfl, rfl⟩
  isplitl [H1]; · iexact H1
  isplitl [H2]; · iexact H2
  isplitl [H3]; · iexact H3
  iexact H4

/-- Before the first trip the staging halves and their semaphores are at rest. -/
theorem outFlights_zero : outFlights m d L 0 = outFree (F := F) d L := by
  unfold outFlights
  exact dif_neg (by omega)

/-- Before the first trip every piece holds its launch contents: the subcore's rows as handed over. -/
theorem outRows_zero : (oLoc d ↦[outSet L]{fullShare} m (oLoc d) : sProp 𝕄) = outRows m d L 0 := by
  rw [oRows_split (F := F) d L (m (oLoc d))]
  unfold outRows
  refine bigSep_congr fun t' _ => ?_
  rw [if_neg (by omega), if_pos (by omega)]

/-! ## After the last trip -/

/-- After the last trip buffer 0 is at rest. -/
theorem ringIn_last (su : Buf (Elt F) ((sU).view.loc (thrV d L))) (si : Buf (Elt F) ((sI).view.loc (thrV d L))) :
    ringIn m d L su si 16
      = iprop((bigSep Finset.univ fun j : Fin 16 => iprop(∃ f, slotHeld (F := F) d L (slotA 0 j) f))
        ∗ (bigSep Finset.univ fun j : Fin 16 => iprop(∃ f, slotHeld (F := F) d L (slotB 0 j) f))
        ∗ (bigSep Finset.univ fun j : Fin 16 => tokWhole (F := F) d L t0V (tab0 m d) 0 j)
        ∗ (bigSep Finset.univ fun j : Fin 16 => tokWhole (F := F) d L t1V (tab1 m d) 0 j)
        ∗ semVal (thrV d L, SemLoc.dma cc0_scratch5.sem) 0 ∗ semVal (thrV d L, SemLoc.dma cc0_scratch7.sem) 0) := by
  unfold ringIn
  exact if_neg (by decide)

/-- After the last trip its two copy-outs are in flight. -/
theorem outFlights_last : outFlights m d L 16 = outFlightsAt m d L (tripOf 15 (by decide)) := by
  unfold outFlights
  exact dif_pos ⟨by decide, le_refl _⟩

/-- After the last trip every earlier piece holds the result function; with the last trip's two pieces at the result
    function too, the subcore's rows hold it. -/
theorem outRows_last :
    iprop(outRows m d L 16
        ∗ ((piece0 L (tripOf 15 (by decide))).view.loc (thrV d L) ↦[(piece0 L (tripOf 15 (by decide))).view.set]{fullShare} G m d)
        ∗ ((piece1 L (tripOf 15 (by decide))).view.loc (thrV d L) ↦[(piece1 L (tripOf 15 (by decide))).view.set]{fullShare} G m d))
      ⊢ (oLoc d ↦[outSet L]{fullShare} G m d : sProp 𝕄) := by
  rw [oRows_split (F := F) d L (G m d), SparseCore.bigSep_erase' (Finset.mem_univ (tripOf 15 (by decide)))]
  unfold outRows
  rw [SparseCore.bigSep_erase' (Finset.mem_univ (tripOf 15 (by decide)))]
  rw [if_neg (show ¬ ((tripOf 15 (by decide)).val + 1 < 16) by decide), if_neg (show ¬ (16 ≤ (tripOf 15 (by decide)).val) by decide)]
  have e : (bigSep ((Finset.univ : Finset (Fin k0_t1_loop.trips)).erase (tripOf 15 (by decide))) fun t' : Fin k0_t1_loop.trips =>
        (if t'.val + 1 < 16 then
          iprop(((piece0 L t').view.loc (thrV d L) ↦[(piece0 L t').view.set]{fullShare} G m d)
            ∗ ((piece1 L t').view.loc (thrV d L) ↦[(piece1 L t').view.set]{fullShare} G m d))
        else if 16 ≤ t'.val then
          iprop(((piece0 L t').view.loc (thrV d L) ↦[(piece0 L t').view.set]{fullShare} m (oLoc d))
            ∗ ((piece1 L t').view.loc (thrV d L) ↦[(piece1 L t').view.set]{fullShare} m (oLoc d)))
        else iprop(emp) : sProp 𝕄))
      = bigSep ((Finset.univ : Finset (Fin k0_t1_loop.trips)).erase (tripOf 15 (by decide))) fun t' : Fin k0_t1_loop.trips =>
          iprop(((piece0 L t').view.loc (V d (cV L) (jV L)) ↦[(piece0 L t').view.set]{fullShare} G m d)
            ∗ ((piece1 L t').view.loc (V d (cV L) (jV L)) ↦[(piece1 L t').view.set]{fullShare} G m d)) := by
    refine bigSep_congr fun t' ht' => ?_
    have hne : t' ≠ tripOf 15 (by decide) := (Finset.mem_erase.mp ht').1
    have hlt : t'.val < 16 := t'.isLt
    have : t'.val ≠ 15 := fun h => hne (Fin.ext h)
    rw [if_pos (by omega)]
  rw [e]
  iintro ⟨⟨-, HR⟩, H0, H1⟩
  isplitl [H0 H1]
  · isplitl [H0]; · iexact H0
    iexact H1
  · iexact HR

/-! ## Pieces each held at some contents are the whole held at some contents -/

omit [FloatOps F] in
/-- Pairwise disjoint element sets of one location, each held at contents of its own, are their union held at some
    contents. -/
theorem pointsTo_biUnion_exists {T : Type} (ℓ : Loc nD τ sig) (q : PosShare TreeShare) (S : Finset T) (K : T → Finset (Idx ℓ)) (f₀ : Buf (Elt F) ℓ)
    (h : ∀ t ∈ S, ∀ t' ∈ S, t ≠ t' → Disjoint (K t) (K t')) :
    bigSep S (fun t => iprop(∃ f, ℓ ↦[K t]{q} f)) ⊢ (iprop(∃ g, ℓ ↦[S.biUnion K]{q} g) : sProp 𝕄) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f, ℓ ↦[K t]{q} f) ∗ bigSep S (fun t => iprop(∃ f, ℓ ↦[K t]{q} f))) ⊢ _ from ?_)
    iintro ⟨⟨%f, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

omit [FloatOps F] in
theorem fin2_univ (Φ : Fin 2 → sProp 𝕄) : bigSep Finset.univ Φ = iprop(Φ 0 ∗ Φ 1) := by
  rw [show (Finset.univ : Finset (Fin 2)) = {0, 1} by decide, SparseCore.bigSep_insert' (by decide), bigSep_singleton]

omit [FloatOps F] in
/-- The 32 slots of the user table's block scratch, each held at some contents, are the scratch held at some contents. -/
theorem scrA_rejoin (f₀ : Buf (Elt F) ((thrV d L).loc cc0_scratch2)) :
    iprop((bigSep Finset.univ fun j : Fin 16 => iprop(∃ f, slotHeld (F := F) d L (slotA 0 j) f))
        ∗ (bigSep Finset.univ fun j : Fin 16 => iprop(∃ f, slotHeld (F := F) d L (slotA 1 j) f)))
      ⊢ (iprop(∃ g, (sA).view.loc (thrV d L) ↦{fullShare} g) : sProp 𝕄) := by
  have e : iprop((bigSep Finset.univ fun j : Fin 16 => iprop(∃ f, slotHeld (F := F) d L (slotA 0 j) f))
        ∗ (bigSep Finset.univ fun j : Fin 16 => iprop(∃ f, slotHeld (F := F) d L (slotA 1 j) f)))
      = bigSep (Finset.univ : Finset (Fin 2 × Fin 16)) (fun p => iprop(∃ f, (thrV d L).loc cc0_scratch2 ↦[slotASet p.1 p.2]{fullShare} f) : Fin 2 × Fin 16 → sProp 𝕄) := by
    rw [bigSep_univ_prod (fun p : Fin 2 × Fin 16 => (iprop(∃ f, (thrV d L).loc cc0_scratch2 ↦[slotASet p.1 p.2]{fullShare} f) : sProp 𝕄)), fin2_univ]
  rw [e]
  refine (pointsTo_biUnion_exists (F := F) ((thrV d L).loc cc0_scratch2) fullShare Finset.univ (fun p : Fin 2 × Fin 16 => slotASet p.1 p.2) f₀ slotA_disjoint).trans ?_
  rw [slotA_cover]

omit [FloatOps F] in
/-- The same for the item table's block scratch. -/
theorem scrB_rejoin (f₀ : Buf (Elt F) ((thrV d L).loc cc0_scratch3)) :
    iprop((bigSep Finset.univ fun j : Fin 16 => iprop(∃ f, slotHeld (F := F) d L (slotB 0 j) f))
        ∗ (bigSep Finset.univ fun j : Fin 16 => iprop(∃ f, slotHeld (F := F) d L (slotB 1 j) f)))
      ⊢ (iprop(∃ g, (sB).view.loc (thrV d L) ↦{fullShare} g) : sProp 𝕄) := by
  have e : iprop((bigSep Finset.univ fun j : Fin 16 => iprop(∃ f, slotHeld (F := F) d L (slotB 0 j) f))
        ∗ (bigSep Finset.univ fun j : Fin 16 => iprop(∃ f, slotHeld (F := F) d L (slotB 1 j) f)))
      = bigSep (Finset.univ : Finset (Fin 2 × Fin 16)) (fun p => iprop(∃ f, (thrV d L).loc cc0_scratch3 ↦[slotBSet p.1 p.2]{fullShare} f) : Fin 2 × Fin 16 → sProp 𝕄) := by
    rw [bigSep_univ_prod (fun p : Fin 2 × Fin 16 => (iprop(∃ f, (thrV d L).loc cc0_scratch3 ↦[slotBSet p.1 p.2]{fullShare} f) : sProp 𝕄)), fin2_univ]
  rw [e]
  refine (pointsTo_biUnion_exists (F := F) ((thrV d L).loc cc0_scratch3) fullShare Finset.univ (fun p : Fin 2 × Fin 16 => slotBSet p.1 p.2) f₀ slotB_disjoint).trans ?_
  rw [slotB_cover]

omit [FloatOps F] in
/-- The two halves of the staging scratch, each held at some contents, are the scratch held at some contents. -/
theorem scrO_rejoin (f₀ : Buf (Elt F) ((thrV d L).loc cc0_scratch4)) :
    iprop((∃ f, (bufO 0).view.loc (thrV d L) ↦[(bufO 0).view.set]{fullShare} f) ∗ (∃ f, (bufO 1).view.loc (thrV d L) ↦[(bufO 1).view.set]{fullShare} f))
      ⊢ (iprop(∃ g, (sO).view.loc (thrV d L) ↦{fullShare} g) : sProp 𝕄) := by
  have e : iprop((∃ f, (bufO 0).view.loc (thrV d L) ↦[(bufO 0).view.set]{fullShare} f) ∗ (∃ f, (bufO 1).view.loc (thrV d L) ↦[(bufO 1).view.set]{fullShare} f))
      = bigSep (Finset.univ : Finset (Fin 2)) (fun b => iprop(∃ f, (thrV d L).loc cc0_scratch4 ↦[bufOSet b]{fullShare} f) : Fin 2 → sProp 𝕄) := by
    rw [fin2_univ]
  rw [e]
  refine (pointsTo_biUnion_exists (F := F) ((thrV d L).loc cc0_scratch4) fullShare Finset.univ (fun b : Fin 2 => bufOSet b) f₀ bufO_disjoint).trans ?_
  rw [bufO_cover]

/-! ## The 32 read tokens of a table -/

omit [FloatOps F] in
theorem tokOf_image : (Finset.univ : Finset (Fin 2 × Fin 16)).image (fun p => tokOf p.1 p.2) = (Finset.univ : Finset (Fin 32)) := by decide
omit [FloatOps F] in
theorem tokOf_injOn : Set.InjOn (fun p : Fin 2 × Fin 16 => tokOf p.1 p.2) ((Finset.univ : Finset (Fin 2 × Fin 16)) : Set (Fin 2 × Fin 16)) := by
  rintro ⟨b, j⟩ _ ⟨b', j'⟩ _ e
  have e' : 16 * b.val + j.val = 16 * b'.val + j'.val := congrArg Fin.val e
  have hj := j.isLt; have hj' := j'.isLt
  refine Prod.ext (Fin.ext ?_) (Fin.ext ?_) <;> dsimp only <;> omega

omit [FloatOps F] in
/-- The tokens of the two buffers' slots are the subcore's 32 tokens. -/
theorem toks_join (tV : Memref sig .scVector .hbm S125000x8x32 .f32) (tab : Buf (Elt F) ((tV).view.loc (thrV d L))) :
    iprop((bigSep Finset.univ fun j : Fin 16 => tokWhole (F := F) d L tV tab 0 j) ∗ (bigSep Finset.univ fun j : Fin 16 => tokWhole (F := F) d L tV tab 1 j))
      = (bigSep Finset.univ fun k : Fin 32 => ((tV).view.loc (thrV d L) ↦{shareTokN fullShare (tokIx L k)} tab : sProp 𝕄)) := by
  rw [← tokOf_image, SparseCore.bigSep_image_of_injOn tokOf_injOn, bigSep_univ_prod, fin2_univ]

end Cert.Proof.K

end
-- ==== Proof.BodyK2.lean ====
/-
  The task of one vector subcore, at a subcore `L` of the grid: from its share of the arrays, its scratch and its
  semaphores it runs to the end and hands the share back with its 512 rows of the result at the result function.

  Before the loop: the subcore's 512 words of each index array are copied into scratch (the landed words are those
  of the batch positions base L + q, all below 1000000), and the sixteen block copies of chunk 0 are started into
  buffer 0 of each block scratch, one batch per table, each copy lending its block out of a read token of its own.
  That is the loop's invariant at trip 0: the staging halves free, every piece of the subcore's rows at its launch
  contents. Each trip keeps the invariant (the trip lemma). After the sixteenth trip buffer 0 is at rest and the
  last trip's two copy-outs are in flight; the two final waits hand their pieces back holding the result function,
  every earlier piece holds it already, and the 32 pieces are the subcore's rows. The slots, the staging halves and
  the tokens are put back together into the scratches and the two products of 32 tokens the subcore was handed.
-/
import proofs.«219339_g11596411699725_week1_w4_1023_23_alg».proof.Proof.IfaceK
import proofs.«219339_g11596411699725_week1_w4_1023_23_alg».proof.Proof.RingK
import proofs.«219339_g11596411699725_week1_w4_1023_23_alg».proof.Proof.TripK
import proofs.«219339_g11596411699725_week1_w4_1023_23_alg».proof.Proof.WireK
import proofs.«219339_g11596411699725_week1_w4_1023_23_alg».proof.Proof.Gen.Kernel.Skeleton
import Idealize.ShloMosaic.Lib.SparseCore.Launch
import Idealize.ShloMosaic.Lib.SparseCore.Ops
import Idealize.ShloMosaic.Lib.Batch
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN)

variable {F : FTy → Type}

local notation "𝕄" => MT nD τ sig (HIx 1) (Elt F) ℕ UU ℕ

variable (m : (ℓ : Loc nD τ sig) → Buf (Elt F) ℓ)
variable [FloatOps F] [∀ e, Nonempty (Elt F e)]
variable (d : Dev nD) (L : grid0.Coords)

/-- A DMA semaphore of the subcore, as a cell. -/
abbrev cellV (d : Dev nD) (L : grid0.Coords) (s : DmaSem sig) : GSem nD τ sig := (V d (cV L) (jV L), .dma s)

omit [FloatOps F] in
theorem ownSems0_V :
    (ownSems0 (V d (cV L) (jV L)) : sProp 𝕄)
      = iprop(semVal (cellV d L cc0_scratch5.sem) 0 ∗ semVal (cellV d L cc0_scratch6.sem) 0 ∗ semVal (cellV d L cc0_scratch7.sem) 0 ∗ semVal (cellV d L cc0_scratch8.sem) 0 ∗ semVal (cellV d L cc0_scratch9.sem) 0 ∗ semVal (cellV d L cc0_scratch10.sem) 0 ∗ semVal (cellV d L cc0_scoped0.sem) 0 ∗ semVal (cellV d L cc0_scoped1.sem) 0 ∗ bigSep (((((((((ownCells (V d (cV L) (jV L))).erase (cellV d L cc0_scratch5.sem)).erase (cellV d L cc0_scratch6.sem)).erase (cellV d L cc0_scratch7.sem)).erase (cellV d L cc0_scratch8.sem)).erase (cellV d L cc0_scratch9.sem)).erase (cellV d L cc0_scratch10.sem)).erase (cellV d L cc0_scoped0.sem)).erase (cellV d L cc0_scoped1.sem)) fun g => semVal g 0) := by
  unfold SparseCore.Cfg.ownSems0
  rw [SparseCore.bigSep_erase' ((mem_ownCells (g := (cellV d L cc0_scratch5.sem))).mpr ⟨rfl, by show (SemLoc.dma cc0_scratch5.sem : SemLoc sig).isScoped .scVector = true; decide⟩),
    SparseCore.bigSep_erase' (Finset.mem_erase.mpr ⟨fun e => absurd (Prod.mk.inj e).2 (by decide), (mem_ownCells (g := (cellV d L cc0_scratch6.sem))).mpr ⟨rfl, by show (SemLoc.dma cc0_scratch6.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (cellV d L cc0_scratch7.sem))).mpr ⟨rfl, by show (SemLoc.dma cc0_scratch7.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scratch8.sem))).mpr ⟨rfl, by show (SemLoc.dma cc0_scratch8.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scratch9.sem))).mpr ⟨rfl, by show (SemLoc.dma cc0_scratch9.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scratch10.sem))).mpr ⟨rfl, by show (SemLoc.dma cc0_scratch10.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped0.sem))).mpr ⟨rfl, by show (SemLoc.dma cc0_scoped0.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cellV d L cc0_scoped1.sem))).mpr ⟨rfl, by show (SemLoc.dma cc0_scoped1.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩)]

omit [FloatOps F] in
theorem pts_u (f : Buf (Elt F) (uLoc d)) :
    ((uRow L).view.loc (thrV d L) ↦[(uRow L).view.set]{fullShare} f : sProp 𝕄) = uLoc d ↦[idxSet L]{fullShare} f := rfl
omit [FloatOps F] in
theorem pts_i (f : Buf (Elt F) (iLoc d)) :
    ((iRow L).view.loc (thrV d L) ↦[(iRow L).view.set]{fullShare} f : sProp 𝕄) = iLoc d ↦[idxSet L]{fullShare} f := rfl
omit [FloatOps F] in
theorem pts_t0 (q : PosShare TreeShare) (f : Buf (Elt F) (t0Loc d)) :
    ((t0V).view.loc (thrV d L) ↦{q} f : sProp 𝕄) = t0Loc d ↦{q} f := by
  simp only [Memref.view_whole, View.set_whole]
omit [FloatOps F] in
theorem pts_t1 (q : PosShare TreeShare) (f : Buf (Elt F) (t1Loc d)) :
    ((t1V).view.loc (thrV d L) ↦{q} f : sProp 𝕄) = t1Loc d ↦{q} f := by
  simp only [Memref.view_whole, View.set_whole]
omit [FloatOps F] in
theorem pts_s0 (f : Buf (Elt F) ((thrV d L).loc cc0_scratch0)) :
    ((sU).view.loc (thrV d L) ↦{fullShare} f : sProp 𝕄) = (thrV d L).loc cc0_scratch0 ↦{fullShare} f := rfl
omit [FloatOps F] in
theorem pts_s1 (f : Buf (Elt F) ((thrV d L).loc cc0_scratch1)) :
    ((sI).view.loc (thrV d L) ↦{fullShare} f : sProp 𝕄) = (thrV d L).loc cc0_scratch1 ↦{fullShare} f := rfl
omit [FloatOps F] in
theorem pts_s2 (f : Buf (Elt F) ((thrV d L).loc cc0_scratch2)) :
    ((sA).view.loc (thrV d L) ↦{fullShare} f : sProp 𝕄) = (thrV d L).loc cc0_scratch2 ↦{fullShare} f := rfl
omit [FloatOps F] in
theorem pts_s3 (f : Buf (Elt F) ((thrV d L).loc cc0_scratch3)) :
    ((sB).view.loc (thrV d L) ↦{fullShare} f : sProp 𝕄) = (thrV d L).loc cc0_scratch3 ↦{fullShare} f := rfl
omit [FloatOps F] in
theorem pts_s4 (f : Buf (Elt F) ((thrV d L).loc cc0_scratch4)) :
    ((sO).view.loc (thrV d L) ↦{fullShare} f : sProp 𝕄) = (thrV d L).loc cc0_scratch4 ↦{fullShare} f := rfl

omit [FloatOps F] in
/-- A load off the index scratch reads entries of its contents. -/
theorem readAtU_lt (s : Buf (Elt F) ((thrV d L).loc cc0_scratch0)) (hs : ∀ j, (s j).toNat < 1000000) (r : LoadRect S512) (x : r.shape.Idx) :
    ((sU).view.readAt (Elt F) r s x).toNat < 1000000 := by
  rw [View.readAt_apply]; simp only [Memref.view_whole, View.read_whole]; exact hs _
omit [FloatOps F] in
theorem readAtI_lt (s : Buf (Elt F) ((thrV d L).loc cc0_scratch1)) (hs : ∀ j, (s j).toNat < 1000000) (r : LoadRect S512) (x : r.shape.Idx) :
    ((sI).view.readAt (Elt F) r s x).toNat < 1000000 := by
  rw [View.readAt_apply]; simp only [Memref.view_whole, View.read_whole]; exact hs _

omit [FloatOps F] in
/-- The index scratch after its copy has landed, renamed: a function below a million everywhere, equal to what landed. -/
theorem restateU (f0 : Buf (Elt F) ((thrV d L).loc cc0_scratch0)) (w : S512.Idx → BitVec 32) (hw : ∀ j, (w j).toNat < 1000000) :
    ((sU).view.loc (thrV d L) ↦{fullShare} (sU).view.write (Elt F) f0 w Finset.univ : sProp 𝕄)
      ⊢ iprop(∃ su : Buf (Elt F) ((thrV d L).loc cc0_scratch0), ⌜(∀ j, (su j).toNat < 1000000) ∧ su = w⌝ ∗ (sU).view.loc (thrV d L) ↦{fullShare} su) := by
  iintro H
  iexists w
  isplitr
  · ipureintro; exact ⟨hw, rfl⟩
  · have e : (sU).view.write (Elt F) f0 w Finset.univ = w := by
      simp only [Memref.view_whole]; exact View.write_whole_univ _ _ _
    rw [e]; iexact H
omit [FloatOps F] in
theorem restateI (f1 : Buf (Elt F) ((thrV d L).loc cc0_scratch1)) (w : S512.Idx → BitVec 32) (hw : ∀ j, (w j).toNat < 1000000) :
    ((sI).view.loc (thrV d L) ↦{fullShare} (sI).view.write (Elt F) f1 w Finset.univ : sProp 𝕄)
      ⊢ iprop(∃ si : Buf (Elt F) ((thrV d L).loc cc0_scratch1), ⌜(∀ j, (si j).toNat < 1000000) ∧ si = w⌝ ∗ (sI).view.loc (thrV d L) ↦{fullShare} si) := by
  iintro H
  iexists w
  isplitr
  · ipureintro; exact ⟨hw, rfl⟩
  · have e : (sI).view.write (Elt F) f1 w Finset.univ = w := by
      simp only [Memref.view_whole]; exact View.write_whole_univ _ _ _
    rw [e]; iexact H

omit [FloatOps F] in
/-- A product over the 32 slots, written out. -/
theorem sep32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [show (Finset.univ : Finset (Fin 32)) = {0, 1, 2, 3, 4, 5, 6, 7, 8, 9, 10, 11, 12, 13, 14, 15, 16, 17, 18, 19, 20, 21, 22, 23, 24, 25, 26, 27, 28, 29, 30, 31} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- A product over the 16 slots of a buffer, written out. -/
theorem sep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem sep2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

omit [FloatOps F] in
/-- The same products with the indices spelt as pairs (value, bound), the spelling a batch's deliveries meet. -/
theorem sep16m (Φ : Fin 16 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩) := sep16 Φ
omit [FloatOps F] in
theorem sep32m (Φ : Fin 32 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩ ∗ Φ ⟨28, by decide⟩ ∗ Φ ⟨29, by decide⟩ ∗ Φ ⟨30, by decide⟩ ∗ Φ ⟨31, by decide⟩) := sep32 Φ

omit [FloatOps F] in
/-- The tokens of the two buffers' slots, back as the subcore's 32 tokens of the reshaped user table. -/
theorem toks0_back (tab : Buf (Elt F) (t0Loc d)) :
    iprop((bigSep Finset.univ fun j : Fin 16 => tokWhole (F := F) d L t0V tab 0 j) ∗ (bigSep Finset.univ fun j : Fin 16 => tokWhole (F := F) d L t0V tab 1 j))
      = (bigSep Finset.univ fun k : Fin 32 => (t0Loc d ↦{shareTokN fullShare (tokIx L k)} tab : sProp 𝕄)) :=
  (toks_join (F := F) d L t0V tab).trans (bigSep_congr fun k _ => pts_t0 (F := F) d L _ tab)
omit [FloatOps F] in
theorem toks1_back (tab : Buf (Elt F) (t1Loc d)) :
    iprop((bigSep Finset.univ fun j : Fin 16 => tokWhole (F := F) d L t1V tab 0 j) ∗ (bigSep Finset.univ fun j : Fin 16 => tokWhole (F := F) d L t1V tab 1 j))
      = (bigSep Finset.univ fun k : Fin 32 => (t1Loc d ↦{shareTokN fullShare (tokIx L k)} tab : sProp 𝕄)) :=
  (toks_join (F := F) d L t1V tab).trans (bigSep_congr fun k _ => pts_t1 (F := F) d L _ tab)

/-- The invariant's clauses after the last trip, at a trip count that is 16. -/
theorem ringIn_last' (su : Buf (Elt F) ((sU).view.loc (thrV d L))) (si : Buf (Elt F) ((sI).view.loc (thrV d L))) (n : ℕ) (hn : n = 16) :
    ringIn m d L su si n
      = iprop((bigSep Finset.univ fun j : Fin 16 => iprop(∃ f, slotHeld (F := F) d L (slotA 0 j) f))
        ∗ (bigSep Finset.univ fun j : Fin 16 => iprop(∃ f, slotHeld (F := F) d L (slotB 0 j) f))
        ∗ (bigSep Finset.univ fun j : Fin 16 => tokWhole (F := F) d L t0V (tab0 m d) 0 j)
        ∗ (bigSep Finset.univ fun j : Fin 16 => tokWhole (F := F) d L t1V (tab1 m d) 0 j)
        ∗ semVal (thrV d L, SemLoc.dma cc0_scratch5.sem) 0 ∗ semVal (thrV d L, SemLoc.dma cc0_scratch7.sem) 0) := by
  subst hn; exact ringIn_last (F := F) m d L su si
theorem outFlights_last' (n : ℕ) (hn : n = 16) : outFlights m d L n = outFlightsAt m d L (tripOf 15 (by decide)) := by
  subst hn; exact outFlights_last (F := F) m d L
theorem outRows_last' (n : ℕ) (hn : n = 16) :
    iprop(outRows m d L n
        ∗ ((piece0 L (tripOf 15 (by decide))).view.loc (thrV d L) ↦[(piece0 L (tripOf 15 (by decide))).view.set]{fullShare} G m d)
        ∗ ((piece1 L (tripOf 15 (by decide))).view.loc (thrV d L) ↦[(piece1 L (tripOf 15 (by decide))).view.set]{fullShare} G m d))
      ⊢ (oLoc d ↦[outSet L]{fullShare} G m d : sProp 𝕄) := by
  subst hn; exact outRows_last (F := F) m d L

set_option maxHeartbeats 1600000 in
theorem tile_body2 (hF : (K (F := F)).Facts) (hpre : PreOK m) (O : CellTallies nD τ sig (HIx 1)) (W : Waits sig (HIx 1)) (hO : ∀ g, O g none = 0) :
    iprop(levAts (K (F := F)).L (K (F := F)).lev ∗ emp ∗ goPay m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tdPay m d L ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg
  simp only [cc0__gmf_body_eq_skeleton]; unfold cc0__gmf_body_skel
  rw [(K (F := F)).scopedBufs_V hF d (cV L) (jV L), SparseCore.Cfg.scopedSems0_V (Val := Elt F) d (cV L) (jV L), ownSems0_V, ownBufs_V]
  unfold goPay tilePay

  rw [show (fun k : Fin 32 => (t0Loc d ↦{shareTokN fullShare (tokIx L k)} tab0 m d : sProp 𝕄))
        = fun k : Fin 32 => ((t0V).view.loc (thrV d L) ↦{shareTokN fullShare (tokIx L k)} tab0 m d : sProp 𝕄)
      from funext fun k => (pts_t0 (F := F) d L _ _).symm,
    show (fun k : Fin 32 => (t1Loc d ↦{shareTokN fullShare (tokIx L k)} tab1 m d : sProp 𝕄))
        = fun k : Fin 32 => ((t1V).view.loc (thrV d L) ↦{shareTokN fullShare (tokIx L k)} tab1 m d : sProp 𝕄)
      from funext fun k => (pts_t1 (F := F) d L _ _).symm,
    sep32m, sep32m]

  iintro ⟨#Hlv, -, ⟨Hu, Hi, ⟨A0, A1, A2, A3, A4, A5, A6, A7, A8, A9, A10, A11, A12, A13, A14, A15, A16, A17, A18, A19, A20, A21, A22, A23, A24, A25, A26, A27, A28, A29, A30, A31⟩, ⟨B0, B1, B2, B3, B4, B5, B6, B7, B8, B9, B10, B11, B12, B13, B14, B15, B16, B17, B18, B19, B20, B21, B22, B23, B24, B25, B26, B27, B28, B29, B30, B31⟩, Ho⟩, ⟨⟨%f0, Hs0⟩, ⟨%f1, Hs1⟩, ⟨%f2, Hs2⟩, ⟨%f3, Hs3⟩, ⟨%f4, Hs4⟩, Hbufs⟩,
    ⟨Hu0, Hu1, Hi0, Hi1, Ho0, Ho1, Hr0, Hr1, Hsems⟩, HO⟩
  ihave Hmw := ((K (F := F)).mayWaits_none (thr := V d (cV L) (jV L)) hO) $$ Hlv
  ihave Hu := (Entails.of_eq (pts_u (F := F) d L _).symm) $$ Hu
  ihave Hi := (Entails.of_eq (pts_i (F := F) d L _).symm) $$ Hi
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hs2 := (Entails.of_eq (scrA_split (F := F) d L f2)) $$ Hs2
  ihave Hs2 := (Entails.of_eq (sep2 _)) $$ Hs2
  icases Hs2 with ⟨Hs2a, Hs2b⟩
  ihave Hs2a := (Entails.of_eq (sep16m _)) $$ Hs2a
  icases Hs2a with ⟨SA0_0, SA0_1, SA0_2, SA0_3, SA0_4, SA0_5, SA0_6, SA0_7, SA0_8, SA0_9, SA0_10, SA0_11, SA0_12, SA0_13, SA0_14, SA0_15⟩
  ihave Hs2b := (Entails.of_eq (sep16m _)) $$ Hs2b
  icases Hs2b with ⟨SA1_0, SA1_1, SA1_2, SA1_3, SA1_4, SA1_5, SA1_6, SA1_7, SA1_8, SA1_9, SA1_10, SA1_11, SA1_12, SA1_13, SA1_14, SA1_15⟩
  ihave Hs3 := (Entails.of_eq (scrB_split (F := F) d L f3)) $$ Hs3
  ihave Hs3 := (Entails.of_eq (sep2 _)) $$ Hs3
  icases Hs3 with ⟨Hs3a, Hs3b⟩
  ihave Hs3a := (Entails.of_eq (sep16m _)) $$ Hs3a
  icases Hs3a with ⟨SB0_0, SB0_1, SB0_2, SB0_3, SB0_4, SB0_5, SB0_6, SB0_7, SB0_8, SB0_9, SB0_10, SB0_11, SB0_12, SB0_13, SB0_14, SB0_15⟩
  ihave Hs3b := (Entails.of_eq (sep16m _)) $$ Hs3b
  icases Hs3b with ⟨SB1_0, SB1_1, SB1_2, SB1_3, SB1_4, SB1_5, SB1_6, SB1_7, SB1_8, SB1_9, SB1_10, SB1_11, SB1_12, SB1_13, SB1_14, SB1_15⟩
  ihave Hs4 := (Entails.of_eq (scrO_split (F := F) d L f4)) $$ Hs4
  ihave Hs4 := (Entails.of_eq (sep2 _)) $$ Hs4
  icases Hs4 with ⟨SO0, SO1⟩
  set_option sl_exec.maxSteps 7 in sl_exec
  have hw0 : ∀ j, ((tile_body2.sl.dma0 m d L) j).toNat < 1000000 := fun j => (hpre d _).1
  have hw1 : ∀ j, ((tile_body2.sl.dma0_1 m d L) j).toNat < 1000000 := fun j => (hpre d _).2
  ihave Hs0 := (restateU (F := F) d L f0 (tile_body2.sl.dma0 m d L) hw0) $$ Hs0
  icases Hs0 with ⟨%su, ⟨%hsu, %hsu_eq⟩, Hs0⟩
  ihave Hs1 := (restateI (F := F) d L f1 (tile_body2.sl.dma0_1 m d L) hw1) $$ Hs1
  icases Hs1 with ⟨%si, ⟨%hsi, %hsi_eq⟩, Hs1⟩
  have hwu0 : ∀ j : Fin 16, (wordOf (vecAt (F := F) d L sU su ![0] inb_S512_S16_0) j).toNat < 125000 :=
    fun j => by refine lane_lt _ ?_ _ _ _; intro x; exact readAtU_lt d L su hsu _ _
  have hwi0 : ∀ j : Fin 16, (wordOf (vecAt (F := F) d L sI si ![0] inb_S512_S16_0) j).toNat < 125000 :=
    fun j => by refine lane_lt _ ?_ _ _ _; intro x; exact readAtI_lt d L si hsi _ _
  imod (Transfers.batch_alloc' (Lvl := ℕ) (countersEmb (U := UU)) (thrV d L) (default : HIx 1) 8192
      (fun j : Fin 16 => deliv1 (F := F) d L (slotA 0 j) t0V (wordOf (vecAt (F := F) d L sU su ![0] inb_S512_S16_0) j) (hwu0 j)
        (shareTokN fullShare (tokIx L (tokOf 0 j))) (tab0 m d)) (sm := SemLoc.dma (sig := sig) cc0_scratch5.sem) (E := Set.univ)) $$ Hu0 with HBu0
  imod (Transfers.batch_alloc' (Lvl := ℕ) (countersEmb (U := UU)) (thrV d L) (default : HIx 1) 8192
      (fun j : Fin 16 => deliv1 (F := F) d L (slotB 0 j) t1V (wordOf (vecAt (F := F) d L sI si ![0] inb_S512_S16_0) j) (hwi0 j)
        (shareTokN fullShare (tokIx L (tokOf 0 j))) (tab1 m d)) (sm := SemLoc.dma (sig := sig) cc0_scratch7.sem) (E := Set.univ)) $$ Hi0 with HBi0
  sl_exec (disch := first
    | (intro a; refine chk_of_lt ?_ a; refine lane_lt _ ?_ _ _ _; intro x; first | exact readAtU_lt d L _ hsu _ _ | exact readAtI_lt d L _ hsi _ _)
    | (intro _ a; refine chk_of_lt ?_ a; refine lane_lt _ ?_ _ _ _; intro x; first | exact readAtU_lt d L _ hsu _ _ | exact readAtI_lt d L _ hsi _ _))
  have hsu' : ∀ j, su j = m (uLoc d) ((uRow L).view.emb j) := fun j => by rw [hsu_eq]; rfl
  have hsi' : ∀ j, si j = m (iLoc d) ((iRow L).view.emb j) := fun j => by rw [hsi_eq]; rfl
  sl_for (fun t a => iprop(levAts (K (F := F)).L (K (F := F)).lev ∗ ringInv m d L su si O W t a)) $$ [Hs0 Hs1 HBu0 HBi0 A0 A1 A2 A3 A4 A5 A6 A7 A8 A9 A10 A11 A12 A13 A14 A15 A16 A17 A18 A19 A20 A21 A22 A23 A24 A25 A26 A27 A28 A29 A30 A31 B0 B1 B2 B3 B4 B5 B6 B7 B8 B9 B10 B11 B12 B13 B14 B15 B16 B17 B18 B19 B20 B21 B22 B23 B24 B25 B26 B27 B28 B29 B30 B31 SA1_0 SA1_1 SA1_2 SA1_3 SA1_4 SA1_5 SA1_6 SA1_7 SA1_8 SA1_9 SA1_10 SA1_11 SA1_12 SA1_13 SA1_14 SA1_15 SB1_0 SB1_1 SB1_2 SB1_3 SB1_4 SB1_5 SB1_6 SB1_7 SB1_8 SB1_9 SB1_10 SB1_11 SB1_12 SB1_13 SB1_14 SB1_15 Hu1 Hi1 SO0 SO1 Ho0 Ho1 Ho HO]
  case region =>
    intro k acc
    cases acc
    exact trip m d L hpre O W hO su hsu' si hsi' (tile_body2.sl.v2 L) tile_body2.sl.v3 rfl k
  · unfold ringInv
    isplitr; · iexact Hlv
    isplitr; · iexact Hmw
    isplitl [Hs0]; · iexact Hs0
    isplitl [Hs1]; · iexact Hs1
    isplitl [HBu0 HBi0 A0 A1 A2 A3 A4 A5 A6 A7 A8 A9 A10 A11 A12 A13 A14 A15 B0 B1 B2 B3 B4 B5 B6 B7 B8 B9 B10 B11 B12 B13 B14 B15]
    · iapply (ringIn_zero (F := F) m d L su si hwu0 hwi0)
      isplitl [HBu0]; · iexact HBu0
      isplitl [HBi0]; · iexact HBi0
      isplitl [A0 A1 A2 A3 A4 A5 A6 A7 A8 A9 A10 A11 A12 A13 A14 A15]
      · iapply (Entails.of_eq (sep16m _).symm)
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        isplitl [A12]; · iexact A12
        isplitl [A13]; · iexact A13
        isplitl [A14]; · iexact A14
        iexact A15
      iapply (Entails.of_eq (sep16m _).symm)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      iexact B15
    isplitl [A16 A17 A18 A19 A20 A21 A22 A23 A24 A25 A26 A27 A28 A29 A30 A31]
    · iapply (Entails.of_eq (sep16m _).symm)
      isplitl [A16]; · iexact A16
      isplitl [A17]; · iexact A17
      isplitl [A18]; · iexact A18
      isplitl [A19]; · iexact A19
      isplitl [A20]; · iexact A20
      isplitl [A21]; · iexact A21
      isplitl [A22]; · iexact A22
      isplitl [A23]; · iexact A23
      isplitl [A24]; · iexact A24
      isplitl [A25]; · iexact A25
      isplitl [A26]; · iexact A26
      isplitl [A27]; · iexact A27
      isplitl [A28]; · iexact A28
      isplitl [A29]; · iexact A29
      isplitl [A30]; · iexact A30
      iexact A31
    isplitl [B16 B17 B18 B19 B20 B21 B22 B23 B24 B25 B26 B27 B28 B29 B30 B31]
    · iapply (Entails.of_eq (sep16m _).symm)
      isplitl [B16]; · iexact B16
      isplitl [B17]; · iexact B17
      isplitl [B18]; · iexact B18
      isplitl [B19]; · iexact B19
      isplitl [B20]; · iexact B20
      isplitl [B21]; · iexact B21
      isplitl [B22]; · iexact B22
      isplitl [B23]; · iexact B23
      isplitl [B24]; · iexact B24
      isplitl [B25]; · iexact B25
      isplitl [B26]; · iexact B26
      isplitl [B27]; · iexact B27
      isplitl [B28]; · iexact B28
      isplitl [B29]; · iexact B29
      isplitl [B30]; · iexact B30
      iexact B31
    isplitl [SA1_0 SA1_1 SA1_2 SA1_3 SA1_4 SA1_5 SA1_6 SA1_7 SA1_8 SA1_9 SA1_10 SA1_11 SA1_12 SA1_13 SA1_14 SA1_15]
    · iapply (Entails.of_eq (sep16m _).symm)
      isplitl [SA1_0]; · (iexists _; iexact SA1_0)
      isplitl [SA1_1]; · (iexists _; iexact SA1_1)
      isplitl [SA1_2]; · (iexists _; iexact SA1_2)
      isplitl [SA1_3]; · (iexists _; iexact SA1_3)
      isplitl [SA1_4]; · (iexists _; iexact SA1_4)
      isplitl [SA1_5]; · (iexists _; iexact SA1_5)
      isplitl [SA1_6]; · (iexists _; iexact SA1_6)
      isplitl [SA1_7]; · (iexists _; iexact SA1_7)
      isplitl [SA1_8]; · (iexists _; iexact SA1_8)
      isplitl [SA1_9]; · (iexists _; iexact SA1_9)
      isplitl [SA1_10]; · (iexists _; iexact SA1_10)
      isplitl [SA1_11]; · (iexists _; iexact SA1_11)
      isplitl [SA1_12]; · (iexists _; iexact SA1_12)
      isplitl [SA1_13]; · (iexists _; iexact SA1_13)
      isplitl [SA1_14]; · (iexists _; iexact SA1_14)
      (iexists _; iexact SA1_15)
    isplitl [SB1_0 SB1_1 SB1_2 SB1_3 SB1_4 SB1_5 SB1_6 SB1_7 SB1_8 SB1_9 SB1_10 SB1_11 SB1_12 SB1_13 SB1_14 SB1_15]
    · iapply (Entails.of_eq (sep16m _).symm)
      isplitl [SB1_0]; · (iexists _; iexact SB1_0)
      isplitl [SB1_1]; · (iexists _; iexact SB1_1)
      isplitl [SB1_2]; · (iexists _; iexact SB1_2)
      isplitl [SB1_3]; · (iexists _; iexact SB1_3)
      isplitl [SB1_4]; · (iexists _; iexact SB1_4)
      isplitl [SB1_5]; · (iexists _; iexact SB1_5)
      isplitl [SB1_6]; · (iexists _; iexact SB1_6)
      isplitl [SB1_7]; · (iexists _; iexact SB1_7)
      isplitl [SB1_8]; · (iexists _; iexact SB1_8)
      isplitl [SB1_9]; · (iexists _; iexact SB1_9)
      isplitl [SB1_10]; · (iexists _; iexact SB1_10)
      isplitl [SB1_11]; · (iexists _; iexact SB1_11)
      isplitl [SB1_12]; · (iexists _; iexact SB1_12)
      isplitl [SB1_13]; · (iexists _; iexact SB1_13)
      isplitl [SB1_14]; · (iexists _; iexact SB1_14)
      (iexists _; iexact SB1_15)
    isplitl [Hu1]; · iexact Hu1
    isplitl [Hi1]; · iexact Hi1
    isplitl [SO0 SO1 Ho0 Ho1]
    · iapply (Entails.of_eq (outFlights_zero (F := F) m d L).symm)
      unfold outFree
      isplitl [SO0]; · iexists _; iexact SO0
      isplitl [SO1]; · iexists _; iexact SO1
      isplitl [Ho0]; · iexact Ho0
      iexact Ho1
    isplitl [Ho]; · iapply (Entails.of_eq (outRows_zero (F := F) m d L)); iexact Ho
    iexists _; isplitr
    rotate_left
    · iexact HO
    · ipureintro
      intro p hp
      rcases Finset.mem_insert.mp hp with h | hp
      · exact .inr (h ▸ rfl)
      rcases Finset.mem_insert.mp hp with h | hp
      · exact .inr (h ▸ rfl)
      exact .inl hp
  iintro %_ HI
  icases HI with ⟨-, HI⟩
  unfold ringInv
  icases HI with ⟨-, Hs0, Hs1, Hin, T0b1, T1b1, SA1, SB1, Hu1, Hi1, Hfl, Hrows, %W', %hW', HO⟩
  ihave Hin := (Entails.of_eq (ringIn_last' (F := F) m d L su si (Scf.trips k0_t1_loop.lb k0_t1_loop.ub k0_t1_loop.st) rfl)) $$ Hin
  icases Hin with ⟨SA0, SB0, T0b0, T1b0, Hu0, Hi0⟩
  ihave Hfl := (Entails.of_eq (outFlights_last' (F := F) m d L (Scf.trips k0_t1_loop.lb k0_t1_loop.ub k0_t1_loop.st) rfl)) $$ Hfl
  unfold outFlightsAt
  icases Hfl with ⟨%Z0, %Z1, ⟨%hZ0, %hZ1⟩, HF0, HF1⟩
  sl_exec
  iapply (Transfers.wp_waitLocalO (countersEmb (U := UU)) 𝒱₀ (thrV d L) none (default : HIx 1) (N := 16384) rfl) $$ [HF0 HO]
  · isplitl [HF0]; · iexact HF0
    isplitl [HO]; · iexact HO
    iapply ((K (F := F)).mayWait_none (SemLoc.dma cc0_scratch9.sem) hO); iexact Hlv
  iintro ⟨⟨Hpc0, Hbo0⟩, Ho0, HO⟩
  sl_exec
  iapply (Transfers.wp_waitLocalO (countersEmb (U := UU)) 𝒱₀ (thrV d L) none (default : HIx 1) (N := 16384) rfl) $$ [HF1 HO]
  · isplitl [HF1]; · iexact HF1
    isplitl [HO]; · iexact HO
    iapply ((K (F := F)).mayWait_none (SemLoc.dma cc0_scratch10.sem) hO); iexact Hlv
  iintro ⟨⟨Hpc1, Hbo1⟩, Ho1, HO⟩
  sl_step
  ihave Hpc0 := (Entails.of_eq (pointsTo_congr hZ0)) $$ Hpc0
  ihave Hpc1 := (Entails.of_eq (pointsTo_congr hZ1)) $$ Hpc1
  ihave Hout := (outRows_last' (F := F) m d L (Scf.trips k0_t1_loop.lb k0_t1_loop.ub k0_t1_loop.st) rfl) $$ [Hrows Hpc0 Hpc1]
  · isplitl [Hrows]; · iexact Hrows
    isplitl [Hpc0]; · iexact Hpc0
    iexact Hpc1
  ihave HT0 := (Entails.of_eq (toks0_back (F := F) d L (tab0 m d))) $$ [T0b0 T0b1]
  · isplitl [T0b0]; · iexact T0b0
    iexact T0b1
  ihave HT1 := (Entails.of_eq (toks1_back (F := F) d L (tab1 m d))) $$ [T1b0 T1b1]
  · isplitl [T1b0]; · iexact T1b0
    iexact T1b1
  ihave HsA := (scrA_rejoin (F := F) d L f2) $$ [SA0 SA1]
  · isplitl [SA0]; · iexact SA0
    iexact SA1
  ihave HsB := (scrB_rejoin (F := F) d L f3) $$ [SB0 SB1]
  · isplitl [SB0]; · iexact SB0
    iexact SB1
  ihave HsO := (scrO_rejoin (F := F) d L f4) $$ [Hbo0 Hbo1]
  · isplitl [Hbo0]; · iexists _; iexact Hbo0
    iexists _; iexact Hbo1
  isplitl [Hu Hi HT0 HT1 Hout]
  · unfold tdPay tilePay
    isplitl [Hu]; · iexact Hu
    isplitl [Hi]; · iexact Hi
    isplitl [HT0]; · iexact HT0
    isplitl [HT1]; · iexact HT1
    iexact Hout
  isplitl [Hs0 Hs1 HsA HsB HsO Hbufs]
  · isplitl [Hs0]; · iexists _; iexact Hs0
    isplitl [Hs1]; · iexists _; iexact Hs1
    isplitl [HsA]; · iexact HsA
    isplitl [HsB]; · iexact HsB
    isplitl [HsO]; · iexact HsO
    iexact Hbufs
  isplitl [Hu0 Hu1 Hi0 Hi1 Ho0 Ho1 Hr0 Hr1 Hsems]
  · isplitl [Hu0]; · iexact Hu0
    isplitl [Hu1]; · iexact Hu1
    isplitl [Hi0]; · iexact Hi0
    isplitl [Hi1]; · iexact Hi1
    isplitl [Ho0]; · iexact Ho0
    isplitl [Ho1]; · iexact Ho1
    isplitl [Hr0]; · iexact Hr0
    isplitl [Hr1]; · iexact Hr1
    iexact Hsems
  iexists _; isplitr
  rotate_left
  · iexact HO
  · ipureintro
    intro p hp
    rcases Finset.mem_insert.mp hp with h | hp
    · exact .inr (h ▸ rfl)
    rcases Finset.mem_insert.mp hp with h | hp
    · exact .inr (h ▸ rfl)
    exact hW' p hp

/-- Every subcore does its task. -/
theorem tileSpec (hF : (K (F := F)).Facts) (hpre : PreOK m) : TileSpec (F := F) m :=
  fun d L O W hO => tile_body2 m d L hF hpre O W hO

end Cert.Proof.K

end
-- ==== Proof.RefTake.lean ====
/-
  One `jnp.take(a, idx, axis=0)` of the reference as a term, and that term read at an index.

  As the program computes it:
    `w   = where(idx < 0, idx + 1000000, idx)`            negative indices count from the end;
    `ok  = all(0 ≤ w ∧ w ≤ 999999)` over an axis of one    the index names a row;
    `g   = gather(a, w)`                                  row `clamp(w)` of the table;
    `out = where(ok, g, nan)`.
  Where every index word is a row number (read unsigned, below 1000000) no index is negative, so `w = idx`;
  `ok` is all ones; the gather's clamp into [0, 999999] is the identity; so `out[b, f] = a[idx b, f]`.
-/
import proofs.«219339_g11596411699725_week1_w4_1023_23_alg».proof.ReferenceIdeal
import proofs.«219339_g11596411699725_week1_w4_1023_23_alg».proof.Proof.Gen.ReferenceIdeal
import Idealize.ShloMosaic.Lib.ValueIdx
import Idealize.ShloMosaic.Lib.Affine
import Idealize.ShloMosaic.Lib.Pipeline.Value
import Idealize.ShloMosaic.PureOps.Reduce

noncomputable section

namespace Cert.Proof.Ref

open Cert.ReferenceIdeal Cert.ReferenceIdeal.Gen
open Idealize.ShloMosaic Idealize.ShloMosaic.ValueIdx

section
variable {F : FTy → Type} [FloatOps F]

/-! ## The composed term -/

/-- The index array as `take` reads it: a negative word moved up by the number of rows. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The same as a column, the gather's start indices. -/
def colIdx (idx : IVec S16384 32) : IVec S16384x1 32 :=
  broadcastInDim S16384x1 ![0] bcast_S16384_S16384x1_0 (wrapIdx idx)

/-- Per position: does the index name a row? -/
def inRows (idx : IVec S16384 32) : IVec S16384 1 :=
  Host.reduce IntOp.andi
    (andi (cmpi .sge (colIdx idx) (broadcastInDim S16384x1 ![] bcast_S_S16384x1 (constantI S_ 32 0#32)))
      (cmpi .sle (colIdx idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- `jnp.take(a, idx, axis=0)` as the program computes it. -/
def take (a : FVec F S1000000x32 .f32) (idx : IVec S16384 32) : FVec F S16384x32 .f32 :=
  select (broadcastInDim S16384x32 ![0] bcast_S16384_S16384x32_0 (inRows idx))
    (Host.gather gather_S1000000x32_S16384x1_S16384x32_1_0_n_n_0_1_132 a (colIdx idx))
    (broadcastInDim S16384x32 ![] bcast_S_S16384x32 (constant S_ .f32 0x7FC00000#32))

end

/-! ## The two operations that are not pointwise, read at an index -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- The gather's dimension numbers: rows of a [1000000, 32] table at a [16384, 1] array of start indices. -/
abbrev GD : GatherDims S1000000x32 S16384x1 S16384x32 := gather_S1000000x32_S16384x1_S16384x32_1_0_n_n_0_1_132

/-- The gather of rows read at (b, f): the table at the row the start index at (b, 0) names, read signed and
    clamped into the table, and column f. -/
theorem gather_row_apply {α : Type} (x : S1000000x32.Idx → α) (idx : IVec S16384x1 32) (j : S16384x32.Idx) :
    Host.gather GD x idx j
      = x (ix2 ⟨min (idx (ix2 (j 0) (0 : Fin 1))).toInt.toNat (1000000 - 1), by omega⟩ (j 1)) := by
  unfold Host.gather
  congr 1
  funext a
  refine Fin.ext ?_
  match a with
  | ⟨0, _⟩ =>
    show GD.start j idx 0 + GD.batchCoord j 0 + GD.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx j ⟨List.idxOf (0 : Fin 2) GD.startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show GD.start j idx 1 + GD.batchCoord j 1 + GD.offCoord j 1 = (j 1).val
    rw [GatherDims.batchCoord_eq_zero _ _ _ List.not_mem_nil]
    unfold GatherDims.start
    rw [dif_neg (show (1 : Fin 2) ∉ GD.startIndexMap from by decide)]
    simp only [Nat.add_zero, Nat.zero_add]
    rfl

/-! ## `take` where every index word is a row number -/

/-- What the three signed comparisons of `take` say of a word below 1000000: it is not negative, it is at least 0
    and at most 999999. -/
theorem cmp_facts (w : BitVec 32) (h : w.toNat < 1000000) :
    IntOp.cmpi .slt w 0#32 = 0#1 ∧ IntOp.cmpi .sge w 0#32 = 1#1 ∧ IntOp.cmpi .sle w 999999#32 = 1#1 := by
  have hi : w.toInt = w.toNat := BitVec.toInt_eq_toNat_of_lt (by omega)
  have e0 : (0#32 : BitVec 32).toInt = 0 := by decide
  have e1 : (999999#32 : BitVec 32).toInt = 999999 := by decide
  refine ⟨eq_zero_of_ne_one fun hc => ?_, IntOp.cmpi_sge.2 ?_, IntOp.cmpi_sle.2 ?_⟩
  · have := IntOp.cmpi_slt.1 hc
    rw [e0, hi] at this; omega
  · rw [e0, hi]; omega
  · rw [e1, hi]; omega

variable (idx : IVec S16384 32) (hidx : ∀ k, (idx k).toNat < 1000000)
include hidx

/-- No index is negative, so none is moved. -/
theorem wrapIdx_eq : wrapIdx idx = idx := by
  funext k
  show Scalar.select (IntOp.cmpi .slt (idx k) 0#32) (IntOp.addi (idx k) 1000000#32) (idx k) = idx k
  rw [(cmp_facts _ (hidx k)).1]
  exact select_zero _ _

theorem colIdx_lt (i : S16384x1.Idx) : (colIdx idx i).toNat < 1000000 := by
  unfold colIdx
  rw [wrapIdx_eq idx hidx]
  exact hidx _

/-- Every index names a row. -/
theorem inRows_eq (r : S16384.Idx) : inRows idx r = 1#1 := by
  unfold inRows
  refine reduce_andi_ones _ _ _ _ (fun i => ?_) (fun _ => rfl) r
  show IntOp.andi (IntOp.cmpi .sge (colIdx idx i) 0#32) (IntOp.cmpi .sle (colIdx idx i) 999999#32) = 1#1
  rw [(cmp_facts _ (colIdx_lt idx hidx i)).2.1, (cmp_facts _ (colIdx_lt idx hidx i)).2.2]
  decide

/-- The start index at (b, 0) is the index word of position b. -/
theorem colIdx_apply (b : Fin 16384) : colIdx idx (ix2 b (0 : Fin 1)) = idx (ix1 b) := by
  unfold colIdx
  rw [wrapIdx_eq idx hidx]
  exact broadcastInDim_apply _ _ idx _ (ix1 b) (fun a => by match a with | ⟨0, _⟩ => rfl)

/-- `take` read at (b, f): the table at row `idx b`, column f. -/
theorem take_apply {F : FTy → Type} [FloatOps F] (a : FVec F S1000000x32 .f32) (j : S16384x32.Idx) :
    take a idx j = a (ix2 ⟨(idx (ix1 (j 0))).toNat, hidx _⟩ (j 1)) := by
  unfold take
  rw [select_apply]
  have hm : broadcastInDim S16384x32 ![0] bcast_S16384_S16384x32_0 (inRows idx) j = 1#1 := inRows_eq idx hidx _
  rw [hm, select_one, gather_row_apply]
  have hc : colIdx idx (ix2 (j 0) (0 : Fin 1)) = idx (ix1 (j 0)) := colIdx_apply idx hidx (j 0)
  have hi : (idx (ix1 (j 0))).toInt = ((idx (ix1 (j 0))).toNat : Int) :=
    BitVec.toInt_eq_toNat_of_lt (by have := hidx (ix1 (j 0)); omega)
  have hmin : min (colIdx idx (ix2 (j 0) (0 : Fin 1))).toInt.toNat (1000000 - 1) = (idx (ix1 (j 0))).toNat := by
    rw [hc, hi, Int.toNat_natCast]; have := hidx (ix1 (j 0)); omega
  exact congrArg a (congrArg (fun r : Fin 1000000 => ix2 r (j 1)) (Fin.ext hmin))

end Cert.Proof.Ref

end
-- ==== Proof.RefOps.lean ====
/-
  The reference program as a list of host operations: `jnp.take` twice (each 23 operations, the `where` it
  calls inlined) and one multiplication, 47 in all, and that @main is the sequence of them.
-/
import proofs.«219339_g11596411699725_week1_w4_1023_23_alg».proof.ReferenceIdeal
import proofs.«219339_g11596411699725_week1_w4_1023_23_alg».proof.Proof.Gen.ReferenceIdeal
import Idealize.ShloMosaic.Lib.StableHlo.Run

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- @main's 47 operations in order, the two calls unfolded over their buffer records. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S1000000x32_S16384x1_S16384x32_1_0_n_n_0_1_132 x i),
    TRef.unary main_call1.v12 main_call1.v14 (broadcastInDim S16384x32 ![0] bcast_S16384_S16384x32_0),
    TRef.nullary main_call1.cst (constant S_ .f32 0x7FC00000#32),
    TRef.unary main_call1.cst main_call1.v15 (broadcastInDim S16384x32 ![] bcast_S_S16384x32),
    TRef.ternary main_call1.v14 main_call1.v13 main_call1.v15 main_call1.v16 select,
    binary main_v0 main_v1 main_v2 (mulf : (⟨S16384x32, .f32⟩ : BufTy).Contents (Elt F) → (⟨S16384x32, .f32⟩ : BufTy).Contents (Elt F) → (⟨S16384x32, .f32⟩ : BufTy).Contents (Elt F)) ]

set_option maxRecDepth 2048 in
/-- @main is that straight line: the functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub ..⟩

end Cert.Proof.Ref

end
-- ==== Proof.RefRun.lean ====
/-
  The reference program's run. Every weakly fair execution of a sequence of host operations ends with each buffer at
  the fold of the operations over the launch contents (the library's `run_seq`); that fold at the result buffer is
  the product of the two `take`s (each operation's result read at the buffer it writes, the other buffers passed
  over), and the four arguments' buffers are written by no operation.
-/
import proofs.«219339_g11596411699725_week1_w4_1023_23_alg».proof.Proof.RefTake
import proofs.«219339_g11596411699725_week1_w4_1023_23_alg».proof.Proof.RefOps

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## What the fold leaves in the result and in the arguments -/

attribute [local irreducible] Host.reduce Host.gather in
set_option maxRecDepth 8192 in
set_option maxHeartbeats 1600000 in
/-- The fold at the result buffer is the product of the two `take`s, by computation: each operation's result at
    a buffer is its function's value at the buffer it writes and what was there elsewhere. The reduction and the
    gather are kept folded meanwhile (the equation never looks inside them). -/
theorem out_eq (V : Valuation τ sig (Elt F)) :
    after ops V (main_v2 : DevRef τ sig)
      = mulf (take (V (main_arg2 : DevRef τ sig)) (V (main_arg0 : DevRef τ sig)))
          (take (V (main_arg3 : DevRef τ sig)) (V (main_arg1 : DevRef τ sig))) := by
  after_results_simp
  rfl

set_option maxRecDepth 8192 in
theorem arg0_eq (V : Valuation τ sig (Elt F)) : after ops V (main_arg0 : DevRef τ sig) = V (main_arg0 : DevRef τ sig) := by
  simp only [after_cons, after_nil]
  rfl

set_option maxRecDepth 8192 in
theorem arg1_eq (V : Valuation τ sig (Elt F)) : after ops V (main_arg1 : DevRef τ sig) = V (main_arg1 : DevRef τ sig) := by
  simp only [after_cons, after_nil]
  rfl

set_option maxRecDepth 8192 in
theorem arg2_eq (V : Valuation τ sig (Elt F)) : after ops V (main_arg2 : DevRef τ sig) = V (main_arg2 : DevRef τ sig) := by
  simp only [after_cons, after_nil]
  rfl

set_option maxRecDepth 8192 in
theorem arg3_eq (V : Valuation τ sig (Elt F)) : after ops V (main_arg3 : DevRef τ sig) = V (main_arg3 : DevRef τ sig) := by
  simp only [after_cons, after_nil]
  rfl

/-! ## The run -/

/-- From any memory with zero counters every weakly fair execution of @main terminates, with the result buffer at
    the product of the two `take`s of the launch contents and the four arguments unchanged. -/
theorem run_take (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = mulf (take (m ((c.tc : Thread nD τ).loc main_arg2)) (m ((c.tc : Thread nD τ).loc main_arg0)))
              (take (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.Proof.Ref

end
-- ==== Proof.RefValue.lean ====
/-
  The result both programs compute, as ONE function of the four argument arrays, and the kernel side's
  reading of it.

  Entry (b, f) of the result is `user_table[user b, f] · item_table[item b, f]`, a product of extended reals.
  The row number is taken modulo the number of rows, 1000000, so that the function is total; where every index
  word is a row number (which the precondition gives) the reduction is the identity.

  The kernel reads the tables through their reshape to [125000, 8, 32]: row `w` of a table is row `w % 8` of
  block `w / 8`, because both have the row-major position `32·w + f`.

  First, what the precondition says of the index words: it is a conjunction of four `all`s, two over the tables'
  entries (finite) and two over the index arrays (`0 ≤ w` and `w ≤ 999999`, compared signed); the last two say
  that every index word, read unsigned, is below 1000000.
-/
import proofs.«219339_g11596411699725_week1_w4_1023_23_alg».proof.ReferenceIdeal
import proofs.«219339_g11596411699725_week1_w4_1023_23_alg».proof.Pre_input_domain
import proofs.«219339_g11596411699725_week1_w4_1023_23_alg».proof.Proof.IfaceKI
import Idealize.ShloMosaic.PureOps.Ideal
import Idealize.ShloMosaic.Lib.ValueIdx
import Idealize.ShloMosaic.Lib.Pipeline.Value
import Idealize.ShloMosaic.Lib.ReduceAll

noncomputable section

namespace Cert.Proof.Ref

open Idealize.ShloMosaic Idealize.ShloMosaic.ValueIdx
open Cert.ReferenceIdeal (S16384 S1000000x32 S16384x32)

/-! ## The precondition's integer conjuncts -/

instance subsingleton_scalar_idx : Subsingleton Cert.Pre_input_domain.S_.Idx := ⟨fun a b => funext fun d => d.elim0⟩

/-- A 32-bit word that reads, signed, between 0 and 999999 is below 1000000 read unsigned. -/
theorem toNat_lt_of_signed_range (w : BitVec 32) (h0 : (0#32 : BitVec 32).toInt ≤ w.toInt)
    (h1 : w.toInt ≤ (999999#32 : BitVec 32).toInt) : w.toNat < 1000000 := by
  have e0 : (0#32 : BitVec 32).toInt = 0 := by decide
  have e1 : (999999#32 : BitVec 32).toInt = 999999 := by decide
  rw [e0] at h0; rw [e1] at h1
  have := BitVec.toInt_eq_toNat_cond w
  split at this <;> omega

/-- The precondition read back: the outer conjunction is split down to the two reductions by `and` over the
    index arrays, each reduction being 1 makes its operand 1 at every position, and there the operand is the
    conjunction of the two signed comparisons. -/
theorem pre_decode {F : FTy → Type} [FloatOps F] [Cert.Pre_input_domain.Facts]
    (u i : IVec Cert.Pre_input_domain.S16384 32) (a2 a3 : FVec F Cert.Pre_input_domain.S1000000x32 .f32) :
    Cert.Pre_input_domain.fn (F := F) u i a2 a3 = (fun _ => 1#1) → ∀ j, (u j).toNat < 1000000 ∧ (i j).toNat < 1000000 := by
  intro h j
  have h0 := congrFun h ix0
  dsimp only [Cert.Pre_input_domain.fn, Cert.Pre_input_domain.fn_part1] at h0
  obtain ⟨h15, h21⟩ := IntOp.andi_eq_one.1 h0
  obtain ⟨-, h14⟩ := IntOp.andi_eq_one.1 h15
  have hu := Host.reduce_andi_all _ _ _ _ _ h14 j
  have hi := Host.reduce_andi_all _ _ _ _ _ h21 j
  obtain ⟨hu1, hu2⟩ := IntOp.andi_eq_one.1 hu
  obtain ⟨hi1, hi2⟩ := IntOp.andi_eq_one.1 hi
  exact ⟨toNat_lt_of_signed_range _ (IntOp.cmpi_sge.1 hu1) (IntOp.cmpi_sle.1 hu2),
    toNat_lt_of_signed_range _ (IntOp.cmpi_sge.1 hi1) (IntOp.cmpi_sle.1 hi2)⟩

/-! ## The result function -/

/-- The row of a 1000000-row table that an index word names (reduced modulo the number of rows, so that it is
    always a row). -/
def rowIx (w : BitVec 32) : Fin 1000000 := ⟨w.toNat % 1000000, Nat.mod_lt _ (by decide)⟩

theorem rowIx_val_of_lt {w : BitVec 32} (h : w.toNat < 1000000) : (rowIx w).val = w.toNat :=
  Nat.mod_eq_of_lt h

/-- The result: at batch position `b` and feature `f`, the product of the user table's entry at row `user b`
    and the item table's at row `item b`. -/
def Gref (u i : IVec S16384 32) (a2 a3 : FVec Ideal S1000000x32 .f32) : FVec Ideal S16384x32 .f32 :=
  fun j => a2 (ix2 (rowIx (u (ix1 (j 0)))) (j 1)) * a3 (ix2 (rowIx (i (ix1 (j 0)))) (j 1))

/-! ## The kernel side reads the same function -/

/-- A table read through its reshape to [125000, 8, 32] at block `w / 8`, row `w % 8` is the table at row `w`:
    the two indices have the same row-major position. -/
theorem rows_reshaped {α : Type} (t : S1000000x32.Idx → α)
    (h : S1000000x32.ShapeCasts Cert.KernelIdeal.S125000x8x32) (w : BitVec 32) (hw : w.toNat < 1000000) (f : Fin 32) :
    shapeCast Cert.KernelIdeal.S125000x8x32 t h (ix3 (KI.blkOf w) (KI.subOf w) f) = t (ix2 (rowIx w) f) := by
  refine shapeCast_apply t h _ _ ?_
  rw [Shape.rowMajor_val_two, Shape.rowMajor_val_three]
  show (w.toNat % 1000000) * 32 + f.val = ((w.toNat / 8 % 125000) * 8 + w.toNat % 8) * 32 + f.val
  omega

/-- The kernel side's result function is `Gref` of the arguments, wherever every index word is a row number. -/
theorem G_eq_Gref (m : (ℓ : Loc Cert.KernelIdeal.nD Cert.KernelIdeal.τ Cert.KernelIdeal.sig) → Buf (Elt Ideal) ℓ)
    (d : Dev Cert.KernelIdeal.nD) (hpre : KI.PreOK (F := Ideal) m) :
    KI.G (F := Ideal) m d = Gref (m (KI.uLoc d)) (m (KI.iLoc d)) (m (KI.a2Loc d)) (m (KI.a3Loc d)) := by
  funext j
  exact congrArg₂ (fun a b : EReal => a * b)
    (rows_reshaped (α := EReal) (m (KI.a2Loc d)) Cert.KernelIdeal.Gen.shapeCasts_S1000000x32_S125000x8x32
      (m (KI.uLoc d) (ix1 (j 0))) (hpre d (ix1 (j 0))).1 (j 1))
    (rows_reshaped (α := EReal) (m (KI.a3Loc d)) Cert.KernelIdeal.Gen.shapeCasts_S1000000x32_S125000x8x32
      (m (KI.iLoc d) (ix1 (j 0))) (hpre d (ix1 (j 0))).2 (j 1))

end Cert.Proof.Ref

end
-- ==== Proof.RefSide.lean ====
/-
  The reference side of the certificate: the reference program's run with its result named by `Gref`.

  Under the range hypothesis on the two index arrays each `take` of the program reads row `idx b` of its table
  (`take_apply`), and `rowIx` is the identity on such words, so the product of the two `take`s is `Gref`,
  entry by entry.
-/
import proofs.«219339_g11596411699725_week1_w4_1023_23_alg».proof.Proof.RefRun
import proofs.«219339_g11596411699725_week1_w4_1023_23_alg».proof.Proof.RefValue

noncomputable section

namespace Cert.Proof.Ref

open Cert.ReferenceIdeal Cert.ReferenceIdeal.Gen
open Idealize.ShloMosaic Idealize.ShloMosaic.TcCoe Idealize.SL.Sem Idealize.ShloMosaic.StableHlo Idealize.ShloMosaic.ValueIdx

/-- One `take` at (b, f), with the row named as `Gref` names it. -/
theorem take_eq_row (idx : IVec S16384 32) (hidx : ∀ k, (idx k).toNat < 1000000) (a : FVec Ideal S1000000x32 .f32)
    (j : S16384x32.Idx) : take a idx j = a (ix2 (rowIx (idx (ix1 (j 0)))) (j 1)) :=
  (take_apply idx hidx a j).trans
    (congrArg a (congrArg (fun r : Fin 1000000 => ix2 r (j 1)) (Fin.ext (rowIx_val_of_lt (hidx _)).symm)))

/-- The program's result term is `Gref` of the arguments. -/
theorem mul_take_eq_Gref (u i : IVec S16384 32) (hu : ∀ k, (u k).toNat < 1000000) (hi : ∀ k, (i k).toNat < 1000000)
    (a2 a3 : FVec Ideal S1000000x32 .f32) : mulf (take a2 u) (take a3 i) = Gref u i a2 a3 := by
  funext j
  exact congrArg₂ (fun x y : EReal => x * y) (take_eq_row u hu a2 j) (take_eq_row i hi a3 j)

/-- THE REFERENCE'S RUN. From any memory whose two index arrays hold row numbers, with zero counters: every weakly
    fair execution of @main terminates, the result buffer ends at `Gref` of the launch contents of the four
    arguments, and the four arguments end unchanged. -/
theorem run_ref (m' : (ℓ : Loc nD τ sig) → Buf (Elt Ideal) ℓ) (ρ' : Dev nD → PrngReg)
    (hr : ∀ (c : Dev nD) (j : S16384.Idx), (m' ((c.tc : Thread nD τ).loc main_arg0) j).toNat < 1000000
      ∧ (m' ((c.tc : Thread nD τ).loc main_arg1) j).toNat < 1000000) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v2)
            = Gref (m' ((c.tc : Thread nD τ).loc main_arg0)) (m' ((c.tc : Thread nD τ).loc main_arg1))
                (m' ((c.tc : Thread nD τ).loc main_arg2)) (m' ((c.tc : Thread nD τ).loc main_arg3))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) :=
  (θ_run (Cert.ReferenceIdeal.defs (F := Ideal)) _ _).mono
    (fun _ h c => ⟨(h c).1.trans (mul_take_eq_Gref _ _ (fun k => (hr c k).1) (fun k => (hr c k).2) _ _), (h c).2⟩)
    (run_take (F := Ideal) m' ρ')

end Cert.Proof.Ref

end
-- ==== Proof.lean ====
/-
  The certificate's five claims, assembled.

  The kernel: on each of 32 vector subcores, 512 batch positions; per position the 8-row block idx / 8 of each table
  (the tables reshaped to [125000, 8, 32]) is copied in, row idx % 8 of each picked, the two rows multiplied entry by
  entry and the product row written out. The reference: take(user_table, user) · take(item_table, item). Under the
  precondition (every index word a row number, 0 ≤ idx ≤ 999999) both results are, at every (b, f),
  user_table[user b, f] · item_table[item b, f]: the reshape sends row w to (w / 8, w % 8), and a take in range reads
  the row itself.

  Each frame is the program's run with its result dropped; the word-level kernel and its idealization are one text read at
  two float instances, and are proved by one text over a variable instance. The ideal pass rewrote nothing, so the
  preservation claim is the trivial proposition. The algebraic claim joins the kernel's run (result at G, the entrywise
  product of the named rows of the reshaped tables) and the reference's run (result at Gref) by G = Gref.
-/
import proofs.«219339_g11596411699725_week1_w4_1023_23_alg».proof.Defs
import proofs.«219339_g11596411699725_week1_w4_1023_23_alg».proof.Proof.Gen.Kernel
import proofs.«219339_g11596411699725_week1_w4_1023_23_alg».proof.Proof.Gen.Kernel.Skeleton
import proofs.«219339_g11596411699725_week1_w4_1023_23_alg».proof.Proof.Gen.KernelIdeal
import proofs.«219339_g11596411699725_week1_w4_1023_23_alg».proof.Proof.Gen.KernelIdeal.Skeleton
import proofs.«219339_g11596411699725_week1_w4_1023_23_alg».proof.Proof.Gen.ReferenceIdeal
import proofs.«219339_g11596411699725_week1_w4_1023_23_alg».proof.Proof.Gen.Pre_input_domain
import proofs.«219339_g11596411699725_week1_w4_1023_23_alg».proof.Proof.LaunchKI
import proofs.«219339_g11596411699725_week1_w4_1023_23_alg».proof.Proof.LaunchK
import proofs.«219339_g11596411699725_week1_w4_1023_23_alg».proof.Proof.BodyKI2
import proofs.«219339_g11596411699725_week1_w4_1023_23_alg».proof.Proof.BodyK2
import proofs.«219339_g11596411699725_week1_w4_1023_23_alg».proof.Proof.RefSide
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

/-- The precondition, decoded, is what the kernel-side proof asks of the launch memory (word-level instance). -/
theorem preOK_K (m : (ℓ : Loc Cert.Kernel.nD Cert.Kernel.τ Cert.Kernel.sig) → Buf (Elt Bits) ℓ) (h : Cert.Pre_Kernel m) :
    Cert.Proof.K.PreOK (F := Bits) m := fun d j => Cert.Proof.Ref.pre_decode _ _ _ _ (h d) j

/-- The same at the ideal instance. -/
theorem preOK_KI (m : (ℓ : Loc Cert.KernelIdeal.nD Cert.KernelIdeal.τ Cert.KernelIdeal.sig) → Buf (Elt Ideal) ℓ) (h : Cert.Pre_KernelIdeal m) :
    Cert.Proof.KI.PreOK (F := Ideal) m := fun d j => Cert.Proof.Ref.pre_decode _ _ _ _ (h d) j

theorem frame_K : Cert.frame_Kernel := fun m g hpre =>
  (θ_run Cert.Kernel.defs _ _).mono (fun _ h c => (h c).2)
    (Cert.Proof.K.run_main (F := Bits) m g (preOK_K m hpre) (Cert.Proof.K.tileSpec m Cert.Proof.K.facts (preOK_K m hpre)))

theorem frame_KI : Cert.frame_KernelIdeal := fun m g hpre =>
  (θ_run Cert.KernelIdeal.defs _ _).mono (fun _ h c => (h c).2)
    (Cert.Proof.KI.run_main (F := Ideal) m g (preOK_KI m hpre) (Cert.Proof.KI.tileSpec m Cert.Proof.KI.facts (preOK_KI m hpre)))

theorem frame_R : Cert.frame_ReferenceIdeal := fun m g hpre =>
  (θ_run Cert.ReferenceIdeal.defs _ _).mono (fun _ h c => (h c).2)
    (Cert.Proof.Ref.run_ref m g (fun c j => Cert.Proof.Ref.pre_decode _ _ _ _ (hpre c) j))

theorem algebraic : Cert.algebraic_KernelIdeal_ReferenceIdeal := by
  intro m g m' g' hpre hagree
  have hok := preOK_KI m hpre
  refine ⟨fun c => Cert.Proof.KI.G (F := Ideal) m c,
    Cert.Proof.KI.run_main (F := Ideal) m g hok (Cert.Proof.KI.tileSpec m Cert.Proof.KI.facts hok), ?_⟩
  refine (θ_run Cert.ReferenceIdeal.defs _ _).mono (fun _ h c => ⟨(h c).1.trans ?_, (h c).2⟩)
    (Cert.Proof.Ref.run_ref m' g' (fun c j => by
      have := hok c j
      rw [(hagree c).1, (hagree c).2.1]; exact this))
  rw [(hagree c).1, (hagree c).2.1, (hagree c).2.2.1, (hagree c).2.2.2]
  exact (Cert.Proof.Ref.G_eq_Gref m c hok).symm

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
